-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x64x3 : Shape := ⟨3, ![50000, 64, 3]⟩
abbrev S2x800000 : Shape := ⟨2, ![2, 800000]⟩
abbrev S800000x64 : Shape := ⟨2, ![800000, 64]⟩
abbrev S800000x3 : Shape := ⟨2, ![800000, 3]⟩
abbrev S800000 : Shape := ⟨1, ![800000]⟩
abbrev S800000x16 : Shape := ⟨2, ![800000, 16]⟩
abbrev S144x64 : Shape := ⟨2, ![144, 64]⟩
abbrev S64 : Shape := ⟨1, ![64]⟩
abbrev S64x64 : Shape := ⟨2, ![64, 64]⟩
abbrev S256x64 : Shape := ⟨2, ![256, 64]⟩
abbrev S64x128 : Shape := ⟨2, ![64, 128]⟩
abbrev S128 : Shape := ⟨1, ![128]⟩
abbrev S192x64 : Shape := ⟨2, ![192, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x64x3 : S_.BroadcastsInDim S50000x64x3 (![] : Fin 0 → Fin S50000x64x3.rank)
  reducesTo_S50000x64x3_S_d0_1_2 : S50000x64x3.ReducesTo [0, 1, 2] S_
  bcast_S_S800000x64 : S_.BroadcastsInDim S800000x64 (![] : Fin 0 → Fin S800000x64.rank)
  reducesTo_S800000x64_S_d0_1 : S800000x64.ReducesTo [0, 1] S_
  bcast_S_S800000x3 : S_.BroadcastsInDim S800000x3 (![] : Fin 0 → Fin S800000x3.rank)
  reducesTo_S800000x3_S_d0_1 : S800000x3.ReducesTo [0, 1] S_
  bcast_S_S800000x16 : S_.BroadcastsInDim S800000x16 (![] : Fin 0 → Fin S800000x16.rank)
  reducesTo_S800000x16_S_d0_1 : S800000x16.ReducesTo [0, 1] S_
  bcast_S_S144x64 : S_.BroadcastsInDim S144x64 (![] : Fin 0 → Fin S144x64.rank)
  reducesTo_S144x64_S_d0_1 : S144x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S256x64 : S_.BroadcastsInDim S256x64 (![] : Fin 0 → Fin S256x64.rank)
  reducesTo_S256x64_S_d0_1 : S256x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S192x64 : S_.BroadcastsInDim S192x64 (![] : Fin 0 → Fin S192x64.rank)
  reducesTo_S192x64_S_d0_1 : S192x64.ReducesTo [0, 1] S_
  bcast_S_S2x800000 : S_.BroadcastsInDim S2x800000 (![] : Fin 0 → Fin S2x800000.rank)
  reducesTo_S2x800000_S_d0_1 : S2x800000.ReducesTo [0, 1] S_
  bcast_S_S800000 : S_.BroadcastsInDim S800000 (![] : Fin 0 → Fin S800000.rank)
  reducesTo_S800000_S_d0 : S800000.ReducesTo [0] S_

variable [Facts]

def fn_part8 {F : FTy → Type} [FloatOps F] (main_arg6 : IVec S800000 32) (main_v133 : IVec S_ 1) (main_v134 : IVec S800000 32) : IVec S_ 1 :=
  let main_v135 : IVec S800000 1 := cmpi .slt main_arg6 main_v134
  let main_c_55 : IVec S_ 1 := constantI S_ 1 1#1
  let main_v136 : IVec S_ 1 := (fun x v => Host.reduce IntOp.andi x v reducesTo_S800000_S_d0 h_S_) main_v135 main_c_55
  let main_v137 : IVec S_ 1 := andi main_v133 main_v136
  main_v137

def fn_part7 {F : FTy → Type} [FloatOps F] (main_arg2 : IVec S2x800000 32) (main_arg5 : IVec S800000 32) (main_arg6 : IVec S800000 32) (main_v117 : IVec S_ 1) (main_v118 : IVec S2x800000 32) : IVec S_ 1 :=
  let main_v119 : IVec S2x800000 1 := cmpi .slt main_arg2 main_v118
  let main_c_47 : IVec S_ 1 := constantI S_ 1 1#1
  let main_v120 : IVec S_ 1 := (fun x v => Host.reduce IntOp.andi x v reducesTo_S2x800000_S_d0_1 h_S_) main_v119 main_c_47
  let main_v121 : IVec S_ 1 := andi main_v117 main_v120
  let main_c_48 : IVec S_ 32 := constantI S_ 32 0#32
  let main_v122 : IVec S800000 32 := broadcastInDim S800000 ![] bcast_S_S800000 main_c_48
  let main_v123 : IVec S800000 1 := cmpi .sge main_arg5 main_v122
  let main_c_49 : IVec S_ 1 := constantI S_ 1 1#1
  let main_v124 : IVec S_ 1 := (fun x v => Host.reduce IntOp.andi x v reducesTo_S800000_S_d0 h_S_) main_v123 main_c_49
  let main_v125 : IVec S_ 1 := andi main_v121 main_v124
  let main_c_50 : IVec S_ 32 := constantI S_ 32 800000#32
  let main_v126 : IVec S800000 32 := broadcastInDim S800000 ![] bcast_S_S800000 main_c_50
  let main_v127 : IVec S800000 1 := cmpi .slt main_arg5 main_v126
  let main_c_51 : IVec S_ 1 := constantI S_ 1 1#1
  let main_v128 : IVec S_ 1 := (fun x v => Host.reduce IntOp.andi x v reducesTo_S800000_S_d0 h_S_) main_v127 main_c_51
  let main_v129 : IVec S_ 1 := andi main_v125 main_v128
  let main_c_52 : IVec S_ 32 := constantI S_ 32 0#32
  let main_v130 : IVec S800000 32 := broadcastInDim S800000 ![] bcast_S_S800000 main_c_52
  let main_v131 : IVec S800000 1 := cmpi .sge main_arg6 main_v130
  let main_c_53 : IVec S_ 1 := constantI S_ 1 1#1
  let main_v132 : IVec S_ 1 := (fun x v => Host.reduce IntOp.andi x v reducesTo_S800000_S_d0 h_S_) main_v131 main_c_53
  let main_v133 : IVec S_ 1 := andi main_v129 main_v132
  let main_c_54 : IVec S_ 32 := constantI S_ 32 800000#32
  let main_v134 : IVec S800000 32 := broadcastInDim S800000 ![] bcast_S_S800000 main_c_54
  fn_part8 (F := F) main_arg6 main_v133 main_v134

def fn_part6 {F : FTy → Type} [FloatOps F] (main_arg2 : IVec S2x800000 32) (main_arg5 : IVec S800000 32) (main_arg6 : IVec S800000 32) (main_arg24 : FVec F S64 .f32) (main_arg25 : FVec F S64 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg24
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64 .f32 := Host.absf main_arg25
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_c_44 : IVec S_ 32 := constantI S_ 32 0#32
  let main_v114 : IVec S2x800000 32 := broadcastInDim S2x800000 ![] bcast_S_S2x800000 main_c_44
  let main_v115 : IVec S2x800000 1 := cmpi .sge main_arg2 main_v114
  let main_c_45 : IVec S_ 1 := constantI S_ 1 1#1
  let main_v116 : IVec S_ 1 := (fun x v => Host.reduce IntOp.andi x v reducesTo_S2x800000_S_d0_1 h_S_) main_v115 main_c_45
  let main_v117 : IVec S_ 1 := andi main_v113 main_v116
  let main_c_46 : IVec S_ 32 := constantI S_ 32 50000#32
  let main_v118 : IVec S2x800000 32 := broadcastInDim S2x800000 ![] bcast_S_S2x800000 main_c_46
  fn_part7 (F := F) main_arg2 main_arg5 main_arg6 main_v117 main_v118

def fn_part5 {F : FTy → Type} [FloatOps F] (main_arg2 : IVec S2x800000 32) (main_arg5 : IVec S800000 32) (main_arg6 : IVec S800000 32) (main_arg21 : FVec F S64 .f32) (main_arg22 : FVec F S64x64 .f32) (main_arg23 : FVec F S64 .f32) (main_arg24 : FVec F S64 .f32) (main_arg25 : FVec F S64 .f32) (main_v83 : IVec S_ 1) (main_v84 : FVec F S192x64 .f32) (main_cst_32 : FVec F S_ .f32) : IVec S_ 1 :=
  let main_v85 : FVec F S192x64 .f32 := broadcastInDim S192x64 ![] bcast_S_S192x64 main_cst_32
  let main_v86 : IVec S192x64 1 := cmpf .olt main_v84 main_v85
  let main_c_33 : IVec S_ 1 := constantI S_ 1 1#1
  let main_v87 : IVec S_ 1 := (fun x v => Host.reduce IntOp.andi x v reducesTo_S192x64_S_d0_1 h_S_) main_v86 main_c_33
  let main_v88 : IVec S_ 1 := andi main_v83 main_v87
  let main_v89 : FVec F S64 .f32 := Host.absf main_arg21
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x64 .f32 := Host.absf main_arg22
  let main_cst_36 : FVec F S_ .f32 := constant S_ .f32 0x7F800000#32
  let main_v95 : FVec F S64x64 .f32 := broadcastInDim S64x64 ![] bcast_S_S64x64 main_cst_36
  let main_v96 : IVec S64x64 1 := cmpf .olt main_v94 main_v95
  let main_c_37 : IVec S_ 1 := constantI S_ 1 1#1
  let main_v97 : IVec S_ 1 := (fun x v => Host.reduce IntOp.andi x v reducesTo_S64x64_S_d0_1 h_S_) main_v96 main_c_37
  let main_v98 : IVec S_ 1 := andi main_v93 main_v97
  let main_v99 : FVec F S64 .f32 := Host.absf main_arg23
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg2 main_arg5 main_arg6 main_arg24 main_arg25 main_v98 main_v101 main_c_39

def fn_part4 {F : FTy → Type} [FloatOps F] (main_arg2 : IVec S2x800000 32) (main_arg5 : IVec S800000 32) (main_arg6 : IVec S800000 32) (main_arg17 : FVec F S64 .f32) (main_arg18 : FVec F S64x64 .f32) (main_arg19 : FVec F S64 .f32) (main_arg20 : FVec F S192x64 .f32) (main_arg21 : FVec F S64 .f32) (main_arg22 : FVec F S64x64 .f32) (main_arg23 : FVec F S64 .f32) (main_arg24 : FVec F S64 .f32) (main_arg25 : FVec F S64 .f32) (main_v63 : IVec S_ 1) (main_v67 : IVec S_ 1) : IVec S_ 1 :=
  let main_v68 : IVec S_ 1 := andi main_v63 main_v67
  let main_v69 : FVec F S64 .f32 := Host.absf main_arg17
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg18
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg19
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S192x64 .f32 := Host.absf main_arg20
  let main_cst_32 : FVec F S_ .f32 := constant S_ .f32 0x7F800000#32
  fn_part5 (F := F) main_arg2 main_arg5 main_arg6 main_arg21 main_arg22 main_arg23 main_arg24 main_arg25 main_v83 main_v84 main_cst_32

def fn_part3 {F : FTy → Type} [FloatOps F] (main_arg2 : IVec S2x800000 32) (main_arg5 : IVec S800000 32) (main_arg6 : IVec S800000 32) (main_arg14 : FVec F S64x128 .f32) (main_arg15 : FVec F S128 .f32) (main_arg16 : FVec F S192x64 .f32) (main_arg17 : FVec F S64 .f32) (main_arg18 : FVec F S64x64 .f32) (main_arg19 : FVec F S64 .f32) (main_arg20 : FVec F S192x64 .f32) (main_arg21 : FVec F S64 .f32) (main_arg22 : FVec F S64x64 .f32) (main_arg23 : FVec F S64 .f32) (main_arg24 : FVec F S64 .f32) (main_arg25 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg14
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S192x64 .f32 := Host.absf main_arg16
  let main_cst_24 : FVec F S_ .f32 := constant S_ .f32 0x7F800000#32
  let main_v65 : FVec F S192x64 .f32 := broadcastInDim S192x64 ![] bcast_S_S192x64 main_cst_24
  let main_v66 : IVec S192x64 1 := cmpf .olt main_v64 main_v65
  let main_c_25 : IVec S_ 1 := constantI S_ 1 1#1
  let main_v67 : IVec S_ 1 := (fun x v => Host.reduce IntOp.andi x v reducesTo_S192x64_S_d0_1 h_S_) main_v66 main_c_25
  fn_part4 (F := F) main_arg2 main_arg5 main_arg6 main_arg17 main_arg18 main_arg19 main_arg20 main_arg21 main_arg22 main_arg23 main_arg24 main_arg25 main_v63 main_v67

def fn_part2 {F : FTy → Type} [FloatOps F] (main_arg2 : IVec S2x800000 32) (main_arg5 : IVec S800000 32) (main_arg6 : IVec S800000 32) (main_arg10 : FVec F S64x64 .f32) (main_arg11 : FVec F S64 .f32) (main_arg12 : FVec F S256x64 .f32) (main_arg13 : FVec F S64 .f32) (main_arg14 : FVec F S64x128 .f32) (main_arg15 : FVec F S128 .f32) (main_arg16 : FVec F S192x64 .f32) (main_arg17 : FVec F S64 .f32) (main_arg18 : FVec F S64x64 .f32) (main_arg19 : FVec F S64 .f32) (main_arg20 : FVec F S192x64 .f32) (main_arg21 : FVec F S64 .f32) (main_arg22 : FVec F S64x64 .f32) (main_arg23 : FVec F S64 .f32) (main_arg24 : FVec F S64 .f32) (main_arg25 : FVec F S64 .f32) (main_v33 : IVec S_ 1) : IVec S_ 1 :=
  let main_v34 : FVec F S64x64 .f32 := Host.absf main_arg10
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S256x64 .f32 := Host.absf main_arg12
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg2 main_arg5 main_arg6 main_arg14 main_arg15 main_arg16 main_arg17 main_arg18 main_arg19 main_arg20 main_arg21 main_arg22 main_arg23 main_arg24 main_arg25 main_v48 main_v49 main_v50

def fn_part1 {F : FTy → Type} [FloatOps F] (main_arg2 : IVec S2x800000 32) (main_arg5 : IVec S800000 32) (main_arg6 : IVec S800000 32) (main_arg7 : FVec F S800000x16 .f32) (main_arg8 : FVec F S144x64 .f32) (main_arg9 : FVec F S64 .f32) (main_arg10 : FVec F S64x64 .f32) (main_arg11 : FVec F S64 .f32) (main_arg12 : FVec F S256x64 .f32) (main_arg13 : FVec F S64 .f32) (main_arg14 : FVec F S64x128 .f32) (main_arg15 : FVec F S128 .f32) (main_arg16 : FVec F S192x64 .f32) (main_arg17 : FVec F S64 .f32) (main_arg18 : FVec F S64x64 .f32) (main_arg19 : FVec F S64 .f32) (main_arg20 : FVec F S192x64 .f32) (main_arg21 : FVec F S64 .f32) (main_arg22 : FVec F S64x64 .f32) (main_arg23 : FVec F S64 .f32) (main_arg24 : FVec F S64 .f32) (main_arg25 : FVec F S64 .f32) (main_v13 : IVec S_ 1) (main_v16 : IVec S800000x3 1) : IVec S_ 1 :=
  let main_c_5 : IVec S_ 1 := constantI S_ 1 1#1
  let main_v17 : IVec S_ 1 := (fun x v => Host.reduce IntOp.andi x v reducesTo_S800000x3_S_d0_1 h_S_) main_v16 main_c_5
  let main_v18 : IVec S_ 1 := andi main_v13 main_v17
  let main_v19 : FVec F S800000x16 .f32 := Host.absf main_arg7
  let main_cst_6 : FVec F S_ .f32 := constant S_ .f32 0x7F800000#32
  let main_v20 : FVec F S800000x16 .f32 := broadcastInDim S800000x16 ![] bcast_S_S800000x16 main_cst_6
  let main_v21 : IVec S800000x16 1 := cmpf .olt main_v19 main_v20
  let main_c_7 : IVec S_ 1 := constantI S_ 1 1#1
  let main_v22 : IVec S_ 1 := (fun x v => Host.reduce IntOp.andi x v reducesTo_S800000x16_S_d0_1 h_S_) main_v21 main_c_7
  let main_v23 : IVec S_ 1 := andi main_v18 main_v22
  let main_v24 : FVec F S144x64 .f32 := Host.absf main_arg8
  let main_cst_8 : FVec F S_ .f32 := constant S_ .f32 0x7F800000#32
  let main_v25 : FVec F S144x64 .f32 := broadcastInDim S144x64 ![] bcast_S_S144x64 main_cst_8
  let main_v26 : IVec S144x64 1 := cmpf .olt main_v24 main_v25
  let main_c_9 : IVec S_ 1 := constantI S_ 1 1#1
  let main_v27 : IVec S_ 1 := (fun x v => Host.reduce IntOp.andi x v reducesTo_S144x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg5 main_arg6 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S50000x64 .f32) (main_arg1 : FVec F S50000x64x3 .f32) (main_arg2 : IVec S2x800000 32) (main_arg3 : FVec F S800000x64 .f32) (main_arg4 : FVec F S800000x3 .f32) (main_arg5 : IVec S800000 32) (main_arg6 : IVec S800000 32) (main_arg7 : FVec F S800000x16 .f32) (main_arg8 : FVec F S144x64 .f32) (main_arg9 : FVec F S64 .f32) (main_arg10 : FVec F S64x64 .f32) (main_arg11 : FVec F S64 .f32) (main_arg12 : FVec F S256x64 .f32) (main_arg13 : FVec F S64 .f32) (main_arg14 : FVec F S64x128 .f32) (main_arg15 : FVec F S128 .f32) (main_arg16 : FVec F S192x64 .f32) (main_arg17 : FVec F S64 .f32) (main_arg18 : FVec F S64x64 .f32) (main_arg19 : FVec F S64 .f32) (main_arg20 : FVec F S192x64 .f32) (main_arg21 : FVec F S64 .f32) (main_arg22 : FVec F S64x64 .f32) (main_arg23 : FVec F S64 .f32) (main_arg24 : FVec F S64 .f32) (main_arg25 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64x3 .f32 := Host.absf main_arg1
  let main_cst_0 : FVec F S_ .f32 := constant S_ .f32 0x7F800000#32
  let main_v5 : FVec F S50000x64x3 .f32 := broadcastInDim S50000x64x3 ![] bcast_S_S50000x64x3 main_cst_0
  let main_v6 : IVec S50000x64x3 1 := cmpf .olt main_v4 main_v5
  let main_c_1 : IVec S_ 1 := constantI S_ 1 1#1
  let main_v7 : IVec S_ 1 := (fun x v => Host.reduce IntOp.andi x v reducesTo_S50000x64x3_S_d0_1_2 h_S_) main_v6 main_c_1
  let main_v8 : IVec S_ 1 := andi main_v3 main_v7
  let main_v9 : FVec F S800000x64 .f32 := Host.absf main_arg3
  let main_cst_2 : FVec F S_ .f32 := constant S_ .f32 0x7F800000#32
  let main_v10 : FVec F S800000x64 .f32 := broadcastInDim S800000x64 ![] bcast_S_S800000x64 main_cst_2
  let main_v11 : IVec S800000x64 1 := cmpf .olt main_v9 main_v10
  let main_c_3 : IVec S_ 1 := constantI S_ 1 1#1
  let main_v12 : IVec S_ 1 := (fun x v => Host.reduce IntOp.andi x v reducesTo_S800000x64_S_d0_1 h_S_) main_v11 main_c_3
  let main_v13 : IVec S_ 1 := andi main_v8 main_v12
  let main_v14 : FVec F S800000x3 .f32 := Host.absf main_arg4
  let main_cst_4 : FVec F S_ .f32 := constant S_ .f32 0x7F800000#32
  let main_v15 : FVec F S800000x3 .f32 := broadcastInDim S800000x3 ![] bcast_S_S800000x3 main_cst_4
  let main_v16 : IVec S800000x3 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000x64 : Shape := ⟨2, ![50000, 64]⟩
abbrev S50000x64x3 : Shape := ⟨3, ![50000, 64, 3]⟩
abbrev S2x800000 : Shape := ⟨2, ![2, 800000]⟩
abbrev S800000x64 : Shape := ⟨2, ![800000, 64]⟩
abbrev S800000x3 : Shape := ⟨2, ![800000, 3]⟩
abbrev S800000 : Shape := ⟨1, ![800000]⟩
abbrev S800000x16 : Shape := ⟨2, ![800000, 16]⟩
abbrev S144x64 : Shape := ⟨2, ![144, 64]⟩
abbrev S64 : Shape := ⟨1, ![64]⟩
abbrev S64x64 : Shape := ⟨2, ![64, 64]⟩
abbrev S256x64 : Shape := ⟨2, ![256, 64]⟩
abbrev S64x128 : Shape := ⟨2, ![64, 128]⟩
abbrev S128 : Shape := ⟨1, ![128]⟩
abbrev S192x64 : Shape := ⟨2, ![192, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S16x64 : Shape := ⟨2, ![16, 64]⟩
abbrev S1x64 : Shape := ⟨2, ![1, 64]⟩
abbrev S6400x64 : Shape := ⟨2, ![6400, 64]⟩
abbrev S6400x16 : Shape := ⟨2, ![6400, 16]⟩
abbrev S1x800000 : Shape := ⟨2, ![1, 800000]⟩
abbrev S1x128 : Shape := ⟨2, ![1, 128]⟩
abbrev S800000x256 : Shape := ⟨2, ![800000, 256]⟩
abbrev S3200x64 : Shape := ⟨2, ![3200, 64]⟩
abbrev S3200x3 : Shape := ⟨2, ![3200, 3]⟩
abbrev S3200x256 : Shape := ⟨2, ![3200, 256]⟩
abbrev S3200x128 : Shape := ⟨2, ![3200, 128]⟩
abbrev S3200x1 : Shape := ⟨2, ![3200, 1]⟩
abbrev S50000x256 : Shape := ⟨2, ![50000, 256]⟩
abbrev S50000x64x1 : Shape := ⟨3, ![50000, 64, 1]⟩
abbrev S2000x64 : Shape := ⟨2, ![2000, 64]⟩
abbrev S2000x256 : Shape := ⟨2, ![2000, 256]⟩
abbrev S2000 : Shape := ⟨1, ![2000]⟩
abbrev S2000x1 : Shape := ⟨2, ![2000, 1]⟩

abbrev nBuf : Space → Nat
  | .hbm => 174
  | .vmem => 65
  | .smem => 0
  | _ => 0

abbrev hbmTy0_0 (i : Nat) : BufTy := match i % 128 with
  | 0 => ⟨S50000x64, .f32⟩
  | 1 => ⟨S50000x64x3, .f32⟩
  | 2 => ⟨S2x800000, .i32⟩
  | 3 => ⟨S800000x64, .f32⟩
  | 4 => ⟨S800000x3, .f32⟩
  | 5 => ⟨S800000, .i32⟩
  | 6 => ⟨S800000, .i32⟩
  | 7 => ⟨S800000x16, .f32⟩
  | 8 => ⟨S144x64, .f32⟩
  | 9 => ⟨S64, .f32⟩
  | 10 => ⟨S64x64, .f32⟩
  | 11 => ⟨S64, .f32⟩
  | 12 => ⟨S256x64, .f32⟩
  | 13 => ⟨S64, .f32⟩
  | 14 => ⟨S64x128, .f32⟩
  | 15 => ⟨S128, .f32⟩
  | 16 => ⟨S192x64, .f32⟩
  | 17 => ⟨S64, .f32⟩
  | 18 => ⟨S64x64, .f32⟩
  | 19 => ⟨S64, .f32⟩
  | 20 => ⟨S192x64, .f32⟩
  | 21 => ⟨S64, .f32⟩
  | 22 => ⟨S64x64, .f32⟩
  | 23 => ⟨S64, .f32⟩
  | 24 => ⟨S64, .f32⟩
  | 25 => ⟨S64, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S1, .i32⟩
  | 35 => ⟨S_, .i32⟩
  | 36 => ⟨S800000x1, .i32⟩
  | 37 => ⟨S800000x1, .i1⟩
  | 38 => ⟨S1x1, .i32⟩
  | 39 => ⟨S800000x1, .i32⟩
  | 40 => ⟨S800000x1, .i1⟩
  | 41 => ⟨S800000x1, .i1⟩
  | 42 => ⟨S_, .i1⟩
  | 43 => ⟨S800000, .i1⟩
  | 44 => ⟨S800000x64, .f32⟩
  | 45 => ⟨S800000x64, .i1⟩
  | 46 => ⟨S_, .f32⟩
  | 47 => ⟨S800000x64, .f32⟩
  | 48 => ⟨S800000x64, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S1, .i32⟩
  | 58 => ⟨S_, .i32⟩
  | 59 => ⟨S800000x1, .i32⟩
  | 60 => ⟨S800000x1, .i1⟩
  | 61 => ⟨S1x1, .i32⟩
  | 62 => ⟨S800000x1, .i32⟩
  | 63 => ⟨S800000x1, .i1⟩
  | 64 => ⟨S800000x1, .i1⟩
  | 65 => ⟨S_, .i1⟩
  | 66 => ⟨S800000, .i1⟩
  | 67 => ⟨S800000x64, .f32⟩
  | 68 => ⟨S800000x64, .i1⟩
  | 69 => ⟨S_, .f32⟩
  | 70 => ⟨S800000x64, .f32⟩
  | 71 => ⟨S800000x64, .f32⟩
  | 72 => ⟨S64x64, .f32⟩
  | 73 => ⟨S64x64, .f32⟩
  | 74 => ⟨S16x64, .f32⟩
  | 75 => ⟨S1x64, .f32⟩
  | 76 => ⟨S1x64, .f32⟩
  | 77 => ⟨S800000x64, .f32⟩
  | 78 => ⟨S_, .f32⟩
  | 79 => ⟨S800000x64, .f32⟩
  | 80 => ⟨S800000x1, .i32⟩
  | 81 => ⟨S800000x64, .f32⟩
  | 82 => ⟨S1x800000, .i32⟩
  | 83 => ⟨S800000, .i32⟩
  | 84 => ⟨S1x800000, .i32⟩
  | 85 => ⟨S800000, .i32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S1, .i32⟩
  | 95 => ⟨S_, .i32⟩
  | 96 => ⟨S800000x1, .i32⟩
  | 97 => ⟨S800000x1, .i1⟩
  | 98 => ⟨S1x1, .i32⟩
  | 99 => ⟨S800000x1, .i32⟩
  | 100 => ⟨S800000x1, .i1⟩
  | 101 => ⟨S800000x1, .i1⟩
  | 102 => ⟨S_, .i1⟩
  | 103 => ⟨S800000, .i1⟩
  | 104 => ⟨S800000x64, .f32⟩
  | 105 => ⟨S800000x64, .i1⟩
  | 106 => ⟨S_, .f32⟩
  | 107 => ⟨S800000x64, .f32⟩
  | 108 => ⟨S800000x64, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S1, .i32⟩
  | 118 => ⟨S_, .i32⟩
  | 119 => ⟨S800000x1, .i32⟩
  | 120 => ⟨S800000x1, .i1⟩
  | 121 => ⟨S1x1, .i32⟩
  | 122 => ⟨S800000x1, .i32⟩
  | 123 => ⟨S800000x1, .i1⟩
  | 124 => ⟨S800000x1, .i1⟩
  | 125 => ⟨S_, .i1⟩
  | 126 => ⟨S800000, .i1⟩
  | 127 => ⟨S800000x64, .f32⟩
  | _ => ⟨S50000x64, .f32⟩

abbrev hbmTy0_1 (i : Nat) : BufTy := match i % 128 with
  | 0 => ⟨S800000x64, .i1⟩
  | 1 => ⟨S_, .f32⟩
  | 2 => ⟨S800000x64, .f32⟩
  | 3 => ⟨S800000x64, .f32⟩
  | 4 => ⟨S64x64, .f32⟩
  | 5 => ⟨S64x64, .f32⟩
  | 6 => ⟨S64x64, .f32⟩
  | 7 => ⟨S64x64, .f32⟩
  | 8 => ⟨S1x64, .f32⟩
  | 9 => ⟨S1x128, .f32⟩
  | 10 => ⟨S800000x256, .f32⟩
  | 11 => ⟨S_, .f32⟩
  | 12 => ⟨S50000x256, .f32⟩
  | 13 => ⟨S800000x1, .i32⟩
  | 14 => ⟨S50000x256, .f32⟩
  | 15 => ⟨S50000x64, .f32⟩
  | 16 => ⟨S50000x64, .f32⟩
  | 17 => ⟨S50000x64, .f32⟩
  | 18 => ⟨S50000x64, .f32⟩
  | 19 => ⟨S50000x64x1, .f32⟩
  | 20 => ⟨S50000x64, .f32⟩
  | 21 => ⟨S50000x64x1, .f32⟩
  | 22 => ⟨S50000x64, .f32⟩
  | 23 => ⟨S50000x64x1, .f32⟩
  | 24 => ⟨S50000x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S1x64, .f32⟩
  | 32 => ⟨S1x64, .f32⟩
  | 33 => ⟨S1x64, .f32⟩
  | 34 => ⟨S1x64, .f32⟩
  | 35 => ⟨S1x64, .f32⟩
  | 36 => ⟨S1x64, .f32⟩
  | 37 => ⟨S50000x256, .f32⟩
  | 38 => ⟨S50000x64, .f32⟩
  | 39 => ⟨S50000x64, .f32⟩
  | 40 => ⟨S50000x64, .f32⟩
  | 41 => ⟨S50000x64, .f32⟩
  | 42 => ⟨S50000x64x1, .f32⟩
  | 43 => ⟨S50000x64x1, .f32⟩
  | 44 => ⟨S50000x64x1, .f32⟩
  | 45 => ⟨S50000x64x3, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S6400x16, .f32⟩
  | .local _ .vmem, ⟨5, _⟩ => ⟨S6400x16, .f32⟩
  | .local _ .vmem, ⟨6, _⟩ => ⟨S64x64, .f32⟩
  | .local _ .vmem, ⟨7, _⟩ => ⟨S64x64, .f32⟩
  | .local _ .vmem, ⟨8, _⟩ => ⟨S16x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S6400x64, .f32⟩
  | .local _ .vmem, ⟨13, _⟩ => ⟨S6400x64, .f32⟩
  | .local _ .vmem, ⟨14, _⟩ => ⟨S3200x64, .f32⟩
  | .local _ .vmem, ⟨15, _⟩ => ⟨S3200x64, .f32⟩
  | .local _ .vmem, ⟨16, _⟩ => ⟨S3200x64, .f32⟩
  | .local _ .vmem, ⟨17, _⟩ => ⟨S3200x64, .f32⟩
  | .local _ .vmem, ⟨18, _⟩ => ⟨S3200x64, .f32⟩
  | .local _ .vmem, ⟨19, _⟩ => ⟨S3200x64, .f32⟩
  | .local _ .vmem, ⟨20, _⟩ => ⟨S3200x64, .f32⟩
  | .local _ .vmem, ⟨21, _⟩ => ⟨S3200x64, .f32⟩
  | .local _ .vmem, ⟨22, _⟩ => ⟨S3200x3, .f32⟩
  | .local _ .vmem, ⟨23, _⟩ => ⟨S3200x3, .f32⟩
  | .local _ .vmem, ⟨24, _⟩ => ⟨S64x64, .f32⟩
  | .local _ .vmem, ⟨25, _⟩ => ⟨S64x64, .f32⟩
  | .local _ .vmem, ⟨26, _⟩ => ⟨S64x64, .f32⟩
  | .local _ .vmem, ⟨27, _⟩ => ⟨S64x64, .f32⟩
  | .local _ .vmem, ⟨28, _⟩ => ⟨S1x64, .f32⟩
  | .local _ .vmem, ⟨29, _⟩ => ⟨S64x128, .f32⟩
  | .local _ .vmem, ⟨30, _⟩ => ⟨S1x128, .f32⟩
  | .local _ .vmem, ⟨31, _⟩ => ⟨S3200x256, .f32⟩
  | .local _ .vmem, ⟨32, _⟩ => ⟨S3200x256, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S64x64, .f32⟩
  | .local _ .vmem, ⟨50, _⟩ => ⟨S64x64, .f32⟩
  | .local _ .vmem, ⟨51, _⟩ => ⟨S64x64, .f32⟩
  | .local _ .vmem, ⟨52, _⟩ => ⟨S1x64, .f32⟩
  | .local _ .vmem, ⟨53, _⟩ => ⟨S64x64, .f32⟩
  | .local _ .vmem, ⟨54, _⟩ => ⟨S1x64, .f32⟩
  | .local _ .vmem, ⟨55, _⟩ => ⟨S64x64, .f32⟩
  | .local _ .vmem, ⟨56, _⟩ => ⟨S64x64, .f32⟩
  | .local _ .vmem, ⟨57, _⟩ => ⟨S64x64, .f32⟩
  | .local _ .vmem, ⟨58, _⟩ => ⟨S1x64, .f32⟩
  | .local _ .vmem, ⟨59, _⟩ => ⟨S64x64, .f32⟩
  | .local _ .vmem, ⟨60, _⟩ => ⟨S1x64, .f32⟩
  | .local _ .vmem, ⟨61, _⟩ => ⟨S1x64, .f32⟩
  | .local _ .vmem, ⟨62, _⟩ => ⟨S1x64, .f32⟩
  | .local _ .vmem, ⟨63, _⟩ => ⟨S2000x256, .f32⟩
  | .local _ .vmem, ⟨64, _⟩ => ⟨S2000x256, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v0 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v1 : Ref sig .tc := ⟨.hbm, 71, rfl⟩
abbrev main_v2 : Ref sig .tc := ⟨.hbm, 72, rfl⟩
abbrev main_v3 : Ref sig .tc := ⟨.hbm, 73, rfl⟩
abbrev main_v4 : Ref sig .tc := ⟨.hbm, 74, rfl⟩
abbrev main_v5 : Ref sig .tc := ⟨.hbm, 75, rfl⟩
abbrev main_v6 : Ref sig .tc := ⟨.hbm, 76, rfl⟩
abbrev main_v7 : Ref sig .tc := ⟨.hbm, 77, rfl⟩
abbrev main_cst : Ref sig .tc := ⟨.hbm, 78, rfl⟩
abbrev main_v8 : Ref sig .tc := ⟨.hbm, 79, rfl⟩
abbrev main_v9 : Ref sig .tc := ⟨.hbm, 80, rfl⟩
abbrev main_v10 : Ref sig .tc := ⟨.hbm, 81, rfl⟩
abbrev main_v11 : Ref sig .tc := ⟨.hbm, 82, rfl⟩
abbrev main_v12 : Ref sig .tc := ⟨.hbm, 83, rfl⟩
abbrev main_v13 : Ref sig .tc := ⟨.hbm, 84, rfl⟩
abbrev main_v14 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v15 : Ref sig .tc := ⟨.hbm, 108, rfl⟩
abbrev main_call3_c : Ref sig .tc := ⟨.hbm, 109, rfl⟩
abbrev main_call3_v0 : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_c_1 : Ref sig .tc := ⟨.hbm, 117, rfl⟩
abbrev main_call3_c_2 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_c_3 : Ref sig .tc := ⟨.hbm, 125, rfl⟩
abbrev main_call3_v12 : Ref sig .tc := ⟨.hbm, 126, rfl⟩
abbrev main_call3_v13 : Ref sig .tc := ⟨.hbm, 127, rfl⟩
abbrev main_call3_v14 : Ref sig .tc := ⟨.hbm, 128, rfl⟩
abbrev main_call3_cst : Ref sig .tc := ⟨.hbm, 129, rfl⟩
abbrev main_call3_v15 : Ref sig .tc := ⟨.hbm, 130, rfl⟩
abbrev main_v16 : Ref sig .tc := ⟨.hbm, 131, rfl⟩
abbrev main_v17 : Ref sig .tc := ⟨.hbm, 132, rfl⟩
abbrev main_v18 : Ref sig .tc := ⟨.hbm, 133, rfl⟩
abbrev main_v19 : Ref sig .tc := ⟨.hbm, 134, rfl⟩
abbrev main_v20 : Ref sig .tc := ⟨.hbm, 135, rfl⟩
abbrev main_v21 : Ref sig .tc := ⟨.hbm, 136, rfl⟩
abbrev main_v22 : Ref sig .tc := ⟨.hbm, 137, rfl⟩
abbrev main_v23 : Ref sig .tc := ⟨.hbm, 138, rfl⟩
abbrev main_cst_0 : Ref sig .tc := ⟨.hbm, 139, rfl⟩
abbrev main_v24 : Ref sig .tc := ⟨.hbm, 140, rfl⟩
abbrev main_v25 : Ref sig .tc := ⟨.hbm, 141, rfl⟩
abbrev main_v26 : Ref sig .tc := ⟨.hbm, 142, rfl⟩
abbrev main_v27 : Ref sig .tc := ⟨.hbm, 143, rfl⟩
abbrev main_v28 : Ref sig .tc := ⟨.hbm, 144, rfl⟩
abbrev main_v29 : Ref sig .tc := ⟨.hbm, 145, rfl⟩
abbrev main_v30 : Ref sig .tc := ⟨.hbm, 146, rfl⟩
abbrev main_v31 : Ref sig .tc := ⟨.hbm, 147, rfl⟩
abbrev main_v32 : Ref sig .tc := ⟨.hbm, 148, rfl⟩
abbrev main_v33 : Ref sig .tc := ⟨.hbm, 149, rfl⟩
abbrev main_v34 : Ref sig .tc := ⟨.hbm, 150, rfl⟩
abbrev main_v35 : Ref sig .tc := ⟨.hbm, 151, rfl⟩
abbrev main_v36 : Ref sig .tc := ⟨.hbm, 152, rfl⟩
abbrev main_v37 : Ref sig .tc := ⟨.hbm, 153, rfl⟩
abbrev main_v38 : Ref sig .tc := ⟨.hbm, 154, rfl⟩
abbrev main_v39 : Ref sig .tc := ⟨.hbm, 155, rfl⟩
abbrev main_v40 : Ref sig .tc := ⟨.hbm, 156, rfl⟩
abbrev main_v41 : Ref sig .tc := ⟨.hbm, 157, rfl⟩
abbrev main_v42 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩
abbrev main_v50 : Ref sig .tc := ⟨.hbm, 166, rfl⟩
abbrev main_v51 : Ref sig .tc := ⟨.hbm, 167, rfl⟩
abbrev main_v52 : Ref sig .tc := ⟨.hbm, 168, rfl⟩
abbrev main_v53 : Ref sig .tc := ⟨.hbm, 169, rfl⟩
abbrev main_v54 : Ref sig .tc := ⟨.hbm, 170, rfl⟩
abbrev main_v55 : Ref sig .tc := ⟨.hbm, 171, rfl⟩
abbrev main_v56 : Ref sig .tc := ⟨.hbm, 172, rfl⟩
abbrev main_v57 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg12_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg3_1 : Ref sig .tc := ⟨.vmem, 40, rfl⟩
abbrev cc2_stg4_0 : Ref sig .tc := ⟨.vmem, 41, rfl⟩
abbrev cc2_stg4_1 : Ref sig .tc := ⟨.vmem, 42, rfl⟩
abbrev cc2_stg5_0 : Ref sig .tc := ⟨.vmem, 43, rfl⟩
abbrev cc2_stg5_1 : Ref sig .tc := ⟨.vmem, 44, rfl⟩
abbrev cc2_stg6_0 : Ref sig .tc := ⟨.vmem, 45, rfl⟩
abbrev cc2_stg6_1 : Ref sig .tc := ⟨.vmem, 46, rfl⟩
abbrev cc2_stg7_0 : Ref sig .tc := ⟨.vmem, 47, rfl⟩
abbrev cc2_stg7_1 : Ref sig .tc := ⟨.vmem, 48, rfl⟩
abbrev cc2_stg8_0 : Ref sig .tc := ⟨.vmem, 49, rfl⟩
abbrev cc2_stg9_0 : Ref sig .tc := ⟨.vmem, 50, rfl⟩
abbrev cc2_stg10_0 : Ref sig .tc := ⟨.vmem, 51, rfl⟩
abbrev cc2_stg11_0 : Ref sig .tc := ⟨.vmem, 52, rfl⟩
abbrev cc2_stg12_0 : Ref sig .tc := ⟨.vmem, 53, rfl⟩
abbrev cc2_stg13_0 : Ref sig .tc := ⟨.vmem, 54, rfl⟩
abbrev cc2_stg14_0 : Ref sig .tc := ⟨.vmem, 55, rfl⟩
abbrev cc2_stg15_0 : Ref sig .tc := ⟨.vmem, 56, rfl⟩
abbrev cc2_stg16_0 : Ref sig .tc := ⟨.vmem, 57, rfl⟩
abbrev cc2_stg17_0 : Ref sig .tc := ⟨.vmem, 58, rfl⟩
abbrev cc2_stg18_0 : Ref sig .tc := ⟨.vmem, 59, rfl⟩
abbrev cc2_stg19_0 : Ref sig .tc := ⟨.vmem, 60, rfl⟩
abbrev cc2_stg20_0 : Ref sig .tc := ⟨.vmem, 61, rfl⟩
abbrev cc2_stg21_0 : Ref sig .tc := ⟨.vmem, 62, rfl⟩
abbrev cc2_stg22_0 : Ref sig .tc := ⟨.vmem, 63, rfl⟩
abbrev cc2_stg22_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem12_0 : DmaSem sig := 31
abbrev cc1_sem12_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem2_1 : DmaSem sig := 38
abbrev cc2_sem3_0 : DmaSem sig := 39
abbrev cc2_sem3_1 : DmaSem sig := 40
abbrev cc2_sem4_0 : DmaSem sig := 41
abbrev cc2_sem4_1 : DmaSem sig := 42
abbrev cc2_sem5_0 : DmaSem sig := 43
abbrev cc2_sem5_1 : DmaSem sig := 44
abbrev cc2_sem6_0 : DmaSem sig := 45
abbrev cc2_sem6_1 : DmaSem sig := 46
abbrev cc2_sem7_0 : DmaSem sig := 47
abbrev cc2_sem7_1 : DmaSem sig := 48
abbrev cc2_sem8_0 : DmaSem sig := 49
abbrev cc2_sem9_0 : DmaSem sig := 50
abbrev cc2_sem10_0 : DmaSem sig := 51
abbrev cc2_sem11_0 : DmaSem sig := 52
abbrev cc2_sem12_0 : DmaSem sig := 53
abbrev cc2_sem13_0 : DmaSem sig := 54
abbrev cc2_sem14_0 : DmaSem sig := 55
abbrev cc2_sem15_0 : DmaSem sig := 56
abbrev cc2_sem16_0 : DmaSem sig := 57
abbrev cc2_sem17_0 : DmaSem sig := 58
abbrev cc2_sem18_0 : DmaSem sig := 59
abbrev cc2_sem19_0 : DmaSem sig := 60
abbrev cc2_sem20_0 : DmaSem sig := 61
abbrev cc2_sem21_0 : DmaSem sig := 62
abbrev cc2_sem22_0 : DmaSem sig := 63
abbrev cc2_sem22_1 : DmaSem sig := 64

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3200x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3200x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S3200x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_20 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_21 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_22 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S64x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S64x64 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S64x64 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S1x64 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S64x64 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S1x64 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

abbrev stage2_20 : Fin 1 → Memref sig .tc .vmem S1x64 .f32 := fun | 0 => Memref.whole cc2_stg20_0 | ⟨_ + 1, h⟩ => absurd h (Nat.not_lt.2 (Nat.le_add_left _ _))
abbrev sem2_20 : Fin 1 → DmaSem sig := fun | 0 => cc2_sem20_0 | ⟨_ + 1, h⟩ => absurd h (Nat.not_lt.2 (Nat.le_add_left _ _))
abbrev reads2_20 : Fin grid2.rank → Bool := ![false]

abbrev stage2_21 : Fin 1 → Memref sig .tc .vmem S1x64 .f32 := fun | 0 => Memref.whole cc2_stg21_0 | ⟨_ + 1, h⟩ => absurd h (Nat.not_lt.2 (Nat.le_add_left _ _))
abbrev sem2_21 : Fin 1 → DmaSem sig := fun | 0 => cc2_sem21_0 | ⟨_ + 1, h⟩ => absurd h (Nat.not_lt.2 (Nat.le_add_left _ _))
abbrev reads2_21 : Fin grid2.rank → Bool := ![false]

abbrev stage2_22 : Fin 2 → Memref sig .tc .vmem S2000x256 .f32 := fun | 0 => Memref.whole cc2_stg22_0 | 1 => Memref.whole cc2_stg22_1 | ⟨_ + 2, h⟩ => absurd h (Nat.not_lt.2 (Nat.le_add_left _ _))
abbrev sem2_22 : Fin 2 → DmaSem sig := fun | 0 => cc2_sem22_0 | 1 => cc2_sem22_1 | ⟨_ + 2, h⟩ => absurd h (Nat.not_lt.2 (Nat.le_add_left _ _))
abbrev reads2_22 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S144x64_S64x64_0_0 : S144x64.Slices ![0, 0] S64x64
  slices_S144x64_S64x64_64_0 : S144x64.Slices ![64, 0] S64x64
  slices_S144x64_S16x64_128_0 : S144x64.Slices ![128, 0] S16x64
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  inb_S6400x16_S6400x16_0_0 : ∀ a, (![0, 0] : Fin 2 → Nat) a + S6400x16.size a ≤ S6400x16.size a
  h_S6400x16 : 0 < S6400x16.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  shapeCasts_S128_S1x128 : S128.ShapeCasts S1x128
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  broadcasts_S1x64_S3200x64 : S1x64.Broadcasts S3200x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  slices_S3200x128_o0_0_S3200x64 : S3200x128.Slices ![0, 0] S3200x64
  slices_S3200x128_o0_64_S3200x64 : S3200x128.Slices ![0, 64] S3200x64
  inb_S3200x3_S3200x3_0_0 : ∀ a, (![0, 0] : Fin 2 → Nat) a + S3200x3.size a ≤ S3200x3.size a
  h_S3200x3 : 0 < S3200x3.numel
  slices_S3200x3_o0_0_S3200x1 : S3200x3.Slices ![0, 0] S3200x1
  broadcasts_S3200x1_S3200x64 : S3200x1.Broadcasts S3200x64
  slices_S3200x3_o0_1_S3200x1 : S3200x3.Slices ![0, 1] S3200x1
  slices_S3200x3_o0_2_S3200x1 : S3200x3.Slices ![0, 2] S3200x1
  concatenates_S3200x64_S3200x64_S3200x64_S3200x64_S3200x256_d1 : Shape.Concatenates [S3200x64, S3200x64, S3200x64, S3200x64] S3200x256 1
  inb_S3200x256_S3200x256_0_0 : ∀ a, (![0, 0] : Fin 2 → Nat) a + S3200x256.size a ≤ S3200x256.size a
  h_S3200x256 : 0 < S3200x256.numel
  bcast_S_S50000x256 : S_.BroadcastsInDim S50000x256 (![] : Fin 0 → Fin S50000x256.rank)
  slices_S50000x256_S50000x64_0_0 : S50000x256.Slices ![0, 0] S50000x64
  slices_S50000x256_S50000x64_0_64 : S50000x256.Slices ![0, 64] S50000x64
  slices_S50000x256_S50000x64_0_128 : S50000x256.Slices ![0, 128] S50000x64
  slices_S50000x256_S50000x64_0_192 : S50000x256.Slices ![0, 192] S50000x64
  slices_S50000x64x3_S50000x64x1_0_0_0 : S50000x64x3.Slices ![0, 0, 0] S50000x64x1
  shapeCasts_S50000x64x1_S50000x64 : S50000x64x1.ShapeCasts S50000x64
  slices_S50000x64x3_S50000x64x1_0_0_1 : S50000x64x3.Slices ![0, 0, 1] S50000x64x1
  slices_S50000x64x3_S50000x64x1_0_0_2 : S50000x64x3.Slices ![0, 0, 2] S50000x64x1
  slices_S192x64_S64x64_0_0 : S192x64.Slices ![0, 0] S64x64
  slices_S192x64_S64x64_64_0 : S192x64.Slices ![64, 0] S64x64
  slices_S192x64_S64x64_128_0 : S192x64.Slices ![128, 0] S64x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  concatenates_S2000x64_S2000x64_S2000x64_S2000x64_S2000x256_d1 : Shape.Concatenates [S2000x64, S2000x64, S2000x64, S2000x64] S2000x256 1
  inb_S2000x256_S2000x256_0_0 : ∀ a, (![0, 0] : Fin 2 → Nat) a + S2000x256.size a ≤ S2000x256.size a
  h_S2000x256 : 0 < S2000x256.numel
  bcast_S50000x64_S50000x64x1_0_1 : S50000x64.BroadcastsInDim S50000x64x1 (![0, 1] : Fin 2 → Fin S50000x64x1.rank)
  concatenates_S50000x64x1_S50000x64x1_S50000x64x1_S50000x64x3_d2 : Shape.Concatenates [S50000x64x1, S50000x64x1, S50000x64x1] S50000x64x3 2
  gather_S800000x64_S800000x1_S800000x64_1_0_n_n_0_1_164_wf : GatherDims.WF S800000x64 S800000x1 S800000x64 [1] [0] [] [0] [] 1 ![1, 64]
  dot_S6400x64_S64x64_S6400x64_1_0_0_1_n_n_wf : DotDims.WF S6400x64 S64x64 S6400x64 [1] [0] [0] [1] [] []
  dot_S6400x16_S16x64_S6400x64_1_0_0_1_n_n_wf : DotDims.WF S6400x16 S16x64 S6400x64 [1] [0] [0] [1] [] []
  scatter_S800000x64_S800000x1_S800000x64_1_0_0_1_wf : ScatterDims.WF S800000x64 S800000x1 S800000x64 [1] [0] [0] 1
  gather_S50000x64_S800000x1_S800000x64_1_0_n_n_0_1_164_wf : GatherDims.WF S50000x64 S800000x1 S800000x64 [1] [0] [] [0] [] 1 ![1, 64]
  dot_S3200x64_S64x64_S3200x64_1_0_0_1_n_n_wf : DotDims.WF S3200x64 S64x64 S3200x64 [1] [0] [0] [1] [] []
  dot_S3200x64_S64x128_S3200x128_1_0_0_1_n_n_wf : DotDims.WF S3200x64 S64x128 S3200x128 [1] [0] [0] [1] [] []
  scatter_S50000x256_S800000x1_S800000x256_1_0_0_1_wf : ScatterDims.WF S50000x256 S800000x1 S800000x256 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S800000x64.size a
  hwx0_0 : ∀ i : grid0.Coords, EltTy.bits .f32 = 32 ∨ (Rect.block (s := S800000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S800000x64.size a
  hwx0_1 : ∀ i : grid0.Coords, EltTy.bits .f32 = 32 ∨ (Rect.block (s := S800000x64) S6400x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x16.size a ≤ S800000x16.size a
  hwx0_2 : ∀ i : grid0.Coords, EltTy.bits .f32 = 32 ∨ (Rect.block (s := S800000x16) S6400x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x64.size a ≤ S800000x64.size a
  hwx0_9 : ∀ i : grid0.Coords, EltTy.bits .f32 = 32 ∨ (Rect.block (s := S800000x64) S6400x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x64.size a ≤ S800000x64.size a
  hwx1_0 : ∀ i : grid1.Coords, EltTy.bits .f32 = 32 ∨ (Rect.block (s := S800000x64) S3200x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x64.size a ≤ S800000x64.size a
  hwx1_1 : ∀ i : grid1.Coords, EltTy.bits .f32 = 32 ∨ (Rect.block (s := S800000x64) S3200x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x64.size a ≤ S800000x64.size a
  hwx1_2 : ∀ i : grid1.Coords, EltTy.bits .f32 = 32 ∨ (Rect.block (s := S800000x64) S3200x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3200x64.size a ≤ S800000x64.size a
  hwx1_3 : ∀ i : grid1.Coords, EltTy.bits .f32 = 32 ∨ (Rect.block (s := S800000x64) S3200x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3200x3.size a ≤ S800000x3.size a
  hwx1_4 : ∀ i : grid1.Coords, EltTy.bits .f32 = 32 ∨ (Rect.block (s := S800000x3) S3200x3.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x128.size a ≤ S64x128.size a
  hwx1_10 : ∀ i : grid1.Coords, EltTy.bits .f32 = 32 ∨ (Rect.block (s := S64x128) S64x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S3200x256.size a ≤ S800000x256.size a
  hwx1_12 : ∀ i : grid1.Coords, EltTy.bits .f32 = 32 ∨ (Rect.block (s := S800000x256) S3200x256.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .f32 = 32 ∨ (Rect.block (s := S50000x64) S2000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S50000x64.size a
  hwx2_6 : ∀ i : grid2.Coords, EltTy.bits .f32 = 32 ∨ (Rect.block (s := S50000x64) S2000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x64.size a ≤ S50000x64.size a
  hwx2_7 : ∀ i : grid2.Coords, EltTy.bits .f32 = 32 ∨ (Rect.block (s := S50000x64) S2000x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x64.size a ≤ S64x64.size a
  hwx2_9 : ∀ i : grid2.Coords, EltTy.bits .f32 = 32 ∨ (Rect.block (s := S64x64) S64x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64x64.size a ≤ S64x64.size a
  hwx2_10 : ∀ i : grid2.Coords, EltTy.bits .f32 = 32 ∨ (Rect.block (s := S64x64) S64x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x64.size a ≤ S1x64.size a
  hwx2_11 : ∀ i : grid2.Coords, EltTy.bits .f32 = 32 ∨ (Rect.block (s := S1x64) S1x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64x64.size a ≤ S64x64.size a
  hwx2_12 : ∀ i : grid2.Coords, EltTy.bits .f32 = 32 ∨ (Rect.block (s := S64x64) S64x64.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x64.size a ≤ S1x64.size a
  hwx2_13 : ∀ i : grid2.Coords, EltTy.bits .f32 = 32 ∨ (Rect.block (s := S1x64) S1x64.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S64x64.size a ≤ S64x64.size a
  hwx2_14 : ∀ i : grid2.Coords, EltTy.bits .f32 = 32 ∨ (Rect.block (s := S64x64) S64x64.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S64x64.size a ≤ S64x64.size a
  hwx2_15 : ∀ i : grid2.Coords, EltTy.bits .f32 = 32 ∨ (Rect.block (s := S64x64) S64x64.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S64x64.size a ≤ S64x64.size a
  hwx2_16 : ∀ i : grid2.Coords, EltTy.bits .f32 = 32 ∨ (Rect.block (s := S64x64) S64x64.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S1x64.size a ≤ S1x64.size a
  hwx2_17 : ∀ i : grid2.Coords, EltTy.bits .f32 = 32 ∨ (Rect.block (s := S1x64) S1x64.size (cc2_transform_17 i) (hinb2_17 i)).WholeWords (EltTy.packing .f32)
  hstage2_18 : ∀ j, (stage2_18 j).IsWhole
  nbuf2_18 : grid2.bufCount reads2_18 true = 1
  hreads2_18 : ∀ i i' : grid2.Coords, (∀ a, reads2_18 a = true → i a = i' a) → cc2_transform_18 i = cc2_transform_18 i'
  hinb2_18 : ∀ (i : grid2.Coords) a, (cc2_transform_18 i a + 1) * S64x64.size a ≤ S64x64.size a
  hwx2_18 : ∀ i : grid2.Coords, EltTy.bits .f32 = 32 ∨ (Rect.block (s := S64x64) S64x64.size (cc2_transform_18 i) (hinb2_18 i)).WholeWords (EltTy.packing .f32)
  hstage2_19 : ∀ j, (stage2_19 j).IsWhole
  nbuf2_19 : grid2.bufCount reads2_19 true = 1
  hreads2_19 : ∀ i i' : grid2.Coords, (∀ a, reads2_19 a = true → i a = i' a) → cc2_transform_19 i = cc2_transform_19 i'
  hinb2_19 : ∀ (i : grid2.Coords) a, (cc2_transform_19 i a + 1) * S1x64.size a ≤ S1x64.size a
  hwx2_19 : ∀ i : grid2.Coords, EltTy.bits .f32 = 32 ∨ (Rect.block (s := S1x64) S1x64.size (cc2_transform_19 i) (hinb2_19 i)).WholeWords (EltTy.packing .f32)
  hstage2_20 : ∀ j, (stage2_20 j).IsWhole
  nbuf2_20 : grid2.bufCount reads2_20 true = 1
  hreads2_20 : ∀ i i' : grid2.Coords, (∀ a, reads2_20 a = true → i a = i' a) → cc2_transform_20 i = cc2_transform_20 i'
  hinb2_20 : ∀ (i : grid2.Coords) a, (cc2_transform_20 i a + 1) * S1x64.size a ≤ S1x64.size a
  hwx2_20 : ∀ i : grid2.Coords, EltTy.bits .f32 = 32 ∨ (Rect.block (s := S1x64) S1x64.size (cc2_transform_20 i) (hinb2_20 i)).WholeWords (EltTy.packing .f32)
  hstage2_21 : ∀ j, (stage2_21 j).IsWhole
  nbuf2_21 : grid2.bufCount reads2_21 true = 1
  hreads2_21 : ∀ i i' : grid2.Coords, (∀ a, reads2_21 a = true → i a = i' a) → cc2_transform_21 i = cc2_transform_21 i'
  hinb2_21 : ∀ (i : grid2.Coords) a, (cc2_transform_21 i a + 1) * S1x64.size a ≤ S1x64.size a
  hwx2_21 : ∀ i : grid2.Coords, EltTy.bits .f32 = 32 ∨ (Rect.block (s := S1x64) S1x64.size (cc2_transform_21 i) (hinb2_21 i)).WholeWords (EltTy.packing .f32)
  hstage2_22 : ∀ j, (stage2_22 j).IsWhole
  nbuf2_22 : grid2.bufCount reads2_22 false = 2
  hreads2_22 : ∀ i i' : grid2.Coords, (∀ a, reads2_22 a = true → i a = i' a) → cc2_transform_22 i = cc2_transform_22 i'
  hinb2_22 : ∀ (i : grid2.Coords) a, (cc2_transform_22 i a + 1) * S2000x256.size a ≤ S50000x256.size a
  hwx2_22 : ∀ i : grid2.Coords, EltTy.bits .f32 = 32 ∨ (Rect.block (s := S50000x256) S2000x256.size (cc2_transform_22 i) (hinb2_22 i)).WholeWords (EltTy.packing .f32)

variable [Facts₀]

def gather_S800000x64_S800000x1_S800000x64_1_0_n_n_0_1_164 : GatherDims S800000x64 S800000x1 S800000x64 where
  offsetDims := [1]
  collapsedSliceDims := [0]
  operandBatchingDims := []
  startIndicesBatchingDims := []
  startIndexMap := [0]
  indexVectorDim := 1
  sliceSizes := ![1, 64]
  wf := gather_S800000x64_S800000x1_S800000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def dot_S6400x16_S16x64_S6400x64_1_0_0_1_n_n : DotDims S6400x16 S16x64 S6400x64 where
  lhsContracting := [1]
  rhsContracting := [0]
  lhsNonContracting := [0]
  rhsNonContracting := [1]
  lhsBatch := []
  rhsBatch := []
  wf := dot_S6400x16_S16x64_S6400x64_1_0_0_1_n_n_wf
def scatter_S800000x64_S800000x1_S800000x64_1_0_0_1 : ScatterDims S800000x64 S800000x1 S800000x64 where
  updateWindowDims := [1]
  insertedWindowDims := [0]
  scatterDimsToOperandDims := [0]
  indexVectorDim := 1
  wf := scatter_S800000x64_S800000x1_S800000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def dot_S3200x64_S64x128_S3200x128_1_0_0_1_n_n : DotDims S3200x64 S64x128 S3200x128 where
  lhsContracting := [1]
  rhsContracting := [0]
  lhsNonContracting := [0]
  rhsNonContracting := [1]
  lhsBatch := []
  rhsBatch := []
  wf := dot_S3200x64_S64x128_S3200x128_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v0) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S6400x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S6400x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v15) S3200x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S3200x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S3200x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S3200x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S3200x3.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg14) S64x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v22) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v23) S3200x256.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_arg0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S2000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v36) S2000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v28) S2000x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v29) S2000x64.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v30) S2000x64.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v37) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v38) S64x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v39) S64x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v43) S1x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg18) S64x64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v44) S1x64.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v40) S64x64.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v41) S64x64.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v42) S64x64.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v45) S1x64.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_arg22) S64x64.size cc2_transform_18 reads2_18 false true 1 stage2_18 sem2_18
    hrank2 hreads2_18 hinb2_18 nbuf2_18 (Memref.isWhole_whole _) hwx2_18 hstage2_18

abbrev win2_19 : Pipeline.Window sig grid2 :=
  Pipeline.Window.ofSpec (Memref.whole main_v46) S1x64.size cc2_transform_19 reads2_19 false true 1 stage2_19 sem2_19
    hrank2 hreads2_19 hinb2_19 nbuf2_19 (Memref.isWhole_whole _) hwx2_19 hstage2_19

abbrev win2_20 : Pipeline.Window sig grid2 :=
  Pipeline.Window.ofSpec (Memref.whole main_v47) S1x64.size cc2_transform_20 reads2_20 false true 1 stage2_20 sem2_20
    hrank2 hreads2_20 hinb2_20 nbuf2_20 (Memref.isWhole_whole _) hwx2_20 hstage2_20

abbrev win2_21 : Pipeline.Window sig grid2 :=
  Pipeline.Window.ofSpec (Memref.whole main_v48) S1x64.size cc2_transform_21 reads2_21 false true 1 stage2_21 sem2_21
    hrank2 hreads2_21 hinb2_21 nbuf2_21 (Memref.isWhole_whole _) hwx2_21 hstage2_21

abbrev win2_22 : Pipeline.Window sig grid2 :=
  Pipeline.Window.ofSpec (Memref.whole main_v49) S2000x256.size cc2_transform_22 reads2_22 true false 2 stage2_22 sem2_22
    hrank2 hreads2_22 hinb2_22 nbuf2_22 (Memref.isWhole_whole _) hwx2_22 hstage2_22

abbrev win2 : Fin 23 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | 20 => win2_20 | 21 => win2_21 | 22 => win2_22 | ⟨_ + 23, h⟩ => absurd h (Nat.not_lt.2 (Nat.le_add_left _ _))
abbrev spec2 : Fin 23 → Pipeline.WinSpec sig grid2.rank := fun w => (win2 w).toWinSpec

class Facts : Prop extends Facts₀ where

variable [Facts]
-- ==== ReferenceIdeal.lean ====
abbrev S50000x64 : Shape := ⟨2, ![50000, 64]⟩
abbrev S50000x64x3 : Shape := ⟨3, ![50000, 64, 3]⟩
abbrev S2x800000 : Shape := ⟨2, ![2, 800000]⟩
abbrev S800000x64 : Shape := ⟨2, ![800000, 64]⟩
abbrev S800000x3 : Shape := ⟨2, ![800000, 3]⟩
abbrev S800000 : Shape := ⟨1, ![800000]⟩
abbrev S800000x16 : Shape := ⟨2, ![800000, 16]⟩
abbrev S144x64 : Shape := ⟨2, ![144, 64]⟩
abbrev S64 : Shape := ⟨1, ![64]⟩
abbrev S64x64 : Shape := ⟨2, ![64, 64]⟩
abbrev S256x64 : Shape := ⟨2, ![256, 64]⟩
abbrev S64x128 : Shape := ⟨2, ![64, 128]⟩
abbrev S128 : Shape := ⟨1, ![128]⟩
abbrev S192x64 : Shape := ⟨2, ![192, 64]⟩
abbrev S_ : Shape := ⟨0, ![]⟩
abbrev S800000x1 : Shape := ⟨2, ![800000, 1]⟩
abbrev S800000x144 : Shape := ⟨2, ![800000, 144]⟩
abbrev S1x64 : Shape := ⟨2, ![1, 64]⟩
abbrev S1x800000 : Shape := ⟨2, ![1, 800000]⟩
abbrev S800000x256 : Shape := ⟨2, ![800000, 256]⟩
abbrev S800000x128 : Shape := ⟨2, ![800000, 128]⟩
abbrev S1x128 : Shape := ⟨2, ![1, 128]⟩
abbrev S800000x64x1 : Shape := ⟨3, ![800000, 64, 1]⟩
abbrev S800000x1x3 : Shape := ⟨3, ![800000, 1, 3]⟩
abbrev S800000x64x3 : Shape := ⟨3, ![800000, 64, 3]⟩
abbrev S800000x192 : Shape := ⟨2, ![800000, 192]⟩
abbrev S50000x192 : Shape := ⟨2, ![50000, 192]⟩
abbrev S50000x64x1 : Shape := ⟨3, ![50000, 64, 1]⟩
abbrev S50000 : Shape := ⟨1, ![50000]⟩
abbrev S50000x1 : Shape := ⟨2, ![50000, 1]⟩

abbrev nBuf : Space → Nat
  | .hbm => 228
  | .vmem => 0
  | .smem => 0
  | _ => 0

abbrev hbmTy0_0 (i : Nat) : BufTy := match i % 128 with
  | 0 => ⟨S50000x64, .f32⟩
  | 1 => ⟨S50000x64x3, .f32⟩
  | 2 => ⟨S2x800000, .i32⟩
  | 3 => ⟨S800000x64, .f32⟩
  | 4 => ⟨S800000x3, .f32⟩
  | 5 => ⟨S800000, .i32⟩
  | 6 => ⟨S800000, .i32⟩
  | 7 => ⟨S800000x16, .f32⟩
  | 8 => ⟨S144x64, .f32⟩
  | 9 => ⟨S64, .f32⟩
  | 10 => ⟨S64x64, .f32⟩
  | 11 => ⟨S64, .f32⟩
  | 12 => ⟨S256x64, .f32⟩
  | 13 => ⟨S64, .f32⟩
  | 14 => ⟨S64x128, .f32⟩
  | 15 => ⟨S128, .f32⟩
  | 16 => ⟨S192x64, .f32⟩
  | 17 => ⟨S64, .f32⟩
  | 18 => ⟨S64x64, .f32⟩
  | 19 => ⟨S64, .f32⟩
  | 20 => ⟨S192x64, .f32⟩
  | 21 => ⟨S64, .f32⟩
  | 22 => ⟨S64x64, .f32⟩
  | 23 => ⟨S64, .f32⟩
  | 24 => ⟨S64, .f32⟩
  | 25 => ⟨S64, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x64, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S800000x144, .f32⟩
  | 45 => ⟨S800000x64, .f32⟩
  | 46 => ⟨S1x64, .f32⟩
  | 47 => ⟨S800000x64, .f32⟩
  | 48 => ⟨S800000x64, .f32⟩
  | 49 => ⟨S800000x64, .f32⟩
  | 50 => ⟨S800000x64, .f32⟩
  | 51 => ⟨S_, .f32⟩
  | 52 => ⟨S800000x64, .f32⟩
  | 53 => ⟨S800000x64, .f32⟩
  | 54 => ⟨S_, .f32⟩
  | 55 => ⟨S800000x64, .f32⟩
  | 56 => ⟨S800000x64, .f32⟩
  | 57 => ⟨S800000x64, .f32⟩
  | 58 => ⟨S800000x64, .f32⟩
  | 59 => ⟨S1x64, .f32⟩
  | 60 => ⟨S800000x64, .f32⟩
  | 61 => ⟨S800000x64, .f32⟩
  | 62 => ⟨S_, .f32⟩
  | 63 => ⟨S800000x64, .f32⟩
  | 64 => ⟨S800000x1, .i32⟩
  | 65 => ⟨S800000x64, .f32⟩
  | 66 => ⟨S1x800000, .i32⟩
  | 67 => ⟨S800000, .i32⟩
  | 68 => ⟨S1x800000, .i32⟩
  | 69 => ⟨S800000, .i32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x64, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x64, .f32⟩
  | 88 => ⟨S800000x256, .f32⟩
  | 89 => ⟨S800000x64, .f32⟩
  | 90 => ⟨S1x64, .f32⟩
  | 91 => ⟨S800000x64, .f32⟩
  | 92 => ⟨S800000x64, .f32⟩
  | 93 => ⟨S800000x64, .f32⟩
  | 94 => ⟨S800000x64, .f32⟩
  | 95 => ⟨S_, .f32⟩
  | 96 => ⟨S800000x64, .f32⟩
  | 97 => ⟨S800000x64, .f32⟩
  | 98 => ⟨S_, .f32⟩
  | 99 => ⟨S800000x64, .f32⟩
  | 100 => ⟨S800000x64, .f32⟩
  | 101 => ⟨S800000x64, .f32⟩
  | 102 => ⟨S800000x128, .f32⟩
  | 103 => ⟨S1x128, .f32⟩
  | 104 => ⟨S800000x128, .f32⟩
  | 105 => ⟨S800000x128, .f32⟩
  | 106 => ⟨S800000x64, .f32⟩
  | 107 => ⟨S800000x64, .f32⟩
  | 108 => ⟨S_, .f32⟩
  | 109 => ⟨S50000x64, .f32⟩
  | 110 => ⟨S800000x1, .i32⟩
  | 111 => ⟨S50000x64, .f32⟩
  | 112 => ⟨S800000x64x1, .f32⟩
  | 113 => ⟨S800000x1x3, .f32⟩
  | 114 => ⟨S800000x64x3, .f32⟩
  | 115 => ⟨S800000x64x3, .f32⟩
  | 116 => ⟨S800000x64x3, .f32⟩
  | 117 => ⟨S800000x192, .f32⟩
  | 118 => ⟨S_, .f32⟩
  | 119 => ⟨S50000x192, .f32⟩
  | 120 => ⟨S800000x1, .i32⟩
  | 121 => ⟨S50000x192, .f32⟩
  | 122 => ⟨S50000x64x3, .f32⟩
  | 123 => ⟨S50000x64x3, .f32⟩
  | 124 => ⟨S_, .f32⟩
  | 125 => ⟨S50000x64, .f32⟩
  | 126 => ⟨S50000x64, .f32⟩
  | 127 => ⟨S50000x192, .f32⟩
  | _ => ⟨S50000x64, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S_, .f32⟩
  | 10 => ⟨S50000x64, .f32⟩
  | 11 => ⟨S50000x64, .f32⟩
  | 12 => ⟨S50000x64, .f32⟩
  | 13 => ⟨S50000x64, .f32⟩
  | 14 => ⟨S1x64, .f32⟩
  | 15 => ⟨S50000x64, .f32⟩
  | 16 => ⟨S50000x64, .f32⟩
  | 17 => ⟨S50000x64, .f32⟩
  | 18 => ⟨S50000x64, .f32⟩
  | 19 => ⟨S1x64, .f32⟩
  | 20 => ⟨S50000x64, .f32⟩
  | 21 => ⟨S50000x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S_, .f32⟩
  | 28 => ⟨S50000x64, .f32⟩
  | 29 => ⟨S50000x64, .f32⟩
  | 30 => ⟨S50000x64, .f32⟩
  | 31 => ⟨S50000x64, .f32⟩
  | 32 => ⟨S1x64, .f32⟩
  | 33 => ⟨S50000x64, .f32⟩
  | 34 => ⟨S50000x64, .f32⟩
  | 35 => ⟨S50000x64, .f32⟩
  | 36 => ⟨S50000x64, .f32⟩
  | 37 => ⟨S_, .f32⟩
  | 38 => ⟨S50000x64, .f32⟩
  | 39 => ⟨S50000x64, .f32⟩
  | 40 => ⟨S_, .f32⟩
  | 41 => ⟨S50000x64, .f32⟩
  | 42 => ⟨S50000x64, .f32⟩
  | 43 => ⟨S50000x64x1, .f32⟩
  | 44 => ⟨S50000x64x3, .f32⟩
  | 45 => ⟨S50000x64x3, .f32⟩
  | 46 => ⟨S50000x64x3, .f32⟩
  | 47 => ⟨S_, .f32⟩
  | 48 => ⟨S50000, .f32⟩
  | 49 => ⟨S50000x1, .f32⟩
  | 50 => ⟨S_, .f32⟩
  | 51 => ⟨S50000x1, .f32⟩
  | 52 => ⟨S50000x1, .f32⟩
  | 53 => ⟨S_, .i32⟩
  | 54 => ⟨S_, .f32⟩
  | 55 => ⟨S50000, .f32⟩
  | 56 => ⟨S50000x1, .f32⟩
  | 57 => ⟨S_, .f32⟩
  | 58 => ⟨S50000x1, .f32⟩
  | 59 => ⟨S50000x1, .f32⟩
  | 60 => ⟨S50000x64, .f32⟩
  | 61 => ⟨S50000x64, .f32⟩
  | 62 => ⟨S50000x64, .f32⟩
  | 63 => ⟨S_, .f32⟩
  | 64 => ⟨S_, .f32⟩
  | 65 => ⟨S_, .f32⟩
  | 66 => ⟨S_, .f32⟩
  | 67 => ⟨S50000, .f32⟩
  | 68 => ⟨S50000x1, .f32⟩
  | 69 => ⟨S50000x1, .f32⟩
  | 70 => ⟨S50000x1, .f32⟩
  | 71 => ⟨S_, .f32⟩
  | 72 => ⟨S_, .i1⟩
  | 73 => ⟨S_, .f32⟩
  | 74 => ⟨S_, .f32⟩
  | 75 => ⟨S50000x1, .f32⟩
  | 76 => ⟨S50000x1, .f32⟩
  | 77 => ⟨S50000x64, .f32⟩
  | 78 => ⟨S50000x64, .f32⟩
  | 79 => ⟨S_, .f32⟩
  | 80 => ⟨S50000x1, .f32⟩
  | 81 => ⟨S50000x1, .f32⟩
  | 82 => ⟨S50000x1, .f32⟩
  | 83 => ⟨S50000x64, .f32⟩
  | 84 => ⟨S50000x64, .f32⟩
  | 85 => ⟨S1x64, .f32⟩
  | 86 => ⟨S50000x64, .f32⟩
  | 87 => ⟨S50000x64, .f32⟩
  | 88 => ⟨S1x64, .f32⟩
  | 89 => ⟨S50000x64, .f32⟩
  | 90 => ⟨S50000x64, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c_1 : Ref sig .tc := ⟨.hbm, 35, rfl⟩
abbrev main_v7 : Ref sig .tc := ⟨.hbm, 36, rfl⟩
abbrev main_v8 : Ref sig .tc := ⟨.hbm, 37, rfl⟩
abbrev main_c_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_c_3 : Ref sig .tc := ⟨.hbm, 70, rfl⟩
abbrev main_v31 : Ref sig .tc := ⟨.hbm, 71, rfl⟩
abbrev main_v32 : Ref sig .tc := ⟨.hbm, 72, rfl⟩
abbrev main_c_4 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_c_5 : Ref sig .tc := ⟨.hbm, 79, rfl⟩
abbrev main_v38 : Ref sig .tc := ⟨.hbm, 80, rfl⟩
abbrev main_v39 : Ref sig .tc := ⟨.hbm, 81, rfl⟩
abbrev main_c_6 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_cst_7 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_8 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_call2_v0 : Ref sig .tc := ⟨.hbm, 123, rfl⟩
abbrev main_call2_cst : Ref sig .tc := ⟨.hbm, 124, rfl⟩
abbrev main_call2_v1 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_call3_v0 : Ref sig .tc := ⟨.hbm, 132, rfl⟩
abbrev main_call3_v1 : Ref sig .tc := ⟨.hbm, 133, rfl⟩
abbrev main_call3_cst : Ref sig .tc := ⟨.hbm, 134, rfl⟩
abbrev main_call3_v2 : Ref sig .tc := ⟨.hbm, 135, rfl⟩
abbrev main_call3_v3 : Ref sig .tc := ⟨.hbm, 136, rfl⟩
abbrev main_call3_cst_0 : Ref sig .tc := ⟨.hbm, 137, rfl⟩
abbrev main_call3_v4 : Ref sig .tc := ⟨.hbm, 138, rfl⟩
abbrev main_call3_v5 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_call4_v0 : Ref sig .tc := ⟨.hbm, 150, rfl⟩
abbrev main_call4_v1 : Ref sig .tc := ⟨.hbm, 151, rfl⟩
abbrev main_call4_cst : Ref sig .tc := ⟨.hbm, 152, rfl⟩
abbrev main_call4_v2 : Ref sig .tc := ⟨.hbm, 153, rfl⟩
abbrev main_call4_v3 : Ref sig .tc := ⟨.hbm, 154, rfl⟩
abbrev main_call4_cst_0 : Ref sig .tc := ⟨.hbm, 155, rfl⟩
abbrev main_call4_v4 : Ref sig .tc := ⟨.hbm, 156, rfl⟩
abbrev main_call4_v5 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_cst_9 : Ref sig .tc := ⟨.hbm, 165, rfl⟩
abbrev main_v93 : Ref sig .tc := ⟨.hbm, 166, rfl⟩
abbrev main_v94 : Ref sig .tc := ⟨.hbm, 167, rfl⟩
abbrev main_cst_10 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_11 : Ref sig .tc := ⟨.hbm, 175, rfl⟩
abbrev main_v101 : Ref sig .tc := ⟨.hbm, 176, rfl⟩
abbrev main_v102 : Ref sig .tc := ⟨.hbm, 177, rfl⟩
abbrev main_cst_12 : Ref sig .tc := ⟨.hbm, 178, rfl⟩
abbrev main_v103 : Ref sig .tc := ⟨.hbm, 179, rfl⟩
abbrev main_v104 : Ref sig .tc := ⟨.hbm, 180, rfl⟩
abbrev main_c_13 : Ref sig .tc := ⟨.hbm, 181, rfl⟩
abbrev main_call5_cst : Ref sig .tc := ⟨.hbm, 182, rfl⟩
abbrev main_call5_v0 : Ref sig .tc := ⟨.hbm, 183, rfl⟩
abbrev main_call5_v1 : Ref sig .tc := ⟨.hbm, 184, rfl⟩
abbrev main_call5_cst_0 : Ref sig .tc := ⟨.hbm, 185, rfl⟩
abbrev main_call5_v2 : Ref sig .tc := ⟨.hbm, 186, rfl⟩
abbrev main_call5_v3 : Ref sig .tc := ⟨.hbm, 187, rfl⟩
abbrev main_call5_v4 : Ref sig .tc := ⟨.hbm, 188, rfl⟩
abbrev main_call5_v5 : Ref sig .tc := ⟨.hbm, 189, rfl⟩
abbrev main_call5_v6 : Ref sig .tc := ⟨.hbm, 190, rfl⟩
abbrev main_call5_v7 : Ref sig .tc := ⟨.hbm, 191, rfl⟩
abbrev main_call5_cst_1 : Ref sig .tc := ⟨.hbm, 192, rfl⟩
abbrev main_call5_v8 : Ref sig .tc := ⟨.hbm, 193, rfl⟩
abbrev main_call5_cst_2 : Ref sig .tc := ⟨.hbm, 194, rfl⟩
abbrev main_call5_v9 : Ref sig .tc := ⟨.hbm, 195, rfl⟩
abbrev main_call5_v10 : Ref sig .tc := ⟨.hbm, 196, rfl⟩
abbrev main_call5_v11 : Ref sig .tc := ⟨.hbm, 197, rfl⟩
abbrev main_call5_v12 : Ref sig .tc := ⟨.hbm, 198, rfl⟩
abbrev main_call5_cst_3 : Ref sig .tc := ⟨.hbm, 199, rfl⟩
abbrev main_call5_v13 : Ref sig .tc := ⟨.hbm, 200, rfl⟩
abbrev main_call5_cst_4 : Ref sig .tc := ⟨.hbm, 201, rfl⟩
abbrev main_call5_call0_v0 : Ref sig .tc := ⟨.hbm, 202, rfl⟩
abbrev main_call5_call0_v1 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_cst_14 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_call6_v0 : Ref sig .tc := ⟨.hbm, 219, rfl⟩
abbrev main_call6_v1 : Ref sig .tc := ⟨.hbm, 220, rfl⟩
abbrev main_call6_cst : Ref sig .tc := ⟨.hbm, 221, rfl⟩
abbrev main_call6_v2 : Ref sig .tc := ⟨.hbm, 222, rfl⟩
abbrev main_call6_v3 : Ref sig .tc := ⟨.hbm, 223, rfl⟩
abbrev main_call6_cst_0 : Ref sig .tc := ⟨.hbm, 224, rfl⟩
abbrev main_call6_v4 : Ref sig .tc := ⟨.hbm, 225, rfl⟩
abbrev main_call6_v5 : Ref sig .tc := ⟨.hbm, 226, rfl⟩
abbrev main_v119 : Ref sig .tc := ⟨.hbm, 227, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x144_d1 : Shape.Concatenates [S800000x64, S800000x64, S800000x16] S800000x144 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000x64_S800000x64_S800000x64_S800000x64_S800000x256_d1 : Shape.Concatenates [S800000x64, S800000x64, S800000x64, S800000x64] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  slices_S800000x128_S800000x64_0_0 : S800000x128.Slices ![0, 0] S800000x64
  slices_S800000x128_S800000x64_0_64 : S800000x128.Slices ![0, 64] S800000x64
  bcast_S_S50000x64 : S_.BroadcastsInDim S50000x64 (![] : Fin 0 → Fin S50000x64.rank)
  bcast_S800000x64_S800000x64x1_0_1 : S800000x64.BroadcastsInDim S800000x64x1 (![0, 1] : Fin 2 → Fin S800000x64x1.rank)
  bcast_S800000x3_S800000x1x3_0_2 : S800000x3.BroadcastsInDim S800000x1x3 (![0, 2] : Fin 2 → Fin S800000x1x3.rank)
  bcast_S800000x64x1_S800000x64x3_0_1_2 : S800000x64x1.BroadcastsInDim S800000x64x3 (![0, 1, 2] : Fin 3 → Fin S800000x64x3.rank)
  bcast_S800000x1x3_S800000x64x3_0_1_2 : S800000x1x3.BroadcastsInDim S800000x64x3 (![0, 1, 2] : Fin 3 → Fin S800000x64x3.rank)
  shapeCasts_S800000x64x3_S800000x192 : S800000x64x3.ShapeCasts S800000x192
  bcast_S_S50000x192 : S_.BroadcastsInDim S50000x192 (![] : Fin 0 → Fin S50000x192.rank)
  shapeCasts_S50000x192_S50000x64x3 : S50000x192.ShapeCasts S50000x64x3
  reducesTo_S50000x64x3_S50000x64_d2 : S50000x64x3.ReducesTo [2] S50000x64
  h_S_ : 0 < S_.numel
  concatenates_S50000x64_S50000x64_S50000x64_S50000x192_d1 : Shape.Concatenates [S50000x64, S50000x64, S50000x64] S50000x192 1
  bcast_S1x64_S50000x64_0_1 : S1x64.BroadcastsInDim S50000x64 (![0, 1] : Fin 2 → Fin S50000x64.rank)
  bcast_S50000x64_S50000x64x1_0_1 : S50000x64.BroadcastsInDim S50000x64x1 (![0, 1] : Fin 2 → Fin S50000x64x1.rank)
  bcast_S50000x64x1_S50000x64x3_0_1_2 : S50000x64x1.BroadcastsInDim S50000x64x3 (![0, 1, 2] : Fin 3 → Fin S50000x64x3.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  gather_S800000x64_S800000x1_S800000x64_1_0_n_n_0_1_164_wf : GatherDims.WF S800000x64 S800000x1 S800000x64 [1] [0] [] [0] [] 1 ![1, 64]
  dot_S800000x144_S144x64_S800000x64_1_0_0_1_n_n_wf : DotDims.WF S800000x144 S144x64 S800000x64 [1] [0] [0] [1] [] []
  dot_S800000x64_S64x64_S800000x64_1_0_0_1_n_n_wf : DotDims.WF S800000x64 S64x64 S800000x64 [1] [0] [0] [1] [] []
  scatter_S800000x64_S800000x1_S800000x64_1_0_0_1_wf : ScatterDims.WF S800000x64 S800000x1 S800000x64 [1] [0] [0] 1
  gather_S50000x64_S800000x1_S800000x64_1_0_n_n_0_1_164_wf : GatherDims.WF S50000x64 S800000x1 S800000x64 [1] [0] [] [0] [] 1 ![1, 64]
  dot_S800000x256_S256x64_S800000x64_1_0_0_1_n_n_wf : DotDims.WF S800000x256 S256x64 S800000x64 [1] [0] [0] [1] [] []
  dot_S800000x64_S64x128_S800000x128_1_0_0_1_n_n_wf : DotDims.WF S800000x64 S64x128 S800000x128 [1] [0] [0] [1] [] []
  scatter_S50000x64_S800000x1_S800000x64_1_0_0_1_wf : ScatterDims.WF S50000x64 S800000x1 S800000x64 [1] [0] [0] 1
  scatter_S50000x192_S800000x1_S800000x192_1_0_0_1_wf : ScatterDims.WF S50000x192 S800000x1 S800000x192 [1] [0] [0] 1
  dot_S50000x192_S192x64_S50000x64_1_0_0_1_n_n_wf : DotDims.WF S50000x192 S192x64 S50000x64 [1] [0] [0] [1] [] []
  dot_S50000x64_S64x64_S50000x64_1_0_0_1_n_n_wf : DotDims.WF S50000x64 S64x64 S50000x64 [1] [0] [0] [1] [] []

variable [Facts₀]

def gather_S800000x64_S800000x1_S800000x64_1_0_n_n_0_1_164 : GatherDims S800000x64 S800000x1 S800000x64 where
  offsetDims := [1]
  collapsedSliceDims := [0]
  operandBatchingDims := []
  startIndicesBatchingDims := []
  startIndexMap := [0]
  indexVectorDim := 1
  sliceSizes := ![1, 64]
  wf := gather_S800000x64_S800000x1_S800000x64_1_0_n_n_0_1_164_wf
def dot_S800000x144_S144x64_S800000x64_1_0_0_1_n_n : DotDims S800000x144 S144x64 S800000x64 where
  lhsContracting := [1]
  rhsContracting := [0]
  lhsNonContracting := [0]
  rhsNonContracting := [1]
  lhsBatch := []
  rhsBatch := []
  wf := dot_S800000x144_S144x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S800000x64_S800000x1_S800000x64_1_0_0_1 : ScatterDims S800000x64 S800000x1 S800000x64 where
  updateWindowDims := [1]
  insertedWindowDims := [0]
  scatterDimsToOperandDims := [0]
  indexVectorDim := 1
  wf := scatter_S800000x64_S800000x1_S800000x64_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x256_S256x64_S800000x64_1_0_0_1_n_n : DotDims S800000x256 S256x64 S800000x64 where
  lhsContracting := [1]
  rhsContracting := [0]
  lhsNonContracting := [0]
  rhsNonContracting := [1]
  lhsBatch := []
  rhsBatch := []
  wf := dot_S800000x256_S256x64_S800000x64_1_0_0_1_n_n_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KRegion0.lean ====
import proofs.«166758_j50929722196748_2_alg».proof.Proof.Gen.Kernel.Launch
import proofs.«166758_j50929722196748_2_alg».proof.Proof.Gen.Kernel.Skeleton
import proofs.«166758_j50929722196748_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 (the triplet MLP kernel) at arbitrary region-entry contents

The kernel of region 0 loads each of its nine input windows' staging buffers whole, computes one value from them
(two-layer perceptron: three bf16 matrix products summed with a bias, `x * logistic x`, a fourth product and a bias),
and stores it over the whole of the output window's staging buffer.  So, at every grid point, the output buffer after
the body is a function of the nine input blocks alone, and every input buffer is left as found.  This file states
that function (`out0_9`), proves the body's triple against it, packages the pipeline's proof data at a PARAMETER
`V` (the TensorCore's buffer contents when the region is entered) and proves the body obligation at every point. -/

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, and the window is neither cut nor ever idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): where the window is not
    fetched its block index has not moved, and the window is neither cut nor ever idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): where the window is not
    fetched its block index has not moved, and the window is neither cut nor ever idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): where the window is not
    fetched its block index has not moved, and the window is neither cut nor ever idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): where the window is not
    fetched its block index has not moved, and the window is neither cut nor ever idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): where the window is not
    fetched its block index has not moved, and the window is neither cut nor ever idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s (`hA`) and whose body leaves the block in place (`hafter`): where the window is not
    fetched its block index has not moved, and the window is neither cut nor ever idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for any proof
    data whose array is `V`'s (`hA`) and whose body leaves the block in place (`hafter`): where the window is not
    fetched its block index has not moved, and the window is neither cut nor ever idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for any proof
    data whose array is `V`'s (`hA`) and whose body leaves the block in place (`hafter`): where the window is not
    fetched its block index has not moved, and the window is neither cut nor ever idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store move a whole buffer -/

abbrev r0_0 : Rect S6400x64 := Rect.unit (s := S6400x64) ![0, 0] S6400x64.size inb_S6400x64_S6400x64_0_0
abbrev r0_1 : Rect S6400x16 := Rect.unit (s := S6400x16) ![0, 0] S6400x16.size inb_S6400x16_S6400x16_0_0
abbrev r0_2 : Rect S64x64 := Rect.unit (s := S64x64) ![0, 0] S64x64.size inb_S64x64_S64x64_0_0
abbrev r0_3 : Rect S16x64 := Rect.unit (s := S16x64) ![0, 0] S16x64.size inb_S16x64_S16x64_0_0
abbrev r0_4 : Rect S1x64 := Rect.unit (s := S1x64) ![0, 0] S1x64.size inb_S1x64_S1x64_0_0

/-! ## What the body leaves in the output window's buffer -/

/-- Window 9's staging buffer after the body, from the nine input blocks: its one store, of the payload over the
    whole-buffer loads of the inputs. -/
def out0_9 (x0 : Vec F S6400x64 .f32) (x1 : Vec F S6400x64 .f32) (x2 : Vec F S6400x16 .f32) (x3 : Vec F S64x64 .f32) (x4 : Vec F S64x64 .f32) (x5 : Vec F S16x64 .f32) (x6 : Vec F S1x64 .f32) (x7 : Vec F S64x64 .f32) (x8 : Vec F S1x64 .f32) : Vec F S6400x64 .f32 :=
  View.canon [⟨r0_0, k0_pay1 (View.ld x0 r0_0) (View.ld x1 r0_0) (View.ld x2 r0_1) (View.ld x3 r0_2) (View.ld x4 r0_2) (View.ld x5 r0_3) (View.ld x6 r0_4) (View.ld x7 r0_2) (View.ld x8 r0_4)⟩]

/-- The store's rectangle is the whole buffer (checked by evaluation), so it covers it. -/
theorem cover0_9 (p0 : Vec F S6400x64 .f32) (y : S6400x64.Idx) :
    ∃ pc ∈ ([⟨r0_0, p0⟩] : List (View.Piece (Elt F) S6400x64 .f32)), y ∈ pc.1.set :=
  View.cover_of_tiled [⟨r0_0, p0⟩] S6400x64.size (by rfl) y

/-! ## The body's triple -/

set_option maxHeartbeats 1000000 in
/-- The kernel body on whole staging memrefs, the inputs' at read contents `xW` and the output's at anything, runs to
    the continuation holding the inputs' as they were and the output's at `out0_9` of the inputs'.  The grid
    coordinate `i` is not read. -/
theorem sound_kernel0 (c : Dev nD) (E : Set ℕ) (i : grid0.Coords) (arg1 : Memref sig .tc .vmem S6400x64 .f32) (harg1 : arg1.IsWhole) (arg2 : Memref sig .tc .vmem S6400x64 .f32) (harg2 : arg2.IsWhole) (arg3 : Memref sig .tc .vmem S6400x16 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S16x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S6400x64 .f32) (harg10 : arg10.IsWhole)
    (x0 : Vec F S6400x64 .f32) (x1 : Vec F S6400x64 .f32) (x2 : Vec F S6400x16 .f32) (x3 : Vec F S64x64 .f32) (x4 : Vec F S64x64 .f32) (x5 : Vec F S16x64 .f32) (x6 : Vec F S1x64 .f32) (x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9 arg10 harg10) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-! ## The pipeline's proof data -/

/-- The proof data of pipeline 0 on core `c`: the arrays as the region finds them (`V`); after the body at
    point `t` each input's buffer at its block and the output's at `out0_9` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KRegion1.lean ====
/- Kernel region 1 (the edge network) of `Cert.Kernel`'s @main, at the TensorCore buffer contents `V` the region is
   entered with: each window's block at a point, what the body leaves in the output window's staging buffer as a
   function of the input blocks (over the payloads `k1_pay1`, `k1_pay2`), the body's triple, the pipeline's proof
   data and the body obligation at every point. Every window's block is loaded whole, and the one output block is
   stored whole, so the single store covers the output buffer. -/
import proofs.«166758_j50929722196748_2_alg».proof.Proof.Gen.Kernel.Launch
import proofs.«166758_j50929722196748_2_alg».proof.Proof.Gen.Kernel.Skeleton
import proofs.«166758_j50929722196748_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, and the body leaves the block in place (`hafter`); the window is uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: where it is not
    fetched its block index has not moved, and the body leaves the block in place (`hafter`); the window is uncut and
    never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: where it is not
    fetched its block index has not moved, and the body leaves the block in place (`hafter`); the window is uncut and
    never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not: where it is not
    fetched its block index has not moved, and the body leaves the block in place (`hafter`); the window is uncut and
    never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not: where it is not
    fetched its block index has not moved, and the body leaves the block in place (`hafter`); the window is uncut and
    never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not: where it is not
    fetched its block index has not moved, and the body leaves the block in place (`hafter`); the window is uncut and
    never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not: where it is not
    fetched its block index has not moved, and the body leaves the block in place (`hafter`); the window is uncut and
    never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not: where it is not
    fetched its block index has not moved, and the body leaves the block in place (`hafter`); the window is uncut and
    never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not: where it is not
    fetched its block index has not moved, and the body leaves the block in place (`hafter`); the window is uncut and
    never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not: where it is not
    fetched its block index has not moved, and the body leaves the block in place (`hafter`); the window is uncut and
    never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not: where it is not
    fetched its block index has not moved, and the body leaves the block in place (`hafter`); the window is uncut and
    never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not: where it is not
    fetched its block index has not moved, and the body leaves the block in place (`hafter`); the window is uncut and
    never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S3200x64 := Rect.unit (s := S3200x64) ![0, 0] S3200x64.size inb_S3200x64_S3200x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0
abbrev r1_3 : Rect S64x128 := Rect.unit (s := S64x128) ![0, 0] S64x128.size inb_S64x128_S64x128_0_0
abbrev r1_4 : Rect S1x128 := Rect.unit (s := S1x128) ![0, 0] S1x128.size inb_S1x128_S1x128_0_0
abbrev r1_5 : Rect S3200x3 := Rect.unit (s := S3200x3) ![0, 0] S3200x3.size inb_S3200x3_S3200x3_0_0
abbrev r1_6 : Rect S3200x256 := Rect.unit (s := S3200x256) ![0, 0] S3200x256.size inb_S3200x256_S3200x256_0_0

/-! ## What the body leaves in the output window's buffer -/

/-- Window 12's staging buffer after the body, from the input windows' blocks: its one store, of the whole block,
    whose payload is the gated concatenation `k1_pay1` over the hidden activation `k1_pay2`. -/
def out1_12 (x0 : Vec F S3200x64 .f32) (x1 : Vec F S3200x64 .f32) (x2 : Vec F S3200x64 .f32) (x3 : Vec F S3200x64 .f32) (x4 : Vec F S3200x3 .f32) (x5 : Vec F S64x64 .f32) (x6 : Vec F S64x64 .f32) (x7 : Vec F S64x64 .f32) (x8 : Vec F S64x64 .f32) (x9 : Vec F S1x64 .f32) (x10 : Vec F S64x128 .f32) (x11 : Vec F S1x128 .f32) : Vec F S3200x256 .f32 :=
  View.canon [⟨r1_6, k1_pay1 (k1_pay2 (View.ld x0 r1_0) (View.ld x1 r1_0) (View.ld x2 r1_0) (View.ld x3 r1_0) (View.ld x5 r1_1) (View.ld x6 r1_1) (View.ld x7 r1_1) (View.ld x8 r1_1) (View.ld x9 r1_2)) (View.ld x10 r1_3) (View.ld x11 r1_4) (View.ld x4 r1_5)⟩]

/-- The store is of the whole buffer (checked by evaluation), so it covers it. -/
theorem cover1_12 (p0 : Vec F S3200x256 .f32) (y : S3200x256.Idx) :
    ∃ pc ∈ ([⟨r1_6, p0⟩] : List (View.Piece (Elt F) S3200x256 .f32)), y ∈ pc.1.set :=
  View.cover_of_tiled [⟨r1_6, p0⟩] S3200x256.size (by rfl) y

/-! ## The body's triple -/

set_option maxHeartbeats 1000000 in
/-- The kernel body on whole staging memrefs, the inputs' at read contents `xW` and the output's at anything, runs to
    the continuation holding the inputs' as they were and the output's at `out1_12` of the inputs'. -/
theorem sound_kernel1 (c : Dev nD) (E : Set ℕ) (i : grid1.Coords) (arg1 : Memref sig .tc .vmem S3200x64 .f32) (harg1 : arg1.IsWhole) (arg2 : Memref sig .tc .vmem S3200x64 .f32) (harg2 : arg2.IsWhole) (arg3 : Memref sig .tc .vmem S3200x64 .f32) (harg3 : arg3.IsWhole) (arg4 : Memref sig .tc .vmem S3200x64 .f32) (harg4 : arg4.IsWhole) (arg5 : Memref sig .tc .vmem S3200x3 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S3200x256 .f32) (harg13 : arg13.IsWhole)
    (x0 : Vec F S3200x64 .f32) (x1 : Vec F S3200x64 .f32) (x2 : Vec F S3200x64 .f32) (x3 : Vec F S3200x64 .f32) (x4 : Vec F S3200x3 .f32) (x5 : Vec F S64x64 .f32) (x6 : Vec F S64x64 .f32) (x7 : Vec F S64x64 .f32) (x8 : Vec F S64x64 .f32) (x9 : Vec F S1x64 .f32) (x10 : Vec F S64x128 .f32) (x11 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out1_12 x0 x1 x2 x3 x4 x5 x6 x7 x8 x9 x10 x11)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover1_12 _)

/-! ## The pipeline's proof data -/

/-- The proof data of pipeline 1 on core `c`: the arrays as the region finds them (`V`); after the body at point `t`
    each input's buffer at its block and the output's at `out1_12` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
import proofs.«166758_j50929722196748_2_alg».proof.Proof.Gen.Kernel.Launch
import proofs.«166758_j50929722196748_2_alg».proof.Proof.Gen.Kernel.Skeleton
import proofs.«166758_j50929722196748_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents is decided by structural recursion, one step per coordinate
-- of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 2 of @main: custom_call 2, `cc2_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): unfetched, the block index
    has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s (`hA`) and whose body leaves the block in place (`hafter`): unfetched, the block index
    has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof
    data whose array is `V`'s (`hA`) and whose body leaves the block in place (`hafter`): unfetched, the block index
    has not moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for any proof
    data whose array is `V`'s (`hA`) and whose body leaves the block in place (`hafter`): unfetched, the block index
    has not moved; the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not, for any proof
    data whose array is `V`'s (`hA`) and whose body leaves the block in place (`hafter`): unfetched, the block index
    has not moved; the window is uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not, for any proof
    data whose array is `V`'s (`hA`) and whose body leaves the block in place (`hafter`): unfetched, the block index
    has not moved; the window is uncut and never idle. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not, for any proof
    data whose array is `V`'s (`hA`) and whose body leaves the block in place (`hafter`): unfetched, the block index
    has not moved; the window is uncut and never idle. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's current staging buffer holds its block at every point, fetched there or not, for any proof
    data whose array is `V`'s (`hA`) and whose body leaves the block in place (`hafter`): unfetched, the block index
    has not moved; the window is uncut and never idle. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- Input window 12's current staging buffer holds its block at every point, fetched there or not, for any proof
    data whose array is `V`'s (`hA`) and whose body leaves the block in place (`hafter`): unfetched, the block index
    has not moved; the window is uncut and never idle. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
/-- Input window 13's current staging buffer holds its block at every point, fetched there or not, for any proof
    data whose array is `V`'s (`hA`) and whose body leaves the block in place (`hafter`): unfetched, the block index
    has not moved; the window is uncut and never idle. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
/-- Input window 14's current staging buffer holds its block at every point, fetched there or not, for any proof
    data whose array is `V`'s (`hA`) and whose body leaves the block in place (`hafter`): unfetched, the block index
    has not moved; the window is uncut and never idle. -/
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)
/-- Input window 15's current staging buffer holds its block at every point, fetched there or not, for any proof
    data whose array is `V`'s (`hA`) and whose body leaves the block in place (`hafter`): unfetched, the block index
    has not moved; the window is uncut and never idle. -/
theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)
/-- Input window 16's current staging buffer holds its block at every point, fetched there or not, for any proof
    data whose array is `V`'s (`hA`) and whose body leaves the block in place (`hafter`): unfetched, the block index
    has not moved; the window is uncut and never idle. -/
theorem before2_16_of {c : Dev nD} (dat : Dat τ (Elt F) Unit ℕ (UR sig nD τ) ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)
/-- Input window 17's current staging buffer holds its block at every point, fetched there or not, for any proof
    data whose array is `V`'s (`hA`) and whose body leaves the block in place (`hafter`): unfetched, the block index
    has not moved; the window is uncut and never idle. -/
theorem before2_17_of {c : Dev nD} (dat : Dat τ (Elt F) Unit ℕ (UR sig nD τ) ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)
/-- Input window 18's current staging buffer holds its block at every point, fetched there or not, for any proof
    data whose array is `V`'s (`hA`) and whose body leaves the block in place (`hafter`): unfetched, the block index
    has not moved; the window is uncut and never idle. -/
theorem before2_18_of {c : Dev nD} (dat : Dat τ (Elt F) Unit ℕ (UR sig nD τ) ℕ cfg2 c) (hA : dat.A 18 = V c (Pipeline.arrRef spec2 18))
    (hafter : ∀ t, dat.after 18 t = iblk2 V c 18 t) (t : Fin cfg2.N) (d) : dat.before 18 t d = iblk2 V c 18 t :=
  (dat.before_in_eq_fetched 18 rfl (fun _ => rfl) (fun _ _ _ => rfl) (fun t => by rw [hafter]; unfold Dat.blockOf iblk2; rw [hA]; try rfl) t d).trans
    (by unfold Dat.fetched Dat.blockOf iblk2; rw [hA]; try rfl)
/-- Input window 19's current staging buffer holds its block at every point, fetched there or not, for any proof
    data whose array is `V`'s (`hA`) and whose body leaves the block in place (`hafter`): unfetched, the block index
    has not moved; the window is uncut and never idle. -/
theorem before2_19_of {c : Dev nD} (dat : Dat τ (Elt F) Unit ℕ (UR sig nD τ) ℕ cfg2 c) (hA : dat.A 19 = V c (Pipeline.arrRef spec2 19))
    (hafter : ∀ t, dat.after 19 t = iblk2 V c 19 t) (t : Fin cfg2.N) (d) : dat.before 19 t d = iblk2 V c 19 t :=
  (dat.before_in_eq_fetched 19 rfl (fun _ => rfl) (fun _ _ _ => rfl) (fun t => by rw [hafter]; unfold Dat.blockOf iblk2; rw [hA]; try rfl) t d).trans
    (by unfold Dat.fetched Dat.blockOf iblk2; rw [hA]; try rfl)
/-- Input window 20's current staging buffer holds its block at every point, fetched there or not, for any proof
    data whose array is `V`'s (`hA`) and whose body leaves the block in place (`hafter`): unfetched, the block index
    has not moved; the window is uncut and never idle. -/
theorem before2_20_of {c : Dev nD} (dat : Dat τ (Elt F) Unit ℕ (UR sig nD τ) ℕ cfg2 c) (hA : dat.A 20 = V c (Pipeline.arrRef spec2 20))
    (hafter : ∀ t, dat.after 20 t = iblk2 V c 20 t) (t : Fin cfg2.N) (d) : dat.before 20 t d = iblk2 V c 20 t :=
  (dat.before_in_eq_fetched 20 rfl (fun _ => rfl) (fun _ _ _ => rfl) (fun t => by rw [hafter]; unfold Dat.blockOf iblk2; rw [hA]; try rfl) t d).trans
    (by unfold Dat.fetched Dat.blockOf iblk2; rw [hA]; try rfl)
/-- Input window 21's current staging buffer holds its block at every point, fetched there or not, for any proof
    data whose array is `V`'s (`hA`) and whose body leaves the block in place (`hafter`): unfetched, the block index
    has not moved; the window is uncut and never idle. -/
theorem before2_21_of {c : Dev nD} (dat : Dat τ (Elt F) Unit ℕ (UR sig nD τ) ℕ cfg2 c) (hA : dat.A 21 = V c (Pipeline.arrRef spec2 21))
    (hafter : ∀ t, dat.after 21 t = iblk2 V c 21 t) (t : Fin cfg2.N) (d) : dat.before 21 t d = iblk2 V c 21 t :=
  (dat.before_in_eq_fetched 21 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2000x64 := Rect.unit (s := S2000x64) ![0, 0] S2000x64.size inb_S2000x64_S2000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0
abbrev r2_3 : Rect S2000x256 := Rect.unit (s := S2000x256) ![0, 0] S2000x256.size inb_S2000x256_S2000x256_0_0

/-! ## What the body leaves in the output window's buffer -/

/-- Window 22's staging buffer after the body, from the input windows' blocks: its one store, of the whole block.
    The payload is the node update composed of the skeleton's payloads: the three vector channels passed through
    (`k2_pay1` … `k2_pay3`), the scalar update (`k2_pay8` over the message `k2_pay7`), the gate (`k2_pay9` over the
    rounded operands `k2_pay4` … `k2_pay6`), and the assembled row (`k2_pay10`). -/
def out2_22 (x0 : Vec F S2000x64 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .f32) (x8 : Vec F S64x64 .f32) (x9 : Vec F S64x64 .f32) (x10 : Vec F S64x64 .f32) (x11 : Vec F S1x64 .f32) (x12 : Vec F S64x64 .f32) (x13 : Vec F S1x64 .f32) (x14 : Vec F S64x64 .f32) (x15 : Vec F S64x64 .f32) (x16 : Vec F S64x64 .f32) (x17 : Vec F S1x64 .f32) (x18 : Vec F S64x64 .f32) (x19 : Vec F S1x64 .f32) (x20 : Vec F S1x64 .f32) (x21 : Vec F S1x64 .f32) : Vec F S2000x256 .f32 :=
  View.canon [⟨r2_3, k2_pay10 (k2_pay1 (View.ld x2 r2_0)) (k2_pay2 (View.ld x3 r2_0)) (k2_pay3 (View.ld x4 r2_0))
      (k2_pay8 (View.ld x0 r2_0) (k2_pay7 (View.ld x0 r2_0) (View.ld x1 r2_0) (View.ld x2 r2_0) (View.ld x3 r2_0) (View.ld x4 r2_0) (View.ld x8 r2_1) (View.ld x9 r2_1) (View.ld x10 r2_1) (View.ld x11 r2_2)) (View.ld x12 r2_1) (View.ld x13 r2_2))
      (k2_pay9 (k2_pay4 (View.ld x0 r2_0)) (k2_pay5 (View.ld x1 r2_0)) (k2_pay6 (View.ld x2 r2_0) (View.ld x3 r2_0) (View.ld x4 r2_0)) (View.ld x14 r2_1) (View.ld x15 r2_1) (View.ld x16 r2_1) (View.ld x17 r2_2) (View.ld x18 r2_1) (View.ld x19 r2_2))
      (View.ld x5 r2_0) (View.ld x6 r2_0) (View.ld x7 r2_0) (View.ld x20 r2_2) (View.ld x21 r2_2)⟩]

/-- Its store is of the whole buffer, so it covers it. -/
theorem cover2_22 (p0 : Vec F S2000x256 .f32) (y : S2000x256.Idx) :
    ∃ pc ∈ ([⟨r2_3, p0⟩] : List (View.Piece (Elt F) S2000x256 .f32)), y ∈ pc.1.set :=
  View.cover_of_tiled [⟨r2_3, p0⟩] S2000x256.size (by rfl) y

/-! ## The body's triple -/

set_option maxHeartbeats 4000000 in
/-- The kernel body on whole staging memrefs, the inputs' at read contents `xW` and the output's at anything, runs to
    the continuation holding the inputs' as they were and the output's at `out2_22` of the inputs': every load is of a
    whole block, the arithmetic is the payloads', and the one store is of the whole output block. -/
theorem sound_kernel2 (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S64x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S1x64 .f32) (harg21 : arg21.IsWhole) (arg22 : Memref sig .tc .vmem S1x64 .f32) (harg22 : arg22.IsWhole) (arg23 : Memref sig .tc .vmem S2000x256 .f32) (harg23 : arg23.IsWhole)
    (x0 : Vec F S2000x64 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .f32) (x8 : Vec F S64x64 .f32) (x9 : Vec F S64x64 .f32) (x10 : Vec F S64x64 .f32) (x11 : Vec F S1x64 .f32) (x12 : Vec F S64x64 .f32) (x13 : Vec F S1x64 .f32) (x14 : Vec F S64x64 .f32) (x15 : Vec F S64x64 .f32) (x16 : Vec F S64x64 .f32) (x17 : Vec F S1x64 .f32) (x18 : Vec F S64x64 .f32) (x19 : Vec F S1x64 .f32) (x20 : Vec F S1x64 .f32) (x21 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare (out2_22 x0 x1 x2 x3 x4 x5 x6 x7 x8 x9 x10 x11 x12 x13 x14 x15 x16 x17 x18 x19 x20 x21)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf19; subst hf20; subst hf21
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  iexists _; isplitr
  swap; · iexact H22
  ipureintro
  exact View.read_writes_eq_canon _ _ _ (cover2_22 _)

/-! ## The pipeline's proof data -/

/-- The proof data of pipeline 2 on core `c`: the arrays as the region finds them (`V`); after the body at
    point `t` each input's buffer at its block and the output's at `out2_22` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => iblk2 V c 19 t
    | ⟨20, _⟩ => iblk2 V c 20 t
    | ⟨21, _⟩ => iblk2 V c 21 t
    | ⟨22, _⟩ => out2_22 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t)
    | ⟨_ + 23, h⟩ => absurd h (Nat.not_lt.2 (Nat.le_add_left _ _))
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = iblk2 V c 17 t := by dsimp only [dat2]
theorem after2_18 (c : Dev nD) (t : Fin cfg2.N) : (dat2 V c).after 18 t = iblk2 V c 18 t := by dsimp only [dat2]
theorem after2_19 (c : Dev nD) (t : Fin cfg2.N) : (dat2 V c).after 19 t = iblk2 V c 19 t := by dsimp only [dat2]
theorem after2_20 (c : Dev nD) (t : Fin cfg2.N) : (dat2 V c).after 20 t = iblk2 V c 20 t := by dsimp only [dat2]
theorem after2_21 (c : Dev nD) (t : Fin cfg2.N) : (dat2 V c).after 21 t = iblk2 V c 21 t := by dsimp only [dat2]
theorem after2_22 (c : Dev nD) (t : Fin cfg2.N) : (dat2 V c).after 22 t = out2_22 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d
theorem before2_16 (c : Dev nD) (t : Fin cfg2.N) (d) : (dat2 V c).before 16 t d = iblk2 V c 16 t :=
  before2_16_of V (dat2 V c) (A_eq2 V c 16) (after2_16 V c) t d
theorem before2_17 (c : Dev nD) (t : Fin cfg2.N) (d) : (dat2 V c).before 17 t d = iblk2 V c 17 t :=
  before2_17_of V (dat2 V c) (A_eq2 V c 17) (after2_17 V c) t d
theorem before2_18 (c : Dev nD) (t : Fin cfg2.N) (d) : (dat2 V c).before 18 t d = iblk2 V c 18 t :=
  before2_18_of V (dat2 V c) (A_eq2 V c 18) (after2_18 V c) t d
theorem before2_19 (c : Dev nD) (t : Fin cfg2.N) (d) : (dat2 V c).before 19 t d = iblk2 V c 19 t :=
  before2_19_of V (dat2 V c) (A_eq2 V c 19) (after2_19 V c) t d
theorem before2_20 (c : Dev nD) (t : Fin cfg2.N) (d) : (dat2 V c).before 20 t d = iblk2 V c 20 t :=
  before2_20_of V (dat2 V c) (A_eq2 V c 20) (after2_20 V c) t d
theorem before2_21 (c : Dev nD) (t : Fin cfg2.N) (d) : (dat2 V c).before 21 t d = iblk2 V c 21 t :=
  before2_21_of V (dat2 V c) (A_eq2 V c 21) (after2_21 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d))
    ∗ (∃ d, owns (c : Thread nD τ) (st2_17 t) fullShare ((dat2 V c).before 17 t d))
    ∗ (∃ d, owns (c : Thread nD τ) (st2_18 t) fullShare ((dat2 V c).before 18 t d))
    ∗ (∃ d, owns (c : Thread nD τ) (st2_19 t) fullShare ((dat2 V c).before 19 t d))
    ∗ (∃ d, owns (c : Thread nD τ) (st2_20 t) fullShare ((dat2 V c).before 20 t d))
    ∗ (∃ d, owns (c : Thread nD τ) (st2_21 t) fullShare ((dat2 V c).before 21 t d))
    ∗ (∃ d, owns (c : Thread nD τ) (st2_22 t) fullShare ((dat2 V c).before 22 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t)
    ∗ owns (c : Thread nD τ) (st2_17 t) fullShare ((dat2 V c).after 17 t)
    ∗ owns (c : Thread nD τ) (st2_18 t) fullShare ((dat2 V c).after 18 t)
    ∗ owns (c : Thread nD τ) (st2_19 t) fullShare ((dat2 V c).after 19 t)
    ∗ owns (c : Thread nD τ) (st2_20 t) fullShare ((dat2 V c).after 20 t)
    ∗ owns (c : Thread nD τ) (st2_21 t) fullShare ((dat2 V c).after 21 t)
    ∗ owns (c : Thread nD τ) (st2_22 t) fullShare ((dat2 V c).after 22 t))

set_option maxHeartbeats 4000000 in
/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14, before2_15, before2_16, before2_17, before2_18, before2_19, before2_20, before2_21]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16, after2_17, after2_18, after2_19, after2_20, after2_21, after2_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel2 c Set.univ _ _ _ _ _ _ _ _ _ _ _ _ _ _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.KRun.lean ====
/-
  The run of @main as a chain of segments: nine stretches of host operations and three kernel regions. Between two segments
  every unscoped buffer of the core is held whole at named contents: the launch memory, then each host stretch's operations
  applied in order, then, at a region's exit, the region's arrays at what its write-backs leave (an input array as entered, the
  output array at the fold of the blocks the grid points flush) and every other buffer as entered. No host operation and no
  region writes an argument array, so each argument walks back through the chain to its launch contents; the result
  buffers are read off the last contents by name.
-/
import proofs.«166758_j50929722196748_2_alg».proof.Proof.Gen.Kernel.Launch
import proofs.«166758_j50929722196748_2_alg».proof.Proof.Gen.Kernel.Skeleton
import proofs.«166758_j50929722196748_2_alg».proof.Proof.Gen.Kernel.Points
import proofs.«166758_j50929722196748_2_alg».proof.Proof.Gen.Kernel.Regions
import proofs.«166758_j50929722196748_2_alg».proof.Proof.KRegion0
import proofs.«166758_j50929722196748_2_alg».proof.Proof.KRegion1
import proofs.«166758_j50929722196748_2_alg».proof.Proof.KRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- After the host stretch `hostOps0_1`. -/
abbrev W2 : Dev nD → Valuation τ sig (Elt F) := fun c => StableHlo.after hostOps0_1 (W1 m ρ c)
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
/-- After the host stretch `hostOps0_2`. -/
abbrev W3 : Dev nD → Valuation τ sig (Elt F) := fun c => StableHlo.after hostOps0_2 (W2 m ρ c)
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
/-- Region 0's entry contents read at the TensorCore's references. -/
abbrev Vin0 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (Vin0 m ρ) c).arrAt w cfg0.N
theorem W4_arr (c : Dev nD) (w : Fin cfg0.W) :
    W4 m ρ c (Proc.devRef .tc (Pipeline.arrRef spec0 w)) = (dat0 (Vin0 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev Vout0 : (c : Dev nD) → (b : Ref sig .tc) → Buf (Elt F) ((c : Thread nD τ).loc b) := fun c b => W4 m ρ c b
theorem hF0 (c : Dev nD) (w : Fin cfg0.W) : (dat0 (Vin0 m ρ) c).arrAt w cfg0.N = Vout0 m ρ c (Pipeline.arrRef spec0 w) :=
  (W4_arr m ρ c w).symm
theorem hrest0 (c : Dev nD) : ∀ b, b ∉ Finset.univ.image (Pipeline.arrRef spec0) → Vout0 m ρ c b = Vin0 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h
/-- After the host stretch `hostOps1_1`. -/
abbrev W6 : Dev nD → Valuation τ sig (Elt F) := fun c => StableHlo.after hostOps1_1 (W5 m ρ c)
theorem W6_of (c : Dev nD) (r : Ref sig .tc) (h : r ∉ hostOps1_1_W) :
    W6 m ρ c (Proc.devRef .tc r) = W5 m ρ c (Proc.devRef .tc r) :=
  StableHlo.after_of_writes_sub hostOps1_1 _ hostOps1_1_writes h
/-- After the host stretch `hostOps1_2`. -/
abbrev W7 : Dev nD → Valuation τ sig (Elt F) := fun c => StableHlo.after hostOps1_2 (W6 m ρ c)
theorem W7_of (c : Dev nD) (r : Ref sig .tc) (h : r ∉ hostOps1_2_W) :
    W7 m ρ c (Proc.devRef .tc r) = W6 m ρ c (Proc.devRef .tc r) :=
  StableHlo.after_of_writes_sub hostOps1_2 _ hostOps1_2_writes h
/-- After the host stretch `hostOps1_3`. -/
abbrev W8 : Dev nD → Valuation τ sig (Elt F) := fun c => StableHlo.after hostOps1_3 (W7 m ρ c)
theorem W8_of (c : Dev nD) (r : Ref sig .tc) (h : r ∉ hostOps1_3_W) :
    W8 m ρ c (Proc.devRef .tc r) = W7 m ρ c (Proc.devRef .tc r) :=
  StableHlo.after_of_writes_sub hostOps1_3 _ hostOps1_3_writes h
/-- Region 1's entry contents read at the TensorCore's references. -/
abbrev Vin1 : (c : Dev nD) → (b : Ref sig .tc) → Buf (Elt F) ((c : Thread nD τ).loc b) := fun c b => W8 m ρ c b
/-- At region 1's exit: its arrays at what the pipeline leaves, every other buffer as entered. -/
def W9 (c : Dev nD) : Valuation τ sig (Elt F) :=
  Pipeline.withArrays spec1 c (W8 m ρ c) fun w => (dat1 (Vin1 m ρ) c).arrAt w cfg1.N
theorem W9_arr (c : Dev nD) (w : Fin cfg1.W) :
    W9 m ρ c (Proc.devRef .tc (Pipeline.arrRef spec1 w)) = (dat1 (Vin1 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
abbrev Vout1 : (c : Dev nD) → (b : Ref sig .tc) → Buf (Elt F) ((c : Thread nD τ).loc b) := fun c b => W9 m ρ c b
theorem hF1 (c : Dev nD) (w : Fin cfg1.W) : (dat1 (Vin1 m ρ) c).arrAt w cfg1.N = Vout1 m ρ c (Pipeline.arrRef spec1 w) :=
  (W9_arr m ρ c w).symm
theorem hrest1 (c : Dev nD) : ∀ b, b ∉ Finset.univ.image (Pipeline.arrRef spec1) → Vout1 m ρ c b = Vin1 m ρ c b :=
  fun b hb => W9_of_ne m ρ c b fun w e => hb (Finset.mem_image.mpr ⟨w, Finset.mem_univ _, e⟩)
/-- After the host stretch `hostOps2`. -/
abbrev W10 : Dev nD → Valuation τ sig (Elt F) := fun c => StableHlo.after hostOps2 (W9 m ρ c)
theorem W10_of (c : Dev nD) (r : Ref sig .tc) (h : r ∉ hostOps2_W) :
    W10 m ρ c (Proc.devRef .tc r) = W9 m ρ c (Proc.devRef .tc r) :=
  StableHlo.after_of_writes_sub hostOps2 _ hostOps2_writes h
/-- Region 2's entry contents read at the TensorCore's references. -/
abbrev Vin2 : (c : Dev nD) → (b : Ref sig .tc) → Buf (Elt F) ((c : Thread nD τ).loc b) := fun c b => W10 m ρ c b
/-- At region 2's exit: its arrays at what the pipeline leaves, every other buffer as entered. -/
def W11 (c : Dev nD) : Valuation τ sig (Elt F) :=
  Pipeline.withArrays spec2 c (W10 m ρ c) fun w => (dat2 (Vin2 m ρ) c).arrAt w cfg2.N
theorem W11_arr (c : Dev nD) (w : Fin cfg2.W) :
    W11 m ρ c (Proc.devRef .tc (Pipeline.arrRef spec2 w)) = (dat2 (Vin2 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
abbrev Vout2 : (c : Dev nD) → (b : Ref sig .tc) → Buf (Elt F) ((c : Thread nD τ).loc b) := fun c b => W11 m ρ c b
theorem hF2 (c : Dev nD) (w : Fin cfg2.W) : (dat2 (Vin2 m ρ) c).arrAt w cfg2.N = Vout2 m ρ c (Pipeline.arrRef spec2 w) :=
  (W11_arr m ρ c w).symm
theorem hrest2 (c : Dev nD) : ∀ b, b ∉ Finset.univ.image (Pipeline.arrRef spec2) → Vout2 m ρ c b = Vin2 m ρ c b :=
  fun b hb => W11_of_ne m ρ c b fun w e => hb (Finset.mem_image.mpr ⟨w, Finset.mem_univ _, e⟩)
/-- After the host stretch `hostOps3`. -/
abbrev W12 : Dev nD → Valuation τ sig (Elt F) := fun c => StableHlo.after hostOps3 (W11 m ρ c)
theorem W12_of (c : Dev nD) (r : Ref sig .tc) (h : r ∉ hostOps3_W) :
    W12 m ρ c (Proc.devRef .tc r) = W11 m ρ c (Proc.devRef .tc r) :=
  StableHlo.after_of_writes_sub hostOps3 _ hostOps3_writes h

/-! ## The arguments end as launched -/
theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of m ρ c main_arg0 (by decide)
    _ = W10 m ρ c (Proc.devRef .tc main_arg0) := (W11_arr m ρ c 0).trans (((dat2 (Vin2 m ρ) c).arrAt_in 0 rfl _).trans (A_eq2 (Vin2 m ρ) c 0))
    _ = W9 m ρ c (Proc.devRef .tc main_arg0) := W10_of m ρ c main_arg0 (by decide)
    _ = W8 m ρ c (Proc.devRef .tc main_arg0) := W9_of_ne m ρ c main_arg0 (by decide)
    _ = W7 m ρ c (Proc.devRef .tc main_arg0) := W8_of m ρ c main_arg0 (by decide)
    _ = W6 m ρ c (Proc.devRef .tc main_arg0) := W7_of m ρ c main_arg0 (by decide)
    _ = W5 m ρ c (Proc.devRef .tc main_arg0) := W6_of m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl
theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of m ρ c main_arg1 (by decide)
    _ = W10 m ρ c (Proc.devRef .tc main_arg1) := W11_of_ne m ρ c main_arg1 (by decide)
    _ = W9 m ρ c (Proc.devRef .tc main_arg1) := W10_of m ρ c main_arg1 (by decide)
    _ = W8 m ρ c (Proc.devRef .tc main_arg1) := W9_of_ne m ρ c main_arg1 (by decide)
    _ = W7 m ρ c (Proc.devRef .tc main_arg1) := W8_of m ρ c main_arg1 (by decide)
    _ = W6 m ρ c (Proc.devRef .tc main_arg1) := W7_of m ρ c main_arg1 (by decide)
    _ = W5 m ρ c (Proc.devRef .tc main_arg1) := W6_of m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl
theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of m ρ c main_arg2 (by decide)
    _ = W10 m ρ c (Proc.devRef .tc main_arg2) := W11_of_ne m ρ c main_arg2 (by decide)
    _ = W9 m ρ c (Proc.devRef .tc main_arg2) := W10_of m ρ c main_arg2 (by decide)
    _ = W8 m ρ c (Proc.devRef .tc main_arg2) := W9_of_ne m ρ c main_arg2 (by decide)
    _ = W7 m ρ c (Proc.devRef .tc main_arg2) := W8_of m ρ c main_arg2 (by decide)
    _ = W6 m ρ c (Proc.devRef .tc main_arg2) := W7_of m ρ c main_arg2 (by decide)
    _ = W5 m ρ c (Proc.devRef .tc main_arg2) := W6_of m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of m ρ c main_arg2 (by decide)
    _ = m ((c : Thread nD τ).loc main_arg2) := rfl
theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of m ρ c main_arg3 (by decide)
    _ = W10 m ρ c (Proc.devRef .tc main_arg3) := W11_of_ne m ρ c main_arg3 (by decide)
    _ = W9 m ρ c (Proc.devRef .tc main_arg3) := W10_of m ρ c main_arg3 (by decide)
    _ = W8 m ρ c (Proc.devRef .tc main_arg3) := (W9_arr m ρ c 2).trans (((dat1 (Vin1 m ρ) c).arrAt_in 2 rfl _).trans (A_eq1 (Vin1 m ρ) c 2))
    _ = W7 m ρ c (Proc.devRef .tc main_arg3) := W8_of m ρ c main_arg3 (by decide)
    _ = W6 m ρ c (Proc.devRef .tc main_arg3) := W7_of m ρ c main_arg3 (by decide)
    _ = W5 m ρ c (Proc.devRef .tc main_arg3) := W6_of m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl
theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := W12_of m ρ c main_arg4 (by decide)
    _ = W10 m ρ c (Proc.devRef .tc main_arg4) := W11_of_ne m ρ c main_arg4 (by decide)
    _ = W9 m ρ c (Proc.devRef .tc main_arg4) := W10_of m ρ c main_arg4 (by decide)
    _ = W8 m ρ c (Proc.devRef .tc main_arg4) := (W9_arr m ρ c 4).trans (((dat1 (Vin1 m ρ) c).arrAt_in 4 rfl _).trans (A_eq1 (Vin1 m ρ) c 4))
    _ = W7 m ρ c (Proc.devRef .tc main_arg4) := W8_of m ρ c main_arg4 (by decide)
    _ = W6 m ρ c (Proc.devRef .tc main_arg4) := W7_of m ρ c main_arg4 (by decide)
    _ = W5 m ρ c (Proc.devRef .tc main_arg4) := W6_of m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl
theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of m ρ c main_arg5 (by decide)
    _ = W10 m ρ c (Proc.devRef .tc main_arg5) := W11_of_ne m ρ c main_arg5 (by decide)
    _ = W9 m ρ c (Proc.devRef .tc main_arg5) := W10_of m ρ c main_arg5 (by decide)
    _ = W8 m ρ c (Proc.devRef .tc main_arg5) := W9_of_ne m ρ c main_arg5 (by decide)
    _ = W7 m ρ c (Proc.devRef .tc main_arg5) := W8_of m ρ c main_arg5 (by decide)
    _ = W6 m ρ c (Proc.devRef .tc main_arg5) := W7_of m ρ c main_arg5 (by decide)
    _ = W5 m ρ c (Proc.devRef .tc main_arg5) := W6_of m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of m ρ c main_arg5 (by decide)
    _ = m ((c : Thread nD τ).loc main_arg5) := rfl
theorem W12_main_arg6 (c : Dev nD) : W12 m ρ c (Proc.devRef .tc main_arg6) = m ((c : Thread nD τ).loc main_arg6) :=
  calc W12 m ρ c (Proc.devRef .tc main_arg6)
    _ = W11 m ρ c (Proc.devRef .tc main_arg6) := W12_of m ρ c main_arg6 (by decide)
    _ = W10 m ρ c (Proc.devRef .tc main_arg6) := W11_of_ne m ρ c main_arg6 (by decide)
    _ = W9 m ρ c (Proc.devRef .tc main_arg6) := W10_of m ρ c main_arg6 (by decide)
    _ = W8 m ρ c (Proc.devRef .tc main_arg6) := W9_of_ne m ρ c main_arg6 (by decide)
    _ = W7 m ρ c (Proc.devRef .tc main_arg6) := W8_of m ρ c main_arg6 (by decide)
    _ = W6 m ρ c (Proc.devRef .tc main_arg6) := W7_of m ρ c main_arg6 (by decide)
    _ = W5 m ρ c (Proc.devRef .tc main_arg6) := W6_of m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of m ρ c main_arg6 (by decide)
    _ = W0 m ρ c (Proc.devRef .tc main_arg6) := W1_of m ρ c main_arg6 (by decide)
    _ = m ((c : Thread nD τ).loc main_arg6) := rfl
theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := W12_of m ρ c main_arg7 (by decide)
    _ = W10 m ρ c (Proc.devRef .tc main_arg7) := W11_of_ne m ρ c main_arg7 (by decide)
    _ = W9 m ρ c (Proc.devRef .tc main_arg7) := W10_of m ρ c main_arg7 (by decide)
    _ = W8 m ρ c (Proc.devRef .tc main_arg7) := W9_of_ne m ρ c main_arg7 (by decide)
    _ = W7 m ρ c (Proc.devRef .tc main_arg7) := W8_of m ρ c main_arg7 (by decide)
    _ = W6 m ρ c (Proc.devRef .tc main_arg7) := W7_of m ρ c main_arg7 (by decide)
    _ = W5 m ρ c (Proc.devRef .tc main_arg7) := W6_of m ρ c main_arg7 (by decide)
    _ = W4 m ρ c (Proc.devRef .tc main_arg7) := W5_of m ρ c main_arg7 (by decide)
    _ = W3 m ρ c (Proc.devRef .tc main_arg7) := (W4_arr m ρ c 2).trans (((dat0 (Vin0 m ρ) c).arrAt_in 2 rfl _).trans (A_eq0 (Vin0 m ρ) c 2))
    _ = W2 m ρ c (Proc.devRef .tc main_arg7) := W3_of m ρ c main_arg7 (by decide)
    _ = W1 m ρ c (Proc.devRef .tc main_arg7) := W2_of m ρ c main_arg7 (by decide)
    _ = W0 m ρ c (Proc.devRef .tc main_arg7) := W1_of m ρ c main_arg7 (by decide)
    _ = m ((c : Thread nD τ).loc main_arg7) := rfl
theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of m ρ c main_arg8 (by decide)
    _ = W10 m ρ c (Proc.devRef .tc main_arg8) := W11_of_ne m ρ c main_arg8 (by decide)
    _ = W9 m ρ c (Proc.devRef .tc main_arg8) := W10_of m ρ c main_arg8 (by decide)
    _ = W8 m ρ c (Proc.devRef .tc main_arg8) := W9_of_ne m ρ c main_arg8 (by decide)
    _ = W7 m ρ c (Proc.devRef .tc main_arg8) := W8_of m ρ c main_arg8 (by decide)
    _ = W6 m ρ c (Proc.devRef .tc main_arg8) := W7_of m ρ c main_arg8 (by decide)
    _ = W5 m ρ c (Proc.devRef .tc main_arg8) := W6_of m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of m ρ c main_arg8 (by decide)
    _ = W0 m ρ c (Proc.devRef .tc main_arg8) := W1_of m ρ c main_arg8 (by decide)
    _ = m ((c : Thread nD τ).loc main_arg8) := rfl
theorem W12_main_arg9 (c : Dev nD) : W12 m ρ c (Proc.devRef .tc main_arg9) = m ((c : Thread nD τ).loc main_arg9) :=
  calc W12 m ρ c (Proc.devRef .tc main_arg9)
    _ = W11 m ρ c (Proc.devRef .tc main_arg9) := W12_of m ρ c main_arg9 (by decide)
    _ = W10 m ρ c (Proc.devRef .tc main_arg9) := W11_of_ne m ρ c main_arg9 (by decide)
    _ = W9 m ρ c (Proc.devRef .tc main_arg9) := W10_of m ρ c main_arg9 (by decide)
    _ = W8 m ρ c (Proc.devRef .tc main_arg9) := W9_of_ne m ρ c main_arg9 (by decide)
    _ = W7 m ρ c (Proc.devRef .tc main_arg9) := W8_of m ρ c main_arg9 (by decide)
    _ = W6 m ρ c (Proc.devRef .tc main_arg9) := W7_of m ρ c main_arg9 (by decide)
    _ = W5 m ρ c (Proc.devRef .tc main_arg9) := W6_of m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of m ρ c main_arg9 (by decide)
    _ = W0 m ρ c (Proc.devRef .tc main_arg9) := W1_of m ρ c main_arg9 (by decide)
    _ = m ((c : Thread nD τ).loc main_arg9) := rfl
theorem W12_main_arg10 (c : Dev nD) : W12 m ρ c (Proc.devRef .tc main_arg10) = m ((c : Thread nD τ).loc main_arg10) :=
  calc W12 m ρ c (Proc.devRef .tc main_arg10)
    _ = W11 m ρ c (Proc.devRef .tc main_arg10) := W12_of m ρ c main_arg10 (by decide)
    _ = W10 m ρ c (Proc.devRef .tc main_arg10) := W11_of_ne m ρ c main_arg10 (by decide)
    _ = W9 m ρ c (Proc.devRef .tc main_arg10) := W10_of m ρ c main_arg10 (by decide)
    _ = W8 m ρ c (Proc.devRef .tc main_arg10) := W9_of_ne m ρ c main_arg10 (by decide)
    _ = W7 m ρ c (Proc.devRef .tc main_arg10) := W8_of m ρ c main_arg10 (by decide)
    _ = W6 m ρ c (Proc.devRef .tc main_arg10) := W7_of m ρ c main_arg10 (by decide)
    _ = W5 m ρ c (Proc.devRef .tc main_arg10) := W6_of m ρ c main_arg10 (by decide)
    _ = W4 m ρ c (Proc.devRef .tc main_arg10) := W5_of m ρ c main_arg10 (by decide)
    _ = W3 m ρ c (Proc.devRef .tc main_arg10) := (W4_arr m ρ c 7).trans (((dat0 (Vin0 m ρ) c).arrAt_in 7 rfl _).trans (A_eq0 (Vin0 m ρ) c 7))
    _ = W2 m ρ c (Proc.devRef .tc main_arg10) := W3_of m ρ c main_arg10 (by decide)
    _ = W1 m ρ c (Proc.devRef .tc main_arg10) := W2_of m ρ c main_arg10 (by decide)
    _ = W0 m ρ c (Proc.devRef .tc main_arg10) := W1_of m ρ c main_arg10 (by decide)
    _ = m ((c : Thread nD τ).loc main_arg10) := rfl
theorem W12_main_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of m ρ c main_arg11 (by decide)
    _ = W10 m ρ c (Proc.devRef .tc main_arg11) := W11_of_ne m ρ c main_arg11 (by decide)
    _ = W9 m ρ c (Proc.devRef .tc main_arg11) := W10_of m ρ c main_arg11 (by decide)
    _ = W8 m ρ c (Proc.devRef .tc main_arg11) := W9_of_ne m ρ c main_arg11 (by decide)
    _ = W7 m ρ c (Proc.devRef .tc main_arg11) := W8_of m ρ c main_arg11 (by decide)
    _ = W6 m ρ c (Proc.devRef .tc main_arg11) := W7_of m ρ c main_arg11 (by decide)
    _ = W5 m ρ c (Proc.devRef .tc main_arg11) := W6_of m ρ c main_arg11 (by decide)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of m ρ c main_arg11 (by decide)
    _ = W0 m ρ c (Proc.devRef .tc main_arg11) := W1_of m ρ c main_arg11 (by decide)
    _ = m ((c : Thread nD τ).loc main_arg11) := rfl
theorem W12_main_arg12 (c : Dev nD) : W12 m ρ c (Proc.devRef .tc main_arg12) = m ((c : Thread nD τ).loc main_arg12) :=
  calc W12 m ρ c (Proc.devRef .tc main_arg12)
    _ = W11 m ρ c (Proc.devRef .tc main_arg12) := W12_of m ρ c main_arg12 (by decide)
    _ = W10 m ρ c (Proc.devRef .tc main_arg12) := W11_of_ne m ρ c main_arg12 (by decide)
    _ = W9 m ρ c (Proc.devRef .tc main_arg12) := W10_of m ρ c main_arg12 (by decide)
    _ = W8 m ρ c (Proc.devRef .tc main_arg12) := W9_of_ne m ρ c main_arg12 (by decide)
    _ = W7 m ρ c (Proc.devRef .tc main_arg12) := W8_of m ρ c main_arg12 (by decide)
    _ = W6 m ρ c (Proc.devRef .tc main_arg12) := W7_of m ρ c main_arg12 (by decide)
    _ = W5 m ρ c (Proc.devRef .tc main_arg12) := W6_of m ρ c main_arg12 (by decide)
    _ = W4 m ρ c (Proc.devRef .tc main_arg12) := W5_of m ρ c main_arg12 (by decide)
    _ = W3 m ρ c (Proc.devRef .tc main_arg12) := W4_of_ne m ρ c main_arg12 (by decide)
    _ = W2 m ρ c (Proc.devRef .tc main_arg12) := W3_of m ρ c main_arg12 (by decide)
    _ = W1 m ρ c (Proc.devRef .tc main_arg12) := W2_of m ρ c main_arg12 (by decide)
    _ = W0 m ρ c (Proc.devRef .tc main_arg12) := W1_of m ρ c main_arg12 (by decide)
    _ = m ((c : Thread nD τ).loc main_arg12) := rfl
theorem W12_main_arg13 (c : Dev nD) : W12 m ρ c (Proc.devRef .tc main_arg13) = m ((c : Thread nD τ).loc main_arg13) :=
  calc W12 m ρ c (Proc.devRef .tc main_arg13)
    _ = W11 m ρ c (Proc.devRef .tc main_arg13) := W12_of m ρ c main_arg13 (by decide)
    _ = W10 m ρ c (Proc.devRef .tc main_arg13) := W11_of_ne m ρ c main_arg13 (by decide)
    _ = W9 m ρ c (Proc.devRef .tc main_arg13) := W10_of m ρ c main_arg13 (by decide)
    _ = W8 m ρ c (Proc.devRef .tc main_arg13) := W9_of_ne m ρ c main_arg13 (by decide)
    _ = W7 m ρ c (Proc.devRef .tc main_arg13) := W8_of m ρ c main_arg13 (by decide)
    _ = W6 m ρ c (Proc.devRef .tc main_arg13) := W7_of m ρ c main_arg13 (by decide)
    _ = W5 m ρ c (Proc.devRef .tc main_arg13) := W6_of m ρ c main_arg13 (by decide)
    _ = W4 m ρ c (Proc.devRef .tc main_arg13) := W5_of m ρ c main_arg13 (by decide)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of m ρ c main_arg13 (by decide)
    _ = W0 m ρ c (Proc.devRef .tc main_arg13) := W1_of m ρ c main_arg13 (by decide)
    _ = m ((c : Thread nD τ).loc main_arg13) := rfl
theorem W12_main_arg14 (c : Dev nD) : W12 m ρ c (Proc.devRef .tc main_arg14) = m ((c : Thread nD τ).loc main_arg14) :=
  calc W12 m ρ c (Proc.devRef .tc main_arg14)
    _ = W11 m ρ c (Proc.devRef .tc main_arg14) := W12_of m ρ c main_arg14 (by decide)
    _ = W10 m ρ c (Proc.devRef .tc main_arg14) := W11_of_ne m ρ c main_arg14 (by decide)
    _ = W9 m ρ c (Proc.devRef .tc main_arg14) := W10_of m ρ c main_arg14 (by decide)
    _ = W8 m ρ c (Proc.devRef .tc main_arg14) := (W9_arr m ρ c 10).trans (((dat1 (Vin1 m ρ) c).arrAt_in 10 rfl _).trans (A_eq1 (Vin1 m ρ) c 10))
    _ = W7 m ρ c (Proc.devRef .tc main_arg14) := W8_of m ρ c main_arg14 (by decide)
    _ = W6 m ρ c (Proc.devRef .tc main_arg14) := W7_of m ρ c main_arg14 (by decide)
    _ = W5 m ρ c (Proc.devRef .tc main_arg14) := W6_of m ρ c main_arg14 (by decide)
    _ = W4 m ρ c (Proc.devRef .tc main_arg14) := W5_of m ρ c main_arg14 (by decide)
    _ = W3 m ρ c (Proc.devRef .tc main_arg14) := W4_of_ne m ρ c main_arg14 (by decide)
    _ = W2 m ρ c (Proc.devRef .tc main_arg14) := W3_of m ρ c main_arg14 (by decide)
    _ = W1 m ρ c (Proc.devRef .tc main_arg14) := W2_of m ρ c main_arg14 (by decide)
    _ = W0 m ρ c (Proc.devRef .tc main_arg14) := W1_of m ρ c main_arg14 (by decide)
    _ = m ((c : Thread nD τ).loc main_arg14) := rfl
theorem W12_main_arg15 (c : Dev nD) : W12 m ρ c (Proc.devRef .tc main_arg15) = m ((c : Thread nD τ).loc main_arg15) :=
  calc W12 m ρ c (Proc.devRef .tc main_arg15)
    _ = W11 m ρ c (Proc.devRef .tc main_arg15) := W12_of m ρ c main_arg15 (by decide)
    _ = W10 m ρ c (Proc.devRef .tc main_arg15) := W11_of_ne m ρ c main_arg15 (by decide)
    _ = W9 m ρ c (Proc.devRef .tc main_arg15) := W10_of m ρ c main_arg15 (by decide)
    _ = W8 m ρ c (Proc.devRef .tc main_arg15) := W9_of_ne m ρ c main_arg15 (by decide)
    _ = W7 m ρ c (Proc.devRef .tc main_arg15) := W8_of m ρ c main_arg15 (by decide)
    _ = W6 m ρ c (Proc.devRef .tc main_arg15) := W7_of m ρ c main_arg15 (by decide)
    _ = W5 m ρ c (Proc.devRef .tc main_arg15) := W6_of m ρ c main_arg15 (by decide)
    _ = W4 m ρ c (Proc.devRef .tc main_arg15) := W5_of m ρ c main_arg15 (by decide)
    _ = W3 m ρ c (Proc.devRef .tc main_arg15) := W4_of_ne m ρ c main_arg15 (by decide)
    _ = W2 m ρ c (Proc.devRef .tc main_arg15) := W3_of m ρ c main_arg15 (by decide)
    _ = W1 m ρ c (Proc.devRef .tc main_arg15) := W2_of m ρ c main_arg15 (by decide)
    _ = W0 m ρ c (Proc.devRef .tc main_arg15) := W1_of m ρ c main_arg15 (by decide)
    _ = m ((c : Thread nD τ).loc main_arg15) := rfl
theorem W12_main_arg16 (c : Dev nD) : W12 m ρ c (Proc.devRef .tc main_arg16) = m ((c : Thread nD τ).loc main_arg16) :=
  calc W12 m ρ c (Proc.devRef .tc main_arg16)
    _ = W11 m ρ c (Proc.devRef .tc main_arg16) := W12_of m ρ c main_arg16 (by decide)
    _ = W10 m ρ c (Proc.devRef .tc main_arg16) := W11_of_ne m ρ c main_arg16 (by decide)
    _ = W9 m ρ c (Proc.devRef .tc main_arg16) := W10_of m ρ c main_arg16 (by decide)
    _ = W8 m ρ c (Proc.devRef .tc main_arg16) := W9_of_ne m ρ c main_arg16 (by decide)
    _ = W7 m ρ c (Proc.devRef .tc main_arg16) := W8_of m ρ c main_arg16 (by decide)
    _ = W6 m ρ c (Proc.devRef .tc main_arg16) := W7_of m ρ c main_arg16 (by decide)
    _ = W5 m ρ c (Proc.devRef .tc main_arg16) := W6_of m ρ c main_arg16 (by decide)
    _ = W4 m ρ c (Proc.devRef .tc main_arg16) := W5_of m ρ c main_arg16 (by decide)
    _ = W3 m ρ c (Proc.devRef .tc main_arg16) := W4_of_ne m ρ c main_arg16 (by decide)
    _ = W2 m ρ c (Proc.devRef .tc main_arg16) := W3_of m ρ c main_arg16 (by decide)
    _ = W1 m ρ c (Proc.devRef .tc main_arg16) := W2_of m ρ c main_arg16 (by decide)
    _ = W0 m ρ c (Proc.devRef .tc main_arg16) := W1_of m ρ c main_arg16 (by decide)
    _ = m ((c : Thread nD τ).loc main_arg16) := rfl
theorem W12_main_arg17 (c : Dev nD) : W12 m ρ c (Proc.devRef .tc main_arg17) = m ((c : Thread nD τ).loc main_arg17) :=
  calc W12 m ρ c (Proc.devRef .tc main_arg17)
    _ = W11 m ρ c (Proc.devRef .tc main_arg17) := W12_of m ρ c main_arg17 (by decide)
    _ = W10 m ρ c (Proc.devRef .tc main_arg17) := W11_of_ne m ρ c main_arg17 (by decide)
    _ = W9 m ρ c (Proc.devRef .tc main_arg17) := W10_of m ρ c main_arg17 (by decide)
    _ = W8 m ρ c (Proc.devRef .tc main_arg17) := W9_of_ne m ρ c main_arg17 (by decide)
    _ = W7 m ρ c (Proc.devRef .tc main_arg17) := W8_of m ρ c main_arg17 (by decide)
    _ = W6 m ρ c (Proc.devRef .tc main_arg17) := W7_of m ρ c main_arg17 (by decide)
    _ = W5 m ρ c (Proc.devRef .tc main_arg17) := W6_of m ρ c main_arg17 (by decide)
    _ = W4 m ρ c (Proc.devRef .tc main_arg17) := W5_of m ρ c main_arg17 (by decide)
    _ = W3 m ρ c (Proc.devRef .tc main_arg17) := W4_of_ne m ρ c main_arg17 (by decide)
    _ = W2 m ρ c (Proc.devRef .tc main_arg17) := W3_of m ρ c main_arg17 (by decide)
    _ = W1 m ρ c (Proc.devRef .tc main_arg17) := W2_of m ρ c main_arg17 (by decide)
    _ = W0 m ρ c (Proc.devRef .tc main_arg17) := W1_of m ρ c main_arg17 (by decide)
    _ = m ((c : Thread nD τ).loc main_arg17) := rfl
theorem W12_main_arg18 (c : Dev nD) : W12 m ρ c (Proc.devRef .tc main_arg18) = m ((c : Thread nD τ).loc main_arg18) :=
  calc W12 m ρ c (Proc.devRef .tc main_arg18)
    _ = W11 m ρ c (Proc.devRef .tc main_arg18) := W12_of m ρ c main_arg18 (by decide)
    _ = W10 m ρ c (Proc.devRef .tc main_arg18) := (W11_arr m ρ c 12).trans (((dat2 (Vin2 m ρ) c).arrAt_in 12 rfl _).trans (A_eq2 (Vin2 m ρ) c 12))
    _ = W9 m ρ c (Proc.devRef .tc main_arg18) := W10_of m ρ c main_arg18 (by decide)
    _ = W8 m ρ c (Proc.devRef .tc main_arg18) := W9_of_ne m ρ c main_arg18 (by decide)
    _ = W7 m ρ c (Proc.devRef .tc main_arg18) := W8_of m ρ c main_arg18 (by decide)
    _ = W6 m ρ c (Proc.devRef .tc main_arg18) := W7_of m ρ c main_arg18 (by decide)
    _ = W5 m ρ c (Proc.devRef .tc main_arg18) := W6_of m ρ c main_arg18 (by decide)
    _ = W4 m ρ c (Proc.devRef .tc main_arg18) := W5_of m ρ c main_arg18 (by decide)
    _ = W3 m ρ c (Proc.devRef .tc main_arg18) := W4_of_ne m ρ c main_arg18 (by decide)
    _ = W2 m ρ c (Proc.devRef .tc main_arg18) := W3_of m ρ c main_arg18 (by decide)
    _ = W1 m ρ c (Proc.devRef .tc main_arg18) := W2_of m ρ c main_arg18 (by decide)
    _ = W0 m ρ c (Proc.devRef .tc main_arg18) := W1_of m ρ c main_arg18 (by decide)
    _ = m ((c : Thread nD τ).loc main_arg18) := rfl
theorem W12_main_arg19 (c : Dev nD) : W12 m ρ c (Proc.devRef .tc main_arg19) = m ((c : Thread nD τ).loc main_arg19) :=
  calc W12 m ρ c (Proc.devRef .tc main_arg19)
    _ = W11 m ρ c (Proc.devRef .tc main_arg19) := W12_of m ρ c main_arg19 (by decide)
    _ = W10 m ρ c (Proc.devRef .tc main_arg19) := W11_of_ne m ρ c main_arg19 (by decide)
    _ = W9 m ρ c (Proc.devRef .tc main_arg19) := W10_of m ρ c main_arg19 (by decide)
    _ = W8 m ρ c (Proc.devRef .tc main_arg19) := W9_of_ne m ρ c main_arg19 (by decide)
    _ = W7 m ρ c (Proc.devRef .tc main_arg19) := W8_of m ρ c main_arg19 (by decide)
    _ = W6 m ρ c (Proc.devRef .tc main_arg19) := W7_of m ρ c main_arg19 (by decide)
    _ = W5 m ρ c (Proc.devRef .tc main_arg19) := W6_of m ρ c main_arg19 (by decide)
    _ = W4 m ρ c (Proc.devRef .tc main_arg19) := W5_of m ρ c main_arg19 (by decide)
    _ = W3 m ρ c (Proc.devRef .tc main_arg19) := W4_of_ne m ρ c main_arg19 (by decide)
    _ = W2 m ρ c (Proc.devRef .tc main_arg19) := W3_of m ρ c main_arg19 (by decide)
    _ = W1 m ρ c (Proc.devRef .tc main_arg19) := W2_of m ρ c main_arg19 (by decide)
    _ = W0 m ρ c (Proc.devRef .tc main_arg19) := W1_of m ρ c main_arg19 (by decide)
    _ = m ((c : Thread nD τ).loc main_arg19) := rfl
theorem W12_main_arg20 (c : Dev nD) : W12 m ρ c (Proc.devRef .tc main_arg20) = m ((c : Thread nD τ).loc main_arg20) :=
  calc W12 m ρ c (Proc.devRef .tc main_arg20)
    _ = W11 m ρ c (Proc.devRef .tc main_arg20) := W12_of m ρ c main_arg20 (by decide)
    _ = W10 m ρ c (Proc.devRef .tc main_arg20) := W11_of_ne m ρ c main_arg20 (by decide)
    _ = W9 m ρ c (Proc.devRef .tc main_arg20) := W10_of m ρ c main_arg20 (by decide)
    _ = W8 m ρ c (Proc.devRef .tc main_arg20) := W9_of_ne m ρ c main_arg20 (by decide)
    _ = W7 m ρ c (Proc.devRef .tc main_arg20) := W8_of m ρ c main_arg20 (by decide)
    _ = W6 m ρ c (Proc.devRef .tc main_arg20) := W7_of m ρ c main_arg20 (by decide)
    _ = W5 m ρ c (Proc.devRef .tc main_arg20) := W6_of m ρ c main_arg20 (by decide)
    _ = W4 m ρ c (Proc.devRef .tc main_arg20) := W5_of m ρ c main_arg20 (by decide)
    _ = W3 m ρ c (Proc.devRef .tc main_arg20) := W4_of_ne m ρ c main_arg20 (by decide)
    _ = W2 m ρ c (Proc.devRef .tc main_arg20) := W3_of m ρ c main_arg20 (by decide)
    _ = W1 m ρ c (Proc.devRef .tc main_arg20) := W2_of m ρ c main_arg20 (by decide)
    _ = W0 m ρ c (Proc.devRef .tc main_arg20) := W1_of m ρ c main_arg20 (by decide)
    _ = m ((c : Thread nD τ).loc main_arg20) := rfl
theorem W12_main_arg21 (c : Dev nD) : W12 m ρ c (Proc.devRef .tc main_arg21) = m ((c : Thread nD τ).loc main_arg21) :=
  calc W12 m ρ c (Proc.devRef .tc main_arg21)
    _ = W11 m ρ c (Proc.devRef .tc main_arg21) := W12_of m ρ c main_arg21 (by decide)
    _ = W10 m ρ c (Proc.devRef .tc main_arg21) := W11_of_ne m ρ c main_arg21 (by decide)
    _ = W9 m ρ c (Proc.devRef .tc main_arg21) := W10_of m ρ c main_arg21 (by decide)
    _ = W8 m ρ c (Proc.devRef .tc main_arg21) := W9_of_ne m ρ c main_arg21 (by decide)
    _ = W7 m ρ c (Proc.devRef .tc main_arg21) := W8_of m ρ c main_arg21 (by decide)
    _ = W6 m ρ c (Proc.devRef .tc main_arg21) := W7_of m ρ c main_arg21 (by decide)
    _ = W5 m ρ c (Proc.devRef .tc main_arg21) := W6_of m ρ c main_arg21 (by decide)
    _ = W4 m ρ c (Proc.devRef .tc main_arg21) := W5_of m ρ c main_arg21 (by decide)
    _ = W3 m ρ c (Proc.devRef .tc main_arg21) := W4_of_ne m ρ c main_arg21 (by decide)
    _ = W2 m ρ c (Proc.devRef .tc main_arg21) := W3_of m ρ c main_arg21 (by decide)
    _ = W1 m ρ c (Proc.devRef .tc main_arg21) := W2_of m ρ c main_arg21 (by decide)
    _ = W0 m ρ c (Proc.devRef .tc main_arg21) := W1_of m ρ c main_arg21 (by decide)
    _ = m ((c : Thread nD τ).loc main_arg21) := rfl
theorem W12_main_arg22 (c : Dev nD) : W12 m ρ c (Proc.devRef .tc main_arg22) = m ((c : Thread nD τ).loc main_arg22) :=
  calc W12 m ρ c (Proc.devRef .tc main_arg22)
    _ = W11 m ρ c (Proc.devRef .tc main_arg22) := W12_of m ρ c main_arg22 (by decide)
    _ = W10 m ρ c (Proc.devRef .tc main_arg22) := (W11_arr m ρ c 18).trans (((dat2 (Vin2 m ρ) c).arrAt_in 18 rfl _).trans (A_eq2 (Vin2 m ρ) c 18))
    _ = W9 m ρ c (Proc.devRef .tc main_arg22) := W10_of m ρ c main_arg22 (by decide)
    _ = W8 m ρ c (Proc.devRef .tc main_arg22) := W9_of_ne m ρ c main_arg22 (by decide)
    _ = W7 m ρ c (Proc.devRef .tc main_arg22) := W8_of m ρ c main_arg22 (by decide)
    _ = W6 m ρ c (Proc.devRef .tc main_arg22) := W7_of m ρ c main_arg22 (by decide)
    _ = W5 m ρ c (Proc.devRef .tc main_arg22) := W6_of m ρ c main_arg22 (by decide)
    _ = W4 m ρ c (Proc.devRef .tc main_arg22) := W5_of m ρ c main_arg22 (by decide)
    _ = W3 m ρ c (Proc.devRef .tc main_arg22) := W4_of_ne m ρ c main_arg22 (by decide)
    _ = W2 m ρ c (Proc.devRef .tc main_arg22) := W3_of m ρ c main_arg22 (by decide)
    _ = W1 m ρ c (Proc.devRef .tc main_arg22) := W2_of m ρ c main_arg22 (by decide)
    _ = W0 m ρ c (Proc.devRef .tc main_arg22) := W1_of m ρ c main_arg22 (by decide)
    _ = m ((c : Thread nD τ).loc main_arg22) := rfl
theorem W12_main_arg23 (c : Dev nD) : W12 m ρ c (Proc.devRef .tc main_arg23) = m ((c : Thread nD τ).loc main_arg23) :=
  calc W12 m ρ c (Proc.devRef .tc main_arg23)
    _ = W11 m ρ c (Proc.devRef .tc main_arg23) := W12_of m ρ c main_arg23 (by decide)
    _ = W10 m ρ c (Proc.devRef .tc main_arg23) := W11_of_ne m ρ c main_arg23 (by decide)
    _ = W9 m ρ c (Proc.devRef .tc main_arg23) := W10_of m ρ c main_arg23 (by decide)
    _ = W8 m ρ c (Proc.devRef .tc main_arg23) := W9_of_ne m ρ c main_arg23 (by decide)
    _ = W7 m ρ c (Proc.devRef .tc main_arg23) := W8_of m ρ c main_arg23 (by decide)
    _ = W6 m ρ c (Proc.devRef .tc main_arg23) := W7_of m ρ c main_arg23 (by decide)
    _ = W5 m ρ c (Proc.devRef .tc main_arg23) := W6_of m ρ c main_arg23 (by decide)
    _ = W4 m ρ c (Proc.devRef .tc main_arg23) := W5_of m ρ c main_arg23 (by decide)
    _ = W3 m ρ c (Proc.devRef .tc main_arg23) := W4_of_ne m ρ c main_arg23 (by decide)
    _ = W2 m ρ c (Proc.devRef .tc main_arg23) := W3_of m ρ c main_arg23 (by decide)
    _ = W1 m ρ c (Proc.devRef .tc main_arg23) := W2_of m ρ c main_arg23 (by decide)
    _ = W0 m ρ c (Proc.devRef .tc main_arg23) := W1_of m ρ c main_arg23 (by decide)
    _ = m ((c : Thread nD τ).loc main_arg23) := rfl
theorem W12_main_arg24 (c : Dev nD) : W12 m ρ c (Proc.devRef .tc main_arg24) = m ((c : Thread nD τ).loc main_arg24) :=
  calc W12 m ρ c (Proc.devRef .tc main_arg24)
    _ = W11 m ρ c (Proc.devRef .tc main_arg24) := W12_of m ρ c main_arg24 (by decide)
    _ = W10 m ρ c (Proc.devRef .tc main_arg24) := W11_of_ne m ρ c main_arg24 (by decide)
    _ = W9 m ρ c (Proc.devRef .tc main_arg24) := W10_of m ρ c main_arg24 (by decide)
    _ = W8 m ρ c (Proc.devRef .tc main_arg24) := W9_of_ne m ρ c main_arg24 (by decide)
    _ = W7 m ρ c (Proc.devRef .tc main_arg24) := W8_of m ρ c main_arg24 (by decide)
    _ = W6 m ρ c (Proc.devRef .tc main_arg24) := W7_of m ρ c main_arg24 (by decide)
    _ = W5 m ρ c (Proc.devRef .tc main_arg24) := W6_of m ρ c main_arg24 (by decide)
    _ = W4 m ρ c (Proc.devRef .tc main_arg24) := W5_of m ρ c main_arg24 (by decide)
    _ = W3 m ρ c (Proc.devRef .tc main_arg24) := W4_of_ne m ρ c main_arg24 (by decide)
    _ = W2 m ρ c (Proc.devRef .tc main_arg24) := W3_of m ρ c main_arg24 (by decide)
    _ = W1 m ρ c (Proc.devRef .tc main_arg24) := W2_of m ρ c main_arg24 (by decide)
    _ = W0 m ρ c (Proc.devRef .tc main_arg24) := W1_of m ρ c main_arg24 (by decide)
    _ = m ((c : Thread nD τ).loc main_arg24) := rfl
theorem W12_main_arg25 (c : Dev nD) : W12 m ρ c (Proc.devRef .tc main_arg25) = m ((c : Thread nD τ).loc main_arg25) :=
  calc W12 m ρ c (Proc.devRef .tc main_arg25)
    _ = W11 m ρ c (Proc.devRef .tc main_arg25) := W12_of m ρ c main_arg25 (by decide)
    _ = W10 m ρ c (Proc.devRef .tc main_arg25) := W11_of_ne m ρ c main_arg25 (by decide)
    _ = W9 m ρ c (Proc.devRef .tc main_arg25) := W10_of m ρ c main_arg25 (by decide)
    _ = W8 m ρ c (Proc.devRef .tc main_arg25) := W9_of_ne m ρ c main_arg25 (by decide)
    _ = W7 m ρ c (Proc.devRef .tc main_arg25) := W8_of m ρ c main_arg25 (by decide)
    _ = W6 m ρ c (Proc.devRef .tc main_arg25) := W7_of m ρ c main_arg25 (by decide)
    _ = W5 m ρ c (Proc.devRef .tc main_arg25) := W6_of m ρ c main_arg25 (by decide)
    _ = W4 m ρ c (Proc.devRef .tc main_arg25) := W5_of m ρ c main_arg25 (by decide)
    _ = W3 m ρ c (Proc.devRef .tc main_arg25) := W4_of_ne m ρ c main_arg25 (by decide)
    _ = W2 m ρ c (Proc.devRef .tc main_arg25) := W3_of m ρ c main_arg25 (by decide)
    _ = W1 m ρ c (Proc.devRef .tc main_arg25) := W2_of m ρ c main_arg25 (by decide)
    _ = W0 m ρ c (Proc.devRef .tc main_arg25) := W1_of m ρ c main_arg25 (by decide)
    _ = m ((c : Thread nD τ).loc main_arg25) := rfl

/-! ## The proof data family and the thread state -/

/-- No pipeline has a prefetched table. -/
abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (Vin0 m ρ) c
  | ⟨1, _⟩ => fun c => dat1 (Vin1 m ρ) c
  | ⟨2, _⟩ => fun c => dat2 (Vin2 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
/-- A host stretch as a segment over the unscoped references from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TH (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0 over the thread state: entered from every unscoped buffer at `W3`, left at `W4`. Its arrays are split out of
    the unscoped buffers and put back at the exit contents; the generator register goes into the invariant and comes back;
    nothing is owed; the kernel has no semaphore of its own. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ LH lvH 0 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Vin0 m ρ c) (Vout0 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W8`, left at `W9`. Its arrays are split out of
    the unscoped buffers and put back at the exit contents; the generator register goes into the invariant and comes back;
    nothing is owed; the kernel has no semaphore of its own. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ LH lvH 1 fun _ _ => rfl
  pre c := iprop(StableHlo.held (c : Thread nD τ) (Pipeline.ucRefs τ sig) (W8 m ρ c) ∗ RH c)
  post c := iprop(StableHlo.held (c : Thread nD τ) (Pipeline.ucRefs τ sig) (W9 m ρ c) ∗ RH c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Vin1 m ρ c) (Vout1 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W10`, left at `W11`. Its arrays are split out of
    the unscoped buffers and put back at the exit contents; the generator register goes into the invariant and comes back;
    nothing is owed; the kernel has no semaphore of its own. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ LH lvH 2 fun _ _ => rfl
  pre c := iprop(StableHlo.held (c : Thread nD τ) (Pipeline.ucRefs τ sig) (W10 m ρ c) ∗ RH c)
  post c := iprop(StableHlo.held (c : Thread nD τ) (Pipeline.ucRefs τ sig) (W11 m ρ c) ∗ RH c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Vin2 m ρ c) (Vout2 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
abbrev segsH : List (Pipeline.Seg (pcfgs (F := F)) admH (pdatsH m ρ) () defs₀ 𝒱H LH lvH) :=
  [ .host (hsegH hostOps0 hostOps0_sub hostOps0_fresh (W0 m ρ)),
    .host (hsegH hostOps0_1 hostOps0_1_sub hostOps0_1_fresh (W1 m ρ)),
    .host (hsegH hostOps0_2 hostOps0_2_sub hostOps0_2_fresh (W2 m ρ)),
    .region (reg0 m ρ),
    .host (hsegH hostOps1 hostOps1_sub hostOps1_fresh (W4 m ρ)),
    .host (hsegH hostOps1_1 hostOps1_1_sub hostOps1_1_fresh (W5 m ρ)),
    .host (hsegH hostOps1_2 hostOps1_2_sub hostOps1_2_fresh (W6 m ρ)),
    .host (hsegH hostOps1_3 hostOps1_3_sub hostOps1_3_fresh (W7 m ρ)),
    .region (reg1 m ρ),
    .host (hsegH hostOps2 hostOps2_sub hostOps2_fresh (W9 m ρ)),
    .region (reg2 m ρ),
    .host (hsegH hostOps3 hostOps3_sub hostOps3_fresh (W11 m ρ)) ]
/-- @main is the run of the segments. -/
theorem main_runH (c : Dev nD) : main (F := F) c = Pipeline.Seg.run (segsH m ρ) := (main_chain c).trans (by chain_rfl)

set_option backward.isDefEq.respectTransparency.types false in
/-- Every weakly fair execution of @main from `m` with zero counters terminates, nothing faulting, and in every final state
    each unscoped buffer of each core holds the last contents of the chain, `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TH m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held _ _ _ ∗ RH c) ⊢ iprop(TH m ρ c ∗ _)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c _ (mem_ucH main_arg0 (by decide))).trans (W12_main_arg0 m ρ c),
    (h c _ (mem_ucH main_arg1 (by decide))).trans (W12_main_arg1 m ρ c),
    (h c _ (mem_ucH main_arg2 (by decide))).trans (W12_main_arg2 m ρ c),
    (h c _ (mem_ucH main_arg3 (by decide))).trans (W12_main_arg3 m ρ c),
    (h c _ (mem_ucH main_arg4 (by decide))).trans (W12_main_arg4 m ρ c),
    (h c _ (mem_ucH main_arg5 (by decide))).trans (W12_main_arg5 m ρ c),
    (h c _ (mem_ucH main_arg6 (by decide))).trans (W12_main_arg6 m ρ c),
    (h c _ (mem_ucH main_arg7 (by decide))).trans (W12_main_arg7 m ρ c),
    (h c _ (mem_ucH main_arg8 (by decide))).trans (W12_main_arg8 m ρ c),
    (h c _ (mem_ucH main_arg9 (by decide))).trans (W12_main_arg9 m ρ c),
    (h c _ (mem_ucH main_arg10 (by decide))).trans (W12_main_arg10 m ρ c),
    (h c _ (mem_ucH main_arg11 (by decide))).trans (W12_main_arg11 m ρ c),
    (h c _ (mem_ucH main_arg12 (by decide))).trans (W12_main_arg12 m ρ c),
    (h c _ (mem_ucH main_arg13 (by decide))).trans (W12_main_arg13 m ρ c),
    (h c _ (mem_ucH main_arg14 (by decide))).trans (W12_main_arg14 m ρ c),
    (h c _ (mem_ucH main_arg15 (by decide))).trans (W12_main_arg15 m ρ c),
    (h c _ (mem_ucH main_arg16 (by decide))).trans (W12_main_arg16 m ρ c),
    (h c _ (mem_ucH main_arg17 (by decide))).trans (W12_main_arg17 m ρ c),
    (h c _ (mem_ucH main_arg18 (by decide))).trans (W12_main_arg18 m ρ c),
    (h c _ (mem_ucH main_arg19 (by decide))).trans (W12_main_arg19 m ρ c),
    (h c _ (mem_ucH main_arg20 (by decide))).trans (W12_main_arg20 m ρ c),
    (h c _ (mem_ucH main_arg21 (by decide))).trans (W12_main_arg21 m ρ c),
    (h c _ (mem_ucH main_arg22 (by decide))).trans (W12_main_arg22 m ρ c),
    (h c _ (mem_ucH main_arg23 (by decide))).trans (W12_main_arg23 m ρ c),
    (h c _ (mem_ucH main_arg24 (by decide))).trans (W12_main_arg24 m ρ c),
    (h c _ (mem_ucH main_arg25 (by decide))).trans (W12_main_arg25 m ρ c)⟩) (run_all m ρ)

end Cert.Kernel.Hand

end
-- ==== Proof.KIRegion0.lean ====
import proofs.«166758_j50929722196748_2_alg».proof.Proof.Gen.KernelIdeal.Launch
import proofs.«166758_j50929722196748_2_alg».proof.Proof.Gen.KernelIdeal.Skeleton
import proofs.«166758_j50929722196748_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 (the triplet MLP kernel) at arbitrary region-entry contents

The kernel of region 0 loads each of its nine input windows' staging buffers whole, computes one value from them
(two-layer perceptron: three bf16 matrix products summed with a bias, `x * logistic x`, a fourth product and a bias),
and stores it over the whole of the output window's staging buffer.  So, at every grid point, the output buffer after
the body is a function of the nine input blocks alone, and every input buffer is left as found.  This file states
that function (`out0_9`), proves the body's triple against it, packages the pipeline's proof data at a PARAMETER
`V` (the TensorCore's buffer contents when the region is entered) and proves the body obligation at every point. -/

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: everything below is stated at this parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, and the window is neither cut nor ever idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): where the window is not
    fetched its block index has not moved, and the window is neither cut nor ever idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): where the window is not
    fetched its block index has not moved, and the window is neither cut nor ever idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): where the window is not
    fetched its block index has not moved, and the window is neither cut nor ever idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): where the window is not
    fetched its block index has not moved, and the window is neither cut nor ever idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): where the window is not
    fetched its block index has not moved, and the window is neither cut nor ever idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s (`hA`) and whose body leaves the block in place (`hafter`): where the window is not
    fetched its block index has not moved, and the window is neither cut nor ever idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for any proof
    data whose array is `V`'s (`hA`) and whose body leaves the block in place (`hafter`): where the window is not
    fetched its block index has not moved, and the window is neither cut nor ever idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for any proof
    data whose array is `V`'s (`hA`) and whose body leaves the block in place (`hafter`): where the window is not
    fetched its block index has not moved, and the window is neither cut nor ever idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store move a whole buffer -/

abbrev r0_0 : Rect S6400x64 := Rect.unit (s := S6400x64) ![0, 0] S6400x64.size inb_S6400x64_S6400x64_0_0
abbrev r0_1 : Rect S6400x16 := Rect.unit (s := S6400x16) ![0, 0] S6400x16.size inb_S6400x16_S6400x16_0_0
abbrev r0_2 : Rect S64x64 := Rect.unit (s := S64x64) ![0, 0] S64x64.size inb_S64x64_S64x64_0_0
abbrev r0_3 : Rect S16x64 := Rect.unit (s := S16x64) ![0, 0] S16x64.size inb_S16x64_S16x64_0_0
abbrev r0_4 : Rect S1x64 := Rect.unit (s := S1x64) ![0, 0] S1x64.size inb_S1x64_S1x64_0_0

/-! ## What the body leaves in the output window's buffer -/

/-- Window 9's staging buffer after the body, from the nine input blocks: its one store, of the payload over the
    whole-buffer loads of the inputs. -/
def out0_9 (x0 : Vec F S6400x64 .f32) (x1 : Vec F S6400x64 .f32) (x2 : Vec F S6400x16 .f32) (x3 : Vec F S64x64 .f32) (x4 : Vec F S64x64 .f32) (x5 : Vec F S16x64 .f32) (x6 : Vec F S1x64 .f32) (x7 : Vec F S64x64 .f32) (x8 : Vec F S1x64 .f32) : Vec F S6400x64 .f32 :=
  View.canon [⟨r0_0, k0_pay1 (View.ld x0 r0_0) (View.ld x1 r0_0) (View.ld x2 r0_1) (View.ld x3 r0_2) (View.ld x4 r0_2) (View.ld x5 r0_3) (View.ld x6 r0_4) (View.ld x7 r0_2) (View.ld x8 r0_4)⟩]

/-- The store's rectangle is the whole buffer (checked by evaluation), so it covers it. -/
theorem cover0_9 (p0 : Vec F S6400x64 .f32) (y : S6400x64.Idx) :
    ∃ pc ∈ ([⟨r0_0, p0⟩] : List (View.Piece (Elt F) S6400x64 .f32)), y ∈ pc.1.set :=
  View.cover_of_tiled [⟨r0_0, p0⟩] S6400x64.size (by rfl) y

/-! ## The body's triple -/

set_option maxHeartbeats 1000000 in
/-- The kernel body on whole staging memrefs, the inputs' at read contents `xW` and the output's at anything, runs to
    the continuation holding the inputs' as they were and the output's at `out0_9` of the inputs'.  The grid
    coordinate `i` is not read. -/
theorem sound_kernel0 (c : Dev nD) (E : Set ℕ) (i : grid0.Coords) (arg1 : Memref sig .tc .vmem S6400x64 .f32) (harg1 : arg1.IsWhole) (arg2 : Memref sig .tc .vmem S6400x64 .f32) (harg2 : arg2.IsWhole) (arg3 : Memref sig .tc .vmem S6400x16 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S16x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S6400x64 .f32) (harg10 : arg10.IsWhole)
    (x0 : Vec F S6400x64 .f32) (x1 : Vec F S6400x64 .f32) (x2 : Vec F S6400x16 .f32) (x3 : Vec F S64x64 .f32) (x4 : Vec F S64x64 .f32) (x5 : Vec F S16x64 .f32) (x6 : Vec F S1x64 .f32) (x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9 arg10 harg10) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

/-! ## The pipeline's proof data -/

/-- The proof data of pipeline 0 on core `c`: the arrays as the region finds them (`V`); after the body at
    point `t` each input's buffer at its block and the output's at `out0_9` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KIRegion1.lean ====
/- Kernel region 1 (the edge network) of `Cert.KernelIdeal`'s @main, at the TensorCore buffer contents `V` the region is
   entered with: each window's block at a point, what the body leaves in the output window's staging buffer as a
   function of the input blocks (over the payloads `k1_pay1`, `k1_pay2`), the body's triple, the pipeline's proof
   data and the body obligation at every point. Every window's block is loaded whole, and the one output block is
   stored whole, so the single store covers the output buffer. -/
import proofs.«166758_j50929722196748_2_alg».proof.Proof.Gen.KernelIdeal.Launch
import proofs.«166758_j50929722196748_2_alg».proof.Proof.Gen.KernelIdeal.Skeleton
import proofs.«166758_j50929722196748_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, and the body leaves the block in place (`hafter`); the window is uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: where it is not
    fetched its block index has not moved, and the body leaves the block in place (`hafter`); the window is uncut and
    never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: where it is not
    fetched its block index has not moved, and the body leaves the block in place (`hafter`); the window is uncut and
    never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not: where it is not
    fetched its block index has not moved, and the body leaves the block in place (`hafter`); the window is uncut and
    never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not: where it is not
    fetched its block index has not moved, and the body leaves the block in place (`hafter`); the window is uncut and
    never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not: where it is not
    fetched its block index has not moved, and the body leaves the block in place (`hafter`); the window is uncut and
    never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not: where it is not
    fetched its block index has not moved, and the body leaves the block in place (`hafter`); the window is uncut and
    never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not: where it is not
    fetched its block index has not moved, and the body leaves the block in place (`hafter`); the window is uncut and
    never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not: where it is not
    fetched its block index has not moved, and the body leaves the block in place (`hafter`); the window is uncut and
    never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not: where it is not
    fetched its block index has not moved, and the body leaves the block in place (`hafter`); the window is uncut and
    never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not: where it is not
    fetched its block index has not moved, and the body leaves the block in place (`hafter`); the window is uncut and
    never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not: where it is not
    fetched its block index has not moved, and the body leaves the block in place (`hafter`); the window is uncut and
    never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S3200x64 := Rect.unit (s := S3200x64) ![0, 0] S3200x64.size inb_S3200x64_S3200x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0
abbrev r1_3 : Rect S64x128 := Rect.unit (s := S64x128) ![0, 0] S64x128.size inb_S64x128_S64x128_0_0
abbrev r1_4 : Rect S1x128 := Rect.unit (s := S1x128) ![0, 0] S1x128.size inb_S1x128_S1x128_0_0
abbrev r1_5 : Rect S3200x3 := Rect.unit (s := S3200x3) ![0, 0] S3200x3.size inb_S3200x3_S3200x3_0_0
abbrev r1_6 : Rect S3200x256 := Rect.unit (s := S3200x256) ![0, 0] S3200x256.size inb_S3200x256_S3200x256_0_0

/-! ## What the body leaves in the output window's buffer -/

/-- Window 12's staging buffer after the body, from the input windows' blocks: its one store, of the whole block,
    whose payload is the gated concatenation `k1_pay1` over the hidden activation `k1_pay2`. -/
def out1_12 (x0 : Vec F S3200x64 .f32) (x1 : Vec F S3200x64 .f32) (x2 : Vec F S3200x64 .f32) (x3 : Vec F S3200x64 .f32) (x4 : Vec F S3200x3 .f32) (x5 : Vec F S64x64 .f32) (x6 : Vec F S64x64 .f32) (x7 : Vec F S64x64 .f32) (x8 : Vec F S64x64 .f32) (x9 : Vec F S1x64 .f32) (x10 : Vec F S64x128 .f32) (x11 : Vec F S1x128 .f32) : Vec F S3200x256 .f32 :=
  View.canon [⟨r1_6, k1_pay1 (k1_pay2 (View.ld x0 r1_0) (View.ld x1 r1_0) (View.ld x2 r1_0) (View.ld x3 r1_0) (View.ld x5 r1_1) (View.ld x6 r1_1) (View.ld x7 r1_1) (View.ld x8 r1_1) (View.ld x9 r1_2)) (View.ld x10 r1_3) (View.ld x11 r1_4) (View.ld x4 r1_5)⟩]

/-- The store is of the whole buffer (checked by evaluation), so it covers it. -/
theorem cover1_12 (p0 : Vec F S3200x256 .f32) (y : S3200x256.Idx) :
    ∃ pc ∈ ([⟨r1_6, p0⟩] : List (View.Piece (Elt F) S3200x256 .f32)), y ∈ pc.1.set :=
  View.cover_of_tiled [⟨r1_6, p0⟩] S3200x256.size (by rfl) y

/-! ## The body's triple -/

set_option maxHeartbeats 1000000 in
/-- The kernel body on whole staging memrefs, the inputs' at read contents `xW` and the output's at anything, runs to
    the continuation holding the inputs' as they were and the output's at `out1_12` of the inputs'. -/
theorem sound_kernel1 (c : Dev nD) (E : Set ℕ) (i : grid1.Coords) (arg1 : Memref sig .tc .vmem S3200x64 .f32) (harg1 : arg1.IsWhole) (arg2 : Memref sig .tc .vmem S3200x64 .f32) (harg2 : arg2.IsWhole) (arg3 : Memref sig .tc .vmem S3200x64 .f32) (harg3 : arg3.IsWhole) (arg4 : Memref sig .tc .vmem S3200x64 .f32) (harg4 : arg4.IsWhole) (arg5 : Memref sig .tc .vmem S3200x3 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S3200x256 .f32) (harg13 : arg13.IsWhole)
    (x0 : Vec F S3200x64 .f32) (x1 : Vec F S3200x64 .f32) (x2 : Vec F S3200x64 .f32) (x3 : Vec F S3200x64 .f32) (x4 : Vec F S3200x3 .f32) (x5 : Vec F S64x64 .f32) (x6 : Vec F S64x64 .f32) (x7 : Vec F S64x64 .f32) (x8 : Vec F S64x64 .f32) (x9 : Vec F S1x64 .f32) (x10 : Vec F S64x128 .f32) (x11 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out1_12 x0 x1 x2 x3 x4 x5 x6 x7 x8 x9 x10 x11)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover1_12 _)

/-! ## The pipeline's proof data -/

/-- The proof data of pipeline 1 on core `c`: the arrays as the region finds them (`V`); after the body at point `t`
    each input's buffer at its block and the output's at `out1_12` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
import proofs.«166758_j50929722196748_2_alg».proof.Proof.Gen.KernelIdeal.Launch
import proofs.«166758_j50929722196748_2_alg».proof.Proof.Gen.KernelIdeal.Skeleton
import proofs.«166758_j50929722196748_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents is decided by structural recursion, one step per coordinate
-- of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 2 of @main: custom_call 2, `cc2_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): unfetched, the block index
    has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): unfetched, the block index
    has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): unfetched, the block index
    has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): unfetched, the block index
    has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s (`hA`) and whose body leaves the block in place (`hafter`): unfetched, the block index
    has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof
    data whose array is `V`'s (`hA`) and whose body leaves the block in place (`hafter`): unfetched, the block index
    has not moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for any proof
    data whose array is `V`'s (`hA`) and whose body leaves the block in place (`hafter`): unfetched, the block index
    has not moved; the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not, for any proof
    data whose array is `V`'s (`hA`) and whose body leaves the block in place (`hafter`): unfetched, the block index
    has not moved; the window is uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not, for any proof
    data whose array is `V`'s (`hA`) and whose body leaves the block in place (`hafter`): unfetched, the block index
    has not moved; the window is uncut and never idle. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not, for any proof
    data whose array is `V`'s (`hA`) and whose body leaves the block in place (`hafter`): unfetched, the block index
    has not moved; the window is uncut and never idle. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's current staging buffer holds its block at every point, fetched there or not, for any proof
    data whose array is `V`'s (`hA`) and whose body leaves the block in place (`hafter`): unfetched, the block index
    has not moved; the window is uncut and never idle. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- Input window 12's current staging buffer holds its block at every point, fetched there or not, for any proof
    data whose array is `V`'s (`hA`) and whose body leaves the block in place (`hafter`): unfetched, the block index
    has not moved; the window is uncut and never idle. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
/-- Input window 13's current staging buffer holds its block at every point, fetched there or not, for any proof
    data whose array is `V`'s (`hA`) and whose body leaves the block in place (`hafter`): unfetched, the block index
    has not moved; the window is uncut and never idle. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
/-- Input window 14's current staging buffer holds its block at every point, fetched there or not, for any proof
    data whose array is `V`'s (`hA`) and whose body leaves the block in place (`hafter`): unfetched, the block index
    has not moved; the window is uncut and never idle. -/
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)
/-- Input window 15's current staging buffer holds its block at every point, fetched there or not, for any proof
    data whose array is `V`'s (`hA`) and whose body leaves the block in place (`hafter`): unfetched, the block index
    has not moved; the window is uncut and never idle. -/
theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)
/-- Input window 16's current staging buffer holds its block at every point, fetched there or not, for any proof
    data whose array is `V`'s (`hA`) and whose body leaves the block in place (`hafter`): unfetched, the block index
    has not moved; the window is uncut and never idle. -/
theorem before2_16_of {c : Dev nD} (dat : Dat τ (Elt F) Unit ℕ (UR sig nD τ) ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)
/-- Input window 17's current staging buffer holds its block at every point, fetched there or not, for any proof
    data whose array is `V`'s (`hA`) and whose body leaves the block in place (`hafter`): unfetched, the block index
    has not moved; the window is uncut and never idle. -/
theorem before2_17_of {c : Dev nD} (dat : Dat τ (Elt F) Unit ℕ (UR sig nD τ) ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)
/-- Input window 18's current staging buffer holds its block at every point, fetched there or not, for any proof
    data whose array is `V`'s (`hA`) and whose body leaves the block in place (`hafter`): unfetched, the block index
    has not moved; the window is uncut and never idle. -/
theorem before2_18_of {c : Dev nD} (dat : Dat τ (Elt F) Unit ℕ (UR sig nD τ) ℕ cfg2 c) (hA : dat.A 18 = V c (Pipeline.arrRef spec2 18))
    (hafter : ∀ t, dat.after 18 t = iblk2 V c 18 t) (t : Fin cfg2.N) (d) : dat.before 18 t d = iblk2 V c 18 t :=
  (dat.before_in_eq_fetched 18 rfl (fun _ => rfl) (fun _ _ _ => rfl) (fun t => by rw [hafter]; unfold Dat.blockOf iblk2; rw [hA]; try rfl) t d).trans
    (by unfold Dat.fetched Dat.blockOf iblk2; rw [hA]; try rfl)
/-- Input window 19's current staging buffer holds its block at every point, fetched there or not, for any proof
    data whose array is `V`'s (`hA`) and whose body leaves the block in place (`hafter`): unfetched, the block index
    has not moved; the window is uncut and never idle. -/
theorem before2_19_of {c : Dev nD} (dat : Dat τ (Elt F) Unit ℕ (UR sig nD τ) ℕ cfg2 c) (hA : dat.A 19 = V c (Pipeline.arrRef spec2 19))
    (hafter : ∀ t, dat.after 19 t = iblk2 V c 19 t) (t : Fin cfg2.N) (d) : dat.before 19 t d = iblk2 V c 19 t :=
  (dat.before_in_eq_fetched 19 rfl (fun _ => rfl) (fun _ _ _ => rfl) (fun t => by rw [hafter]; unfold Dat.blockOf iblk2; rw [hA]; try rfl) t d).trans
    (by unfold Dat.fetched Dat.blockOf iblk2; rw [hA]; try rfl)
/-- Input window 20's current staging buffer holds its block at every point, fetched there or not, for any proof
    data whose array is `V`'s (`hA`) and whose body leaves the block in place (`hafter`): unfetched, the block index
    has not moved; the window is uncut and never idle. -/
theorem before2_20_of {c : Dev nD} (dat : Dat τ (Elt F) Unit ℕ (UR sig nD τ) ℕ cfg2 c) (hA : dat.A 20 = V c (Pipeline.arrRef spec2 20))
    (hafter : ∀ t, dat.after 20 t = iblk2 V c 20 t) (t : Fin cfg2.N) (d) : dat.before 20 t d = iblk2 V c 20 t :=
  (dat.before_in_eq_fetched 20 rfl (fun _ => rfl) (fun _ _ _ => rfl) (fun t => by rw [hafter]; unfold Dat.blockOf iblk2; rw [hA]; try rfl) t d).trans
    (by unfold Dat.fetched Dat.blockOf iblk2; rw [hA]; try rfl)
/-- Input window 21's current staging buffer holds its block at every point, fetched there or not, for any proof
    data whose array is `V`'s (`hA`) and whose body leaves the block in place (`hafter`): unfetched, the block index
    has not moved; the window is uncut and never idle. -/
theorem before2_21_of {c : Dev nD} (dat : Dat τ (Elt F) Unit ℕ (UR sig nD τ) ℕ cfg2 c) (hA : dat.A 21 = V c (Pipeline.arrRef spec2 21))
    (hafter : ∀ t, dat.after 21 t = iblk2 V c 21 t) (t : Fin cfg2.N) (d) : dat.before 21 t d = iblk2 V c 21 t :=
  (dat.before_in_eq_fetched 21 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S2000x64 := Rect.unit (s := S2000x64) ![0, 0] S2000x64.size inb_S2000x64_S2000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0
abbrev r2_3 : Rect S2000x256 := Rect.unit (s := S2000x256) ![0, 0] S2000x256.size inb_S2000x256_S2000x256_0_0

/-! ## What the body leaves in the output window's buffer -/

/-- Window 22's staging buffer after the body, from the input windows' blocks: its one store, of the whole block.
    The payload is the node update composed of the skeleton's payloads: the three vector channels passed through
    (`k2_pay1` … `k2_pay3`), the scalar update (`k2_pay8` over the message `k2_pay7`), the gate (`k2_pay9` over the
    rounded operands `k2_pay4` … `k2_pay6`), and the assembled row (`k2_pay10`). -/
def out2_22 (x0 : Vec F S2000x64 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .f32) (x8 : Vec F S64x64 .f32) (x9 : Vec F S64x64 .f32) (x10 : Vec F S64x64 .f32) (x11 : Vec F S1x64 .f32) (x12 : Vec F S64x64 .f32) (x13 : Vec F S1x64 .f32) (x14 : Vec F S64x64 .f32) (x15 : Vec F S64x64 .f32) (x16 : Vec F S64x64 .f32) (x17 : Vec F S1x64 .f32) (x18 : Vec F S64x64 .f32) (x19 : Vec F S1x64 .f32) (x20 : Vec F S1x64 .f32) (x21 : Vec F S1x64 .f32) : Vec F S2000x256 .f32 :=
  View.canon [⟨r2_3, k2_pay10 (k2_pay1 (View.ld x2 r2_0)) (k2_pay2 (View.ld x3 r2_0)) (k2_pay3 (View.ld x4 r2_0))
      (k2_pay8 (View.ld x0 r2_0) (k2_pay7 (View.ld x0 r2_0) (View.ld x1 r2_0) (View.ld x2 r2_0) (View.ld x3 r2_0) (View.ld x4 r2_0) (View.ld x8 r2_1) (View.ld x9 r2_1) (View.ld x10 r2_1) (View.ld x11 r2_2)) (View.ld x12 r2_1) (View.ld x13 r2_2))
      (k2_pay9 (k2_pay4 (View.ld x0 r2_0)) (k2_pay5 (View.ld x1 r2_0)) (k2_pay6 (View.ld x2 r2_0) (View.ld x3 r2_0) (View.ld x4 r2_0)) (View.ld x14 r2_1) (View.ld x15 r2_1) (View.ld x16 r2_1) (View.ld x17 r2_2) (View.ld x18 r2_1) (View.ld x19 r2_2))
      (View.ld x5 r2_0) (View.ld x6 r2_0) (View.ld x7 r2_0) (View.ld x20 r2_2) (View.ld x21 r2_2)⟩]

/-- Its store is of the whole buffer, so it covers it. -/
theorem cover2_22 (p0 : Vec F S2000x256 .f32) (y : S2000x256.Idx) :
    ∃ pc ∈ ([⟨r2_3, p0⟩] : List (View.Piece (Elt F) S2000x256 .f32)), y ∈ pc.1.set :=
  View.cover_of_tiled [⟨r2_3, p0⟩] S2000x256.size (by rfl) y

/-! ## The body's triple -/

set_option maxHeartbeats 4000000 in
/-- The kernel body on whole staging memrefs, the inputs' at read contents `xW` and the output's at anything, runs to
    the continuation holding the inputs' as they were and the output's at `out2_22` of the inputs': every load is of a
    whole block, the arithmetic is the payloads', and the one store is of the whole output block. -/
theorem sound_kernel2 (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S2000x64 .f32) (harg8 : arg8.IsWhole) (arg9 : Memref sig .tc .vmem S64x64 .f32) (harg9 : arg9.IsWhole) (arg10 : Memref sig .tc .vmem S64x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S64x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S64x64 .f32) (harg19 : arg19.IsWhole) (arg20 : Memref sig .tc .vmem S1x64 .f32) (harg20 : arg20.IsWhole) (arg21 : Memref sig .tc .vmem S1x64 .f32) (harg21 : arg21.IsWhole) (arg22 : Memref sig .tc .vmem S1x64 .f32) (harg22 : arg22.IsWhole) (arg23 : Memref sig .tc .vmem S2000x256 .f32) (harg23 : arg23.IsWhole)
    (x0 : Vec F S2000x64 .f32) (x1 : Vec F S2000x64 .f32) (x2 : Vec F S2000x64 .f32) (x3 : Vec F S2000x64 .f32) (x4 : Vec F S2000x64 .f32) (x5 : Vec F S2000x64 .f32) (x6 : Vec F S2000x64 .f32) (x7 : Vec F S2000x64 .f32) (x8 : Vec F S64x64 .f32) (x9 : Vec F S64x64 .f32) (x10 : Vec F S64x64 .f32) (x11 : Vec F S1x64 .f32) (x12 : Vec F S64x64 .f32) (x13 : Vec F S1x64 .f32) (x14 : Vec F S64x64 .f32) (x15 : Vec F S64x64 .f32) (x16 : Vec F S64x64 .f32) (x17 : Vec F S1x64 .f32) (x18 : Vec F S64x64 .f32) (x19 : Vec F S1x64 .f32) (x20 : Vec F S1x64 .f32) (x21 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare (out2_22 x0 x1 x2 x3 x4 x5 x6 x7 x8 x9 x10 x11 x12 x13 x14 x15 x16 x17 x18 x19 x20 x21)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf19; subst hf20; subst hf21
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  iexists _; isplitr
  swap; · iexact H22
  ipureintro
  exact View.read_writes_eq_canon _ _ _ (cover2_22 _)

/-! ## The pipeline's proof data -/

/-- The proof data of pipeline 2 on core `c`: the arrays as the region finds them (`V`); after the body at
    point `t` each input's buffer at its block and the output's at `out2_22` of the input blocks; the invariant
    the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => iblk2 V c 18 t
    | ⟨19, _⟩ => iblk2 V c 19 t
    | ⟨20, _⟩ => iblk2 V c 20 t
    | ⟨21, _⟩ => iblk2 V c 21 t
    | ⟨22, _⟩ => out2_22 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t)
    | ⟨_ + 23, h⟩ => absurd h (Nat.not_lt.2 (Nat.le_add_left _ _))
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = iblk2 V c 17 t := by dsimp only [dat2]
theorem after2_18 (c : Dev nD) (t : Fin cfg2.N) : (dat2 V c).after 18 t = iblk2 V c 18 t := by dsimp only [dat2]
theorem after2_19 (c : Dev nD) (t : Fin cfg2.N) : (dat2 V c).after 19 t = iblk2 V c 19 t := by dsimp only [dat2]
theorem after2_20 (c : Dev nD) (t : Fin cfg2.N) : (dat2 V c).after 20 t = iblk2 V c 20 t := by dsimp only [dat2]
theorem after2_21 (c : Dev nD) (t : Fin cfg2.N) : (dat2 V c).after 21 t = iblk2 V c 21 t := by dsimp only [dat2]
theorem after2_22 (c : Dev nD) (t : Fin cfg2.N) : (dat2 V c).after 22 t = out2_22 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d
theorem before2_16 (c : Dev nD) (t : Fin cfg2.N) (d) : (dat2 V c).before 16 t d = iblk2 V c 16 t :=
  before2_16_of V (dat2 V c) (A_eq2 V c 16) (after2_16 V c) t d
theorem before2_17 (c : Dev nD) (t : Fin cfg2.N) (d) : (dat2 V c).before 17 t d = iblk2 V c 17 t :=
  before2_17_of V (dat2 V c) (A_eq2 V c 17) (after2_17 V c) t d
theorem before2_18 (c : Dev nD) (t : Fin cfg2.N) (d) : (dat2 V c).before 18 t d = iblk2 V c 18 t :=
  before2_18_of V (dat2 V c) (A_eq2 V c 18) (after2_18 V c) t d
theorem before2_19 (c : Dev nD) (t : Fin cfg2.N) (d) : (dat2 V c).before 19 t d = iblk2 V c 19 t :=
  before2_19_of V (dat2 V c) (A_eq2 V c 19) (after2_19 V c) t d
theorem before2_20 (c : Dev nD) (t : Fin cfg2.N) (d) : (dat2 V c).before 20 t d = iblk2 V c 20 t :=
  before2_20_of V (dat2 V c) (A_eq2 V c 20) (after2_20 V c) t d
theorem before2_21 (c : Dev nD) (t : Fin cfg2.N) (d) : (dat2 V c).before 21 t d = iblk2 V c 21 t :=
  before2_21_of V (dat2 V c) (A_eq2 V c 21) (after2_21 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d))
    ∗ (∃ d, owns (c : Thread nD τ) (st2_17 t) fullShare ((dat2 V c).before 17 t d))
    ∗ (∃ d, owns (c : Thread nD τ) (st2_18 t) fullShare ((dat2 V c).before 18 t d))
    ∗ (∃ d, owns (c : Thread nD τ) (st2_19 t) fullShare ((dat2 V c).before 19 t d))
    ∗ (∃ d, owns (c : Thread nD τ) (st2_20 t) fullShare ((dat2 V c).before 20 t d))
    ∗ (∃ d, owns (c : Thread nD τ) (st2_21 t) fullShare ((dat2 V c).before 21 t d))
    ∗ (∃ d, owns (c : Thread nD τ) (st2_22 t) fullShare ((dat2 V c).before 22 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t)
    ∗ owns (c : Thread nD τ) (st2_17 t) fullShare ((dat2 V c).after 17 t)
    ∗ owns (c : Thread nD τ) (st2_18 t) fullShare ((dat2 V c).after 18 t)
    ∗ owns (c : Thread nD τ) (st2_19 t) fullShare ((dat2 V c).after 19 t)
    ∗ owns (c : Thread nD τ) (st2_20 t) fullShare ((dat2 V c).after 20 t)
    ∗ owns (c : Thread nD τ) (st2_21 t) fullShare ((dat2 V c).after 21 t)
    ∗ owns (c : Thread nD τ) (st2_22 t) fullShare ((dat2 V c).after 22 t))

set_option maxHeartbeats 4000000 in
/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14, before2_15, before2_16, before2_17, before2_18, before2_19, before2_20, before2_21]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16, after2_17, after2_18, after2_19, after2_20, after2_21, after2_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel2 c Set.univ _ _ _ _ _ _ _ _ _ _ _ _ _ _ _ _ _ _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KIRun.lean ====
/-
  The run of @main as a chain of segments: nine stretches of host operations and three kernel regions. Between two segments
  every unscoped buffer of the core is held whole at named contents: the launch memory, then each host stretch's operations
  applied in order, then, at a region's exit, the region's arrays at what its write-backs leave (an input array as entered, the
  output array at the fold of the blocks the grid points flush) and every other buffer as entered. No host operation and no
  region writes an argument array, so each argument walks back through the chain to its launch contents; the result
  buffers are read off the last contents by name.
-/
import proofs.«166758_j50929722196748_2_alg».proof.Proof.Gen.KernelIdeal.Launch
import proofs.«166758_j50929722196748_2_alg».proof.Proof.Gen.KernelIdeal.Skeleton
import proofs.«166758_j50929722196748_2_alg».proof.Proof.Gen.KernelIdeal.Points
import proofs.«166758_j50929722196748_2_alg».proof.Proof.Gen.KernelIdeal.Regions
import proofs.«166758_j50929722196748_2_alg».proof.Proof.KIRegion0
import proofs.«166758_j50929722196748_2_alg».proof.Proof.KIRegion1
import proofs.«166758_j50929722196748_2_alg».proof.Proof.KIRegion2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- After the host stretch `hostOps0_1`. -/
abbrev W2 : Dev nD → Valuation τ sig (Elt F) := fun c => StableHlo.after hostOps0_1 (W1 m ρ c)
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
/-- After the host stretch `hostOps0_2`. -/
abbrev W3 : Dev nD → Valuation τ sig (Elt F) := fun c => StableHlo.after hostOps0_2 (W2 m ρ c)
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
/-- Region 0's entry contents read at the TensorCore's references. -/
abbrev Vin0 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (Vin0 m ρ) c).arrAt w cfg0.N
theorem W4_arr (c : Dev nD) (w : Fin cfg0.W) :
    W4 m ρ c (Proc.devRef .tc (Pipeline.arrRef spec0 w)) = (dat0 (Vin0 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev Vout0 : (c : Dev nD) → (b : Ref sig .tc) → Buf (Elt F) ((c : Thread nD τ).loc b) := fun c b => W4 m ρ c b
theorem hF0 (c : Dev nD) (w : Fin cfg0.W) : (dat0 (Vin0 m ρ) c).arrAt w cfg0.N = Vout0 m ρ c (Pipeline.arrRef spec0 w) :=
  (W4_arr m ρ c w).symm
theorem hrest0 (c : Dev nD) : ∀ b, b ∉ Finset.univ.image (Pipeline.arrRef spec0) → Vout0 m ρ c b = Vin0 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h
/-- After the host stretch `hostOps1_1`. -/
abbrev W6 : Dev nD → Valuation τ sig (Elt F) := fun c => StableHlo.after hostOps1_1 (W5 m ρ c)
theorem W6_of (c : Dev nD) (r : Ref sig .tc) (h : r ∉ hostOps1_1_W) :
    W6 m ρ c (Proc.devRef .tc r) = W5 m ρ c (Proc.devRef .tc r) :=
  StableHlo.after_of_writes_sub hostOps1_1 _ hostOps1_1_writes h
/-- After the host stretch `hostOps1_2`. -/
abbrev W7 : Dev nD → Valuation τ sig (Elt F) := fun c => StableHlo.after hostOps1_2 (W6 m ρ c)
theorem W7_of (c : Dev nD) (r : Ref sig .tc) (h : r ∉ hostOps1_2_W) :
    W7 m ρ c (Proc.devRef .tc r) = W6 m ρ c (Proc.devRef .tc r) :=
  StableHlo.after_of_writes_sub hostOps1_2 _ hostOps1_2_writes h
/-- After the host stretch `hostOps1_3`. -/
abbrev W8 : Dev nD → Valuation τ sig (Elt F) := fun c => StableHlo.after hostOps1_3 (W7 m ρ c)
theorem W8_of (c : Dev nD) (r : Ref sig .tc) (h : r ∉ hostOps1_3_W) :
    W8 m ρ c (Proc.devRef .tc r) = W7 m ρ c (Proc.devRef .tc r) :=
  StableHlo.after_of_writes_sub hostOps1_3 _ hostOps1_3_writes h
/-- Region 1's entry contents read at the TensorCore's references. -/
abbrev Vin1 : (c : Dev nD) → (b : Ref sig .tc) → Buf (Elt F) ((c : Thread nD τ).loc b) := fun c b => W8 m ρ c b
/-- At region 1's exit: its arrays at what the pipeline leaves, every other buffer as entered. -/
def W9 (c : Dev nD) : Valuation τ sig (Elt F) :=
  Pipeline.withArrays spec1 c (W8 m ρ c) fun w => (dat1 (Vin1 m ρ) c).arrAt w cfg1.N
theorem W9_arr (c : Dev nD) (w : Fin cfg1.W) :
    W9 m ρ c (Proc.devRef .tc (Pipeline.arrRef spec1 w)) = (dat1 (Vin1 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
abbrev Vout1 : (c : Dev nD) → (b : Ref sig .tc) → Buf (Elt F) ((c : Thread nD τ).loc b) := fun c b => W9 m ρ c b
theorem hF1 (c : Dev nD) (w : Fin cfg1.W) : (dat1 (Vin1 m ρ) c).arrAt w cfg1.N = Vout1 m ρ c (Pipeline.arrRef spec1 w) :=
  (W9_arr m ρ c w).symm
theorem hrest1 (c : Dev nD) : ∀ b, b ∉ Finset.univ.image (Pipeline.arrRef spec1) → Vout1 m ρ c b = Vin1 m ρ c b :=
  fun b hb => W9_of_ne m ρ c b fun w e => hb (Finset.mem_image.mpr ⟨w, Finset.mem_univ _, e⟩)
/-- After the host stretch `hostOps2`. -/
abbrev W10 : Dev nD → Valuation τ sig (Elt F) := fun c => StableHlo.after hostOps2 (W9 m ρ c)
theorem W10_of (c : Dev nD) (r : Ref sig .tc) (h : r ∉ hostOps2_W) :
    W10 m ρ c (Proc.devRef .tc r) = W9 m ρ c (Proc.devRef .tc r) :=
  StableHlo.after_of_writes_sub hostOps2 _ hostOps2_writes h
/-- Region 2's entry contents read at the TensorCore's references. -/
abbrev Vin2 : (c : Dev nD) → (b : Ref sig .tc) → Buf (Elt F) ((c : Thread nD τ).loc b) := fun c b => W10 m ρ c b
/-- At region 2's exit: its arrays at what the pipeline leaves, every other buffer as entered. -/
def W11 (c : Dev nD) : Valuation τ sig (Elt F) :=
  Pipeline.withArrays spec2 c (W10 m ρ c) fun w => (dat2 (Vin2 m ρ) c).arrAt w cfg2.N
theorem W11_arr (c : Dev nD) (w : Fin cfg2.W) :
    W11 m ρ c (Proc.devRef .tc (Pipeline.arrRef spec2 w)) = (dat2 (Vin2 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
abbrev Vout2 : (c : Dev nD) → (b : Ref sig .tc) → Buf (Elt F) ((c : Thread nD τ).loc b) := fun c b => W11 m ρ c b
theorem hF2 (c : Dev nD) (w : Fin cfg2.W) : (dat2 (Vin2 m ρ) c).arrAt w cfg2.N = Vout2 m ρ c (Pipeline.arrRef spec2 w) :=
  (W11_arr m ρ c w).symm
theorem hrest2 (c : Dev nD) : ∀ b, b ∉ Finset.univ.image (Pipeline.arrRef spec2) → Vout2 m ρ c b = Vin2 m ρ c b :=
  fun b hb => W11_of_ne m ρ c b fun w e => hb (Finset.mem_image.mpr ⟨w, Finset.mem_univ _, e⟩)
/-- After the host stretch `hostOps3`. -/
abbrev W12 : Dev nD → Valuation τ sig (Elt F) := fun c => StableHlo.after hostOps3 (W11 m ρ c)
theorem W12_of (c : Dev nD) (r : Ref sig .tc) (h : r ∉ hostOps3_W) :
    W12 m ρ c (Proc.devRef .tc r) = W11 m ρ c (Proc.devRef .tc r) :=
  StableHlo.after_of_writes_sub hostOps3 _ hostOps3_writes h

/-! ## The arguments end as launched -/
theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of m ρ c main_arg0 (by decide)
    _ = W10 m ρ c (Proc.devRef .tc main_arg0) := (W11_arr m ρ c 0).trans (((dat2 (Vin2 m ρ) c).arrAt_in 0 rfl _).trans (A_eq2 (Vin2 m ρ) c 0))
    _ = W9 m ρ c (Proc.devRef .tc main_arg0) := W10_of m ρ c main_arg0 (by decide)
    _ = W8 m ρ c (Proc.devRef .tc main_arg0) := W9_of_ne m ρ c main_arg0 (by decide)
    _ = W7 m ρ c (Proc.devRef .tc main_arg0) := W8_of m ρ c main_arg0 (by decide)
    _ = W6 m ρ c (Proc.devRef .tc main_arg0) := W7_of m ρ c main_arg0 (by decide)
    _ = W5 m ρ c (Proc.devRef .tc main_arg0) := W6_of m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl
theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of m ρ c main_arg1 (by decide)
    _ = W10 m ρ c (Proc.devRef .tc main_arg1) := W11_of_ne m ρ c main_arg1 (by decide)
    _ = W9 m ρ c (Proc.devRef .tc main_arg1) := W10_of m ρ c main_arg1 (by decide)
    _ = W8 m ρ c (Proc.devRef .tc main_arg1) := W9_of_ne m ρ c main_arg1 (by decide)
    _ = W7 m ρ c (Proc.devRef .tc main_arg1) := W8_of m ρ c main_arg1 (by decide)
    _ = W6 m ρ c (Proc.devRef .tc main_arg1) := W7_of m ρ c main_arg1 (by decide)
    _ = W5 m ρ c (Proc.devRef .tc main_arg1) := W6_of m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl
theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of m ρ c main_arg2 (by decide)
    _ = W10 m ρ c (Proc.devRef .tc main_arg2) := W11_of_ne m ρ c main_arg2 (by decide)
    _ = W9 m ρ c (Proc.devRef .tc main_arg2) := W10_of m ρ c main_arg2 (by decide)
    _ = W8 m ρ c (Proc.devRef .tc main_arg2) := W9_of_ne m ρ c main_arg2 (by decide)
    _ = W7 m ρ c (Proc.devRef .tc main_arg2) := W8_of m ρ c main_arg2 (by decide)
    _ = W6 m ρ c (Proc.devRef .tc main_arg2) := W7_of m ρ c main_arg2 (by decide)
    _ = W5 m ρ c (Proc.devRef .tc main_arg2) := W6_of m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of m ρ c main_arg2 (by decide)
    _ = m ((c : Thread nD τ).loc main_arg2) := rfl
theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of m ρ c main_arg3 (by decide)
    _ = W10 m ρ c (Proc.devRef .tc main_arg3) := W11_of_ne m ρ c main_arg3 (by decide)
    _ = W9 m ρ c (Proc.devRef .tc main_arg3) := W10_of m ρ c main_arg3 (by decide)
    _ = W8 m ρ c (Proc.devRef .tc main_arg3) := (W9_arr m ρ c 2).trans (((dat1 (Vin1 m ρ) c).arrAt_in 2 rfl _).trans (A_eq1 (Vin1 m ρ) c 2))
    _ = W7 m ρ c (Proc.devRef .tc main_arg3) := W8_of m ρ c main_arg3 (by decide)
    _ = W6 m ρ c (Proc.devRef .tc main_arg3) := W7_of m ρ c main_arg3 (by decide)
    _ = W5 m ρ c (Proc.devRef .tc main_arg3) := W6_of m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl
theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := W12_of m ρ c main_arg4 (by decide)
    _ = W10 m ρ c (Proc.devRef .tc main_arg4) := W11_of_ne m ρ c main_arg4 (by decide)
    _ = W9 m ρ c (Proc.devRef .tc main_arg4) := W10_of m ρ c main_arg4 (by decide)
    _ = W8 m ρ c (Proc.devRef .tc main_arg4) := (W9_arr m ρ c 4).trans (((dat1 (Vin1 m ρ) c).arrAt_in 4 rfl _).trans (A_eq1 (Vin1 m ρ) c 4))
    _ = W7 m ρ c (Proc.devRef .tc main_arg4) := W8_of m ρ c main_arg4 (by decide)
    _ = W6 m ρ c (Proc.devRef .tc main_arg4) := W7_of m ρ c main_arg4 (by decide)
    _ = W5 m ρ c (Proc.devRef .tc main_arg4) := W6_of m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl
theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of m ρ c main_arg5 (by decide)
    _ = W10 m ρ c (Proc.devRef .tc main_arg5) := W11_of_ne m ρ c main_arg5 (by decide)
    _ = W9 m ρ c (Proc.devRef .tc main_arg5) := W10_of m ρ c main_arg5 (by decide)
    _ = W8 m ρ c (Proc.devRef .tc main_arg5) := W9_of_ne m ρ c main_arg5 (by decide)
    _ = W7 m ρ c (Proc.devRef .tc main_arg5) := W8_of m ρ c main_arg5 (by decide)
    _ = W6 m ρ c (Proc.devRef .tc main_arg5) := W7_of m ρ c main_arg5 (by decide)
    _ = W5 m ρ c (Proc.devRef .tc main_arg5) := W6_of m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of m ρ c main_arg5 (by decide)
    _ = m ((c : Thread nD τ).loc main_arg5) := rfl
theorem W12_main_arg6 (c : Dev nD) : W12 m ρ c (Proc.devRef .tc main_arg6) = m ((c : Thread nD τ).loc main_arg6) :=
  calc W12 m ρ c (Proc.devRef .tc main_arg6)
    _ = W11 m ρ c (Proc.devRef .tc main_arg6) := W12_of m ρ c main_arg6 (by decide)
    _ = W10 m ρ c (Proc.devRef .tc main_arg6) := W11_of_ne m ρ c main_arg6 (by decide)
    _ = W9 m ρ c (Proc.devRef .tc main_arg6) := W10_of m ρ c main_arg6 (by decide)
    _ = W8 m ρ c (Proc.devRef .tc main_arg6) := W9_of_ne m ρ c main_arg6 (by decide)
    _ = W7 m ρ c (Proc.devRef .tc main_arg6) := W8_of m ρ c main_arg6 (by decide)
    _ = W6 m ρ c (Proc.devRef .tc main_arg6) := W7_of m ρ c main_arg6 (by decide)
    _ = W5 m ρ c (Proc.devRef .tc main_arg6) := W6_of m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of m ρ c main_arg6 (by decide)
    _ = W0 m ρ c (Proc.devRef .tc main_arg6) := W1_of m ρ c main_arg6 (by decide)
    _ = m ((c : Thread nD τ).loc main_arg6) := rfl
theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := W12_of m ρ c main_arg7 (by decide)
    _ = W10 m ρ c (Proc.devRef .tc main_arg7) := W11_of_ne m ρ c main_arg7 (by decide)
    _ = W9 m ρ c (Proc.devRef .tc main_arg7) := W10_of m ρ c main_arg7 (by decide)
    _ = W8 m ρ c (Proc.devRef .tc main_arg7) := W9_of_ne m ρ c main_arg7 (by decide)
    _ = W7 m ρ c (Proc.devRef .tc main_arg7) := W8_of m ρ c main_arg7 (by decide)
    _ = W6 m ρ c (Proc.devRef .tc main_arg7) := W7_of m ρ c main_arg7 (by decide)
    _ = W5 m ρ c (Proc.devRef .tc main_arg7) := W6_of m ρ c main_arg7 (by decide)
    _ = W4 m ρ c (Proc.devRef .tc main_arg7) := W5_of m ρ c main_arg7 (by decide)
    _ = W3 m ρ c (Proc.devRef .tc main_arg7) := (W4_arr m ρ c 2).trans (((dat0 (Vin0 m ρ) c).arrAt_in 2 rfl _).trans (A_eq0 (Vin0 m ρ) c 2))
    _ = W2 m ρ c (Proc.devRef .tc main_arg7) := W3_of m ρ c main_arg7 (by decide)
    _ = W1 m ρ c (Proc.devRef .tc main_arg7) := W2_of m ρ c main_arg7 (by decide)
    _ = W0 m ρ c (Proc.devRef .tc main_arg7) := W1_of m ρ c main_arg7 (by decide)
    _ = m ((c : Thread nD τ).loc main_arg7) := rfl
theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of m ρ c main_arg8 (by decide)
    _ = W10 m ρ c (Proc.devRef .tc main_arg8) := W11_of_ne m ρ c main_arg8 (by decide)
    _ = W9 m ρ c (Proc.devRef .tc main_arg8) := W10_of m ρ c main_arg8 (by decide)
    _ = W8 m ρ c (Proc.devRef .tc main_arg8) := W9_of_ne m ρ c main_arg8 (by decide)
    _ = W7 m ρ c (Proc.devRef .tc main_arg8) := W8_of m ρ c main_arg8 (by decide)
    _ = W6 m ρ c (Proc.devRef .tc main_arg8) := W7_of m ρ c main_arg8 (by decide)
    _ = W5 m ρ c (Proc.devRef .tc main_arg8) := W6_of m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of m ρ c main_arg8 (by decide)
    _ = W0 m ρ c (Proc.devRef .tc main_arg8) := W1_of m ρ c main_arg8 (by decide)
    _ = m ((c : Thread nD τ).loc main_arg8) := rfl
theorem W12_main_arg9 (c : Dev nD) : W12 m ρ c (Proc.devRef .tc main_arg9) = m ((c : Thread nD τ).loc main_arg9) :=
  calc W12 m ρ c (Proc.devRef .tc main_arg9)
    _ = W11 m ρ c (Proc.devRef .tc main_arg9) := W12_of m ρ c main_arg9 (by decide)
    _ = W10 m ρ c (Proc.devRef .tc main_arg9) := W11_of_ne m ρ c main_arg9 (by decide)
    _ = W9 m ρ c (Proc.devRef .tc main_arg9) := W10_of m ρ c main_arg9 (by decide)
    _ = W8 m ρ c (Proc.devRef .tc main_arg9) := W9_of_ne m ρ c main_arg9 (by decide)
    _ = W7 m ρ c (Proc.devRef .tc main_arg9) := W8_of m ρ c main_arg9 (by decide)
    _ = W6 m ρ c (Proc.devRef .tc main_arg9) := W7_of m ρ c main_arg9 (by decide)
    _ = W5 m ρ c (Proc.devRef .tc main_arg9) := W6_of m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of m ρ c main_arg9 (by decide)
    _ = W0 m ρ c (Proc.devRef .tc main_arg9) := W1_of m ρ c main_arg9 (by decide)
    _ = m ((c : Thread nD τ).loc main_arg9) := rfl
theorem W12_main_arg10 (c : Dev nD) : W12 m ρ c (Proc.devRef .tc main_arg10) = m ((c : Thread nD τ).loc main_arg10) :=
  calc W12 m ρ c (Proc.devRef .tc main_arg10)
    _ = W11 m ρ c (Proc.devRef .tc main_arg10) := W12_of m ρ c main_arg10 (by decide)
    _ = W10 m ρ c (Proc.devRef .tc main_arg10) := W11_of_ne m ρ c main_arg10 (by decide)
    _ = W9 m ρ c (Proc.devRef .tc main_arg10) := W10_of m ρ c main_arg10 (by decide)
    _ = W8 m ρ c (Proc.devRef .tc main_arg10) := W9_of_ne m ρ c main_arg10 (by decide)
    _ = W7 m ρ c (Proc.devRef .tc main_arg10) := W8_of m ρ c main_arg10 (by decide)
    _ = W6 m ρ c (Proc.devRef .tc main_arg10) := W7_of m ρ c main_arg10 (by decide)
    _ = W5 m ρ c (Proc.devRef .tc main_arg10) := W6_of m ρ c main_arg10 (by decide)
    _ = W4 m ρ c (Proc.devRef .tc main_arg10) := W5_of m ρ c main_arg10 (by decide)
    _ = W3 m ρ c (Proc.devRef .tc main_arg10) := (W4_arr m ρ c 7).trans (((dat0 (Vin0 m ρ) c).arrAt_in 7 rfl _).trans (A_eq0 (Vin0 m ρ) c 7))
    _ = W2 m ρ c (Proc.devRef .tc main_arg10) := W3_of m ρ c main_arg10 (by decide)
    _ = W1 m ρ c (Proc.devRef .tc main_arg10) := W2_of m ρ c main_arg10 (by decide)
    _ = W0 m ρ c (Proc.devRef .tc main_arg10) := W1_of m ρ c main_arg10 (by decide)
    _ = m ((c : Thread nD τ).loc main_arg10) := rfl
theorem W12_main_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of m ρ c main_arg11 (by decide)
    _ = W10 m ρ c (Proc.devRef .tc main_arg11) := W11_of_ne m ρ c main_arg11 (by decide)
    _ = W9 m ρ c (Proc.devRef .tc main_arg11) := W10_of m ρ c main_arg11 (by decide)
    _ = W8 m ρ c (Proc.devRef .tc main_arg11) := W9_of_ne m ρ c main_arg11 (by decide)
    _ = W7 m ρ c (Proc.devRef .tc main_arg11) := W8_of m ρ c main_arg11 (by decide)
    _ = W6 m ρ c (Proc.devRef .tc main_arg11) := W7_of m ρ c main_arg11 (by decide)
    _ = W5 m ρ c (Proc.devRef .tc main_arg11) := W6_of m ρ c main_arg11 (by decide)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of m ρ c main_arg11 (by decide)
    _ = W0 m ρ c (Proc.devRef .tc main_arg11) := W1_of m ρ c main_arg11 (by decide)
    _ = m ((c : Thread nD τ).loc main_arg11) := rfl
theorem W12_main_arg12 (c : Dev nD) : W12 m ρ c (Proc.devRef .tc main_arg12) = m ((c : Thread nD τ).loc main_arg12) :=
  calc W12 m ρ c (Proc.devRef .tc main_arg12)
    _ = W11 m ρ c (Proc.devRef .tc main_arg12) := W12_of m ρ c main_arg12 (by decide)
    _ = W10 m ρ c (Proc.devRef .tc main_arg12) := W11_of_ne m ρ c main_arg12 (by decide)
    _ = W9 m ρ c (Proc.devRef .tc main_arg12) := W10_of m ρ c main_arg12 (by decide)
    _ = W8 m ρ c (Proc.devRef .tc main_arg12) := W9_of_ne m ρ c main_arg12 (by decide)
    _ = W7 m ρ c (Proc.devRef .tc main_arg12) := W8_of m ρ c main_arg12 (by decide)
    _ = W6 m ρ c (Proc.devRef .tc main_arg12) := W7_of m ρ c main_arg12 (by decide)
    _ = W5 m ρ c (Proc.devRef .tc main_arg12) := W6_of m ρ c main_arg12 (by decide)
    _ = W4 m ρ c (Proc.devRef .tc main_arg12) := W5_of m ρ c main_arg12 (by decide)
    _ = W3 m ρ c (Proc.devRef .tc main_arg12) := W4_of_ne m ρ c main_arg12 (by decide)
    _ = W2 m ρ c (Proc.devRef .tc main_arg12) := W3_of m ρ c main_arg12 (by decide)
    _ = W1 m ρ c (Proc.devRef .tc main_arg12) := W2_of m ρ c main_arg12 (by decide)
    _ = W0 m ρ c (Proc.devRef .tc main_arg12) := W1_of m ρ c main_arg12 (by decide)
    _ = m ((c : Thread nD τ).loc main_arg12) := rfl
theorem W12_main_arg13 (c : Dev nD) : W12 m ρ c (Proc.devRef .tc main_arg13) = m ((c : Thread nD τ).loc main_arg13) :=
  calc W12 m ρ c (Proc.devRef .tc main_arg13)
    _ = W11 m ρ c (Proc.devRef .tc main_arg13) := W12_of m ρ c main_arg13 (by decide)
    _ = W10 m ρ c (Proc.devRef .tc main_arg13) := W11_of_ne m ρ c main_arg13 (by decide)
    _ = W9 m ρ c (Proc.devRef .tc main_arg13) := W10_of m ρ c main_arg13 (by decide)
    _ = W8 m ρ c (Proc.devRef .tc main_arg13) := W9_of_ne m ρ c main_arg13 (by decide)
    _ = W7 m ρ c (Proc.devRef .tc main_arg13) := W8_of m ρ c main_arg13 (by decide)
    _ = W6 m ρ c (Proc.devRef .tc main_arg13) := W7_of m ρ c main_arg13 (by decide)
    _ = W5 m ρ c (Proc.devRef .tc main_arg13) := W6_of m ρ c main_arg13 (by decide)
    _ = W4 m ρ c (Proc.devRef .tc main_arg13) := W5_of m ρ c main_arg13 (by decide)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of m ρ c main_arg13 (by decide)
    _ = W0 m ρ c (Proc.devRef .tc main_arg13) := W1_of m ρ c main_arg13 (by decide)
    _ = m ((c : Thread nD τ).loc main_arg13) := rfl
theorem W12_main_arg14 (c : Dev nD) : W12 m ρ c (Proc.devRef .tc main_arg14) = m ((c : Thread nD τ).loc main_arg14) :=
  calc W12 m ρ c (Proc.devRef .tc main_arg14)
    _ = W11 m ρ c (Proc.devRef .tc main_arg14) := W12_of m ρ c main_arg14 (by decide)
    _ = W10 m ρ c (Proc.devRef .tc main_arg14) := W11_of_ne m ρ c main_arg14 (by decide)
    _ = W9 m ρ c (Proc.devRef .tc main_arg14) := W10_of m ρ c main_arg14 (by decide)
    _ = W8 m ρ c (Proc.devRef .tc main_arg14) := (W9_arr m ρ c 10).trans (((dat1 (Vin1 m ρ) c).arrAt_in 10 rfl _).trans (A_eq1 (Vin1 m ρ) c 10))
    _ = W7 m ρ c (Proc.devRef .tc main_arg14) := W8_of m ρ c main_arg14 (by decide)
    _ = W6 m ρ c (Proc.devRef .tc main_arg14) := W7_of m ρ c main_arg14 (by decide)
    _ = W5 m ρ c (Proc.devRef .tc main_arg14) := W6_of m ρ c main_arg14 (by decide)
    _ = W4 m ρ c (Proc.devRef .tc main_arg14) := W5_of m ρ c main_arg14 (by decide)
    _ = W3 m ρ c (Proc.devRef .tc main_arg14) := W4_of_ne m ρ c main_arg14 (by decide)
    _ = W2 m ρ c (Proc.devRef .tc main_arg14) := W3_of m ρ c main_arg14 (by decide)
    _ = W1 m ρ c (Proc.devRef .tc main_arg14) := W2_of m ρ c main_arg14 (by decide)
    _ = W0 m ρ c (Proc.devRef .tc main_arg14) := W1_of m ρ c main_arg14 (by decide)
    _ = m ((c : Thread nD τ).loc main_arg14) := rfl
theorem W12_main_arg15 (c : Dev nD) : W12 m ρ c (Proc.devRef .tc main_arg15) = m ((c : Thread nD τ).loc main_arg15) :=
  calc W12 m ρ c (Proc.devRef .tc main_arg15)
    _ = W11 m ρ c (Proc.devRef .tc main_arg15) := W12_of m ρ c main_arg15 (by decide)
    _ = W10 m ρ c (Proc.devRef .tc main_arg15) := W11_of_ne m ρ c main_arg15 (by decide)
    _ = W9 m ρ c (Proc.devRef .tc main_arg15) := W10_of m ρ c main_arg15 (by decide)
    _ = W8 m ρ c (Proc.devRef .tc main_arg15) := W9_of_ne m ρ c main_arg15 (by decide)
    _ = W7 m ρ c (Proc.devRef .tc main_arg15) := W8_of m ρ c main_arg15 (by decide)
    _ = W6 m ρ c (Proc.devRef .tc main_arg15) := W7_of m ρ c main_arg15 (by decide)
    _ = W5 m ρ c (Proc.devRef .tc main_arg15) := W6_of m ρ c main_arg15 (by decide)
    _ = W4 m ρ c (Proc.devRef .tc main_arg15) := W5_of m ρ c main_arg15 (by decide)
    _ = W3 m ρ c (Proc.devRef .tc main_arg15) := W4_of_ne m ρ c main_arg15 (by decide)
    _ = W2 m ρ c (Proc.devRef .tc main_arg15) := W3_of m ρ c main_arg15 (by decide)
    _ = W1 m ρ c (Proc.devRef .tc main_arg15) := W2_of m ρ c main_arg15 (by decide)
    _ = W0 m ρ c (Proc.devRef .tc main_arg15) := W1_of m ρ c main_arg15 (by decide)
    _ = m ((c : Thread nD τ).loc main_arg15) := rfl
theorem W12_main_arg16 (c : Dev nD) : W12 m ρ c (Proc.devRef .tc main_arg16) = m ((c : Thread nD τ).loc main_arg16) :=
  calc W12 m ρ c (Proc.devRef .tc main_arg16)
    _ = W11 m ρ c (Proc.devRef .tc main_arg16) := W12_of m ρ c main_arg16 (by decide)
    _ = W10 m ρ c (Proc.devRef .tc main_arg16) := W11_of_ne m ρ c main_arg16 (by decide)
    _ = W9 m ρ c (Proc.devRef .tc main_arg16) := W10_of m ρ c main_arg16 (by decide)
    _ = W8 m ρ c (Proc.devRef .tc main_arg16) := W9_of_ne m ρ c main_arg16 (by decide)
    _ = W7 m ρ c (Proc.devRef .tc main_arg16) := W8_of m ρ c main_arg16 (by decide)
    _ = W6 m ρ c (Proc.devRef .tc main_arg16) := W7_of m ρ c main_arg16 (by decide)
    _ = W5 m ρ c (Proc.devRef .tc main_arg16) := W6_of m ρ c main_arg16 (by decide)
    _ = W4 m ρ c (Proc.devRef .tc main_arg16) := W5_of m ρ c main_arg16 (by decide)
    _ = W3 m ρ c (Proc.devRef .tc main_arg16) := W4_of_ne m ρ c main_arg16 (by decide)
    _ = W2 m ρ c (Proc.devRef .tc main_arg16) := W3_of m ρ c main_arg16 (by decide)
    _ = W1 m ρ c (Proc.devRef .tc main_arg16) := W2_of m ρ c main_arg16 (by decide)
    _ = W0 m ρ c (Proc.devRef .tc main_arg16) := W1_of m ρ c main_arg16 (by decide)
    _ = m ((c : Thread nD τ).loc main_arg16) := rfl
theorem W12_main_arg17 (c : Dev nD) : W12 m ρ c (Proc.devRef .tc main_arg17) = m ((c : Thread nD τ).loc main_arg17) :=
  calc W12 m ρ c (Proc.devRef .tc main_arg17)
    _ = W11 m ρ c (Proc.devRef .tc main_arg17) := W12_of m ρ c main_arg17 (by decide)
    _ = W10 m ρ c (Proc.devRef .tc main_arg17) := W11_of_ne m ρ c main_arg17 (by decide)
    _ = W9 m ρ c (Proc.devRef .tc main_arg17) := W10_of m ρ c main_arg17 (by decide)
    _ = W8 m ρ c (Proc.devRef .tc main_arg17) := W9_of_ne m ρ c main_arg17 (by decide)
    _ = W7 m ρ c (Proc.devRef .tc main_arg17) := W8_of m ρ c main_arg17 (by decide)
    _ = W6 m ρ c (Proc.devRef .tc main_arg17) := W7_of m ρ c main_arg17 (by decide)
    _ = W5 m ρ c (Proc.devRef .tc main_arg17) := W6_of m ρ c main_arg17 (by decide)
    _ = W4 m ρ c (Proc.devRef .tc main_arg17) := W5_of m ρ c main_arg17 (by decide)
    _ = W3 m ρ c (Proc.devRef .tc main_arg17) := W4_of_ne m ρ c main_arg17 (by decide)
    _ = W2 m ρ c (Proc.devRef .tc main_arg17) := W3_of m ρ c main_arg17 (by decide)
    _ = W1 m ρ c (Proc.devRef .tc main_arg17) := W2_of m ρ c main_arg17 (by decide)
    _ = W0 m ρ c (Proc.devRef .tc main_arg17) := W1_of m ρ c main_arg17 (by decide)
    _ = m ((c : Thread nD τ).loc main_arg17) := rfl
theorem W12_main_arg18 (c : Dev nD) : W12 m ρ c (Proc.devRef .tc main_arg18) = m ((c : Thread nD τ).loc main_arg18) :=
  calc W12 m ρ c (Proc.devRef .tc main_arg18)
    _ = W11 m ρ c (Proc.devRef .tc main_arg18) := W12_of m ρ c main_arg18 (by decide)
    _ = W10 m ρ c (Proc.devRef .tc main_arg18) := (W11_arr m ρ c 12).trans (((dat2 (Vin2 m ρ) c).arrAt_in 12 rfl _).trans (A_eq2 (Vin2 m ρ) c 12))
    _ = W9 m ρ c (Proc.devRef .tc main_arg18) := W10_of m ρ c main_arg18 (by decide)
    _ = W8 m ρ c (Proc.devRef .tc main_arg18) := W9_of_ne m ρ c main_arg18 (by decide)
    _ = W7 m ρ c (Proc.devRef .tc main_arg18) := W8_of m ρ c main_arg18 (by decide)
    _ = W6 m ρ c (Proc.devRef .tc main_arg18) := W7_of m ρ c main_arg18 (by decide)
    _ = W5 m ρ c (Proc.devRef .tc main_arg18) := W6_of m ρ c main_arg18 (by decide)
    _ = W4 m ρ c (Proc.devRef .tc main_arg18) := W5_of m ρ c main_arg18 (by decide)
    _ = W3 m ρ c (Proc.devRef .tc main_arg18) := W4_of_ne m ρ c main_arg18 (by decide)
    _ = W2 m ρ c (Proc.devRef .tc main_arg18) := W3_of m ρ c main_arg18 (by decide)
    _ = W1 m ρ c (Proc.devRef .tc main_arg18) := W2_of m ρ c main_arg18 (by decide)
    _ = W0 m ρ c (Proc.devRef .tc main_arg18) := W1_of m ρ c main_arg18 (by decide)
    _ = m ((c : Thread nD τ).loc main_arg18) := rfl
theorem W12_main_arg19 (c : Dev nD) : W12 m ρ c (Proc.devRef .tc main_arg19) = m ((c : Thread nD τ).loc main_arg19) :=
  calc W12 m ρ c (Proc.devRef .tc main_arg19)
    _ = W11 m ρ c (Proc.devRef .tc main_arg19) := W12_of m ρ c main_arg19 (by decide)
    _ = W10 m ρ c (Proc.devRef .tc main_arg19) := W11_of_ne m ρ c main_arg19 (by decide)
    _ = W9 m ρ c (Proc.devRef .tc main_arg19) := W10_of m ρ c main_arg19 (by decide)
    _ = W8 m ρ c (Proc.devRef .tc main_arg19) := W9_of_ne m ρ c main_arg19 (by decide)
    _ = W7 m ρ c (Proc.devRef .tc main_arg19) := W8_of m ρ c main_arg19 (by decide)
    _ = W6 m ρ c (Proc.devRef .tc main_arg19) := W7_of m ρ c main_arg19 (by decide)
    _ = W5 m ρ c (Proc.devRef .tc main_arg19) := W6_of m ρ c main_arg19 (by decide)
    _ = W4 m ρ c (Proc.devRef .tc main_arg19) := W5_of m ρ c main_arg19 (by decide)
    _ = W3 m ρ c (Proc.devRef .tc main_arg19) := W4_of_ne m ρ c main_arg19 (by decide)
    _ = W2 m ρ c (Proc.devRef .tc main_arg19) := W3_of m ρ c main_arg19 (by decide)
    _ = W1 m ρ c (Proc.devRef .tc main_arg19) := W2_of m ρ c main_arg19 (by decide)
    _ = W0 m ρ c (Proc.devRef .tc main_arg19) := W1_of m ρ c main_arg19 (by decide)
    _ = m ((c : Thread nD τ).loc main_arg19) := rfl
theorem W12_main_arg20 (c : Dev nD) : W12 m ρ c (Proc.devRef .tc main_arg20) = m ((c : Thread nD τ).loc main_arg20) :=
  calc W12 m ρ c (Proc.devRef .tc main_arg20)
    _ = W11 m ρ c (Proc.devRef .tc main_arg20) := W12_of m ρ c main_arg20 (by decide)
    _ = W10 m ρ c (Proc.devRef .tc main_arg20) := W11_of_ne m ρ c main_arg20 (by decide)
    _ = W9 m ρ c (Proc.devRef .tc main_arg20) := W10_of m ρ c main_arg20 (by decide)
    _ = W8 m ρ c (Proc.devRef .tc main_arg20) := W9_of_ne m ρ c main_arg20 (by decide)
    _ = W7 m ρ c (Proc.devRef .tc main_arg20) := W8_of m ρ c main_arg20 (by decide)
    _ = W6 m ρ c (Proc.devRef .tc main_arg20) := W7_of m ρ c main_arg20 (by decide)
    _ = W5 m ρ c (Proc.devRef .tc main_arg20) := W6_of m ρ c main_arg20 (by decide)
    _ = W4 m ρ c (Proc.devRef .tc main_arg20) := W5_of m ρ c main_arg20 (by decide)
    _ = W3 m ρ c (Proc.devRef .tc main_arg20) := W4_of_ne m ρ c main_arg20 (by decide)
    _ = W2 m ρ c (Proc.devRef .tc main_arg20) := W3_of m ρ c main_arg20 (by decide)
    _ = W1 m ρ c (Proc.devRef .tc main_arg20) := W2_of m ρ c main_arg20 (by decide)
    _ = W0 m ρ c (Proc.devRef .tc main_arg20) := W1_of m ρ c main_arg20 (by decide)
    _ = m ((c : Thread nD τ).loc main_arg20) := rfl
theorem W12_main_arg21 (c : Dev nD) : W12 m ρ c (Proc.devRef .tc main_arg21) = m ((c : Thread nD τ).loc main_arg21) :=
  calc W12 m ρ c (Proc.devRef .tc main_arg21)
    _ = W11 m ρ c (Proc.devRef .tc main_arg21) := W12_of m ρ c main_arg21 (by decide)
    _ = W10 m ρ c (Proc.devRef .tc main_arg21) := W11_of_ne m ρ c main_arg21 (by decide)
    _ = W9 m ρ c (Proc.devRef .tc main_arg21) := W10_of m ρ c main_arg21 (by decide)
    _ = W8 m ρ c (Proc.devRef .tc main_arg21) := W9_of_ne m ρ c main_arg21 (by decide)
    _ = W7 m ρ c (Proc.devRef .tc main_arg21) := W8_of m ρ c main_arg21 (by decide)
    _ = W6 m ρ c (Proc.devRef .tc main_arg21) := W7_of m ρ c main_arg21 (by decide)
    _ = W5 m ρ c (Proc.devRef .tc main_arg21) := W6_of m ρ c main_arg21 (by decide)
    _ = W4 m ρ c (Proc.devRef .tc main_arg21) := W5_of m ρ c main_arg21 (by decide)
    _ = W3 m ρ c (Proc.devRef .tc main_arg21) := W4_of_ne m ρ c main_arg21 (by decide)
    _ = W2 m ρ c (Proc.devRef .tc main_arg21) := W3_of m ρ c main_arg21 (by decide)
    _ = W1 m ρ c (Proc.devRef .tc main_arg21) := W2_of m ρ c main_arg21 (by decide)
    _ = W0 m ρ c (Proc.devRef .tc main_arg21) := W1_of m ρ c main_arg21 (by decide)
    _ = m ((c : Thread nD τ).loc main_arg21) := rfl
theorem W12_main_arg22 (c : Dev nD) : W12 m ρ c (Proc.devRef .tc main_arg22) = m ((c : Thread nD τ).loc main_arg22) :=
  calc W12 m ρ c (Proc.devRef .tc main_arg22)
    _ = W11 m ρ c (Proc.devRef .tc main_arg22) := W12_of m ρ c main_arg22 (by decide)
    _ = W10 m ρ c (Proc.devRef .tc main_arg22) := (W11_arr m ρ c 18).trans (((dat2 (Vin2 m ρ) c).arrAt_in 18 rfl _).trans (A_eq2 (Vin2 m ρ) c 18))
    _ = W9 m ρ c (Proc.devRef .tc main_arg22) := W10_of m ρ c main_arg22 (by decide)
    _ = W8 m ρ c (Proc.devRef .tc main_arg22) := W9_of_ne m ρ c main_arg22 (by decide)
    _ = W7 m ρ c (Proc.devRef .tc main_arg22) := W8_of m ρ c main_arg22 (by decide)
    _ = W6 m ρ c (Proc.devRef .tc main_arg22) := W7_of m ρ c main_arg22 (by decide)
    _ = W5 m ρ c (Proc.devRef .tc main_arg22) := W6_of m ρ c main_arg22 (by decide)
    _ = W4 m ρ c (Proc.devRef .tc main_arg22) := W5_of m ρ c main_arg22 (by decide)
    _ = W3 m ρ c (Proc.devRef .tc main_arg22) := W4_of_ne m ρ c main_arg22 (by decide)
    _ = W2 m ρ c (Proc.devRef .tc main_arg22) := W3_of m ρ c main_arg22 (by decide)
    _ = W1 m ρ c (Proc.devRef .tc main_arg22) := W2_of m ρ c main_arg22 (by decide)
    _ = W0 m ρ c (Proc.devRef .tc main_arg22) := W1_of m ρ c main_arg22 (by decide)
    _ = m ((c : Thread nD τ).loc main_arg22) := rfl
theorem W12_main_arg23 (c : Dev nD) : W12 m ρ c (Proc.devRef .tc main_arg23) = m ((c : Thread nD τ).loc main_arg23) :=
  calc W12 m ρ c (Proc.devRef .tc main_arg23)
    _ = W11 m ρ c (Proc.devRef .tc main_arg23) := W12_of m ρ c main_arg23 (by decide)
    _ = W10 m ρ c (Proc.devRef .tc main_arg23) := W11_of_ne m ρ c main_arg23 (by decide)
    _ = W9 m ρ c (Proc.devRef .tc main_arg23) := W10_of m ρ c main_arg23 (by decide)
    _ = W8 m ρ c (Proc.devRef .tc main_arg23) := W9_of_ne m ρ c main_arg23 (by decide)
    _ = W7 m ρ c (Proc.devRef .tc main_arg23) := W8_of m ρ c main_arg23 (by decide)
    _ = W6 m ρ c (Proc.devRef .tc main_arg23) := W7_of m ρ c main_arg23 (by decide)
    _ = W5 m ρ c (Proc.devRef .tc main_arg23) := W6_of m ρ c main_arg23 (by decide)
    _ = W4 m ρ c (Proc.devRef .tc main_arg23) := W5_of m ρ c main_arg23 (by decide)
    _ = W3 m ρ c (Proc.devRef .tc main_arg23) := W4_of_ne m ρ c main_arg23 (by decide)
    _ = W2 m ρ c (Proc.devRef .tc main_arg23) := W3_of m ρ c main_arg23 (by decide)
    _ = W1 m ρ c (Proc.devRef .tc main_arg23) := W2_of m ρ c main_arg23 (by decide)
    _ = W0 m ρ c (Proc.devRef .tc main_arg23) := W1_of m ρ c main_arg23 (by decide)
    _ = m ((c : Thread nD τ).loc main_arg23) := rfl
theorem W12_main_arg24 (c : Dev nD) : W12 m ρ c (Proc.devRef .tc main_arg24) = m ((c : Thread nD τ).loc main_arg24) :=
  calc W12 m ρ c (Proc.devRef .tc main_arg24)
    _ = W11 m ρ c (Proc.devRef .tc main_arg24) := W12_of m ρ c main_arg24 (by decide)
    _ = W10 m ρ c (Proc.devRef .tc main_arg24) := W11_of_ne m ρ c main_arg24 (by decide)
    _ = W9 m ρ c (Proc.devRef .tc main_arg24) := W10_of m ρ c main_arg24 (by decide)
    _ = W8 m ρ c (Proc.devRef .tc main_arg24) := W9_of_ne m ρ c main_arg24 (by decide)
    _ = W7 m ρ c (Proc.devRef .tc main_arg24) := W8_of m ρ c main_arg24 (by decide)
    _ = W6 m ρ c (Proc.devRef .tc main_arg24) := W7_of m ρ c main_arg24 (by decide)
    _ = W5 m ρ c (Proc.devRef .tc main_arg24) := W6_of m ρ c main_arg24 (by decide)
    _ = W4 m ρ c (Proc.devRef .tc main_arg24) := W5_of m ρ c main_arg24 (by decide)
    _ = W3 m ρ c (Proc.devRef .tc main_arg24) := W4_of_ne m ρ c main_arg24 (by decide)
    _ = W2 m ρ c (Proc.devRef .tc main_arg24) := W3_of m ρ c main_arg24 (by decide)
    _ = W1 m ρ c (Proc.devRef .tc main_arg24) := W2_of m ρ c main_arg24 (by decide)
    _ = W0 m ρ c (Proc.devRef .tc main_arg24) := W1_of m ρ c main_arg24 (by decide)
    _ = m ((c : Thread nD τ).loc main_arg24) := rfl
theorem W12_main_arg25 (c : Dev nD) : W12 m ρ c (Proc.devRef .tc main_arg25) = m ((c : Thread nD τ).loc main_arg25) :=
  calc W12 m ρ c (Proc.devRef .tc main_arg25)
    _ = W11 m ρ c (Proc.devRef .tc main_arg25) := W12_of m ρ c main_arg25 (by decide)
    _ = W10 m ρ c (Proc.devRef .tc main_arg25) := W11_of_ne m ρ c main_arg25 (by decide)
    _ = W9 m ρ c (Proc.devRef .tc main_arg25) := W10_of m ρ c main_arg25 (by decide)
    _ = W8 m ρ c (Proc.devRef .tc main_arg25) := W9_of_ne m ρ c main_arg25 (by decide)
    _ = W7 m ρ c (Proc.devRef .tc main_arg25) := W8_of m ρ c main_arg25 (by decide)
    _ = W6 m ρ c (Proc.devRef .tc main_arg25) := W7_of m ρ c main_arg25 (by decide)
    _ = W5 m ρ c (Proc.devRef .tc main_arg25) := W6_of m ρ c main_arg25 (by decide)
    _ = W4 m ρ c (Proc.devRef .tc main_arg25) := W5_of m ρ c main_arg25 (by decide)
    _ = W3 m ρ c (Proc.devRef .tc main_arg25) := W4_of_ne m ρ c main_arg25 (by decide)
    _ = W2 m ρ c (Proc.devRef .tc main_arg25) := W3_of m ρ c main_arg25 (by decide)
    _ = W1 m ρ c (Proc.devRef .tc main_arg25) := W2_of m ρ c main_arg25 (by decide)
    _ = W0 m ρ c (Proc.devRef .tc main_arg25) := W1_of m ρ c main_arg25 (by decide)
    _ = m ((c : Thread nD τ).loc main_arg25) := rfl

/-! ## The proof data family and the thread state -/

/-- No pipeline has a prefetched table. -/
abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (Vin0 m ρ) c
  | ⟨1, _⟩ => fun c => dat1 (Vin1 m ρ) c
  | ⟨2, _⟩ => fun c => dat2 (Vin2 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
/-- A host stretch as a segment over the unscoped references from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TH (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0 over the thread state: entered from every unscoped buffer at `W3`, left at `W4`. Its arrays are split out of
    the unscoped buffers and put back at the exit contents; the generator register goes into the invariant and comes back;
    nothing is owed; the kernel has no semaphore of its own. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ LH lvH 0 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Vin0 m ρ c) (Vout0 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W8`, left at `W9`. Its arrays are split out of
    the unscoped buffers and put back at the exit contents; the generator register goes into the invariant and comes back;
    nothing is owed; the kernel has no semaphore of its own. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ LH lvH 1 fun _ _ => rfl
  pre c := iprop(StableHlo.held (c : Thread nD τ) (Pipeline.ucRefs τ sig) (W8 m ρ c) ∗ RH c)
  post c := iprop(StableHlo.held (c : Thread nD τ) (Pipeline.ucRefs τ sig) (W9 m ρ c) ∗ RH c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Vin1 m ρ c) (Vout1 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W10`, left at `W11`. Its arrays are split out of
    the unscoped buffers and put back at the exit contents; the generator register goes into the invariant and comes back;
    nothing is owed; the kernel has no semaphore of its own. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ LH lvH 2 fun _ _ => rfl
  pre c := iprop(StableHlo.held (c : Thread nD τ) (Pipeline.ucRefs τ sig) (W10 m ρ c) ∗ RH c)
  post c := iprop(StableHlo.held (c : Thread nD τ) (Pipeline.ucRefs τ sig) (W11 m ρ c) ∗ RH c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Vin2 m ρ c) (Vout2 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
abbrev segsH : List (Pipeline.Seg (pcfgs (F := F)) admH (pdatsH m ρ) () defs₀ 𝒱H LH lvH) :=
  [ .host (hsegH hostOps0 hostOps0_sub hostOps0_fresh (W0 m ρ)),
    .host (hsegH hostOps0_1 hostOps0_1_sub hostOps0_1_fresh (W1 m ρ)),
    .host (hsegH hostOps0_2 hostOps0_2_sub hostOps0_2_fresh (W2 m ρ)),
    .region (reg0 m ρ),
    .host (hsegH hostOps1 hostOps1_sub hostOps1_fresh (W4 m ρ)),
    .host (hsegH hostOps1_1 hostOps1_1_sub hostOps1_1_fresh (W5 m ρ)),
    .host (hsegH hostOps1_2 hostOps1_2_sub hostOps1_2_fresh (W6 m ρ)),
    .host (hsegH hostOps1_3 hostOps1_3_sub hostOps1_3_fresh (W7 m ρ)),
    .region (reg1 m ρ),
    .host (hsegH hostOps2 hostOps2_sub hostOps2_fresh (W9 m ρ)),
    .region (reg2 m ρ),
    .host (hsegH hostOps3 hostOps3_sub hostOps3_fresh (W11 m ρ)) ]
/-- @main is the run of the segments. -/
theorem main_runH (c : Dev nD) : main (F := F) c = Pipeline.Seg.run (segsH m ρ) := (main_chain c).trans (by chain_rfl)

set_option backward.isDefEq.respectTransparency.types false in
/-- Every weakly fair execution of @main from `m` with zero counters terminates, nothing faulting, and in every final state
    each unscoped buffer of each core holds the last contents of the chain, `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TH m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held _ _ _ ∗ RH c) ⊢ iprop(TH m ρ c ∗ _)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c _ (mem_ucH main_arg0 (by decide))).trans (W12_main_arg0 m ρ c),
    (h c _ (mem_ucH main_arg1 (by decide))).trans (W12_main_arg1 m ρ c),
    (h c _ (mem_ucH main_arg2 (by decide))).trans (W12_main_arg2 m ρ c),
    (h c _ (mem_ucH main_arg3 (by decide))).trans (W12_main_arg3 m ρ c),
    (h c _ (mem_ucH main_arg4 (by decide))).trans (W12_main_arg4 m ρ c),
    (h c _ (mem_ucH main_arg5 (by decide))).trans (W12_main_arg5 m ρ c),
    (h c _ (mem_ucH main_arg6 (by decide))).trans (W12_main_arg6 m ρ c),
    (h c _ (mem_ucH main_arg7 (by decide))).trans (W12_main_arg7 m ρ c),
    (h c _ (mem_ucH main_arg8 (by decide))).trans (W12_main_arg8 m ρ c),
    (h c _ (mem_ucH main_arg9 (by decide))).trans (W12_main_arg9 m ρ c),
    (h c _ (mem_ucH main_arg10 (by decide))).trans (W12_main_arg10 m ρ c),
    (h c _ (mem_ucH main_arg11 (by decide))).trans (W12_main_arg11 m ρ c),
    (h c _ (mem_ucH main_arg12 (by decide))).trans (W12_main_arg12 m ρ c),
    (h c _ (mem_ucH main_arg13 (by decide))).trans (W12_main_arg13 m ρ c),
    (h c _ (mem_ucH main_arg14 (by decide))).trans (W12_main_arg14 m ρ c),
    (h c _ (mem_ucH main_arg15 (by decide))).trans (W12_main_arg15 m ρ c),
    (h c _ (mem_ucH main_arg16 (by decide))).trans (W12_main_arg16 m ρ c),
    (h c _ (mem_ucH main_arg17 (by decide))).trans (W12_main_arg17 m ρ c),
    (h c _ (mem_ucH main_arg18 (by decide))).trans (W12_main_arg18 m ρ c),
    (h c _ (mem_ucH main_arg19 (by decide))).trans (W12_main_arg19 m ρ c),
    (h c _ (mem_ucH main_arg20 (by decide))).trans (W12_main_arg20 m ρ c),
    (h c _ (mem_ucH main_arg21 (by decide))).trans (W12_main_arg21 m ρ c),
    (h c _ (mem_ucH main_arg22 (by decide))).trans (W12_main_arg22 m ρ c),
    (h c _ (mem_ucH main_arg23 (by decide))).trans (W12_main_arg23 m ρ c),
    (h c _ (mem_ucH main_arg24 (by decide))).trans (W12_main_arg24 m ρ c),
    (h c _ (mem_ucH main_arg25 (by decide))).trans (W12_main_arg25 m ρ c)⟩) (run_all m ρ)

end Cert.KernelIdeal.Hand

end
-- ==== Proof.RefRun.lean ====
import proofs.«166758_j50929722196748_2_alg».proof.Defs
import proofs.«166758_j50929722196748_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The reference program is a straight line of 202 tensor operations with no kernel launch: @main's own 138
    statements, seven of them calls of the module's functions (silu twice at the edge shape, silu three times at
    the node shape, the vector norm, and the variance, which itself calls the three-line where), each call
    standing for its callee's operations over the buffers of that call's record. Listed in program order they
    are one `seq`; its run leaves every buffer at the fold `after` of the operations over the launch contents,
    and no operation writes an argument, so the arguments end as they began. -/

/-- Statements 1 … 60 of @main: the edge gathers, the first two dense layers with their biases, the scatter of the first message, the node gathers, and the two calls of silu at the edge shape (nine operations each, over `main_call0` and `main_call1`). -/
abbrev ops0 : List (HloOp τ sig (Elt F)) :=
  [ StableHlo.nullary main_c (constantI S_ 32 0#32),
    StableHlo.unary main_c main_v0 (broadcastInDim S800000 ![] bcast_S_S800000 : (⟨S_, .i32⟩ : BufTy).Contents (Elt F) → (⟨S800000, .i32⟩ : BufTy).Contents (Elt F)),
    StableHlo.binary main_arg5 main_v0 main_v1 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 800000#32),
    StableHlo.unary main_c_0 main_v2 (broadcastInDim S800000 ![] bcast_S_S800000 : (⟨S_, .i32⟩ : BufTy).Contents (Elt F) → (⟨S800000, .i32⟩ : BufTy).Contents (Elt F)),
    StableHlo.binary main_arg5 main_v2 main_v3 (addi : (⟨S800000, .i32⟩ : BufTy).Contents (Elt F) → (⟨S800000, .i32⟩ : BufTy).Contents (Elt F) → (⟨S800000, .i32⟩ : BufTy).Contents (Elt F)),
    StableHlo.ternary main_v1 main_v3 main_arg5 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v4 main_v5 (broadcastInDim S800000x1 ![0] bcast_S800000_S800000x1_0 : (⟨S800000, .i32⟩ : BufTy).Contents (Elt F) → (⟨S800000x1, .i32⟩ : BufTy).Contents (Elt F)),
    StableHlo.binary main_arg3 main_v5 main_v6 ((fun x i => Host.gather gather_S800000x64_S800000x1_S800000x64_1_0_n_n_0_1_164 x i) : (⟨S800000x64, .f32⟩ : BufTy).Contents (Elt F) → (⟨S800000x1, .i32⟩ : BufTy).Contents (Elt F) → (⟨S800000x64, .f32⟩ : BufTy).Contents (Elt F)),
    StableHlo.nullary main_c_1 (constantI S_ 32 0#32),
    StableHlo.unary main_c_1 main_v7 (broadcastInDim S800000 ![] bcast_S_S800000 : (⟨S_, .i32⟩ : BufTy).Contents (Elt F) → (⟨S800000, .i32⟩ : BufTy).Contents (Elt F)),
    StableHlo.binary main_arg6 main_v7 main_v8 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 800000#32),
    StableHlo.unary main_c_2 main_v9 (broadcastInDim S800000 ![] bcast_S_S800000 : (⟨S_, .i32⟩ : BufTy).Contents (Elt F) → (⟨S800000, .i32⟩ : BufTy).Contents (Elt F)),
    StableHlo.binary main_arg6 main_v9 main_v10 (addi : (⟨S800000, .i32⟩ : BufTy).Contents (Elt F) → (⟨S800000, .i32⟩ : BufTy).Contents (Elt F) → (⟨S800000, .i32⟩ : BufTy).Contents (Elt F)),
    StableHlo.ternary main_v8 main_v10 main_arg6 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v11 main_v12 (broadcastInDim S800000x1 ![0] bcast_S800000_S800000x1_0 : (⟨S800000, .i32⟩ : BufTy).Contents (Elt F) → (⟨S800000x1, .i32⟩ : BufTy).Contents (Elt F)),
    StableHlo.binary main_arg3 main_v12 main_v13 ((fun x i => Host.gather gather_S800000x64_S800000x1_S800000x64_1_0_n_n_0_1_164 x i) : (⟨S800000x64, .f32⟩ : BufTy).Contents (Elt F) → (⟨S800000x1, .i32⟩ : BufTy).Contents (Elt F) → (⟨S800000x64, .f32⟩ : BufTy).Contents (Elt F)),
    StableHlo.nary ![main_v6, main_v13, main_arg7] main_v14 (fun u => concatenate S800000x144 1 [⟨S800000x64, u 0⟩, ⟨S800000x64, u 1⟩, ⟨S800000x16, u 2⟩] concatenates_S800000x64_S800000x64_S800000x16_S800000x144_d1),
    StableHlo.binary main_v14 main_arg8 main_v15 ((fun l r => Host.dotGeneral dot_S800000x144_S144x64_S800000x64_1_0_0_1_n_n none l r) : (⟨S800000x144, .f32⟩ : BufTy).Contents (Elt F) → (⟨S144x64, .f32⟩ : BufTy).Contents (Elt F) → (⟨S800000x64, .f32⟩ : BufTy).Contents (Elt F)),
    StableHlo.unary main_arg9 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S800000x64 ![0, 1] bcast_S1x64_S800000x64_0_1 : (⟨S1x64, .f32⟩ : BufTy).Contents (Elt F) → (⟨S800000x64, .f32⟩ : BufTy).Contents (Elt F)),
    StableHlo.binary main_v15 main_v17 main_v18 (addf : (⟨S800000x64, .f32⟩ : BufTy).Contents (Elt F) → (⟨S800000x64, .f32⟩ : BufTy).Contents (Elt F) → (⟨S800000x64, .f32⟩ : BufTy).Contents (Elt F)),
    StableHlo.TRef.unary (.of main_v18 : StableHlo.TRef sig ⟨S800000x64, .f32⟩) main_call0.v0 Host.negf,
    StableHlo.TRef.unary main_call0.v0 main_call0.v1 Host.exp,
    StableHlo.TRef.nullary main_call0.cst (constant S_ .f32 0x3F800000#32),
    StableHlo.TRef.unary main_call0.cst main_call0.v2 (broadcastInDim S800000x64 ![] bcast_S_S800000x64),
    StableHlo.TRef.binary main_call0.v2 main_call0.v1 main_call0.v3 addf,
    StableHlo.TRef.nullary main_call0.cst_0 (constant S_ .f32 0x3F800000#32),
    StableHlo.TRef.unary main_call0.cst_0 main_call0.v4 (broadcastInDim S800000x64 ![] bcast_S_S800000x64),
    StableHlo.TRef.binary main_call0.v4 main_call0.v3 main_call0.v5 Host.divf,
    StableHlo.TRef.binary (.of main_v18 : StableHlo.TRef sig ⟨S800000x64, .f32⟩) main_call0.v5 main_call0.v6 mulf,
    StableHlo.binary main_v19 main_arg10 main_v20 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    StableHlo.unary main_arg11 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S800000x64 ![0, 1] bcast_S1x64_S800000x64_0_1 : (⟨S1x64, .f32⟩ : BufTy).Contents (Elt F) → (⟨S800000x64, .f32⟩ : BufTy).Contents (Elt F)),
    StableHlo.binary main_v20 main_v22 main_v23 (addf : (⟨S800000x64, .f32⟩ : BufTy).Contents (Elt F) → (⟨S800000x64, .f32⟩ : BufTy).Contents (Elt F) → (⟨S800000x64, .f32⟩ : BufTy).Contents (Elt F)),
    StableHlo.nullary main_cst (constant S_ .f32 0x00000000#32),
    StableHlo.unary main_cst main_v24 (broadcastInDim S800000x64 ![] bcast_S_S800000x64 : (⟨S_, .f32⟩ : BufTy).Contents (Elt F) → (⟨S800000x64, .f32⟩ : BufTy).Contents (Elt F)),
    StableHlo.unary main_arg6 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v23 main_v26 ((fun x i u => Host.scatterAdd scatter_S800000x64_S800000x1_S800000x64_1_0_0_1 x i u) : (⟨S800000x64, .f32⟩ : BufTy).Contents (Elt F) → (⟨S800000x1, .i32⟩ : BufTy).Contents (Elt F) → (⟨S800000x64, .f32⟩ : BufTy).Contents (Elt F) → (⟨S800000x64, .f32⟩ : BufTy).Contents (Elt F)),
    StableHlo.unary main_arg2 main_v27 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v27 main_v28 rfl shapeCasts_S1x800000_S800000,
    StableHlo.unary main_arg2 main_v29 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v29 main_v30 rfl shapeCasts_S1x800000_S800000,
    StableHlo.nullary main_c_3 (constantI S_ 32 0#32),
    StableHlo.unary main_c_3 main_v31 (broadcastInDim S800000 ![] bcast_S_S800000 : (⟨S_, .i32⟩ : BufTy).Contents (Elt F) → (⟨S800000, .i32⟩ : BufTy).Contents (Elt F)),
    StableHlo.binary main_v28 main_v31 main_v32 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v33 (broadcastInDim S800000 ![] bcast_S_S800000 : (⟨S_, .i32⟩ : BufTy).Contents (Elt F) → (⟨S800000, .i32⟩ : BufTy).Contents (Elt F)),
    StableHlo.binary main_v28 main_v33 main_v34 (addi : (⟨S800000, .i32⟩ : BufTy).Contents (Elt F) → (⟨S800000, .i32⟩ : BufTy).Contents (Elt F) → (⟨S800000, .i32⟩ : BufTy).Contents (Elt F)),
    StableHlo.ternary main_v32 main_v34 main_v28 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v35 main_v36 (broadcastInDim S800000x1 ![0] bcast_S800000_S800000x1_0 : (⟨S800000, .i32⟩ : BufTy).Contents (Elt F) → (⟨S800000x1, .i32⟩ : BufTy).Contents (Elt F)),
    StableHlo.binary main_arg0 main_v36 main_v37 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_5 (constantI S_ 32 0#32),
    StableHlo.unary main_c_5 main_v38 (broadcastInDim S800000 ![] bcast_S_S800000 : (⟨S_, .i32⟩ : BufTy).Contents (Elt F) → (⟨S800000, .i32⟩ : BufTy).Contents (Elt F)),
    StableHlo.binary main_v30 main_v38 main_v39 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v40 (broadcastInDim S800000 ![] bcast_S_S800000 : (⟨S_, .i32⟩ : BufTy).Contents (Elt F) → (⟨S800000, .i32⟩ : BufTy).Contents (Elt F)),
    StableHlo.binary main_v30 main_v40 main_v41 (addi : (⟨S800000, .i32⟩ : BufTy).Contents (Elt F) → (⟨S800000, .i32⟩ : BufTy).Contents (Elt F) → (⟨S800000, .i32⟩ : BufTy).Contents (Elt F)),
    StableHlo.ternary main_v39 main_v41 main_v30 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v42 main_v43 (broadcastInDim S800000x1 ![0] bcast_S800000_S800000x1_0 : (⟨S800000, .i32⟩ : BufTy).Contents (Elt F) → (⟨S800000x1, .i32⟩ : BufTy).Contents (Elt F)),
    StableHlo.binary main_arg0 main_v43 main_v44 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nary ![main_v37, main_v44, main_arg3, main_v26] main_v45 (fun u => concatenate S800000x256 1 [⟨S800000x64, u 0⟩, ⟨S800000x64, u 1⟩, ⟨S800000x64, u 2⟩, ⟨S800000x64, u 3⟩] concatenates_S800000x64_S800000x64_S800000x64_S800000x64_S800000x256_d1),
    StableHlo.binary main_v45 main_arg12 main_v46 ((fun l r => Host.dotGeneral dot_S800000x256_S256x64_S800000x64_1_0_0_1_n_n none l r) : (⟨S800000x256, .f32⟩ : BufTy).Contents (Elt F) → (⟨S256x64, .f32⟩ : BufTy).Contents (Elt F) → (⟨S800000x64, .f32⟩ : BufTy).Contents (Elt F)),
    StableHlo.unary main_arg13 main_v47 (broadcastInDim S1x64 ![1] bcast_S64_S1x64_1 : (⟨S64, .f32⟩ : BufTy).Contents (Elt F) → (⟨S1x64, .f32⟩ : BufTy).Contents (Elt F)),
    StableHlo.unary main_v47 main_v48 (broadcastInDim S800000x64 ![0, 1] bcast_S1x64_S800000x64_0_1 : (⟨S1x64, .f32⟩ : BufTy).Contents (Elt F) → (⟨S800000x64, .f32⟩ : BufTy).Contents (Elt F)),
    StableHlo.binary main_v46 main_v48 main_v49 (addf : (⟨S800000x64, .f32⟩ : BufTy).Contents (Elt F) → (⟨S800000x64, .f32⟩ : BufTy).Contents (Elt F) → (⟨S800000x64, .f32⟩ : BufTy).Contents (Elt F)),
    StableHlo.TRef.unary (.of main_v49 : StableHlo.TRef sig ⟨S800000x64, .f32⟩) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S800000x64 ![] bcast_S_S800000x64),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S800000x64 ![] bcast_S_S800000x64),
    StableHlo.TRef.binary main_call1.v4 main_call1.v3 main_call1.v5 Host.divf,
    StableHlo.TRef.binary (.of main_v49 : StableHlo.TRef sig ⟨S800000x64, .f32⟩) main_call1.v5 main_call1.v6 mulf ]

/-- Statements 61 … 120 of @main: the third dense layer and its two halves, the two scatters onto the nodes, the call of the vector norm (four operations over `main_call2`), the node layers with two calls of silu at the node shape (`main_call3`, `main_call4`), the gate, the second result `main_v100`, and the row mean. -/
abbrev ops1 : List (HloOp τ sig (Elt F)) :=
  [ StableHlo.binary main_v50 main_arg14 main_v51 ((fun l r => Host.dotGeneral dot_S800000x64_S64x128_S800000x128_1_0_0_1_n_n none l r) : (⟨S800000x64, .f32⟩ : BufTy).Contents (Elt F) → (⟨S64x128, .f32⟩ : BufTy).Contents (Elt F) → (⟨S800000x128, .f32⟩ : BufTy).Contents (Elt F)),
    StableHlo.unary main_arg15 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S800000x128 ![0, 1] bcast_S1x128_S800000x128_0_1 : (⟨S1x128, .f32⟩ : BufTy).Contents (Elt F) → (⟨S800000x128, .f32⟩ : BufTy).Contents (Elt F)),
    StableHlo.binary main_v51 main_v53 main_v54 (addf : (⟨S800000x128, .f32⟩ : BufTy).Contents (Elt F) → (⟨S800000x128, .f32⟩ : BufTy).Contents (Elt F) → (⟨S800000x128, .f32⟩ : BufTy).Contents (Elt F)),
    StableHlo.unary main_v54 main_v55 ((extractStridedSlice S800000x64 ![0, 0] · slices_S800000x128_S800000x64_0_0) : (⟨S800000x128, .f32⟩ : BufTy).Contents (Elt F) → (⟨S800000x64, .f32⟩ : BufTy).Contents (Elt F)),
    StableHlo.unary main_v54 main_v56 ((extractStridedSlice S800000x64 ![0, 64] · slices_S800000x128_S800000x64_0_64) : (⟨S800000x128, .f32⟩ : BufTy).Contents (Elt F) → (⟨S800000x64, .f32⟩ : BufTy).Contents (Elt F)),
    StableHlo.nullary main_cst_7 (constant S_ .f32 0x00000000#32),
    StableHlo.unary main_cst_7 main_v57 (broadcastInDim S50000x64 ![] bcast_S_S50000x64 : (⟨S_, .f32⟩ : BufTy).Contents (Elt F) → (⟨S50000x64, .f32⟩ : BufTy).Contents (Elt F)),
    StableHlo.unary main_v30 main_v58 (broadcastInDim S800000x1 ![0] bcast_S800000_S800000x1_0 : (⟨S800000, .i32⟩ : BufTy).Contents (Elt F) → (⟨S800000x1, .i32⟩ : BufTy).Contents (Elt F)),
    StableHlo.ternary main_v57 main_v58 main_v55 main_v59 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_v56 main_v60 (broadcastInDim S800000x64x1 ![0, 1] bcast_S800000x64_S800000x64x1_0_1 : (⟨S800000x64, .f32⟩ : BufTy).Contents (Elt F) → (⟨S800000x64x1, .f32⟩ : BufTy).Contents (Elt F)),
    StableHlo.unary main_arg4 main_v61 (broadcastInDim S800000x1x3 ![0, 2] bcast_S800000x3_S800000x1x3_0_2 : (⟨S800000x3, .f32⟩ : BufTy).Contents (Elt F) → (⟨S800000x1x3, .f32⟩ : BufTy).Contents (Elt F)),
    StableHlo.unary main_v60 main_v62 (broadcastInDim S800000x64x3 ![0, 1, 2] bcast_S800000x64x1_S800000x64x3_0_1_2 : (⟨S800000x64x1, .f32⟩ : BufTy).Contents (Elt F) → (⟨S800000x64x3, .f32⟩ : BufTy).Contents (Elt F)),
    StableHlo.unary main_v61 main_v63 (broadcastInDim S800000x64x3 ![0, 1, 2] bcast_S800000x1x3_S800000x64x3_0_1_2 : (⟨S800000x1x3, .f32⟩ : BufTy).Contents (Elt F) → (⟨S800000x64x3, .f32⟩ : BufTy).Contents (Elt F)),
    StableHlo.binary main_v62 main_v63 main_v64 (mulf : (⟨S800000x64x3, .f32⟩ : BufTy).Contents (Elt F) → (⟨S800000x64x3, .f32⟩ : BufTy).Contents (Elt F) → (⟨S800000x64x3, .f32⟩ : BufTy).Contents (Elt F)),
    StableHlo.reshape main_v64 main_v65 rfl shapeCasts_S800000x64x3_S800000x192,
    StableHlo.nullary main_cst_8 (constant S_ .f32 0x00000000#32),
    StableHlo.unary main_cst_8 main_v66 (broadcastInDim S50000x192 ![] bcast_S_S50000x192 : (⟨S_, .f32⟩ : BufTy).Contents (Elt F) → (⟨S50000x192, .f32⟩ : BufTy).Contents (Elt F)),
    StableHlo.unary main_v30 main_v67 (broadcastInDim S800000x1 ![0] bcast_S800000_S800000x1_0 : (⟨S800000, .i32⟩ : BufTy).Contents (Elt F) → (⟨S800000x1, .i32⟩ : BufTy).Contents (Elt F)),
    StableHlo.ternary main_v66 main_v67 main_v65 main_v68 ((fun x i u => Host.scatterAdd scatter_S50000x192_S800000x1_S800000x192_1_0_0_1 x i u) : (⟨S50000x192, .f32⟩ : BufTy).Contents (Elt F) → (⟨S800000x1, .i32⟩ : BufTy).Contents (Elt F) → (⟨S800000x192, .f32⟩ : BufTy).Contents (Elt F) → (⟨S50000x192, .f32⟩ : BufTy).Contents (Elt F)),
    StableHlo.reshape main_v68 main_v69 rfl shapeCasts_S50000x192_S50000x64x3,
    StableHlo.TRef.binary (.of main_arg1 : StableHlo.TRef sig ⟨S50000x64x3, .f32⟩) (.of main_arg1 : StableHlo.TRef sig ⟨S50000x64x3, .f32⟩) main_call2.v0 mulf,
    StableHlo.TRef.nullary main_call2.cst (constant S_ .f32 0x00000000#32),
    StableHlo.TRef.binary main_call2.v0 main_call2.cst main_call2.v1 (fun x v => Host.reduceAdd x v reducesTo_S50000x64x3_S50000x64_d2 h_S_),
    StableHlo.TRef.unary main_call2.v1 main_call2.v2 Host.sqrt,
    StableHlo.nary ![main_arg0, main_v59, main_v70] main_v71 (fun u => concatenate S50000x192 1 [⟨S50000x64, u 0⟩, ⟨S50000x64, u 1⟩, ⟨S50000x64, u 2⟩] concatenates_S50000x64_S50000x64_S50000x64_S50000x192_d1),
    StableHlo.binary main_v71 main_arg16 main_v72 ((fun l r => Host.dotGeneral dot_S50000x192_S192x64_S50000x64_1_0_0_1_n_n none l r) : (⟨S50000x192, .f32⟩ : BufTy).Contents (Elt F) → (⟨S192x64, .f32⟩ : BufTy).Contents (Elt F) → (⟨S50000x64, .f32⟩ : BufTy).Contents (Elt F)),
    StableHlo.unary main_arg17 main_v73 (broadcastInDim S1x64 ![1] bcast_S64_S1x64_1 : (⟨S64, .f32⟩ : BufTy).Contents (Elt F) → (⟨S1x64, .f32⟩ : BufTy).Contents (Elt F)),
    StableHlo.unary main_v73 main_v74 (broadcastInDim S50000x64 ![0, 1] bcast_S1x64_S50000x64_0_1 : (⟨S1x64, .f32⟩ : BufTy).Contents (Elt F) → (⟨S50000x64, .f32⟩ : BufTy).Contents (Elt F)),
    StableHlo.binary main_v72 main_v74 main_v75 (addf : (⟨S50000x64, .f32⟩ : BufTy).Contents (Elt F) → (⟨S50000x64, .f32⟩ : BufTy).Contents (Elt F) → (⟨S50000x64, .f32⟩ : BufTy).Contents (Elt F)),
    StableHlo.TRef.unary (.of main_v75 : StableHlo.TRef sig ⟨S50000x64, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S50000x64 ![] bcast_S_S50000x64),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S50000x64 ![] bcast_S_S50000x64),
    StableHlo.TRef.binary main_call3.v4 main_call3.v3 main_call3.v5 Host.divf,
    StableHlo.TRef.binary (.of main_v75 : StableHlo.TRef sig ⟨S50000x64, .f32⟩) main_call3.v5 main_call3.v6 mulf,
    StableHlo.binary main_v76 main_arg18 main_v77 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg19 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S50000x64 ![0, 1] bcast_S1x64_S50000x64_0_1 : (⟨S1x64, .f32⟩ : BufTy).Contents (Elt F) → (⟨S50000x64, .f32⟩ : BufTy).Contents (Elt F)),
    StableHlo.binary main_v77 main_v79 main_v80 (addf : (⟨S50000x64, .f32⟩ : BufTy).Contents (Elt F) → (⟨S50000x64, .f32⟩ : BufTy).Contents (Elt F) → (⟨S50000x64, .f32⟩ : BufTy).Contents (Elt F)),
    StableHlo.binary main_arg0 main_v80 main_v81 (addf : (⟨S50000x64, .f32⟩ : BufTy).Contents (Elt F) → (⟨S50000x64, .f32⟩ : BufTy).Contents (Elt F) → (⟨S50000x64, .f32⟩ : BufTy).Contents (Elt F)),
    StableHlo.binary main_v71 main_arg20 main_v82 ((fun l r => Host.dotGeneral dot_S50000x192_S192x64_S50000x64_1_0_0_1_n_n none l r) : (⟨S50000x192, .f32⟩ : BufTy).Contents (Elt F) → (⟨S192x64, .f32⟩ : BufTy).Contents (Elt F) → (⟨S50000x64, .f32⟩ : BufTy).Contents (Elt F)),
    StableHlo.unary main_arg21 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S50000x64 ![0, 1] bcast_S1x64_S50000x64_0_1 : (⟨S1x64, .f32⟩ : BufTy).Contents (Elt F) → (⟨S50000x64, .f32⟩ : BufTy).Contents (Elt F)),
    StableHlo.binary main_v82 main_v84 main_v85 (addf : (⟨S50000x64, .f32⟩ : BufTy).Contents (Elt F) → (⟨S50000x64, .f32⟩ : BufTy).Contents (Elt F) → (⟨S50000x64, .f32⟩ : BufTy).Contents (Elt F)),
    StableHlo.TRef.unary (.of main_v85 : StableHlo.TRef sig ⟨S50000x64, .f32⟩) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S50000x64 ![] bcast_S_S50000x64),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S50000x64 ![] bcast_S_S50000x64),
    StableHlo.TRef.binary main_call4.v4 main_call4.v3 main_call4.v5 Host.divf,
    StableHlo.TRef.binary (.of main_v85 : StableHlo.TRef sig ⟨S50000x64, .f32⟩) main_call4.v5 main_call4.v6 mulf,
    StableHlo.binary main_v86 main_arg22 main_v87 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg23 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S50000x64 ![0, 1] bcast_S1x64_S50000x64_0_1 : (⟨S1x64, .f32⟩ : BufTy).Contents (Elt F) → (⟨S50000x64, .f32⟩ : BufTy).Contents (Elt F)),
    StableHlo.binary main_v87 main_v89 main_v90 (addf : (⟨S50000x64, .f32⟩ : BufTy).Contents (Elt F) → (⟨S50000x64, .f32⟩ : BufTy).Contents (Elt F) → (⟨S50000x64, .f32⟩ : BufTy).Contents (Elt F)),
    StableHlo.unary main_v90 main_v91 (Host.negf : (⟨S50000x64, .f32⟩ : BufTy).Contents (Elt F) → (⟨S50000x64, .f32⟩ : BufTy).Contents (Elt F)),
    StableHlo.unary main_v91 main_v92 (Host.exp : (⟨S50000x64, .f32⟩ : BufTy).Contents (Elt F) → (⟨S50000x64, .f32⟩ : BufTy).Contents (Elt F)),
    StableHlo.nullary main_cst_9 (constant S_ .f32 0x3F800000#32),
    StableHlo.unary main_cst_9 main_v93 (broadcastInDim S50000x64 ![] bcast_S_S50000x64 : (⟨S_, .f32⟩ : BufTy).Contents (Elt F) → (⟨S50000x64, .f32⟩ : BufTy).Contents (Elt F)),
    StableHlo.binary main_v93 main_v92 main_v94 (addf : (⟨S50000x64, .f32⟩ : BufTy).Contents (Elt F) → (⟨S50000x64, .f32⟩ : BufTy).Contents (Elt F) → (⟨S50000x64, .f32⟩ : BufTy).Contents (Elt F)),
    StableHlo.nullary main_cst_10 (constant S_ .f32 0x3F800000#32),
    StableHlo.unary main_cst_10 main_v95 (broadcastInDim S50000x64 ![] bcast_S_S50000x64 : (⟨S_, .f32⟩ : BufTy).Contents (Elt F) → (⟨S50000x64, .f32⟩ : BufTy).Contents (Elt F)),
    StableHlo.binary main_v95 main_v94 main_v96 (Host.divf : (⟨S50000x64, .f32⟩ : BufTy).Contents (Elt F) → (⟨S50000x64, .f32⟩ : BufTy).Contents (Elt F) → (⟨S50000x64, .f32⟩ : BufTy).Contents (Elt F)),
    StableHlo.unary main_v96 main_v97 (broadcastInDim S50000x64x1 ![0, 1] bcast_S50000x64_S50000x64x1_0_1 : (⟨S50000x64, .f32⟩ : BufTy).Contents (Elt F) → (⟨S50000x64x1, .f32⟩ : BufTy).Contents (Elt F)),
    StableHlo.unary main_v97 main_v98 (broadcastInDim S50000x64x3 ![0, 1, 2] bcast_S50000x64x1_S50000x64x3_0_1_2 : (⟨S50000x64x1, .f32⟩ : BufTy).Contents (Elt F) → (⟨S50000x64x3, .f32⟩ : BufTy).Contents (Elt F)),
    StableHlo.binary main_v98 main_v69 main_v99 (mulf : (⟨S50000x64x3, .f32⟩ : BufTy).Contents (Elt F) → (⟨S50000x64x3, .f32⟩ : BufTy).Contents (Elt F) → (⟨S50000x64x3, .f32⟩ : BufTy).Contents (Elt F)),
    StableHlo.binary main_arg1 main_v99 main_v100 (addf : (⟨S50000x64x3, .f32⟩ : BufTy).Contents (Elt F) → (⟨S50000x64x3, .f32⟩ : BufTy).Contents (Elt F) → (⟨S50000x64x3, .f32⟩ : BufTy).Contents (Elt F)),
    StableHlo.nullary main_cst_11 (constant S_ .f32 0x00000000#32),
    StableHlo.binary main_v81 main_cst_11 main_v101 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v101 main_v102 (broadcastInDim S50000x1 ![0] bcast_S50000_S50000x1_0 : (⟨S50000, .f32⟩ : BufTy).Contents (Elt F) → (⟨S50000x1, .f32⟩ : BufTy).Contents (Elt F)),
    StableHlo.nullary main_cst_12 (constant S_ .f32 0x42800000#32),
    StableHlo.unary main_cst_12 main_v103 (broadcastInDim S50000x1 ![] bcast_S_S50000x1 : (⟨S_, .f32⟩ : BufTy).Contents (Elt F) → (⟨S50000x1, .f32⟩ : BufTy).Contents (Elt F)),
    StableHlo.binary main_v102 main_v103 main_v104 (Host.divf : (⟨S50000x1, .f32⟩ : BufTy).Contents (Elt F) → (⟨S50000x1, .f32⟩ : BufTy).Contents (Elt F) → (⟨S50000x1, .f32⟩ : BufTy).Contents (Elt F)) ]

/-- Statements 121 … 138 of @main: the call of the variance (twenty-one operations over `main_call5`, then its own call of where, three over `main_call5.call0`), the normalization, scale and shift, and the last call of silu at the node shape (`main_call6`), whose product is the first result `main_v119`. -/
abbrev ops2 : List (HloOp τ sig (Elt F)) :=
  [ StableHlo.nullary main_c_13 (constantI S_ 32 0#32),
    StableHlo.TRef.nullary main_call5.cst (constant S_ .f32 0x00000000#32),
    StableHlo.TRef.binary (.of main_v81 : StableHlo.TRef sig ⟨S50000x64, .f32⟩) main_call5.cst main_call5.v0 (fun x v => Host.reduceAdd x v reducesTo_S50000x64_S50000_d1 h_S_),
    StableHlo.TRef.unary main_call5.v0 main_call5.v1 (broadcastInDim S50000x1 ![0] bcast_S50000_S50000x1_0),
    StableHlo.TRef.nullary main_call5.cst_0 (constant S_ .f32 0x42800000#32),
    StableHlo.TRef.unary main_call5.cst_0 main_call5.v2 (broadcastInDim S50000x1 ![] bcast_S_S50000x1),
    StableHlo.TRef.binary main_call5.v1 main_call5.v2 main_call5.v3 Host.divf,
    StableHlo.TRef.unary main_call5.v3 main_call5.v4 (broadcastInDim S50000x64 ![0, 1] bcast_S50000x1_S50000x64_0_1),
    StableHlo.TRef.binary (.of main_v81 : StableHlo.TRef sig ⟨S50000x64, .f32⟩) main_call5.v4 main_call5.v5 subf,
    StableHlo.TRef.binary main_call5.v5 main_call5.v5 main_call5.v6 mulf,
    StableHlo.TRef.unary (.of main_c_13 : StableHlo.TRef sig ⟨S_, .i32⟩) main_call5.v7 (sitofp .f32),
    StableHlo.TRef.nullary main_call5.cst_1 (constant S_ .f32 0x42800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x64_S50000_d1 h_S_),
    StableHlo.TRef.unary main_call5.v9 main_call5.v10 (broadcastInDim S50000x1 ![0] bcast_S50000_S50000x1_0),
    StableHlo.TRef.unary main_call5.v8 main_call5.v11 (broadcastInDim S50000x1 ![] bcast_S_S50000x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S50000x1 ![] bcast_S_S50000x1),
    StableHlo.TRef.ternary main_call5.v13 main_call5.v12 main_call5.call0.v1 main_call5.call0.v2 (fun p a b => select (broadcastInDim S50000x1 ![] bcast_S_S50000x1 p) a b),
    StableHlo.unary main_v104 main_v106 (broadcastInDim S50000x64 ![0, 1] bcast_S50000x1_S50000x64_0_1 : (⟨S50000x1, .f32⟩ : BufTy).Contents (Elt F) → (⟨S50000x64, .f32⟩ : BufTy).Contents (Elt F)),
    StableHlo.binary main_v81 main_v106 main_v107 (subf : (⟨S50000x64, .f32⟩ : BufTy).Contents (Elt F) → (⟨S50000x64, .f32⟩ : BufTy).Contents (Elt F) → (⟨S50000x64, .f32⟩ : BufTy).Contents (Elt F)),
    StableHlo.nullary main_cst_14 (constant S_ .f32 0x3727C5AC#32),
    StableHlo.unary main_cst_14 main_v108 (broadcastInDim S50000x1 ![] bcast_S_S50000x1 : (⟨S_, .f32⟩ : BufTy).Contents (Elt F) → (⟨S50000x1, .f32⟩ : BufTy).Contents (Elt F)),
    StableHlo.binary main_v105 main_v108 main_v109 (addf : (⟨S50000x1, .f32⟩ : BufTy).Contents (Elt F) → (⟨S50000x1, .f32⟩ : BufTy).Contents (Elt F) → (⟨S50000x1, .f32⟩ : BufTy).Contents (Elt F)),
    StableHlo.unary main_v109 main_v110 (Host.sqrt : (⟨S50000x1, .f32⟩ : BufTy).Contents (Elt F) → (⟨S50000x1, .f32⟩ : BufTy).Contents (Elt F)),
    StableHlo.unary main_v110 main_v111 (broadcastInDim S50000x64 ![0, 1] bcast_S50000x1_S50000x64_0_1 : (⟨S50000x1, .f32⟩ : BufTy).Contents (Elt F) → (⟨S50000x64, .f32⟩ : BufTy).Contents (Elt F)),
    StableHlo.binary main_v107 main_v111 main_v112 (Host.divf : (⟨S50000x64, .f32⟩ : BufTy).Contents (Elt F) → (⟨S50000x64, .f32⟩ : BufTy).Contents (Elt F) → (⟨S50000x64, .f32⟩ : BufTy).Contents (Elt F)),
    StableHlo.unary main_arg24 main_v113 (broadcastInDim S1x64 ![1] bcast_S64_S1x64_1 : (⟨S64, .f32⟩ : BufTy).Contents (Elt F) → (⟨S1x64, .f32⟩ : BufTy).Contents (Elt F)),
    StableHlo.unary main_v113 main_v114 (broadcastInDim S50000x64 ![0, 1] bcast_S1x64_S50000x64_0_1 : (⟨S1x64, .f32⟩ : BufTy).Contents (Elt F) → (⟨S50000x64, .f32⟩ : BufTy).Contents (Elt F)),
    StableHlo.binary main_v112 main_v114 main_v115 (mulf : (⟨S50000x64, .f32⟩ : BufTy).Contents (Elt F) → (⟨S50000x64, .f32⟩ : BufTy).Contents (Elt F) → (⟨S50000x64, .f32⟩ : BufTy).Contents (Elt F)),
    StableHlo.unary main_arg25 main_v116 (broadcastInDim S1x64 ![1] bcast_S64_S1x64_1 : (⟨S64, .f32⟩ : BufTy).Contents (Elt F) → (⟨S1x64, .f32⟩ : BufTy).Contents (Elt F)),
    StableHlo.unary main_v116 main_v117 (broadcastInDim S50000x64 ![0, 1] bcast_S1x64_S50000x64_0_1 : (⟨S1x64, .f32⟩ : BufTy).Contents (Elt F) → (⟨S50000x64, .f32⟩ : BufTy).Contents (Elt F)),
    StableHlo.binary main_v115 main_v117 main_v118 (addf : (⟨S50000x64, .f32⟩ : BufTy).Contents (Elt F) → (⟨S50000x64, .f32⟩ : BufTy).Contents (Elt F) → (⟨S50000x64, .f32⟩ : BufTy).Contents (Elt F)),
    StableHlo.TRef.unary (.of main_v118 : StableHlo.TRef sig ⟨S50000x64, .f32⟩) main_call6.v0 Host.negf,
    StableHlo.TRef.unary main_call6.v0 main_call6.v1 Host.exp,
    StableHlo.TRef.nullary main_call6.cst (constant S_ .f32 0x3F800000#32),
    StableHlo.TRef.unary main_call6.cst main_call6.v2 (broadcastInDim S50000x64 ![] bcast_S_S50000x64),
    StableHlo.TRef.binary main_call6.v2 main_call6.v1 main_call6.v3 addf,
    StableHlo.TRef.nullary main_call6.cst_0 (constant S_ .f32 0x3F800000#32),
    StableHlo.TRef.unary main_call6.cst_0 main_call6.v4 (broadcastInDim S50000x64 ![] bcast_S_S50000x64),
    StableHlo.TRef.binary main_call6.v4 main_call6.v3 main_call6.v5 Host.divf,
    StableHlo.TRef.binary (.of main_v118 : StableHlo.TRef sig ⟨S50000x64, .f32⟩) main_call6.v5 main_call6.v6 mulf ]

/-- @main's 202 operations in program order. -/
abbrev ops : List (HloOp τ sig (Elt F)) := ops0 ++ (ops1 ++ ops2)

/-- Each window of @main is the sequence of its operations: a call unfolds to its callee's body at the call's
    arguments and record, and sequencing reassociates by computation in the free monad. -/
theorem part0_eq (c : Dev nD) : main_part0 (F := F) c = seq ops0 := rfl
theorem part1_eq (c : Dev nD) : main_part1 (F := F) c = seq ops1 := rfl
theorem part2_eq (c : Dev nD) : main_part2 (F := F) c = seq ops2 := rfl

/-- @main runs its three windows in order, and a sequence of a concatenation is the sequences in order. -/
theorem main_eq (c : Dev nD) : main (F := F) c = seq ops := by
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., binary_bufs_sub ..,
    nullary_bufs_sub .., unary_bufs_sub .., unary_bufs_sub .., ternary_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub ..⟩
theorem ops1_sub : (ops1 : List (HloOp τ sig (Elt F))).Forall fun op => op.bufs ⊆ tcRefs τ sig :=
  ⟨binary_bufs_sub .., unary_bufs_sub .., unary_bufs_sub .., binary_bufs_sub .., unary_bufs_sub .., unary_bufs_sub ..,
    nullary_bufs_sub .., unary_bufs_sub .., unary_bufs_sub .., ternary_bufs_sub .., unary_bufs_sub .., unary_bufs_sub ..,
    unary_bufs_sub .., unary_bufs_sub .., binary_bufs_sub .., reshape_bufs_sub .., nullary_bufs_sub .., unary_bufs_sub ..,
    unary_bufs_sub .., ternary_bufs_sub .., reshape_bufs_sub .., binary_bufs_sub .., nullary_bufs_sub .., binary_bufs_sub ..,
    unary_bufs_sub .., nary_bufs_sub .., binary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., binary_bufs_sub .., binary_bufs_sub .., unary_bufs_sub .., unary_bufs_sub ..,
    binary_bufs_sub .., binary_bufs_sub .., binary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., binary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., unary_bufs_sub .., unary_bufs_sub .., binary_bufs_sub ..,
    binary_bufs_sub .., nullary_bufs_sub .., binary_bufs_sub .., unary_bufs_sub .., nullary_bufs_sub .., unary_bufs_sub ..,
    binary_bufs_sub ..⟩
theorem ops2_sub : (ops2 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., binary_bufs_sub ..⟩
theorem ops_sub : (ops : List (HloOp τ sig (Elt F))).Forall fun op => op.bufs ⊆ tcRefs τ sig :=
  List.forall_append.2 ⟨ops0_sub, List.forall_append.2 ⟨ops1_sub, ops2_sub⟩⟩

/-- Every operation determines its results (none allocates a buffer at contents not chosen). -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl⟩
theorem ops_fresh : ∀ op ∈ (ops : List (HloOp τ sig (Elt F))), op.fresh = ∅ :=
  List.forall_iff_forall_mem.1 (List.forall_append.2 ⟨ops0_fresh, List.forall_append.2 ⟨ops1_fresh, ops2_fresh⟩⟩)

/-! ## The arguments are not written -/

/-- The twenty-six arguments. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- An operation that writes exactly one reference, and that one outside a list `A`. -/
def WritesOutside (A : List (Ref sig .tc)) (op : HloOp τ sig (Elt F)) : Prop :=
  ∃ y : Ref sig .tc, op.writes = {Proc.devRef .tc y} ∧ y ∉ A

/-- A line of operations each writing outside `A` leaves every reference of `A` at its contents: a device
    buffer is the reference's image under an injection, so a reference of `A` is not the one written. -/
theorem after_of_writesOutside {A : List (Ref sig .tc)} (l : List (HloOp τ sig (Elt F))) (V : Valuation τ sig (Elt F))
    (h : l.Forall (WritesOutside A)) {r : Ref sig .tc} (hr : r ∈ A) :
    after l V (Proc.devRef .tc r) = V (Proc.devRef .tc r) :=
  after_of_forall_not_mem l V fun op hop hb => by
    obtain ⟨y, hw, hy⟩ := List.forall_iff_forall_mem.1 h op hop
    rw [hw, Finset.mem_singleton] at hb
    exact hy (Proc.devRef_injective _ hb ▸ hr)

theorem ops0_out : (ops0 : List (HloOp τ sig (Elt F))).Forall (WritesOutside args) :=
  ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩⟩
theorem ops1_out : (ops1 : List (HloOp τ sig (Elt F))).Forall (WritesOutside args) :=
  ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩⟩
theorem ops2_out : (ops2 : List (HloOp τ sig (Elt F))).Forall (WritesOutside args) :=
  ⟨⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩, ⟨_, rfl, by decide⟩,
    ⟨_, rfl, by decide⟩, ⟨_, rfl, by decide⟩, ⟨_, rfl, by decide⟩, ⟨_, rfl, by decide⟩, ⟨_, rfl, by decide⟩⟩
theorem ops_out : (ops : List (HloOp τ sig (Elt F))).Forall (WritesOutside args) :=
  List.forall_append.2 ⟨ops0_out, List.forall_append.2 ⟨ops1_out, ops2_out⟩⟩

/-- An argument holds after the whole line what it held before. -/
theorem arg_unchanged (V : Valuation τ sig (Elt F)) {r : Ref sig .tc} (hr : r ∈ args) :
    after (ops (F := F)) V (Proc.devRef .tc r) = V (Proc.devRef .tc r) :=
  after_of_writesOutside ops V ops_out hr

/-- The fold over the whole line is the folds over the three windows in turn. -/
theorem after_ops (V : Valuation τ sig (Elt F)) :
    after (ops (F := F)) V = after ops2 (after ops1 (after ops0 V)) := by
  rw [after_append, after_append]

/-! ## The run -/

/-- On every device, for any float values, from any memory with zero counters: every weakly fair execution of
    @main terminates with each of the two results at the fold of the operations over the launch contents and
    every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v119) = after ops (fun b => m (c, b)) (Proc.devRef .tc main_v119)
        ∧ r.2.mem ((c.tc : Thread nD τ).loc main_v100) = after ops (fun b => m (c, b)) (Proc.devRef .tc main_v100))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨⟨h c main_v119, h c main_v100⟩,
      (h c main_arg0).trans (arg_unchanged _ (by decide)),
      (h c main_arg1).trans (arg_unchanged _ (by decide)),
      (h c main_arg2).trans (arg_unchanged _ (by decide)),
      (h c main_arg3).trans (arg_unchanged _ (by decide)),
      (h c main_arg4).trans (arg_unchanged _ (by decide)),
      (h c main_arg5).trans (arg_unchanged _ (by decide)),
      (h c main_arg6).trans (arg_unchanged _ (by decide)),
      (h c main_arg7).trans (arg_unchanged _ (by decide)),
      (h c main_arg8).trans (arg_unchanged _ (by decide)),
      (h c main_arg9).trans (arg_unchanged _ (by decide)),
      (h c main_arg10).trans (arg_unchanged _ (by decide)),
      (h c main_arg11).trans (arg_unchanged _ (by decide)),
      (h c main_arg12).trans (arg_unchanged _ (by decide)),
      (h c main_arg13).trans (arg_unchanged _ (by decide)),
      (h c main_arg14).trans (arg_unchanged _ (by decide)),
      (h c main_arg15).trans (arg_unchanged _ (by decide)),
      (h c main_arg16).trans (arg_unchanged _ (by decide)),
      (h c main_arg17).trans (arg_unchanged _ (by decide)),
      (h c main_arg18).trans (arg_unchanged _ (by decide)),
      (h c main_arg19).trans (arg_unchanged _ (by decide)),
      (h c main_arg20).trans (arg_unchanged _ (by decide)),
      (h c main_arg21).trans (arg_unchanged _ (by decide)),
      (h c main_arg22).trans (arg_unchanged _ (by decide)),
      (h c main_arg23).trans (arg_unchanged _ (by decide)),
      (h c main_arg24).trans (arg_unchanged _ (by decide)),
      (h c main_arg25).trans (arg_unchanged _ (by decide))⟩)
    (run_seq scopedRefs_eq scopedSems_eq defs main (fun _ => ops) main_eq (fun _ => ops_sub) m ρ (fun _ => ops_fresh))

end Cert.ReferenceIdeal.RefRun

namespace Cert

open Idealize.ShloMosaic Idealize.SL.Sem

/-- The reference runs and leaves its arguments unchanged: the run's post, the results' part dropped. -/
theorem frame_ri [hPre : Cert.Pre_finite_inputs.Facts] :
    Cert.frame_ReferenceIdeal (hReferenceIdeal := Cert.ReferenceIdeal.Gen.facts) :=
  fun m ρ _ => (θ_run (Cert.ReferenceIdeal.defs (F := Ideal)) _ _).mono (fun _ h c => (h c).2)
    (Cert.ReferenceIdeal.RefRun.run (F := Ideal) m ρ)

end Cert

end
-- ==== Proof.PreIdx.lean ====
/-
  The index ranges stated by the precondition, read back.

  The precondition's term ends in six `jnp.all` conjuncts over the three integer arrays: every word of the
  [2, 800000] array lies in [0, 50000) and every word of the two [800000] arrays lies in [0, 800000), all read
  SIGNED (`stablehlo.compare GE/LT … SIGNED` against broadcast constants). The term is a left-nested chain of
  `and`s whose last six links are these conjuncts, so the chain is opened from its end: each link that is 1 makes
  both of its operands 1 (`IntOp.andi_eq_one`), a reduction by `and` into the one-index result that is 1 had a 1 at
  every operand index (`Host.reduce_andi_all`), and a comparison word that is 1 says the inequality of the signed
  readings (`IntOp.cmpi_sge`, `IntOp.cmpi_slt`). Nothing about the float conjuncts before them is used, and the
  float instance is arbitrary.

  `Ranges a2 a5 a6` collects the six facts as inequalities of `BitVec.toInt`; `Ranges.toNat_*` restate them unsigned
  (a nonnegative signed reading is the unsigned reading).
-/
import proofs.«166758_j50929722196748_2_alg».proof.Pre_finite_inputs
import Idealize.ShloMosaic.Lib.ReduceAll

noncomputable section

namespace Cert.PreIdx

open Idealize.ShloMosaic Cert.Pre_finite_inputs

variable [Cert.Pre_finite_inputs.Facts]

/-- The rank-0 shape has one index. -/
instance : Subsingleton S_.Idx := ⟨fun a b => funext fun d => d.elim0⟩

/-- That index. -/
abbrev i0 : S_.Idx := fun d => d.elim0

/-- The six index facts, as signed readings. -/
structure Ranges (a2 : IVec S2x800000 32) (a5 a6 : IVec S800000 32) : Prop where
  a2_ge : ∀ i, 0 ≤ (a2 i).toInt
  a2_lt : ∀ i, (a2 i).toInt < 50000
  a5_ge : ∀ i, 0 ≤ (a5 i).toInt
  a5_lt : ∀ i, (a5 i).toInt < 800000
  a6_ge : ∀ i, 0 ≤ (a6 i).toInt
  a6_lt : ∀ i, (a6 i).toInt < 800000

theorem toInt_zero : (0#32 : BitVec 32).toInt = 0 := by decide
theorem toInt_50000 : (50000#32 : BitVec 32).toInt = 50000 := by decide
theorem toInt_800000 : (800000#32 : BitVec 32).toInt = 800000 := by decide

/-- A nonnegative signed reading is the unsigned reading. -/
theorem toInt_eq_toNat {x : BitVec 32} (h : 0 ≤ x.toInt) : x.toInt = (x.toNat : Int) :=
  BitVec.toInt_eq_toNat_of_lt (BitVec.toInt_pos_iff.mp h)

section Parts
variable {F : FTy → Type} [FloatOps F]

/-- The chain's last link: the last conjunct, and the chain before it. -/
theorem of_part8 (a6 : IVec S800000 32) (v133 : IVec S_ 1) (v134 : IVec S800000 32)
    (h : fn_part8 (F := F) a6 v133 v134 = fun _ => 1#1) :
    v133 i0 = 1#1 ∧ ∀ i, IntOp.cmpi .slt (a6 i) (v134 i) = 1#1 := by
  have e := congrFun h i0
  dsimp only [fn_part8] at e
  obtain ⟨h1, h2⟩ := IntOp.andi_eq_one.1 e
  exact ⟨h1, fun i => Host.reduce_andi_all _ _ _ _ _ h2 i⟩

/-- The four links before it. -/
theorem of_part7 (a2 : IVec S2x800000 32) (a5 a6 : IVec S800000 32) (v117 : IVec S_ 1) (v118 : IVec S2x800000 32)
    (h : fn_part7 (F := F) a2 a5 a6 v117 v118 = fun _ => 1#1) :
    v117 i0 = 1#1 ∧ (∀ i, IntOp.cmpi .slt (a2 i) (v118 i) = 1#1)
      ∧ (∀ i, IntOp.cmpi .sge (a5 i) 0#32 = 1#1) ∧ (∀ i, IntOp.cmpi .slt (a5 i) 800000#32 = 1#1)
      ∧ (∀ i, IntOp.cmpi .sge (a6 i) 0#32 = 1#1) ∧ (∀ i, IntOp.cmpi .slt (a6 i) 800000#32 = 1#1) := by
  dsimp only [fn_part7] at h
  obtain ⟨h133, h6lt⟩ := of_part8 _ _ _ h
  obtain ⟨h129, h132⟩ := IntOp.andi_eq_one.1 h133
  obtain ⟨h125, h128⟩ := IntOp.andi_eq_one.1 h129
  obtain ⟨h121, h124⟩ := IntOp.andi_eq_one.1 h125
  obtain ⟨h117, h120⟩ := IntOp.andi_eq_one.1 h121
  exact ⟨h117, fun i => Host.reduce_andi_all _ _ _ _ _ h120 i, fun i => Host.reduce_andi_all _ _ _ _ _ h124 i,
    fun i => Host.reduce_andi_all _ _ _ _ _ h128 i, fun i => Host.reduce_andi_all _ _ _ _ _ h132 i, fun i => h6lt i⟩

/-- The link before those: the lower bound of the [2, 800000] array, with its upper bound's constant named. -/
theorem of_part6 (a2 : IVec S2x800000 32) (a5 a6 : IVec S800000 32) (a24 a25 : FVec F S64 .f32) (v98 : IVec S_ 1)
    (v101 : IVec S64 1) (c39 : IVec S_ 1)
    (h : fn_part6 (F := F) a2 a5 a6 a24 a25 v98 v101 c39 = fun _ => 1#1) :
    (∀ i, IntOp.cmpi .sge (a2 i) 0#32 = 1#1) ∧ (∀ i, IntOp.cmpi .slt (a2 i) 50000#32 = 1#1)
      ∧ (∀ i, IntOp.cmpi .sge (a5 i) 0#32 = 1#1) ∧ (∀ i, IntOp.cmpi .slt (a5 i) 800000#32 = 1#1)
      ∧ (∀ i, IntOp.cmpi .sge (a6 i) 0#32 = 1#1) ∧ (∀ i, IntOp.cmpi .slt (a6 i) 800000#32 = 1#1) := by
  dsimp only [fn_part6] at h
  obtain ⟨h117, h2lt, rest⟩ := of_part7 _ _ _ _ _ h
  obtain ⟨-, h116⟩ := IntOp.andi_eq_one.1 h117
  exact ⟨fun i => Host.reduce_andi_all _ _ _ _ _ h116 i, fun i => h2lt i, rest⟩

/-- THE PRECONDITION DECODED: whatever the float arrays, a precondition that is all ones puts the three integer arrays
    in range. -/
theorem ranges_of_fn (a0 : FVec F S50000x64 .f32) (a1 : FVec F S50000x64x3 .f32) (a2 : IVec S2x800000 32)
    (a3 : FVec F S800000x64 .f32) (a4 : FVec F S800000x3 .f32) (a5 : IVec S800000 32) (a6 : IVec S800000 32)
    (a7 : FVec F S800000x16 .f32) (a8 : FVec F S144x64 .f32) (a9 : FVec F S64 .f32) (a10 : FVec F S64x64 .f32)
    (a11 : FVec F S64 .f32) (a12 : FVec F S256x64 .f32) (a13 : FVec F S64 .f32) (a14 : FVec F S64x128 .f32)
    (a15 : FVec F S128 .f32) (a16 : FVec F S192x64 .f32) (a17 : FVec F S64 .f32) (a18 : FVec F S64x64 .f32)
    (a19 : FVec F S64 .f32) (a20 : FVec F S192x64 .f32) (a21 : FVec F S64 .f32) (a22 : FVec F S64x64 .f32)
    (a23 : FVec F S64 .f32) (a24 : FVec F S64 .f32) (a25 : FVec F S64 .f32)
    (h : fn (F := F) a0 a1 a2 a3 a4 a5 a6 a7 a8 a9 a10 a11 a12 a13 a14 a15 a16 a17 a18 a19 a20 a21 a22 a23 a24 a25
      = fun _ => 1#1) :
    Ranges a2 a5 a6 := by
  dsimp only [fn, fn_part1, fn_part2, fn_part3, fn_part4, fn_part5] at h
  obtain ⟨h2g, h2l, h5g, h5l, h6g, h6l⟩ := of_part6 _ _ _ _ _ _ _ _ h
  exact
    { a2_ge := fun i => by have := IntOp.cmpi_sge.1 (h2g i); rwa [toInt_zero] at this
      a2_lt := fun i => by have := IntOp.cmpi_slt.1 (h2l i); rwa [toInt_50000] at this
      a5_ge := fun i => by have := IntOp.cmpi_sge.1 (h5g i); rwa [toInt_zero] at this
      a5_lt := fun i => by have := IntOp.cmpi_slt.1 (h5l i); rwa [toInt_800000] at this
      a6_ge := fun i => by have := IntOp.cmpi_sge.1 (h6g i); rwa [toInt_zero] at this
      a6_lt := fun i => by have := IntOp.cmpi_slt.1 (h6l i); rwa [toInt_800000] at this }

end Parts

namespace Ranges

variable {a2 : IVec S2x800000 32} {a5 a6 : IVec S800000 32}

/-- The same facts unsigned: each word's unsigned reading is below its bound, and is its signed reading. -/
theorem toNat_a2 (r : Ranges a2 a5 a6) (i : S2x800000.Idx) : (a2 i).toNat < 50000 ∧ (a2 i).toInt = ((a2 i).toNat : Int) := by
  have h0 := r.a2_ge i; have h1 := r.a2_lt i; have e := toInt_eq_toNat h0
  exact ⟨by omega, e⟩
theorem toNat_a5 (r : Ranges a2 a5 a6) (i : S800000.Idx) : (a5 i).toNat < 800000 ∧ (a5 i).toInt = ((a5 i).toNat : Int) := by
  have h0 := r.a5_ge i; have h1 := r.a5_lt i; have e := toInt_eq_toNat h0
  exact ⟨by omega, e⟩
theorem toNat_a6 (r : Ranges a2 a5 a6) (i : S800000.Idx) : (a6 i).toNat < 800000 ∧ (a6 i).toInt = ((a6 i).toNat : Int) := by
  have h0 := r.a6_ge i; have h1 := r.a6_lt i; have e := toInt_eq_toNat h0
  exact ⟨by omega, e⟩

end Ranges

end Cert.PreIdx

end
-- ==== Proof.Spec.lean ====
/-
  The mathematics of one message-passing layer, row by row, over the extended reals.

  Every dense stage acts on each ROW of its inputs independently: a two-layer perceptron whose first layer is the sum of
  two to four products of row pieces with row blocks of one weight matrix, then x ↦ x · 1/(1 + e^{-x}), then a second
  product. The functions below state each stage at a row `r` and a column, for any number `R` of rows, so that the same
  function reads a block of rows of a kernel and a whole array of the reference. Sums are grouped as the kernel adds them
  (piece after piece, the bias last); regrouping a concatenated sum into these pieces needs only that addition on the
  extended reals is commutative and associative.
-/
import Idealize.ShloMosaic.PureOps.Ideal
import Idealize.ShloMosaic.Lib.ValueIdx

noncomputable section

open scoped BigOperators

namespace Cert.Spec

open Idealize.ShloMosaic Idealize.ShloMosaic.ValueIdx

/-- An `r × c` matrix of extended reals, indexed as the printed shapes index theirs. -/
abbrev Mat (r c : Nat) : Type := (⟨2, ![r, c]⟩ : Shape).Idx → EReal

/-- x · 1/(1 + e^{-x}). -/
def swish (x : EReal) : EReal := x * Ideal.logistic x

/-- Row `r` of `x` times column `k` of `w`: ∑_q x(r,q) · w(q,k). -/
def rowDot {R K H : Nat} (x : Mat R K) (w : Mat K H) (r : Fin R) (k : Fin H) : EReal :=
  ∑ q : Fin K, x (ix2 r q) * w (ix2 q k)

/-- The second layer on a row of hidden values: (∑_k swish(h k) · w2(k,j)) + b2(0,j). -/
def outLayer {H J : Nat} (h : Fin H → EReal) (w2 : Mat H J) (b2 : Mat 1 J) (j : Fin J) : EReal :=
  (∑ k : Fin H, swish (h k) * w2 (ix2 k j)) + b2 (ix2 0 j)

/-! ## The triplet stage: rows of two gathered feature arrays and the angle features -/

/-- The triplet stage's hidden row: ((kj·Wa + ji·Wb) + ang·Wc) + b1. -/
def tHid {R : Nat} (kj ji : Mat R 64) (ang : Mat R 16) (wa wb : Mat 64 64) (wc : Mat 16 64) (b1 : Mat 1 64)
    (r : Fin R) (k : Fin 64) : EReal :=
  ((rowDot kj wa r k + rowDot ji wb r k) + rowDot ang wc r k) + b1 (ix2 0 k)

/-- The triplet message at row `r`, column `j`. -/
def tMsg {R : Nat} (kj ji : Mat R 64) (ang : Mat R 16) (wa wb : Mat 64 64) (wc : Mat 16 64) (b1 : Mat 1 64)
    (w2 : Mat 64 64) (b2 : Mat 1 64) (r : Fin R) (j : Fin 64) : EReal :=
  outLayer (tHid kj ji ang wa wb wc b1 r) w2 b2 j

/-! ## The edge stage -/

/-- The edge stage's hidden row: (((src·Ws + dst·Wd) + rbf·Wr) + ang·Wa) + b1. -/
def eHid {R : Nat} (ssrc sdst rbf ang : Mat R 64) (ws wd wr wa : Mat 64 64) (b1 : Mat 1 64)
    (r : Fin R) (k : Fin 64) : EReal :=
  (((rowDot ssrc ws r k + rowDot sdst wd r k) + rowDot rbf wr r k) + rowDot ang wa r k) + b1 (ix2 0 k)

/-- The edge message at row `r`, column `n` of 128: the first 64 columns are the scalar message, the last 64 the
    coefficients of the direction. -/
def eMsg {R : Nat} (ssrc sdst rbf ang : Mat R 64) (ws wd wr wa : Mat 64 64) (b1 : Mat 1 64)
    (w2 : Mat 64 128) (b2 : Mat 1 128) (r : Fin R) (n : Fin 128) : EReal :=
  outLayer (eHid ssrc sdst rbf ang ws wd wr wa b1 r) w2 b2 n

/-- The packed edge row of 256 columns: the scalar message, then the coefficients times each of the three direction
    components: column 64·g + h (g = 1, 2, 3) is coefficient h times component g − 1. -/
def ePack {R : Nat} (ssrc sdst rbf ang : Mat R 64) (ed : Mat R 3) (ws wd wr wa : Mat 64 64) (b1 : Mat 1 64)
    (w2 : Mat 64 128) (b2 : Mat 1 128) (r : Fin R) (j : Fin 256) : EReal :=
  if h : j.val < 64 then eMsg ssrc sdst rbf ang ws wd wr wa b1 w2 b2 r ⟨j.val, by omega⟩
  else eMsg ssrc sdst rbf ang ws wd wr wa b1 w2 b2 r ⟨64 + j.val % 64, by omega⟩
        * ed (ix2 r ⟨j.val / 64 - 1, by have := j.isLt; omega⟩)

/-! ## The node stage -/

/-- The length of a 3-vector given by its components: √((x·x + y·y) + z·z). -/
def vNorm {R : Nat} (vx vy vz : Mat R 64) (r : Fin R) (j : Fin 64) : EReal :=
  Ideal.sqrt ((vx (ix2 r j) * vx (ix2 r j) + vy (ix2 r j) * vy (ix2 r j)) + vz (ix2 r j) * vz (ix2 r j))

/-- A node perceptron's hidden row over the three context pieces: ((s·W1 + agg·W2) + ‖v‖·W3) + b. -/
def nHid {R : Nat} (s aggs : Mat R 64) (vn : Fin R → Fin 64 → EReal) (w1 w2 w3 : Mat 64 64) (b : Mat 1 64)
    (r : Fin R) (k : Fin 64) : EReal :=
  ((rowDot s w1 r k + rowDot aggs w2 r k) + ∑ q : Fin 64, vn r q * w3 (ix2 q k)) + b (ix2 0 k)

/-- The updated scalar features before normalisation: s + perceptron(s, agg, ‖v‖). -/
def sNew {R : Nat} (s aggs : Mat R 64) (vn : Fin R → Fin 64 → EReal) (w1 w2 w3 : Mat 64 64) (b1 : Mat 1 64)
    (wo : Mat 64 64) (bo : Mat 1 64) (r : Fin R) (j : Fin 64) : EReal :=
  s (ix2 r j) + outLayer (nHid s aggs vn w1 w2 w3 b1 r) wo bo j

/-- The gate: 1/(1 + e^{-perceptron(s, agg, ‖v‖)}). -/
def gate {R : Nat} (s aggs : Mat R 64) (vn : Fin R → Fin 64 → EReal) (w1 w2 w3 : Mat 64 64) (b1 : Mat 1 64)
    (wo : Mat 64 64) (bo : Mat 1 64) (r : Fin R) (j : Fin 64) : EReal :=
  Ideal.logistic (outLayer (nHid s aggs vn w1 w2 w3 b1 r) wo bo j)

/-- The row mean: (∑_j x j) / 64. -/
def mean64 (x : Fin 64 → EReal) : EReal := Ideal.div (∑ j : Fin 64, x j) (Ideal.ofBits .f32 0x42800000#32)

/-- The row variance: the mean of the squared deviations from the mean. -/
def var64 (x : Fin 64 → EReal) : EReal := mean64 fun j => (x j - mean64 x) * (x j - mean64 x)

/-- Layer normalisation of a row, then the gain and the offset, then x ↦ x · 1/(1 + e^{-x}):
    swish(((x j − mean) · (var + ε)^{-1/2}) · g j + b j), with ε the f32 word of 1e-5. -/
def normOut (x : Fin 64 → EReal) (g b : Mat 1 64) (j : Fin 64) : EReal :=
  swish ((((x j - mean64 x) * Ideal.rsqrt (var64 x + Ideal.ofBits .f32 0x3727C5AC#32)) * g (ix2 0 j)) + b (ix2 0 j))

end Cert.Spec

end
-- ==== Proof.LibTakeRows.lean ====
/-
  Row gathers: `jnp.take` in fill mode and plain `arr[idx]` are the same rows when every index is in range.

  Both programs gather rows of a two-axis array `arr : [N, 64]` at a vector `idx : [800000]` of 32-bit indices
  (`N = 800000` and `N = 50000`). Both first wrap a negative index, `idx' = select (idx < 0) (idx + N) idx`, and
  broadcast it to a column `w : [800000, 1]`. One program then gathers `arr` at `w` (`stablehlo.gather` with offset
  axis 1, collapsed axis 0, start index map [0], index vector axis 1 and slices [1, 64]; the start index is read signed
  and clamped into [0, N − 1]). The other also computes, per row, whether `0 ≤ w ≤ N − 1` (a reduction by `and` over
  the column's one entry), gathers the same way, and selects the gathered row where the test holds and a constant
  row where it does not.

  For `0 ≤ idx i < N` (signed): the wrap is the identity (`wrap_apply`), the range test holds in every row
  (`inRange_eq_one`), the clamp is the identity, and both terms are the function `rows`:
  entry `(i, c) ↦ arr (idx i, c)` (`take_fill_eq_rows`, `take_clip_eq_rows`, hence `take_fill_eq_take_clip`).
  The float instance is arbitrary; no float operation is involved beyond the constant row that is never selected.

  The gather's dimension numbers are a parameter constrained by its fields (`RowGather`), so the lemmas apply to any
  record with those fields whatever the proof of its side conditions; the shape facts of the broadcasts and of the
  reduction are parameters too.
-/
import Idealize.ShloMosaic.Lib.ValueIdx
import Idealize.ShloMosaic.Lib.ReduceAll

noncomputable section

namespace Cert.TakeRows

open Idealize.ShloMosaic Idealize.ShloMosaic.ValueIdx

abbrev S_ : Shape := ⟨0, ![]⟩
abbrev S1 : Shape := ⟨1, ![1]⟩
abbrev S1x1 : Shape := ⟨2, ![1, 1]⟩
abbrev S800000 : Shape := ⟨1, ![800000]⟩
abbrev S800000x1 : Shape := ⟨2, ![800000, 1]⟩
abbrev S800000x64 : Shape := ⟨2, ![800000, 64]⟩
abbrev S50000x64 : Shape := ⟨2, ![50000, 64]⟩

/-! ## The gather read at an index -/

section Gather
variable {α : Type}

/-- The dimension numbers of a row gather: operand `[N, C]`, start indices `[R, 1]`, result `[R, C]`. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index `[t, 0]` of result index `(t, c)`. -/
abbrev rowIdx {R C : Nat} (y : (⟨2, ![R, C]⟩ : Shape).Idx) : (⟨2, ![R, 1]⟩ : Shape).Idx :=
  ix2 (⟨(y 0).val, idx2_lt0 y⟩ : Fin R) (⟨0, Nat.one_pos⟩ : Fin 1)

/-- THE GATHER READ AT `(t, c)`: the operand's row at the start index `idx[t, 0]`, read signed and clamped into
    `[0, N − 1]`, at column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N R C wf) x idx y
      = x (ix2 (⟨min (idx (rowIdx y)).toInt.toNat (N - 1), by omega⟩ : Fin N) (⟨(y 1).val, idx2_lt1 y⟩ : Fin C)) := by
  unfold Host.gather
  congr 1
  funext a
  refine Fin.ext ?_
  match a with
  | ⟨0, _⟩ =>
    show (rowDims N R C wf).start y idx 0 + (rowDims N R C wf).batchCoord y 0 + (rowDims N R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx y ⟨List.idxOf (0 : Fin 2) (rowDims N R C wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowDims N R C wf).start y idx 1 + (rowDims N R C wf).batchCoord y 1 + (rowDims N R C wf).offCoord y 1 = (y 1).val
    rw [GatherDims.batchCoord_eq_zero _ _ _ List.not_mem_nil]
    have hs : (rowDims N R C wf).start y idx 1 = 0 := by
      unfold GatherDims.start
      rw [dif_neg (show ¬ (1 : Fin 2) ∈ (rowDims N R C wf).startIndexMap from
        fun h => absurd (Fin.val_eq_of_eq (List.mem_singleton.mp h)) Nat.one_ne_zero)]
    rw [hs]
    simp only [Nat.add_zero, Nat.zero_add]
    rfl

/-- A gather's dimension numbers are a row gather's: its seven fields are the ones above (each holds by `rfl` for a
    record written with them). -/
structure RowGather {N R C : Nat} (d : GatherDims ⟨2, ![N, C]⟩ ⟨2, ![R, 1]⟩ ⟨2, ![R, C]⟩) : Prop where
  offsetDims : d.offsetDims = [1]
  collapsedSliceDims : d.collapsedSliceDims = [0]
  operandBatchingDims : d.operandBatchingDims = []
  startIndicesBatchingDims : d.startIndicesBatchingDims = []
  startIndexMap : d.startIndexMap = [0]
  indexVectorDim : d.indexVectorDim = 1
  sliceSizes : d.sliceSizes = ![1, C]

/-- The same reading for any record with a row gather's fields. -/
theorem gather_apply {N R C w : Nat} (hN : 0 < N) (d : GatherDims ⟨2, ![N, C]⟩ ⟨2, ![R, 1]⟩ ⟨2, ![R, C]⟩) (hd : RowGather d)
    (x : (⟨2, ![N, C]⟩ : Shape).Idx → α) (idx : IVec ⟨2, ![R, 1]⟩ w) (y : (⟨2, ![R, C]⟩ : Shape).Idx) :
    Host.gather d x idx y
      = x (ix2 (⟨min (idx (rowIdx y)).toInt.toNat (N - 1), by omega⟩ : Fin N) (⟨(y 1).val, idx2_lt1 y⟩ : Fin C)) := by
  obtain ⟨od, cd, ob, sb, sm, iv, ss, wf⟩ := d
  obtain ⟨h1, h2, h3, h4, h5, h6, h7⟩ := hd
  simp only at h1 h2 h3 h4 h5 h6 h7
  subst h1 h2 h3 h4 h5 h6 h7
  exact gather_rows_apply hN wf x idx y

end Gather

/-! ## Words -/

theorem toInt_zero : (0#32 : BitVec 32).toInt = 0 := by decide
theorem toInt_799999 : (799999#32 : BitVec 32).toInt = 799999 := by decide
theorem toInt_49999 : (49999#32 : BitVec 32).toInt = 49999 := by decide

/-- A reduction by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1 : BitVec 1) (f a) = 1#1 := by rw [h a (List.mem_cons_self ..)]; decide
    rw [List.foldl_cons, e]
    exact foldl_andi_ones f l fun n hn => h n (List.mem_cons_of_mem _ hn)

/-- `jnp.all` of an array of ones, at any result index: the converse of `Host.reduce_andi_eq_one`. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x _ fun n _ => hx n

/-! ## The index pipeline: wrap, column -/

/-- The wrap `select (idx < 0) (idx + n) idx` leaves a nonnegative index alone. -/
theorem wrap_apply (bc0 : S_.BroadcastsInDim S800000 ![]) (n : BitVec 32) (idx : IVec S800000 32) (i : S800000.Idx)
    (h0 : 0 ≤ (idx i).toInt) :
    select (cmpi .slt idx (broadcastInDim S800000 ![] bc0 (constantI S_ 32 0#32)))
      (addi idx (broadcastInDim S800000 ![] bc0 (constantI S_ 32 n))) idx i = idx i := by
  show Scalar.select (IntOp.cmpi .slt (idx i) 0#32) _ _ = _
  unfold Scalar.select
  rw [if_neg]
  intro hc
  have := IntOp.cmpi_slt.1 hc
  rw [toInt_zero] at this
  omega

/-- So on an array of nonnegative indices the wrap is the identity. -/
theorem wrap_eq (bc0 : S_.BroadcastsInDim S800000 ![]) (n : BitVec 32) (idx : IVec S800000 32)
    (h0 : ∀ i, 0 ≤ (idx i).toInt) :
    select (cmpi .slt idx (broadcastInDim S800000 ![] bc0 (constantI S_ 32 0#32)))
      (addi idx (broadcastInDim S800000 ![] bc0 (constantI S_ 32 n))) idx = idx :=
  funext fun i => wrap_apply bc0 n idx i (h0 i)

/-- The column `[800000, 1]` of a vector `[800000]` reads the vector at the row. -/
theorem col_apply {w : Nat} (bc1 : S800000.BroadcastsInDim S800000x1 ![0]) (v : IVec S800000 w) (y : S800000x1.Idx) :
    broadcastInDim S800000x1 ![0] bc1 v y = v (ix1 (⟨(y 0).val, idx2_lt0 y⟩ : Fin 800000)) := by
  unfold broadcastInDim
  refine congrArg v (funext fun a => ?_)
  match a with
  | ⟨0, _⟩ =>
    refine Fin.ext ?_
    rw [dif_neg (show ¬ S800000.size ⟨0, by decide⟩ = 1 from by decide)]
    rfl

/-! ## The two programs' terms -/

/-- A nonnegative signed reading is the unsigned reading. -/
theorem toInt_eq_toNat {x : BitVec 32} (h : 0 ≤ x.toInt) : x.toInt = (x.toNat : Int) :=
  BitVec.toInt_eq_toNat_of_lt (BitVec.toInt_pos_iff.mp h)

/-- Equal row numbers give the same entry. -/
theorem row_congr {α : Type} {N : Nat} (arr : (⟨2, ![N, 64]⟩ : Shape).Idx → α) {a b : Nat} (ha : a < N) (hb : b < N)
    (c : Fin 64) (e : a = b) : arr (ix2 (⟨a, ha⟩ : Fin N) c) = arr (ix2 (⟨b, hb⟩ : Fin N) c) := by
  subst e; rfl

/-- THE ROWS: entry `(i, c)` is `arr` at row `idx i` (read signed, clamped into `[0, N − 1]`) and column `c`. -/
def rows {α : Type} {N : Nat} (hN : 0 < N) (arr : (⟨2, ![N, 64]⟩ : Shape).Idx → α) (idx : IVec S800000 32) : S800000x64.Idx → α :=
  fun y => arr (ix2 (⟨min (idx (ix1 (⟨(y 0).val, idx2_lt0 y⟩ : Fin 800000))).toInt.toNat (N - 1), by omega⟩ : Fin N)
    (⟨(y 1).val, idx2_lt1 y⟩ : Fin 64))

/-- For an index in range the clamp is the identity: the row is `idx i` read unsigned. -/
theorem rows_apply {α : Type} {N : Nat} (hN : 0 < N) (arr : (⟨2, ![N, 64]⟩ : Shape).Idx → α) (idx : IVec S800000 32)
    (y : S800000x64.Idx) (h0 : 0 ≤ (idx (ix1 (⟨(y 0).val, idx2_lt0 y⟩ : Fin 800000))).toInt)
    (h1 : (idx (ix1 (⟨(y 0).val, idx2_lt0 y⟩ : Fin 800000))).toInt < N)
    (hlt : (idx (ix1 (⟨(y 0).val, idx2_lt0 y⟩ : Fin 800000))).toNat < N) :
    rows hN arr idx y
      = arr (ix2 (⟨(idx (ix1 (⟨(y 0).val, idx2_lt0 y⟩ : Fin 800000))).toNat, hlt⟩ : Fin N) (⟨(y 1).val, idx2_lt1 y⟩ : Fin 64)) := by
  unfold rows
  have e : min (idx (ix1 (⟨(y 0).val, idx2_lt0 y⟩ : Fin 800000))).toInt.toNat (N - 1)
      = (idx (ix1 (⟨(y 0).val, idx2_lt0 y⟩ : Fin 800000))).toNat := by
    have := toInt_eq_toNat h0
    omega
  exact row_congr arr _ _ _ e

section Take
variable {F : FTy → Type} [FloatOps F]
variable (bc0 : S_.BroadcastsInDim S800000 ![]) (bc1 : S800000.BroadcastsInDim S800000x1 ![0])
  (bc2 : S_.BroadcastsInDim S800000x1 ![]) (bc3 : S1.BroadcastsInDim S1x1 ![1])
  (bc4 : S1x1.BroadcastsInDim S800000x1 ![0, 1]) (red : S800000x1.ReducesTo [1] S800000) (hS : 0 < S_.numel)
  (bc5 : S800000.BroadcastsInDim S800000x64 ![0]) (bc6 : S_.BroadcastsInDim S800000x64 ![])

/-- The per-row range test `all (0 ≤ w ∧ w ≤ m)` over the column's one entry is 1 in every row when every entry of
    the column lies in `[0, m]` (signed). -/
theorem inRange_eq_one (m : BitVec 32) (M : Int) (hm : m.toInt = M) (w : IVec S800000x1 32)
    (hw : ∀ y, 0 ≤ (w y).toInt ∧ (w y).toInt ≤ M) (j : S800000.Idx) :
    Host.reduce IntOp.andi
      (andi (cmpi .sge w (broadcastInDim S800000x1 ![] bc2 (constantI S_ 32 0#32)))
        (cmpi .sle w (broadcastInDim S800000x1 ![0, 1] bc4 (broadcastInDim S1x1 ![1] bc3 (constantI S1 32 m)))))
      (constantI S_ 1 1#1) red hS j = 1#1 := by
  refine reduce_andi_of_all _ _ red hS j rfl fun y => ?_
  show IntOp.andi (IntOp.cmpi .sge (w y) 0#32) (IntOp.cmpi .sle (w y) m) = 1#1
  rw [IntOp.andi_eq_one]
  refine ⟨IntOp.cmpi_sge.2 ?_, IntOp.cmpi_sle.2 ?_⟩
  · rw [toInt_zero]; exact (hw y).1
  · rw [hm]; exact (hw y).2

/-- PLAIN `arr[idx]`: the gather at the wrapped index column is the rows, for nonnegative indices. -/
theorem take_clip_eq_rows {N : Nat} (hN : 0 < N) (n : BitVec 32)
    (d : GatherDims ⟨2, ![N, 64]⟩ S800000x1 S800000x64) (hd : RowGather d)
    (arr : FVec F ⟨2, ![N, 64]⟩ .f32) (idx : IVec S800000 32) (h0 : ∀ i, 0 ≤ (idx i).toInt) :
    Host.gather d arr (broadcastInDim S800000x1 ![0] bc1
        (select (cmpi .slt idx (broadcastInDim S800000 ![] bc0 (constantI S_ 32 0#32)))
          (addi idx (broadcastInDim S800000 ![] bc0 (constantI S_ 32 n))) idx))
      = rows hN arr idx := by
  rw [wrap_eq bc0 n idx h0]
  funext y
  rw [gather_apply hN d hd]
  refine row_congr arr _ _ _ ?_
  rw [col_apply]

/-- `jnp.take` IN FILL MODE: for indices in `[0, N)` the range test holds in every row, so the select takes the
    gathered row everywhere, and the term is the rows. `m` is the word of `N − 1`. -/
theorem take_fill_eq_rows {N : Nat} (hN : 0 < N) (n m : BitVec 32) (hm : m.toInt = (N : Int) - 1)
    (d : GatherDims ⟨2, ![N, 64]⟩ S800000x1 S800000x64) (hd : RowGather d)
    (arr : FVec F ⟨2, ![N, 64]⟩ .f32) (idx : IVec S800000 32)
    (h0 : ∀ i, 0 ≤ (idx i).toInt) (h1 : ∀ i, (idx i).toInt < N) :
    select
      (broadcastInDim S800000x64 ![0] bc5
        (Host.reduce IntOp.andi
          (andi
            (cmpi .sge
              (broadcastInDim S800000x1 ![0] bc1
                (select (cmpi .slt idx (broadcastInDim S800000 ![] bc0 (constantI S_ 32 0#32)))
                  (addi idx (broadcastInDim S800000 ![] bc0 (constantI S_ 32 n))) idx))
              (broadcastInDim S800000x1 ![] bc2 (constantI S_ 32 0#32)))
            (cmpi .sle
              (broadcastInDim S800000x1 ![0] bc1
                (select (cmpi .slt idx (broadcastInDim S800000 ![] bc0 (constantI S_ 32 0#32)))
                  (addi idx (broadcastInDim S800000 ![] bc0 (constantI S_ 32 n))) idx))
              (broadcastInDim S800000x1 ![0, 1] bc4 (broadcastInDim S1x1 ![1] bc3 (constantI S1 32 m)))))
          (constantI S_ 1 1#1) red hS))
      (Host.gather d arr (broadcastInDim S800000x1 ![0] bc1
        (select (cmpi .slt idx (broadcastInDim S800000 ![] bc0 (constantI S_ 32 0#32)))
          (addi idx (broadcastInDim S800000 ![] bc0 (constantI S_ 32 n))) idx)))
      (broadcastInDim S800000x64 ![] bc6 (constant S_ .f32 0x7FC00000#32))
      = rows hN arr idx := by
  rw [← take_clip_eq_rows bc0 bc1 hN n d hd arr idx h0, wrap_eq bc0 n idx h0]
  have hmask : Host.reduce IntOp.andi
      (andi (cmpi .sge (broadcastInDim S800000x1 ![0] bc1 idx) (broadcastInDim S800000x1 ![] bc2 (constantI S_ 32 0#32)))
        (cmpi .sle (broadcastInDim S800000x1 ![0] bc1 idx)
          (broadcastInDim S800000x1 ![0, 1] bc4 (broadcastInDim S1x1 ![1] bc3 (constantI S1 32 m)))))
      (constantI S_ 1 1#1) red hS = fun _ => 1#1 :=
    funext fun j => inRange_eq_one bc2 bc3 bc4 red hS m _ hm _ (fun y => by
      rw [col_apply]
      have a := h0 (ix1 (⟨(y 0).val, idx2_lt0 y⟩ : Fin 800000))
      have b := h1 (ix1 (⟨(y 0).val, idx2_lt0 y⟩ : Fin 800000))
      exact ⟨a, by omega⟩) j
  rw [hmask]
  funext y
  show Scalar.select 1#1 _ _ = _
  rw [select_one]

/-- So the two programs' gathers are ONE function of the array and the indices, for indices in range. -/
theorem take_fill_eq_take_clip {N : Nat} (hN : 0 < N) (n n' m : BitVec 32) (hm : m.toInt = (N : Int) - 1)
    (d d' : GatherDims ⟨2, ![N, 64]⟩ S800000x1 S800000x64) (hd : RowGather d) (hd' : RowGather d')
    (bc0' : S_.BroadcastsInDim S800000 ![]) (bc1' : S800000.BroadcastsInDim S800000x1 ![0])
    (arr : FVec F ⟨2, ![N, 64]⟩ .f32) (idx : IVec S800000 32)
    (h0 : ∀ i, 0 ≤ (idx i).toInt) (h1 : ∀ i, (idx i).toInt < N) :
    select
      (broadcastInDim S800000x64 ![0] bc5
        (Host.reduce IntOp.andi
          (andi
            (cmpi .sge
              (broadcastInDim S800000x1 ![0] bc1
                (select (cmpi .slt idx (broadcastInDim S800000 ![] bc0 (constantI S_ 32 0#32)))
                  (addi idx (broadcastInDim S800000 ![] bc0 (constantI S_ 32 n))) idx))
              (broadcastInDim S800000x1 ![] bc2 (constantI S_ 32 0#32)))
            (cmpi .sle
              (broadcastInDim S800000x1 ![0] bc1
                (select (cmpi .slt idx (broadcastInDim S800000 ![] bc0 (constantI S_ 32 0#32)))
                  (addi idx (broadcastInDim S800000 ![] bc0 (constantI S_ 32 n))) idx))
              (broadcastInDim S800000x1 ![0, 1] bc4 (broadcastInDim S1x1 ![1] bc3 (constantI S1 32 m)))))
          (constantI S_ 1 1#1) red hS))
      (Host.gather d arr (broadcastInDim S800000x1 ![0] bc1
        (select (cmpi .slt idx (broadcastInDim S800000 ![] bc0 (constantI S_ 32 0#32)))
          (addi idx (broadcastInDim S800000 ![] bc0 (constantI S_ 32 n))) idx)))
      (broadcastInDim S800000x64 ![] bc6 (constant S_ .f32 0x7FC00000#32))
      = Host.gather d' arr (broadcastInDim S800000x1 ![0] bc1'
          (select (cmpi .slt idx (broadcastInDim S800000 ![] bc0' (constantI S_ 32 0#32)))
            (addi idx (broadcastInDim S800000 ![] bc0' (constantI S_ 32 n'))) idx)) :=
  (take_fill_eq_rows bc0 bc1 bc2 bc3 bc4 red hS bc5 bc6 hN n m hm d hd arr idx h0 h1).trans
    (take_clip_eq_rows bc0' bc1' hN n' d' hd' arr idx h0).symm

end Take

/-! ## The two extents -/

section Extents
variable {F : FTy → Type} [FloatOps F]

theorem pos_800000 : 0 < 800000 := by decide
theorem pos_50000 : 0 < 50000 := by decide
theorem toInt_m800000 : (799999#32 : BitVec 32).toInt = ((800000 : Nat) : Int) - 1 := by decide
theorem toInt_m50000 : (49999#32 : BitVec 32).toInt = ((50000 : Nat) : Int) - 1 := by decide

/-- Rows of the `[800000, 64]` array: the fill-mode term (constants `800000`, `799999`) is the rows. -/
theorem take_fill_800000 (bc0 : S_.BroadcastsInDim S800000 ![]) (bc1 : S800000.BroadcastsInDim S800000x1 ![0])
    (bc2 : S_.BroadcastsInDim S800000x1 ![]) (bc3 : S1.BroadcastsInDim S1x1 ![1])
    (bc4 : S1x1.BroadcastsInDim S800000x1 ![0, 1]) (red : S800000x1.ReducesTo [1] S800000) (hS : 0 < S_.numel)
    (bc5 : S800000.BroadcastsInDim S800000x64 ![0]) (bc6 : S_.BroadcastsInDim S800000x64 ![])
    (d : GatherDims S800000x64 S800000x1 S800000x64) (hd : RowGather d)
    (arr : FVec F S800000x64 .f32) (idx : IVec S800000 32)
    (h0 : ∀ i, 0 ≤ (idx i).toInt) (h1 : ∀ i, (idx i).toInt < 800000) :
    select
      (broadcastInDim S800000x64 ![0] bc5
        (Host.reduce IntOp.andi
          (andi
            (cmpi .sge
              (broadcastInDim S800000x1 ![0] bc1
                (select (cmpi .slt idx (broadcastInDim S800000 ![] bc0 (constantI S_ 32 0#32)))
                  (addi idx (broadcastInDim S800000 ![] bc0 (constantI S_ 32 800000#32))) idx))
              (broadcastInDim S800000x1 ![] bc2 (constantI S_ 32 0#32)))
            (cmpi .sle
              (broadcastInDim S800000x1 ![0] bc1
                (select (cmpi .slt idx (broadcastInDim S800000 ![] bc0 (constantI S_ 32 0#32)))
                  (addi idx (broadcastInDim S800000 ![] bc0 (constantI S_ 32 800000#32))) idx))
              (broadcastInDim S800000x1 ![0, 1] bc4 (broadcastInDim S1x1 ![1] bc3 (constantI S1 32 799999#32)))))
          (constantI S_ 1 1#1) red hS))
      (Host.gather d arr (broadcastInDim S800000x1 ![0] bc1
        (select (cmpi .slt idx (broadcastInDim S800000 ![] bc0 (constantI S_ 32 0#32)))
          (addi idx (broadcastInDim S800000 ![] bc0 (constantI S_ 32 800000#32))) idx)))
      (broadcastInDim S800000x64 ![] bc6 (constant S_ .f32 0x7FC00000#32))
      = rows pos_800000 arr idx :=
  take_fill_eq_rows bc0 bc1 bc2 bc3 bc4 red hS bc5 bc6 pos_800000 800000#32 799999#32 toInt_m800000 d hd arr idx h0
    (fun i => by have := h1 i; exact_mod_cast this)

/-- … and the plain gather at the wrapped index column. -/
theorem take_clip_800000 (bc0 : S_.BroadcastsInDim S800000 ![]) (bc1 : S800000.BroadcastsInDim S800000x1 ![0])
    (d : GatherDims S800000x64 S800000x1 S800000x64) (hd : RowGather d)
    (arr : FVec F S800000x64 .f32) (idx : IVec S800000 32) (h0 : ∀ i, 0 ≤ (idx i).toInt) :
    Host.gather d arr (broadcastInDim S800000x1 ![0] bc1
        (select (cmpi .slt idx (broadcastInDim S800000 ![] bc0 (constantI S_ 32 0#32)))
          (addi idx (broadcastInDim S800000 ![] bc0 (constantI S_ 32 800000#32))) idx))
      = rows pos_800000 arr idx :=
  take_clip_eq_rows bc0 bc1 pos_800000 800000#32 d hd arr idx h0

/-- Rows of the `[50000, 64]` array: the fill-mode term (constants `50000`, `49999`) is the rows. -/
theorem take_fill_50000 (bc0 : S_.BroadcastsInDim S800000 ![]) (bc1 : S800000.BroadcastsInDim S800000x1 ![0])
    (bc2 : S_.BroadcastsInDim S800000x1 ![]) (bc3 : S1.BroadcastsInDim S1x1 ![1])
    (bc4 : S1x1.BroadcastsInDim S800000x1 ![0, 1]) (red : S800000x1.ReducesTo [1] S800000) (hS : 0 < S_.numel)
    (bc5 : S800000.BroadcastsInDim S800000x64 ![0]) (bc6 : S_.BroadcastsInDim S800000x64 ![])
    (d : GatherDims S50000x64 S800000x1 S800000x64) (hd : RowGather d)
    (arr : FVec F S50000x64 .f32) (idx : IVec S800000 32)
    (h0 : ∀ i, 0 ≤ (idx i).toInt) (h1 : ∀ i, (idx i).toInt < 50000) :
    select
      (broadcastInDim S800000x64 ![0] bc5
        (Host.reduce IntOp.andi
          (andi
            (cmpi .sge
              (broadcastInDim S800000x1 ![0] bc1
                (select (cmpi .slt idx (broadcastInDim S800000 ![] bc0 (constantI S_ 32 0#32)))
                  (addi idx (broadcastInDim S800000 ![] bc0 (constantI S_ 32 50000#32))) idx))
              (broadcastInDim S800000x1 ![] bc2 (constantI S_ 32 0#32)))
            (cmpi .sle
              (broadcastInDim S800000x1 ![0] bc1
                (select (cmpi .slt idx (broadcastInDim S800000 ![] bc0 (constantI S_ 32 0#32)))
                  (addi idx (broadcastInDim S800000 ![] bc0 (constantI S_ 32 50000#32))) idx))
              (broadcastInDim S800000x1 ![0, 1] bc4 (broadcastInDim S1x1 ![1] bc3 (constantI S1 32 49999#32)))))
          (constantI S_ 1 1#1) red hS))
      (Host.gather d arr (broadcastInDim S800000x1 ![0] bc1
        (select (cmpi .slt idx (broadcastInDim S800000 ![] bc0 (constantI S_ 32 0#32)))
          (addi idx (broadcastInDim S800000 ![] bc0 (constantI S_ 32 50000#32))) idx)))
      (broadcastInDim S800000x64 ![] bc6 (constant S_ .f32 0x7FC00000#32))
      = rows pos_50000 arr idx :=
  take_fill_eq_rows bc0 bc1 bc2 bc3 bc4 red hS bc5 bc6 pos_50000 50000#32 49999#32 toInt_m50000 d hd arr idx h0
    (fun i => by have := h1 i; exact_mod_cast this)

/-- … and the plain gather at the wrapped index column. -/
theorem take_clip_50000 (bc0 : S_.BroadcastsInDim S800000 ![]) (bc1 : S800000.BroadcastsInDim S800000x1 ![0])
    (d : GatherDims S50000x64 S800000x1 S800000x64) (hd : RowGather d)
    (arr : FVec F S50000x64 .f32) (idx : IVec S800000 32) (h0 : ∀ i, 0 ≤ (idx i).toInt) :
    Host.gather d arr (broadcastInDim S800000x1 ![0] bc1
        (select (cmpi .slt idx (broadcastInDim S800000 ![] bc0 (constantI S_ 32 0#32)))
          (addi idx (broadcastInDim S800000 ![] bc0 (constantI S_ 32 50000#32))) idx))
      = rows pos_50000 arr idx :=
  take_clip_eq_rows bc0 bc1 pos_50000 50000#32 d hd arr idx h0

end Extents

/-! ## Index vectors cut out of a two-row array -/

abbrev S2x800000 : Shape := ⟨2, ![2, 800000]⟩
abbrev S1x800000 : Shape := ⟨2, ![1, 800000]⟩

/-- A row of a `[2, 800000]` array, sliced out and reshaped to `[800000]`, holds entries of the array: what holds of
    every entry of the array holds of every entry of the row (a slice and a reshape only re-index). -/
theorem slice_reshape_all {w : Nat} (off : Fin S2x800000.rank → Nat) (hs : S2x800000.Slices off S1x800000)
    (hc : S1x800000.ShapeCasts S800000) (a : IVec S2x800000 w) (P : BitVec w → Prop) (h : ∀ i, P (a i))
    (i : S800000.Idx) : P (shapeCast S800000 (extractStridedSlice S1x800000 off a hs) hc i) :=
  h _

end Cert.TakeRows

end
-- ==== Proof.SpecArr.lean ====
/-
  The whole layer as functions of its argument arrays, over the extended reals.

  Rows are gathered by an index array (an index outside the array is clamped to the last row; under the precondition no index
  is outside). A segment sum over the edges adds, at row n, the rows e of its operand whose index is n. The triplet messages are
  summed into the edges by the second triplet index; the edge messages are summed into the nodes by the edge's destination,
  the first 64 columns as they are and the last 64 times each component of the edge's direction; the node update reads the
  summed scalars and the vector features' lengths; the new scalars are layer-normalised.
-/
import proofs.«166758_j50929722196748_2_alg».proof.Proof.Spec
import proofs.«166758_j50929722196748_2_alg».proof.Proof.LibTakeRows

noncomputable section

open scoped BigOperators

namespace Cert.Spec

open Idealize.ShloMosaic Idealize.ShloMosaic.ValueIdx Cert.TakeRows

/-- A vector of `n` extended reals. -/
abbrev Vec1 (n : Nat) : Type := (⟨1, ![n]⟩ : Shape).Idx → EReal
/-- An `a × b × c` array of extended reals. -/
abbrev Arr3 (a b c : Nat) : Type := (⟨3, ![a, b, c]⟩ : Shape).Idx → EReal

/-- Rows `o, …, o + n − 1` of a weight matrix. -/
def rowBlock {K H : Nat} (w : Mat K H) (o n : Nat) (h : o + n ≤ K) : Mat n H :=
  fun i => w (ix2 ⟨o + (i 0).val, by have := idx2_lt0 i; omega⟩ ⟨(i 1).val, idx2_lt1 i⟩)

/-- A vector laid as a one-row matrix. -/
def asRow {H : Nat} (b : Vec1 H) : Mat 1 H := fun i => b (ix1 ⟨(i 1).val, (i 1).isLt⟩)

/-- The segment sum: row n of the result is the sum of the rows e of `u` with `idx e = n`. -/
def segSum {N C : Nat} (idx : IVec S800000 32) (u : Mat 800000 C) : Mat N C :=
  fun i => ∑ e ∈ Finset.univ.filter (fun e : Fin 800000 => (idx (ix1 e)).toInt = (((i 0).val : Nat) : Int)),
    u (ix2 e ⟨(i 1).val, (i 1).isLt⟩)

/-- Row 0 or 1 of the edge-index array: the sources or the destinations. -/
def edgeRow (ei : IVec S2x800000 32) (k : Fin 2) : IVec S800000 32 :=
  fun i => ei (ix2 k ⟨(i 0).val, (i 0).isLt⟩)

section Layer

variable (s : Mat 50000 64) (v : Arr3 50000 64 3) (ei : IVec S2x800000 32) (rbf : Mat 800000 64) (dir : Mat 800000 3)
  (kj ji : IVec S800000 32) (ang : Mat 800000 16)
  (wt1 : Mat 144 64) (bt1 : Vec1 64) (wt2 : Mat 64 64) (bt2 : Vec1 64)
  (wm1 : Mat 256 64) (bm1 : Vec1 64) (wm2 : Mat 64 128) (bm2 : Vec1 128)
  (wu1 : Mat 192 64) (bu1 : Vec1 64) (wu2 : Mat 64 64) (bu2 : Vec1 64)
  (wg1 : Mat 192 64) (bg1 : Vec1 64) (wg2 : Mat 64 64) (bg2 : Vec1 64)
  (lng lnb : Vec1 64)

/-- The triplet messages, one row per triplet. -/
def tripletMsg : Mat 800000 64 := fun i =>
  tMsg (rows pos_800000 rbf kj) (rows pos_800000 rbf ji) ang
    (rowBlock wt1 0 64 (by omega)) (rowBlock wt1 64 64 (by omega)) (rowBlock wt1 128 16 (by omega)) (asRow bt1) wt2 (asRow bt2)
    ⟨(i 0).val, (i 0).isLt⟩ ⟨(i 1).val, (i 1).isLt⟩

/-- The triplet messages summed into the edges. -/
def angleAgg : Mat 800000 64 := segSum ji (tripletMsg rbf kj ji ang wt1 bt1 wt2 bt2)

/-- The edge messages, 128 columns per edge. -/
def edgeMsg (e : Fin 800000) (n : Fin 128) : EReal :=
  eMsg (rows pos_50000 s (edgeRow ei 0)) (rows pos_50000 s (edgeRow ei 1)) rbf (angleAgg rbf kj ji ang wt1 bt1 wt2 bt2)
    (rowBlock wm1 0 64 (by omega)) (rowBlock wm1 64 64 (by omega)) (rowBlock wm1 128 64 (by omega)) (rowBlock wm1 192 64 (by omega))
    (asRow bm1) wm2 (asRow bm2) e n

/-- The scalar messages summed into the nodes. -/
def aggS : Mat 50000 64 :=
  segSum (edgeRow ei 1) fun i => edgeMsg s ei rbf kj ji ang wt1 bt1 wt2 bt2 wm1 bm1 wm2 bm2 ⟨(i 0).val, idx2_lt0 i⟩ ⟨(i 1).val, by have := idx2_lt1 i; omega⟩

/-- Component `c` of the vector messages summed into the nodes: coefficient h of the edge times component c of its direction. -/
def aggV (c : Fin 3) : Mat 50000 64 :=
  segSum (edgeRow ei 1) fun i =>
    edgeMsg s ei rbf kj ji ang wt1 bt1 wt2 bt2 wm1 bm1 wm2 bm2 ⟨(i 0).val, idx2_lt0 i⟩ ⟨64 + (i 1).val, by have := idx2_lt1 i; omega⟩
      * dir (ix2 ⟨(i 0).val, (i 0).isLt⟩ c)

/-- Component `c` of the vector features as a matrix. -/
def vComp (c : Fin 3) : Mat 50000 64 := fun i => v (ix3 ⟨(i 0).val, (i 0).isLt⟩ ⟨(i 1).val, (i 1).isLt⟩ c)

/-- The new scalar features before normalisation. -/
def sUpd (n : Fin 50000) (j : Fin 64) : EReal :=
  sNew s (aggS s ei rbf kj ji ang wt1 bt1 wt2 bt2 wm1 bm1 wm2 bm2) (vNorm (vComp v 0) (vComp v 1) (vComp v 2))
    (rowBlock wu1 0 64 (by omega)) (rowBlock wu1 64 64 (by omega)) (rowBlock wu1 128 64 (by omega)) (asRow bu1) wu2 (asRow bu2) n j

/-- The gate. -/
def gateAt (n : Fin 50000) (j : Fin 64) : EReal :=
  gate s (aggS s ei rbf kj ji ang wt1 bt1 wt2 bt2 wm1 bm1 wm2 bm2) (vNorm (vComp v 0) (vComp v 1) (vComp v 2))
    (rowBlock wg1 0 64 (by omega)) (rowBlock wg1 64 64 (by omega)) (rowBlock wg1 128 64 (by omega)) (asRow bg1) wg2 (asRow bg2) n j

/-- FIRST RESULT: the normalised new scalar features. -/
def outS : Mat 50000 64 := fun i =>
  normOut (fun q => sUpd s v ei rbf kj ji ang wt1 bt1 wt2 bt2 wm1 bm1 wm2 bm2 wu1 bu1 wu2 bu2 ⟨(i 0).val, (i 0).isLt⟩ q)
    (asRow lng) (asRow lnb) ⟨(i 1).val, (i 1).isLt⟩

/-- SECOND RESULT: the new vector features, v + gate · summed vector messages. -/
def outV : Arr3 50000 64 3 := fun i =>
  v i + gateAt s v ei rbf kj ji ang wt1 bt1 wt2 bt2 wm1 bm1 wm2 bm2 wg1 bg1 wg2 bg2 ⟨(i 0).val, (i 0).isLt⟩ ⟨(i 1).val, (i 1).isLt⟩
    * aggV s ei rbf dir kj ji ang wt1 bt1 wt2 bt2 wm1 bm1 wm2 bm2 ⟨(i 2).val, (i 2).isLt⟩ (ix2 ⟨(i 0).val, (i 0).isLt⟩ ⟨(i 1).val, (i 1).isLt⟩)

end Layer

end Cert.Spec

end
-- ==== Proof.KIValue2.lean ====
import proofs.«166758_j50929722196748_2_alg».proof.Proof.KIRegion2
import proofs.«166758_j50929722196748_2_alg».proof.Proof.Spec
import Idealize.ShloMosaic.Lib.Pipeline.Value
import Idealize.ShloMosaic.Lib.ValueIdx
import Idealize.ShloMosaic.Lib.ValueLayout
import Idealize.ShloMosaic.PureOps.Ideal.Laws

/-! # Region 2 at the ideal values: the output array in closed form

At the ideal instance a float is an extended real, every change of format is the identity and a matrix product
accumulated into zero is the plain sum over the contracted coordinate. So the value the body of region 2 stores, read at
row p and column j of the block, is the packed node row `nPack` of row p of the block's eight row-wise inputs: for
j < 64 the layer normalisation (row mean: the sum over the 64 columns divided by the word of 64.0; variance: the same of
the squared deviations; ε the word 0x3727C5AC), gain, offset and x · 1/(1 + e^{-x}) of the updated scalars
s + perceptron(s, agg, ‖v‖); for 64·g ≤ j < 64·(g+1), g = 1, 2, 3, the vector component v_g + gate · aggv_g at column
j − 64·g (`pay2_apply`). The block at grid point t of each row-wise window is rows 2000·t … 2000·t + 1999 of its array,
and the block of each weight, bias, gain or offset window is its whole array; the packed row at a row depends on the
row-wise inputs through that row alone (`nPack_congr`); so what point t writes back is rows 2000·t … of ONE function of
the arrays (`flushed2_eq`), the 25 points' blocks cover all 50000 rows (`rows_covered2`), and the output array ends
holding the packed node row of every row (`final2`). -/

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The operations of the body at an index -/

/-- A product of a 2000×64 by a 64×64 matrix accumulated into zero, read at (a, b): ∑_c A(a,c) · B(c,b). -/
theorem mm2_apply {φ₁ φ₂ : FTy} (A : FVec Ideal S2000x64 φ₁) (B : FVec Ideal S64x64 φ₂) (a : Fin 2000) (b : Fin 64) :
    matmul dot_S2000x64_S64x64_S2000x64_1_0_0_1_n_n none A B (constant S2000x64 .f32 0x00000000#32) (ix2 a b)
      = ∑ c : Fin 64, A (ix2 a c) * B (ix2 c b) := by
  show FloatOps.matmul _ none A B _ (ix2 a b) = _
  rw [Ideal.matmul_constant_zero_apply,
    ← Equiv.sum_comp (contrEquiv1 dot_S2000x64_S64x64_S2000x64_1_0_0_1_n_n 64 rfl rfl).symm]
  refine Finset.sum_congr rfl fun c _ => ?_
  have c2 := contrEquiv1_symm_val dot_S2000x64_S64x64_S2000x64_1_0_0_1_n_n 64 rfl rfl c
  have l2 : dot_S2000x64_S64x64_S2000x64_1_0_0_1_n_n.lhsIdx (ix2 a b) ((contrEquiv1 _ 64 rfl rfl).symm c) = ix2 a c := by
    funext ax; apply Fin.ext
    match ax with
    | ⟨0, _⟩ => simp [DotDims.lhsIdx, dot_S2000x64_S64x64_S2000x64_1_0_0_1_n_n]; rfl
    | ⟨1, _⟩ => simp [DotDims.lhsIdx, dot_S2000x64_S64x64_S2000x64_1_0_0_1_n_n]; exact c2
  have r2 : dot_S2000x64_S64x64_S2000x64_1_0_0_1_n_n.rhsIdx (ix2 a b) ((contrEquiv1 _ 64 rfl rfl).symm c) = ix2 c b := by
    funext ax; apply Fin.ext
    match ax with
    | ⟨0, _⟩ => simp [DotDims.rhsIdx, dot_S2000x64_S64x64_S2000x64_1_0_0_1_n_n]; exact c2
    | ⟨1, _⟩ => simp [DotDims.rhsIdx, dot_S2000x64_S64x64_S2000x64_1_0_0_1_n_n]; rfl
  rw [l2, r2]

/-- The logistic function, the square root and the reciprocal square root of a vector, at an index. -/
theorem logistic2_apply {s : Shape} {φ : FTy} (a : FVec Ideal s φ) (i : s.Idx) : logistic a i = Ideal.logistic (a i) := rfl
theorem sqrt2_apply {s : Shape} {φ : FTy} (a : FVec Ideal s φ) (i : s.Idx) : sqrt a i = Ideal.sqrt (a i) := rfl
theorem rsqrt2_apply {s : Shape} {φ : FTy} (a : FVec Ideal s φ) (i : s.Idx) : rsqrt a i = Ideal.rsqrt (a i) := rfl

/-- A column [2000,1] broadcast along the 64 columns reads, at (p, j), the column at row p. -/
theorem bcastCol2_apply (v : FVec Ideal S2000x1 .f32) (p : Fin 2000) (j : Fin 64) :
    broadcastTo S2000x64 v broadcasts_S2000x1_S2000x64 (ix2 p j) = v (ix2 p (0 : Fin 1)) := by
  refine broadcastTo_apply v _ (ix2 p j) (ix2 p (0 : Fin 1)) fun ax => ?_
  match ax with
  | ⟨0, _⟩ => rfl
  | ⟨1, _⟩ => rfl

/-- A vector of 2000 entries recast as a column [2000,1] reads, at (p, 0), entry p. -/
theorem colCast2_apply (v : FVec Ideal S2000 .f32) (p : Fin 2000) :
    shapeCast S2000x1 v shapeCasts_S2000_S2000x1 (ix2 p (0 : Fin 1)) = v (ix1 p) := by
  refine shapeCast_apply v _ (ix2 p (0 : Fin 1)) (ix1 p) ?_
  rw [Shape.rowMajor_val_one, Shape.rowMajor_val_two]
  show p.val = p.val * 1 + 0
  omega

/-- The sum of a 2000×64 block over its columns, read at row p: ∑_q x(p,q). -/
theorem rowSum2_apply (x : FVec Ideal S2000x64 .f32) (hφ : FTy.f32 = FTy.f32 ∨ FTy.f32 = FTy.bf16) (hacc : (0x00000000#32 : BitVec 32) = 0x00000000#32) (p : Fin 2000) :
    multiReduction .add [1] S2000 x 0x00000000#32 reduces_S2000x64_S2000 hφ hacc (ix1 p) = ∑ q : Fin 64, x (ix2 p q) := by
  refine (Ideal.multiReduction_add_single x 0x00000000#32 reduces_S2000x64_S2000 hφ hacc (ix1 p)).trans ?_
  refine Finset.sum_congr rfl fun q _ => congrArg x (funext fun c => Fin.ext ?_)
  match c with
  | ⟨0, _⟩ => rfl
  | ⟨1, _⟩ => rfl

/-! ## The node stage's packed row -/

/-- A gated vector channel at row r, column h: the old component plus the gate times the aggregated component. -/
def vNew {R : Nat} (v av : Cert.Spec.Mat R 64) (s aggs : Cert.Spec.Mat R 64) (vn : Fin R → Fin 64 → EReal)
    (w1 w2 w3 : Cert.Spec.Mat 64 64) (b1 : Cert.Spec.Mat 1 64) (wo : Cert.Spec.Mat 64 64) (bo : Cert.Spec.Mat 1 64) (r : Fin R) (h : Fin 64) : EReal :=
  v (ix2 r h) + Cert.Spec.gate s aggs vn w1 w2 w3 b1 wo bo r h * av (ix2 r h)

/-- The packed node row of 256 columns: the normalised, activated scalar update in the first 64 columns, then the three
    gated vector channels: column 64·g + h (g = 1, 2, 3) is component g − 1 of the new vector feature h. The arguments
    are in the order of the kernel's operands: the scalars, the aggregated scalars, the three vector components, the three
    aggregated vector components; the update perceptron's three first-layer blocks, its first bias, second layer and second
    bias; the gate perceptron's likewise; the normalisation's gain and offset. -/
def nPack {R : Nat} (s aggs vx vy vz ax ay az : Cert.Spec.Mat R 64) (wu1 wu2 wu3 : Cert.Spec.Mat 64 64) (bu1 : Cert.Spec.Mat 1 64)
    (wuo : Cert.Spec.Mat 64 64) (buo : Cert.Spec.Mat 1 64) (wg1 wg2 wg3 : Cert.Spec.Mat 64 64) (bg1 : Cert.Spec.Mat 1 64)
    (wgo : Cert.Spec.Mat 64 64) (bgo : Cert.Spec.Mat 1 64) (lng lnb : Cert.Spec.Mat 1 64) (r : Fin R) (j : Fin 256) : EReal :=
  if h : j.val < 64 then
    Cert.Spec.normOut (fun q => Cert.Spec.sNew s aggs (Cert.Spec.vNorm vx vy vz) wu1 wu2 wu3 bu1 wuo buo r q) lng lnb ⟨j.val, h⟩
  else if j.val < 128 then
    vNew vx ax s aggs (Cert.Spec.vNorm vx vy vz) wg1 wg2 wg3 bg1 wgo bgo r ⟨j.val % 64, Nat.mod_lt _ (by decide)⟩
  else if j.val < 192 then
    vNew vy ay s aggs (Cert.Spec.vNorm vx vy vz) wg1 wg2 wg3 bg1 wgo bgo r ⟨j.val % 64, Nat.mod_lt _ (by decide)⟩
  else
    vNew vz az s aggs (Cert.Spec.vNorm vx vy vz) wg1 wg2 wg3 bg1 wgo bgo r ⟨j.val % 64, Nat.mod_lt _ (by decide)⟩

/-! ## The payloads at an index -/

/-- The length of the 3-vector at (p, q). -/
theorem pay6_apply (vx vy vz : Vec Ideal S2000x64 .f32) (p : Fin 2000) (q : Fin 64) :
    k2_pay6 (F := Ideal) vx vy vz (ix2 p q) = Cert.Spec.vNorm (R := 2000) vx vy vz p q := by
  unfold k2_pay6 k2_pay1 k2_pay2 k2_pay3
  simp only [shapeCast_self, truncf_apply, sqrt2_apply, addf_apply, mulf_apply]
  rfl

/-- The update perceptron's activated hidden row at (p, k). Every format change is the identity on the extended reals,
    each matrix product into zero is its sum over the contracted coordinate, the bias is a row broadcast over the rows. -/
theorem pay7_apply (s aggs vx vy vz : Vec Ideal S2000x64 .f32) (w1 w2 w3 : Vec Ideal S64x64 .f32) (b1 : Vec Ideal S1x64 .f32)
    (p : Fin 2000) (k : Fin 64) :
    k2_pay7 (F := Ideal) s aggs vx vy vz w1 w2 w3 b1 (ix2 p k)
      = Cert.Spec.swish (Cert.Spec.nHid (R := 2000) s aggs (Cert.Spec.vNorm vx vy vz) w1 w2 w3 b1 p k) := by
  unfold k2_pay7 k2_pay4 k2_pay5
  simp only [shapeCast_self]
  simp only [addf_apply, mulf_apply, truncf_apply, logistic2_apply, mm2_apply, broadcastTo_1b_ab_apply, pay6_apply]
  unfold Cert.Spec.swish Cert.Spec.nHid Cert.Spec.rowDot
  rfl

/-- The updated scalars before normalisation at (p, j), from any activated hidden block `h`. -/
theorem pay8_apply (s : Vec Ideal S2000x64 .f32) (h : FVec Ideal S2000x64 .f32) (wo : Vec Ideal S64x64 .f32) (bo : Vec Ideal S1x64 .f32)
    (p : Fin 2000) (j : Fin 64) :
    k2_pay8 (F := Ideal) s h wo bo (ix2 p j) = s (ix2 p j) + ((∑ k : Fin 64, h (ix2 p k) * wo (ix2 k j)) + bo (ix2 (0 : Fin 1) j)) := by
  unfold k2_pay8
  simp only [shapeCast_self]
  simp only [addf_apply, truncf_apply, mm2_apply, broadcastTo_1b_ab_apply]

/-- The gate at (p, j), from the three rounded context pieces as the body holds them. -/
theorem pay9_apply (a b n : FVec Ideal S2000x64 .bf16) (w1 w2 w3 : Vec Ideal S64x64 .f32) (b1 : Vec Ideal S1x64 .f32)
    (wo : Vec Ideal S64x64 .f32) (bo : Vec Ideal S1x64 .f32) (p : Fin 2000) (j : Fin 64) :
    k2_pay9 (F := Ideal) a b n w1 w2 w3 b1 wo bo (ix2 p j)
      = Cert.Spec.gate (R := 2000) a b (fun r q => n (ix2 r q)) w1 w2 w3 b1 wo bo p j := by
  unfold k2_pay9
  simp only [shapeCast_self]
  simp only [addf_apply, mulf_apply, truncf_apply, logistic2_apply, mm2_apply, broadcastTo_1b_ab_apply]
  unfold Cert.Spec.gate Cert.Spec.outLayer Cert.Spec.swish Cert.Spec.nHid Cert.Spec.rowDot
  rfl

/-- The stored row at a column j below 64: the layer normalisation of the updated scalars' row, with gain and offset,
    then x · 1/(1 + e^{-x}). The row mean is the sum over the 64 columns divided by the word of 64.0, the variance the
    same of the squared deviations. -/
theorem pay10_apply_lo (v4 v6 v8 v46 v75 : FVec Ideal S2000x64 .f32) (v76 v80 v84 : Vec Ideal S2000x64 .f32) (g b : Vec Ideal S1x64 .f32)
    (p : Fin 2000) (j : Fin 256) (h0 : j.val < 64) :
    k2_pay10 (F := Ideal) v4 v6 v8 v46 v75 v76 v80 v84 g b (ix2 p j)
      = Cert.Spec.normOut (fun q => v46 (ix2 p q)) g b ⟨j.val, h0⟩ := by
  unfold k2_pay10
  refine (concatenate_apply_piece _ _ _ (ix2 p j) 0 (by show (0 : Nat) < 4; decide) S2000x64 _ rfl rfl 0 rfl (ix2 p (⟨j.val, h0⟩ : Fin 64)) ?_ ?_).trans ?_
  · intro b hb; match b with | ⟨0, _⟩ => rfl | ⟨1, _⟩ => exact absurd rfl hb
  · show 0 + j.val = j.val; omega
  · simp only [shapeCast_self]
    simp only [mulf_apply, logistic2_apply, addf_apply, subf_apply, broadcastTo_1b_ab_apply, bcastCol2_apply, rsqrt2_apply, divf_apply,
      colCast2_apply, broadcast_apply]
    repeat (first
      | rw [rowSum2_apply]
      | simp only [mulf_apply, subf_apply, bcastCol2_apply, divf_apply, colCast2_apply, broadcast_apply])
    unfold Cert.Spec.normOut Cert.Spec.swish Cert.Spec.var64 Cert.Spec.mean64
    rfl

/-- The stored row at column 64 + c: the first vector component's new value. -/
theorem pay10_apply_x (v4 v6 v8 v46 v75 : FVec Ideal S2000x64 .f32) (v76 v80 v84 : Vec Ideal S2000x64 .f32) (g b : Vec Ideal S1x64 .f32)
    (p : Fin 2000) (j : Fin 256) (c : Fin 64) (hj : j.val = 64 + c.val) :
    k2_pay10 (F := Ideal) v4 v6 v8 v46 v75 v76 v80 v84 g b (ix2 p j) = v4 (ix2 p c) + v75 (ix2 p c) * v76 (ix2 p c) := by
  unfold k2_pay10
  refine (concatenate_apply_piece _ _ _ (ix2 p j) 1 (by show (1 : Nat) < 4; decide) S2000x64 _ rfl rfl 64 rfl (ix2 p c) ?_ ?_).trans ?_
  · intro b hb; match b with | ⟨0, _⟩ => rfl | ⟨1, _⟩ => exact absurd rfl hb
  · show 64 + c.val = j.val; omega
  · simp only [shapeCast_self, addf_apply, mulf_apply]

/-- The stored row at column 128 + c: the second vector component's new value. -/
theorem pay10_apply_y (v4 v6 v8 v46 v75 : FVec Ideal S2000x64 .f32) (v76 v80 v84 : Vec Ideal S2000x64 .f32) (g b : Vec Ideal S1x64 .f32)
    (p : Fin 2000) (j : Fin 256) (c : Fin 64) (hj : j.val = 128 + c.val) :
    k2_pay10 (F := Ideal) v4 v6 v8 v46 v75 v76 v80 v84 g b (ix2 p j) = v6 (ix2 p c) + v75 (ix2 p c) * v80 (ix2 p c) := by
  unfold k2_pay10
  refine (concatenate_apply_piece _ _ _ (ix2 p j) 2 (by show (2 : Nat) < 4; decide) S2000x64 _ rfl rfl 128 rfl (ix2 p c) ?_ ?_).trans ?_
  · intro b hb; match b with | ⟨0, _⟩ => rfl | ⟨1, _⟩ => exact absurd rfl hb
  · show 128 + c.val = j.val; omega
  · simp only [shapeCast_self, addf_apply, mulf_apply]

/-- The stored row at column 192 + c: the third vector component's new value. -/
theorem pay10_apply_z (v4 v6 v8 v46 v75 : FVec Ideal S2000x64 .f32) (v76 v80 v84 : Vec Ideal S2000x64 .f32) (g b : Vec Ideal S1x64 .f32)
    (p : Fin 2000) (j : Fin 256) (c : Fin 64) (hj : j.val = 192 + c.val) :
    k2_pay10 (F := Ideal) v4 v6 v8 v46 v75 v76 v80 v84 g b (ix2 p j) = v8 (ix2 p c) + v75 (ix2 p c) * v84 (ix2 p c) := by
  unfold k2_pay10
  refine (concatenate_apply_piece _ _ _ (ix2 p j) 3 (by show (3 : Nat) < 4; decide) S2000x64 _ rfl rfl 192 rfl (ix2 p c) ?_ ?_).trans ?_
  · intro b hb; match b with | ⟨0, _⟩ => rfl | ⟨1, _⟩ => exact absurd rfl hb
  · show 192 + c.val = j.val; omega
  · simp only [shapeCast_self, addf_apply, mulf_apply]

/-! ## The payloads composed -/

/-- The three vector components pass through unchanged, and rounding to the short format is the identity on the
    extended reals. -/
theorem pay1_eq (x : Vec Ideal S2000x64 .f32) : k2_pay1 (F := Ideal) x = x := by unfold k2_pay1; exact shapeCast_self _ _
theorem pay2_eq (x : Vec Ideal S2000x64 .f32) : k2_pay2 (F := Ideal) x = x := by unfold k2_pay2; exact shapeCast_self _ _
theorem pay3_eq (x : Vec Ideal S2000x64 .f32) : k2_pay3 (F := Ideal) x = x := by unfold k2_pay3; exact shapeCast_self _ _
theorem pay4_apply (x : Vec Ideal S2000x64 .f32) (i : S2000x64.Idx) : k2_pay4 (F := Ideal) x i = x i := rfl
theorem pay5_apply (x : Vec Ideal S2000x64 .f32) (i : S2000x64.Idx) : k2_pay5 (F := Ideal) x i = x i := by
  unfold k2_pay5; rw [truncf_apply, shapeCast_self]

/-- The updated scalars before normalisation at (p, q), from the blocks. -/
theorem sNew2_apply (x0 x1 x2 x3 x4 : Vec Ideal S2000x64 .f32) (w1 w2 w3 : Vec Ideal S64x64 .f32) (b1 : Vec Ideal S1x64 .f32)
    (wo : Vec Ideal S64x64 .f32) (bo : Vec Ideal S1x64 .f32) (p : Fin 2000) (q : Fin 64) :
    k2_pay8 (F := Ideal) x0 (k2_pay7 x0 x1 x2 x3 x4 w1 w2 w3 b1) wo bo (ix2 p q)
      = Cert.Spec.sNew (R := 2000) x0 x1 (Cert.Spec.vNorm x2 x3 x4) w1 w2 w3 b1 wo bo p q := by
  rw [pay8_apply]
  simp only [pay7_apply]
  unfold Cert.Spec.sNew Cert.Spec.outLayer
  rfl

/-- The gate at (p, c), from the blocks. -/
theorem gate2_apply (x0 x1 x2 x3 x4 : Vec Ideal S2000x64 .f32) (w1 w2 w3 : Vec Ideal S64x64 .f32) (b1 : Vec Ideal S1x64 .f32)
    (wo : Vec Ideal S64x64 .f32) (bo : Vec Ideal S1x64 .f32) (p : Fin 2000) (c : Fin 64) :
    k2_pay9 (F := Ideal) (k2_pay4 x0) (k2_pay5 x1) (k2_pay6 x2 x3 x4) w1 w2 w3 b1 wo bo (ix2 p c)
      = Cert.Spec.gate (R := 2000) x0 x1 (Cert.Spec.vNorm x2 x3 x4) w1 w2 w3 b1 wo bo p c := by
  rw [pay9_apply]
  unfold Cert.Spec.gate Cert.Spec.outLayer Cert.Spec.nHid Cert.Spec.rowDot
  simp only [pay4_apply, pay5_apply, pay6_apply]

/-- THE STORED BLOCK AT AN INDEX: element (p, j) of what the body stores, the payloads composed as the store composes
    them, is the packed node row of row p of the eight row-blocked inputs, column j. -/
theorem pay2_apply (x0 x1 x2 x3 x4 x5 x6 x7 : Vec Ideal S2000x64 .f32) (x8 x9 x10 : Vec Ideal S64x64 .f32) (x11 : Vec Ideal S1x64 .f32)
    (x12 : Vec Ideal S64x64 .f32) (x13 : Vec Ideal S1x64 .f32) (x14 x15 x16 : Vec Ideal S64x64 .f32) (x17 : Vec Ideal S1x64 .f32)
    (x18 : Vec Ideal S64x64 .f32) (x19 x20 x21 : Vec Ideal S1x64 .f32) (p : Fin 2000) (j : Fin 256) :
    k2_pay10 (F := Ideal) (k2_pay1 x2) (k2_pay2 x3) (k2_pay3 x4) (k2_pay8 x0 (k2_pay7 x0 x1 x2 x3 x4 x8 x9 x10 x11) x12 x13)
        (k2_pay9 (k2_pay4 x0) (k2_pay5 x1) (k2_pay6 x2 x3 x4) x14 x15 x16 x17 x18 x19) x5 x6 x7 x20 x21 (ix2 p j)
      = nPack (R := 2000) x0 x1 x2 x3 x4 x5 x6 x7 x8 x9 x10 x11 x12 x13 x14 x15 x16 x17 x18 x19 x20 x21 p j := by
  unfold nPack
  by_cases h0 : j.val < 64
  · rw [dif_pos h0, pay10_apply_lo _ _ _ _ _ _ _ _ _ _ p j h0]
    exact congrArg (fun f => Cert.Spec.normOut f x20 x21 ⟨j.val, h0⟩) (funext fun q => sNew2_apply x0 x1 x2 x3 x4 x8 x9 x10 x11 x12 x13 p q)
  · rw [dif_neg h0]
    have hj : j.val < 256 := j.isLt
    by_cases h1 : j.val < 128
    · rw [if_pos h1, pay10_apply_x _ _ _ _ _ _ _ _ _ _ p j ⟨j.val % 64, Nat.mod_lt _ (by decide)⟩ (by show j.val = 64 + j.val % 64; omega),
        gate2_apply, pay1_eq]
      rfl
    · rw [if_neg h1]
      by_cases h2 : j.val < 192
      · rw [if_pos h2, pay10_apply_y _ _ _ _ _ _ _ _ _ _ p j ⟨j.val % 64, Nat.mod_lt _ (by decide)⟩ (by show j.val = 128 + j.val % 64; omega),
          gate2_apply, pay2_eq]
        rfl
      · rw [if_neg h2, pay10_apply_z _ _ _ _ _ _ _ _ _ _ p j ⟨j.val % 64, Nat.mod_lt _ (by decide)⟩ (by show j.val = 192 + j.val % 64; omega),
          gate2_apply, pay3_eq]
        rfl

/-- The same at any index of the block, by its two coordinates. -/
theorem pay2_apply_idx (x0 x1 x2 x3 x4 x5 x6 x7 : Vec Ideal S2000x64 .f32) (x8 x9 x10 : Vec Ideal S64x64 .f32) (x11 : Vec Ideal S1x64 .f32)
    (x12 : Vec Ideal S64x64 .f32) (x13 : Vec Ideal S1x64 .f32) (x14 x15 x16 : Vec Ideal S64x64 .f32) (x17 : Vec Ideal S1x64 .f32)
    (x18 : Vec Ideal S64x64 .f32) (x19 x20 x21 : Vec Ideal S1x64 .f32) (i : S2000x256.Idx) :
    k2_pay10 (F := Ideal) (k2_pay1 x2) (k2_pay2 x3) (k2_pay3 x4) (k2_pay8 x0 (k2_pay7 x0 x1 x2 x3 x4 x8 x9 x10 x11) x12 x13)
        (k2_pay9 (k2_pay4 x0) (k2_pay5 x1) (k2_pay6 x2 x3 x4) x14 x15 x16 x17 x18 x19) x5 x6 x7 x20 x21 i
      = nPack (R := 2000) x0 x1 x2 x3 x4 x5 x6 x7 x8 x9 x10 x11 x12 x13 x14 x15 x16 x17 x18 x19 x20 x21 (i 0) (i 1) := by
  obtain ⟨p, j, rfl⟩ : ∃ (p : Fin 2000) (j : Fin 256), i = ix2 p j := ⟨i 0, i 1, eq_ix2 i⟩
  exact pay2_apply x0 x1 x2 x3 x4 x5 x6 x7 x8 x9 x10 x11 x12 x13 x14 x15 x16 x17 x18 x19 x20 x21 p j

/-- The packed node row at a row depends on the eight row-wise inputs through that row alone: two families of inputs
    that agree on a row of each (and share the weights, biases, gain and offset) give that row the same packed row. -/
theorem nPack_congr {R R' : Nat} (s aggs vx vy vz ax ay az : Cert.Spec.Mat R 64) (s' aggs' vx' vy' vz' ax' ay' az' : Cert.Spec.Mat R' 64)
    (wu1 wu2 wu3 : Cert.Spec.Mat 64 64) (bu1 : Cert.Spec.Mat 1 64) (wuo : Cert.Spec.Mat 64 64) (buo : Cert.Spec.Mat 1 64)
    (wg1 wg2 wg3 : Cert.Spec.Mat 64 64) (bg1 : Cert.Spec.Mat 1 64) (wgo : Cert.Spec.Mat 64 64) (bgo : Cert.Spec.Mat 1 64) (lng lnb : Cert.Spec.Mat 1 64)
    (r : Fin R) (r' : Fin R') (hs : ∀ q, s (ix2 r q) = s' (ix2 r' q)) (haggs : ∀ q, aggs (ix2 r q) = aggs' (ix2 r' q))
    (hvx : ∀ q, vx (ix2 r q) = vx' (ix2 r' q)) (hvy : ∀ q, vy (ix2 r q) = vy' (ix2 r' q)) (hvz : ∀ q, vz (ix2 r q) = vz' (ix2 r' q))
    (hax : ∀ q, ax (ix2 r q) = ax' (ix2 r' q)) (hay : ∀ q, ay (ix2 r q) = ay' (ix2 r' q)) (haz : ∀ q, az (ix2 r q) = az' (ix2 r' q))
    (j j' : Fin 256) (hj : j = j') :
    nPack s aggs vx vy vz ax ay az wu1 wu2 wu3 bu1 wuo buo wg1 wg2 wg3 bg1 wgo bgo lng lnb r j = nPack s' aggs' vx' vy' vz' ax' ay' az' wu1 wu2 wu3 bu1 wuo buo wg1 wg2 wg3 bg1 wgo bgo lng lnb r' j' := by
  subst hj
  unfold nPack vNew Cert.Spec.normOut Cert.Spec.var64 Cert.Spec.mean64 Cert.Spec.swish Cert.Spec.sNew Cert.Spec.gate Cert.Spec.outLayer
    Cert.Spec.nHid Cert.Spec.rowDot Cert.Spec.vNorm
  simp only [hs, haggs, hvx, hvy, hvz, hax, hay, haz]

/-! ## From blocks to the array -/

section Final
-- the TensorCore's buffer contents when the region is entered, at the ideal values
variable (V : (c : Dev nD) → (b : Ref sig .tc) → Buf (Elt Ideal) ((c : Thread nD τ).loc b))

theorem hz2 : (![0, 0] : Fin 2 → Nat) = fun _ => 0 := funext fun a => by fin_cases a <;> rfl

/-! The printed index maps, decided over the grid: at point `t` a row-blocked window (the eight row inputs and the
    output) is at block row `t`, block column 0; a whole-array window is at block (0, 0). -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = t.val ∧ win2_3.index t (1 : Fin 2) = 0 :=
  (by decide +kernel : ∀ t : Fin grid2.N, _)
theorem idx2_4 : ∀ t : Fin cfg2.N, win2_4.index t (0 : Fin 2) = t.val ∧ win2_4.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)
theorem idx2_6 : ∀ t : Fin cfg2.N, win2_6.index t (0 : Fin 2) = t.val ∧ win2_6.index t (1 : Fin 2) = 0 :=
  (by decide +kernel : ∀ t : Fin grid2.N, _)
theorem idx2_7 : ∀ t : Fin cfg2.N, win2_7.index t (0 : Fin 2) = t.val ∧ win2_7.index t (1 : Fin 2) = 0 :=
  (by decide +kernel : ∀ t : Fin grid2.N, _)
theorem idx2_8 : ∀ t : Fin cfg2.N, win2_8.index t (0 : Fin 2) = 0 ∧ win2_8.index t (1 : Fin 2) = 0 :=
  (by decide +kernel : ∀ t : Fin grid2.N, _)
theorem idx2_9 : ∀ t : Fin cfg2.N, win2_9.index t (0 : Fin 2) = 0 ∧ win2_9.index t (1 : Fin 2) = 0 :=
  (by decide +kernel : ∀ t : Fin grid2.N, _)
theorem idx2_10 : ∀ t : Fin cfg2.N, win2_10.index t (0 : Fin 2) = 0 ∧ win2_10.index t (1 : Fin 2) = 0 :=
  (by decide +kernel : ∀ t : Fin grid2.N, _)
theorem idx2_11 : ∀ t : Fin cfg2.N, win2_11.index t (0 : Fin 2) = 0 ∧ win2_11.index t (1 : Fin 2) = 0 :=
  (by decide +kernel : ∀ t : Fin grid2.N, _)
theorem idx2_12 : ∀ t : Fin cfg2.N, win2_12.index t (0 : Fin 2) = 0 ∧ win2_12.index t (1 : Fin 2) = 0 :=
  (by decide +kernel : ∀ t : Fin grid2.N, _)
theorem idx2_13 : ∀ t : Fin cfg2.N, win2_13.index t (0 : Fin 2) = 0 ∧ win2_13.index t (1 : Fin 2) = 0 :=
  (by decide +kernel : ∀ t : Fin grid2.N, _)
theorem idx2_14 : ∀ t : Fin cfg2.N, win2_14.index t (0 : Fin 2) = 0 ∧ win2_14.index t (1 : Fin 2) = 0 :=
  (by decide +kernel : ∀ t : Fin grid2.N, _)
theorem idx2_15 : ∀ t : Fin cfg2.N, win2_15.index t (0 : Fin 2) = 0 ∧ win2_15.index t (1 : Fin 2) = 0 :=
  (by decide +kernel : ∀ t : Fin grid2.N, _)
theorem idx2_16 : ∀ t : Fin cfg2.N, win2_16.index t (0 : Fin 2) = 0 ∧ win2_16.index t (1 : Fin 2) = 0 :=
  (by decide +kernel : ∀ t : Fin grid2.N, _)
theorem idx2_17 : ∀ t : Fin cfg2.N, win2_17.index t (0 : Fin 2) = 0 ∧ win2_17.index t (1 : Fin 2) = 0 :=
  (by decide +kernel : ∀ t : Fin grid2.N, _)
theorem idx2_18 : ∀ t : Fin cfg2.N, win2_18.index t (0 : Fin 2) = 0 ∧ win2_18.index t (1 : Fin 2) = 0 :=
  (by decide +kernel : ∀ t : Fin grid2.N, _)
theorem idx2_19 : ∀ t : Fin cfg2.N, win2_19.index t (0 : Fin 2) = 0 ∧ win2_19.index t (1 : Fin 2) = 0 :=
  (by decide +kernel : ∀ t : Fin grid2.N, _)
theorem idx2_20 : ∀ t : Fin cfg2.N, win2_20.index t (0 : Fin 2) = 0 ∧ win2_20.index t (1 : Fin 2) = 0 :=
  (by decide +kernel : ∀ t : Fin grid2.N, _)
theorem idx2_21 : ∀ t : Fin cfg2.N, win2_21.index t (0 : Fin 2) = 0 ∧ win2_21.index t (1 : Fin 2) = 0 :=
  (by decide +kernel : ∀ t : Fin grid2.N, _)
theorem idx2_22 : ∀ t : Fin cfg2.N, win2_22.index t (0 : Fin 2) = t.val ∧ win2_22.index t (1 : Fin 2) = 0 :=
  (by decide +kernel : ∀ t : Fin grid2.N, _)

/-- Row `x 0` of window 0's block at point `t` is row `2000·t + x 0` of its array. -/
theorem iblk2_0_apply (c : Dev nD) (t : Fin cfg2.N) (x : S2000x64.Idx) (k : S50000x64.Idx)
    (hk0 : (k 0).val = 2000 * t.val + (x 0).val) (hk1 : (k 1).val = (x 1).val) :
    (iblk2 V c 0 t : Vec Ideal S2000x64 .f32) x = ((V c main_arg0) : S50000x64.Idx → EReal) k := by
  obtain ⟨e0, e1⟩ := idx2_0 t
  show ((V c main_arg0) : S50000x64.Idx → EReal) (((cfg2.win 0).blk t).view.emb x) = _
  congr 1
  funext a
  apply Fin.ext
  match a with
  | ⟨0, _⟩ => show win2_0.index t (0 : Fin 2) * 2000 + 1 * (x 0).val = (k 0).val; rw [e0, hk0]; omega
  | ⟨1, _⟩ => show win2_0.index t (1 : Fin 2) * 64 + 1 * (x 1).val = (k 1).val; rw [e1, hk1]; omega

/-- Row `x 0` of window 1's block at point `t` is row `2000·t + x 0` of its array. -/
theorem iblk2_1_apply (c : Dev nD) (t : Fin cfg2.N) (x : S2000x64.Idx) (k : S50000x64.Idx)
    (hk0 : (k 0).val = 2000 * t.val + (x 0).val) (hk1 : (k 1).val = (x 1).val) :
    (iblk2 V c 1 t : Vec Ideal S2000x64 .f32) x = ((V c main_v27) : S50000x64.Idx → EReal) k := by
  obtain ⟨e0, e1⟩ := idx2_1 t
  show ((V c main_v27) : S50000x64.Idx → EReal) (((cfg2.win 1).blk t).view.emb x) = _
  congr 1
  funext a
  apply Fin.ext
  match a with
  | ⟨0, _⟩ => show win2_1.index t (0 : Fin 2) * 2000 + 1 * (x 0).val = (k 0).val; rw [e0, hk0]; omega
  | ⟨1, _⟩ => show win2_1.index t (1 : Fin 2) * 64 + 1 * (x 1).val = (k 1).val; rw [e1, hk1]; omega

/-- Row `x 0` of window 2's block at point `t` is row `2000·t + x 0` of its array. -/
theorem iblk2_2_apply (c : Dev nD) (t : Fin cfg2.N) (x : S2000x64.Idx) (k : S50000x64.Idx)
    (hk0 : (k 0).val = 2000 * t.val + (x 0).val) (hk1 : (k 1).val = (x 1).val) :
    (iblk2 V c 2 t : Vec Ideal S2000x64 .f32) x = ((V c main_v32) : S50000x64.Idx → EReal) k := by
  obtain ⟨e0, e1⟩ := idx2_2 t
  show ((V c main_v32) : S50000x64.Idx → EReal) (((cfg2.win 2).blk t).view.emb x) = _
  congr 1
  funext a
  apply Fin.ext
  match a with
  | ⟨0, _⟩ => show win2_2.index t (0 : Fin 2) * 2000 + 1 * (x 0).val = (k 0).val; rw [e0, hk0]; omega
  | ⟨1, _⟩ => show win2_2.index t (1 : Fin 2) * 64 + 1 * (x 1).val = (k 1).val; rw [e1, hk1]; omega

/-- Row `x 0` of window 3's block at point `t` is row `2000·t + x 0` of its array. -/
theorem iblk2_3_apply (c : Dev nD) (t : Fin cfg2.N) (x : S2000x64.Idx) (k : S50000x64.Idx)
    (hk0 : (k 0).val = 2000 * t.val + (x 0).val) (hk1 : (k 1).val = (x 1).val) :
    (iblk2 V c 3 t : Vec Ideal S2000x64 .f32) x = ((V c main_v34) : S50000x64.Idx → EReal) k := by
  obtain ⟨e0, e1⟩ := idx2_3 t
  show ((V c main_v34) : S50000x64.Idx → EReal) (((cfg2.win 3).blk t).view.emb x) = _
  congr 1
  funext a
  apply Fin.ext
  match a with
  | ⟨0, _⟩ => show win2_3.index t (0 : Fin 2) * 2000 + 1 * (x 0).val = (k 0).val; rw [e0, hk0]; omega
  | ⟨1, _⟩ => show win2_3.index t (1 : Fin 2) * 64 + 1 * (x 1).val = (k 1).val; rw [e1, hk1]; omega

/-- Row `x 0` of window 4's block at point `t` is row `2000·t + x 0` of its array. -/
theorem iblk2_4_apply (c : Dev nD) (t : Fin cfg2.N) (x : S2000x64.Idx) (k : S50000x64.Idx)
    (hk0 : (k 0).val = 2000 * t.val + (x 0).val) (hk1 : (k 1).val = (x 1).val) :
    (iblk2 V c 4 t : Vec Ideal S2000x64 .f32) x = ((V c main_v36) : S50000x64.Idx → EReal) k := by
  obtain ⟨e0, e1⟩ := idx2_4 t
  show ((V c main_v36) : S50000x64.Idx → EReal) (((cfg2.win 4).blk t).view.emb x) = _
  congr 1
  funext a
  apply Fin.ext
  match a with
  | ⟨0, _⟩ => show win2_4.index t (0 : Fin 2) * 2000 + 1 * (x 0).val = (k 0).val; rw [e0, hk0]; omega
  | ⟨1, _⟩ => show win2_4.index t (1 : Fin 2) * 64 + 1 * (x 1).val = (k 1).val; rw [e1, hk1]; omega

/-- Row `x 0` of window 5's block at point `t` is row `2000·t + x 0` of its array. -/
theorem iblk2_5_apply (c : Dev nD) (t : Fin cfg2.N) (x : S2000x64.Idx) (k : S50000x64.Idx)
    (hk0 : (k 0).val = 2000 * t.val + (x 0).val) (hk1 : (k 1).val = (x 1).val) :
    (iblk2 V c 5 t : Vec Ideal S2000x64 .f32) x = ((V c main_v28) : S50000x64.Idx → EReal) k := by
  obtain ⟨e0, e1⟩ := idx2_5 t
  show ((V c main_v28) : S50000x64.Idx → EReal) (((cfg2.win 5).blk t).view.emb x) = _
  congr 1
  funext a
  apply Fin.ext
  match a with
  | ⟨0, _⟩ => show win2_5.index t (0 : Fin 2) * 2000 + 1 * (x 0).val = (k 0).val; rw [e0, hk0]; omega
  | ⟨1, _⟩ => show win2_5.index t (1 : Fin 2) * 64 + 1 * (x 1).val = (k 1).val; rw [e1, hk1]; omega

/-- Row `x 0` of window 6's block at point `t` is row `2000·t + x 0` of its array. -/
theorem iblk2_6_apply (c : Dev nD) (t : Fin cfg2.N) (x : S2000x64.Idx) (k : S50000x64.Idx)
    (hk0 : (k 0).val = 2000 * t.val + (x 0).val) (hk1 : (k 1).val = (x 1).val) :
    (iblk2 V c 6 t : Vec Ideal S2000x64 .f32) x = ((V c main_v29) : S50000x64.Idx → EReal) k := by
  obtain ⟨e0, e1⟩ := idx2_6 t
  show ((V c main_v29) : S50000x64.Idx → EReal) (((cfg2.win 6).blk t).view.emb x) = _
  congr 1
  funext a
  apply Fin.ext
  match a with
  | ⟨0, _⟩ => show win2_6.index t (0 : Fin 2) * 2000 + 1 * (x 0).val = (k 0).val; rw [e0, hk0]; omega
  | ⟨1, _⟩ => show win2_6.index t (1 : Fin 2) * 64 + 1 * (x 1).val = (k 1).val; rw [e1, hk1]; omega

/-- Row `x 0` of window 7's block at point `t` is row `2000·t + x 0` of its array. -/
theorem iblk2_7_apply (c : Dev nD) (t : Fin cfg2.N) (x : S2000x64.Idx) (k : S50000x64.Idx)
    (hk0 : (k 0).val = 2000 * t.val + (x 0).val) (hk1 : (k 1).val = (x 1).val) :
    (iblk2 V c 7 t : Vec Ideal S2000x64 .f32) x = ((V c main_v30) : S50000x64.Idx → EReal) k := by
  obtain ⟨e0, e1⟩ := idx2_7 t
  show ((V c main_v30) : S50000x64.Idx → EReal) (((cfg2.win 7).blk t).view.emb x) = _
  congr 1
  funext a
  apply Fin.ext
  match a with
  | ⟨0, _⟩ => show win2_7.index t (0 : Fin 2) * 2000 + 1 * (x 0).val = (k 0).val; rw [e0, hk0]; omega
  | ⟨1, _⟩ => show win2_7.index t (1 : Fin 2) * 64 + 1 * (x 1).val = (k 1).val; rw [e1, hk1]; omega

/-- Window 8's block at every point is its whole array. -/
theorem iblk2_8_eq (c : Dev nD) (t : Fin cfg2.N) :
    (iblk2 V c 8 t : Vec Ideal S64x64 .f32) = ((V c main_v37) : S64x64.Idx → EReal) := by
  obtain ⟨e0, e1⟩ := idx2_8 t
  funext x
  show ((V c main_v37) : S64x64.Idx → EReal) (((cfg2.win 8).blk t).view.emb x) = _
  congr 1
  funext a
  apply Fin.ext
  match a with
  | ⟨0, _⟩ => show win2_8.index t (0 : Fin 2) * 64 + 1 * (x 0).val = (x 0).val; rw [e0]; omega
  | ⟨1, _⟩ => show win2_8.index t (1 : Fin 2) * 64 + 1 * (x 1).val = (x 1).val; rw [e1]; omega

/-- Window 9's block at every point is its whole array. -/
theorem iblk2_9_eq (c : Dev nD) (t : Fin cfg2.N) :
    (iblk2 V c 9 t : Vec Ideal S64x64 .f32) = ((V c main_v38) : S64x64.Idx → EReal) := by
  obtain ⟨e0, e1⟩ := idx2_9 t
  funext x
  show ((V c main_v38) : S64x64.Idx → EReal) (((cfg2.win 9).blk t).view.emb x) = _
  congr 1
  funext a
  apply Fin.ext
  match a with
  | ⟨0, _⟩ => show win2_9.index t (0 : Fin 2) * 64 + 1 * (x 0).val = (x 0).val; rw [e0]; omega
  | ⟨1, _⟩ => show win2_9.index t (1 : Fin 2) * 64 + 1 * (x 1).val = (x 1).val; rw [e1]; omega

/-- Window 10's block at every point is its whole array. -/
theorem iblk2_10_eq (c : Dev nD) (t : Fin cfg2.N) :
    (iblk2 V c 10 t : Vec Ideal S64x64 .f32) = ((V c main_v39) : S64x64.Idx → EReal) := by
  obtain ⟨e0, e1⟩ := idx2_10 t
  funext x
  show ((V c main_v39) : S64x64.Idx → EReal) (((cfg2.win 10).blk t).view.emb x) = _
  congr 1
  funext a
  apply Fin.ext
  match a with
  | ⟨0, _⟩ => show win2_10.index t (0 : Fin 2) * 64 + 1 * (x 0).val = (x 0).val; rw [e0]; omega
  | ⟨1, _⟩ => show win2_10.index t (1 : Fin 2) * 64 + 1 * (x 1).val = (x 1).val; rw [e1]; omega

/-- Window 11's block at every point is its whole array. -/
theorem iblk2_11_eq (c : Dev nD) (t : Fin cfg2.N) :
    (iblk2 V c 11 t : Vec Ideal S1x64 .f32) = ((V c main_v43) : S1x64.Idx → EReal) := by
  obtain ⟨e0, e1⟩ := idx2_11 t
  funext x
  show ((V c main_v43) : S1x64.Idx → EReal) (((cfg2.win 11).blk t).view.emb x) = _
  congr 1
  funext a
  apply Fin.ext
  match a with
  | ⟨0, _⟩ => show win2_11.index t (0 : Fin 2) * 1 + 1 * (x 0).val = (x 0).val; rw [e0]; omega
  | ⟨1, _⟩ => show win2_11.index t (1 : Fin 2) * 64 + 1 * (x 1).val = (x 1).val; rw [e1]; omega

/-- Window 12's block at every point is its whole array. -/
theorem iblk2_12_eq (c : Dev nD) (t : Fin cfg2.N) :
    (iblk2 V c 12 t : Vec Ideal S64x64 .f32) = ((V c main_arg18) : S64x64.Idx → EReal) := by
  obtain ⟨e0, e1⟩ := idx2_12 t
  funext x
  show ((V c main_arg18) : S64x64.Idx → EReal) (((cfg2.win 12).blk t).view.emb x) = _
  congr 1
  funext a
  apply Fin.ext
  match a with
  | ⟨0, _⟩ => show win2_12.index t (0 : Fin 2) * 64 + 1 * (x 0).val = (x 0).val; rw [e0]; omega
  | ⟨1, _⟩ => show win2_12.index t (1 : Fin 2) * 64 + 1 * (x 1).val = (x 1).val; rw [e1]; omega

/-- Window 13's block at every point is its whole array. -/
theorem iblk2_13_eq (c : Dev nD) (t : Fin cfg2.N) :
    (iblk2 V c 13 t : Vec Ideal S1x64 .f32) = ((V c main_v44) : S1x64.Idx → EReal) := by
  obtain ⟨e0, e1⟩ := idx2_13 t
  funext x
  show ((V c main_v44) : S1x64.Idx → EReal) (((cfg2.win 13).blk t).view.emb x) = _
  congr 1
  funext a
  apply Fin.ext
  match a with
  | ⟨0, _⟩ => show win2_13.index t (0 : Fin 2) * 1 + 1 * (x 0).val = (x 0).val; rw [e0]; omega
  | ⟨1, _⟩ => show win2_13.index t (1 : Fin 2) * 64 + 1 * (x 1).val = (x 1).val; rw [e1]; omega

/-- Window 14's block at every point is its whole array. -/
theorem iblk2_14_eq (c : Dev nD) (t : Fin cfg2.N) :
    (iblk2 V c 14 t : Vec Ideal S64x64 .f32) = ((V c main_v40) : S64x64.Idx → EReal) := by
  obtain ⟨e0, e1⟩ := idx2_14 t
  funext x
  show ((V c main_v40) : S64x64.Idx → EReal) (((cfg2.win 14).blk t).view.emb x) = _
  congr 1
  funext a
  apply Fin.ext
  match a with
  | ⟨0, _⟩ => show win2_14.index t (0 : Fin 2) * 64 + 1 * (x 0).val = (x 0).val; rw [e0]; omega
  | ⟨1, _⟩ => show win2_14.index t (1 : Fin 2) * 64 + 1 * (x 1).val = (x 1).val; rw [e1]; omega

/-- Window 15's block at every point is its whole array. -/
theorem iblk2_15_eq (c : Dev nD) (t : Fin cfg2.N) :
    (iblk2 V c 15 t : Vec Ideal S64x64 .f32) = ((V c main_v41) : S64x64.Idx → EReal) := by
  obtain ⟨e0, e1⟩ := idx2_15 t
  funext x
  show ((V c main_v41) : S64x64.Idx → EReal) (((cfg2.win 15).blk t).view.emb x) = _
  congr 1
  funext a
  apply Fin.ext
  match a with
  | ⟨0, _⟩ => show win2_15.index t (0 : Fin 2) * 64 + 1 * (x 0).val = (x 0).val; rw [e0]; omega
  | ⟨1, _⟩ => show win2_15.index t (1 : Fin 2) * 64 + 1 * (x 1).val = (x 1).val; rw [e1]; omega

/-- Window 16's block at every point is its whole array. -/
theorem iblk2_16_eq (c : Dev nD) (t : Fin cfg2.N) :
    (iblk2 V c 16 t : Vec Ideal S64x64 .f32) = ((V c main_v42) : S64x64.Idx → EReal) := by
  obtain ⟨e0, e1⟩ := idx2_16 t
  funext x
  show ((V c main_v42) : S64x64.Idx → EReal) (((cfg2.win 16).blk t).view.emb x) = _
  congr 1
  funext a
  apply Fin.ext
  match a with
  | ⟨0, _⟩ => show win2_16.index t (0 : Fin 2) * 64 + 1 * (x 0).val = (x 0).val; rw [e0]; omega
  | ⟨1, _⟩ => show win2_16.index t (1 : Fin 2) * 64 + 1 * (x 1).val = (x 1).val; rw [e1]; omega

/-- Window 17's block at every point is its whole array. -/
theorem iblk2_17_eq (c : Dev nD) (t : Fin cfg2.N) :
    (iblk2 V c 17 t : Vec Ideal S1x64 .f32) = ((V c main_v45) : S1x64.Idx → EReal) := by
  obtain ⟨e0, e1⟩ := idx2_17 t
  funext x
  show ((V c main_v45) : S1x64.Idx → EReal) (((cfg2.win 17).blk t).view.emb x) = _
  congr 1
  funext a
  apply Fin.ext
  match a with
  | ⟨0, _⟩ => show win2_17.index t (0 : Fin 2) * 1 + 1 * (x 0).val = (x 0).val; rw [e0]; omega
  | ⟨1, _⟩ => show win2_17.index t (1 : Fin 2) * 64 + 1 * (x 1).val = (x 1).val; rw [e1]; omega

/-- Window 18's block at every point is its whole array. -/
theorem iblk2_18_eq (c : Dev nD) (t : Fin cfg2.N) :
    (iblk2 V c 18 t : Vec Ideal S64x64 .f32) = ((V c main_arg22) : S64x64.Idx → EReal) := by
  obtain ⟨e0, e1⟩ := idx2_18 t
  funext x
  show ((V c main_arg22) : S64x64.Idx → EReal) (((cfg2.win 18).blk t).view.emb x) = _
  congr 1
  funext a
  apply Fin.ext
  match a with
  | ⟨0, _⟩ => show win2_18.index t (0 : Fin 2) * 64 + 1 * (x 0).val = (x 0).val; rw [e0]; omega
  | ⟨1, _⟩ => show win2_18.index t (1 : Fin 2) * 64 + 1 * (x 1).val = (x 1).val; rw [e1]; omega

/-- Window 19's block at every point is its whole array. -/
theorem iblk2_19_eq (c : Dev nD) (t : Fin cfg2.N) :
    (iblk2 V c 19 t : Vec Ideal S1x64 .f32) = ((V c main_v46) : S1x64.Idx → EReal) := by
  obtain ⟨e0, e1⟩ := idx2_19 t
  funext x
  show ((V c main_v46) : S1x64.Idx → EReal) (((cfg2.win 19).blk t).view.emb x) = _
  congr 1
  funext a
  apply Fin.ext
  match a with
  | ⟨0, _⟩ => show win2_19.index t (0 : Fin 2) * 1 + 1 * (x 0).val = (x 0).val; rw [e0]; omega
  | ⟨1, _⟩ => show win2_19.index t (1 : Fin 2) * 64 + 1 * (x 1).val = (x 1).val; rw [e1]; omega

/-- Window 20's block at every point is its whole array. -/
theorem iblk2_20_eq (c : Dev nD) (t : Fin cfg2.N) :
    (iblk2 V c 20 t : Vec Ideal S1x64 .f32) = ((V c main_v47) : S1x64.Idx → EReal) := by
  obtain ⟨e0, e1⟩ := idx2_20 t
  funext x
  show ((V c main_v47) : S1x64.Idx → EReal) (((cfg2.win 20).blk t).view.emb x) = _
  congr 1
  funext a
  apply Fin.ext
  match a with
  | ⟨0, _⟩ => show win2_20.index t (0 : Fin 2) * 1 + 1 * (x 0).val = (x 0).val; rw [e0]; omega
  | ⟨1, _⟩ => show win2_20.index t (1 : Fin 2) * 64 + 1 * (x 1).val = (x 1).val; rw [e1]; omega

/-- Window 21's block at every point is its whole array. -/
theorem iblk2_21_eq (c : Dev nD) (t : Fin cfg2.N) :
    (iblk2 V c 21 t : Vec Ideal S1x64 .f32) = ((V c main_v48) : S1x64.Idx → EReal) := by
  obtain ⟨e0, e1⟩ := idx2_21 t
  funext x
  show ((V c main_v48) : S1x64.Idx → EReal) (((cfg2.win 21).blk t).view.emb x) = _
  congr 1
  funext a
  apply Fin.ext
  match a with
  | ⟨0, _⟩ => show win2_21.index t (0 : Fin 2) * 1 + 1 * (x 0).val = (x 0).val; rw [e0]; omega
  | ⟨1, _⟩ => show win2_21.index t (1 : Fin 2) * 64 + 1 * (x 1).val = (x 1).val; rw [e1]; omega

/-- What the output array ends holding: at row r, column j, the packed node row of row r of the eight row-wise input
    arrays, with the weights, biases, gain and offset as the region finds them. -/
abbrev G2 (c : Dev nD) : S50000x256.Idx → EReal := fun i =>
  nPack (R := 50000) (V c main_arg0) (V c main_v27) (V c main_v32) (V c main_v34) (V c main_v36) (V c main_v28) (V c main_v29) (V c main_v30) (V c main_v37) (V c main_v38) (V c main_v39) (V c main_v43) (V c main_arg18) (V c main_v44) (V c main_v40) (V c main_v41) (V c main_v42) (V c main_v45) (V c main_arg22) (V c main_v46) (V c main_v47) (V c main_v48) (i 0) (i 1)

/-- WHAT POINT `t` WRITES BACK is block `t` of `G2`: rows 2000·t … 2000·t + 1999. -/
theorem flushed2_eq (c : Dev nD) (t : Fin cfg2.N) :
    (dat2 (F := Ideal) V c).flushed 22 t = ((cfg2.win 22).blk t).view.read (Elt Ideal) (G2 V c) := by
  show (cfg2.win 22).cut (grid2.coords t) ((dat2 V c).after 22 t) = _
  rw [after2_22]
  unfold out2_22
  rw [View.canon_unit_zero hz2]
  simp only [View.ld_unit_zero (S := S2000x64) hz2, View.ld_unit_zero (S := S64x64) hz2, View.ld_unit_zero (S := S1x64) hz2]
  rw [iblk2_8_eq V c t, iblk2_9_eq V c t, iblk2_10_eq V c t, iblk2_11_eq V c t, iblk2_12_eq V c t, iblk2_13_eq V c t, iblk2_14_eq V c t, iblk2_15_eq V c t, iblk2_16_eq V c t, iblk2_17_eq V c t, iblk2_18_eq V c t, iblk2_19_eq V c t, iblk2_20_eq V c t, iblk2_21_eq V c t]
  obtain ⟨e0, e1⟩ := idx2_22 t
  funext j
  show k2_pay10 (F := Ideal) (k2_pay1 (iblk2 V c 2 t)) (k2_pay2 (iblk2 V c 3 t)) (k2_pay3 (iblk2 V c 4 t)) (k2_pay8 (iblk2 V c 0 t) (k2_pay7 (iblk2 V c 0 t) (iblk2 V c 1 t) (iblk2 V c 2 t) (iblk2 V c 3 t) (iblk2 V c 4 t) (V c main_v37) (V c main_v38) (V c main_v39) (V c main_v43)) (V c main_arg18) (V c main_v44))
      (k2_pay9 (k2_pay4 (iblk2 V c 0 t)) (k2_pay5 (iblk2 V c 1 t)) (k2_pay6 (iblk2 V c 2 t) (iblk2 V c 3 t) (iblk2 V c 4 t)) (V c main_v40) (V c main_v41) (V c main_v42) (V c main_v45) (V c main_arg22) (V c main_v46)) (iblk2 V c 5 t) (iblk2 V c 6 t) (iblk2 V c 7 t) (V c main_v47) (V c main_v48) j
    = G2 V c (((cfg2.win 22).blk t).view.emb j)
  rw [pay2_apply_idx]
  have r0 : ((((cfg2.win 22).blk t).view.emb j) 0).val = 2000 * t.val + (j 0).val := by
    show win2_22.index t (0 : Fin 2) * 2000 + 1 * (j 0).val = _; rw [e0]; omega
  have r1 : ((((cfg2.win 22).blk t).view.emb j) 1).val = (j 1).val := by
    show win2_22.index t (1 : Fin 2) * 256 + 1 * (j 1).val = _; rw [e1]; omega
  exact nPack_congr _ _ _ _ _ _ _ _ _ _ _ _ _ _ _ _ _ _ _ _ _ _ _ _ _ _ _ _ _ _ (j 0) _
    (fun q => iblk2_0_apply V c t _ _ r0 rfl) (fun q => iblk2_1_apply V c t _ _ r0 rfl) (fun q => iblk2_2_apply V c t _ _ r0 rfl) (fun q => iblk2_3_apply V c t _ _ r0 rfl) (fun q => iblk2_4_apply V c t _ _ r0 rfl) (fun q => iblk2_5_apply V c t _ _ r0 rfl) (fun q => iblk2_6_apply V c t _ _ r0 rfl) (fun q => iblk2_7_apply V c t _ _ r0 rfl)
    (j 1) _ (Fin.ext r1.symm)

/-- An index of the array is in point `t`'s block iff each coordinate is in the block's range on its axis. -/
theorem mem_blk2_22 (t : Fin cfg2.N) (i : S50000x256.Idx) :
    i ∈ ((cfg2.win 22).blk t).view.set ↔ ∀ a : Fin 2, win2_22.index t a * S2000x256.size a ≤ (i a).val ∧ (i a).val < win2_22.index t a * S2000x256.size a + S2000x256.size a := by
  show i ∈ ((View.whole main_v49).slice (win2_22.rect t)).set ↔ _
  rw [View.set_slice_whole, Rect.mem_set_unit]
  exact Iff.rfl

/-- Every index of the output array is in some point's block: row r is in the block of point r / 2000. -/
theorem rows_covered2 (i : S50000x256.Idx) :
    ∃ t : Fin cfg2.N, (cfg2.win 22).flush t = true ∧ i ∈ ((cfg2.win 22).blk t).view.set := by
  have hi0 : (i 0).val < 50000 := (i 0).isLt
  have hi1 : (i 1).val < 256 := (i 1).isLt
  have ht : (i 0).val / 2000 < cfg2.N := by show _ < grid2.N; rw [N_2]; omega
  obtain ⟨e0, e1⟩ := idx2_22 ⟨(i 0).val / 2000, ht⟩
  refine ⟨⟨(i 0).val / 2000, ht⟩, flush2_22 _, ?_⟩
  rw [mem_blk2_22]
  intro a
  match a with
  | ⟨0, _⟩ =>
    show win2_22.index ⟨(i 0).val / 2000, ht⟩ (0 : Fin 2) * 2000 ≤ (i 0).val ∧ (i 0).val < win2_22.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_22.index ⟨(i 0).val / 2000, ht⟩ (1 : Fin 2) * 256 ≤ (i 1).val ∧ (i 1).val < win2_22.index ⟨(i 0).val / 2000, ht⟩ (1 : Fin 2) * 256 + 256
    rw [e1]; omega

/-- THE OUTPUT ARRAY after the region: the packed node row of every row (each input array by its name). -/
theorem final2_named (c : Dev nD) : (dat2 (F := Ideal) V c).arrAt 22 cfg2.N = fun i =>
    nPack (R := 50000) (V c main_arg0) (V c main_v27) (V c main_v32) (V c main_v34) (V c main_v36) (V c main_v28) (V c main_v29) (V c main_v30) (V c main_v37) (V c main_v38) (V c main_v39) (V c main_v43) (V c main_arg18) (V c main_v44) (V c main_v40) (V c main_v41) (V c main_v42) (V c main_v45) (V c main_arg22) (V c main_v46) (V c main_v47) (V c main_v48) (i 0) (i 1) :=
  (dat2 V c).arrAt_eq_of_cover 22 (G2 V c) (fun t _ => flushed2_eq V c t) (rows_covered2)

/-- THE OUTPUT ARRAY after the region: the packed node row of every row, each input array named as its window's
    (window w's array is the buffer the name above denotes, by unfolding). -/
theorem final2 (c : Dev nD) : (dat2 (F := Ideal) V c).arrAt 22 cfg2.N = fun i =>
    nPack (R := 50000) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) (V c (Pipeline.arrRef spec2 14)) (V c (Pipeline.arrRef spec2 15)) (V c (Pipeline.arrRef spec2 16)) (V c (Pipeline.arrRef spec2 17)) (V c (Pipeline.arrRef spec2 18)) (V c (Pipeline.arrRef spec2 19)) (V c (Pipeline.arrRef spec2 20)) (V c (Pipeline.arrRef spec2 21)) (i 0) (i 1) :=
  final2_named V c

end Final

end Cert.KernelIdeal.Hand

end
-- ==== Proof.KIValue0.lean ====
import proofs.«166758_j50929722196748_2_alg».proof.Proof.KIRegion0
import proofs.«166758_j50929722196748_2_alg».proof.Proof.Spec
import Idealize.ShloMosaic.Lib.Pipeline.Value
import Idealize.ShloMosaic.Lib.ValueIdx
import Idealize.ShloMosaic.Lib.ValueLayout
import Idealize.ShloMosaic.PureOps.Ideal.Laws

/-! # Region 0 at the ideal values: the output array in closed form

At the ideal instance a float is an extended real, every change of format is the identity and a matrix product
accumulated into zero is the plain sum over the contracted coordinate. So the value the body of region 0 stores, read
at row p and column q of the block, is

  (∑_k swish(h k) · W2(k,q)) + b2(0,q),   h k = ((∑_a kj(p,a)·Wa(a,k) + ∑_a ji(p,a)·Wb(a,k)) + ∑_a ang(p,a)·Wc(a,k)) + b1(0,k),

with swish x = x · 1/(1 + e^{-x}): the triplet message `Cert.Spec.tMsg` of row p of the block's three row-wise inputs
(`pay0_1_apply`). The block at grid point t of each row-wise window is rows 6400·t … 6400·t + 6399 of its array, and the
block of each weight or bias window is its whole array; the message at a row depends on the row-wise inputs through
that row alone (`tMsg_congr0`); so what point t writes back is rows 6400·t … of ONE function of the arrays
(`flushed0_eq`), the 125 points' blocks cover all 800000 rows (`covered0_9`), and the output array ends holding the
triplet message of every row (`final0`). -/

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The payload at an index -/

/-- A product of a 6400×64 by a 64×64 matrix accumulated into zero, read at (a, b): ∑_c A(a,c) · B(c,b). -/
theorem mm64_apply0 {φ₁ φ₂ : FTy} (A : FVec Ideal S6400x64 φ₁) (B : FVec Ideal S64x64 φ₂) (a : Fin 6400) (b : Fin 64) :
    matmul dot_S6400x64_S64x64_S6400x64_1_0_0_1_n_n none A B (constant S6400x64 .f32 0x00000000#32) (ix2 a b)
      = ∑ c : Fin 64, A (ix2 a c) * B (ix2 c b) := by
  show FloatOps.matmul _ none A B _ (ix2 a b) = _
  rw [Ideal.matmul_constant_zero_apply,
    ← Equiv.sum_comp (contrEquiv1 dot_S6400x64_S64x64_S6400x64_1_0_0_1_n_n 64 rfl rfl).symm]
  refine Finset.sum_congr rfl fun c _ => ?_
  have c2 := contrEquiv1_symm_val dot_S6400x64_S64x64_S6400x64_1_0_0_1_n_n 64 rfl rfl c
  have l2 : dot_S6400x64_S64x64_S6400x64_1_0_0_1_n_n.lhsIdx (ix2 a b) ((contrEquiv1 _ 64 rfl rfl).symm c) = ix2 a c := by
    funext ax; apply Fin.ext
    match ax with
    | ⟨0, _⟩ => simp [DotDims.lhsIdx, dot_S6400x64_S64x64_S6400x64_1_0_0_1_n_n]; rfl
    | ⟨1, _⟩ => simp [DotDims.lhsIdx, dot_S6400x64_S64x64_S6400x64_1_0_0_1_n_n]; exact c2
  have r2 : dot_S6400x64_S64x64_S6400x64_1_0_0_1_n_n.rhsIdx (ix2 a b) ((contrEquiv1 _ 64 rfl rfl).symm c) = ix2 c b := by
    funext ax; apply Fin.ext
    match ax with
    | ⟨0, _⟩ => simp [DotDims.rhsIdx, dot_S6400x64_S64x64_S6400x64_1_0_0_1_n_n]; exact c2
    | ⟨1, _⟩ => simp [DotDims.rhsIdx, dot_S6400x64_S64x64_S6400x64_1_0_0_1_n_n]; rfl
  rw [l2, r2]

/-- A product of a 6400×16 by a 16×64 matrix accumulated into zero, read at (a, b): ∑_c A(a,c) · B(c,b). -/
theorem mm16_apply0 {φ₁ φ₂ : FTy} (A : FVec Ideal S6400x16 φ₁) (B : FVec Ideal S16x64 φ₂) (a : Fin 6400) (b : Fin 64) :
    matmul dot_S6400x16_S16x64_S6400x64_1_0_0_1_n_n none A B (constant S6400x64 .f32 0x00000000#32) (ix2 a b)
      = ∑ c : Fin 16, A (ix2 a c) * B (ix2 c b) := by
  show FloatOps.matmul _ none A B _ (ix2 a b) = _
  rw [Ideal.matmul_constant_zero_apply,
    ← Equiv.sum_comp (contrEquiv1 dot_S6400x16_S16x64_S6400x64_1_0_0_1_n_n 16 rfl rfl).symm]
  refine Finset.sum_congr rfl fun c _ => ?_
  have c2 := contrEquiv1_symm_val dot_S6400x16_S16x64_S6400x64_1_0_0_1_n_n 16 rfl rfl c
  have l2 : dot_S6400x16_S16x64_S6400x64_1_0_0_1_n_n.lhsIdx (ix2 a b) ((contrEquiv1 _ 16 rfl rfl).symm c) = ix2 a c := by
    funext ax; apply Fin.ext
    match ax with
    | ⟨0, _⟩ => simp [DotDims.lhsIdx, dot_S6400x16_S16x64_S6400x64_1_0_0_1_n_n]; rfl
    | ⟨1, _⟩ => simp [DotDims.lhsIdx, dot_S6400x16_S16x64_S6400x64_1_0_0_1_n_n]; exact c2
  have r2 : dot_S6400x16_S16x64_S6400x64_1_0_0_1_n_n.rhsIdx (ix2 a b) ((contrEquiv1 _ 16 rfl rfl).symm c) = ix2 c b := by
    funext ax; apply Fin.ext
    match ax with
    | ⟨0, _⟩ => simp [DotDims.rhsIdx, dot_S6400x16_S16x64_S6400x64_1_0_0_1_n_n]; exact c2
    | ⟨1, _⟩ => simp [DotDims.rhsIdx, dot_S6400x16_S16x64_S6400x64_1_0_0_1_n_n]; rfl
  rw [l2, r2]

/-- The logistic of a vector, read at an index. -/
theorem logistic_apply0 {s : Shape} {φ : FTy} (a : FVec Ideal s φ) (i : s.Idx) : logistic a i = Ideal.logistic (a i) := rfl

/-- THE PAYLOAD AT AN INDEX: element (p, q) of what the body stores is the triplet message of row p of the three
    row-blocked inputs, column q. Every format change is the identity on the extended reals, each matrix product into
    zero is its sum over the contracted coordinate, and the two biases are rows broadcast over the block's rows. -/
theorem pay0_1_apply (x0 : Vec Ideal S6400x64 .f32) (x1 : Vec Ideal S6400x64 .f32) (x2 : Vec Ideal S6400x16 .f32) (x3 : Vec Ideal S64x64 .f32) (x4 : Vec Ideal S64x64 .f32) (x5 : Vec Ideal S16x64 .f32) (x6 : Vec Ideal S1x64 .f32) (x7 : Vec Ideal S64x64 .f32) (x8 : Vec Ideal S1x64 .f32) (p : Fin 6400) (q : Fin 64) :
    k0_pay1 (F := Ideal) x0 x1 x2 x3 x4 x5 x6 x7 x8 (ix2 p q) = Cert.Spec.tMsg (R := 6400) x0 x1 x2 x3 x4 x5 x6 x7 x8 p q := by
  unfold k0_pay1
  simp only [shapeCast_self]
  simp only [addf_apply, mulf_apply, truncf_apply, logistic_apply0, mm64_apply0, mm16_apply0, broadcastTo_1b_ab_apply]
  unfold Cert.Spec.tMsg Cert.Spec.outLayer Cert.Spec.tHid Cert.Spec.rowDot Cert.Spec.swish
  rfl

/-- The payload at any index of the block: the same, with the index's two coordinates. -/
theorem pay0_1_apply_idx (x0 : Vec Ideal S6400x64 .f32) (x1 : Vec Ideal S6400x64 .f32) (x2 : Vec Ideal S6400x16 .f32) (x3 : Vec Ideal S64x64 .f32) (x4 : Vec Ideal S64x64 .f32) (x5 : Vec Ideal S16x64 .f32) (x6 : Vec Ideal S1x64 .f32) (x7 : Vec Ideal S64x64 .f32) (x8 : Vec Ideal S1x64 .f32) (j : S6400x64.Idx) :
    k0_pay1 (F := Ideal) x0 x1 x2 x3 x4 x5 x6 x7 x8 j = Cert.Spec.tMsg (R := 6400) x0 x1 x2 x3 x4 x5 x6 x7 x8 (j 0) (j 1) := by
  obtain ⟨p, q, rfl⟩ : ∃ (p : Fin 6400) (q : Fin 64), j = ix2 p q := ⟨j 0, j 1, eq_ix2 j⟩
  exact pay0_1_apply x0 x1 x2 x3 x4 x5 x6 x7 x8 p q

/-- The triplet message at a row depends on the three row-wise inputs through that row alone: two families of inputs
    that agree on a row of each (and share the weights and biases) give that row the same message. -/
theorem tMsg_congr0 {R R' : Nat} (kj ji : Cert.Spec.Mat R 64) (ang : Cert.Spec.Mat R 16) (kj' ji' : Cert.Spec.Mat R' 64) (ang' : Cert.Spec.Mat R' 16)
    (wa wb : Cert.Spec.Mat 64 64) (wc : Cert.Spec.Mat 16 64) (b1 : Cert.Spec.Mat 1 64) (w2 : Cert.Spec.Mat 64 64) (b2 : Cert.Spec.Mat 1 64)
    (r : Fin R) (r' : Fin R') (hkj : ∀ q, kj (ix2 r q) = kj' (ix2 r' q)) (hji : ∀ q, ji (ix2 r q) = ji' (ix2 r' q))
    (hang : ∀ q, ang (ix2 r q) = ang' (ix2 r' q)) (j j' : Fin 64) (hj : j = j') :
    Cert.Spec.tMsg kj ji ang wa wb wc b1 w2 b2 r j = Cert.Spec.tMsg kj' ji' ang' wa wb wc b1 w2 b2 r' j' := by
  subst hj
  unfold Cert.Spec.tMsg Cert.Spec.outLayer Cert.Spec.tHid Cert.Spec.rowDot
  simp only [hkj, hji, hang]

/-! ## From blocks to the array -/

section Final
-- the TensorCore's buffer contents when the region is entered, at the ideal values
variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: at point `t` the three row-blocked inputs and the output are at
    block row `t`, block column 0; the six weight and bias windows are at block (0, 0). -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- Row `x 0` of window 0's block at point `t` is row `6400·t + x 0` of its array. -/
theorem iblk0_0_apply (c : Dev nD) (t : Fin cfg0.N) (x : S6400x64.Idx) (k : S800000x64.Idx)
    (hk0 : (k 0).val = 6400 * t.val + (x 0).val) (hk1 : (k 1).val = (x 1).val) :
    (iblk0 V c 0 t : Vec Ideal S6400x64 .f32) x = ((V c main_v0) : S800000x64.Idx → EReal) k := by
  obtain ⟨e0, e1⟩ := (idx_facts0 t).1
  show ((V c main_v0) : S800000x64.Idx → EReal) (((cfg0.win 0).blk t).view.emb x) = _
  congr 1
  funext a
  apply Fin.ext
  match a with
  | ⟨0, _⟩ => show win0_0.index t (0 : Fin 2) * 6400 + 1 * (x 0).val = (k 0).val; rw [e0, hk0]; omega
  | ⟨1, _⟩ => show win0_0.index t (1 : Fin 2) * 64 + 1 * (x 1).val = (k 1).val; rw [e1, hk1]; omega

/-- Row `x 0` of window 1's block at point `t` is row `6400·t + x 0` of its array. -/
theorem iblk0_1_apply (c : Dev nD) (t : Fin cfg0.N) (x : S6400x64.Idx) (k : S800000x64.Idx)
    (hk0 : (k 0).val = 6400 * t.val + (x 0).val) (hk1 : (k 1).val = (x 1).val) :
    (iblk0 V c 1 t : Vec Ideal S6400x64 .f32) x = ((V c main_v1) : S800000x64.Idx → EReal) k := by
  obtain ⟨e0, e1⟩ := (idx_facts0 t).2.1
  show ((V c main_v1) : S800000x64.Idx → EReal) (((cfg0.win 1).blk t).view.emb x) = _
  congr 1
  funext a
  apply Fin.ext
  match a with
  | ⟨0, _⟩ => show win0_1.index t (0 : Fin 2) * 6400 + 1 * (x 0).val = (k 0).val; rw [e0, hk0]; omega
  | ⟨1, _⟩ => show win0_1.index t (1 : Fin 2) * 64 + 1 * (x 1).val = (k 1).val; rw [e1, hk1]; omega

/-- Row `x 0` of window 2's block at point `t` is row `6400·t + x 0` of its array. -/
theorem iblk0_2_apply (c : Dev nD) (t : Fin cfg0.N) (x : S6400x16.Idx) (k : S800000x16.Idx)
    (hk0 : (k 0).val = 6400 * t.val + (x 0).val) (hk1 : (k 1).val = (x 1).val) :
    (iblk0 V c 2 t : Vec Ideal S6400x16 .f32) x = ((V c main_arg7) : S800000x16.Idx → EReal) k := by
  obtain ⟨e0, e1⟩ := (idx_facts0 t).2.2.1
  show ((V c main_arg7) : S800000x16.Idx → EReal) (((cfg0.win 2).blk t).view.emb x) = _
  congr 1
  funext a
  apply Fin.ext
  match a with
  | ⟨0, _⟩ => show win0_2.index t (0 : Fin 2) * 6400 + 1 * (x 0).val = (k 0).val; rw [e0, hk0]; omega
  | ⟨1, _⟩ => show win0_2.index t (1 : Fin 2) * 16 + 1 * (x 1).val = (k 1).val; rw [e1, hk1]; omega

/-- Window 3's block at every point is its whole array. -/
theorem iblk0_3_eq (c : Dev nD) (t : Fin cfg0.N) :
    (iblk0 V c 3 t : Vec Ideal S64x64 .f32) = ((V c main_v2) : S64x64.Idx → EReal) := by
  obtain ⟨e0, e1⟩ := (idx_facts0 t).2.2.2.1
  funext x
  show ((V c main_v2) : S64x64.Idx → EReal) (((cfg0.win 3).blk t).view.emb x) = _
  congr 1
  funext a
  apply Fin.ext
  match a with
  | ⟨0, _⟩ => show win0_3.index t (0 : Fin 2) * 64 + 1 * (x 0).val = (x 0).val; rw [e0]; omega
  | ⟨1, _⟩ => show win0_3.index t (1 : Fin 2) * 64 + 1 * (x 1).val = (x 1).val; rw [e1]; omega

/-- Window 4's block at every point is its whole array. -/
theorem iblk0_4_eq (c : Dev nD) (t : Fin cfg0.N) :
    (iblk0 V c 4 t : Vec Ideal S64x64 .f32) = ((V c main_v3) : S64x64.Idx → EReal) := by
  obtain ⟨e0, e1⟩ := (idx_facts0 t).2.2.2.2.1
  funext x
  show ((V c main_v3) : S64x64.Idx → EReal) (((cfg0.win 4).blk t).view.emb x) = _
  congr 1
  funext a
  apply Fin.ext
  match a with
  | ⟨0, _⟩ => show win0_4.index t (0 : Fin 2) * 64 + 1 * (x 0).val = (x 0).val; rw [e0]; omega
  | ⟨1, _⟩ => show win0_4.index t (1 : Fin 2) * 64 + 1 * (x 1).val = (x 1).val; rw [e1]; omega

/-- Window 5's block at every point is its whole array. -/
theorem iblk0_5_eq (c : Dev nD) (t : Fin cfg0.N) :
    (iblk0 V c 5 t : Vec Ideal S16x64 .f32) = ((V c main_v4) : S16x64.Idx → EReal) := by
  obtain ⟨e0, e1⟩ := (idx_facts0 t).2.2.2.2.2.1
  funext x
  show ((V c main_v4) : S16x64.Idx → EReal) (((cfg0.win 5).blk t).view.emb x) = _
  congr 1
  funext a
  apply Fin.ext
  match a with
  | ⟨0, _⟩ => show win0_5.index t (0 : Fin 2) * 16 + 1 * (x 0).val = (x 0).val; rw [e0]; omega
  | ⟨1, _⟩ => show win0_5.index t (1 : Fin 2) * 64 + 1 * (x 1).val = (x 1).val; rw [e1]; omega

/-- Window 6's block at every point is its whole array. -/
theorem iblk0_6_eq (c : Dev nD) (t : Fin cfg0.N) :
    (iblk0 V c 6 t : Vec Ideal S1x64 .f32) = ((V c main_v5) : S1x64.Idx → EReal) := by
  obtain ⟨e0, e1⟩ := (idx_facts0 t).2.2.2.2.2.2.1
  funext x
  show ((V c main_v5) : S1x64.Idx → EReal) (((cfg0.win 6).blk t).view.emb x) = _
  congr 1
  funext a
  apply Fin.ext
  match a with
  | ⟨0, _⟩ => show win0_6.index t (0 : Fin 2) * 1 + 1 * (x 0).val = (x 0).val; rw [e0]; omega
  | ⟨1, _⟩ => show win0_6.index t (1 : Fin 2) * 64 + 1 * (x 1).val = (x 1).val; rw [e1]; omega

/-- Window 7's block at every point is its whole array. -/
theorem iblk0_7_eq (c : Dev nD) (t : Fin cfg0.N) :
    (iblk0 V c 7 t : Vec Ideal S64x64 .f32) = ((V c main_arg10) : S64x64.Idx → EReal) := by
  obtain ⟨e0, e1⟩ := (idx_facts0 t).2.2.2.2.2.2.2.1
  funext x
  show ((V c main_arg10) : S64x64.Idx → EReal) (((cfg0.win 7).blk t).view.emb x) = _
  congr 1
  funext a
  apply Fin.ext
  match a with
  | ⟨0, _⟩ => show win0_7.index t (0 : Fin 2) * 64 + 1 * (x 0).val = (x 0).val; rw [e0]; omega
  | ⟨1, _⟩ => show win0_7.index t (1 : Fin 2) * 64 + 1 * (x 1).val = (x 1).val; rw [e1]; omega

/-- Window 8's block at every point is its whole array. -/
theorem iblk0_8_eq (c : Dev nD) (t : Fin cfg0.N) :
    (iblk0 V c 8 t : Vec Ideal S1x64 .f32) = ((V c main_v6) : S1x64.Idx → EReal) := by
  obtain ⟨e0, e1⟩ := (idx_facts0 t).2.2.2.2.2.2.2.2.1
  funext x
  show ((V c main_v6) : S1x64.Idx → EReal) (((cfg0.win 8).blk t).view.emb x) = _
  congr 1
  funext a
  apply Fin.ext
  match a with
  | ⟨0, _⟩ => show win0_8.index t (0 : Fin 2) * 1 + 1 * (x 0).val = (x 0).val; rw [e0]; omega
  | ⟨1, _⟩ => show win0_8.index t (1 : Fin 2) * 64 + 1 * (x 1).val = (x 1).val; rw [e1]; omega

/-- What the output array ends holding: at row r, column j, the triplet message of row r of the three row-wise
    input arrays, with the weights and biases as the region finds them. -/
abbrev G0 (c : Dev nD) : S800000x64.Idx → EReal := fun i =>
  Cert.Spec.tMsg (R := 800000) (V c main_v0) (V c main_v1) (V c main_arg7) (V c main_v2) (V c main_v3) (V c main_v4) (V c main_v5) (V c main_arg10) (V c main_v6) (i 0) (i 1)

/-- WHAT POINT `t` WRITES BACK is block `t` of `G0`: rows 6400·t … 6400·t + 6399. -/
theorem flushed0_eq (c : Dev nD) (t : Fin cfg0.N) :
    (dat0 (F := Ideal) V c).flushed 9 t = ((cfg0.win 9).blk t).view.read (Elt Ideal) (G0 V c) := by
  show (cfg0.win 9).cut (grid0.coords t) ((dat0 V c).after 9 t) = _
  rw [after0_9]
  unfold out0_9
  rw [View.canon_unit_zero hz0]
  simp only [View.ld_unit_zero (S := S6400x64) hz0, View.ld_unit_zero (S := S6400x16) hz0, View.ld_unit_zero (S := S64x64) hz0,
    View.ld_unit_zero (S := S16x64) hz0, View.ld_unit_zero (S := S1x64) hz0]
  rw [iblk0_3_eq V c t, iblk0_4_eq V c t, iblk0_5_eq V c t, iblk0_6_eq V c t, iblk0_7_eq V c t, iblk0_8_eq V c t]
  obtain ⟨e0, e1⟩ := (idx_facts0 t).2.2.2.2.2.2.2.2.2
  funext j
  show k0_pay1 (F := Ideal) (iblk0 V c 0 t) (iblk0 V c 1 t) (iblk0 V c 2 t) (V c main_v2) (V c main_v3) (V c main_v4) (V c main_v5) (V c main_arg10) (V c main_v6) j
    = G0 V c (((cfg0.win 9).blk t).view.emb j)
  rw [pay0_1_apply_idx]
  have r0 : ((((cfg0.win 9).blk t).view.emb j) 0).val = 6400 * t.val + (j 0).val := by
    show win0_9.index t (0 : Fin 2) * 6400 + 1 * (j 0).val = _; rw [e0]; omega
  have r1 : ((((cfg0.win 9).blk t).view.emb j) 1).val = (j 1).val := by
    show win0_9.index t (1 : Fin 2) * 64 + 1 * (j 1).val = _; rw [e1]; omega
  exact tMsg_congr0 _ _ _ _ _ _ _ _ _ _ _ _ (j 0) _
    (fun q => iblk0_0_apply V c t _ _ r0 rfl) (fun q => iblk0_1_apply V c t _ _ r0 rfl) (fun q => iblk0_2_apply V c t _ _ r0 rfl)
    (j 1) _ (Fin.ext r1.symm)

/-- An index of the array is in point `t`'s block iff each coordinate is in the block's range on its axis. -/
theorem mem_blk0_9 (t : Fin cfg0.N) (i : S800000x64.Idx) :
    i ∈ ((cfg0.win 9).blk t).view.set ↔ ∀ a : Fin 2, win0_9.index t a * S6400x64.size a ≤ (i a).val ∧ (i a).val < win0_9.index t a * S6400x64.size a + S6400x64.size a := by
  show i ∈ ((View.whole main_v7).slice (win0_9.rect t)).set ↔ _
  rw [View.set_slice_whole, Rect.mem_set_unit]
  exact Iff.rfl

/-- Every index of the output array is in some point's block: row r is in the block of point r / 6400. -/
theorem covered0_9 (i : S800000x64.Idx) :
    ∃ t : Fin cfg0.N, (cfg0.win 9).flush t = true ∧ i ∈ ((cfg0.win 9).blk t).view.set := by
  have hi0 : (i 0).val < 800000 := (i 0).isLt
  have hi1 : (i 1).val < 64 := (i 1).isLt
  have ht : (i 0).val / 6400 < cfg0.N := by show _ < grid0.N; rw [N_0]; omega
  obtain ⟨e0, e1⟩ := (idx_facts0 ⟨(i 0).val / 6400, ht⟩).2.2.2.2.2.2.2.2.2
  refine ⟨⟨(i 0).val / 6400, ht⟩, flush0_9 _, ?_⟩
  rw [mem_blk0_9]
  intro a
  match a with
  | ⟨0, _⟩ =>
    show win0_9.index ⟨(i 0).val / 6400, ht⟩ (0 : Fin 2) * 6400 ≤ (i 0).val ∧ (i 0).val < win0_9.index ⟨(i 0).val / 6400, ht⟩ (0 : Fin 2) * 6400 + 6400
    rw [e0]; show (i 0).val / 6400 * 6400 ≤ (i 0).val ∧ (i 0).val < (i 0).val / 6400 * 6400 + 6400; omega
  | ⟨1, _⟩ =>
    show win0_9.index ⟨(i 0).val / 6400, ht⟩ (1 : Fin 2) * 64 ≤ (i 1).val ∧ (i 1).val < win0_9.index ⟨(i 0).val / 6400, ht⟩ (1 : Fin 2) * 64 + 64
    rw [e1]; omega

/-- THE OUTPUT ARRAY after the region: the triplet message of every row (each input array by its name). -/
theorem final0_named (c : Dev nD) : (dat0 (F := Ideal) V c).arrAt 9 cfg0.N = fun i =>
    Cert.Spec.tMsg (R := 800000) (V c main_v0) (V c main_v1) (V c main_arg7) (V c main_v2) (V c main_v3) (V c main_v4) (V c main_v5) (V c main_arg10) (V c main_v6) (i 0) (i 1) :=
  (dat0 V c).arrAt_eq_of_cover 9 (G0 V c) (fun t _ => flushed0_eq V c t) (covered0_9)

/-- THE OUTPUT ARRAY after the region: the triplet message of every row, each input array named as its window's
    (window w's array is the buffer the name above denotes, by unfolding). -/
theorem final0 (c : Dev nD) : (dat0 (F := Ideal) V c).arrAt 9 cfg0.N = fun i =>
    Cert.Spec.tMsg (R := 800000) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (i 0) (i 1) :=
  final0_named V c

end Final

end Cert.KernelIdeal.Hand

end
-- ==== Proof.KIValue1.lean ====
/- Kernel region 1 of `Cert.KernelIdeal` at the ideal values, in closed form: the block the body stores is, index by
   index, the packed edge row `Cert.Spec.ePack` of the blocks it loads (the two block products read as sums over the
   contracted coordinate, the lane slices, the lane broadcast of a direction component and the lane concatenation read
   at an index); a row-blocked window's block row p at point t is array row 3200·t + p and a whole-array window's block
   is its array, so what point t writes back is block t of ONE function of the arrays; the 250 blocks of 3200 rows
   cover the 800000 rows, so the output array ends holding that function. -/
import proofs.«166758_j50929722196748_2_alg».proof.Proof.KIRegion1
import proofs.«166758_j50929722196748_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- A [3200,64] by [64,64] block product into the zero splat, at row p and column k: ∑_q a(p,q) · b(q,k). -/
theorem mm64_apply1 {φ₁ φ₂ : FTy} (a : FVec Ideal S3200x64 φ₁) (b : FVec Ideal S64x64 φ₂) (p : Fin 3200) (k : Fin 64) :
    matmul dot_S3200x64_S64x64_S3200x64_1_0_0_1_n_n none a b (constant S3200x64 .f32 0x00000000#32) (ix2 p k)
      = ∑ q : Fin 64, a (ix2 p q) * b (ix2 q k) := by
  simp only [matmul]
  rw [Ideal.matmul_constant_zero_apply,
    ← Equiv.sum_comp (contrEquiv1 dot_S3200x64_S64x64_S3200x64_1_0_0_1_n_n 64 rfl rfl).symm]
  refine Finset.sum_congr rfl fun c _ => ?_
  have c2 := contrEquiv1_symm_val dot_S3200x64_S64x64_S3200x64_1_0_0_1_n_n 64 rfl rfl c
  have l2 : dot_S3200x64_S64x64_S3200x64_1_0_0_1_n_n.lhsIdx (ix2 p k) ((contrEquiv1 _ 64 rfl rfl).symm c) = ix2 p c := by
    funext ax; apply Fin.ext
    match ax with
    | ⟨0, _⟩ => simp [DotDims.lhsIdx, dot_S3200x64_S64x64_S3200x64_1_0_0_1_n_n]; rfl
    | ⟨1, _⟩ => exact (DotDims.lhsIdx_val_of_single _ rfl _ _).trans c2
  have r2 : dot_S3200x64_S64x64_S3200x64_1_0_0_1_n_n.rhsIdx (ix2 p k) ((contrEquiv1 _ 64 rfl rfl).symm c) = ix2 c k := by
    funext ax; apply Fin.ext
    match ax with
    | ⟨0, _⟩ => exact (DotDims.rhsIdx_val_of_single _ rfl _ _).trans c2
    | ⟨1, _⟩ => simp [DotDims.rhsIdx, dot_S3200x64_S64x64_S3200x64_1_0_0_1_n_n]; rfl
  rw [l2, r2]

/-- A [3200,64] by [64,128] block product into the zero splat, at row p and column k: ∑_q a(p,q) · b(q,k). -/
theorem mm128_apply1 {φ₁ φ₂ : FTy} (a : FVec Ideal S3200x64 φ₁) (b : FVec Ideal S64x128 φ₂) (p : Fin 3200) (k : Fin 128) :
    matmul dot_S3200x64_S64x128_S3200x128_1_0_0_1_n_n none a b (constant S3200x128 .f32 0x00000000#32) (ix2 p k)
      = ∑ q : Fin 64, a (ix2 p q) * b (ix2 q k) := by
  simp only [matmul]
  rw [Ideal.matmul_constant_zero_apply,
    ← Equiv.sum_comp (contrEquiv1 dot_S3200x64_S64x128_S3200x128_1_0_0_1_n_n 64 rfl rfl).symm]
  refine Finset.sum_congr rfl fun c _ => ?_
  have c2 := contrEquiv1_symm_val dot_S3200x64_S64x128_S3200x128_1_0_0_1_n_n 64 rfl rfl c
  have l2 : dot_S3200x64_S64x128_S3200x128_1_0_0_1_n_n.lhsIdx (ix2 p k) ((contrEquiv1 _ 64 rfl rfl).symm c) = ix2 p c := by
    funext ax; apply Fin.ext
    match ax with
    | ⟨0, _⟩ => simp [DotDims.lhsIdx, dot_S3200x64_S64x128_S3200x128_1_0_0_1_n_n]; rfl
    | ⟨1, _⟩ => exact (DotDims.lhsIdx_val_of_single _ rfl _ _).trans c2
  have r2 : dot_S3200x64_S64x128_S3200x128_1_0_0_1_n_n.rhsIdx (ix2 p k) ((contrEquiv1 _ 64 rfl rfl).symm c) = ix2 c k := by
    funext ax; apply Fin.ext
    match ax with
    | ⟨0, _⟩ => exact (DotDims.rhsIdx_val_of_single _ rfl _ _).trans c2
    | ⟨1, _⟩ => simp [DotDims.rhsIdx, dot_S3200x64_S64x128_S3200x128_1_0_0_1_n_n]; rfl
  rw [l2, r2]

/-- A column [3200,1] broadcast along the lanes reads, at (p, j), the column at row p. -/
theorem bcastCol_apply1 (v : FVec Ideal S3200x1 .f32) (p : Fin 3200) (j : Fin 64) :
    broadcastTo S3200x64 v broadcasts_S3200x1_S3200x64 (ix2 p j) = v (ix2 p (0 : Fin 1)) := by
  refine broadcastTo_apply v _ (ix2 p j) (ix2 p (0 : Fin 1)) fun ax => ?_
  match ax with
  | ⟨0, _⟩ => rfl
  | ⟨1, _⟩ => rfl

/-- The logistic function of a vector, at an index. -/
theorem logistic_apply1 {s : Shape} {φ : FTy} (a : FVec Ideal s φ) (i : s.Idx) : logistic a i = Ideal.logistic (a i) := rfl

/-- The second layer on a block of hidden rows, at row p and column n of 128: (∑_k h(p,k) · w2(k,n)) + b2(0,n). -/
theorem msg_apply1 (h : FVec Ideal S3200x64 .bf16) (w2 : Vec Ideal S64x128 .f32) (b2 : Vec Ideal S1x128 .f32) (p : Fin 3200) (n : Fin 128) :
    addf (matmul dot_S3200x64_S64x128_S3200x128_1_0_0_1_n_n none h (truncf .bf16 w2 bitsLt_bf16_f32) (constant S3200x128 .f32 0x00000000#32))
        (broadcastTo S3200x128 (shapeCast S1x128 b2 shapeCasts_S1x128_S1x128) broadcasts_S1x128_S3200x128) (ix2 p n)
      = (∑ k : Fin 64, h (ix2 p k) * w2 (ix2 k n)) + b2 (ix2 (0 : Fin 1) n) := by
  rw [addf_apply, mm128_apply1, shapeCast_self, broadcastTo_1b_ab_apply]
  rfl

/-- The stored block at row p and a column j below 64: the message itself. -/
theorem k1_pay1_apply_lo1 (h : FVec Ideal S3200x64 .bf16) (w2 : Vec Ideal S64x128 .f32) (b2 : Vec Ideal S1x128 .f32)
    (ed : Vec Ideal S3200x3 .f32) (p : Fin 3200) (j : Fin 256) (h0 : j.val < 64) :
    k1_pay1 h w2 b2 ed (ix2 p j)
      = (∑ k : Fin 64, h (ix2 p k) * w2 (ix2 k (⟨j.val, by omega⟩ : Fin 128))) + b2 (ix2 (0 : Fin 1) (⟨j.val, by omega⟩ : Fin 128)) := by
  unfold k1_pay1
  refine (concatenate_apply_piece _ _ _ (ix2 p j) 0 (by show (0 : Nat) < 4; decide) S3200x64 _ rfl rfl 0 rfl (ix2 p (⟨j.val, h0⟩ : Fin 64)) ?_ ?_).trans ?_
  · intro b hb; match b with | ⟨0, _⟩ => rfl | ⟨1, _⟩ => exact absurd rfl hb
  · show 0 + j.val = j.val; omega
  · rw [slice2_axis1_apply 0 _ _ p (⟨j.val, h0⟩ : Fin 64) (⟨j.val, by omega⟩ : Fin 128) (by show j.val = 0 + j.val; omega), msg_apply1]

/-- The stored block at row p and column 64·(g+1) + c: coefficient c of the message's second half times direction
    component g. -/
theorem k1_pay1_apply_hi1 (h : FVec Ideal S3200x64 .bf16) (w2 : Vec Ideal S64x128 .f32) (b2 : Vec Ideal S1x128 .f32)
    (ed : Vec Ideal S3200x3 .f32) (p : Fin 3200) (j : Fin 256) (g : Fin 3) (c : Fin 64) (hj : j.val = 64 * (g.val + 1) + c.val) :
    k1_pay1 h w2 b2 ed (ix2 p j)
      = ((∑ k : Fin 64, h (ix2 p k) * w2 (ix2 k (⟨64 + c.val, by omega⟩ : Fin 128))) + b2 (ix2 (0 : Fin 1) (⟨64 + c.val, by omega⟩ : Fin 128)))
          * ed (ix2 p g) := by
  unfold k1_pay1
  match g, hj with
  | ⟨0, _⟩, hj =>
    refine (concatenate_apply_piece _ _ _ (ix2 p j) 1 (by show (1 : Nat) < 4; decide) S3200x64 _ rfl rfl 64 rfl (ix2 p c) ?_ ?_).trans ?_
    · intro b hb; match b with | ⟨0, _⟩ => rfl | ⟨1, _⟩ => exact absurd rfl hb
    · have hj' : j.val = 64 * (0 + 1) + c.val := hj
      show 64 + c.val = j.val; omega
    · rw [mulf_apply, slice2_axis1_apply 64 _ _ p c (⟨64 + c.val, by omega⟩ : Fin 128) rfl, bcastCol_apply1,
        slice2_axis1_apply 0 ed _ p (0 : Fin 1) (⟨0, by omega⟩ : Fin 3) rfl, msg_apply1]
  | ⟨1, _⟩, hj =>
    refine (concatenate_apply_piece _ _ _ (ix2 p j) 2 (by show (2 : Nat) < 4; decide) S3200x64 _ rfl rfl 128 rfl (ix2 p c) ?_ ?_).trans ?_
    · intro b hb; match b with | ⟨0, _⟩ => rfl | ⟨1, _⟩ => exact absurd rfl hb
    · have hj' : j.val = 64 * (1 + 1) + c.val := hj
      show 128 + c.val = j.val; omega
    · rw [mulf_apply, slice2_axis1_apply 64 _ _ p c (⟨64 + c.val, by omega⟩ : Fin 128) rfl, bcastCol_apply1,
        slice2_axis1_apply 1 ed _ p (0 : Fin 1) (⟨1, by omega⟩ : Fin 3) rfl, msg_apply1]
  | ⟨2, _⟩, hj =>
    refine (concatenate_apply_piece _ _ _ (ix2 p j) 3 (by show (3 : Nat) < 4; decide) S3200x64 _ rfl rfl 192 rfl (ix2 p c) ?_ ?_).trans ?_
    · intro b hb; match b with | ⟨0, _⟩ => rfl | ⟨1, _⟩ => exact absurd rfl hb
    · have hj' : j.val = 64 * (2 + 1) + c.val := hj
      show 192 + c.val = j.val; omega
    · rw [mulf_apply, slice2_axis1_apply 64 _ _ p c (⟨64 + c.val, by omega⟩ : Fin 128) rfl, bcastCol_apply1,
        slice2_axis1_apply 2 ed _ p (0 : Fin 1) (⟨2, by omega⟩ : Fin 3) rfl, msg_apply1]

/-- The hidden block at row p and column k: x · 1/(1 + e^{-x}) of the first layer's sum, the four products added piece
    after piece and the bias last. -/
theorem k1_pay2_apply1 (x0 x1 x2 x3 : Vec Ideal S3200x64 .f32) (w0 w1 w2 w3 : Vec Ideal S64x64 .f32) (b1 : Vec Ideal S1x64 .f32)
    (p : Fin 3200) (k : Fin 64) :
    k1_pay2 x0 x1 x2 x3 w0 w1 w2 w3 b1 (ix2 p k)
      = (((((∑ q : Fin 64, x0 (ix2 p q) * w0 (ix2 q k)) + ∑ q : Fin 64, x1 (ix2 p q) * w1 (ix2 q k))
            + ∑ q : Fin 64, x2 (ix2 p q) * w2 (ix2 q k)) + ∑ q : Fin 64, x3 (ix2 p q) * w3 (ix2 q k)) + b1 (ix2 (0 : Fin 1) k))
        * Ideal.logistic (((((∑ q : Fin 64, x0 (ix2 p q) * w0 (ix2 q k)) + ∑ q : Fin 64, x1 (ix2 p q) * w1 (ix2 q k))
            + ∑ q : Fin 64, x2 (ix2 p q) * w2 (ix2 q k)) + ∑ q : Fin 64, x3 (ix2 p q) * w3 (ix2 q k)) + b1 (ix2 (0 : Fin 1) k)) := by
  unfold k1_pay2
  simp only [shapeCast_self, truncf_apply, mulf_apply, logistic_apply1, addf_apply, mm64_apply1, broadcastTo_1b_ab_apply]

variable (V : (c : Dev nD) → (b : Ref sig .tc) → Buf (Elt Ideal) ((c : Thread nD τ).loc b))

/-- The index maps over the grid: a row-blocked window (the five row inputs and the output) is at block row `t`, block
    column 0, at point `t`; a whole-array window is at block (0, 0) at every point. -/
theorem idx_facts1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = t.val
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = t.val
    ∧ win1_12.index t (1 : Fin 2) = 0 :=
  (by decide +kernel : ∀ t : Fin grid1.N, _)

/-- Row p of window 0's block at point t is row 3200·t + p of its array. -/
theorem iblk1_0_apply (c : Dev nD) (t : Fin cfg1.N) (p : Fin 3200) (q : Fin 64) (r : Fin 800000) (hr : r.val = 3200 * t.val + p.val) :
    iblk1 V c 0 t (ix2 p q) = V c (Pipeline.arrRef spec1 0) (ix2 r q) := by
  show V c (Pipeline.arrRef spec1 0) (((cfg1.win 0).blk t).view.emb (ix2 p q)) = _
  refine congrArg _ (funext fun a => Fin.ext ?_)
  match a with
  | ⟨0, _⟩ => show win1_0.index t (0 : Fin 2) * 3200 + 1 * p.val = r.val; rw [(idx_facts1 t).1]; omega
  | ⟨1, _⟩ => show win1_0.index t (1 : Fin 2) * 64 + 1 * q.val = q.val; rw [(idx_facts1 t).2.1]; omega
/-- Row p of window 1's block at point t is row 3200·t + p of its array. -/
theorem iblk1_1_apply (c : Dev nD) (t : Fin cfg1.N) (p : Fin 3200) (q : Fin 64) (r : Fin 800000) (hr : r.val = 3200 * t.val + p.val) :
    iblk1 V c 1 t (ix2 p q) = V c (Pipeline.arrRef spec1 1) (ix2 r q) := by
  show V c (Pipeline.arrRef spec1 1) (((cfg1.win 1).blk t).view.emb (ix2 p q)) = _
  refine congrArg _ (funext fun a => Fin.ext ?_)
  match a with
  | ⟨0, _⟩ => show win1_1.index t (0 : Fin 2) * 3200 + 1 * p.val = r.val; rw [(idx_facts1 t).2.2.1]; omega
  | ⟨1, _⟩ => show win1_1.index t (1 : Fin 2) * 64 + 1 * q.val = q.val; rw [(idx_facts1 t).2.2.2.1]; omega
/-- Row p of window 2's block at point t is row 3200·t + p of its array. -/
theorem iblk1_2_apply (c : Dev nD) (t : Fin cfg1.N) (p : Fin 3200) (q : Fin 64) (r : Fin 800000) (hr : r.val = 3200 * t.val + p.val) :
    iblk1 V c 2 t (ix2 p q) = V c (Pipeline.arrRef spec1 2) (ix2 r q) := by
  show V c (Pipeline.arrRef spec1 2) (((cfg1.win 2).blk t).view.emb (ix2 p q)) = _
  refine congrArg _ (funext fun a => Fin.ext ?_)
  match a with
  | ⟨0, _⟩ => show win1_2.index t (0 : Fin 2) * 3200 + 1 * p.val = r.val; rw [(idx_facts1 t).2.2.2.2.1]; omega
  | ⟨1, _⟩ => show win1_2.index t (1 : Fin 2) * 64 + 1 * q.val = q.val; rw [(idx_facts1 t).2.2.2.2.2.1]; omega
/-- Row p of window 3's block at point t is row 3200·t + p of its array. -/
theorem iblk1_3_apply (c : Dev nD) (t : Fin cfg1.N) (p : Fin 3200) (q : Fin 64) (r : Fin 800000) (hr : r.val = 3200 * t.val + p.val) :
    iblk1 V c 3 t (ix2 p q) = V c (Pipeline.arrRef spec1 3) (ix2 r q) := by
  show V c (Pipeline.arrRef spec1 3) (((cfg1.win 3).blk t).view.emb (ix2 p q)) = _
  refine congrArg _ (funext fun a => Fin.ext ?_)
  match a with
  | ⟨0, _⟩ => show win1_3.index t (0 : Fin 2) * 3200 + 1 * p.val = r.val; rw [(idx_facts1 t).2.2.2.2.2.2.1]; omega
  | ⟨1, _⟩ => show win1_3.index t (1 : Fin 2) * 64 + 1 * q.val = q.val; rw [(idx_facts1 t).2.2.2.2.2.2.2.1]; omega
/-- Row p of window 4's block at point t is row 3200·t + p of its array. -/
theorem iblk1_4_apply (c : Dev nD) (t : Fin cfg1.N) (p : Fin 3200) (q : Fin 3) (r : Fin 800000) (hr : r.val = 3200 * t.val + p.val) :
    iblk1 V c 4 t (ix2 p q) = V c (Pipeline.arrRef spec1 4) (ix2 r q) := by
  show V c (Pipeline.arrRef spec1 4) (((cfg1.win 4).blk t).view.emb (ix2 p q)) = _
  refine congrArg _ (funext fun a => Fin.ext ?_)
  match a with
  | ⟨0, _⟩ => show win1_4.index t (0 : Fin 2) * 3200 + 1 * p.val = r.val; rw [(idx_facts1 t).2.2.2.2.2.2.2.2.1]; omega
  | ⟨1, _⟩ => show win1_4.index t (1 : Fin 2) * 3 + 1 * q.val = q.val; rw [(idx_facts1 t).2.2.2.2.2.2.2.2.2.1]; omega
/-- Window 5's block is its whole array at every point. -/
theorem iblk1_5_eq (c : Dev nD) (t : Fin cfg1.N) :
    (iblk1 V c 5 t : Vec Ideal S64x64 .f32) = (V c (Pipeline.arrRef spec1 5) : Vec Ideal S64x64 .f32) := by
  funext y
  show V c (Pipeline.arrRef spec1 5) (((cfg1.win 5).blk t).view.emb y) = _
  refine congrArg _ (funext fun a => Fin.ext ?_)
  match a with
  | ⟨0, _⟩ => show win1_5.index t (0 : Fin 2) * 64 + 1 * (y 0).val = (y 0).val; rw [(idx_facts1 t).2.2.2.2.2.2.2.2.2.2.1]; omega
  | ⟨1, _⟩ => show win1_5.index t (1 : Fin 2) * 64 + 1 * (y 1).val = (y 1).val; rw [(idx_facts1 t).2.2.2.2.2.2.2.2.2.2.2.1]; omega
/-- Window 6's block is its whole array at every point. -/
theorem iblk1_6_eq (c : Dev nD) (t : Fin cfg1.N) :
    (iblk1 V c 6 t : Vec Ideal S64x64 .f32) = (V c (Pipeline.arrRef spec1 6) : Vec Ideal S64x64 .f32) := by
  funext y
  show V c (Pipeline.arrRef spec1 6) (((cfg1.win 6).blk t).view.emb y) = _
  refine congrArg _ (funext fun a => Fin.ext ?_)
  match a with
  | ⟨0, _⟩ => show win1_6.index t (0 : Fin 2) * 64 + 1 * (y 0).val = (y 0).val; rw [(idx_facts1 t).2.2.2.2.2.2.2.2.2.2.2.2.1]; omega
  | ⟨1, _⟩ => show win1_6.index t (1 : Fin 2) * 64 + 1 * (y 1).val = (y 1).val; rw [(idx_facts1 t).2.2.2.2.2.2.2.2.2.2.2.2.2.1]; omega
/-- Window 7's block is its whole array at every point. -/
theorem iblk1_7_eq (c : Dev nD) (t : Fin cfg1.N) :
    (iblk1 V c 7 t : Vec Ideal S64x64 .f32) = (V c (Pipeline.arrRef spec1 7) : Vec Ideal S64x64 .f32) := by
  funext y
  show V c (Pipeline.arrRef spec1 7) (((cfg1.win 7).blk t).view.emb y) = _
  refine congrArg _ (funext fun a => Fin.ext ?_)
  match a with
  | ⟨0, _⟩ => show win1_7.index t (0 : Fin 2) * 64 + 1 * (y 0).val = (y 0).val; rw [(idx_facts1 t).2.2.2.2.2.2.2.2.2.2.2.2.2.2.1]; omega
  | ⟨1, _⟩ => show win1_7.index t (1 : Fin 2) * 64 + 1 * (y 1).val = (y 1).val; rw [(idx_facts1 t).2.2.2.2.2.2.2.2.2.2.2.2.2.2.2.1]; omega
/-- Window 8's block is its whole array at every point. -/
theorem iblk1_8_eq (c : Dev nD) (t : Fin cfg1.N) :
    (iblk1 V c 8 t : Vec Ideal S64x64 .f32) = (V c (Pipeline.arrRef spec1 8) : Vec Ideal S64x64 .f32) := by
  funext y
  show V c (Pipeline.arrRef spec1 8) (((cfg1.win 8).blk t).view.emb y) = _
  refine congrArg _ (funext fun a => Fin.ext ?_)
  match a with
  | ⟨0, _⟩ => show win1_8.index t (0 : Fin 2) * 64 + 1 * (y 0).val = (y 0).val; rw [(idx_facts1 t).2.2.2.2.2.2.2.2.2.2.2.2.2.2.2.2.1]; omega
  | ⟨1, _⟩ => show win1_8.index t (1 : Fin 2) * 64 + 1 * (y 1).val = (y 1).val; rw [(idx_facts1 t).2.2.2.2.2.2.2.2.2.2.2.2.2.2.2.2.2.1]; omega
/-- Window 9's block is its whole array at every point. -/
theorem iblk1_9_eq (c : Dev nD) (t : Fin cfg1.N) :
    (iblk1 V c 9 t : Vec Ideal S1x64 .f32) = (V c (Pipeline.arrRef spec1 9) : Vec Ideal S1x64 .f32) := by
  funext y
  show V c (Pipeline.arrRef spec1 9) (((cfg1.win 9).blk t).view.emb y) = _
  refine congrArg _ (funext fun a => Fin.ext ?_)
  match a with
  | ⟨0, _⟩ => show win1_9.index t (0 : Fin 2) * 1 + 1 * (y 0).val = (y 0).val; rw [(idx_facts1 t).2.2.2.2.2.2.2.2.2.2.2.2.2.2.2.2.2.2.1]; omega
  | ⟨1, _⟩ => show win1_9.index t (1 : Fin 2) * 64 + 1 * (y 1).val = (y 1).val; rw [(idx_facts1 t).2.2.2.2.2.2.2.2.2.2.2.2.2.2.2.2.2.2.2.1]; omega
/-- Window 10's block is its whole array at every point. -/
theorem iblk1_10_eq (c : Dev nD) (t : Fin cfg1.N) :
    (iblk1 V c 10 t : Vec Ideal S64x128 .f32) = (V c (Pipeline.arrRef spec1 10) : Vec Ideal S64x128 .f32) := by
  funext y
  show V c (Pipeline.arrRef spec1 10) (((cfg1.win 10).blk t).view.emb y) = _
  refine congrArg _ (funext fun a => Fin.ext ?_)
  match a with
  | ⟨0, _⟩ => show win1_10.index t (0 : Fin 2) * 64 + 1 * (y 0).val = (y 0).val; rw [(idx_facts1 t).2.2.2.2.2.2.2.2.2.2.2.2.2.2.2.2.2.2.2.2.1]; omega
  | ⟨1, _⟩ => show win1_10.index t (1 : Fin 2) * 128 + 1 * (y 1).val = (y 1).val; rw [(idx_facts1 t).2.2.2.2.2.2.2.2.2.2.2.2.2.2.2.2.2.2.2.2.2.1]; omega
/-- Window 11's block is its whole array at every point. -/
theorem iblk1_11_eq (c : Dev nD) (t : Fin cfg1.N) :
    (iblk1 V c 11 t : Vec Ideal S1x128 .f32) = (V c (Pipeline.arrRef spec1 11) : Vec Ideal S1x128 .f32) := by
  funext y
  show V c (Pipeline.arrRef spec1 11) (((cfg1.win 11).blk t).view.emb y) = _
  refine congrArg _ (funext fun a => Fin.ext ?_)
  match a with
  | ⟨0, _⟩ => show win1_11.index t (0 : Fin 2) * 1 + 1 * (y 0).val = (y 0).val; rw [(idx_facts1 t).2.2.2.2.2.2.2.2.2.2.2.2.2.2.2.2.2.2.2.2.2.2.1]; omega
  | ⟨1, _⟩ => show win1_11.index t (1 : Fin 2) * 128 + 1 * (y 1).val = (y 1).val; rw [(idx_facts1 t).2.2.2.2.2.2.2.2.2.2.2.2.2.2.2.2.2.2.2.2.2.2.2.1]; omega

/-- An index of the output array is in point `t`'s block iff each coordinate is in the block's range on its axis. -/
theorem mem_blk1_12 (t : Fin cfg1.N) (i : S800000x256.Idx) :
    i ∈ ((cfg1.win 12).blk t).view.set ↔ ∀ a : Fin 2, win1_12.index t a * S3200x256.size a ≤ (i a).val ∧ (i a).val < win1_12.index t a * S3200x256.size a + S3200x256.size a := by
  show i ∈ ((View.whole main_v23).slice (win1_12.rect t)).set ↔ _
  rw [View.set_slice_whole, Rect.mem_set_unit]
  exact Iff.rfl

/-- Every index of the output array is in some point's block: row r in the block of point r / 3200. -/
theorem rows_covered1 (i : S800000x256.Idx) :
    ∃ t : Fin cfg1.N, (cfg1.win 12).flush t = true ∧ i ∈ ((cfg1.win 12).blk t).view.set := by
  have hi0 : (i 0).val < 800000 := (i 0).isLt
  have hi1 : (i 1).val < 256 := (i 1).isLt
  have hN : cfg1.N = 250 := N_1
  have ht : (i 0).val / 3200 < cfg1.N := by rw [hN]; omega
  have e0 := (idx_facts1 ⟨(i 0).val / 3200, ht⟩).2.2.2.2.2.2.2.2.2.2.2.2.2.2.2.2.2.2.2.2.2.2.2.2.1
  have e1 := (idx_facts1 ⟨(i 0).val / 3200, ht⟩).2.2.2.2.2.2.2.2.2.2.2.2.2.2.2.2.2.2.2.2.2.2.2.2.2
  refine ⟨⟨(i 0).val / 3200, ht⟩, flush1_12 _, ?_⟩
  rw [mem_blk1_12]
  intro a
  match a with
  | ⟨0, _⟩ =>
    show win1_12.index ⟨(i 0).val / 3200, ht⟩ (0 : Fin 2) * 3200 ≤ (i 0).val ∧ (i 0).val < win1_12.index ⟨(i 0).val / 3200, ht⟩ (0 : Fin 2) * 3200 + 3200
    rw [e0]; show (i 0).val / 3200 * 3200 ≤ (i 0).val ∧ (i 0).val < (i 0).val / 3200 * 3200 + 3200; omega
  | ⟨1, _⟩ =>
    show win1_12.index ⟨(i 0).val / 3200, ht⟩ (1 : Fin 2) * 256 ≤ (i 1).val ∧ (i 1).val < win1_12.index ⟨(i 0).val / 3200, ht⟩ (1 : Fin 2) * 256 + 256
    rw [e1]; omega

/-- The block the body stores, at row p and column j, is the packed edge row of the loaded blocks. -/
theorem pay_eq_ePack1 (x0 x1 x2 x3 : Vec Ideal S3200x64 .f32) (x4 : Vec Ideal S3200x3 .f32) (x5 x6 x7 x8 : Vec Ideal S64x64 .f32)
    (x9 : Vec Ideal S1x64 .f32) (x10 : Vec Ideal S64x128 .f32) (x11 : Vec Ideal S1x128 .f32) (p : Fin 3200) (j : Fin 256) :
    k1_pay1 (k1_pay2 x0 x1 x2 x3 x5 x6 x7 x8 x9) x10 x11 x4 (ix2 p j)
      = Cert.Spec.ePack (R := 3200) x0 x1 x2 x3 x4 x5 x6 x7 x8 x9 x10 x11 p j := by
  unfold Cert.Spec.ePack
  have hj : j.val < 256 := j.isLt
  by_cases h0 : j.val < 64
  · rw [dif_pos h0, k1_pay1_apply_lo1 _ _ _ _ p j h0]
    unfold Cert.Spec.eMsg Cert.Spec.outLayer
    simp only [k1_pay2_apply1]
    rfl
  · rw [dif_neg h0, k1_pay1_apply_hi1 _ _ _ _ p j ⟨j.val / 64 - 1, by omega⟩ ⟨j.val % 64, by omega⟩
      (by show j.val = 64 * (j.val / 64 - 1 + 1) + j.val % 64; omega)]
    unfold Cert.Spec.eMsg Cert.Spec.outLayer
    simp only [k1_pay2_apply1]
    rfl

/-- The packed edge row at row r reads its five row inputs at row r only: equal rows and equal weights give equal
    packed rows, whatever the two row counts. -/
theorem ePack_congr1 {R R' : Nat} (s d rb an : Cert.Spec.Mat R 64) (ed : Cert.Spec.Mat R 3)
    (s' d' rb' an' : Cert.Spec.Mat R' 64) (ed' : Cert.Spec.Mat R' 3)
    (ws wd wr wa ws' wd' wr' wa' : Cert.Spec.Mat 64 64) (b1 b1' : Cert.Spec.Mat 1 64)
    (w2 w2' : Cert.Spec.Mat 64 128) (b2 b2' : Cert.Spec.Mat 1 128) (r : Fin R) (r' : Fin R')
    (h0 : ∀ q, s (ix2 r q) = s' (ix2 r' q)) (h1 : ∀ q, d (ix2 r q) = d' (ix2 r' q))
    (h2 : ∀ q, rb (ix2 r q) = rb' (ix2 r' q)) (h3 : ∀ q, an (ix2 r q) = an' (ix2 r' q))
    (h4 : ∀ q, ed (ix2 r q) = ed' (ix2 r' q))
    (h5 : ws = ws') (h6 : wd = wd') (h7 : wr = wr') (h8 : wa = wa') (h9 : b1 = b1') (h10 : w2 = w2') (h11 : b2 = b2')
    (j : Fin 256) :
    Cert.Spec.ePack s d rb an ed ws wd wr wa b1 w2 b2 r j = Cert.Spec.ePack s' d' rb' an' ed' ws' wd' wr' wa' b1' w2' b2' r' j := by
  subst h5 h6 h7 h8 h9 h10 h11
  unfold Cert.Spec.ePack Cert.Spec.eMsg Cert.Spec.outLayer Cert.Spec.eHid Cert.Spec.rowDot
  simp only [h0, h1, h2, h3, h4]

theorem hz1 : (![0, 0] : Fin 2 → Nat) = fun _ => 0 := funext fun a => by fin_cases a <;> rfl

/-- What the output array ends holding: the packed edge rows of the arrays the region finds, index by index. -/
abbrev edgeRows1 (c : Dev nD) : S800000x256.Idx → EReal :=
  fun i => Cert.Spec.ePack (R := 800000) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (i 0) (i 1)

/-- What point `t` writes back is block `t` of `edgeRows1`. -/
theorem flushed1_12_eq (c : Dev nD) (t : Fin cfg1.N) :
    (dat1 V c).flushed 12 t = ((cfg1.win 12).blk t).view.read (Elt Ideal) (edgeRows1 V c) := by
  show (cfg1.win 12).cut (grid1.coords t) ((dat1 V c).after 12 t) = _
  rw [after1_12]
  unfold out1_12
  rw [View.canon_unit_zero hz1]
  simp only [View.ld_unit_zero (S := S3200x64) hz1, View.ld_unit_zero (S := S64x64) hz1, View.ld_unit_zero (S := S1x64) hz1,
    View.ld_unit_zero (S := S64x128) hz1, View.ld_unit_zero (S := S1x128) hz1, View.ld_unit_zero (S := S3200x3) hz1]
  funext y
  obtain ⟨p, j, rfl⟩ : ∃ (p : Fin 3200) (j : Fin 256), y = ix2 p j := ⟨y 0, y 1, eq_ix2 y⟩
  have hN : cfg1.N = 250 := N_1
  have ht : t.val < 250 := hN ▸ t.isLt
  have hr : 3200 * t.val + p.val < 800000 := by have := p.isLt; omega
  have hemb : ((cfg1.win 12).blk t).view.emb (ix2 p j) = ix2 (⟨3200 * t.val + p.val, hr⟩ : Fin 800000) j := by
    funext a; apply Fin.ext
    match a with
    | ⟨0, _⟩ => show win1_12.index t (0 : Fin 2) * 3200 + 1 * p.val = 3200 * t.val + p.val; rw [(idx_facts1 t).2.2.2.2.2.2.2.2.2.2.2.2.2.2.2.2.2.2.2.2.2.2.2.2.1]; omega
    | ⟨1, _⟩ => show win1_12.index t (1 : Fin 2) * 256 + 1 * j.val = j.val; rw [(idx_facts1 t).2.2.2.2.2.2.2.2.2.2.2.2.2.2.2.2.2.2.2.2.2.2.2.2.2]; omega
  refine (pay_eq_ePack1 _ _ _ _ _ _ _ _ _ _ _ _ p j).trans ?_
  show _ = edgeRows1 V c (((cfg1.win 12).blk t).view.emb (ix2 p j))
  rw [hemb]
  exact ePack_congr1 _ _ _ _ _ _ _ _ _ _ _ _ _ _ _ _ _ _ _ _ _ _ _ _ p ⟨3200 * t.val + p.val, hr⟩
    (fun q => iblk1_0_apply V c t p q _ rfl) (fun q => iblk1_1_apply V c t p q _ rfl) (fun q => iblk1_2_apply V c t p q _ rfl)
    (fun q => iblk1_3_apply V c t p q _ rfl) (fun q => iblk1_4_apply V c t p q _ rfl)
    (iblk1_5_eq V c t) (iblk1_6_eq V c t) (iblk1_7_eq V c t) (iblk1_8_eq V c t) (iblk1_9_eq V c t) (iblk1_10_eq V c t) (iblk1_11_eq V c t) j

/-- The output array after the region's run: the packed edge rows of the arrays the region is entered with. -/
theorem final1 (c : Dev nD) : (dat1 (F := Ideal) V c).arrAt 12 cfg1.N
    = fun i => Cert.Spec.ePack (R := 800000) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (i 0) (i 1) :=
  (dat1 V c).arrAt_eq_of_cover 12 (edgeRows1 V c) (fun t _ => flushed1_12_eq V c t) rows_covered1

end Cert.KernelIdeal.Hand
end
-- ==== Proof.KIHost01.lean ====
/-
  The kernel program's host stretches read as pure terms: what its first two regions are entered with.

  Before region 0 the program runs three stretches of host operations (two fill-mode row gathers of the `[800000, 64]`
  array at the two `[800000]` index vectors, then three row slices of a `[144, 64]` array and two reshapes of `[64]`
  vectors to `[1, 64]`); before region 1 four more (a scatter-add of region 0's result into zeros at one index vector and
  the two rows of the `[2, 800000]` index array cut out; two fill-mode row gathers of the `[50000, 64]` array at those
  rows; four row slices of a `[256, 64]` array and two reshapes). Each stretch rewrites the buffers it writes and leaves
  the rest, so from ANY contents `V` of the buffers each written array is a pure term of `V` at the stretch's operands
  (`hostOpsJ_main_vK`), and a reference no operation of a stretch writes keeps its contents (`keepJ`). Composing them
  gives every input array of region 0 as a term of the contents the three stretches start from (`V3_*`), and every input
  array of region 1 as a term of the contents its four stretches start from (`V8_*`); the argument arrays the regions
  read directly are unchanged.

  The fill-mode gathers are the terms `takeFill800000` / `takeFill50000`, which for indices in range are the rows
  `(i, c) ↦ arr (idx i, c)` (`takeFill800000_eq_rows`, `takeFill50000_eq_rows`). The float instance is arbitrary.
-/
import proofs.«166758_j50929722196748_2_alg».proof.Proof.Gen.KernelIdeal.Regions
import proofs.«166758_j50929722196748_2_alg».proof.Proof.LibTakeRows

set_option maxRecDepth 4412

noncomputable section

namespace Cert.KernelIdeal.KIHost01

open Idealize.ShloMosaic Idealize.ShloMosaic.TcCoe Cert.KernelIdeal Cert.KernelIdeal.Gen

variable {F : FTy → Type} [FloatOps F]

/-! ## The two row gathers in fill mode, as the host stretches compute them -/

/-- `jnp.take` in fill mode of rows of the `[800000, 64]` array: the select between the gathered rows and the constant row
    on the per-row range test of the wrapped index column. -/
def takeFill800000 (arr : FVec F S800000x64 .f32) (idx : IVec S800000 32) : FVec F S800000x64 .f32 :=
  select
    (broadcastInDim S800000x64 ![0] bcast_S800000_S800000x64_0
      (Host.reduce IntOp.andi
        (andi (cmpi .sge (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 800000#32))) idx)) (broadcastInDim S800000x1 ![] bcast_S_S800000x1 (constantI S_ 32 0#32)))
          (cmpi .sle (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 800000#32))) idx)) (broadcastInDim S800000x1 ![0, 1] bcast_S1x1_S800000x1_0_1 (broadcastInDim S1x1 ![1] bcast_S1_S1x1_1 (constantI S1 32 799999#32)))))
        (constantI S_ 1 1#1) reducesTo_S800000x1_S800000_d1 h_S_))
    (Host.gather gather_S800000x64_S800000x1_S800000x64_1_0_n_n_0_1_164 arr (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 800000#32))) idx)))
    (broadcastInDim S800000x64 ![] bcast_S_S800000x64 (constant S_ .f32 0x7FC00000#32))

/-- The same of rows of the `[50000, 64]` array. -/
def takeFill50000 (arr : FVec F S50000x64 .f32) (idx : IVec S800000 32) : FVec F S800000x64 .f32 :=
  select
    (broadcastInDim S800000x64 ![0] bcast_S800000_S800000x64_0
      (Host.reduce IntOp.andi
        (andi (cmpi .sge (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx)) (broadcastInDim S800000x1 ![] bcast_S_S800000x1 (constantI S_ 32 0#32)))
          (cmpi .sle (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx)) (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_))
    (Host.gather gather_S50000x64_S800000x1_S800000x64_1_0_n_n_0_1_164 arr (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx)))
    (broadcastInDim S800000x64 ![] bcast_S_S800000x64 (constant S_ .f32 0x7FC00000#32))

/-- For indices in `[0, 800000)` (signed) the fill-mode term is the rows: entry `(i, c)` is `arr (idx i, c)`. -/
theorem takeFill800000_eq_rows (arr : FVec F S800000x64 .f32) (idx : IVec S800000 32)
    (h0 : ∀ i, 0 ≤ (idx i).toInt) (h1 : ∀ i, (idx i).toInt < 800000) :
    takeFill800000 arr idx = Cert.TakeRows.rows Cert.TakeRows.pos_800000 arr idx :=
  Cert.TakeRows.take_fill_800000 _ _ _ _ _ _ _ _ _ _ ⟨rfl, rfl, rfl, rfl, rfl, rfl, rfl⟩ arr idx h0 h1

/-- For indices in `[0, 50000)` (signed) likewise. -/
theorem takeFill50000_eq_rows (arr : FVec F S50000x64 .f32) (idx : IVec S800000 32)
    (h0 : ∀ i, 0 ≤ (idx i).toInt) (h1 : ∀ i, (idx i).toInt < 50000) :
    takeFill50000 arr idx = Cert.TakeRows.rows Cert.TakeRows.pos_50000 arr idx :=
  Cert.TakeRows.take_fill_50000 _ _ _ _ _ _ _ _ _ _ ⟨rfl, rfl, rfl, rfl, rfl, rfl, rfl⟩ arr idx h0 h1

/-- Row `k` of the `[2, 800000]` index array as a vector `[800000]`: the slice `[k : k + 1, 0 : 800000]` reshaped. -/
def edgeRow0 (a : IVec S2x800000 32) : IVec S800000 32 :=
  shapeCast S800000 (extractStridedSlice S1x800000 ![0, 0] a slices_S2x800000_S1x800000_0_0) shapeCasts_S1x800000_S800000
def edgeRow1 (a : IVec S2x800000 32) : IVec S800000 32 :=
  shapeCast S800000 (extractStridedSlice S1x800000 ![1, 0] a slices_S2x800000_S1x800000_1_0) shapeCasts_S1x800000_S800000

/-- What holds of every entry of the index array holds of every entry of a row of it. -/
theorem edgeRow0_all (a : IVec S2x800000 32) (P : BitVec 32 → Prop) (h : ∀ i, P (a i)) (i : S800000.Idx) : P (edgeRow0 a i) :=
  h _
theorem edgeRow1_all (a : IVec S2x800000 32) (P : BitVec 32 → Prop) (h : ∀ i, P (a i)) (i : S800000.Idx) : P (edgeRow1 a i) :=
  h _

/-! ## Reading a buffer at its tensor type

A module-local function's operations move contents between a buffer's own type and the tensor type its value has
(`TRef.toBuf` / `TRef.ofBuf`, transports along an equation of types). Read at the tensor type, each operation's result is its
function of its operands read at theirs, and the transports cancel in general (`ofBuf_toBuf`), whatever the buffers are. -/

section TypedRead
variable {T Tx Ta Tb Tc Ty Tz : BufTy}

/-- The contents of a typed reference's buffer, at the tensor type. -/
def rd (V : Valuation τ sig (Elt F)) (x : StableHlo.TRef sig T) : T.Contents (Elt F) :=
  x.ofBuf (V (Proc.devRef .tc x.ref))

/-- Contents moved to a reference's buffer type and back are the contents. -/
theorem ofBuf_toBuf (x : StableHlo.TRef sig T) (v : T.Contents (Elt F)) : x.ofBuf (x.toBuf v) = v := by
  obtain ⟨r, h, h2, h3⟩ := x
  subst h
  rfl

theorem rd_nullary (y : StableHlo.TRef sig Ty) (v : Ty.Contents (Elt F)) (V : Valuation τ sig (Elt F)) :
    rd ((StableHlo.TRef.nullary y v : HloOp τ sig (Elt F)).result V) y = v := by
  unfold rd
  rw [StableHlo.nullary_result]
  exact ofBuf_toBuf y v

theorem rd_unary (x : StableHlo.TRef sig Tx) (y : StableHlo.TRef sig Ty) (f : Tx.Contents (Elt F) → Ty.Contents (Elt F))
    (V : Valuation τ sig (Elt F)) :
    rd ((StableHlo.TRef.unary x y f : HloOp τ sig (Elt F)).result V) y = f (rd V x) := by
  unfold rd
  rw [StableHlo.unary_result]
  exact ofBuf_toBuf y _

theorem rd_binary (a : StableHlo.TRef sig Ta) (b : StableHlo.TRef sig Tb) (y : StableHlo.TRef sig Ty)
    (f : Ta.Contents (Elt F) → Tb.Contents (Elt F) → Ty.Contents (Elt F)) (V : Valuation τ sig (Elt F)) :
    rd ((StableHlo.TRef.binary a b y f : HloOp τ sig (Elt F)).result V) y = f (rd V a) (rd V b) := by
  unfold rd
  rw [StableHlo.binary_result]
  exact ofBuf_toBuf y _

theorem rd_ternary (c : StableHlo.TRef sig Tc) (a : StableHlo.TRef sig Ta) (b : StableHlo.TRef sig Tb) (y : StableHlo.TRef sig Ty)
    (f : Tc.Contents (Elt F) → Ta.Contents (Elt F) → Tb.Contents (Elt F) → Ty.Contents (Elt F)) (V : Valuation τ sig (Elt F)) :
    rd ((StableHlo.TRef.ternary c a b y f : HloOp τ sig (Elt F)).result V) y = f (rd V c) (rd V a) (rd V b) := by
  unfold rd
  rw [StableHlo.ternary_result]
  exact ofBuf_toBuf y _

theorem rd_nullary_ne (y : StableHlo.TRef sig Ty) (v : Ty.Contents (Elt F)) (V : Valuation τ sig (Elt F))
    (z : StableHlo.TRef sig Tz) (h : z.ref ≠ y.ref) :
    rd ((StableHlo.TRef.nullary y v : HloOp τ sig (Elt F)).result V) z = rd V z := by
  unfold rd
  rw [StableHlo.nullary_result_ne (h := h)]

theorem rd_unary_ne (x : StableHlo.TRef sig Tx) (y : StableHlo.TRef sig Ty) (f : Tx.Contents (Elt F) → Ty.Contents (Elt F))
    (V : Valuation τ sig (Elt F)) (z : StableHlo.TRef sig Tz) (h : z.ref ≠ y.ref) :
    rd ((StableHlo.TRef.unary x y f : HloOp τ sig (Elt F)).result V) z = rd V z := by
  unfold rd
  rw [StableHlo.unary_result_ne (h := h)]

theorem rd_binary_ne (a : StableHlo.TRef sig Ta) (b : StableHlo.TRef sig Tb) (y : StableHlo.TRef sig Ty)
    (f : Ta.Contents (Elt F) → Tb.Contents (Elt F) → Ty.Contents (Elt F)) (V : Valuation τ sig (Elt F))
    (z : StableHlo.TRef sig Tz) (h : z.ref ≠ y.ref) :
    rd ((StableHlo.TRef.binary a b y f : HloOp τ sig (Elt F)).result V) z = rd V z := by
  unfold rd
  rw [StableHlo.binary_result_ne (h := h)]

theorem rd_ternary_ne (c : StableHlo.TRef sig Tc) (a : StableHlo.TRef sig Ta) (b : StableHlo.TRef sig Tb) (y : StableHlo.TRef sig Ty)
    (f : Tc.Contents (Elt F) → Ta.Contents (Elt F) → Tb.Contents (Elt F) → Ty.Contents (Elt F)) (V : Valuation τ sig (Elt F))
    (z : StableHlo.TRef sig Tz) (h : z.ref ≠ y.ref) :
    rd ((StableHlo.TRef.ternary c a b y f : HloOp τ sig (Elt F)).result V) z = rd V z := by
  unfold rd
  rw [StableHlo.ternary_result_ne (h := h)]

end TypedRead

/-! ## A reference no operation of a stretch writes keeps its contents -/

section Keep
variable (V : Valuation τ sig (Elt F)) (r : Ref sig .tc)
theorem keep0 (h : r ∉ hostOps0_W) : StableHlo.after hostOps0 V (Proc.devRef .tc r) = V (Proc.devRef .tc r) :=
  StableHlo.after_of_writes_sub hostOps0 V hostOps0_writes h
theorem keep0_1 (h : r ∉ hostOps0_1_W) : StableHlo.after hostOps0_1 V (Proc.devRef .tc r) = V (Proc.devRef .tc r) :=
  StableHlo.after_of_writes_sub hostOps0_1 V hostOps0_1_writes h
theorem keep0_2 (h : r ∉ hostOps0_2_W) : StableHlo.after hostOps0_2 V (Proc.devRef .tc r) = V (Proc.devRef .tc r) :=
  StableHlo.after_of_writes_sub hostOps0_2 V hostOps0_2_writes h
theorem keep1 (h : r ∉ hostOps1_W) : StableHlo.after hostOps1 V (Proc.devRef .tc r) = V (Proc.devRef .tc r) :=
  StableHlo.after_of_writes_sub hostOps1 V hostOps1_writes h
theorem keep1_1 (h : r ∉ hostOps1_1_W) : StableHlo.after hostOps1_1 V (Proc.devRef .tc r) = V (Proc.devRef .tc r) :=
  StableHlo.after_of_writes_sub hostOps1_1 V hostOps1_1_writes h
theorem keep1_2 (h : r ∉ hostOps1_2_W) : StableHlo.after hostOps1_2 V (Proc.devRef .tc r) = V (Proc.devRef .tc r) :=
  StableHlo.after_of_writes_sub hostOps1_2 V hostOps1_2_writes h
theorem keep1_3 (h : r ∉ hostOps1_3_W) : StableHlo.after hostOps1_3 V (Proc.devRef .tc r) = V (Proc.devRef .tc r) :=
  StableHlo.after_of_writes_sub hostOps1_3 V hostOps1_3_writes h
end Keep

/-! ## The stretches before region 0, one written reference at a time, from any contents -/

theorem hostOps0_rd_main_v0 (V : Valuation τ sig (Elt F)) :
    rd (StableHlo.after hostOps0 V) (.of main_v0 : StableHlo.TRef sig ⟨S800000x64, .f32⟩)
      = takeFill800000 (rd V (.of main_arg3 : StableHlo.TRef sig ⟨S800000x64, .f32⟩)) (rd V (.of main_arg5 : StableHlo.TRef sig ⟨S800000, .i32⟩)) := by
  simp (disch := decide) only [StableHlo.after_cons, StableHlo.after_nil, rd_nullary, rd_unary, rd_binary, rd_ternary,
    rd_nullary_ne, rd_unary_ne, rd_binary_ne, rd_ternary_ne]
  rfl

theorem hostOps0_main_v0 (V : Valuation τ sig (Elt F)) :
    (StableHlo.after hostOps0 V (Proc.devRef .tc main_v0) : FVec F S800000x64 .f32)
      = takeFill800000 (V (Proc.devRef .tc main_arg3) : FVec F S800000x64 .f32) (V (Proc.devRef .tc main_arg5) : IVec S800000 32) :=
  hostOps0_rd_main_v0 V

theorem hostOps0_1_rd_main_v1 (V : Valuation τ sig (Elt F)) :
    rd (StableHlo.after hostOps0_1 V) (.of main_v1 : StableHlo.TRef sig ⟨S800000x64, .f32⟩)
      = takeFill800000 (rd V (.of main_arg3 : StableHlo.TRef sig ⟨S800000x64, .f32⟩)) (rd V (.of main_arg6 : StableHlo.TRef sig ⟨S800000, .i32⟩)) := by
  simp (disch := decide) only [StableHlo.after_cons, StableHlo.after_nil, rd_nullary, rd_unary, rd_binary, rd_ternary,
    rd_nullary_ne, rd_unary_ne, rd_binary_ne, rd_ternary_ne]
  rfl

theorem hostOps0_1_main_v1 (V : Valuation τ sig (Elt F)) :
    (StableHlo.after hostOps0_1 V (Proc.devRef .tc main_v1) : FVec F S800000x64 .f32)
      = takeFill800000 (V (Proc.devRef .tc main_arg3) : FVec F S800000x64 .f32) (V (Proc.devRef .tc main_arg6) : IVec S800000 32) :=
  hostOps0_1_rd_main_v1 V

theorem hostOps0_2_main_v2 (V : Valuation τ sig (Elt F)) :
    (StableHlo.after hostOps0_2 V (Proc.devRef .tc main_v2) : FVec F S64x64 .f32)
      = extractStridedSlice S64x64 ![0, 0] (V (Proc.devRef .tc main_arg8) : FVec F S144x64 .f32) slices_S144x64_S64x64_0_0 := by
  show StableHlo.after hostOps0_2 V (Proc.devRef .tc main_v2) = _
  after_results
  try rfl

theorem hostOps0_2_main_v3 (V : Valuation τ sig (Elt F)) :
    (StableHlo.after hostOps0_2 V (Proc.devRef .tc main_v3) : FVec F S64x64 .f32)
      = extractStridedSlice S64x64 ![64, 0] (V (Proc.devRef .tc main_arg8) : FVec F S144x64 .f32) slices_S144x64_S64x64_64_0 := by
  show StableHlo.after hostOps0_2 V (Proc.devRef .tc main_v3) = _
  after_results
  try rfl

theorem hostOps0_2_main_v4 (V : Valuation τ sig (Elt F)) :
    (StableHlo.after hostOps0_2 V (Proc.devRef .tc main_v4) : FVec F S16x64 .f32)
      = extractStridedSlice S16x64 ![128, 0] (V (Proc.devRef .tc main_arg8) : FVec F S144x64 .f32) slices_S144x64_S16x64_128_0 := by
  show StableHlo.after hostOps0_2 V (Proc.devRef .tc main_v4) = _
  after_results
  try rfl

theorem hostOps0_2_main_v5 (V : Valuation τ sig (Elt F)) :
    (StableHlo.after hostOps0_2 V (Proc.devRef .tc main_v5) : FVec F S1x64 .f32)
      = shapeCast S1x64 (V (Proc.devRef .tc main_arg9) : FVec F S64 .f32) shapeCasts_S64_S1x64 := by
  show StableHlo.after hostOps0_2 V (Proc.devRef .tc main_v5) = _
  after_results
  try rfl

theorem hostOps0_2_main_v6 (V : Valuation τ sig (Elt F)) :
    (StableHlo.after hostOps0_2 V (Proc.devRef .tc main_v6) : FVec F S1x64 .f32)
      = shapeCast S1x64 (V (Proc.devRef .tc main_arg11) : FVec F S64 .f32) shapeCasts_S64_S1x64 := by
  show StableHlo.after hostOps0_2 V (Proc.devRef .tc main_v6) = _
  after_results
  try rfl

/-! ## Region 0's entry: its nine input arrays as terms of the contents `V` the three stretches start from -/

section Entry0
variable (V : Valuation τ sig (Elt F))

/-- The contents region 0 is entered with. -/
abbrev V3 : Valuation τ sig (Elt F) := StableHlo.after hostOps0_2 (StableHlo.after hostOps0_1 (StableHlo.after hostOps0 V))

theorem V3_main_v0 : (V3 V (Proc.devRef .tc main_v0) : FVec F S800000x64 .f32)
    = takeFill800000 (V (Proc.devRef .tc main_arg3) : FVec F S800000x64 .f32) (V (Proc.devRef .tc main_arg5) : IVec S800000 32) :=
  (keep0_2 _ main_v0 (by decide)).trans <| (keep0_1 _ main_v0 (by decide)).trans <| hostOps0_main_v0 V

theorem V3_main_v1 : (V3 V (Proc.devRef .tc main_v1) : FVec F S800000x64 .f32)
    = takeFill800000 (V (Proc.devRef .tc main_arg3) : FVec F S800000x64 .f32) (V (Proc.devRef .tc main_arg6) : IVec S800000 32) :=
  (keep0_2 _ main_v1 (by decide)).trans <| (hostOps0_1_main_v1 (StableHlo.after hostOps0 V)).trans <|
    congrArg₂ takeFill800000 (keep0 V main_arg3 (by decide)) (keep0 V main_arg6 (by decide))

theorem V3_main_arg8 : V3 V (Proc.devRef .tc main_arg8) = V (Proc.devRef .tc main_arg8) :=
  (keep0_2 _ main_arg8 (by decide)).trans <| (keep0_1 _ main_arg8 (by decide)).trans <| keep0 V main_arg8 (by decide)

theorem V3_main_v2 : (V3 V (Proc.devRef .tc main_v2) : FVec F S64x64 .f32)
    = extractStridedSlice S64x64 ![0, 0] (V (Proc.devRef .tc main_arg8) : FVec F S144x64 .f32) slices_S144x64_S64x64_0_0 :=
  (hostOps0_2_main_v2 _).trans <| congrArg (fun x : FVec F S144x64 .f32 => extractStridedSlice S64x64 ![0, 0] x slices_S144x64_S64x64_0_0)
    ((keep0_1 _ main_arg8 (by decide)).trans (keep0 V main_arg8 (by decide)))
theorem V3_main_v3 : (V3 V (Proc.devRef .tc main_v3) : FVec F S64x64 .f32)
    = extractStridedSlice S64x64 ![64, 0] (V (Proc.devRef .tc main_arg8) : FVec F S144x64 .f32) slices_S144x64_S64x64_64_0 :=
  (hostOps0_2_main_v3 _).trans <| congrArg (fun x : FVec F S144x64 .f32 => extractStridedSlice S64x64 ![64, 0] x slices_S144x64_S64x64_64_0)
    ((keep0_1 _ main_arg8 (by decide)).trans (keep0 V main_arg8 (by decide)))
theorem V3_main_v4 : (V3 V (Proc.devRef .tc main_v4) : FVec F S16x64 .f32)
    = extractStridedSlice S16x64 ![128, 0] (V (Proc.devRef .tc main_arg8) : FVec F S144x64 .f32) slices_S144x64_S16x64_128_0 :=
  (hostOps0_2_main_v4 _).trans <| congrArg (fun x : FVec F S144x64 .f32 => extractStridedSlice S16x64 ![128, 0] x slices_S144x64_S16x64_128_0)
    ((keep0_1 _ main_arg8 (by decide)).trans (keep0 V main_arg8 (by decide)))
theorem V3_main_v5 : (V3 V (Proc.devRef .tc main_v5) : FVec F S1x64 .f32)
    = shapeCast S1x64 (V (Proc.devRef .tc main_arg9) : FVec F S64 .f32) shapeCasts_S64_S1x64 :=
  (hostOps0_2_main_v5 _).trans <| congrArg (fun x : FVec F S64 .f32 => shapeCast S1x64 x shapeCasts_S64_S1x64)
    ((keep0_1 _ main_arg9 (by decide)).trans (keep0 V main_arg9 (by decide)))
theorem V3_main_v6 : (V3 V (Proc.devRef .tc main_v6) : FVec F S1x64 .f32)
    = shapeCast S1x64 (V (Proc.devRef .tc main_arg11) : FVec F S64 .f32) shapeCasts_S64_S1x64 :=
  (hostOps0_2_main_v6 _).trans <| congrArg (fun x : FVec F S64 .f32 => shapeCast S1x64 x shapeCasts_S64_S1x64)
    ((keep0_1 _ main_arg11 (by decide)).trans (keep0 V main_arg11 (by decide)))
theorem V3_main_arg7 : V3 V (Proc.devRef .tc main_arg7) = V (Proc.devRef .tc main_arg7) :=
  (keep0_2 _ main_arg7 (by decide)).trans <| (keep0_1 _ main_arg7 (by decide)).trans <| keep0 V main_arg7 (by decide)
theorem V3_main_arg10 : V3 V (Proc.devRef .tc main_arg10) = V (Proc.devRef .tc main_arg10) :=
  (keep0_2 _ main_arg10 (by decide)).trans <| (keep0_1 _ main_arg10 (by decide)).trans <| keep0 V main_arg10 (by decide)

end Entry0

/-! ## The stretches before region 1, one written reference at a time, from any contents -/

theorem hostOps1_main_v10 (V : Valuation τ sig (Elt F)) :
    (StableHlo.after hostOps1 V (Proc.devRef .tc main_v10) : FVec F S800000x64 .f32)
      = Host.scatterAdd scatter_S800000x64_S800000x1_S800000x64_1_0_0_1
        (broadcastInDim S800000x64 ![] bcast_S_S800000x64 (constant S_ .f32 0x00000000#32))
        (broadcastInDim S800000x1 ![0] bcast_S800000_S800000x1_0 (V (Proc.devRef .tc main_arg6) : IVec S800000 32))
        (V (Proc.devRef .tc main_v7) : FVec F S800000x64 .f32) := by
  show StableHlo.after hostOps1 V (Proc.devRef .tc main_v10) = _
  after_results
  try rfl

theorem hostOps1_main_v12 (V : Valuation τ sig (Elt F)) :
    (StableHlo.after hostOps1 V (Proc.devRef .tc main_v12) : IVec S800000 32) = edgeRow0 (V (Proc.devRef .tc main_arg2) : IVec S2x800000 32) := by
  show StableHlo.after hostOps1 V (Proc.devRef .tc main_v12) = _
  after_results
  try rfl

theorem hostOps1_main_v14 (V : Valuation τ sig (Elt F)) :
    (StableHlo.after hostOps1 V (Proc.devRef .tc main_v14) : IVec S800000 32) = edgeRow1 (V (Proc.devRef .tc main_arg2) : IVec S2x800000 32) := by
  show StableHlo.after hostOps1 V (Proc.devRef .tc main_v14) = _
  after_results
  try rfl

theorem hostOps1_1_rd_main_v15 (V : Valuation τ sig (Elt F)) :
    rd (StableHlo.after hostOps1_1 V) (.of main_v15 : StableHlo.TRef sig ⟨S800000x64, .f32⟩)
      = takeFill50000 (rd V (.of main_arg0 : StableHlo.TRef sig ⟨S50000x64, .f32⟩)) (rd V (.of main_v12 : StableHlo.TRef sig ⟨S800000, .i32⟩)) := by
  simp (disch := decide) only [StableHlo.after_cons, StableHlo.after_nil, rd_nullary, rd_unary, rd_binary, rd_ternary,
    rd_nullary_ne, rd_unary_ne, rd_binary_ne, rd_ternary_ne]
  rfl

theorem hostOps1_1_main_v15 (V : Valuation τ sig (Elt F)) :
    (StableHlo.after hostOps1_1 V (Proc.devRef .tc main_v15) : FVec F S800000x64 .f32)
      = takeFill50000 (V (Proc.devRef .tc main_arg0) : FVec F S50000x64 .f32) (V (Proc.devRef .tc main_v12) : IVec S800000 32) :=
  hostOps1_1_rd_main_v15 V

theorem hostOps1_2_rd_main_v16 (V : Valuation τ sig (Elt F)) :
    rd (StableHlo.after hostOps1_2 V) (.of main_v16 : StableHlo.TRef sig ⟨S800000x64, .f32⟩)
      = takeFill50000 (rd V (.of main_arg0 : StableHlo.TRef sig ⟨S50000x64, .f32⟩)) (rd V (.of main_v14 : StableHlo.TRef sig ⟨S800000, .i32⟩)) := by
  simp (disch := decide) only [StableHlo.after_cons, StableHlo.after_nil, rd_nullary, rd_unary, rd_binary, rd_ternary,
    rd_nullary_ne, rd_unary_ne, rd_binary_ne, rd_ternary_ne]
  rfl

theorem hostOps1_2_main_v16 (V : Valuation τ sig (Elt F)) :
    (StableHlo.after hostOps1_2 V (Proc.devRef .tc main_v16) : FVec F S800000x64 .f32)
      = takeFill50000 (V (Proc.devRef .tc main_arg0) : FVec F S50000x64 .f32) (V (Proc.devRef .tc main_v14) : IVec S800000 32) :=
  hostOps1_2_rd_main_v16 V

theorem hostOps1_3_main_v17 (V : Valuation τ sig (Elt F)) :
    (StableHlo.after hostOps1_3 V (Proc.devRef .tc main_v17) : FVec F S64x64 .f32)
      = extractStridedSlice S64x64 ![0, 0] (V (Proc.devRef .tc main_arg12) : FVec F S256x64 .f32) slices_S256x64_S64x64_0_0 := by
  show StableHlo.after hostOps1_3 V (Proc.devRef .tc main_v17) = _
  after_results
  try rfl

theorem hostOps1_3_main_v18 (V : Valuation τ sig (Elt F)) :
    (StableHlo.after hostOps1_3 V (Proc.devRef .tc main_v18) : FVec F S64x64 .f32)
      = extractStridedSlice S64x64 ![64, 0] (V (Proc.devRef .tc main_arg12) : FVec F S256x64 .f32) slices_S256x64_S64x64_64_0 := by
  show StableHlo.after hostOps1_3 V (Proc.devRef .tc main_v18) = _
  after_results
  try rfl

theorem hostOps1_3_main_v19 (V : Valuation τ sig (Elt F)) :
    (StableHlo.after hostOps1_3 V (Proc.devRef .tc main_v19) : FVec F S64x64 .f32)
      = extractStridedSlice S64x64 ![128, 0] (V (Proc.devRef .tc main_arg12) : FVec F S256x64 .f32) slices_S256x64_S64x64_128_0 := by
  show StableHlo.after hostOps1_3 V (Proc.devRef .tc main_v19) = _
  after_results
  try rfl

theorem hostOps1_3_main_v20 (V : Valuation τ sig (Elt F)) :
    (StableHlo.after hostOps1_3 V (Proc.devRef .tc main_v20) : FVec F S64x64 .f32)
      = extractStridedSlice S64x64 ![192, 0] (V (Proc.devRef .tc main_arg12) : FVec F S256x64 .f32) slices_S256x64_S64x64_192_0 := by
  show StableHlo.after hostOps1_3 V (Proc.devRef .tc main_v20) = _
  after_results
  try rfl

theorem hostOps1_3_main_v21 (V : Valuation τ sig (Elt F)) :
    (StableHlo.after hostOps1_3 V (Proc.devRef .tc main_v21) : FVec F S1x64 .f32)
      = shapeCast S1x64 (V (Proc.devRef .tc main_arg13) : FVec F S64 .f32) shapeCasts_S64_S1x64 := by
  show StableHlo.after hostOps1_3 V (Proc.devRef .tc main_v21) = _
  after_results
  try rfl

theorem hostOps1_3_main_v22 (V : Valuation τ sig (Elt F)) :
    (StableHlo.after hostOps1_3 V (Proc.devRef .tc main_v22) : FVec F S1x128 .f32)
      = shapeCast S1x128 (V (Proc.devRef .tc main_arg15) : FVec F S128 .f32) shapeCasts_S128_S1x128 := by
  show StableHlo.after hostOps1_3 V (Proc.devRef .tc main_v22) = _
  after_results
  try rfl

/-! ## Region 1's entry: its input arrays as terms of the contents `V` the four stretches start from (what region 0 left) -/

section Entry1
variable (V : Valuation τ sig (Elt F))

/-- The contents region 1 is entered with. -/
abbrev V8 : Valuation τ sig (Elt F) :=
  StableHlo.after hostOps1_3 (StableHlo.after hostOps1_2 (StableHlo.after hostOps1_1 (StableHlo.after hostOps1 V)))

theorem V8_main_v10 : (V8 V (Proc.devRef .tc main_v10) : FVec F S800000x64 .f32)
    = Host.scatterAdd scatter_S800000x64_S800000x1_S800000x64_1_0_0_1
        (broadcastInDim S800000x64 ![] bcast_S_S800000x64 (constant S_ .f32 0x00000000#32))
        (broadcastInDim S800000x1 ![0] bcast_S800000_S800000x1_0 (V (Proc.devRef .tc main_arg6) : IVec S800000 32))
        (V (Proc.devRef .tc main_v7) : FVec F S800000x64 .f32) :=
  (keep1_3 _ main_v10 (by decide)).trans <| (keep1_2 _ main_v10 (by decide)).trans <| (keep1_1 _ main_v10 (by decide)).trans <|
    hostOps1_main_v10 V

theorem V8_main_v15 : (V8 V (Proc.devRef .tc main_v15) : FVec F S800000x64 .f32)
    = takeFill50000 (V (Proc.devRef .tc main_arg0) : FVec F S50000x64 .f32) (edgeRow0 (V (Proc.devRef .tc main_arg2) : IVec S2x800000 32)) :=
  (keep1_3 _ main_v15 (by decide)).trans <| (keep1_2 _ main_v15 (by decide)).trans <|
    (hostOps1_1_main_v15 (StableHlo.after hostOps1 V)).trans <|
      congrArg₂ takeFill50000 (keep1 V main_arg0 (by decide)) (hostOps1_main_v12 V)

theorem V8_main_v16 : (V8 V (Proc.devRef .tc main_v16) : FVec F S800000x64 .f32)
    = takeFill50000 (V (Proc.devRef .tc main_arg0) : FVec F S50000x64 .f32) (edgeRow1 (V (Proc.devRef .tc main_arg2) : IVec S2x800000 32)) :=
  (keep1_3 _ main_v16 (by decide)).trans <|
    (hostOps1_2_main_v16 (StableHlo.after hostOps1_1 (StableHlo.after hostOps1 V))).trans <|
      congrArg₂ takeFill50000 ((keep1_1 _ main_arg0 (by decide)).trans (keep1 V main_arg0 (by decide)))
        ((keep1_1 _ main_v14 (by decide)).trans (hostOps1_main_v14 V))

/-- An argument array none of the four stretches writes, at region 1's entry. -/
theorem V8_keep (r : Ref sig .tc) (h1 : r ∉ hostOps1_W) (h2 : r ∉ hostOps1_1_W) (h3 : r ∉ hostOps1_2_W) (h4 : r ∉ hostOps1_3_W) :
    V8 V (Proc.devRef .tc r) = V (Proc.devRef .tc r) :=
  (keep1_3 _ r h4).trans <| (keep1_2 _ r h3).trans <| (keep1_1 _ r h2).trans <| keep1 V r h1
/-- … and just before the last stretch. -/
theorem V7_keep (r : Ref sig .tc) (h1 : r ∉ hostOps1_W) (h2 : r ∉ hostOps1_1_W) (h3 : r ∉ hostOps1_2_W) :
    StableHlo.after hostOps1_2 (StableHlo.after hostOps1_1 (StableHlo.after hostOps1 V)) (Proc.devRef .tc r) = V (Proc.devRef .tc r) :=
  (keep1_2 _ r h3).trans <| (keep1_1 _ r h2).trans <| keep1 V r h1

theorem V8_main_v17 : (V8 V (Proc.devRef .tc main_v17) : FVec F S64x64 .f32)
    = extractStridedSlice S64x64 ![0, 0] (V (Proc.devRef .tc main_arg12) : FVec F S256x64 .f32) slices_S256x64_S64x64_0_0 :=
  (hostOps1_3_main_v17 _).trans <| congrArg (fun x : FVec F S256x64 .f32 => extractStridedSlice S64x64 ![0, 0] x slices_S256x64_S64x64_0_0)
    (V7_keep V main_arg12 (by decide) (by decide) (by decide))
theorem V8_main_v18 : (V8 V (Proc.devRef .tc main_v18) : FVec F S64x64 .f32)
    = extractStridedSlice S64x64 ![64, 0] (V (Proc.devRef .tc main_arg12) : FVec F S256x64 .f32) slices_S256x64_S64x64_64_0 :=
  (hostOps1_3_main_v18 _).trans <| congrArg (fun x : FVec F S256x64 .f32 => extractStridedSlice S64x64 ![64, 0] x slices_S256x64_S64x64_64_0)
    (V7_keep V main_arg12 (by decide) (by decide) (by decide))
theorem V8_main_v19 : (V8 V (Proc.devRef .tc main_v19) : FVec F S64x64 .f32)
    = extractStridedSlice S64x64 ![128, 0] (V (Proc.devRef .tc main_arg12) : FVec F S256x64 .f32) slices_S256x64_S64x64_128_0 :=
  (hostOps1_3_main_v19 _).trans <| congrArg (fun x : FVec F S256x64 .f32 => extractStridedSlice S64x64 ![128, 0] x slices_S256x64_S64x64_128_0)
    (V7_keep V main_arg12 (by decide) (by decide) (by decide))
theorem V8_main_v20 : (V8 V (Proc.devRef .tc main_v20) : FVec F S64x64 .f32)
    = extractStridedSlice S64x64 ![192, 0] (V (Proc.devRef .tc main_arg12) : FVec F S256x64 .f32) slices_S256x64_S64x64_192_0 :=
  (hostOps1_3_main_v20 _).trans <| congrArg (fun x : FVec F S256x64 .f32 => extractStridedSlice S64x64 ![192, 0] x slices_S256x64_S64x64_192_0)
    (V7_keep V main_arg12 (by decide) (by decide) (by decide))
theorem V8_main_v21 : (V8 V (Proc.devRef .tc main_v21) : FVec F S1x64 .f32)
    = shapeCast S1x64 (V (Proc.devRef .tc main_arg13) : FVec F S64 .f32) shapeCasts_S64_S1x64 :=
  (hostOps1_3_main_v21 _).trans <| congrArg (fun x : FVec F S64 .f32 => shapeCast S1x64 x shapeCasts_S64_S1x64)
    (V7_keep V main_arg13 (by decide) (by decide) (by decide))
theorem V8_main_v22 : (V8 V (Proc.devRef .tc main_v22) : FVec F S1x128 .f32)
    = shapeCast S1x128 (V (Proc.devRef .tc main_arg15) : FVec F S128 .f32) shapeCasts_S128_S1x128 :=
  (hostOps1_3_main_v22 _).trans <| congrArg (fun x : FVec F S128 .f32 => shapeCast S1x128 x shapeCasts_S128_S1x128)
    (V7_keep V main_arg15 (by decide) (by decide) (by decide))

theorem V8_main_arg3 : V8 V (Proc.devRef .tc main_arg3) = V (Proc.devRef .tc main_arg3) :=
  V8_keep V main_arg3 (by decide) (by decide) (by decide) (by decide)
theorem V8_main_arg4 : V8 V (Proc.devRef .tc main_arg4) = V (Proc.devRef .tc main_arg4) :=
  V8_keep V main_arg4 (by decide) (by decide) (by decide) (by decide)
theorem V8_main_arg14 : V8 V (Proc.devRef .tc main_arg14) = V (Proc.devRef .tc main_arg14) :=
  V8_keep V main_arg14 (by decide) (by decide) (by decide) (by decide)

end Entry1

end Cert.KernelIdeal.KIHost01

end
-- ==== Proof.LibScatterRead.lean ====
/-
  An accumulating scatter of rows, read at an index.

  The scatter takes an operand `x : [N, C]`, one signed index per update row (`idx : [E, 1]`) and updates
  `upd : [E, C]`; update row `e` is added, column by column, into operand row `idx e` when `0 ≤ idx e < N` and is
  dropped otherwise. With exact addition the result at `(n, c)` is
  `x(n, c) + ∑ {e | idx e = n} upd(e, c)`:
  each column is scattered independently of the others. Hence a scatter of several column groups packed side by
  side, read in one group, is the scatter of that group alone; and a scatter of a flattened `[E, H·3]` array whose
  column `3h + c` holds `m(e,h) * d(e,c)`, read back as `[N, H, 3]`, is `∑ {e | idx e = n} m(e,h) * d(e,c)`.
-/
import Idealize.ShloMosaic.Lib.Pipeline.Value
import Idealize.ShloMosaic.Lib.ValueIdx
import Idealize.ShloMosaic.PureOps.Ideal.Laws

noncomputable section

open scoped BigOperators

namespace Cert.Spec

open Idealize.ShloMosaic Idealize.ShloMosaic.ValueIdx

/-- The dimension numbers of a row scatter: operand `[N, C]`, indices `[E, 1]` (one scalar index per update row, on
    the index-vector axis 1), updates `[E, C]`; the updates' axis 1 is the window axis, the operand's axis 0 is inserted
    and is the axis the index addresses. The well-formedness conditions `wf` are whatever proof the caller has. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)

/-! ### Where update `(e, k)` lands: row `idx e` (read signed), column `k` -/

/-- On the row axis the window coordinate is zero (the axis is inserted) … -/
theorem rowScatter_window0 (e : Fin E) (k : Fin C) : (rowScatter N E C wf).window (ix2 e k) 0 = 0 := rfl
/-- … and on the column axis it is the update's column. -/
theorem rowScatter_window1 (e : Fin E) (k : Fin C) : (rowScatter N E C wf).window (ix2 e k) 1 = k.val := rfl
/-- The column axis is not addressed by the index: its start is zero. -/
theorem rowScatter_start1 (e : Fin E) (k : Fin C) (idx : IVec ⟨2, ![E, 1]⟩ w) :
    (rowScatter N E C wf).start (ix2 e k) idx 1 = 0 := rfl
/-- The index of update row `e` is read at `(e, 0)` of the index array. -/
theorem rowScatter_siIdx (e : Fin E) (k : Fin C) (c : Fin 1) :
    (rowScatter N E C wf).siIdx (ix2 e k) ⟨c.val, by have := c.isLt; simpa using this⟩ = ix2 e (0 : Fin 1) := by
  funext b
  match b with
  | ⟨0, _⟩ => rfl
  | ⟨1, _⟩ => exact Fin.ext (by have := c.isLt; simp [ScatterDims.siIdx])
/-- The start on the row axis is that index, read as a signed integer. -/
theorem rowScatter_start0 (e : Fin E) (k : Fin C) (idx : IVec ⟨2, ![E, 1]⟩ w) :
    (rowScatter N E C wf).start (ix2 e k) idx 0 = (idx (ix2 e (0 : Fin 1))).toInt := by
  unfold ScatterDims.start
  rw [dif_pos (by simp)]
  exact congrArg (fun q => (idx q).toInt) (rowScatter_siIdx wf e k ⟨0, by decide⟩)

/-- Update `(e, k)` lands on operand element `(n, c)` exactly when the index of row `e` is `n` and `k = c`. -/
theorem rowScatter_resultIdx?_eq_some_iff (e : Fin E) (k : Fin C) (idx : IVec ⟨2, ![E, 1]⟩ w) (n : Fin N) (c : Fin C) :
    (rowScatter N E C wf).resultIdx? (ix2 e k) idx = some (ix2 n c)
      ↔ (idx (ix2 e (0 : Fin 1))).toInt = (n.val : Int) ∧ k = c := by
  have hs0 := rowScatter_start0 wf e k idx
  have hs1 := rowScatter_start1 wf e k idx
  have hw0 := rowScatter_window0 wf e k
  have hw1 := rowScatter_window1 wf e k
  unfold ScatterDims.resultIdx?
  split
  · next h =>
    rw [Option.some.injEq]
    constructor
    · intro hf
      have h0 : ((rowScatter N E C wf).start (ix2 e k) idx 0 + ((rowScatter N E C wf).window (ix2 e k) 0 : Nat)).toNat = n.val :=
        congrArg (fun f => (f 0).val) hf
      have h1 : ((rowScatter N E C wf).start (ix2 e k) idx 1 + ((rowScatter N E C wf).window (ix2 e k) 1 : Nat)).toNat = c.val :=
        congrArg (fun f => (f 1).val) hf
      have hh0 : 0 ≤ (rowScatter N E C wf).start (ix2 e k) idx 0 + ((rowScatter N E C wf).window (ix2 e k) 0 : Nat) := (h 0).1
      rw [hs0, hw0] at h0 hh0
      rw [hs1, hw1] at h1
      refine ⟨by omega, Fin.ext (by omega)⟩
    · rintro ⟨ht, hc⟩
      funext a
      match a with
      | ⟨0, _⟩ =>
        refine Fin.ext ?_
        show ((rowScatter N E C wf).start (ix2 e k) idx 0 + ((rowScatter N E C wf).window (ix2 e k) 0 : Nat)).toNat = n.val
        rw [hs0, hw0, ht]; omega
      | ⟨1, _⟩ =>
        refine Fin.ext ?_
        show ((rowScatter N E C wf).start (ix2 e k) idx 1 + ((rowScatter N E C wf).window (ix2 e k) 1 : Nat)).toNat = c.val
        rw [hs1, hw1, hc]; omega
  · next h =>
    constructor
    · intro hf; exact absurd hf (by simp)
    · rintro ⟨ht, hc⟩
      refine absurd (fun a => ?_) h
      match a with
      | ⟨0, _⟩ =>
        show 0 ≤ (rowScatter N E C wf).start (ix2 e k) idx 0 + ((rowScatter N E C wf).window (ix2 e k) 0 : Nat)
          ∧ (rowScatter N E C wf).start (ix2 e k) idx 0 + ((rowScatter N E C wf).window (ix2 e k) 0 : Nat) < (N : Int)
        rw [hs0, hw0, ht]; have := n.isLt; omega
      | ⟨1, _⟩ =>
        show 0 ≤ (rowScatter N E C wf).start (ix2 e k) idx 1 + ((rowScatter N E C wf).window (ix2 e k) 1 : Nat)
          ∧ (rowScatter N E C wf).start (ix2 e k) idx 1 + ((rowScatter N E C wf).window (ix2 e k) 1 : Nat) < (C : Int)
        rw [hs1, hw1]; have := k.isLt; omega

/-! ### The scatter read at an index -/

/-- The accumulating scatter of rows read at `(n, c)`: the operand there plus the sum, over the update rows `e` whose
    index (read signed) is `n`, of the update at `(e, c)`. Rows whose index is negative or `≥ N` match no `n` and are
    dropped. -/
theorem hostScatterAdd_rowScatter_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c)
        + ∑ e ∈ Finset.univ.filter (fun e : Fin E => (idx (ix2 e (0 : Fin 1))).toInt = (n.val : Int)), upd (ix2 e c) := by
  unfold Ideal.hostScatterAdd
  refine congrArg (x (ix2 n c) + ·) ?_
  rw [Finset.sum_filter, sum_idx2, Finset.sum_filter]
  refine Finset.sum_congr rfl fun e _ => ?_
  by_cases ht : (idx (ix2 e (0 : Fin 1))).toInt = (n.val : Int)
  · rw [if_pos ht]
    rw [Finset.sum_eq_single c]
    · rw [if_pos ((rowScatter_resultIdx?_eq_some_iff wf e c idx n c).2 ⟨ht, rfl⟩)]
    · intro k _ hk
      rw [if_neg fun h => hk ((rowScatter_resultIdx?_eq_some_iff wf e k idx n c).1 h).2]
    · intro h; exact absurd (Finset.mem_univ c) h
  · rw [if_neg ht]
    refine Finset.sum_eq_zero fun k _ => ?_
    rw [if_neg fun h => ht ((rowScatter_resultIdx?_eq_some_iff wf e k idx n c).1 h).1]

/-- The same for the host's scatter as a program states it (`Host.scatterAdd` at the exact values). -/
theorem scatterAdd_rowScatter_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (rowScatter N E C wf) x idx upd (ix2 n c)
      = x (ix2 n c)
        + ∑ e ∈ Finset.univ.filter (fun e : Fin E => (idx (ix2 e (0 : Fin 1))).toInt = (n.val : Int)), upd (ix2 e c) :=
  hostScatterAdd_rowScatter_apply wf x idx upd n c

/-! ### Columns are scattered independently -/

/-- Two row scatters by the same indices, of possibly different widths, agree at `(n, c)` and `(n, c')` when their operands
    agree there and their updates agree in those two columns on every row. -/
theorem scatterAdd_rowScatter_congr_col {C' : Nat} {φ : FTy}
    (wf' : ScatterDims.WF ⟨2, ![N, C']⟩ ⟨2, ![E, 1]⟩ ⟨2, ![E, C']⟩ [1] [0] [0] 1)
    (x : FVec Ideal ⟨2, ![N, C]⟩ φ) (x' : FVec Ideal ⟨2, ![N, C']⟩ φ) (idx : IVec ⟨2, ![E, 1]⟩ w)
    (upd : FVec Ideal ⟨2, ![E, C]⟩ φ) (upd' : FVec Ideal ⟨2, ![E, C']⟩ φ) (n : Fin N) (c : Fin C) (c' : Fin C')
    (hx : x (ix2 n c) = x' (ix2 n c')) (hu : ∀ e : Fin E, upd (ix2 e c) = upd' (ix2 e c')) :
    Host.scatterAdd (rowScatter N E C wf) x idx upd (ix2 n c)
      = Host.scatterAdd (rowScatter N E C' wf') x' idx upd' (ix2 n c') := by
  rw [scatterAdd_rowScatter_apply, scatterAdd_rowScatter_apply, hx]
  exact congrArg (x' (ix2 n c') + ·) (Finset.sum_congr rfl fun e _ => hu e)

/-- A block of `W` columns at column offset `off`, cut out of a row scatter of width `C`, read at `(n, c)`: the scatter's
    value in column `off + c`. -/
theorem slice_scatterAdd_rowScatter_apply {W off : Nat} {φ : FTy}
    (hs : (⟨2, ![N, C]⟩ : Shape).Slices ![0, off] ⟨2, ![N, W]⟩)
    (x : FVec Ideal ⟨2, ![N, C]⟩ φ) (idx : IVec ⟨2, ![E, 1]⟩ w) (upd : FVec Ideal ⟨2, ![E, C]⟩ φ)
    (n : Fin N) (c : Fin W) (hc : off + c.val < C) :
    extractStridedSlice ⟨2, ![N, W]⟩ ![0, off] (Host.scatterAdd (rowScatter N E C wf) x idx upd) hs (ix2 n c)
      = x (ix2 n ⟨off + c.val, hc⟩)
        + ∑ e ∈ Finset.univ.filter (fun e : Fin E => (idx (ix2 e (0 : Fin 1))).toInt = (n.val : Int)),
            upd (ix2 e ⟨off + c.val, hc⟩) := by
  rw [← scatterAdd_rowScatter_apply wf x idx upd n ⟨off + c.val, hc⟩]
  unfold extractStridedSlice
  refine congrArg _ (funext fun a => ?_)
  match a with
  | ⟨0, _⟩ => exact Fin.ext (Nat.zero_add _)
  | ⟨1, _⟩ => rfl

/-- So the block of a PACKED scatter is the scatter of the block alone: if the narrow operand and updates are the packed
    ones' columns `off … off + W`, the narrow scatter at `(n, c)` is the packed scatter's block at `(n, c)`. -/
theorem slice_scatterAdd_rowScatter_eq {W off : Nat} {φ : FTy}
    (wfW : ScatterDims.WF ⟨2, ![N, W]⟩ ⟨2, ![E, 1]⟩ ⟨2, ![E, W]⟩ [1] [0] [0] 1)
    (hs : (⟨2, ![N, C]⟩ : Shape).Slices ![0, off] ⟨2, ![N, W]⟩)
    (x : FVec Ideal ⟨2, ![N, C]⟩ φ) (xW : FVec Ideal ⟨2, ![N, W]⟩ φ) (idx : IVec ⟨2, ![E, 1]⟩ w)
    (upd : FVec Ideal ⟨2, ![E, C]⟩ φ) (updW : FVec Ideal ⟨2, ![E, W]⟩ φ) (n : Fin N) (c : Fin W) (hc : off + c.val < C)
    (hx : xW (ix2 n c) = x (ix2 n ⟨off + c.val, hc⟩))
    (hu : ∀ e : Fin E, updW (ix2 e c) = upd (ix2 e ⟨off + c.val, hc⟩)) :
    extractStridedSlice ⟨2, ![N, W]⟩ ![0, off] (Host.scatterAdd (rowScatter N E C wf) x idx upd) hs (ix2 n c)
      = Host.scatterAdd (rowScatter N E W wfW) xW idx updW (ix2 n c) := by
  rw [slice_scatterAdd_rowScatter_apply wf hs x idx upd n c hc, scatterAdd_rowScatter_apply, hx]
  exact congrArg (x (ix2 n ⟨off + c.val, hc⟩) + ·) (Finset.sum_congr rfl fun e _ => (hu e).symm)

/-! ### A flattened `[E, 64, 3]` array scattered as `[E, 192]` and read back as `[N, 64, 3]` -/

/-- Flatten `mv : [E, 64, 3]` to `[E, 192]` (column `3h + c` holds `mv(e, h, c)`), scatter its rows into `x : [N, 192]`, and read the
    result as `[N, 64, 3]`: at `(n, h, c)` it is `x(n, 3h + c) + ∑ {e | idx e = n} mv(e, h, c)`. -/
theorem shapeCast_scatterAdd_shapeCast_apply {φ : FTy}
    (wf3 : ScatterDims.WF ⟨2, ![N, 192]⟩ ⟨2, ![E, 1]⟩ ⟨2, ![E, 192]⟩ [1] [0] [0] 1)
    (h1 : (⟨3, ![E, 64, 3]⟩ : Shape).ShapeCasts ⟨2, ![E, 192]⟩)
    (h2 : (⟨2, ![N, 192]⟩ : Shape).ShapeCasts ⟨3, ![N, 64, 3]⟩)
    (x : FVec Ideal ⟨2, ![N, 192]⟩ φ) (idx : IVec ⟨2, ![E, 1]⟩ w) (mv : FVec Ideal ⟨3, ![E, 64, 3]⟩ φ)
    (n : Fin N) (h : Fin 64) (c : Fin 3) :
    shapeCast ⟨3, ![N, 64, 3]⟩
        (Host.scatterAdd (rowScatter N E 192 wf3) x idx (shapeCast ⟨2, ![E, 192]⟩ mv h1)) h2 (ix3 n h c)
      = x (ix2 n ⟨3 * h.val + c.val, by have := h.isLt; have := c.isLt; omega⟩)
        + ∑ e ∈ Finset.univ.filter (fun e : Fin E => (idx (ix2 e (0 : Fin 1))).toInt = (n.val : Int)), mv (ix3 e h c) := by
  have hq : 3 * h.val + c.val < 192 := by have := h.isLt; have := c.isLt; omega
  rw [shapeCast_apply _ h2 (ix3 n h c) (ix2 n ⟨3 * h.val + c.val, hq⟩) (by
    rw [Shape.rowMajor_val_two, Shape.rowMajor_val_three]
    show n.val * 192 + (3 * h.val + c.val) = (n.val * 64 + h.val) * 3 + c.val
    omega)]
  rw [scatterAdd_rowScatter_apply]
  refine congrArg (x (ix2 n ⟨3 * h.val + c.val, hq⟩) + ·) (Finset.sum_congr rfl fun e _ => ?_)
  exact shapeCast_apply mv h1 (ix2 e ⟨3 * h.val + c.val, hq⟩) (ix3 e h c) (by
    rw [Shape.rowMajor_val_two, Shape.rowMajor_val_three]
    show (e.val * 64 + h.val) * 3 + c.val = e.val * 192 + (3 * h.val + c.val)
    omega)

/-- With the flattened array a product `mv(e, h, c) = m(e, h) * d(e, c)` and a zero operand: the value at `(n, h, c)` is
    `∑ {e | idx e = n} m(e, h) * d(e, c)`. -/
theorem shapeCast_scatterAdd_shapeCast_mul_apply {φ : FTy}
    (wf3 : ScatterDims.WF ⟨2, ![N, 192]⟩ ⟨2, ![E, 1]⟩ ⟨2, ![E, 192]⟩ [1] [0] [0] 1)
    (h1 : (⟨3, ![E, 64, 3]⟩ : Shape).ShapeCasts ⟨2, ![E, 192]⟩)
    (h2 : (⟨2, ![N, 192]⟩ : Shape).ShapeCasts ⟨3, ![N, 64, 3]⟩)
    (x : FVec Ideal ⟨2, ![N, 192]⟩ φ) (hx : ∀ i, x i = 0) (idx : IVec ⟨2, ![E, 1]⟩ w)
    (mv : FVec Ideal ⟨3, ![E, 64, 3]⟩ φ) (m : FVec Ideal ⟨2, ![E, 64]⟩ φ) (d : FVec Ideal ⟨2, ![E, 3]⟩ φ)
    (hmv : ∀ (e : Fin E) (h : Fin 64) (c : Fin 3), mv (ix3 e h c) = m (ix2 e h) * d (ix2 e c))
    (n : Fin N) (h : Fin 64) (c : Fin 3) :
    shapeCast ⟨3, ![N, 64, 3]⟩
        (Host.scatterAdd (rowScatter N E 192 wf3) x idx (shapeCast ⟨2, ![E, 192]⟩ mv h1)) h2 (ix3 n h c)
      = ∑ e ∈ Finset.univ.filter (fun e : Fin E => (idx (ix2 e (0 : Fin 1))).toInt = (n.val : Int)),
          m (ix2 e h) * d (ix2 e c) := by
  rw [shapeCast_scatterAdd_shapeCast_apply wf3 h1 h2 x idx mv n h c, hx, zero_add]
  exact Finset.sum_congr rfl fun e _ => hmv e h c

end RowScatter

end Cert.Spec

end
-- ==== Proof.KIEntry01.lean ====
/-
  The kernel program's first two regions are entered with the canonical arrays.

  At the exact values, and under the index ranges the precondition states, each array a region reads that a host
  stretch wrote is one of the array-level functions the layer is stated with: the fill-mode row gathers are the gathered
  rows, a slice of whole rows of a weight matrix is that block of rows, a vector reshaped to one row is the one-row
  matrix, a row of the `[2, 800000]` index array sliced out and reshaped is that row, and the accumulating scatter of
  rows onto the zero array is the segment sum (the operand is `0` everywhere, and the index column reads the index
  vector). The arrays the regions read directly hold what they held.
-/
import proofs.«166758_j50929722196748_2_alg».proof.Proof.KIHost01
import proofs.«166758_j50929722196748_2_alg».proof.Proof.SpecArr
import proofs.«166758_j50929722196748_2_alg».proof.Proof.LibScatterRead
import Idealize.ShloMosaic.Lib.Pipeline.Value

set_option maxRecDepth 4412

noncomputable section

open scoped BigOperators

namespace Cert.KernelIdeal.KIEntry01

open Idealize.ShloMosaic Idealize.ShloMosaic.ValueIdx Idealize.ShloMosaic.TcCoe Cert.KernelIdeal Cert.KernelIdeal.Gen Cert.Spec Cert.KernelIdeal.KIHost01

/-! ## The layout operations of the host stretches as the array-level functions -/

/-- A slice of `n` whole rows from row `o` is that block of rows. -/
theorem slice_eq_rowBlock {K H n : Nat} (o : Nat) (h : o + n ≤ K)
    (hs : (⟨2, ![K, H]⟩ : Shape).Slices ![o, 0] ⟨2, ![n, H]⟩) (x : Mat K H) :
    extractStridedSlice ⟨2, ![n, H]⟩ ![o, 0] x hs = rowBlock x o n h := by
  funext j
  refine extractStridedSlice_apply _ x hs j _ fun a => ?_
  match a with
  | ⟨0, _⟩ => rfl
  | ⟨1, _⟩ => exact (Nat.zero_add _).symm

/-- A vector reshaped to one row is the vector laid as a one-row matrix. -/
theorem reshape_eq_asRow {H : Nat} (hc : (⟨1, ![H]⟩ : Shape).ShapeCasts ⟨2, ![1, H]⟩) (b : Vec1 H) :
    shapeCast ⟨2, ![1, H]⟩ b hc = asRow b := by
  funext j
  refine shapeCast_apply b hc j _ ?_
  rw [Shape.rowMajor_val_one, Shape.rowMajor_val_two]
  have h0 : (j 0).val = 0 := by have := idx2_lt0 j; omega
  show (j 1).val = (j 0).val * H + (j 1).val
  rw [h0]; omega

/-- Row `k` of the `[2, 800000]` index array, sliced out and reshaped to a vector, is that row. -/
theorem sliceRow_eq_edgeRow (k : Fin 2) (hs : S2x800000.Slices ![k.val, 0] S1x800000) (hc : S1x800000.ShapeCasts S800000)
    (a : IVec S2x800000 32) :
    shapeCast S800000 (extractStridedSlice S1x800000 ![k.val, 0] a hs) hc = edgeRow a k := by
  funext i
  refine (shapeCast_apply _ hc i (ix2 (0 : Fin 1) (⟨(i 0).val, (i 0).isLt⟩ : Fin 800000)) ?_).trans ?_
  · rw [Shape.rowMajor_val_two, Shape.rowMajor_val_one]
    show 0 * 800000 + (i 0).val = (i 0).val
    omega
  · refine extractStridedSlice_apply _ a hs _ (ix2 k (⟨(i 0).val, (i 0).isLt⟩ : Fin 800000)) fun b => ?_
    match b with
    | ⟨0, _⟩ => rfl
    | ⟨1, _⟩ => exact (Nat.zero_add _).symm

/-- An accumulating scatter of rows onto the zero array at an index vector laid as a column is the segment sum. -/
theorem scatter_zero_eq_segSum
    (wf : ScatterDims.WF ⟨2, ![800000, 64]⟩ ⟨2, ![800000, 1]⟩ ⟨2, ![800000, 64]⟩ [1] [0] [0] 1)
    (bc : S_.BroadcastsInDim S800000x64 ![]) (bc1 : S800000.BroadcastsInDim S800000x1 ![0])
    (idx : IVec S800000 32) (upd : Mat 800000 64) :
    Host.scatterAdd (F := Ideal) (rowScatter 800000 800000 64 wf)
        (broadcastInDim S800000x64 ![] bc (constant S_ .f32 0x00000000#32)) (broadcastInDim S800000x1 ![0] bc1 idx) upd
      = segSum idx upd := by
  funext i
  obtain ⟨n, c, rfl⟩ : ∃ n c, i = ix2 n c := ⟨i 0, i 1, eq_ix2 i⟩
  rw [scatterAdd_rowScatter_apply]
  have hz : (broadcastInDim S800000x64 ![] bc (constant (F := Ideal) S_ .f32 0x00000000#32)) (ix2 n c) = 0 :=
    Ideal.ofBits_zero_f32
  rw [hz, zero_add]
  have hcol : ∀ e : Fin 800000, broadcastInDim S800000x1 ![0] bc1 idx (ix2 e (0 : Fin 1)) = idx (ix1 e) :=
    fun e => Cert.TakeRows.col_apply bc1 idx _
  simp only [hcol]
  rfl

/-! ## Region 0's entry arrays in canonical form -/

section Entry0
variable (V : Valuation τ sig (Elt Ideal))

/-- The rows of the edge features gathered by the first triplet index. -/
theorem K0_main_v0 (h0 : ∀ i, 0 ≤ ((V (Proc.devRef .tc main_arg5) : IVec S800000 32) i).toInt)
    (h1 : ∀ i, ((V (Proc.devRef .tc main_arg5) : IVec S800000 32) i).toInt < 800000) :
    (V3 V (Proc.devRef .tc main_v0) : Mat 800000 64)
      = Cert.TakeRows.rows Cert.TakeRows.pos_800000 (V (Proc.devRef .tc main_arg3) : Mat 800000 64) (V (Proc.devRef .tc main_arg5) : IVec S800000 32) :=
  (V3_main_v0 V).trans (takeFill800000_eq_rows _ _ h0 h1)

/-- … and by the second. -/
theorem K0_main_v1 (h0 : ∀ i, 0 ≤ ((V (Proc.devRef .tc main_arg6) : IVec S800000 32) i).toInt)
    (h1 : ∀ i, ((V (Proc.devRef .tc main_arg6) : IVec S800000 32) i).toInt < 800000) :
    (V3 V (Proc.devRef .tc main_v1) : Mat 800000 64)
      = Cert.TakeRows.rows Cert.TakeRows.pos_800000 (V (Proc.devRef .tc main_arg3) : Mat 800000 64) (V (Proc.devRef .tc main_arg6) : IVec S800000 32) :=
  (V3_main_v1 V).trans (takeFill800000_eq_rows _ _ h0 h1)

theorem K0_main_v2 : (V3 V (Proc.devRef .tc main_v2) : Mat 64 64) = rowBlock (V (Proc.devRef .tc main_arg8) : Mat 144 64) 0 64 (by omega) :=
  (V3_main_v2 V).trans (slice_eq_rowBlock 0 _ _ _)
theorem K0_main_v3 : (V3 V (Proc.devRef .tc main_v3) : Mat 64 64) = rowBlock (V (Proc.devRef .tc main_arg8) : Mat 144 64) 64 64 (by omega) :=
  (V3_main_v3 V).trans (slice_eq_rowBlock 64 _ _ _)
theorem K0_main_v4 : (V3 V (Proc.devRef .tc main_v4) : Mat 16 64) = rowBlock (V (Proc.devRef .tc main_arg8) : Mat 144 64) 128 16 (by omega) :=
  (V3_main_v4 V).trans (slice_eq_rowBlock 128 _ _ _)
theorem K0_main_v5 : (V3 V (Proc.devRef .tc main_v5) : Mat 1 64) = asRow (V (Proc.devRef .tc main_arg9) : Vec1 64) :=
  (V3_main_v5 V).trans (reshape_eq_asRow _ _)
theorem K0_main_v6 : (V3 V (Proc.devRef .tc main_v6) : Mat 1 64) = asRow (V (Proc.devRef .tc main_arg11) : Vec1 64) :=
  (V3_main_v6 V).trans (reshape_eq_asRow _ _)
theorem K0_main_arg7 : V3 V (Proc.devRef .tc main_arg7) = V (Proc.devRef .tc main_arg7) := V3_main_arg7 V
theorem K0_main_arg10 : V3 V (Proc.devRef .tc main_arg10) = V (Proc.devRef .tc main_arg10) := V3_main_arg10 V

end Entry0

/-! ## Region 1's entry arrays in canonical form -/

section Entry1
variable (V : Valuation τ sig (Elt Ideal))

/-- The triplet messages summed into the edges by the second triplet index. -/
theorem K1_main_v10 :
    (V8 V (Proc.devRef .tc main_v10) : Mat 800000 64) = segSum (V (Proc.devRef .tc main_arg6) : IVec S800000 32) (V (Proc.devRef .tc main_v7) : Mat 800000 64) :=
  (V8_main_v10 V).trans (scatter_zero_eq_segSum _ _ _ _ _)

/-- The sources and the destinations, as the stretch before region 1 leaves them. -/
theorem K1_main_v12 : (V8 V (Proc.devRef .tc main_v12) : IVec S800000 32) = edgeRow (V (Proc.devRef .tc main_arg2) : IVec S2x800000 32) 0 :=
  (keep1_3 _ main_v12 (by decide)).trans <| (keep1_2 _ main_v12 (by decide)).trans <| (keep1_1 _ main_v12 (by decide)).trans <|
    (hostOps1_main_v12 V).trans (sliceRow_eq_edgeRow 0 _ _ _)
theorem K1_main_v14 : (V8 V (Proc.devRef .tc main_v14) : IVec S800000 32) = edgeRow (V (Proc.devRef .tc main_arg2) : IVec S2x800000 32) 1 :=
  (keep1_3 _ main_v14 (by decide)).trans <| (keep1_2 _ main_v14 (by decide)).trans <| (keep1_1 _ main_v14 (by decide)).trans <|
    (hostOps1_main_v14 V).trans (sliceRow_eq_edgeRow 1 _ _ _)

/-- The node features gathered at the sources … -/
theorem K1_main_v15 (h0 : ∀ i, 0 ≤ ((V (Proc.devRef .tc main_arg2) : IVec S2x800000 32) i).toInt)
    (h1 : ∀ i, ((V (Proc.devRef .tc main_arg2) : IVec S2x800000 32) i).toInt < 50000) :
    (V8 V (Proc.devRef .tc main_v15) : Mat 800000 64)
      = Cert.TakeRows.rows Cert.TakeRows.pos_50000 (V (Proc.devRef .tc main_arg0) : Mat 50000 64) (edgeRow (V (Proc.devRef .tc main_arg2) : IVec S2x800000 32) 0) :=
  (V8_main_v15 V).trans <| (congrArg (takeFill50000 (F := Ideal) (V (Proc.devRef .tc main_arg0))) (sliceRow_eq_edgeRow 0 _ _ _)).trans
    (takeFill50000_eq_rows _ _ (fun i => h0 _) (fun i => h1 _))

/-- … and at the destinations. -/
theorem K1_main_v16 (h0 : ∀ i, 0 ≤ ((V (Proc.devRef .tc main_arg2) : IVec S2x800000 32) i).toInt)
    (h1 : ∀ i, ((V (Proc.devRef .tc main_arg2) : IVec S2x800000 32) i).toInt < 50000) :
    (V8 V (Proc.devRef .tc main_v16) : Mat 800000 64)
      = Cert.TakeRows.rows Cert.TakeRows.pos_50000 (V (Proc.devRef .tc main_arg0) : Mat 50000 64) (edgeRow (V (Proc.devRef .tc main_arg2) : IVec S2x800000 32) 1) :=
  (V8_main_v16 V).trans <| (congrArg (takeFill50000 (F := Ideal) (V (Proc.devRef .tc main_arg0))) (sliceRow_eq_edgeRow 1 _ _ _)).trans
    (takeFill50000_eq_rows _ _ (fun i => h0 _) (fun i => h1 _))

theorem K1_main_v17 : (V8 V (Proc.devRef .tc main_v17) : Mat 64 64) = rowBlock (V (Proc.devRef .tc main_arg12) : Mat 256 64) 0 64 (by omega) :=
  (V8_main_v17 V).trans (slice_eq_rowBlock 0 _ _ _)
theorem K1_main_v18 : (V8 V (Proc.devRef .tc main_v18) : Mat 64 64) = rowBlock (V (Proc.devRef .tc main_arg12) : Mat 256 64) 64 64 (by omega) :=
  (V8_main_v18 V).trans (slice_eq_rowBlock 64 _ _ _)
theorem K1_main_v19 : (V8 V (Proc.devRef .tc main_v19) : Mat 64 64) = rowBlock (V (Proc.devRef .tc main_arg12) : Mat 256 64) 128 64 (by omega) :=
  (V8_main_v19 V).trans (slice_eq_rowBlock 128 _ _ _)
theorem K1_main_v20 : (V8 V (Proc.devRef .tc main_v20) : Mat 64 64) = rowBlock (V (Proc.devRef .tc main_arg12) : Mat 256 64) 192 64 (by omega) :=
  (V8_main_v20 V).trans (slice_eq_rowBlock 192 _ _ _)
theorem K1_main_v21 : (V8 V (Proc.devRef .tc main_v21) : Mat 1 64) = asRow (V (Proc.devRef .tc main_arg13) : Vec1 64) :=
  (V8_main_v21 V).trans (reshape_eq_asRow _ _)
theorem K1_main_v22 : (V8 V (Proc.devRef .tc main_v22) : Mat 1 128) = asRow (V (Proc.devRef .tc main_arg15) : Vec1 128) :=
  (V8_main_v22 V).trans (reshape_eq_asRow _ _)
theorem K1_main_arg3 : V8 V (Proc.devRef .tc main_arg3) = V (Proc.devRef .tc main_arg3) := V8_main_arg3 V
theorem K1_main_arg4 : V8 V (Proc.devRef .tc main_arg4) = V (Proc.devRef .tc main_arg4) := V8_main_arg4 V
theorem K1_main_arg14 : V8 V (Proc.devRef .tc main_arg14) = V (Proc.devRef .tc main_arg14) := V8_main_arg14 V

end Entry1

end Cert.KernelIdeal.KIEntry01

end
-- ==== Proof.KISide01.lean ====
/-
  What the kernel program's first two regions leave, as functions of the argument arrays.

  Region 0 is entered with the arrays the three host stretches before it computed and leaves, in its output array, the
  triplet message of every row of those arrays; at the exact values and under the precondition's index ranges the entry
  arrays are the gathered rows of the edge features, the row blocks of the first weight matrix and the one-row biases,
  so the output array is the layer's triplet messages of the argument arrays (`ker_v7`). Region 1 is entered with the
  segment sum of that array by the second triplet index, the node features gathered at the sources and at the
  destinations of the edges, and the row blocks and one-row biases of the second perceptron, and leaves the packed edge
  rows; so its output array is the packed edge rows of the argument arrays (`ker_v23`). The destinations it was entered
  with are row 1 of the edge-index array (`ker_v14`). An argument array reaches a region as launched: no host stretch
  writes it, and region 0 changes only its output array.
-/
import proofs.«166758_j50929722196748_2_alg».proof.Proof.KIRun
import proofs.«166758_j50929722196748_2_alg».proof.Proof.KIValue0
import proofs.«166758_j50929722196748_2_alg».proof.Proof.KIValue1
import proofs.«166758_j50929722196748_2_alg».proof.Proof.KIEntry01
import proofs.«166758_j50929722196748_2_alg».proof.Proof.PreIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.Spec Cert.KernelIdeal.KIHost01 Cert.KernelIdeal.KIEntry01

/-! ## The row functions respect equality of their arrays -/

theorem tMsg_congr {R : Nat} {kj kj' ji ji' : Mat R 64} {ang ang' : Mat R 16} {wa wa' wb wb' : Mat 64 64}
    {wc wc' : Mat 16 64} {b1 b1' : Mat 1 64} {w2 w2' : Mat 64 64} {b2 b2' : Mat 1 64}
    (h1 : kj = kj') (h2 : ji = ji') (h3 : ang = ang') (h4 : wa = wa') (h5 : wb = wb') (h6 : wc = wc') (h7 : b1 = b1')
    (h8 : w2 = w2') (h9 : b2 = b2') (r : Fin R) (j : Fin 64) :
    tMsg kj ji ang wa wb wc b1 w2 b2 r j = tMsg kj' ji' ang' wa' wb' wc' b1' w2' b2' r j := by
  subst h1 h2 h3 h4 h5 h6 h7 h8 h9; rfl

theorem ePack_congr {R : Nat} {ssrc ssrc' sdst sdst' rbf rbf' ang ang' : Mat R 64} {ed ed' : Mat R 3}
    {ws ws' wd wd' wr wr' wa wa' : Mat 64 64} {b1 b1' : Mat 1 64} {w2 w2' : Mat 64 128} {b2 b2' : Mat 1 128}
    (h1 : ssrc = ssrc') (h2 : sdst = sdst') (h3 : rbf = rbf') (h4 : ang = ang') (h5 : ed = ed') (h6 : ws = ws')
    (h7 : wd = wd') (h8 : wr = wr') (h9 : wa = wa') (h10 : b1 = b1') (h11 : w2 = w2') (h12 : b2 = b2')
    (r : Fin R) (j : Fin 256) :
    ePack ssrc sdst rbf ang ed ws wd wr wa b1 w2 b2 r j = ePack ssrc' sdst' rbf' ang' ed' ws' wd' wr' wa' b1' w2' b2' r j := by
  subst h1 h2 h3 h4 h5 h6 h7 h8 h9 h10 h11 h12; rfl

/-! ## The argument arrays, as launched -/

section Args
variable (m : (ℓ : Loc nD τ sig) → Buf (Elt Ideal) ℓ) (c : Dev nD)

abbrev a0 : Mat 50000 64 := m ((c : Thread nD τ).loc main_arg0)
abbrev a2 : IVec S2x800000 32 := m ((c : Thread nD τ).loc main_arg2)
abbrev a3 : Mat 800000 64 := m ((c : Thread nD τ).loc main_arg3)
abbrev a4 : Mat 800000 3 := m ((c : Thread nD τ).loc main_arg4)
abbrev a5 : IVec S800000 32 := m ((c : Thread nD τ).loc main_arg5)
abbrev a6 : IVec S800000 32 := m ((c : Thread nD τ).loc main_arg6)
abbrev a7 : Mat 800000 16 := m ((c : Thread nD τ).loc main_arg7)
abbrev a8 : Mat 144 64 := m ((c : Thread nD τ).loc main_arg8)
abbrev a9 : Vec1 64 := m ((c : Thread nD τ).loc main_arg9)
abbrev a10 : Mat 64 64 := m ((c : Thread nD τ).loc main_arg10)
abbrev a11 : Vec1 64 := m ((c : Thread nD τ).loc main_arg11)
abbrev a12 : Mat 256 64 := m ((c : Thread nD τ).loc main_arg12)
abbrev a13 : Vec1 64 := m ((c : Thread nD τ).loc main_arg13)
abbrev a14 : Mat 64 128 := m ((c : Thread nD τ).loc main_arg14)
abbrev a15 : Vec1 128 := m ((c : Thread nD τ).loc main_arg15)

end Args

section Side
variable (m : (ℓ : Loc nD τ sig) → Buf (Elt Ideal) ℓ) (ρ : Dev nD → PrngReg) (c : Dev nD)

/-- A reference none of the three stretches before region 0 writes holds at region 0's entry what it held at launch. -/
theorem W3_of_launch (r : Ref sig .tc) (h0 : r ∉ hostOps0_W) (h1 : r ∉ hostOps0_1_W) (h2 : r ∉ hostOps0_2_W) :
    W3 m ρ c (Proc.devRef .tc r) = W0 m ρ c (Proc.devRef .tc r) :=
  (W3_of m ρ c r h2).trans ((W2_of m ρ c r h1).trans (W1_of m ρ c r h0))

/-- … and at region 0's exit, when it is none of region 0's arrays. -/
theorem W4_of_launch (r : Ref sig .tc) (hw : ∀ w, Pipeline.arrRef spec0 w ≠ r) (h0 : r ∉ hostOps0_W) (h1 : r ∉ hostOps0_1_W)
    (h2 : r ∉ hostOps0_2_W) : W4 m ρ c (Proc.devRef .tc r) = W0 m ρ c (Proc.devRef .tc r) :=
  (W4_of_ne m ρ c r hw).trans (W3_of_launch m ρ c r h0 h1 h2)

/-- REGION 0's OUTPUT ARRAY: the layer's triplet messages of the argument arrays. -/
theorem ker_v7 (hr : Cert.PreIdx.Ranges (a2 m c) (a5 m c) (a6 m c)) :
    (W4 m ρ c (Proc.devRef .tc main_v7) : Mat 800000 64)
      = tripletMsg (a3 m c) (a5 m c) (a6 m c) (a7 m c) (a8 m c) (a9 m c) (a10 m c) (a11 m c) := by
  refine ((W4_arr m ρ c 9).trans (final0_named (Vin0 m ρ) c)).trans ?_
  funext i
  exact tMsg_congr (K0_main_v0 (W0 m ρ c) hr.a5_ge hr.a5_lt) (K0_main_v1 (W0 m ρ c) hr.a6_ge hr.a6_lt)
    (K0_main_arg7 (W0 m ρ c)) (K0_main_v2 (W0 m ρ c)) (K0_main_v3 (W0 m ρ c)) (K0_main_v4 (W0 m ρ c))
    (K0_main_v5 (W0 m ρ c)) (K0_main_arg10 (W0 m ρ c)) (K0_main_v6 (W0 m ρ c)) (i 0) (i 1)

/-- The destinations region 1 was entered with, still held at its exit: row 1 of the edge-index array. -/
theorem ker_v14 : (W9 m ρ c (Proc.devRef .tc main_v14) : IVec S800000 32) = edgeRow (a2 m c) 1 :=
  (W9_of_ne m ρ c main_v14 (by decide)).trans <| (K1_main_v14 (W4 m ρ c)).trans <|
    congrArg (fun a : IVec S2x800000 32 => edgeRow a 1) (W4_of_launch m ρ c main_arg2 (by decide) (by decide) (by decide) (by decide))

/-- REGION 1's OUTPUT ARRAY: the packed edge rows of the argument arrays. -/
theorem ker_v23 (hr : Cert.PreIdx.Ranges (a2 m c) (a5 m c) (a6 m c)) :
    (W9 m ρ c (Proc.devRef .tc main_v23) : Mat 800000 256)
      = fun i => ePack (R := 800000)
          (Cert.TakeRows.rows Cert.TakeRows.pos_50000 (a0 m c) (edgeRow (a2 m c) 0))
          (Cert.TakeRows.rows Cert.TakeRows.pos_50000 (a0 m c) (edgeRow (a2 m c) 1))
          (a3 m c) (angleAgg (a3 m c) (a5 m c) (a6 m c) (a7 m c) (a8 m c) (a9 m c) (a10 m c) (a11 m c)) (a4 m c)
          (rowBlock (a12 m c) 0 64 (by omega)) (rowBlock (a12 m c) 64 64 (by omega)) (rowBlock (a12 m c) 128 64 (by omega))
          (rowBlock (a12 m c) 192 64 (by omega)) (asRow (a13 m c)) (a14 m c) (asRow (a15 m c)) (i 0) (i 1) := by
  have w0 : (W4 m ρ c (Proc.devRef .tc main_arg0) : Mat 50000 64) = a0 m c := W4_of_launch m ρ c main_arg0 (by decide) (by decide) (by decide) (by decide)
  have w2 : (W4 m ρ c (Proc.devRef .tc main_arg2) : IVec S2x800000 32) = a2 m c := W4_of_launch m ρ c main_arg2 (by decide) (by decide) (by decide) (by decide)
  have w3 : (W4 m ρ c (Proc.devRef .tc main_arg3) : Mat 800000 64) = a3 m c := W4_of_launch m ρ c main_arg3 (by decide) (by decide) (by decide) (by decide)
  have w4 : (W4 m ρ c (Proc.devRef .tc main_arg4) : Mat 800000 3) = a4 m c := W4_of_launch m ρ c main_arg4 (by decide) (by decide) (by decide) (by decide)
  have w6 : (W4 m ρ c (Proc.devRef .tc main_arg6) : IVec S800000 32) = a6 m c := W4_of_launch m ρ c main_arg6 (by decide) (by decide) (by decide) (by decide)
  have w12 : (W4 m ρ c (Proc.devRef .tc main_arg12) : Mat 256 64) = a12 m c := W4_of_launch m ρ c main_arg12 (by decide) (by decide) (by decide) (by decide)
  have w13 : (W4 m ρ c (Proc.devRef .tc main_arg13) : Vec1 64) = a13 m c := W4_of_launch m ρ c main_arg13 (by decide) (by decide) (by decide) (by decide)
  have w14 : (W4 m ρ c (Proc.devRef .tc main_arg14) : Mat 64 128) = a14 m c := W4_of_launch m ρ c main_arg14 (by decide) (by decide) (by decide) (by decide)
  have w15 : (W4 m ρ c (Proc.devRef .tc main_arg15) : Vec1 128) = a15 m c := W4_of_launch m ρ c main_arg15 (by decide) (by decide) (by decide) (by decide)
  have g2 : ∀ i, 0 ≤ ((W4 m ρ c (Proc.devRef .tc main_arg2) : IVec S2x800000 32) i).toInt := fun i => by rw [w2]; exact hr.a2_ge i
  have l2 : ∀ i, ((W4 m ρ c (Proc.devRef .tc main_arg2) : IVec S2x800000 32) i).toInt < 50000 := fun i => by rw [w2]; exact hr.a2_lt i
  have e15 : (V8 (W4 m ρ c) (Proc.devRef .tc main_v15) : Mat 800000 64)
      = Cert.TakeRows.rows Cert.TakeRows.pos_50000 (a0 m c) (edgeRow (a2 m c) 0) :=
    (K1_main_v15 (W4 m ρ c) g2 l2).trans (by rw [w0, w2])
  have e16 : (V8 (W4 m ρ c) (Proc.devRef .tc main_v16) : Mat 800000 64)
      = Cert.TakeRows.rows Cert.TakeRows.pos_50000 (a0 m c) (edgeRow (a2 m c) 1) :=
    (K1_main_v16 (W4 m ρ c) g2 l2).trans (by rw [w0, w2])
  have e3 : (V8 (W4 m ρ c) (Proc.devRef .tc main_arg3) : Mat 800000 64) = a3 m c := (K1_main_arg3 (W4 m ρ c)).trans w3
  have e10 : (V8 (W4 m ρ c) (Proc.devRef .tc main_v10) : Mat 800000 64)
      = angleAgg (a3 m c) (a5 m c) (a6 m c) (a7 m c) (a8 m c) (a9 m c) (a10 m c) (a11 m c) :=
    (K1_main_v10 (W4 m ρ c)).trans (by rw [w6, ker_v7 m ρ c hr]; rfl)
  have e4 : (V8 (W4 m ρ c) (Proc.devRef .tc main_arg4) : Mat 800000 3) = a4 m c := (K1_main_arg4 (W4 m ρ c)).trans w4
  have e17 : (V8 (W4 m ρ c) (Proc.devRef .tc main_v17) : Mat 64 64) = rowBlock (a12 m c) 0 64 (by omega) :=
    (K1_main_v17 (W4 m ρ c)).trans (by rw [w12])
  have e18 : (V8 (W4 m ρ c) (Proc.devRef .tc main_v18) : Mat 64 64) = rowBlock (a12 m c) 64 64 (by omega) :=
    (K1_main_v18 (W4 m ρ c)).trans (by rw [w12])
  have e19 : (V8 (W4 m ρ c) (Proc.devRef .tc main_v19) : Mat 64 64) = rowBlock (a12 m c) 128 64 (by omega) :=
    (K1_main_v19 (W4 m ρ c)).trans (by rw [w12])
  have e20 : (V8 (W4 m ρ c) (Proc.devRef .tc main_v20) : Mat 64 64) = rowBlock (a12 m c) 192 64 (by omega) :=
    (K1_main_v20 (W4 m ρ c)).trans (by rw [w12])
  have e21 : (V8 (W4 m ρ c) (Proc.devRef .tc main_v21) : Mat 1 64) = asRow (a13 m c) := (K1_main_v21 (W4 m ρ c)).trans (by rw [w13])
  have e14 : (V8 (W4 m ρ c) (Proc.devRef .tc main_arg14) : Mat 64 128) = a14 m c := (K1_main_arg14 (W4 m ρ c)).trans w14
  have e22 : (V8 (W4 m ρ c) (Proc.devRef .tc main_v22) : Mat 1 128) = asRow (a15 m c) := (K1_main_v22 (W4 m ρ c)).trans (by rw [w15])
  refine ((W9_arr m ρ c 12).trans (final1 (Vin1 m ρ) c)).trans ?_
  funext i
  exact ePack_congr e15 e16 e3 e10 e4 e17 e18 e19 e20 e21 e14 e22 (i 0) (i 1)

end Side

end Cert.KernelIdeal.Hand

end
-- ==== Proof.KIHost23.lean ====
/-
  The kernel program's last two stretches of array operations, read as terms of the arrays they start from.

  Before the node stage: the packed per-edge array `[800000, 256]` is summed into the nodes by the edges' destinations
  (one scatter of all 256 columns), the result is cut into its four blocks of 64 columns, the three components of the
  vector features are cut out and laid as matrices, two weight matrices are cut into three row blocks each, and six
  vectors are laid as one-row matrices. After the node stage: the packed result `[50000, 256]` is cut into its first
  64 columns (the new scalar features) and the other three blocks, which are laid side by side along a new last axis
  (the new vector features).
-/
import proofs.«166758_j50929722196748_2_alg».proof.Proof.Gen.KernelIdeal.Launch
import Idealize.ShloMosaic.Lib.StableHlo.Run

set_option maxRecDepth 4412

noncomputable section

namespace Cert.KIHost

open Cert.KernelIdeal Cert.KernelIdeal.Gen
open Idealize.ShloMosaic Idealize.ShloMosaic.TcCoe Idealize.ShloMosaic.StableHlo Idealize.SL.Sem

variable {F : FTy → Type} [FloatOps F]

/-- The zero operand of the node sum. -/
abbrev zeros256 : FVec F S50000x256 .f32 :=
  broadcastInDim S50000x256 ![] bcast_S_S50000x256 (constant (F := F) S_ .f32 0x00000000#32)

/-- The packed edge array `P` summed into the nodes by the destinations `D`: one scatter of all 256 columns into zeros. -/
abbrev aggPacked (D : IVec S800000 32) (P : FVec F S800000x256 .f32) : FVec F S50000x256 .f32 :=
  Host.scatterAdd scatter_S50000x256_S800000x1_S800000x256_1_0_0_1 zeros256
    (broadcastInDim S800000x1 ![0] bcast_S800000_S800000x1_0 D) P

/-! ## Before the node stage -/

/-- The node sum of the packed edge array. -/
theorem hostOps2_v26 (V' : Valuation τ sig (Elt F)) :
    (after hostOps2 V' (main_v26 : DevRef τ sig) : FVec F S50000x256 .f32)
      = aggPacked (V' (main_v14 : DevRef τ sig)) (V' (main_v23 : DevRef τ sig)) := by
  after_results

/-! Its four blocks of 64 columns. -/

theorem hostOps2_v27 (V' : Valuation τ sig (Elt F)) :
    (after hostOps2 V' (main_v27 : DevRef τ sig) : FVec F S50000x64 .f32)
      = extractStridedSlice S50000x64 ![0, 0] (aggPacked (V' (main_v14 : DevRef τ sig)) (V' (main_v23 : DevRef τ sig)))
          slices_S50000x256_S50000x64_0_0 := by
  after_results

theorem hostOps2_v28 (V' : Valuation τ sig (Elt F)) :
    (after hostOps2 V' (main_v28 : DevRef τ sig) : FVec F S50000x64 .f32)
      = extractStridedSlice S50000x64 ![0, 64] (aggPacked (V' (main_v14 : DevRef τ sig)) (V' (main_v23 : DevRef τ sig)))
          slices_S50000x256_S50000x64_0_64 := by
  after_results

theorem hostOps2_v29 (V' : Valuation τ sig (Elt F)) :
    (after hostOps2 V' (main_v29 : DevRef τ sig) : FVec F S50000x64 .f32)
      = extractStridedSlice S50000x64 ![0, 128] (aggPacked (V' (main_v14 : DevRef τ sig)) (V' (main_v23 : DevRef τ sig)))
          slices_S50000x256_S50000x64_0_128 := by
  after_results

theorem hostOps2_v30 (V' : Valuation τ sig (Elt F)) :
    (after hostOps2 V' (main_v30 : DevRef τ sig) : FVec F S50000x64 .f32)
      = extractStridedSlice S50000x64 ![0, 192] (aggPacked (V' (main_v14 : DevRef τ sig)) (V' (main_v23 : DevRef τ sig)))
          slices_S50000x256_S50000x64_0_192 := by
  after_results

/-! The three components of the vector features, as matrices. -/

theorem hostOps2_v32 (V' : Valuation τ sig (Elt F)) :
    (after hostOps2 V' (main_v32 : DevRef τ sig) : FVec F S50000x64 .f32)
      = shapeCast S50000x64
          (extractStridedSlice S50000x64x1 ![0, 0, 0] (V' (main_arg1 : DevRef τ sig) : FVec F S50000x64x3 .f32)
            slices_S50000x64x3_S50000x64x1_0_0_0)
          shapeCasts_S50000x64x1_S50000x64 := by
  after_results
  rfl

theorem hostOps2_v34 (V' : Valuation τ sig (Elt F)) :
    (after hostOps2 V' (main_v34 : DevRef τ sig) : FVec F S50000x64 .f32)
      = shapeCast S50000x64
          (extractStridedSlice S50000x64x1 ![0, 0, 1] (V' (main_arg1 : DevRef τ sig) : FVec F S50000x64x3 .f32)
            slices_S50000x64x3_S50000x64x1_0_0_1)
          shapeCasts_S50000x64x1_S50000x64 := by
  after_results
  rfl

theorem hostOps2_v36 (V' : Valuation τ sig (Elt F)) :
    (after hostOps2 V' (main_v36 : DevRef τ sig) : FVec F S50000x64 .f32)
      = shapeCast S50000x64
          (extractStridedSlice S50000x64x1 ![0, 0, 2] (V' (main_arg1 : DevRef τ sig) : FVec F S50000x64x3 .f32)
            slices_S50000x64x3_S50000x64x1_0_0_2)
          shapeCasts_S50000x64x1_S50000x64 := by
  after_results
  rfl

/-! The row blocks of the two first-layer weight matrices of the node stage. -/

theorem hostOps2_v37 (V' : Valuation τ sig (Elt F)) :
    (after hostOps2 V' (main_v37 : DevRef τ sig) : FVec F S64x64 .f32)
      = extractStridedSlice S64x64 ![0, 0] (V' (main_arg16 : DevRef τ sig) : FVec F S192x64 .f32)
          slices_S192x64_S64x64_0_0 := by
  after_results

theorem hostOps2_v38 (V' : Valuation τ sig (Elt F)) :
    (after hostOps2 V' (main_v38 : DevRef τ sig) : FVec F S64x64 .f32)
      = extractStridedSlice S64x64 ![64, 0] (V' (main_arg16 : DevRef τ sig) : FVec F S192x64 .f32)
          slices_S192x64_S64x64_64_0 := by
  after_results

theorem hostOps2_v39 (V' : Valuation τ sig (Elt F)) :
    (after hostOps2 V' (main_v39 : DevRef τ sig) : FVec F S64x64 .f32)
      = extractStridedSlice S64x64 ![128, 0] (V' (main_arg16 : DevRef τ sig) : FVec F S192x64 .f32)
          slices_S192x64_S64x64_128_0 := by
  after_results

theorem hostOps2_v40 (V' : Valuation τ sig (Elt F)) :
    (after hostOps2 V' (main_v40 : DevRef τ sig) : FVec F S64x64 .f32)
      = extractStridedSlice S64x64 ![0, 0] (V' (main_arg20 : DevRef τ sig) : FVec F S192x64 .f32)
          slices_S192x64_S64x64_0_0 := by
  after_results

theorem hostOps2_v41 (V' : Valuation τ sig (Elt F)) :
    (after hostOps2 V' (main_v41 : DevRef τ sig) : FVec F S64x64 .f32)
      = extractStridedSlice S64x64 ![64, 0] (V' (main_arg20 : DevRef τ sig) : FVec F S192x64 .f32)
          slices_S192x64_S64x64_64_0 := by
  after_results

theorem hostOps2_v42 (V' : Valuation τ sig (Elt F)) :
    (after hostOps2 V' (main_v42 : DevRef τ sig) : FVec F S64x64 .f32)
      = extractStridedSlice S64x64 ![128, 0] (V' (main_arg20 : DevRef τ sig) : FVec F S192x64 .f32)
          slices_S192x64_S64x64_128_0 := by
  after_results

/-! The biases and the normalisation's gain and offset, as one-row matrices. -/

theorem hostOps2_v43 (V' : Valuation τ sig (Elt F)) :
    (after hostOps2 V' (main_v43 : DevRef τ sig) : FVec F S1x64 .f32)
      = shapeCast S1x64 (V' (main_arg17 : DevRef τ sig) : FVec F S64 .f32) shapeCasts_S64_S1x64 := by
  after_results
  rfl

theorem hostOps2_v44 (V' : Valuation τ sig (Elt F)) :
    (after hostOps2 V' (main_v44 : DevRef τ sig) : FVec F S1x64 .f32)
      = shapeCast S1x64 (V' (main_arg19 : DevRef τ sig) : FVec F S64 .f32) shapeCasts_S64_S1x64 := by
  after_results
  rfl

theorem hostOps2_v45 (V' : Valuation τ sig (Elt F)) :
    (after hostOps2 V' (main_v45 : DevRef τ sig) : FVec F S1x64 .f32)
      = shapeCast S1x64 (V' (main_arg21 : DevRef τ sig) : FVec F S64 .f32) shapeCasts_S64_S1x64 := by
  after_results
  rfl

theorem hostOps2_v46 (V' : Valuation τ sig (Elt F)) :
    (after hostOps2 V' (main_v46 : DevRef τ sig) : FVec F S1x64 .f32)
      = shapeCast S1x64 (V' (main_arg23 : DevRef τ sig) : FVec F S64 .f32) shapeCasts_S64_S1x64 := by
  after_results
  rfl

theorem hostOps2_v47 (V' : Valuation τ sig (Elt F)) :
    (after hostOps2 V' (main_v47 : DevRef τ sig) : FVec F S1x64 .f32)
      = shapeCast S1x64 (V' (main_arg24 : DevRef τ sig) : FVec F S64 .f32) shapeCasts_S64_S1x64 := by
  after_results
  rfl

theorem hostOps2_v48 (V' : Valuation τ sig (Elt F)) :
    (after hostOps2 V' (main_v48 : DevRef τ sig) : FVec F S1x64 .f32)
      = shapeCast S1x64 (V' (main_arg25 : DevRef τ sig) : FVec F S64 .f32) shapeCasts_S64_S1x64 := by
  after_results
  rfl

/-! What the stretch leaves as it was. -/

theorem hostOps2_arg0 (V' : Valuation τ sig (Elt F)) :
    after hostOps2 V' (main_arg0 : DevRef τ sig) = V' (main_arg0 : DevRef τ sig) := by
  after_results

theorem hostOps2_arg18 (V' : Valuation τ sig (Elt F)) :
    after hostOps2 V' (main_arg18 : DevRef τ sig) = V' (main_arg18 : DevRef τ sig) := by
  after_results

theorem hostOps2_arg22 (V' : Valuation τ sig (Elt F)) :
    after hostOps2 V' (main_arg22 : DevRef τ sig) = V' (main_arg22 : DevRef τ sig) := by
  after_results

/-! ## After the node stage -/

/-- The new scalar features: the first 64 columns of the packed result. -/
theorem hostOps3_v50 (V'' : Valuation τ sig (Elt F)) :
    (after hostOps3 V'' (main_v50 : DevRef τ sig) : FVec F S50000x64 .f32)
      = extractStridedSlice S50000x64 ![0, 0] (V'' (main_v49 : DevRef τ sig) : FVec F S50000x256 .f32)
          slices_S50000x256_S50000x64_0_0 := by
  after_results

/-- The other three blocks of 64 columns of a packed array `X`, laid side by side along a new last axis. -/
abbrev stacked (X : FVec F S50000x256 .f32) : FVec F S50000x64x3 .f32 :=
  concatenate S50000x64x3 2
    [⟨S50000x64x1, broadcastInDim S50000x64x1 ![0, 1] bcast_S50000x64_S50000x64x1_0_1
        (extractStridedSlice S50000x64 ![0, 64] X slices_S50000x256_S50000x64_0_64)⟩,
     ⟨S50000x64x1, broadcastInDim S50000x64x1 ![0, 1] bcast_S50000x64_S50000x64x1_0_1
        (extractStridedSlice S50000x64 ![0, 128] X slices_S50000x256_S50000x64_0_128)⟩,
     ⟨S50000x64x1, broadcastInDim S50000x64x1 ![0, 1] bcast_S50000x64_S50000x64x1_0_1
        (extractStridedSlice S50000x64 ![0, 192] X slices_S50000x256_S50000x64_0_192)⟩]
    concatenates_S50000x64x1_S50000x64x1_S50000x64x1_S50000x64x3_d2

/-- The new vector features: those three blocks of the packed result. -/
theorem hostOps3_v57 (V'' : Valuation τ sig (Elt F)) :
    (after hostOps3 V'' (main_v57 : DevRef τ sig) : FVec F S50000x64x3 .f32)
      = stacked (V'' (main_v49 : DevRef τ sig)) := by
  after_results
  rfl

end Cert.KIHost

end
-- ==== Proof.KIEntry23.lean ====
/-
  The node stage's entry arrays and the kernel program's two results, in canonical form.

  Before the node stage the program sums the packed edge array into the nodes and cuts the sum into four blocks of 64
  columns; block g at (n, c) is the sum over the edges whose destination is n of column 64·g + c of the packed array,
  that is column 64·g + c of the segment sum. For a packed row whose first 64 columns are the scalar message and whose
  column 64·(c + 1) + h is coefficient h times component c of the edge's direction, these are the summed scalar messages
  and the three components of the summed vector messages. The other entry arrays are layout operations on arguments:
  components of the vector features, row blocks of weight matrices, vectors laid as one-row matrices. After the node
  stage the first 64 columns of the packed result are the new scalar features, and the other three blocks, laid side by
  side along a new last axis, are the new vector features: entry (n, h, c) is entry (n, 64·(c + 1) + h) of the packed result.
-/
import proofs.«166758_j50929722196748_2_alg».proof.Proof.KIHost23
import proofs.«166758_j50929722196748_2_alg».proof.Proof.LibScatterRead
import proofs.«166758_j50929722196748_2_alg».proof.Proof.SpecArr

set_option maxRecDepth 4412

noncomputable section

open scoped BigOperators

namespace Cert.KIEntry

open Cert.KernelIdeal Cert.KernelIdeal.Gen
open Idealize.ShloMosaic Idealize.ShloMosaic.TcCoe Idealize.ShloMosaic.StableHlo Idealize.SL.Sem
open Idealize.ShloMosaic.ValueIdx

/-! ## The node sum of the packed edge array, block by block -/

/-- A block of 64 columns at offset `off` of the node sum, at `i = (n, c)`: the sum over the edges `e` whose destination is `n` of
    `P(e, off + c)` — column `off + c` of the segment sum of `P`. -/
theorem block_aggPacked (D : IVec S800000 32) (P : FVec Ideal S800000x256 .f32) (off : Nat) (ho : off + 64 ≤ 256)
    (hs : S50000x256.Slices ![0, off] S50000x64) :
    extractStridedSlice S50000x64 ![0, off] (Cert.KIHost.aggPacked (F := Ideal) D P) hs
      = fun i => Cert.Spec.segSum (N := 50000) D P (ix2 (i 0) ⟨off + (i 1).val, by have := idx2_lt1 i; omega⟩) := by
  funext i
  obtain ⟨n, c, rfl⟩ : ∃ n c, i = ix2 n c := ⟨i 0, i 1, eq_ix2 i⟩
  have hc : off + c.val < 256 := by have := c.isLt; omega
  show extractStridedSlice S50000x64 ![0, off]
      (Host.scatterAdd (Cert.Spec.rowScatter 50000 800000 256 scatter_S50000x256_S800000x1_S800000x256_1_0_0_1_wf) (Cert.KIHost.zeros256 (F := Ideal))
        (broadcastInDim S800000x1 ![0] bcast_S800000_S800000x1_0 D) P) hs (ix2 n c) = _
  rw [Cert.Spec.slice_scatterAdd_rowScatter_apply _ hs (Cert.KIHost.zeros256 (F := Ideal)) _ P n c hc]
  have hz : (Cert.KIHost.zeros256 (F := Ideal)) (ix2 n ⟨off + c.val, hc⟩) = 0 := Ideal.ofBits_zero_f32
  rw [hz, zero_add]
  unfold Cert.Spec.segSum
  refine Finset.sum_congr ?_ fun e _ => rfl
  refine Finset.filter_congr fun e _ => ?_
  rw [Cert.TakeRows.col_apply bcast_S800000_S800000x1_0 D (ix2 e (0 : Fin 1))]

/-! ## The layout operations as the canonical array functions -/

/-- Component `c` of the vector features, cut out along the last axis and laid as a matrix. -/
theorem comp_eq_vComp (v : FVec Ideal S50000x64x3 .f32) (o : Nat) (ho : o < 3)
    (hs : S50000x64x3.Slices ![0, 0, o] S50000x64x1) (hsc : S50000x64x1.ShapeCasts S50000x64) :
    shapeCast S50000x64 (extractStridedSlice S50000x64x1 ![0, 0, o] v hs) hsc = Cert.Spec.vComp v ⟨o, ho⟩ := by
  funext i
  obtain ⟨n, h, rfl⟩ : ∃ n h, i = ix2 n h := ⟨i 0, i 1, eq_ix2 i⟩
  rw [shapeCast_apply _ hsc (ix2 n h) (ix3 n h (0 : Fin 1)) (by
    rw [Shape.rowMajor_val_two, Shape.rowMajor_val_three]
    show (n.val * 64 + h.val) * 1 + 0 = n.val * 64 + h.val
    omega)]
  unfold extractStridedSlice Cert.Spec.vComp
  refine congrArg v (funext fun a => ?_)
  match a with
  | ⟨0, _⟩ => exact Fin.ext (Nat.zero_add _)
  | ⟨1, _⟩ => exact Fin.ext (Nat.zero_add _)
  | ⟨2, _⟩ => exact Fin.ext (Nat.add_zero _)

/-- Rows `o … o + n − 1` of a matrix, cut out. -/
theorem rows_eq_rowBlock {K H n : Nat} (w : (⟨2, ![K, H]⟩ : Shape).Idx → EReal) (o : Nat) (ho : o + n ≤ K)
    (hs : (⟨2, ![K, H]⟩ : Shape).Slices ![o, 0] ⟨2, ![n, H]⟩) :
    extractStridedSlice ⟨2, ![n, H]⟩ ![o, 0] w hs = Cert.Spec.rowBlock w o n ho := by
  funext i
  unfold extractStridedSlice Cert.Spec.rowBlock
  refine congrArg w (funext fun a => ?_)
  match a with
  | ⟨0, _⟩ => rfl
  | ⟨1, _⟩ => exact Fin.ext (Nat.zero_add _)

/-- A vector laid as a one-row matrix. -/
theorem reshape_eq_asRow {H : Nat} (b : (⟨1, ![H]⟩ : Shape).Idx → EReal)
    (hsc : (⟨1, ![H]⟩ : Shape).ShapeCasts ⟨2, ![1, H]⟩) :
    shapeCast ⟨2, ![1, H]⟩ b hsc = Cert.Spec.asRow b := by
  funext i
  have h0 : (i 0).val = 0 := by have := idx2_lt0 i; omega
  rw [shapeCast_apply b hsc i (ix1 ⟨(i 1).val, (i 1).isLt⟩) (by
    rw [Shape.rowMajor_val_one, Shape.rowMajor_val_two, h0]
    show (i 1).val = 0 * H + (i 1).val
    omega)]
  rfl

/-- The first `W` columns of a matrix, cut out. -/
theorem cols_eq {α : Type} {N C W : Nat} (X : (⟨2, ![N, C]⟩ : Shape).Idx → α) (hW : W ≤ C)
    (hs : (⟨2, ![N, C]⟩ : Shape).Slices ![0, 0] ⟨2, ![N, W]⟩) :
    extractStridedSlice ⟨2, ![N, W]⟩ ![0, 0] X hs
      = fun i => X (ix2 ⟨(i 0).val, idx2_lt0 i⟩ ⟨(i 1).val, by have := idx2_lt1 i; omega⟩) := by
  funext i
  unfold extractStridedSlice
  refine congrArg X (funext fun a => ?_)
  match a with
  | ⟨0, _⟩ => exact Fin.ext (Nat.zero_add _)
  | ⟨1, _⟩ => exact Fin.ext (Nat.zero_add _)

/-! ## The packed edge row: its columns are the scalar message and the coefficients times the direction -/

section Packed
variable (D : IVec S800000 32) (ssrc sdst rbf ang : Cert.Spec.Mat 800000 64) (ed : Cert.Spec.Mat 800000 3)
  (ws wd wr wa : Cert.Spec.Mat 64 64) (b1 : Cert.Spec.Mat 1 64) (w2 : Cert.Spec.Mat 64 128) (b2 : Cert.Spec.Mat 1 128)

/-- Column `j < 64` of the segment sum of the packed edge rows is the segment sum of the scalar messages. -/
theorem segSum_ePack_scalar (n : Fin 50000) (j : Fin 64) :
    Cert.Spec.segSum (N := 50000) (C := 256) D
        (fun i : (⟨2, ![800000, 256]⟩ : Shape).Idx => Cert.Spec.ePack ssrc sdst rbf ang ed ws wd wr wa b1 w2 b2 (i 0) (i 1))
        (ix2 n ⟨j.val, by have := j.isLt; omega⟩)
      = Cert.Spec.segSum (N := 50000) (C := 64) D
          (fun i : (⟨2, ![800000, 64]⟩ : Shape).Idx => Cert.Spec.eMsg ssrc sdst rbf ang ws wd wr wa b1 w2 b2 ⟨(i 0).val, idx2_lt0 i⟩
            ⟨(i 1).val, by have := idx2_lt1 i; omega⟩)
          (ix2 n j) := by
  unfold Cert.Spec.segSum
  refine Finset.sum_congr rfl fun e _ => ?_
  show Cert.Spec.ePack ssrc sdst rbf ang ed ws wd wr wa b1 w2 b2 e ⟨j.val, _⟩ = _
  unfold Cert.Spec.ePack
  rw [dif_pos (show j.val < 64 from j.isLt)]

/-- Column `64·(c + 1) + h` is the segment sum of coefficient `h` times component `c` of the direction. -/
theorem segSum_ePack_vector (n : Fin 50000) (h : Fin 64) (c : Fin 3) :
    Cert.Spec.segSum (N := 50000) (C := 256) D
        (fun i : (⟨2, ![800000, 256]⟩ : Shape).Idx => Cert.Spec.ePack ssrc sdst rbf ang ed ws wd wr wa b1 w2 b2 (i 0) (i 1))
        (ix2 n ⟨64 * (c.val + 1) + h.val, by have := h.isLt; have := c.isLt; omega⟩)
      = Cert.Spec.segSum (N := 50000) (C := 64) D
          (fun i : (⟨2, ![800000, 64]⟩ : Shape).Idx => Cert.Spec.eMsg ssrc sdst rbf ang ws wd wr wa b1 w2 b2 ⟨(i 0).val, idx2_lt0 i⟩
              ⟨64 + (i 1).val, by have := idx2_lt1 i; omega⟩
            * ed (ix2 ⟨(i 0).val, (i 0).isLt⟩ c))
          (ix2 n h) := by
  have hh := h.isLt
  have hcl := c.isLt
  unfold Cert.Spec.segSum
  refine Finset.sum_congr rfl fun e _ => ?_
  show Cert.Spec.ePack ssrc sdst rbf ang ed ws wd wr wa b1 w2 b2 e ⟨64 * (c.val + 1) + h.val, _⟩ = _
  unfold Cert.Spec.ePack
  rw [dif_neg (show ¬ (64 * (c.val + 1) + h.val < 64) by omega)]
  have e1 : (64 * (c.val + 1) + h.val) % 64 = h.val := by omega
  have e2 : (64 * (c.val + 1) + h.val) / 64 - 1 = c.val := by omega
  show Cert.Spec.eMsg ssrc sdst rbf ang ws wd wr wa b1 w2 b2 e ⟨64 + (64 * (c.val + 1) + h.val) % 64, _⟩
      * ed (ix2 e ⟨(64 * (c.val + 1) + h.val) / 64 - 1, _⟩)
    = Cert.Spec.eMsg ssrc sdst rbf ang ws wd wr wa b1 w2 b2 e ⟨64 + h.val, _⟩ * ed (ix2 e c)
  congr 2
  · exact Fin.ext (by show 64 + (64 * (c.val + 1) + h.val) % 64 = 64 + h.val; omega)
  · refine congrArg _ (Fin.ext ?_); exact e2

end Packed

/-! ## Three blocks of columns laid side by side along a new last axis -/

section Stack
variable {α : Type}

/-- A block of 64 columns at column offset `off` of `X : [N, 256]`, given a unit last axis, read at `(n, h, 0)`: `X(n, off + h)`. -/
theorem unitBlock_apply {N : Nat} (X : (⟨2, ![N, 256]⟩ : Shape).Idx → α) (off : Nat) (ho : off + 64 ≤ 256)
    (hs : (⟨2, ![N, 256]⟩ : Shape).Slices ![0, off] ⟨2, ![N, 64]⟩)
    (hb : (⟨2, ![N, 64]⟩ : Shape).BroadcastsInDim ⟨3, ![N, 64, 1]⟩ ![0, 1])
    (n : Fin N) (h : Fin 64) :
    broadcastInDim ⟨3, ![N, 64, 1]⟩ ![0, 1] hb (extractStridedSlice ⟨2, ![N, 64]⟩ ![0, off] X hs) (ix3 n h (0 : Fin 1))
      = X (ix2 n ⟨off + h.val, by have := h.isLt; omega⟩) := by
  rw [broadcastInDim_apply ![0, 1] hb _ (ix3 n h (0 : Fin 1)) (ix2 n h) (fun a => by
    match a with
    | ⟨0, _⟩ =>
      show n.val = if N = 1 then 0 else n.val
      split
      · have := n.isLt; omega
      · rfl
    | ⟨1, _⟩ => exact (if_neg (show ¬ (64 : Nat) = 1 by decide)).symm)]
  unfold extractStridedSlice
  refine congrArg X (funext fun a => ?_)
  match a with
  | ⟨0, _⟩ => exact Fin.ext (Nat.zero_add _)
  | ⟨1, _⟩ => rfl

/-- The three blocks of 64 columns after the first of `X : [N, 256]`, laid side by side along a new last axis of extent 3,
    read at `(n, h, c)`: `X(n, 64·(c + 1) + h)`. -/
theorem stack3_apply {N : Nat} (X : (⟨2, ![N, 256]⟩ : Shape).Idx → α)
    (hs1 : (⟨2, ![N, 256]⟩ : Shape).Slices ![0, 64] ⟨2, ![N, 64]⟩)
    (hs2 : (⟨2, ![N, 256]⟩ : Shape).Slices ![0, 128] ⟨2, ![N, 64]⟩)
    (hs3 : (⟨2, ![N, 256]⟩ : Shape).Slices ![0, 192] ⟨2, ![N, 64]⟩)
    (hb : (⟨2, ![N, 64]⟩ : Shape).BroadcastsInDim ⟨3, ![N, 64, 1]⟩ ![0, 1])
    (hc : Shape.Concatenates [⟨3, ![N, 64, 1]⟩, ⟨3, ![N, 64, 1]⟩, ⟨3, ![N, 64, 1]⟩] ⟨3, ![N, 64, 3]⟩ 2)
    (n : Fin N) (h : Fin 64) (c : Fin 3) :
    concatenate ⟨3, ![N, 64, 3]⟩ 2
        [⟨⟨3, ![N, 64, 1]⟩, broadcastInDim ⟨3, ![N, 64, 1]⟩ ![0, 1] hb (extractStridedSlice ⟨2, ![N, 64]⟩ ![0, 64] X hs1)⟩,
         ⟨⟨3, ![N, 64, 1]⟩, broadcastInDim ⟨3, ![N, 64, 1]⟩ ![0, 1] hb (extractStridedSlice ⟨2, ![N, 64]⟩ ![0, 128] X hs2)⟩,
         ⟨⟨3, ![N, 64, 1]⟩, broadcastInDim ⟨3, ![N, 64, 1]⟩ ![0, 1] hb (extractStridedSlice ⟨2, ![N, 64]⟩ ![0, 192] X hs3)⟩]
        hc (ix3 n h c)
      = X (ix2 n ⟨64 * (c.val + 1) + h.val, by have := h.isLt; have := c.isLt; omega⟩) := by
  have hi : ∀ b : Fin 3, b.cast (rfl : (3 : Nat) = 3) ≠ (2 : Fin 3) →
      ((ix3 n h (0 : Fin 1)) b).val = ((ix3 n h c) (b.cast rfl)).val := fun b hb =>
    match b, hb with
    | ⟨0, _⟩, _ => rfl
    | ⟨1, _⟩, _ => rfl
    | ⟨2, _⟩, hb => absurd rfl hb
  match c with
  | ⟨0, _⟩ =>
    rw [concatenate_apply_piece (t := ⟨3, ![N, 64, 3]⟩) (2 : Fin 3)
        [⟨⟨3, ![N, 64, 1]⟩, broadcastInDim ⟨3, ![N, 64, 1]⟩ ![0, 1] hb (extractStridedSlice ⟨2, ![N, 64]⟩ ![0, 64] X hs1)⟩,
         ⟨⟨3, ![N, 64, 1]⟩, broadcastInDim ⟨3, ![N, 64, 1]⟩ ![0, 1] hb (extractStridedSlice ⟨2, ![N, 64]⟩ ![0, 128] X hs2)⟩,
         ⟨⟨3, ![N, 64, 1]⟩, broadcastInDim ⟨3, ![N, 64, 1]⟩ ![0, 1] hb (extractStridedSlice ⟨2, ![N, 64]⟩ ![0, 192] X hs3)⟩]
        hc (ix3 n h (⟨0, by decide⟩ : Fin 3)) 0 (by simp) ⟨3, ![N, 64, 1]⟩ _ rfl rfl 0 rfl
        (ix3 n h (0 : Fin 1)) hi rfl]
    exact unitBlock_apply X 64 (by decide) hs1 hb n h
  | ⟨1, _⟩ =>
    rw [concatenate_apply_piece (t := ⟨3, ![N, 64, 3]⟩) (2 : Fin 3)
        [⟨⟨3, ![N, 64, 1]⟩, broadcastInDim ⟨3, ![N, 64, 1]⟩ ![0, 1] hb (extractStridedSlice ⟨2, ![N, 64]⟩ ![0, 64] X hs1)⟩,
         ⟨⟨3, ![N, 64, 1]⟩, broadcastInDim ⟨3, ![N, 64, 1]⟩ ![0, 1] hb (extractStridedSlice ⟨2, ![N, 64]⟩ ![0, 128] X hs2)⟩,
         ⟨⟨3, ![N, 64, 1]⟩, broadcastInDim ⟨3, ![N, 64, 1]⟩ ![0, 1] hb (extractStridedSlice ⟨2, ![N, 64]⟩ ![0, 192] X hs3)⟩]
        hc (ix3 n h (⟨1, by decide⟩ : Fin 3)) 1 (by simp) ⟨3, ![N, 64, 1]⟩ _ rfl rfl 1 rfl
        (ix3 n h (0 : Fin 1)) hi rfl]
    exact unitBlock_apply X 128 (by decide) hs2 hb n h
  | ⟨2, _⟩ =>
    rw [concatenate_apply_piece (t := ⟨3, ![N, 64, 3]⟩) (2 : Fin 3)
        [⟨⟨3, ![N, 64, 1]⟩, broadcastInDim ⟨3, ![N, 64, 1]⟩ ![0, 1] hb (extractStridedSlice ⟨2, ![N, 64]⟩ ![0, 64] X hs1)⟩,
         ⟨⟨3, ![N, 64, 1]⟩, broadcastInDim ⟨3, ![N, 64, 1]⟩ ![0, 1] hb (extractStridedSlice ⟨2, ![N, 64]⟩ ![0, 128] X hs2)⟩,
         ⟨⟨3, ![N, 64, 1]⟩, broadcastInDim ⟨3, ![N, 64, 1]⟩ ![0, 1] hb (extractStridedSlice ⟨2, ![N, 64]⟩ ![0, 192] X hs3)⟩]
        hc (ix3 n h (⟨2, by decide⟩ : Fin 3)) 2 (by simp) ⟨3, ![N, 64, 1]⟩ _ rfl rfl 2 rfl
        (ix3 n h (0 : Fin 1)) hi rfl]
    exact unitBlock_apply X 192 (by decide) hs3 hb n h

end Stack

/-! ## After the node stage -/

section After
variable {F : FTy → Type} [FloatOps F]

/-- Entry `(n, h, c)` of the stacked blocks is entry `(n, 64·(c + 1) + h)` of the packed array. -/
theorem stacked_apply (X : FVec F S50000x256 .f32) (n : Fin 50000) (h : Fin 64) (c : Fin 3) :
    Cert.KIHost.stacked X (ix3 n h c) = X (ix2 n ⟨64 * (c.val + 1) + h.val, by have := h.isLt; have := c.isLt; omega⟩) :=
  stack3_apply X slices_S50000x256_S50000x64_0_64 slices_S50000x256_S50000x64_0_128 slices_S50000x256_S50000x64_0_192
    bcast_S50000x64_S50000x64x1_0_1 concatenates_S50000x64x1_S50000x64x1_S50000x64x1_S50000x64x3_d2 n h c

end After

/-! ## The node stage's entry arrays in canonical form -/

section Entry
variable (V' : Valuation τ sig (Elt Ideal))

/-- Block 0: the first 64 columns of the segment sum. -/
theorem entry_v27 :
    (after hostOps2 V' (main_v27 : DevRef τ sig) : FVec Ideal S50000x64 .f32)
      = fun i => Cert.Spec.segSum (N := 50000) (C := 256) (V' (main_v14 : DevRef τ sig)) (V' (main_v23 : DevRef τ sig))
          (ix2 (i 0) ⟨(i 1).val, by have := idx2_lt1 i; omega⟩) := by
  refine (Cert.KIHost.hostOps2_v27 V').trans ((block_aggPacked _ _ 0 (by decide) _).trans ?_)
  funext i
  exact congrArg _ (congrArg (ix2 (i 0)) (Fin.ext (Nat.zero_add _)))

/-- Columns 64 … 127 of the segment sum. -/
theorem entry_v28 :
    (after hostOps2 V' (main_v28 : DevRef τ sig) : FVec Ideal S50000x64 .f32)
      = fun i => Cert.Spec.segSum (N := 50000) (C := 256) (V' (main_v14 : DevRef τ sig)) (V' (main_v23 : DevRef τ sig))
          (ix2 (i 0) ⟨64 + (i 1).val, by have := idx2_lt1 i; omega⟩) :=
  (Cert.KIHost.hostOps2_v28 V').trans (block_aggPacked _ _ 64 (by decide) _)

/-- Columns 128 … 191 of the segment sum. -/
theorem entry_v29 :
    (after hostOps2 V' (main_v29 : DevRef τ sig) : FVec Ideal S50000x64 .f32)
      = fun i => Cert.Spec.segSum (N := 50000) (C := 256) (V' (main_v14 : DevRef τ sig)) (V' (main_v23 : DevRef τ sig))
          (ix2 (i 0) ⟨128 + (i 1).val, by have := idx2_lt1 i; omega⟩) :=
  (Cert.KIHost.hostOps2_v29 V').trans (block_aggPacked _ _ 128 (by decide) _)

/-- Columns 192 … 255 of the segment sum. -/
theorem entry_v30 :
    (after hostOps2 V' (main_v30 : DevRef τ sig) : FVec Ideal S50000x64 .f32)
      = fun i => Cert.Spec.segSum (N := 50000) (C := 256) (V' (main_v14 : DevRef τ sig)) (V' (main_v23 : DevRef τ sig))
          (ix2 (i 0) ⟨192 + (i 1).val, by have := idx2_lt1 i; omega⟩) :=
  (Cert.KIHost.hostOps2_v30 V').trans (block_aggPacked _ _ 192 (by decide) _)

/-! The components of the vector features. -/

theorem entry_v32 :
    (after hostOps2 V' (main_v32 : DevRef τ sig) : FVec Ideal S50000x64 .f32)
      = Cert.Spec.vComp (V' (main_arg1 : DevRef τ sig)) 0 :=
  (Cert.KIHost.hostOps2_v32 V').trans (comp_eq_vComp _ 0 (by decide) _ _)

theorem entry_v34 :
    (after hostOps2 V' (main_v34 : DevRef τ sig) : FVec Ideal S50000x64 .f32)
      = Cert.Spec.vComp (V' (main_arg1 : DevRef τ sig)) 1 :=
  (Cert.KIHost.hostOps2_v34 V').trans (comp_eq_vComp _ 1 (by decide) _ _)

theorem entry_v36 :
    (after hostOps2 V' (main_v36 : DevRef τ sig) : FVec Ideal S50000x64 .f32)
      = Cert.Spec.vComp (V' (main_arg1 : DevRef τ sig)) 2 :=
  (Cert.KIHost.hostOps2_v36 V').trans (comp_eq_vComp _ 2 (by decide) _ _)

/-! The row blocks of the node stage's two first-layer weight matrices. -/

theorem entry_v37 :
    (after hostOps2 V' (main_v37 : DevRef τ sig) : FVec Ideal S64x64 .f32)
      = Cert.Spec.rowBlock (V' (main_arg16 : DevRef τ sig) : Cert.Spec.Mat 192 64) 0 64 (by decide) :=
  (Cert.KIHost.hostOps2_v37 V').trans (rows_eq_rowBlock _ 0 (by decide) _)

theorem entry_v38 :
    (after hostOps2 V' (main_v38 : DevRef τ sig) : FVec Ideal S64x64 .f32)
      = Cert.Spec.rowBlock (V' (main_arg16 : DevRef τ sig) : Cert.Spec.Mat 192 64) 64 64 (by decide) :=
  (Cert.KIHost.hostOps2_v38 V').trans (rows_eq_rowBlock _ 64 (by decide) _)

theorem entry_v39 :
    (after hostOps2 V' (main_v39 : DevRef τ sig) : FVec Ideal S64x64 .f32)
      = Cert.Spec.rowBlock (V' (main_arg16 : DevRef τ sig) : Cert.Spec.Mat 192 64) 128 64 (by decide) :=
  (Cert.KIHost.hostOps2_v39 V').trans (rows_eq_rowBlock _ 128 (by decide) _)

theorem entry_v40 :
    (after hostOps2 V' (main_v40 : DevRef τ sig) : FVec Ideal S64x64 .f32)
      = Cert.Spec.rowBlock (V' (main_arg20 : DevRef τ sig) : Cert.Spec.Mat 192 64) 0 64 (by decide) :=
  (Cert.KIHost.hostOps2_v40 V').trans (rows_eq_rowBlock _ 0 (by decide) _)

theorem entry_v41 :
    (after hostOps2 V' (main_v41 : DevRef τ sig) : FVec Ideal S64x64 .f32)
      = Cert.Spec.rowBlock (V' (main_arg20 : DevRef τ sig) : Cert.Spec.Mat 192 64) 64 64 (by decide) :=
  (Cert.KIHost.hostOps2_v41 V').trans (rows_eq_rowBlock _ 64 (by decide) _)

theorem entry_v42 :
    (after hostOps2 V' (main_v42 : DevRef τ sig) : FVec Ideal S64x64 .f32)
      = Cert.Spec.rowBlock (V' (main_arg20 : DevRef τ sig) : Cert.Spec.Mat 192 64) 128 64 (by decide) :=
  (Cert.KIHost.hostOps2_v42 V').trans (rows_eq_rowBlock _ 128 (by decide) _)

/-! The biases, the gain and the offset as one-row matrices. -/

theorem entry_v43 :
    (after hostOps2 V' (main_v43 : DevRef τ sig) : FVec Ideal S1x64 .f32)
      = Cert.Spec.asRow (V' (main_arg17 : DevRef τ sig) : Cert.Spec.Vec1 64) :=
  (Cert.KIHost.hostOps2_v43 V').trans (reshape_eq_asRow _ _)

theorem entry_v44 :
    (after hostOps2 V' (main_v44 : DevRef τ sig) : FVec Ideal S1x64 .f32)
      = Cert.Spec.asRow (V' (main_arg19 : DevRef τ sig) : Cert.Spec.Vec1 64) :=
  (Cert.KIHost.hostOps2_v44 V').trans (reshape_eq_asRow _ _)

theorem entry_v45 :
    (after hostOps2 V' (main_v45 : DevRef τ sig) : FVec Ideal S1x64 .f32)
      = Cert.Spec.asRow (V' (main_arg21 : DevRef τ sig) : Cert.Spec.Vec1 64) :=
  (Cert.KIHost.hostOps2_v45 V').trans (reshape_eq_asRow _ _)

theorem entry_v46 :
    (after hostOps2 V' (main_v46 : DevRef τ sig) : FVec Ideal S1x64 .f32)
      = Cert.Spec.asRow (V' (main_arg23 : DevRef τ sig) : Cert.Spec.Vec1 64) :=
  (Cert.KIHost.hostOps2_v46 V').trans (reshape_eq_asRow _ _)

theorem entry_v47 :
    (after hostOps2 V' (main_v47 : DevRef τ sig) : FVec Ideal S1x64 .f32)
      = Cert.Spec.asRow (V' (main_arg24 : DevRef τ sig) : Cert.Spec.Vec1 64) :=
  (Cert.KIHost.hostOps2_v47 V').trans (reshape_eq_asRow _ _)

theorem entry_v48 :
    (after hostOps2 V' (main_v48 : DevRef τ sig) : FVec Ideal S1x64 .f32)
      = Cert.Spec.asRow (V' (main_arg25 : DevRef τ sig) : Cert.Spec.Vec1 64) :=
  (Cert.KIHost.hostOps2_v48 V').trans (reshape_eq_asRow _ _)

end Entry

/-! ## The program's two results -/

section Results
variable {F : FTy → Type} [FloatOps F] (V'' : Valuation τ sig (Elt F))

/-- The new scalar features: the first 64 columns of the node stage's packed result. -/
theorem result_v50 :
    (after hostOps3 V'' (main_v50 : DevRef τ sig) : FVec F S50000x64 .f32)
      = fun i => (V'' (main_v49 : DevRef τ sig) : FVec F S50000x256 .f32)
          (ix2 (i 0) ⟨(i 1).val, by have := idx2_lt1 i; omega⟩) :=
  (Cert.KIHost.hostOps3_v50 V'').trans (cols_eq _ (by decide) _)

/-- The new vector features: entry `(n, h, c)` is entry `(n, 64·(c + 1) + h)` of the packed result. -/
theorem result_v57 (n : Fin 50000) (h : Fin 64) (c : Fin 3) :
    (after hostOps3 V'' (main_v57 : DevRef τ sig) : FVec F S50000x64x3 .f32) (ix3 n h c)
      = (V'' (main_v49 : DevRef τ sig) : FVec F S50000x256 .f32)
          (ix2 n ⟨64 * (c.val + 1) + h.val, by have := h.isLt; have := c.isLt; omega⟩) := by
  rw [Cert.KIHost.hostOps3_v57]
  exact stacked_apply _ n h c

end Results

end Cert.KIEntry

end
-- ==== Proof.KISide23.lean ====
/-
  The kernel program's two results as the layer's canonical functions.

  The node stage writes, row by row, a packed row of 256 columns: the normalised new scalar features, then the three
  components of the new vector features. Its entry arrays are computed from the contents left by the edge stage: the
  segment sum of the packed edge rows by the edges' destinations, cut into four blocks of columns — the summed scalar
  messages and the three components of the summed vector messages —, and layout operations on the arguments. Over these
  canonical entry arrays the packed node row is, in column j < 64, the layer's first result at (n, j) and, in column
  64·(c + 1) + h, its second result at (n, h, c); the program's last stretch cuts the first 64 columns out and lays the
  other three blocks along a new last axis, which gives exactly the two results.
-/
import proofs.«166758_j50929722196748_2_alg».proof.Proof.KIEntry23
import proofs.«166758_j50929722196748_2_alg».proof.Proof.KIValue2

set_option maxRecDepth 4412

noncomputable section

open scoped BigOperators

namespace Cert.KISide

open Idealize.ShloMosaic Idealize.ShloMosaic.ValueIdx
open Cert.KernelIdeal.Hand

/-! ## The packed node row at the canonical entry arrays is the layer's two results -/

section Core
open Cert.Spec Cert.TakeRows
variable (s : Mat 50000 64) (v : Arr3 50000 64 3) (ei : IVec S2x800000 32) (rbf : Mat 800000 64) (dir : Mat 800000 3)
  (kj ji : IVec S800000 32) (ang : Mat 800000 16)
  (wt1 : Mat 144 64) (bt1 : Vec1 64) (wt2 : Mat 64 64) (bt2 : Vec1 64)
  (wm1 : Mat 256 64) (bm1 : Vec1 64) (wm2 : Mat 64 128) (bm2 : Vec1 128)
  (wu1 : Mat 192 64) (bu1 : Vec1 64) (wu2 : Mat 64 64) (bu2 : Vec1 64)
  (wg1 : Mat 192 64) (bg1 : Vec1 64) (wg2 : Mat 64 64) (bg2 : Vec1 64)
  (lng lnb : Vec1 64)

/-- Its first 64 columns: the normalised new scalar features. -/
theorem nPack_outS (r : Fin 50000) (j : Fin 64) :
    nPack (R := 50000) s (aggS s ei rbf kj ji ang wt1 bt1 wt2 bt2 wm1 bm1 wm2 bm2) (vComp v 0) (vComp v 1) (vComp v 2)
      (aggV s ei rbf dir kj ji ang wt1 bt1 wt2 bt2 wm1 bm1 wm2 bm2 0) (aggV s ei rbf dir kj ji ang wt1 bt1 wt2 bt2 wm1 bm1 wm2 bm2 1)
      (aggV s ei rbf dir kj ji ang wt1 bt1 wt2 bt2 wm1 bm1 wm2 bm2 2)
      (rowBlock wu1 0 64 (by omega)) (rowBlock wu1 64 64 (by omega)) (rowBlock wu1 128 64 (by omega)) (asRow bu1) wu2 (asRow bu2)
      (rowBlock wg1 0 64 (by omega)) (rowBlock wg1 64 64 (by omega)) (rowBlock wg1 128 64 (by omega)) (asRow bg1) wg2 (asRow bg2)
      (asRow lng) (asRow lnb) r ⟨j.val, by have := j.isLt; omega⟩
      = outS s v ei rbf kj ji ang wt1 bt1 wt2 bt2 wm1 bm1 wm2 bm2 wu1 bu1 wu2 bu2 lng lnb (ix2 r j) := by
  unfold nPack
  rw [dif_pos (show j.val < 64 from j.isLt)]
  rfl

/-- Column `64·(c + 1) + h`: component `c` of new vector feature `h`. -/
theorem nPack_outV (r : Fin 50000) (h : Fin 64) (c : Fin 3) :
    nPack (R := 50000) s (aggS s ei rbf kj ji ang wt1 bt1 wt2 bt2 wm1 bm1 wm2 bm2) (vComp v 0) (vComp v 1) (vComp v 2)
      (aggV s ei rbf dir kj ji ang wt1 bt1 wt2 bt2 wm1 bm1 wm2 bm2 0) (aggV s ei rbf dir kj ji ang wt1 bt1 wt2 bt2 wm1 bm1 wm2 bm2 1)
      (aggV s ei rbf dir kj ji ang wt1 bt1 wt2 bt2 wm1 bm1 wm2 bm2 2)
      (rowBlock wu1 0 64 (by omega)) (rowBlock wu1 64 64 (by omega)) (rowBlock wu1 128 64 (by omega)) (asRow bu1) wu2 (asRow bu2)
      (rowBlock wg1 0 64 (by omega)) (rowBlock wg1 64 64 (by omega)) (rowBlock wg1 128 64 (by omega)) (asRow bg1) wg2 (asRow bg2)
      (asRow lng) (asRow lnb) r ⟨64 * (c.val + 1) + h.val, by have := h.isLt; have := c.isLt; omega⟩
      = outV s v ei rbf dir kj ji ang wt1 bt1 wt2 bt2 wm1 bm1 wm2 bm2 wg1 bg1 wg2 bg2 (ix3 r h c) := by
  have hh := h.isLt
  unfold nPack
  rw [dif_neg (show ¬ (64 * (c.val + 1) + h.val < 64) by omega)]
  have hm : (⟨(64 * (c.val + 1) + h.val) % 64, Nat.mod_lt _ (by decide)⟩ : Fin 64) = h := Fin.ext (by show (64 * (c.val + 1) + h.val) % 64 = h.val; omega)
  match c with
  | ⟨0, _⟩ =>
    rw [if_pos (show 64 * (0 + 1) + h.val < 128 by omega)]
    show vNew _ _ _ _ _ _ _ _ _ _ _ r ⟨(64 * (0 + 1) + h.val) % 64, _⟩ = _
    rw [show (⟨(64 * (0 + 1) + h.val) % 64, Nat.mod_lt _ (by decide)⟩ : Fin 64) = h from Fin.ext (by show (64 * (0 + 1) + h.val) % 64 = h.val; omega)]
    rfl
  | ⟨1, _⟩ =>
    rw [if_neg (show ¬ (64 * (1 + 1) + h.val < 128) by omega), if_pos (show 64 * (1 + 1) + h.val < 192 by omega)]
    show vNew _ _ _ _ _ _ _ _ _ _ _ r ⟨(64 * (1 + 1) + h.val) % 64, _⟩ = _
    rw [show (⟨(64 * (1 + 1) + h.val) % 64, Nat.mod_lt _ (by decide)⟩ : Fin 64) = h from Fin.ext (by show (64 * (1 + 1) + h.val) % 64 = h.val; omega)]
    rfl
  | ⟨2, _⟩ =>
    rw [if_neg (show ¬ (64 * (2 + 1) + h.val < 128) by omega), if_neg (show ¬ (64 * (2 + 1) + h.val < 192) by omega)]
    show vNew _ _ _ _ _ _ _ _ _ _ _ r ⟨(64 * (2 + 1) + h.val) % 64, _⟩ = _
    rw [show (⟨(64 * (2 + 1) + h.val) % 64, Nat.mod_lt _ (by decide)⟩ : Fin 64) = h from Fin.ext (by show (64 * (2 + 1) + h.val) % 64 = h.val; omega)]
    rfl

end Core

/-! ## The summed messages: the columns of the segment sum of the packed edge rows -/

section Agg
open Cert.Spec Cert.TakeRows
variable (s : Mat 50000 64) (v : Arr3 50000 64 3) (ei : IVec S2x800000 32) (rbf : Mat 800000 64) (dir : Mat 800000 3)
  (kj ji : IVec S800000 32) (ang : Mat 800000 16)
  (wt1 : Mat 144 64) (bt1 : Vec1 64) (wt2 : Mat 64 64) (bt2 : Vec1 64)
  (wm1 : Mat 256 64) (bm1 : Vec1 64) (wm2 : Mat 64 128) (bm2 : Vec1 128)
  (wu1 : Mat 192 64) (bu1 : Vec1 64) (wu2 : Mat 64 64) (bu2 : Vec1 64)
  (wg1 : Mat 192 64) (bg1 : Vec1 64) (wg2 : Mat 64 64) (bg2 : Vec1 64)
  (lng lnb : Vec1 64)

/-- The packed edge array, one row of 256 columns per edge. -/
def edgePacked : Mat 800000 256 := fun i =>
  ePack (rows pos_50000 s (edgeRow ei 0)) (rows pos_50000 s (edgeRow ei 1)) rbf (angleAgg rbf kj ji ang wt1 bt1 wt2 bt2) dir
    (rowBlock wm1 0 64 (by omega)) (rowBlock wm1 64 64 (by omega)) (rowBlock wm1 128 64 (by omega)) (rowBlock wm1 192 64 (by omega))
    (asRow bm1) wm2 (asRow bm2) (i 0) (i 1)

/-- The first 64 columns of its segment sum by the destinations: the summed scalar messages. -/
theorem segSum_edgePacked_scalar :
    (fun i : (⟨2, ![50000, 64]⟩ : Shape).Idx => segSum (N := 50000) (C := 256) (edgeRow ei 1)
        (edgePacked s ei rbf dir kj ji ang wt1 bt1 wt2 bt2 wm1 bm1 wm2 bm2)
        (ix2 (i 0) ⟨(i 1).val, by have := idx2_lt1 i; omega⟩))
      = aggS s ei rbf kj ji ang wt1 bt1 wt2 bt2 wm1 bm1 wm2 bm2 := by
  funext i
  obtain ⟨n, j, rfl⟩ : ∃ n j, i = ix2 n j := ⟨i 0, i 1, eq_ix2 i⟩
  exact Cert.KIEntry.segSum_ePack_scalar (edgeRow ei 1) _ _ rbf _ dir _ _ _ _ _ wm2 _ n j

/-- Columns `64·(c + 1) …`: component `c` of the summed vector messages. -/
theorem segSum_edgePacked_vector (c : Fin 3) :
    (fun i : (⟨2, ![50000, 64]⟩ : Shape).Idx => segSum (N := 50000) (C := 256) (edgeRow ei 1)
        (edgePacked s ei rbf dir kj ji ang wt1 bt1 wt2 bt2 wm1 bm1 wm2 bm2)
        (ix2 (i 0) ⟨64 * (c.val + 1) + (i 1).val, by have := idx2_lt1 i; have := c.isLt; omega⟩))
      = aggV s ei rbf dir kj ji ang wt1 bt1 wt2 bt2 wm1 bm1 wm2 bm2 c := by
  funext i
  obtain ⟨n, h, rfl⟩ : ∃ n h, i = ix2 n h := ⟨i 0, i 1, eq_ix2 i⟩
  exact Cert.KIEntry.segSum_ePack_vector (edgeRow ei 1) _ _ rbf _ dir _ _ _ _ _ wm2 _ n h c

end Agg

/-! ## The kernel program's results from the contents after the edge stage -/

section Compose
open Cert.Spec Cert.KernelIdeal Cert.KernelIdeal.Gen
open Idealize.ShloMosaic.TcCoe Idealize.ShloMosaic.StableHlo Idealize.SL.Sem
variable (s : Mat 50000 64) (v : Arr3 50000 64 3) (ei : IVec Cert.TakeRows.S2x800000 32) (rbf : Mat 800000 64) (dir : Mat 800000 3)
  (kj ji : IVec Cert.TakeRows.S800000 32) (ang : Mat 800000 16)
  (wt1 : Mat 144 64) (bt1 : Vec1 64) (wt2 : Mat 64 64) (bt2 : Vec1 64)
  (wm1 : Mat 256 64) (bm1 : Vec1 64) (wm2 : Mat 64 128) (bm2 : Vec1 128)
  (wu1 : Mat 192 64) (bu1 : Vec1 64) (wu2 : Mat 64 64) (bu2 : Vec1 64)
  (wg1 : Mat 192 64) (bg1 : Vec1 64) (wg2 : Mat 64 64) (bg2 : Vec1 64)
  (lng lnb : Vec1 64)
variable (W9v W11v : Valuation τ sig (Elt Ideal))

/-- The node stage's packed row over its entry arrays as the program computes them from the contents `W9v` after the edge
    stage, when those contents are the packed edge array, the destinations and the unchanged arguments: the packed row over
    the canonical entry arrays. -/
theorem nPack_entries
    (hP : (W9v (main_v23 : DevRef τ sig) : FVec Ideal S800000x256 .f32) = edgePacked s ei rbf dir kj ji ang wt1 bt1 wt2 bt2 wm1 bm1 wm2 bm2)
    (hD : (W9v (main_v14 : DevRef τ sig) : IVec S800000 32) = edgeRow ei 1)
    (h0 : (W9v (main_arg0 : DevRef τ sig) : FVec Ideal S50000x64 .f32) = s)
    (h1 : (W9v (main_arg1 : DevRef τ sig) : FVec Ideal S50000x64x3 .f32) = v)
    (h16 : (W9v (main_arg16 : DevRef τ sig) : FVec Ideal S192x64 .f32) = wu1)
    (h17 : (W9v (main_arg17 : DevRef τ sig) : FVec Ideal S64 .f32) = bu1)
    (h18 : (W9v (main_arg18 : DevRef τ sig) : FVec Ideal S64x64 .f32) = wu2)
    (h19 : (W9v (main_arg19 : DevRef τ sig) : FVec Ideal S64 .f32) = bu2)
    (h20 : (W9v (main_arg20 : DevRef τ sig) : FVec Ideal S192x64 .f32) = wg1)
    (h21 : (W9v (main_arg21 : DevRef τ sig) : FVec Ideal S64 .f32) = bg1)
    (h22 : (W9v (main_arg22 : DevRef τ sig) : FVec Ideal S64x64 .f32) = wg2)
    (h23 : (W9v (main_arg23 : DevRef τ sig) : FVec Ideal S64 .f32) = bg2)
    (h24 : (W9v (main_arg24 : DevRef τ sig) : FVec Ideal S64 .f32) = lng)
    (h25 : (W9v (main_arg25 : DevRef τ sig) : FVec Ideal S64 .f32) = lnb) :
    (fun i : S50000x256.Idx => nPack (R := 50000)
        (after hostOps2 W9v (main_arg0 : DevRef τ sig) : FVec Ideal S50000x64 .f32)
        (after hostOps2 W9v (main_v27 : DevRef τ sig) : FVec Ideal S50000x64 .f32)
        (after hostOps2 W9v (main_v32 : DevRef τ sig) : FVec Ideal S50000x64 .f32)
        (after hostOps2 W9v (main_v34 : DevRef τ sig) : FVec Ideal S50000x64 .f32)
        (after hostOps2 W9v (main_v36 : DevRef τ sig) : FVec Ideal S50000x64 .f32)
        (after hostOps2 W9v (main_v28 : DevRef τ sig) : FVec Ideal S50000x64 .f32)
        (after hostOps2 W9v (main_v29 : DevRef τ sig) : FVec Ideal S50000x64 .f32)
        (after hostOps2 W9v (main_v30 : DevRef τ sig) : FVec Ideal S50000x64 .f32)
        (after hostOps2 W9v (main_v37 : DevRef τ sig) : FVec Ideal S64x64 .f32)
        (after hostOps2 W9v (main_v38 : DevRef τ sig) : FVec Ideal S64x64 .f32)
        (after hostOps2 W9v (main_v39 : DevRef τ sig) : FVec Ideal S64x64 .f32)
        (after hostOps2 W9v (main_v43 : DevRef τ sig) : FVec Ideal S1x64 .f32)
        (after hostOps2 W9v (main_arg18 : DevRef τ sig) : FVec Ideal S64x64 .f32)
        (after hostOps2 W9v (main_v44 : DevRef τ sig) : FVec Ideal S1x64 .f32)
        (after hostOps2 W9v (main_v40 : DevRef τ sig) : FVec Ideal S64x64 .f32)
        (after hostOps2 W9v (main_v41 : DevRef τ sig) : FVec Ideal S64x64 .f32)
        (after hostOps2 W9v (main_v42 : DevRef τ sig) : FVec Ideal S64x64 .f32)
        (after hostOps2 W9v (main_v45 : DevRef τ sig) : FVec Ideal S1x64 .f32)
        (after hostOps2 W9v (main_arg22 : DevRef τ sig) : FVec Ideal S64x64 .f32)
        (after hostOps2 W9v (main_v46 : DevRef τ sig) : FVec Ideal S1x64 .f32)
        (after hostOps2 W9v (main_v47 : DevRef τ sig) : FVec Ideal S1x64 .f32)
        (after hostOps2 W9v (main_v48 : DevRef τ sig) : FVec Ideal S1x64 .f32) (i 0) (i 1))
      = fun i : S50000x256.Idx => nPack (R := 50000) s (aggS s ei rbf kj ji ang wt1 bt1 wt2 bt2 wm1 bm1 wm2 bm2) (vComp v 0) (vComp v 1) (vComp v 2)
      (aggV s ei rbf dir kj ji ang wt1 bt1 wt2 bt2 wm1 bm1 wm2 bm2 0) (aggV s ei rbf dir kj ji ang wt1 bt1 wt2 bt2 wm1 bm1 wm2 bm2 1)
      (aggV s ei rbf dir kj ji ang wt1 bt1 wt2 bt2 wm1 bm1 wm2 bm2 2)
      (rowBlock wu1 0 64 (by omega)) (rowBlock wu1 64 64 (by omega)) (rowBlock wu1 128 64 (by omega)) (asRow bu1) wu2 (asRow bu2)
      (rowBlock wg1 0 64 (by omega)) (rowBlock wg1 64 64 (by omega)) (rowBlock wg1 128 64 (by omega)) (asRow bg1) wg2 (asRow bg2)
      (asRow lng) (asRow lnb) (i 0) (i 1) := by
  have e0 : (after hostOps2 W9v (main_arg0 : DevRef τ sig) : FVec Ideal S50000x64 .f32) = s := (Cert.KIHost.hostOps2_arg0 W9v).trans h0
  have e18 : (after hostOps2 W9v (main_arg18 : DevRef τ sig) : FVec Ideal S64x64 .f32) = wu2 := (Cert.KIHost.hostOps2_arg18 W9v).trans h18
  have e22 : (after hostOps2 W9v (main_arg22 : DevRef τ sig) : FVec Ideal S64x64 .f32) = wg2 := (Cert.KIHost.hostOps2_arg22 W9v).trans h22
  have e27 : (after hostOps2 W9v (main_v27 : DevRef τ sig) : FVec Ideal S50000x64 .f32) = aggS s ei rbf kj ji ang wt1 bt1 wt2 bt2 wm1 bm1 wm2 bm2 := by
    rw [Cert.KIEntry.entry_v27, hD, hP]; exact segSum_edgePacked_scalar s ei rbf dir kj ji ang wt1 bt1 wt2 bt2 wm1 bm1 wm2 bm2
  have e28 : (after hostOps2 W9v (main_v28 : DevRef τ sig) : FVec Ideal S50000x64 .f32) = aggV s ei rbf dir kj ji ang wt1 bt1 wt2 bt2 wm1 bm1 wm2 bm2 0 := by
    rw [Cert.KIEntry.entry_v28, hD, hP]; exact segSum_edgePacked_vector s ei rbf dir kj ji ang wt1 bt1 wt2 bt2 wm1 bm1 wm2 bm2 0
  have e29 : (after hostOps2 W9v (main_v29 : DevRef τ sig) : FVec Ideal S50000x64 .f32) = aggV s ei rbf dir kj ji ang wt1 bt1 wt2 bt2 wm1 bm1 wm2 bm2 1 := by
    rw [Cert.KIEntry.entry_v29, hD, hP]; exact segSum_edgePacked_vector s ei rbf dir kj ji ang wt1 bt1 wt2 bt2 wm1 bm1 wm2 bm2 1
  have e30 : (after hostOps2 W9v (main_v30 : DevRef τ sig) : FVec Ideal S50000x64 .f32) = aggV s ei rbf dir kj ji ang wt1 bt1 wt2 bt2 wm1 bm1 wm2 bm2 2 := by
    rw [Cert.KIEntry.entry_v30, hD, hP]; exact segSum_edgePacked_vector s ei rbf dir kj ji ang wt1 bt1 wt2 bt2 wm1 bm1 wm2 bm2 2
  have e32 : (after hostOps2 W9v (main_v32 : DevRef τ sig) : FVec Ideal S50000x64 .f32) = vComp v 0 := by rw [Cert.KIEntry.entry_v32, h1]
  have e34 : (after hostOps2 W9v (main_v34 : DevRef τ sig) : FVec Ideal S50000x64 .f32) = vComp v 1 := by rw [Cert.KIEntry.entry_v34, h1]
  have e36 : (after hostOps2 W9v (main_v36 : DevRef τ sig) : FVec Ideal S50000x64 .f32) = vComp v 2 := by rw [Cert.KIEntry.entry_v36, h1]
  have e37 : (after hostOps2 W9v (main_v37 : DevRef τ sig) : FVec Ideal S64x64 .f32) = rowBlock wu1 0 64 (by omega) := by rw [Cert.KIEntry.entry_v37, h16]
  have e38 : (after hostOps2 W9v (main_v38 : DevRef τ sig) : FVec Ideal S64x64 .f32) = rowBlock wu1 64 64 (by omega) := by rw [Cert.KIEntry.entry_v38, h16]
  have e39 : (after hostOps2 W9v (main_v39 : DevRef τ sig) : FVec Ideal S64x64 .f32) = rowBlock wu1 128 64 (by omega) := by rw [Cert.KIEntry.entry_v39, h16]
  have e40 : (after hostOps2 W9v (main_v40 : DevRef τ sig) : FVec Ideal S64x64 .f32) = rowBlock wg1 0 64 (by omega) := by rw [Cert.KIEntry.entry_v40, h20]
  have e41 : (after hostOps2 W9v (main_v41 : DevRef τ sig) : FVec Ideal S64x64 .f32) = rowBlock wg1 64 64 (by omega) := by rw [Cert.KIEntry.entry_v41, h20]
  have e42 : (after hostOps2 W9v (main_v42 : DevRef τ sig) : FVec Ideal S64x64 .f32) = rowBlock wg1 128 64 (by omega) := by rw [Cert.KIEntry.entry_v42, h20]
  have e43 : (after hostOps2 W9v (main_v43 : DevRef τ sig) : FVec Ideal S1x64 .f32) = asRow bu1 := by rw [Cert.KIEntry.entry_v43, h17]
  have e44 : (after hostOps2 W9v (main_v44 : DevRef τ sig) : FVec Ideal S1x64 .f32) = asRow bu2 := by rw [Cert.KIEntry.entry_v44, h19]
  have e45 : (after hostOps2 W9v (main_v45 : DevRef τ sig) : FVec Ideal S1x64 .f32) = asRow bg1 := by rw [Cert.KIEntry.entry_v45, h21]
  have e46 : (after hostOps2 W9v (main_v46 : DevRef τ sig) : FVec Ideal S1x64 .f32) = asRow bg2 := by rw [Cert.KIEntry.entry_v46, h23]
  have e47 : (after hostOps2 W9v (main_v47 : DevRef τ sig) : FVec Ideal S1x64 .f32) = asRow lng := by rw [Cert.KIEntry.entry_v47, h24]
  have e48 : (after hostOps2 W9v (main_v48 : DevRef τ sig) : FVec Ideal S1x64 .f32) = asRow lnb := by rw [Cert.KIEntry.entry_v48, h25]
  rw [e0, e18, e22, e27, e28, e29, e30, e32, e34, e36, e37, e38, e39, e40, e41, e42, e43, e44, e45, e46, e47, e48]

end Compose

section Results
open Cert.Spec Cert.KernelIdeal Cert.KernelIdeal.Gen
open Idealize.ShloMosaic.TcCoe Idealize.ShloMosaic.StableHlo Idealize.SL.Sem
variable (s : Mat 50000 64) (v : Arr3 50000 64 3) (ei : IVec Cert.TakeRows.S2x800000 32) (rbf : Mat 800000 64) (dir : Mat 800000 3)
  (kj ji : IVec Cert.TakeRows.S800000 32) (ang : Mat 800000 16)
  (wt1 : Mat 144 64) (bt1 : Vec1 64) (wt2 : Mat 64 64) (bt2 : Vec1 64)
  (wm1 : Mat 256 64) (bm1 : Vec1 64) (wm2 : Mat 64 128) (bm2 : Vec1 128)
  (wu1 : Mat 192 64) (bu1 : Vec1 64) (wu2 : Mat 64 64) (bu2 : Vec1 64)
  (wg1 : Mat 192 64) (bg1 : Vec1 64) (wg2 : Mat 64 64) (bg2 : Vec1 64)
  (lng lnb : Vec1 64)
variable (W9v W11v : Valuation τ sig (Elt Ideal))

/-- The node stage's packed result in canonical form. -/
theorem ker_v49
    (h49 : (W11v (main_v49 : DevRef τ sig) : FVec Ideal S50000x256 .f32) = fun i : S50000x256.Idx => nPack (R := 50000)
        (after hostOps2 W9v (main_arg0 : DevRef τ sig) : FVec Ideal S50000x64 .f32)
        (after hostOps2 W9v (main_v27 : DevRef τ sig) : FVec Ideal S50000x64 .f32)
        (after hostOps2 W9v (main_v32 : DevRef τ sig) : FVec Ideal S50000x64 .f32)
        (after hostOps2 W9v (main_v34 : DevRef τ sig) : FVec Ideal S50000x64 .f32)
        (after hostOps2 W9v (main_v36 : DevRef τ sig) : FVec Ideal S50000x64 .f32)
        (after hostOps2 W9v (main_v28 : DevRef τ sig) : FVec Ideal S50000x64 .f32)
        (after hostOps2 W9v (main_v29 : DevRef τ sig) : FVec Ideal S50000x64 .f32)
        (after hostOps2 W9v (main_v30 : DevRef τ sig) : FVec Ideal S50000x64 .f32)
        (after hostOps2 W9v (main_v37 : DevRef τ sig) : FVec Ideal S64x64 .f32)
        (after hostOps2 W9v (main_v38 : DevRef τ sig) : FVec Ideal S64x64 .f32)
        (after hostOps2 W9v (main_v39 : DevRef τ sig) : FVec Ideal S64x64 .f32)
        (after hostOps2 W9v (main_v43 : DevRef τ sig) : FVec Ideal S1x64 .f32)
        (after hostOps2 W9v (main_arg18 : DevRef τ sig) : FVec Ideal S64x64 .f32)
        (after hostOps2 W9v (main_v44 : DevRef τ sig) : FVec Ideal S1x64 .f32)
        (after hostOps2 W9v (main_v40 : DevRef τ sig) : FVec Ideal S64x64 .f32)
        (after hostOps2 W9v (main_v41 : DevRef τ sig) : FVec Ideal S64x64 .f32)
        (after hostOps2 W9v (main_v42 : DevRef τ sig) : FVec Ideal S64x64 .f32)
        (after hostOps2 W9v (main_v45 : DevRef τ sig) : FVec Ideal S1x64 .f32)
        (after hostOps2 W9v (main_arg22 : DevRef τ sig) : FVec Ideal S64x64 .f32)
        (after hostOps2 W9v (main_v46 : DevRef τ sig) : FVec Ideal S1x64 .f32)
        (after hostOps2 W9v (main_v47 : DevRef τ sig) : FVec Ideal S1x64 .f32)
        (after hostOps2 W9v (main_v48 : DevRef τ sig) : FVec Ideal S1x64 .f32) (i 0) (i 1))
    (hP : (W9v (main_v23 : DevRef τ sig) : FVec Ideal S800000x256 .f32) = edgePacked s ei rbf dir kj ji ang wt1 bt1 wt2 bt2 wm1 bm1 wm2 bm2)
    (hD : (W9v (main_v14 : DevRef τ sig) : IVec S800000 32) = edgeRow ei 1)
    (h0 : (W9v (main_arg0 : DevRef τ sig) : FVec Ideal S50000x64 .f32) = s)
    (h1 : (W9v (main_arg1 : DevRef τ sig) : FVec Ideal S50000x64x3 .f32) = v)
    (h16 : (W9v (main_arg16 : DevRef τ sig) : FVec Ideal S192x64 .f32) = wu1)
    (h17 : (W9v (main_arg17 : DevRef τ sig) : FVec Ideal S64 .f32) = bu1)
    (h18 : (W9v (main_arg18 : DevRef τ sig) : FVec Ideal S64x64 .f32) = wu2)
    (h19 : (W9v (main_arg19 : DevRef τ sig) : FVec Ideal S64 .f32) = bu2)
    (h20 : (W9v (main_arg20 : DevRef τ sig) : FVec Ideal S192x64 .f32) = wg1)
    (h21 : (W9v (main_arg21 : DevRef τ sig) : FVec Ideal S64 .f32) = bg1)
    (h22 : (W9v (main_arg22 : DevRef τ sig) : FVec Ideal S64x64 .f32) = wg2)
    (h23 : (W9v (main_arg23 : DevRef τ sig) : FVec Ideal S64 .f32) = bg2)
    (h24 : (W9v (main_arg24 : DevRef τ sig) : FVec Ideal S64 .f32) = lng)
    (h25 : (W9v (main_arg25 : DevRef τ sig) : FVec Ideal S64 .f32) = lnb) :
    (W11v (main_v49 : DevRef τ sig) : FVec Ideal S50000x256 .f32)
      = fun i : S50000x256.Idx => nPack (R := 50000) s (aggS s ei rbf kj ji ang wt1 bt1 wt2 bt2 wm1 bm1 wm2 bm2) (vComp v 0) (vComp v 1) (vComp v 2)
      (aggV s ei rbf dir kj ji ang wt1 bt1 wt2 bt2 wm1 bm1 wm2 bm2 0) (aggV s ei rbf dir kj ji ang wt1 bt1 wt2 bt2 wm1 bm1 wm2 bm2 1)
      (aggV s ei rbf dir kj ji ang wt1 bt1 wt2 bt2 wm1 bm1 wm2 bm2 2)
      (rowBlock wu1 0 64 (by omega)) (rowBlock wu1 64 64 (by omega)) (rowBlock wu1 128 64 (by omega)) (asRow bu1) wu2 (asRow bu2)
      (rowBlock wg1 0 64 (by omega)) (rowBlock wg1 64 64 (by omega)) (rowBlock wg1 128 64 (by omega)) (asRow bg1) wg2 (asRow bg2)
      (asRow lng) (asRow lnb) (i 0) (i 1) :=
  h49.trans (nPack_entries s v ei rbf dir kj ji ang wt1 bt1 wt2 bt2 wm1 bm1 wm2 bm2 wu1 bu1 wu2 bu2 wg1 bg1 wg2 bg2 lng lnb W9v hP hD h0 h1 h16 h17 h18 h19 h20 h21 h22 h23 h24 h25)

/-- FIRST RESULT of the kernel program: the layer's normalised new scalar features. -/
theorem ker_outS
    (h49 : (W11v (main_v49 : DevRef τ sig) : FVec Ideal S50000x256 .f32) = fun i : S50000x256.Idx => nPack (R := 50000)
        (after hostOps2 W9v (main_arg0 : DevRef τ sig) : FVec Ideal S50000x64 .f32)
        (after hostOps2 W9v (main_v27 : DevRef τ sig) : FVec Ideal S50000x64 .f32)
        (after hostOps2 W9v (main_v32 : DevRef τ sig) : FVec Ideal S50000x64 .f32)
        (after hostOps2 W9v (main_v34 : DevRef τ sig) : FVec Ideal S50000x64 .f32)
        (after hostOps2 W9v (main_v36 : DevRef τ sig) : FVec Ideal S50000x64 .f32)
        (after hostOps2 W9v (main_v28 : DevRef τ sig) : FVec Ideal S50000x64 .f32)
        (after hostOps2 W9v (main_v29 : DevRef τ sig) : FVec Ideal S50000x64 .f32)
        (after hostOps2 W9v (main_v30 : DevRef τ sig) : FVec Ideal S50000x64 .f32)
        (after hostOps2 W9v (main_v37 : DevRef τ sig) : FVec Ideal S64x64 .f32)
        (after hostOps2 W9v (main_v38 : DevRef τ sig) : FVec Ideal S64x64 .f32)
        (after hostOps2 W9v (main_v39 : DevRef τ sig) : FVec Ideal S64x64 .f32)
        (after hostOps2 W9v (main_v43 : DevRef τ sig) : FVec Ideal S1x64 .f32)
        (after hostOps2 W9v (main_arg18 : DevRef τ sig) : FVec Ideal S64x64 .f32)
        (after hostOps2 W9v (main_v44 : DevRef τ sig) : FVec Ideal S1x64 .f32)
        (after hostOps2 W9v (main_v40 : DevRef τ sig) : FVec Ideal S64x64 .f32)
        (after hostOps2 W9v (main_v41 : DevRef τ sig) : FVec Ideal S64x64 .f32)
        (after hostOps2 W9v (main_v42 : DevRef τ sig) : FVec Ideal S64x64 .f32)
        (after hostOps2 W9v (main_v45 : DevRef τ sig) : FVec Ideal S1x64 .f32)
        (after hostOps2 W9v (main_arg22 : DevRef τ sig) : FVec Ideal S64x64 .f32)
        (after hostOps2 W9v (main_v46 : DevRef τ sig) : FVec Ideal S1x64 .f32)
        (after hostOps2 W9v (main_v47 : DevRef τ sig) : FVec Ideal S1x64 .f32)
        (after hostOps2 W9v (main_v48 : DevRef τ sig) : FVec Ideal S1x64 .f32) (i 0) (i 1))
    (hP : (W9v (main_v23 : DevRef τ sig) : FVec Ideal S800000x256 .f32) = edgePacked s ei rbf dir kj ji ang wt1 bt1 wt2 bt2 wm1 bm1 wm2 bm2)
    (hD : (W9v (main_v14 : DevRef τ sig) : IVec S800000 32) = edgeRow ei 1)
    (h0 : (W9v (main_arg0 : DevRef τ sig) : FVec Ideal S50000x64 .f32) = s)
    (h1 : (W9v (main_arg1 : DevRef τ sig) : FVec Ideal S50000x64x3 .f32) = v)
    (h16 : (W9v (main_arg16 : DevRef τ sig) : FVec Ideal S192x64 .f32) = wu1)
    (h17 : (W9v (main_arg17 : DevRef τ sig) : FVec Ideal S64 .f32) = bu1)
    (h18 : (W9v (main_arg18 : DevRef τ sig) : FVec Ideal S64x64 .f32) = wu2)
    (h19 : (W9v (main_arg19 : DevRef τ sig) : FVec Ideal S64 .f32) = bu2)
    (h20 : (W9v (main_arg20 : DevRef τ sig) : FVec Ideal S192x64 .f32) = wg1)
    (h21 : (W9v (main_arg21 : DevRef τ sig) : FVec Ideal S64 .f32) = bg1)
    (h22 : (W9v (main_arg22 : DevRef τ sig) : FVec Ideal S64x64 .f32) = wg2)
    (h23 : (W9v (main_arg23 : DevRef τ sig) : FVec Ideal S64 .f32) = bg2)
    (h24 : (W9v (main_arg24 : DevRef τ sig) : FVec Ideal S64 .f32) = lng)
    (h25 : (W9v (main_arg25 : DevRef τ sig) : FVec Ideal S64 .f32) = lnb) :
    (after hostOps3 W11v (main_v50 : DevRef τ sig) : FVec Ideal S50000x64 .f32)
      = outS s v ei rbf kj ji ang wt1 bt1 wt2 bt2 wm1 bm1 wm2 bm2 wu1 bu1 wu2 bu2 lng lnb := by
  have hX := ker_v49 s v ei rbf dir kj ji ang wt1 bt1 wt2 bt2 wm1 bm1 wm2 bm2 wu1 bu1 wu2 bu2 wg1 bg1 wg2 bg2 lng lnb W9v W11v h49 hP hD h0 h1 h16 h17 h18 h19 h20 h21 h22 h23 h24 h25
  rw [Cert.KIEntry.result_v50, hX]
  funext i
  obtain ⟨n, j, rfl⟩ : ∃ n j, i = ix2 n j := ⟨i 0, i 1, eq_ix2 i⟩
  exact nPack_outS s v ei rbf dir kj ji ang wt1 bt1 wt2 bt2 wm1 bm1 wm2 bm2 wu1 bu1 wu2 bu2 wg1 bg1 wg2 bg2 lng lnb n j

/-- SECOND RESULT of the kernel program: the layer's new vector features. -/
theorem ker_outV
    (h49 : (W11v (main_v49 : DevRef τ sig) : FVec Ideal S50000x256 .f32) = fun i : S50000x256.Idx => nPack (R := 50000)
        (after hostOps2 W9v (main_arg0 : DevRef τ sig) : FVec Ideal S50000x64 .f32)
        (after hostOps2 W9v (main_v27 : DevRef τ sig) : FVec Ideal S50000x64 .f32)
        (after hostOps2 W9v (main_v32 : DevRef τ sig) : FVec Ideal S50000x64 .f32)
        (after hostOps2 W9v (main_v34 : DevRef τ sig) : FVec Ideal S50000x64 .f32)
        (after hostOps2 W9v (main_v36 : DevRef τ sig) : FVec Ideal S50000x64 .f32)
        (after hostOps2 W9v (main_v28 : DevRef τ sig) : FVec Ideal S50000x64 .f32)
        (after hostOps2 W9v (main_v29 : DevRef τ sig) : FVec Ideal S50000x64 .f32)
        (after hostOps2 W9v (main_v30 : DevRef τ sig) : FVec Ideal S50000x64 .f32)
        (after hostOps2 W9v (main_v37 : DevRef τ sig) : FVec Ideal S64x64 .f32)
        (after hostOps2 W9v (main_v38 : DevRef τ sig) : FVec Ideal S64x64 .f32)
        (after hostOps2 W9v (main_v39 : DevRef τ sig) : FVec Ideal S64x64 .f32)
        (after hostOps2 W9v (main_v43 : DevRef τ sig) : FVec Ideal S1x64 .f32)
        (after hostOps2 W9v (main_arg18 : DevRef τ sig) : FVec Ideal S64x64 .f32)
        (after hostOps2 W9v (main_v44 : DevRef τ sig) : FVec Ideal S1x64 .f32)
        (after hostOps2 W9v (main_v40 : DevRef τ sig) : FVec Ideal S64x64 .f32)
        (after hostOps2 W9v (main_v41 : DevRef τ sig) : FVec Ideal S64x64 .f32)
        (after hostOps2 W9v (main_v42 : DevRef τ sig) : FVec Ideal S64x64 .f32)
        (after hostOps2 W9v (main_v45 : DevRef τ sig) : FVec Ideal S1x64 .f32)
        (after hostOps2 W9v (main_arg22 : DevRef τ sig) : FVec Ideal S64x64 .f32)
        (after hostOps2 W9v (main_v46 : DevRef τ sig) : FVec Ideal S1x64 .f32)
        (after hostOps2 W9v (main_v47 : DevRef τ sig) : FVec Ideal S1x64 .f32)
        (after hostOps2 W9v (main_v48 : DevRef τ sig) : FVec Ideal S1x64 .f32) (i 0) (i 1))
    (hP : (W9v (main_v23 : DevRef τ sig) : FVec Ideal S800000x256 .f32) = edgePacked s ei rbf dir kj ji ang wt1 bt1 wt2 bt2 wm1 bm1 wm2 bm2)
    (hD : (W9v (main_v14 : DevRef τ sig) : IVec S800000 32) = edgeRow ei 1)
    (h0 : (W9v (main_arg0 : DevRef τ sig) : FVec Ideal S50000x64 .f32) = s)
    (h1 : (W9v (main_arg1 : DevRef τ sig) : FVec Ideal S50000x64x3 .f32) = v)
    (h16 : (W9v (main_arg16 : DevRef τ sig) : FVec Ideal S192x64 .f32) = wu1)
    (h17 : (W9v (main_arg17 : DevRef τ sig) : FVec Ideal S64 .f32) = bu1)
    (h18 : (W9v (main_arg18 : DevRef τ sig) : FVec Ideal S64x64 .f32) = wu2)
    (h19 : (W9v (main_arg19 : DevRef τ sig) : FVec Ideal S64 .f32) = bu2)
    (h20 : (W9v (main_arg20 : DevRef τ sig) : FVec Ideal S192x64 .f32) = wg1)
    (h21 : (W9v (main_arg21 : DevRef τ sig) : FVec Ideal S64 .f32) = bg1)
    (h22 : (W9v (main_arg22 : DevRef τ sig) : FVec Ideal S64x64 .f32) = wg2)
    (h23 : (W9v (main_arg23 : DevRef τ sig) : FVec Ideal S64 .f32) = bg2)
    (h24 : (W9v (main_arg24 : DevRef τ sig) : FVec Ideal S64 .f32) = lng)
    (h25 : (W9v (main_arg25 : DevRef τ sig) : FVec Ideal S64 .f32) = lnb) :
    (after hostOps3 W11v (main_v57 : DevRef τ sig) : FVec Ideal S50000x64x3 .f32)
      = outV s v ei rbf dir kj ji ang wt1 bt1 wt2 bt2 wm1 bm1 wm2 bm2 wg1 bg1 wg2 bg2 := by
  have hX := ker_v49 s v ei rbf dir kj ji ang wt1 bt1 wt2 bt2 wm1 bm1 wm2 bm2 wu1 bu1 wu2 bu2 wg1 bg1 wg2 bg2 lng lnb W9v W11v h49 hP hD h0 h1 h16 h17 h18 h19 h20 h21 h22 h23 h24 h25
  funext i
  obtain ⟨n, h, c, rfl⟩ : ∃ n h c, i = ix3 n h c := ⟨i 0, i 1, i 2, eq_ix3 i⟩
  rw [Cert.KIEntry.result_v57, hX]
  exact nPack_outV s v ei rbf dir kj ji ang wt1 bt1 wt2 bt2 wm1 bm1 wm2 bm2 wu1 bu1 wu2 bu2 wg1 bg1 wg2 bg2 lng lnb n h c

end Results

end Cert.KISide

end
-- ==== Proof.KIArgs.lean ====
/-
  Every argument array still holds its launch contents where the second and third kernel regions are entered: no host operation
  and no region before that point writes an argument.
-/
import proofs.«166758_j50929722196748_2_alg».proof.Proof.Gen.KernelIdeal.Launch
import proofs.«166758_j50929722196748_2_alg».proof.Proof.Gen.KernelIdeal.Skeleton
import proofs.«166758_j50929722196748_2_alg».proof.Proof.Gen.KernelIdeal.Points
import proofs.«166758_j50929722196748_2_alg».proof.Proof.Gen.KernelIdeal.Regions
import proofs.«166758_j50929722196748_2_alg».proof.Proof.KIRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## After the first region -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of m ρ c main_arg6 (by decide)
    _ = W0 m ρ c (Proc.devRef .tc main_arg6) := W1_of m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 2).trans (((dat0 (Vin0 m ρ) c).arrAt_in 2 rfl _).trans (A_eq0 (Vin0 m ρ) c 2))
    _ = W2 m ρ c (Proc.devRef .tc main_arg7) := W3_of m ρ c main_arg7 (by decide)
    _ = W1 m ρ c (Proc.devRef .tc main_arg7) := W2_of m ρ c main_arg7 (by decide)
    _ = W0 m ρ c (Proc.devRef .tc main_arg7) := W1_of m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of m ρ c main_arg8 (by decide)
    _ = W0 m ρ c (Proc.devRef .tc main_arg8) := W1_of m ρ c main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of m ρ c main_arg9 (by decide)
    _ = W0 m ρ c (Proc.devRef .tc main_arg9) := W1_of m ρ c main_arg9 (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 7).trans (((dat0 (Vin0 m ρ) c).arrAt_in 7 rfl _).trans (A_eq0 (Vin0 m ρ) c 7))
    _ = W2 m ρ c (Proc.devRef .tc main_arg10) := W3_of m ρ c main_arg10 (by decide)
    _ = W1 m ρ c (Proc.devRef .tc main_arg10) := W2_of m ρ c main_arg10 (by decide)
    _ = W0 m ρ c (Proc.devRef .tc main_arg10) := W1_of m ρ c main_arg10 (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of m ρ c main_arg11 (by decide)
    _ = W0 m ρ c (Proc.devRef .tc main_arg11) := W1_of m ρ c main_arg11 (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := W3_of m ρ c main_arg12 (by decide)
    _ = W1 m ρ c (Proc.devRef .tc main_arg12) := W2_of m ρ c main_arg12 (by decide)
    _ = W0 m ρ c (Proc.devRef .tc main_arg12) := W1_of m ρ c main_arg12 (by decide)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of m ρ c main_arg13 (by decide)
    _ = W0 m ρ c (Proc.devRef .tc main_arg13) := W1_of m ρ c main_arg13 (by decide)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := W3_of m ρ c main_arg14 (by decide)
    _ = W1 m ρ c (Proc.devRef .tc main_arg14) := W2_of m ρ c main_arg14 (by decide)
    _ = W0 m ρ c (Proc.devRef .tc main_arg14) := W1_of m ρ c main_arg14 (by decide)
    _ = m ((c : Thread nD τ).loc main_arg14) := rfl
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := W3_of m ρ c main_arg15 (by decide)
    _ = W1 m ρ c (Proc.devRef .tc main_arg15) := W2_of m ρ c main_arg15 (by decide)
    _ = W0 m ρ c (Proc.devRef .tc main_arg15) := W1_of m ρ c main_arg15 (by decide)
    _ = m ((c : Thread nD τ).loc main_arg15) := rfl
theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := W3_of m ρ c main_arg16 (by decide)
    _ = W1 m ρ c (Proc.devRef .tc main_arg16) := W2_of m ρ c main_arg16 (by decide)
    _ = W0 m ρ c (Proc.devRef .tc main_arg16) := W1_of m ρ c main_arg16 (by decide)
    _ = m ((c : Thread nD τ).loc main_arg16) := rfl
theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := W3_of m ρ c main_arg17 (by decide)
    _ = W1 m ρ c (Proc.devRef .tc main_arg17) := W2_of m ρ c main_arg17 (by decide)
    _ = W0 m ρ c (Proc.devRef .tc main_arg17) := W1_of m ρ c main_arg17 (by decide)
    _ = m ((c : Thread nD τ).loc main_arg17) := rfl
theorem W4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := W3_of m ρ c main_arg18 (by decide)
    _ = W1 m ρ c (Proc.devRef .tc main_arg18) := W2_of m ρ c main_arg18 (by decide)
    _ = W0 m ρ c (Proc.devRef .tc main_arg18) := W1_of m ρ c main_arg18 (by decide)
    _ = m ((c : Thread nD τ).loc main_arg18) := rfl
theorem W4_main_arg19 (c : Dev nD) : W4 m ρ c (Proc.devRef .tc main_arg19) = m ((c : Thread nD τ).loc main_arg19) :=
  calc W4 m ρ c (Proc.devRef .tc main_arg19)
    _ = W3 m ρ c (Proc.devRef .tc main_arg19) := W4_of_ne m ρ c main_arg19 (by decide)
    _ = W2 m ρ c (Proc.devRef .tc main_arg19) := W3_of m ρ c main_arg19 (by decide)
    _ = W1 m ρ c (Proc.devRef .tc main_arg19) := W2_of m ρ c main_arg19 (by decide)
    _ = W0 m ρ c (Proc.devRef .tc main_arg19) := W1_of m ρ c main_arg19 (by decide)
    _ = m ((c : Thread nD τ).loc main_arg19) := rfl
theorem W4_main_arg20 (c : Dev nD) : W4 m ρ c (Proc.devRef .tc main_arg20) = m ((c : Thread nD τ).loc main_arg20) :=
  calc W4 m ρ c (Proc.devRef .tc main_arg20)
    _ = W3 m ρ c (Proc.devRef .tc main_arg20) := W4_of_ne m ρ c main_arg20 (by decide)
    _ = W2 m ρ c (Proc.devRef .tc main_arg20) := W3_of m ρ c main_arg20 (by decide)
    _ = W1 m ρ c (Proc.devRef .tc main_arg20) := W2_of m ρ c main_arg20 (by decide)
    _ = W0 m ρ c (Proc.devRef .tc main_arg20) := W1_of m ρ c main_arg20 (by decide)
    _ = m ((c : Thread nD τ).loc main_arg20) := rfl
theorem W4_main_arg21 (c : Dev nD) : W4 m ρ c (Proc.devRef .tc main_arg21) = m ((c : Thread nD τ).loc main_arg21) :=
  calc W4 m ρ c (Proc.devRef .tc main_arg21)
    _ = W3 m ρ c (Proc.devRef .tc main_arg21) := W4_of_ne m ρ c main_arg21 (by decide)
    _ = W2 m ρ c (Proc.devRef .tc main_arg21) := W3_of m ρ c main_arg21 (by decide)
    _ = W1 m ρ c (Proc.devRef .tc main_arg21) := W2_of m ρ c main_arg21 (by decide)
    _ = W0 m ρ c (Proc.devRef .tc main_arg21) := W1_of m ρ c main_arg21 (by decide)
    _ = m ((c : Thread nD τ).loc main_arg21) := rfl
theorem W4_main_arg22 (c : Dev nD) : W4 m ρ c (Proc.devRef .tc main_arg22) = m ((c : Thread nD τ).loc main_arg22) :=
  calc W4 m ρ c (Proc.devRef .tc main_arg22)
    _ = W3 m ρ c (Proc.devRef .tc main_arg22) := W4_of_ne m ρ c main_arg22 (by decide)
    _ = W2 m ρ c (Proc.devRef .tc main_arg22) := W3_of m ρ c main_arg22 (by decide)
    _ = W1 m ρ c (Proc.devRef .tc main_arg22) := W2_of m ρ c main_arg22 (by decide)
    _ = W0 m ρ c (Proc.devRef .tc main_arg22) := W1_of m ρ c main_arg22 (by decide)
    _ = m ((c : Thread nD τ).loc main_arg22) := rfl
theorem W4_main_arg23 (c : Dev nD) : W4 m ρ c (Proc.devRef .tc main_arg23) = m ((c : Thread nD τ).loc main_arg23) :=
  calc W4 m ρ c (Proc.devRef .tc main_arg23)
    _ = W3 m ρ c (Proc.devRef .tc main_arg23) := W4_of_ne m ρ c main_arg23 (by decide)
    _ = W2 m ρ c (Proc.devRef .tc main_arg23) := W3_of m ρ c main_arg23 (by decide)
    _ = W1 m ρ c (Proc.devRef .tc main_arg23) := W2_of m ρ c main_arg23 (by decide)
    _ = W0 m ρ c (Proc.devRef .tc main_arg23) := W1_of m ρ c main_arg23 (by decide)
    _ = m ((c : Thread nD τ).loc main_arg23) := rfl
theorem W4_main_arg24 (c : Dev nD) : W4 m ρ c (Proc.devRef .tc main_arg24) = m ((c : Thread nD τ).loc main_arg24) :=
  calc W4 m ρ c (Proc.devRef .tc main_arg24)
    _ = W3 m ρ c (Proc.devRef .tc main_arg24) := W4_of_ne m ρ c main_arg24 (by decide)
    _ = W2 m ρ c (Proc.devRef .tc main_arg24) := W3_of m ρ c main_arg24 (by decide)
    _ = W1 m ρ c (Proc.devRef .tc main_arg24) := W2_of m ρ c main_arg24 (by decide)
    _ = W0 m ρ c (Proc.devRef .tc main_arg24) := W1_of m ρ c main_arg24 (by decide)
    _ = m ((c : Thread nD τ).loc main_arg24) := rfl
theorem W4_main_arg25 (c : Dev nD) : W4 m ρ c (Proc.devRef .tc main_arg25) = m ((c : Thread nD τ).loc main_arg25) :=
  calc W4 m ρ c (Proc.devRef .tc main_arg25)
    _ = W3 m ρ c (Proc.devRef .tc main_arg25) := W4_of_ne m ρ c main_arg25 (by decide)
    _ = W2 m ρ c (Proc.devRef .tc main_arg25) := W3_of m ρ c main_arg25 (by decide)
    _ = W1 m ρ c (Proc.devRef .tc main_arg25) := W2_of m ρ c main_arg25 (by decide)
    _ = W0 m ρ c (Proc.devRef .tc main_arg25) := W1_of m ρ c main_arg25 (by decide)
    _ = m ((c : Thread nD τ).loc main_arg25) := rfl

/-! ## After the second region -/
theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := W8_of m ρ c main_arg0 (by decide)
    _ = W6 m ρ c (Proc.devRef .tc main_arg0) := W7_of m ρ c main_arg0 (by decide)
    _ = W5 m ρ c (Proc.devRef .tc main_arg0) := W6_of m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := W9_of_ne m ρ c main_arg1 (by decide)
    _ = W7 m ρ c (Proc.devRef .tc main_arg1) := W8_of m ρ c main_arg1 (by decide)
    _ = W6 m ρ c (Proc.devRef .tc main_arg1) := W7_of m ρ c main_arg1 (by decide)
    _ = W5 m ρ c (Proc.devRef .tc main_arg1) := W6_of m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := W9_of_ne m ρ c main_arg2 (by decide)
    _ = W7 m ρ c (Proc.devRef .tc main_arg2) := W8_of m ρ c main_arg2 (by decide)
    _ = W6 m ρ c (Proc.devRef .tc main_arg2) := W7_of m ρ c main_arg2 (by decide)
    _ = W5 m ρ c (Proc.devRef .tc main_arg2) := W6_of m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of m ρ c main_arg2 (by decide)
    _ = m ((c : Thread nD τ).loc main_arg2) := rfl
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := (W9_arr m ρ c 2).trans (((dat1 (Vin1 m ρ) c).arrAt_in 2 rfl _).trans (A_eq1 (Vin1 m ρ) c 2))
    _ = W7 m ρ c (Proc.devRef .tc main_arg3) := W8_of m ρ c main_arg3 (by decide)
    _ = W6 m ρ c (Proc.devRef .tc main_arg3) := W7_of m ρ c main_arg3 (by decide)
    _ = W5 m ρ c (Proc.devRef .tc main_arg3) := W6_of m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := (W9_arr m ρ c 4).trans (((dat1 (Vin1 m ρ) c).arrAt_in 4 rfl _).trans (A_eq1 (Vin1 m ρ) c 4))
    _ = W7 m ρ c (Proc.devRef .tc main_arg4) := W8_of m ρ c main_arg4 (by decide)
    _ = W6 m ρ c (Proc.devRef .tc main_arg4) := W7_of m ρ c main_arg4 (by decide)
    _ = W5 m ρ c (Proc.devRef .tc main_arg4) := W6_of m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := W8_of m ρ c main_arg5 (by decide)
    _ = W6 m ρ c (Proc.devRef .tc main_arg5) := W7_of m ρ c main_arg5 (by decide)
    _ = W5 m ρ c (Proc.devRef .tc main_arg5) := W6_of m ρ c main_arg5 (by decide)
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of m ρ c main_arg5 (by decide)
    _ = m ((c : Thread nD τ).loc main_arg5) := rfl
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := W8_of m ρ c main_arg6 (by decide)
    _ = W6 m ρ c (Proc.devRef .tc main_arg6) := W7_of m ρ c main_arg6 (by decide)
    _ = W5 m ρ c (Proc.devRef .tc main_arg6) := W6_of m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of m ρ c main_arg6 (by decide)
    _ = W0 m ρ c (Proc.devRef .tc main_arg6) := W1_of m ρ c main_arg6 (by decide)
    _ = m ((c : Thread nD τ).loc main_arg6) := rfl
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of m ρ c main_arg7 (by decide)
    _ = W6 m ρ c (Proc.devRef .tc main_arg7) := W7_of m ρ c main_arg7 (by decide)
    _ = W5 m ρ c (Proc.devRef .tc main_arg7) := W6_of m ρ c main_arg7 (by decide)
    _ = W4 m ρ c (Proc.devRef .tc main_arg7) := W5_of m ρ c main_arg7 (by decide)
    _ = W3 m ρ c (Proc.devRef .tc main_arg7) := (W4_arr m ρ c 2).trans (((dat0 (Vin0 m ρ) c).arrAt_in 2 rfl _).trans (A_eq0 (Vin0 m ρ) c 2))
    _ = W2 m ρ c (Proc.devRef .tc main_arg7) := W3_of m ρ c main_arg7 (by decide)
    _ = W1 m ρ c (Proc.devRef .tc main_arg7) := W2_of m ρ c main_arg7 (by decide)
    _ = W0 m ρ c (Proc.devRef .tc main_arg7) := W1_of m ρ c main_arg7 (by decide)
    _ = m ((c : Thread nD τ).loc main_arg7) := rfl
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of m ρ c main_arg8 (by decide)
    _ = W6 m ρ c (Proc.devRef .tc main_arg8) := W7_of m ρ c main_arg8 (by decide)
    _ = W5 m ρ c (Proc.devRef .tc main_arg8) := W6_of m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of m ρ c main_arg8 (by decide)
    _ = W0 m ρ c (Proc.devRef .tc main_arg8) := W1_of m ρ c main_arg8 (by decide)
    _ = m ((c : Thread nD τ).loc main_arg8) := rfl
theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of_ne m ρ c main_arg9 (by decide)
    _ = W7 m ρ c (Proc.devRef .tc main_arg9) := W8_of m ρ c main_arg9 (by decide)
    _ = W6 m ρ c (Proc.devRef .tc main_arg9) := W7_of m ρ c main_arg9 (by decide)
    _ = W5 m ρ c (Proc.devRef .tc main_arg9) := W6_of m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of m ρ c main_arg9 (by decide)
    _ = W0 m ρ c (Proc.devRef .tc main_arg9) := W1_of m ρ c main_arg9 (by decide)
    _ = m ((c : Thread nD τ).loc main_arg9) := rfl
theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := W9_of_ne m ρ c main_arg10 (by decide)
    _ = W7 m ρ c (Proc.devRef .tc main_arg10) := W8_of m ρ c main_arg10 (by decide)
    _ = W6 m ρ c (Proc.devRef .tc main_arg10) := W7_of m ρ c main_arg10 (by decide)
    _ = W5 m ρ c (Proc.devRef .tc main_arg10) := W6_of m ρ c main_arg10 (by decide)
    _ = W4 m ρ c (Proc.devRef .tc main_arg10) := W5_of m ρ c main_arg10 (by decide)
    _ = W3 m ρ c (Proc.devRef .tc main_arg10) := (W4_arr m ρ c 7).trans (((dat0 (Vin0 m ρ) c).arrAt_in 7 rfl _).trans (A_eq0 (Vin0 m ρ) c 7))
    _ = W2 m ρ c (Proc.devRef .tc main_arg10) := W3_of m ρ c main_arg10 (by decide)
    _ = W1 m ρ c (Proc.devRef .tc main_arg10) := W2_of m ρ c main_arg10 (by decide)
    _ = W0 m ρ c (Proc.devRef .tc main_arg10) := W1_of m ρ c main_arg10 (by decide)
    _ = m ((c : Thread nD τ).loc main_arg10) := rfl
theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := W9_of_ne m ρ c main_arg11 (by decide)
    _ = W7 m ρ c (Proc.devRef .tc main_arg11) := W8_of m ρ c main_arg11 (by decide)
    _ = W6 m ρ c (Proc.devRef .tc main_arg11) := W7_of m ρ c main_arg11 (by decide)
    _ = W5 m ρ c (Proc.devRef .tc main_arg11) := W6_of m ρ c main_arg11 (by decide)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of m ρ c main_arg11 (by decide)
    _ = W0 m ρ c (Proc.devRef .tc main_arg11) := W1_of m ρ c main_arg11 (by decide)
    _ = m ((c : Thread nD τ).loc main_arg11) := rfl
theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := W9_of_ne m ρ c main_arg12 (by decide)
    _ = W7 m ρ c (Proc.devRef .tc main_arg12) := W8_of m ρ c main_arg12 (by decide)
    _ = W6 m ρ c (Proc.devRef .tc main_arg12) := W7_of m ρ c main_arg12 (by decide)
    _ = W5 m ρ c (Proc.devRef .tc main_arg12) := W6_of m ρ c main_arg12 (by decide)
    _ = W4 m ρ c (Proc.devRef .tc main_arg12) := W5_of m ρ c main_arg12 (by decide)
    _ = W3 m ρ c (Proc.devRef .tc main_arg12) := W4_of_ne m ρ c main_arg12 (by decide)
    _ = W2 m ρ c (Proc.devRef .tc main_arg12) := W3_of m ρ c main_arg12 (by decide)
    _ = W1 m ρ c (Proc.devRef .tc main_arg12) := W2_of m ρ c main_arg12 (by decide)
    _ = W0 m ρ c (Proc.devRef .tc main_arg12) := W1_of m ρ c main_arg12 (by decide)
    _ = m ((c : Thread nD τ).loc main_arg12) := rfl
theorem W9_main_arg13 (c : Dev nD) : W9 m ρ c (Proc.devRef .tc main_arg13) = m ((c : Thread nD τ).loc main_arg13) :=
  calc W9 m ρ c (Proc.devRef .tc main_arg13)
    _ = W8 m ρ c (Proc.devRef .tc main_arg13) := W9_of_ne m ρ c main_arg13 (by decide)
    _ = W7 m ρ c (Proc.devRef .tc main_arg13) := W8_of m ρ c main_arg13 (by decide)
    _ = W6 m ρ c (Proc.devRef .tc main_arg13) := W7_of m ρ c main_arg13 (by decide)
    _ = W5 m ρ c (Proc.devRef .tc main_arg13) := W6_of m ρ c main_arg13 (by decide)
    _ = W4 m ρ c (Proc.devRef .tc main_arg13) := W5_of m ρ c main_arg13 (by decide)
    _ = W3 m ρ c (Proc.devRef .tc main_arg13) := W4_of_ne m ρ c main_arg13 (by decide)
    _ = W2 m ρ c (Proc.devRef .tc main_arg13) := W3_of m ρ c main_arg13 (by decide)
    _ = W1 m ρ c (Proc.devRef .tc main_arg13) := W2_of m ρ c main_arg13 (by decide)
    _ = W0 m ρ c (Proc.devRef .tc main_arg13) := W1_of m ρ c main_arg13 (by decide)
    _ = m ((c : Thread nD τ).loc main_arg13) := rfl
theorem W9_main_arg14 (c : Dev nD) : W9 m ρ c (Proc.devRef .tc main_arg14) = m ((c : Thread nD τ).loc main_arg14) :=
  calc W9 m ρ c (Proc.devRef .tc main_arg14)
    _ = W8 m ρ c (Proc.devRef .tc main_arg14) := (W9_arr m ρ c 10).trans (((dat1 (Vin1 m ρ) c).arrAt_in 10 rfl _).trans (A_eq1 (Vin1 m ρ) c 10))
    _ = W7 m ρ c (Proc.devRef .tc main_arg14) := W8_of m ρ c main_arg14 (by decide)
    _ = W6 m ρ c (Proc.devRef .tc main_arg14) := W7_of m ρ c main_arg14 (by decide)
    _ = W5 m ρ c (Proc.devRef .tc main_arg14) := W6_of m ρ c main_arg14 (by decide)
    _ = W4 m ρ c (Proc.devRef .tc main_arg14) := W5_of m ρ c main_arg14 (by decide)
    _ = W3 m ρ c (Proc.devRef .tc main_arg14) := W4_of_ne m ρ c main_arg14 (by decide)
    _ = W2 m ρ c (Proc.devRef .tc main_arg14) := W3_of m ρ c main_arg14 (by decide)
    _ = W1 m ρ c (Proc.devRef .tc main_arg14) := W2_of m ρ c main_arg14 (by decide)
    _ = W0 m ρ c (Proc.devRef .tc main_arg14) := W1_of m ρ c main_arg14 (by decide)
    _ = m ((c : Thread nD τ).loc main_arg14) := rfl
theorem W9_main_arg15 (c : Dev nD) : W9 m ρ c (Proc.devRef .tc main_arg15) = m ((c : Thread nD τ).loc main_arg15) :=
  calc W9 m ρ c (Proc.devRef .tc main_arg15)
    _ = W8 m ρ c (Proc.devRef .tc main_arg15) := W9_of_ne m ρ c main_arg15 (by decide)
    _ = W7 m ρ c (Proc.devRef .tc main_arg15) := W8_of m ρ c main_arg15 (by decide)
    _ = W6 m ρ c (Proc.devRef .tc main_arg15) := W7_of m ρ c main_arg15 (by decide)
    _ = W5 m ρ c (Proc.devRef .tc main_arg15) := W6_of m ρ c main_arg15 (by decide)
    _ = W4 m ρ c (Proc.devRef .tc main_arg15) := W5_of m ρ c main_arg15 (by decide)
    _ = W3 m ρ c (Proc.devRef .tc main_arg15) := W4_of_ne m ρ c main_arg15 (by decide)
    _ = W2 m ρ c (Proc.devRef .tc main_arg15) := W3_of m ρ c main_arg15 (by decide)
    _ = W1 m ρ c (Proc.devRef .tc main_arg15) := W2_of m ρ c main_arg15 (by decide)
    _ = W0 m ρ c (Proc.devRef .tc main_arg15) := W1_of m ρ c main_arg15 (by decide)
    _ = m ((c : Thread nD τ).loc main_arg15) := rfl
theorem W9_main_arg16 (c : Dev nD) : W9 m ρ c (Proc.devRef .tc main_arg16) = m ((c : Thread nD τ).loc main_arg16) :=
  calc W9 m ρ c (Proc.devRef .tc main_arg16)
    _ = W8 m ρ c (Proc.devRef .tc main_arg16) := W9_of_ne m ρ c main_arg16 (by decide)
    _ = W7 m ρ c (Proc.devRef .tc main_arg16) := W8_of m ρ c main_arg16 (by decide)
    _ = W6 m ρ c (Proc.devRef .tc main_arg16) := W7_of m ρ c main_arg16 (by decide)
    _ = W5 m ρ c (Proc.devRef .tc main_arg16) := W6_of m ρ c main_arg16 (by decide)
    _ = W4 m ρ c (Proc.devRef .tc main_arg16) := W5_of m ρ c main_arg16 (by decide)
    _ = W3 m ρ c (Proc.devRef .tc main_arg16) := W4_of_ne m ρ c main_arg16 (by decide)
    _ = W2 m ρ c (Proc.devRef .tc main_arg16) := W3_of m ρ c main_arg16 (by decide)
    _ = W1 m ρ c (Proc.devRef .tc main_arg16) := W2_of m ρ c main_arg16 (by decide)
    _ = W0 m ρ c (Proc.devRef .tc main_arg16) := W1_of m ρ c main_arg16 (by decide)
    _ = m ((c : Thread nD τ).loc main_arg16) := rfl
theorem W9_main_arg17 (c : Dev nD) : W9 m ρ c (Proc.devRef .tc main_arg17) = m ((c : Thread nD τ).loc main_arg17) :=
  calc W9 m ρ c (Proc.devRef .tc main_arg17)
    _ = W8 m ρ c (Proc.devRef .tc main_arg17) := W9_of_ne m ρ c main_arg17 (by decide)
    _ = W7 m ρ c (Proc.devRef .tc main_arg17) := W8_of m ρ c main_arg17 (by decide)
    _ = W6 m ρ c (Proc.devRef .tc main_arg17) := W7_of m ρ c main_arg17 (by decide)
    _ = W5 m ρ c (Proc.devRef .tc main_arg17) := W6_of m ρ c main_arg17 (by decide)
    _ = W4 m ρ c (Proc.devRef .tc main_arg17) := W5_of m ρ c main_arg17 (by decide)
    _ = W3 m ρ c (Proc.devRef .tc main_arg17) := W4_of_ne m ρ c main_arg17 (by decide)
    _ = W2 m ρ c (Proc.devRef .tc main_arg17) := W3_of m ρ c main_arg17 (by decide)
    _ = W1 m ρ c (Proc.devRef .tc main_arg17) := W2_of m ρ c main_arg17 (by decide)
    _ = W0 m ρ c (Proc.devRef .tc main_arg17) := W1_of m ρ c main_arg17 (by decide)
    _ = m ((c : Thread nD τ).loc main_arg17) := rfl
theorem W9_main_arg18 (c : Dev nD) : W9 m ρ c (Proc.devRef .tc main_arg18) = m ((c : Thread nD τ).loc main_arg18) :=
  calc W9 m ρ c (Proc.devRef .tc main_arg18)
    _ = W8 m ρ c (Proc.devRef .tc main_arg18) := W9_of_ne m ρ c main_arg18 (by decide)
    _ = W7 m ρ c (Proc.devRef .tc main_arg18) := W8_of m ρ c main_arg18 (by decide)
    _ = W6 m ρ c (Proc.devRef .tc main_arg18) := W7_of m ρ c main_arg18 (by decide)
    _ = W5 m ρ c (Proc.devRef .tc main_arg18) := W6_of m ρ c main_arg18 (by decide)
    _ = W4 m ρ c (Proc.devRef .tc main_arg18) := W5_of m ρ c main_arg18 (by decide)
    _ = W3 m ρ c (Proc.devRef .tc main_arg18) := W4_of_ne m ρ c main_arg18 (by decide)
    _ = W2 m ρ c (Proc.devRef .tc main_arg18) := W3_of m ρ c main_arg18 (by decide)
    _ = W1 m ρ c (Proc.devRef .tc main_arg18) := W2_of m ρ c main_arg18 (by decide)
    _ = W0 m ρ c (Proc.devRef .tc main_arg18) := W1_of m ρ c main_arg18 (by decide)
    _ = m ((c : Thread nD τ).loc main_arg18) := rfl
theorem W9_main_arg19 (c : Dev nD) : W9 m ρ c (Proc.devRef .tc main_arg19) = m ((c : Thread nD τ).loc main_arg19) :=
  calc W9 m ρ c (Proc.devRef .tc main_arg19)
    _ = W8 m ρ c (Proc.devRef .tc main_arg19) := W9_of_ne m ρ c main_arg19 (by decide)
    _ = W7 m ρ c (Proc.devRef .tc main_arg19) := W8_of m ρ c main_arg19 (by decide)
    _ = W6 m ρ c (Proc.devRef .tc main_arg19) := W7_of m ρ c main_arg19 (by decide)
    _ = W5 m ρ c (Proc.devRef .tc main_arg19) := W6_of m ρ c main_arg19 (by decide)
    _ = W4 m ρ c (Proc.devRef .tc main_arg19) := W5_of m ρ c main_arg19 (by decide)
    _ = W3 m ρ c (Proc.devRef .tc main_arg19) := W4_of_ne m ρ c main_arg19 (by decide)
    _ = W2 m ρ c (Proc.devRef .tc main_arg19) := W3_of m ρ c main_arg19 (by decide)
    _ = W1 m ρ c (Proc.devRef .tc main_arg19) := W2_of m ρ c main_arg19 (by decide)
    _ = W0 m ρ c (Proc.devRef .tc main_arg19) := W1_of m ρ c main_arg19 (by decide)
    _ = m ((c : Thread nD τ).loc main_arg19) := rfl
theorem W9_main_arg20 (c : Dev nD) : W9 m ρ c (Proc.devRef .tc main_arg20) = m ((c : Thread nD τ).loc main_arg20) :=
  calc W9 m ρ c (Proc.devRef .tc main_arg20)
    _ = W8 m ρ c (Proc.devRef .tc main_arg20) := W9_of_ne m ρ c main_arg20 (by decide)
    _ = W7 m ρ c (Proc.devRef .tc main_arg20) := W8_of m ρ c main_arg20 (by decide)
    _ = W6 m ρ c (Proc.devRef .tc main_arg20) := W7_of m ρ c main_arg20 (by decide)
    _ = W5 m ρ c (Proc.devRef .tc main_arg20) := W6_of m ρ c main_arg20 (by decide)
    _ = W4 m ρ c (Proc.devRef .tc main_arg20) := W5_of m ρ c main_arg20 (by decide)
    _ = W3 m ρ c (Proc.devRef .tc main_arg20) := W4_of_ne m ρ c main_arg20 (by decide)
    _ = W2 m ρ c (Proc.devRef .tc main_arg20) := W3_of m ρ c main_arg20 (by decide)
    _ = W1 m ρ c (Proc.devRef .tc main_arg20) := W2_of m ρ c main_arg20 (by decide)
    _ = W0 m ρ c (Proc.devRef .tc main_arg20) := W1_of m ρ c main_arg20 (by decide)
    _ = m ((c : Thread nD τ).loc main_arg20) := rfl
theorem W9_main_arg21 (c : Dev nD) : W9 m ρ c (Proc.devRef .tc main_arg21) = m ((c : Thread nD τ).loc main_arg21) :=
  calc W9 m ρ c (Proc.devRef .tc main_arg21)
    _ = W8 m ρ c (Proc.devRef .tc main_arg21) := W9_of_ne m ρ c main_arg21 (by decide)
    _ = W7 m ρ c (Proc.devRef .tc main_arg21) := W8_of m ρ c main_arg21 (by decide)
    _ = W6 m ρ c (Proc.devRef .tc main_arg21) := W7_of m ρ c main_arg21 (by decide)
    _ = W5 m ρ c (Proc.devRef .tc main_arg21) := W6_of m ρ c main_arg21 (by decide)
    _ = W4 m ρ c (Proc.devRef .tc main_arg21) := W5_of m ρ c main_arg21 (by decide)
    _ = W3 m ρ c (Proc.devRef .tc main_arg21) := W4_of_ne m ρ c main_arg21 (by decide)
    _ = W2 m ρ c (Proc.devRef .tc main_arg21) := W3_of m ρ c main_arg21 (by decide)
    _ = W1 m ρ c (Proc.devRef .tc main_arg21) := W2_of m ρ c main_arg21 (by decide)
    _ = W0 m ρ c (Proc.devRef .tc main_arg21) := W1_of m ρ c main_arg21 (by decide)
    _ = m ((c : Thread nD τ).loc main_arg21) := rfl
theorem W9_main_arg22 (c : Dev nD) : W9 m ρ c (Proc.devRef .tc main_arg22) = m ((c : Thread nD τ).loc main_arg22) :=
  calc W9 m ρ c (Proc.devRef .tc main_arg22)
    _ = W8 m ρ c (Proc.devRef .tc main_arg22) := W9_of_ne m ρ c main_arg22 (by decide)
    _ = W7 m ρ c (Proc.devRef .tc main_arg22) := W8_of m ρ c main_arg22 (by decide)
    _ = W6 m ρ c (Proc.devRef .tc main_arg22) := W7_of m ρ c main_arg22 (by decide)
    _ = W5 m ρ c (Proc.devRef .tc main_arg22) := W6_of m ρ c main_arg22 (by decide)
    _ = W4 m ρ c (Proc.devRef .tc main_arg22) := W5_of m ρ c main_arg22 (by decide)
    _ = W3 m ρ c (Proc.devRef .tc main_arg22) := W4_of_ne m ρ c main_arg22 (by decide)
    _ = W2 m ρ c (Proc.devRef .tc main_arg22) := W3_of m ρ c main_arg22 (by decide)
    _ = W1 m ρ c (Proc.devRef .tc main_arg22) := W2_of m ρ c main_arg22 (by decide)
    _ = W0 m ρ c (Proc.devRef .tc main_arg22) := W1_of m ρ c main_arg22 (by decide)
    _ = m ((c : Thread nD τ).loc main_arg22) := rfl
theorem W9_main_arg23 (c : Dev nD) : W9 m ρ c (Proc.devRef .tc main_arg23) = m ((c : Thread nD τ).loc main_arg23) :=
  calc W9 m ρ c (Proc.devRef .tc main_arg23)
    _ = W8 m ρ c (Proc.devRef .tc main_arg23) := W9_of_ne m ρ c main_arg23 (by decide)
    _ = W7 m ρ c (Proc.devRef .tc main_arg23) := W8_of m ρ c main_arg23 (by decide)
    _ = W6 m ρ c (Proc.devRef .tc main_arg23) := W7_of m ρ c main_arg23 (by decide)
    _ = W5 m ρ c (Proc.devRef .tc main_arg23) := W6_of m ρ c main_arg23 (by decide)
    _ = W4 m ρ c (Proc.devRef .tc main_arg23) := W5_of m ρ c main_arg23 (by decide)
    _ = W3 m ρ c (Proc.devRef .tc main_arg23) := W4_of_ne m ρ c main_arg23 (by decide)
    _ = W2 m ρ c (Proc.devRef .tc main_arg23) := W3_of m ρ c main_arg23 (by decide)
    _ = W1 m ρ c (Proc.devRef .tc main_arg23) := W2_of m ρ c main_arg23 (by decide)
    _ = W0 m ρ c (Proc.devRef .tc main_arg23) := W1_of m ρ c main_arg23 (by decide)
    _ = m ((c : Thread nD τ).loc main_arg23) := rfl
theorem W9_main_arg24 (c : Dev nD) : W9 m ρ c (Proc.devRef .tc main_arg24) = m ((c : Thread nD τ).loc main_arg24) :=
  calc W9 m ρ c (Proc.devRef .tc main_arg24)
    _ = W8 m ρ c (Proc.devRef .tc main_arg24) := W9_of_ne m ρ c main_arg24 (by decide)
    _ = W7 m ρ c (Proc.devRef .tc main_arg24) := W8_of m ρ c main_arg24 (by decide)
    _ = W6 m ρ c (Proc.devRef .tc main_arg24) := W7_of m ρ c main_arg24 (by decide)
    _ = W5 m ρ c (Proc.devRef .tc main_arg24) := W6_of m ρ c main_arg24 (by decide)
    _ = W4 m ρ c (Proc.devRef .tc main_arg24) := W5_of m ρ c main_arg24 (by decide)
    _ = W3 m ρ c (Proc.devRef .tc main_arg24) := W4_of_ne m ρ c main_arg24 (by decide)
    _ = W2 m ρ c (Proc.devRef .tc main_arg24) := W3_of m ρ c main_arg24 (by decide)
    _ = W1 m ρ c (Proc.devRef .tc main_arg24) := W2_of m ρ c main_arg24 (by decide)
    _ = W0 m ρ c (Proc.devRef .tc main_arg24) := W1_of m ρ c main_arg24 (by decide)
    _ = m ((c : Thread nD τ).loc main_arg24) := rfl
theorem W9_main_arg25 (c : Dev nD) : W9 m ρ c (Proc.devRef .tc main_arg25) = m ((c : Thread nD τ).loc main_arg25) :=
  calc W9 m ρ c (Proc.devRef .tc main_arg25)
    _ = W8 m ρ c (Proc.devRef .tc main_arg25) := W9_of_ne m ρ c main_arg25 (by decide)
    _ = W7 m ρ c (Proc.devRef .tc main_arg25) := W8_of m ρ c main_arg25 (by decide)
    _ = W6 m ρ c (Proc.devRef .tc main_arg25) := W7_of m ρ c main_arg25 (by decide)
    _ = W5 m ρ c (Proc.devRef .tc main_arg25) := W6_of m ρ c main_arg25 (by decide)
    _ = W4 m ρ c (Proc.devRef .tc main_arg25) := W5_of m ρ c main_arg25 (by decide)
    _ = W3 m ρ c (Proc.devRef .tc main_arg25) := W4_of_ne m ρ c main_arg25 (by decide)
    _ = W2 m ρ c (Proc.devRef .tc main_arg25) := W3_of m ρ c main_arg25 (by decide)
    _ = W1 m ρ c (Proc.devRef .tc main_arg25) := W2_of m ρ c main_arg25 (by decide)
    _ = W0 m ρ c (Proc.devRef .tc main_arg25) := W1_of m ρ c main_arg25 (by decide)
    _ = m ((c : Thread nD τ).loc main_arg25) := rfl

end Cert.KernelIdeal.Hand

end
-- ==== Proof.KISide.lean ====
/- The kernel program's two results at the ideal values, as functions of the launch contents of its arguments.

   The run passes through three regions and four stretches of host operations. Where the third region is entered the
   packed edge array and the destinations' index vector are the specification's (the first two regions and the host
   operations between them, under the range facts on the three index arrays), and every argument array still holds its
   launch contents; the third region leaves the packed node rows of the arrays it is entered with; so after the last
   host operations the two result buffers hold the layer's normalised new scalar features and new vector features. -/
import proofs.«166758_j50929722196748_2_alg».proof.Proof.KIRun
import proofs.«166758_j50929722196748_2_alg».proof.Proof.KIValue2
import proofs.«166758_j50929722196748_2_alg».proof.Proof.KISide01
import proofs.«166758_j50929722196748_2_alg».proof.Proof.KISide23
import proofs.«166758_j50929722196748_2_alg».proof.Proof.PreIdx
import proofs.«166758_j50929722196748_2_alg».proof.Proof.KIArgs

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- THE FIRST RESULT of the kernel program: the layer's normalised new scalar features of the launch contents. -/
theorem ker_outS (hr : Cert.PreIdx.Ranges (m ((c : Thread nD τ).loc main_arg2)) (m ((c : Thread nD τ).loc main_arg5)) (m ((c : Thread nD τ).loc main_arg6))) :
    W12 m ρ c (Proc.devRef .tc main_v50)
      = Cert.Spec.outS (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg24)) (m ((c : Thread nD τ).loc main_arg25)) :=
  Cert.KISide.ker_outS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (W9 m ρ c) (W11 m ρ c)
    ((W11_arr m ρ c 22).trans (final2_named (Vin2 m ρ) c))
    (ker_v23 m ρ c hr) (ker_v14 m ρ c)
    (W9_main_arg0 m ρ c) (W9_main_arg1 m ρ c) (W9_main_arg16 m ρ c) (W9_main_arg17 m ρ c) (W9_main_arg18 m ρ c) (W9_main_arg19 m ρ c)
    (W9_main_arg20 m ρ c) (W9_main_arg21 m ρ c) (W9_main_arg22 m ρ c) (W9_main_arg23 m ρ c) (W9_main_arg24 m ρ c) (W9_main_arg25 m ρ c)

/-- THE SECOND RESULT of the kernel program: the layer's new vector features of the launch contents. -/
theorem ker_outV (hr : Cert.PreIdx.Ranges (m ((c : Thread nD τ).loc main_arg2)) (m ((c : Thread nD τ).loc main_arg5)) (m ((c : Thread nD τ).loc main_arg6))) :
    W12 m ρ c (Proc.devRef .tc main_v57)
      = Cert.Spec.outV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg20)) (m ((c : Thread nD τ).loc main_arg21)) (m ((c : Thread nD τ).loc main_arg22)) (m ((c : Thread nD τ).loc main_arg23)) :=
  Cert.KISide.ker_outV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (W9 m ρ c) (W11 m ρ c)
    ((W11_arr m ρ c 22).trans (final2_named (Vin2 m ρ) c))
    (ker_v23 m ρ c hr) (ker_v14 m ρ c)
    (W9_main_arg0 m ρ c) (W9_main_arg1 m ρ c) (W9_main_arg16 m ρ c) (W9_main_arg17 m ρ c) (W9_main_arg18 m ρ c) (W9_main_arg19 m ρ c)
    (W9_main_arg20 m ρ c) (W9_main_arg21 m ρ c) (W9_main_arg22 m ρ c) (W9_main_arg23 m ρ c) (W9_main_arg24 m ρ c) (W9_main_arg25 m ρ c)

end Cert.KernelIdeal.Hand

end
-- ==== Proof.RefStages.lean ====
import proofs.«166758_j50929722196748_2_alg».proof.Proof.RefRun

noncomputable section

namespace Cert.ReferenceIdeal.Stages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! The reference's line of 202 operations read in named stages. Each key buffer's final contents are a small
    function of the final contents of the key buffers before it and of the arguments (which the line leaves as
    they were): the line is cut into nine consecutive stretches, no operation of a stretch writes a buffer an
    earlier stretch wrote (every operation writes a buffer of its own), so a buffer holds at the end what it
    held when its stretch ended, and inside one stretch the fold computes. -/

/-! ## Pieces that recur -/

/-- x ↦ 1/(1 + e^{-x}) on an edge-shaped array, as the program spells it: the broadcast one divided by the broadcast one plus the exponential of the negation. -/
def sigmE (x : (⟨S800000x64, .f32⟩ : BufTy).Contents (Elt F)) : (⟨S800000x64, .f32⟩ : BufTy).Contents (Elt F) :=
  (Host.divf (broadcastInDim S800000x64 ![] bcast_S_S800000x64 (constant S_ .f32 0x3F800000#32 : (⟨S_, .f32⟩ : BufTy).Contents (Elt F))) (addf (broadcastInDim S800000x64 ![] bcast_S_S800000x64 (constant S_ .f32 0x3F800000#32 : (⟨S_, .f32⟩ : BufTy).Contents (Elt F))) (Host.exp (Host.negf x))))

/-- x ↦ x · 1/(1 + e^{-x}) on an edge-shaped array. -/
def siluE (x : (⟨S800000x64, .f32⟩ : BufTy).Contents (Elt F)) : (⟨S800000x64, .f32⟩ : BufTy).Contents (Elt F) :=
  (mulf x (sigmE x))

/-- x ↦ 1/(1 + e^{-x}) on a node-shaped array. -/
def sigmN (x : (⟨S50000x64, .f32⟩ : BufTy).Contents (Elt F)) : (⟨S50000x64, .f32⟩ : BufTy).Contents (Elt F) :=
  (Host.divf (broadcastInDim S50000x64 ![] bcast_S_S50000x64 (constant S_ .f32 0x3F800000#32 : (⟨S_, .f32⟩ : BufTy).Contents (Elt F))) (addf (broadcastInDim S50000x64 ![] bcast_S_S50000x64 (constant S_ .f32 0x3F800000#32 : (⟨S_, .f32⟩ : BufTy).Contents (Elt F))) (Host.exp (Host.negf x))))

/-- x ↦ x · 1/(1 + e^{-x}) on a node-shaped array. -/
def siluN (x : (⟨S50000x64, .f32⟩ : BufTy).Contents (Elt F)) : (⟨S50000x64, .f32⟩ : BufTy).Contents (Elt F) :=
  (mulf x (sigmN x))

/-- A signed index wrapped once into [0, 800000): i + 800000 where i < 0, else i. -/
def wrapE (x : (⟨S800000, .i32⟩ : BufTy).Contents (Elt F)) : (⟨S800000, .i32⟩ : BufTy).Contents (Elt F) :=
  (select (cmpi .slt x (broadcastInDim S800000 ![] bcast_S_S800000 (constantI S_ 32 0#32))) (addi x (broadcastInDim S800000 ![] bcast_S_S800000 (constantI S_ 32 800000#32))) x)

/-- A signed index wrapped once into [0, 50000): i + 50000 where i < 0, else i. -/
def wrapN (x : (⟨S800000, .i32⟩ : BufTy).Contents (Elt F)) : (⟨S800000, .i32⟩ : BufTy).Contents (Elt F) :=
  (select (cmpi .slt x (broadcastInDim S800000 ![] bcast_S_S800000 (constantI S_ 32 0#32))) (addi x (broadcastInDim S800000 ![] bcast_S_S800000 (constantI S_ 32 50000#32))) x)

/-- The mean of each row of 64 as a column: the row sum from zero, divided by the broadcast 64. -/
def rowMean (x : (⟨S50000x64, .f32⟩ : BufTy).Contents (Elt F)) : (⟨S50000x1, .f32⟩ : BufTy).Contents (Elt F) :=
  (Host.divf (broadcastInDim S50000x1 ![0] bcast_S50000_S50000x1_0 (Host.reduceAdd x (constant S_ .f32 0x00000000#32 : (⟨S_, .f32⟩ : BufTy).Contents (Elt F)) reducesTo_S50000x64_S50000_d1 h_S_)) (broadcastInDim S50000x1 ![] bcast_S_S50000x1 (constant S_ .f32 0x42800000#32 : (⟨S_, .f32⟩ : BufTy).Contents (Elt F))))

/-- Each row minus its mean. -/
def centered (x : (⟨S50000x64, .f32⟩ : BufTy).Contents (Elt F)) : (⟨S50000x64, .f32⟩ : BufTy).Contents (Elt F) :=
  (subf x (broadcastInDim S50000x64 ![0, 1] bcast_S50000x1_S50000x64_0_1 (rowMean x)))

/-! ## The stages' functions -/

def f_v6 (a3 : (⟨S800000x64, .f32⟩ : BufTy).Contents (Elt F)) (a5 : (⟨S800000, .i32⟩ : BufTy).Contents (Elt F)) :
    (⟨S800000x64, .f32⟩ : BufTy).Contents (Elt F) :=
  (Host.gather gather_S800000x64_S800000x1_S800000x64_1_0_n_n_0_1_164 a3 (broadcastInDim S800000x1 ![0] bcast_S800000_S800000x1_0 (wrapE a5)))

def f_v13 (a3 : (⟨S800000x64, .f32⟩ : BufTy).Contents (Elt F)) (a6 : (⟨S800000, .i32⟩ : BufTy).Contents (Elt F)) :
    (⟨S800000x64, .f32⟩ : BufTy).Contents (Elt F) :=
  (Host.gather gather_S800000x64_S800000x1_S800000x64_1_0_n_n_0_1_164 a3 (broadcastInDim S800000x1 ![0] bcast_S800000_S800000x1_0 (wrapE a6)))

def f_v23 (v6 : (⟨S800000x64, .f32⟩ : BufTy).Contents (Elt F)) (v13 : (⟨S800000x64, .f32⟩ : BufTy).Contents (Elt F)) (a7 : (⟨S800000x16, .f32⟩ : BufTy).Contents (Elt F)) (a8 : (⟨S144x64, .f32⟩ : BufTy).Contents (Elt F)) (a9 : (⟨S64, .f32⟩ : BufTy).Contents (Elt F)) (a10 : (⟨S64x64, .f32⟩ : BufTy).Contents (Elt F)) (a11 : (⟨S64, .f32⟩ : BufTy).Contents (Elt F)) :
    (⟨S800000x64, .f32⟩ : BufTy).Contents (Elt F) :=
  (addf (Host.dotGeneral dot_S800000x64_S64x64_S800000x64_1_0_0_1_n_n none (siluE (addf (Host.dotGeneral dot_S800000x144_S144x64_S800000x64_1_0_0_1_n_n none (concatenate S800000x144 1 [⟨S800000x64, v6⟩, ⟨S800000x64, v13⟩, ⟨S800000x16, a7⟩] concatenates_S800000x64_S800000x64_S800000x16_S800000x144_d1) a8) (broadcastInDim S800000x64 ![0, 1] bcast_S1x64_S800000x64_0_1 (broadcastInDim S1x64 ![1] bcast_S64_S1x64_1 a9)))) a10) (broadcastInDim S800000x64 ![0, 1] bcast_S1x64_S800000x64_0_1 (broadcastInDim S1x64 ![1] bcast_S64_S1x64_1 a11)))

def f_v26 (a6 : (⟨S800000, .i32⟩ : BufTy).Contents (Elt F)) (v23 : (⟨S800000x64, .f32⟩ : BufTy).Contents (Elt F)) :
    (⟨S800000x64, .f32⟩ : BufTy).Contents (Elt F) :=
  (Host.scatterAdd scatter_S800000x64_S800000x1_S800000x64_1_0_0_1 (broadcastInDim S800000x64 ![] bcast_S_S800000x64 (constant S_ .f32 0x00000000#32 : (⟨S_, .f32⟩ : BufTy).Contents (Elt F))) (broadcastInDim S800000x1 ![0] bcast_S800000_S800000x1_0 a6) v23)

def f_v30 (a2 : (⟨S2x800000, .i32⟩ : BufTy).Contents (Elt F)) :
    (⟨S800000, .i32⟩ : BufTy).Contents (Elt F) :=
  (shapeCast S800000 (extractStridedSlice S1x800000 ![1, 0] a2 slices_S2x800000_S1x800000_1_0) shapeCasts_S1x800000_S800000)

def f_v37 (a0 : (⟨S50000x64, .f32⟩ : BufTy).Contents (Elt F)) (a2 : (⟨S2x800000, .i32⟩ : BufTy).Contents (Elt F)) :
    (⟨S800000x64, .f32⟩ : BufTy).Contents (Elt F) :=
  (Host.gather gather_S50000x64_S800000x1_S800000x64_1_0_n_n_0_1_164 a0 (broadcastInDim S800000x1 ![0] bcast_S800000_S800000x1_0 (wrapN (shapeCast S800000 (extractStridedSlice S1x800000 ![0, 0] a2 slices_S2x800000_S1x800000_0_0) shapeCasts_S1x800000_S800000))))

def f_v44 (a0 : (⟨S50000x64, .f32⟩ : BufTy).Contents (Elt F)) (a2 : (⟨S2x800000, .i32⟩ : BufTy).Contents (Elt F)) :
    (⟨S800000x64, .f32⟩ : BufTy).Contents (Elt F) :=
  (Host.gather gather_S50000x64_S800000x1_S800000x64_1_0_n_n_0_1_164 a0 (broadcastInDim S800000x1 ![0] bcast_S800000_S800000x1_0 (wrapN (shapeCast S800000 (extractStridedSlice S1x800000 ![1, 0] a2 slices_S2x800000_S1x800000_1_0) shapeCasts_S1x800000_S800000))))

def f_v54 (v37 : (⟨S800000x64, .f32⟩ : BufTy).Contents (Elt F)) (v44 : (⟨S800000x64, .f32⟩ : BufTy).Contents (Elt F)) (a3 : (⟨S800000x64, .f32⟩ : BufTy).Contents (Elt F)) (v26 : (⟨S800000x64, .f32⟩ : BufTy).Contents (Elt F)) (a12 : (⟨S256x64, .f32⟩ : BufTy).Contents (Elt F)) (a13 : (⟨S64, .f32⟩ : BufTy).Contents (Elt F)) (a14 : (⟨S64x128, .f32⟩ : BufTy).Contents (Elt F)) (a15 : (⟨S128, .f32⟩ : BufTy).Contents (Elt F)) :
    (⟨S800000x128, .f32⟩ : BufTy).Contents (Elt F) :=
  (addf (Host.dotGeneral dot_S800000x64_S64x128_S800000x128_1_0_0_1_n_n none (siluE (addf (Host.dotGeneral dot_S800000x256_S256x64_S800000x64_1_0_0_1_n_n none (concatenate S800000x256 1 [⟨S800000x64, v37⟩, ⟨S800000x64, v44⟩, ⟨S800000x64, a3⟩, ⟨S800000x64, v26⟩] concatenates_S800000x64_S800000x64_S800000x64_S800000x64_S800000x256_d1) a12) (broadcastInDim S800000x64 ![0, 1] bcast_S1x64_S800000x64_0_1 (broadcastInDim S1x64 ![1] bcast_S64_S1x64_1 a13)))) a14) (broadcastInDim S800000x128 ![0, 1] bcast_S1x128_S800000x128_0_1 (broadcastInDim S1x128 ![1] bcast_S128_S1x128_1 a15)))

def f_v59 (v30 : (⟨S800000, .i32⟩ : BufTy).Contents (Elt F)) (v54 : (⟨S800000x128, .f32⟩ : BufTy).Contents (Elt F)) :
    (⟨S50000x64, .f32⟩ : BufTy).Contents (Elt F) :=
  (Host.scatterAdd scatter_S50000x64_S800000x1_S800000x64_1_0_0_1 (broadcastInDim S50000x64 ![] bcast_S_S50000x64 (constant S_ .f32 0x00000000#32 : (⟨S_, .f32⟩ : BufTy).Contents (Elt F))) (broadcastInDim S800000x1 ![0] bcast_S800000_S800000x1_0 v30) (extractStridedSlice S800000x64 ![0, 0] v54 slices_S800000x128_S800000x64_0_0))

def f_v69 (v30 : (⟨S800000, .i32⟩ : BufTy).Contents (Elt F)) (v54 : (⟨S800000x128, .f32⟩ : BufTy).Contents (Elt F)) (a4 : (⟨S800000x3, .f32⟩ : BufTy).Contents (Elt F)) :
    (⟨S50000x64x3, .f32⟩ : BufTy).Contents (Elt F) :=
  (shapeCast S50000x64x3 (Host.scatterAdd scatter_S50000x192_S800000x1_S800000x192_1_0_0_1 (broadcastInDim S50000x192 ![] bcast_S_S50000x192 (constant S_ .f32 0x00000000#32 : (⟨S_, .f32⟩ : BufTy).Contents (Elt F))) (broadcastInDim S800000x1 ![0] bcast_S800000_S800000x1_0 v30) (shapeCast S800000x192 (mulf (broadcastInDim S800000x64x3 ![0, 1, 2] bcast_S800000x64x1_S800000x64x3_0_1_2 (broadcastInDim S800000x64x1 ![0, 1] bcast_S800000x64_S800000x64x1_0_1 (extractStridedSlice S800000x64 ![0, 64] v54 slices_S800000x128_S800000x64_0_64))) (broadcastInDim S800000x64x3 ![0, 1, 2] bcast_S800000x1x3_S800000x64x3_0_1_2 (broadcastInDim S800000x1x3 ![0, 2] bcast_S800000x3_S800000x1x3_0_2 a4))) shapeCasts_S800000x64x3_S800000x192)) shapeCasts_S50000x192_S50000x64x3)

def f_v70 (a1 : (⟨S50000x64x3, .f32⟩ : BufTy).Contents (Elt F)) :
    (⟨S50000x64, .f32⟩ : BufTy).Contents (Elt F) :=
  (Host.sqrt (Host.reduceAdd (mulf a1 a1) (constant S_ .f32 0x00000000#32 : (⟨S_, .f32⟩ : BufTy).Contents (Elt F)) reducesTo_S50000x64x3_S50000x64_d2 h_S_))

def f_v81 (a0 : (⟨S50000x64, .f32⟩ : BufTy).Contents (Elt F)) (v59 : (⟨S50000x64, .f32⟩ : BufTy).Contents (Elt F)) (v70 : (⟨S50000x64, .f32⟩ : BufTy).Contents (Elt F)) (a16 : (⟨S192x64, .f32⟩ : BufTy).Contents (Elt F)) (a17 : (⟨S64, .f32⟩ : BufTy).Contents (Elt F)) (a18 : (⟨S64x64, .f32⟩ : BufTy).Contents (Elt F)) (a19 : (⟨S64, .f32⟩ : BufTy).Contents (Elt F)) :
    (⟨S50000x64, .f32⟩ : BufTy).Contents (Elt F) :=
  (addf a0 (addf (Host.dotGeneral dot_S50000x64_S64x64_S50000x64_1_0_0_1_n_n none (siluN (addf (Host.dotGeneral dot_S50000x192_S192x64_S50000x64_1_0_0_1_n_n none (concatenate S50000x192 1 [⟨S50000x64, a0⟩, ⟨S50000x64, v59⟩, ⟨S50000x64, v70⟩] concatenates_S50000x64_S50000x64_S50000x64_S50000x192_d1) a16) (broadcastInDim S50000x64 ![0, 1] bcast_S1x64_S50000x64_0_1 (broadcastInDim S1x64 ![1] bcast_S64_S1x64_1 a17)))) a18) (broadcastInDim S50000x64 ![0, 1] bcast_S1x64_S50000x64_0_1 (broadcastInDim S1x64 ![1] bcast_S64_S1x64_1 a19))))

def f_v96 (a0 : (⟨S50000x64, .f32⟩ : BufTy).Contents (Elt F)) (v59 : (⟨S50000x64, .f32⟩ : BufTy).Contents (Elt F)) (v70 : (⟨S50000x64, .f32⟩ : BufTy).Contents (Elt F)) (a20 : (⟨S192x64, .f32⟩ : BufTy).Contents (Elt F)) (a21 : (⟨S64, .f32⟩ : BufTy).Contents (Elt F)) (a22 : (⟨S64x64, .f32⟩ : BufTy).Contents (Elt F)) (a23 : (⟨S64, .f32⟩ : BufTy).Contents (Elt F)) :
    (⟨S50000x64, .f32⟩ : BufTy).Contents (Elt F) :=
  (sigmN (addf (Host.dotGeneral dot_S50000x64_S64x64_S50000x64_1_0_0_1_n_n none (siluN (addf (Host.dotGeneral dot_S50000x192_S192x64_S50000x64_1_0_0_1_n_n none (concatenate S50000x192 1 [⟨S50000x64, a0⟩, ⟨S50000x64, v59⟩, ⟨S50000x64, v70⟩] concatenates_S50000x64_S50000x64_S50000x64_S50000x192_d1) a20) (broadcastInDim S50000x64 ![0, 1] bcast_S1x64_S50000x64_0_1 (broadcastInDim S1x64 ![1] bcast_S64_S1x64_1 a21)))) a22) (broadcastInDim S50000x64 ![0, 1] bcast_S1x64_S50000x64_0_1 (broadcastInDim S1x64 ![1] bcast_S64_S1x64_1 a23))))

def f_v100 (a1 : (⟨S50000x64x3, .f32⟩ : BufTy).Contents (Elt F)) (v96 : (⟨S50000x64, .f32⟩ : BufTy).Contents (Elt F)) (v69 : (⟨S50000x64x3, .f32⟩ : BufTy).Contents (Elt F)) :
    (⟨S50000x64x3, .f32⟩ : BufTy).Contents (Elt F) :=
  (addf a1 (mulf (broadcastInDim S50000x64x3 ![0, 1, 2] bcast_S50000x64x1_S50000x64x3_0_1_2 (broadcastInDim S50000x64x1 ![0, 1] bcast_S50000x64_S50000x64x1_0_1 v96)) v69))

def f_v104 (v81 : (⟨S50000x64, .f32⟩ : BufTy).Contents (Elt F)) :
    (⟨S50000x1, .f32⟩ : BufTy).Contents (Elt F) :=
  (rowMean v81)

def f_v105 (v81 : (⟨S50000x64, .f32⟩ : BufTy).Contents (Elt F)) :
    (⟨S50000x1, .f32⟩ : BufTy).Contents (Elt F) :=
  (select (broadcastInDim S50000x1 ![] bcast_S_S50000x1 (cmpf .ogt (subf (constant S_ .f32 0x42800000#32 : (⟨S_, .f32⟩ : BufTy).Contents (Elt F)) (sitofp .f32 (constantI S_ 32 0#32))) (constant S_ .f32 0x00000000#32 : (⟨S_, .f32⟩ : BufTy).Contents (Elt F)))) (Host.divf (broadcastInDim S50000x1 ![0] bcast_S50000_S50000x1_0 (Host.reduceAdd (mulf (centered v81) (centered v81)) (constant S_ .f32 0x00000000#32 : (⟨S_, .f32⟩ : BufTy).Contents (Elt F)) reducesTo_S50000x64_S50000_d1 h_S_)) (broadcastInDim S50000x1 ![] bcast_S_S50000x1 (subf (constant S_ .f32 0x42800000#32 : (⟨S_, .f32⟩ : BufTy).Contents (Elt F)) (sitofp .f32 (constantI S_ 32 0#32))))) (broadcastInDim S50000x1 ![] bcast_S_S50000x1 (id (constant S_ .f32 0x7FC00000#32 : (⟨S_, .f32⟩ : BufTy).Contents (Elt F)))))

def f_v119 (v81 : (⟨S50000x64, .f32⟩ : BufTy).Contents (Elt F)) (v104 : (⟨S50000x1, .f32⟩ : BufTy).Contents (Elt F)) (v105 : (⟨S50000x1, .f32⟩ : BufTy).Contents (Elt F)) (a24 : (⟨S64, .f32⟩ : BufTy).Contents (Elt F)) (a25 : (⟨S64, .f32⟩ : BufTy).Contents (Elt F)) :
    (⟨S50000x64, .f32⟩ : BufTy).Contents (Elt F) :=
  (siluN (addf (mulf (Host.divf (subf v81 (broadcastInDim S50000x64 ![0, 1] bcast_S50000x1_S50000x64_0_1 v104)) (broadcastInDim S50000x64 ![0, 1] bcast_S50000x1_S50000x64_0_1 (Host.sqrt (addf v105 (broadcastInDim S50000x1 ![] bcast_S_S50000x1 (constant S_ .f32 0x3727C5AC#32 : (⟨S_, .f32⟩ : BufTy).Contents (Elt F))))))) (broadcastInDim S50000x64 ![0, 1] bcast_S1x64_S50000x64_0_1 (broadcastInDim S1x64 ![1] bcast_S64_S1x64_1 a24))) (broadcastInDim S50000x64 ![0, 1] bcast_S1x64_S50000x64_0_1 (broadcastInDim S1x64 ![1] bcast_S64_S1x64_1 a25))))

/-! ## The line in nine stretches -/

/-- Operations 1 … 18 of the line. -/
abbrev w1 : List (HloOp τ sig (Elt F)) :=
  [ StableHlo.nullary main_c (constantI S_ 32 0#32),
    StableHlo.unary main_c main_v0 (broadcastInDim S800000 ![] bcast_S_S800000 : (⟨S_, .i32⟩ : BufTy).Contents (Elt F) → (⟨S800000, .i32⟩ : BufTy).Contents (Elt F)),
    StableHlo.binary main_arg5 main_v0 main_v1 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 800000#32),
    StableHlo.unary main_c_0 main_v2 (broadcastInDim S800000 ![] bcast_S_S800000 : (⟨S_, .i32⟩ : BufTy).Contents (Elt F) → (⟨S800000, .i32⟩ : BufTy).Contents (Elt F)),
    StableHlo.binary main_arg5 main_v2 main_v3 (addi : (⟨S800000, .i32⟩ : BufTy).Contents (Elt F) → (⟨S800000, .i32⟩ : BufTy).Contents (Elt F) → (⟨S800000, .i32⟩ : BufTy).Contents (Elt F)),
    StableHlo.ternary main_v1 main_v3 main_arg5 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v4 main_v5 (broadcastInDim S800000x1 ![0] bcast_S800000_S800000x1_0 : (⟨S800000, .i32⟩ : BufTy).Contents (Elt F) → (⟨S800000x1, .i32⟩ : BufTy).Contents (Elt F)),
    StableHlo.binary main_arg3 main_v5 main_v6 ((fun x i => Host.gather gather_S800000x64_S800000x1_S800000x64_1_0_n_n_0_1_164 x i) : (⟨S800000x64, .f32⟩ : BufTy).Contents (Elt F) → (⟨S800000x1, .i32⟩ : BufTy).Contents (Elt F) → (⟨S800000x64, .f32⟩ : BufTy).Contents (Elt F)),
    StableHlo.nullary main_c_1 (constantI S_ 32 0#32),
    StableHlo.unary main_c_1 main_v7 (broadcastInDim S800000 ![] bcast_S_S800000 : (⟨S_, .i32⟩ : BufTy).Contents (Elt F) → (⟨S800000, .i32⟩ : BufTy).Contents (Elt F)),
    StableHlo.binary main_arg6 main_v7 main_v8 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 800000#32),
    StableHlo.unary main_c_2 main_v9 (broadcastInDim S800000 ![] bcast_S_S800000 : (⟨S_, .i32⟩ : BufTy).Contents (Elt F) → (⟨S800000, .i32⟩ : BufTy).Contents (Elt F)),
    StableHlo.binary main_arg6 main_v9 main_v10 (addi : (⟨S800000, .i32⟩ : BufTy).Contents (Elt F) → (⟨S800000, .i32⟩ : BufTy).Contents (Elt F) → (⟨S800000, .i32⟩ : BufTy).Contents (Elt F)),
    StableHlo.ternary main_v8 main_v10 main_arg6 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v11 main_v12 (broadcastInDim S800000x1 ![0] bcast_S800000_S800000x1_0 : (⟨S800000, .i32⟩ : BufTy).Contents (Elt F) → (⟨S800000x1, .i32⟩ : BufTy).Contents (Elt F)),
    StableHlo.binary main_arg3 main_v12 main_v13 ((fun x i => Host.gather gather_S800000x64_S800000x1_S800000x64_1_0_n_n_0_1_164 x i) : (⟨S800000x64, .f32⟩ : BufTy).Contents (Elt F) → (⟨S800000x1, .i32⟩ : BufTy).Contents (Elt F) → (⟨S800000x64, .f32⟩ : BufTy).Contents (Elt F)) ]

/-- Operations 19 … 36 of the line. -/
abbrev w2 : List (HloOp τ sig (Elt F)) :=
  [ StableHlo.nary ![main_v6, main_v13, main_arg7] main_v14 (fun u => concatenate S800000x144 1 [⟨S800000x64, u 0⟩, ⟨S800000x64, u 1⟩, ⟨S800000x16, u 2⟩] concatenates_S800000x64_S800000x64_S800000x16_S800000x144_d1),
    StableHlo.binary main_v14 main_arg8 main_v15 ((fun l r => Host.dotGeneral dot_S800000x144_S144x64_S800000x64_1_0_0_1_n_n none l r) : (⟨S800000x144, .f32⟩ : BufTy).Contents (Elt F) → (⟨S144x64, .f32⟩ : BufTy).Contents (Elt F) → (⟨S800000x64, .f32⟩ : BufTy).Contents (Elt F)),
    StableHlo.unary main_arg9 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S800000x64 ![0, 1] bcast_S1x64_S800000x64_0_1 : (⟨S1x64, .f32⟩ : BufTy).Contents (Elt F) → (⟨S800000x64, .f32⟩ : BufTy).Contents (Elt F)),
    StableHlo.binary main_v15 main_v17 main_v18 (addf : (⟨S800000x64, .f32⟩ : BufTy).Contents (Elt F) → (⟨S800000x64, .f32⟩ : BufTy).Contents (Elt F) → (⟨S800000x64, .f32⟩ : BufTy).Contents (Elt F)),
    StableHlo.TRef.unary (.of main_v18 : StableHlo.TRef sig ⟨S800000x64, .f32⟩) main_call0.v0 Host.negf,
    StableHlo.TRef.unary main_call0.v0 main_call0.v1 Host.exp,
    StableHlo.TRef.nullary main_call0.cst (constant S_ .f32 0x3F800000#32),
    StableHlo.TRef.unary main_call0.cst main_call0.v2 (broadcastInDim S800000x64 ![] bcast_S_S800000x64),
    StableHlo.TRef.binary main_call0.v2 main_call0.v1 main_call0.v3 addf,
    StableHlo.TRef.nullary main_call0.cst_0 (constant S_ .f32 0x3F800000#32),
    StableHlo.TRef.unary main_call0.cst_0 main_call0.v4 (broadcastInDim S800000x64 ![] bcast_S_S800000x64),
    StableHlo.TRef.binary main_call0.v4 main_call0.v3 main_call0.v5 Host.divf,
    StableHlo.TRef.binary (.of main_v18 : StableHlo.TRef sig ⟨S800000x64, .f32⟩) main_call0.v5 main_call0.v6 mulf,
    StableHlo.binary main_v19 main_arg10 main_v20 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    StableHlo.unary main_arg11 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S800000x64 ![0, 1] bcast_S1x64_S800000x64_0_1 : (⟨S1x64, .f32⟩ : BufTy).Contents (Elt F) → (⟨S800000x64, .f32⟩ : BufTy).Contents (Elt F)),
    StableHlo.binary main_v20 main_v22 main_v23 (addf : (⟨S800000x64, .f32⟩ : BufTy).Contents (Elt F) → (⟨S800000x64, .f32⟩ : BufTy).Contents (Elt F) → (⟨S800000x64, .f32⟩ : BufTy).Contents (Elt F)) ]

/-- Operations 37 … 62 of the line. -/
abbrev w3 : List (HloOp τ sig (Elt F)) :=
  [ StableHlo.nullary main_cst (constant S_ .f32 0x00000000#32),
    StableHlo.unary main_cst main_v24 (broadcastInDim S800000x64 ![] bcast_S_S800000x64 : (⟨S_, .f32⟩ : BufTy).Contents (Elt F) → (⟨S800000x64, .f32⟩ : BufTy).Contents (Elt F)),
    StableHlo.unary main_arg6 main_v25 (broadcastInDim S800000x1 ![0] bcast_S800000_S800000x1_0 : (⟨S800000, .i32⟩ : BufTy).Contents (Elt F) → (⟨S800000x1, .i32⟩ : BufTy).Contents (Elt F)),
    StableHlo.ternary main_v24 main_v25 main_v23 main_v26 ((fun x i u => Host.scatterAdd scatter_S800000x64_S800000x1_S800000x64_1_0_0_1 x i u) : (⟨S800000x64, .f32⟩ : BufTy).Contents (Elt F) → (⟨S800000x1, .i32⟩ : BufTy).Contents (Elt F) → (⟨S800000x64, .f32⟩ : BufTy).Contents (Elt F) → (⟨S800000x64, .f32⟩ : BufTy).Contents (Elt F)),
    StableHlo.unary main_arg2 main_v27 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v27 main_v28 rfl shapeCasts_S1x800000_S800000,
    StableHlo.unary main_arg2 main_v29 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v29 main_v30 rfl shapeCasts_S1x800000_S800000,
    StableHlo.nullary main_c_3 (constantI S_ 32 0#32),
    StableHlo.unary main_c_3 main_v31 (broadcastInDim S800000 ![] bcast_S_S800000 : (⟨S_, .i32⟩ : BufTy).Contents (Elt F) → (⟨S800000, .i32⟩ : BufTy).Contents (Elt F)),
    StableHlo.binary main_v28 main_v31 main_v32 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v33 (broadcastInDim S800000 ![] bcast_S_S800000 : (⟨S_, .i32⟩ : BufTy).Contents (Elt F) → (⟨S800000, .i32⟩ : BufTy).Contents (Elt F)),
    StableHlo.binary main_v28 main_v33 main_v34 (addi : (⟨S800000, .i32⟩ : BufTy).Contents (Elt F) → (⟨S800000, .i32⟩ : BufTy).Contents (Elt F) → (⟨S800000, .i32⟩ : BufTy).Contents (Elt F)),
    StableHlo.ternary main_v32 main_v34 main_v28 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v35 main_v36 (broadcastInDim S800000x1 ![0] bcast_S800000_S800000x1_0 : (⟨S800000, .i32⟩ : BufTy).Contents (Elt F) → (⟨S800000x1, .i32⟩ : BufTy).Contents (Elt F)),
    StableHlo.binary main_arg0 main_v36 main_v37 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_5 (constantI S_ 32 0#32),
    StableHlo.unary main_c_5 main_v38 (broadcastInDim S800000 ![] bcast_S_S800000 : (⟨S_, .i32⟩ : BufTy).Contents (Elt F) → (⟨S800000, .i32⟩ : BufTy).Contents (Elt F)),
    StableHlo.binary main_v30 main_v38 main_v39 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v40 (broadcastInDim S800000 ![] bcast_S_S800000 : (⟨S_, .i32⟩ : BufTy).Contents (Elt F) → (⟨S800000, .i32⟩ : BufTy).Contents (Elt F)),
    StableHlo.binary main_v30 main_v40 main_v41 (addi : (⟨S800000, .i32⟩ : BufTy).Contents (Elt F) → (⟨S800000, .i32⟩ : BufTy).Contents (Elt F) → (⟨S800000, .i32⟩ : BufTy).Contents (Elt F)),
    StableHlo.ternary main_v39 main_v41 main_v30 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v42 main_v43 (broadcastInDim S800000x1 ![0] bcast_S800000_S800000x1_0 : (⟨S800000, .i32⟩ : BufTy).Contents (Elt F) → (⟨S800000x1, .i32⟩ : BufTy).Contents (Elt F)),
    StableHlo.binary main_arg0 main_v43 main_v44 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- Operations 63 … 80 of the line. -/
abbrev w4 : List (HloOp τ sig (Elt F)) :=
  [ StableHlo.nary ![main_v37, main_v44, main_arg3, main_v26] main_v45 (fun u => concatenate S800000x256 1 [⟨S800000x64, u 0⟩, ⟨S800000x64, u 1⟩, ⟨S800000x64, u 2⟩, ⟨S800000x64, u 3⟩] concatenates_S800000x64_S800000x64_S800000x64_S800000x64_S800000x256_d1),
    StableHlo.binary main_v45 main_arg12 main_v46 ((fun l r => Host.dotGeneral dot_S800000x256_S256x64_S800000x64_1_0_0_1_n_n none l r) : (⟨S800000x256, .f32⟩ : BufTy).Contents (Elt F) → (⟨S256x64, .f32⟩ : BufTy).Contents (Elt F) → (⟨S800000x64, .f32⟩ : BufTy).Contents (Elt F)),
    StableHlo.unary main_arg13 main_v47 (broadcastInDim S1x64 ![1] bcast_S64_S1x64_1 : (⟨S64, .f32⟩ : BufTy).Contents (Elt F) → (⟨S1x64, .f32⟩ : BufTy).Contents (Elt F)),
    StableHlo.unary main_v47 main_v48 (broadcastInDim S800000x64 ![0, 1] bcast_S1x64_S800000x64_0_1 : (⟨S1x64, .f32⟩ : BufTy).Contents (Elt F) → (⟨S800000x64, .f32⟩ : BufTy).Contents (Elt F)),
    StableHlo.binary main_v46 main_v48 main_v49 (addf : (⟨S800000x64, .f32⟩ : BufTy).Contents (Elt F) → (⟨S800000x64, .f32⟩ : BufTy).Contents (Elt F) → (⟨S800000x64, .f32⟩ : BufTy).Contents (Elt F)),
    StableHlo.TRef.unary (.of main_v49 : StableHlo.TRef sig ⟨S800000x64, .f32⟩) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S800000x64 ![] bcast_S_S800000x64),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S800000x64 ![] bcast_S_S800000x64),
    StableHlo.TRef.binary main_call1.v4 main_call1.v3 main_call1.v5 Host.divf,
    StableHlo.TRef.binary (.of main_v49 : StableHlo.TRef sig ⟨S800000x64, .f32⟩) main_call1.v5 main_call1.v6 mulf,
    StableHlo.binary main_v50 main_arg14 main_v51 ((fun l r => Host.dotGeneral dot_S800000x64_S64x128_S800000x128_1_0_0_1_n_n none l r) : (⟨S800000x64, .f32⟩ : BufTy).Contents (Elt F) → (⟨S64x128, .f32⟩ : BufTy).Contents (Elt F) → (⟨S800000x128, .f32⟩ : BufTy).Contents (Elt F)),
    StableHlo.unary main_arg15 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S800000x128 ![0, 1] bcast_S1x128_S800000x128_0_1 : (⟨S1x128, .f32⟩ : BufTy).Contents (Elt F) → (⟨S800000x128, .f32⟩ : BufTy).Contents (Elt F)),
    StableHlo.binary main_v51 main_v53 main_v54 (addf : (⟨S800000x128, .f32⟩ : BufTy).Contents (Elt F) → (⟨S800000x128, .f32⟩ : BufTy).Contents (Elt F) → (⟨S800000x128, .f32⟩ : BufTy).Contents (Elt F)) ]

/-- Operations 81 … 101 of the line. -/
abbrev w5 : List (HloOp τ sig (Elt F)) :=
  [ StableHlo.unary main_v54 main_v55 ((extractStridedSlice S800000x64 ![0, 0] · slices_S800000x128_S800000x64_0_0) : (⟨S800000x128, .f32⟩ : BufTy).Contents (Elt F) → (⟨S800000x64, .f32⟩ : BufTy).Contents (Elt F)),
    StableHlo.unary main_v54 main_v56 ((extractStridedSlice S800000x64 ![0, 64] · slices_S800000x128_S800000x64_0_64) : (⟨S800000x128, .f32⟩ : BufTy).Contents (Elt F) → (⟨S800000x64, .f32⟩ : BufTy).Contents (Elt F)),
    StableHlo.nullary main_cst_7 (constant S_ .f32 0x00000000#32),
    StableHlo.unary main_cst_7 main_v57 (broadcastInDim S50000x64 ![] bcast_S_S50000x64 : (⟨S_, .f32⟩ : BufTy).Contents (Elt F) → (⟨S50000x64, .f32⟩ : BufTy).Contents (Elt F)),
    StableHlo.unary main_v30 main_v58 (broadcastInDim S800000x1 ![0] bcast_S800000_S800000x1_0 : (⟨S800000, .i32⟩ : BufTy).Contents (Elt F) → (⟨S800000x1, .i32⟩ : BufTy).Contents (Elt F)),
    StableHlo.ternary main_v57 main_v58 main_v55 main_v59 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_v56 main_v60 (broadcastInDim S800000x64x1 ![0, 1] bcast_S800000x64_S800000x64x1_0_1 : (⟨S800000x64, .f32⟩ : BufTy).Contents (Elt F) → (⟨S800000x64x1, .f32⟩ : BufTy).Contents (Elt F)),
    StableHlo.unary main_arg4 main_v61 (broadcastInDim S800000x1x3 ![0, 2] bcast_S800000x3_S800000x1x3_0_2 : (⟨S800000x3, .f32⟩ : BufTy).Contents (Elt F) → (⟨S800000x1x3, .f32⟩ : BufTy).Contents (Elt F)),
    StableHlo.unary main_v60 main_v62 (broadcastInDim S800000x64x3 ![0, 1, 2] bcast_S800000x64x1_S800000x64x3_0_1_2 : (⟨S800000x64x1, .f32⟩ : BufTy).Contents (Elt F) → (⟨S800000x64x3, .f32⟩ : BufTy).Contents (Elt F)),
    StableHlo.unary main_v61 main_v63 (broadcastInDim S800000x64x3 ![0, 1, 2] bcast_S800000x1x3_S800000x64x3_0_1_2 : (⟨S800000x1x3, .f32⟩ : BufTy).Contents (Elt F) → (⟨S800000x64x3, .f32⟩ : BufTy).Contents (Elt F)),
    StableHlo.binary main_v62 main_v63 main_v64 (mulf : (⟨S800000x64x3, .f32⟩ : BufTy).Contents (Elt F) → (⟨S800000x64x3, .f32⟩ : BufTy).Contents (Elt F) → (⟨S800000x64x3, .f32⟩ : BufTy).Contents (Elt F)),
    StableHlo.reshape main_v64 main_v65 rfl shapeCasts_S800000x64x3_S800000x192,
    StableHlo.nullary main_cst_8 (constant S_ .f32 0x00000000#32),
    StableHlo.unary main_cst_8 main_v66 (broadcastInDim S50000x192 ![] bcast_S_S50000x192 : (⟨S_, .f32⟩ : BufTy).Contents (Elt F) → (⟨S50000x192, .f32⟩ : BufTy).Contents (Elt F)),
    StableHlo.unary main_v30 main_v67 (broadcastInDim S800000x1 ![0] bcast_S800000_S800000x1_0 : (⟨S800000, .i32⟩ : BufTy).Contents (Elt F) → (⟨S800000x1, .i32⟩ : BufTy).Contents (Elt F)),
    StableHlo.ternary main_v66 main_v67 main_v65 main_v68 ((fun x i u => Host.scatterAdd scatter_S50000x192_S800000x1_S800000x192_1_0_0_1 x i u) : (⟨S50000x192, .f32⟩ : BufTy).Contents (Elt F) → (⟨S800000x1, .i32⟩ : BufTy).Contents (Elt F) → (⟨S800000x192, .f32⟩ : BufTy).Contents (Elt F) → (⟨S50000x192, .f32⟩ : BufTy).Contents (Elt F)),
    StableHlo.reshape main_v68 main_v69 rfl shapeCasts_S50000x192_S50000x64x3,
    StableHlo.TRef.binary (.of main_arg1 : StableHlo.TRef sig ⟨S50000x64x3, .f32⟩) (.of main_arg1 : StableHlo.TRef sig ⟨S50000x64x3, .f32⟩) main_call2.v0 mulf,
    StableHlo.TRef.nullary main_call2.cst (constant S_ .f32 0x00000000#32),
    StableHlo.TRef.binary main_call2.v0 main_call2.cst main_call2.v1 (fun x v => Host.reduceAdd x v reducesTo_S50000x64x3_S50000x64_d2 h_S_),
    StableHlo.TRef.unary main_call2.v1 main_call2.v2 Host.sqrt ]

/-- Operations 102 … 145 of the line. -/
abbrev w6 : List (HloOp τ sig (Elt F)) :=
  [ StableHlo.nary ![main_arg0, main_v59, main_v70] main_v71 (fun u => concatenate S50000x192 1 [⟨S50000x64, u 0⟩, ⟨S50000x64, u 1⟩, ⟨S50000x64, u 2⟩] concatenates_S50000x64_S50000x64_S50000x64_S50000x192_d1),
    StableHlo.binary main_v71 main_arg16 main_v72 ((fun l r => Host.dotGeneral dot_S50000x192_S192x64_S50000x64_1_0_0_1_n_n none l r) : (⟨S50000x192, .f32⟩ : BufTy).Contents (Elt F) → (⟨S192x64, .f32⟩ : BufTy).Contents (Elt F) → (⟨S50000x64, .f32⟩ : BufTy).Contents (Elt F)),
    StableHlo.unary main_arg17 main_v73 (broadcastInDim S1x64 ![1] bcast_S64_S1x64_1 : (⟨S64, .f32⟩ : BufTy).Contents (Elt F) → (⟨S1x64, .f32⟩ : BufTy).Contents (Elt F)),
    StableHlo.unary main_v73 main_v74 (broadcastInDim S50000x64 ![0, 1] bcast_S1x64_S50000x64_0_1 : (⟨S1x64, .f32⟩ : BufTy).Contents (Elt F) → (⟨S50000x64, .f32⟩ : BufTy).Contents (Elt F)),
    StableHlo.binary main_v72 main_v74 main_v75 (addf : (⟨S50000x64, .f32⟩ : BufTy).Contents (Elt F) → (⟨S50000x64, .f32⟩ : BufTy).Contents (Elt F) → (⟨S50000x64, .f32⟩ : BufTy).Contents (Elt F)),
    StableHlo.TRef.unary (.of main_v75 : StableHlo.TRef sig ⟨S50000x64, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S50000x64 ![] bcast_S_S50000x64),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S50000x64 ![] bcast_S_S50000x64),
    StableHlo.TRef.binary main_call3.v4 main_call3.v3 main_call3.v5 Host.divf,
    StableHlo.TRef.binary (.of main_v75 : StableHlo.TRef sig ⟨S50000x64, .f32⟩) main_call3.v5 main_call3.v6 mulf,
    StableHlo.binary main_v76 main_arg18 main_v77 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg19 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S50000x64 ![0, 1] bcast_S1x64_S50000x64_0_1 : (⟨S1x64, .f32⟩ : BufTy).Contents (Elt F) → (⟨S50000x64, .f32⟩ : BufTy).Contents (Elt F)),
    StableHlo.binary main_v77 main_v79 main_v80 (addf : (⟨S50000x64, .f32⟩ : BufTy).Contents (Elt F) → (⟨S50000x64, .f32⟩ : BufTy).Contents (Elt F) → (⟨S50000x64, .f32⟩ : BufTy).Contents (Elt F)),
    StableHlo.binary main_arg0 main_v80 main_v81 (addf : (⟨S50000x64, .f32⟩ : BufTy).Contents (Elt F) → (⟨S50000x64, .f32⟩ : BufTy).Contents (Elt F) → (⟨S50000x64, .f32⟩ : BufTy).Contents (Elt F)),
    StableHlo.binary main_v71 main_arg20 main_v82 ((fun l r => Host.dotGeneral dot_S50000x192_S192x64_S50000x64_1_0_0_1_n_n none l r) : (⟨S50000x192, .f32⟩ : BufTy).Contents (Elt F) → (⟨S192x64, .f32⟩ : BufTy).Contents (Elt F) → (⟨S50000x64, .f32⟩ : BufTy).Contents (Elt F)),
    StableHlo.unary main_arg21 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S50000x64 ![0, 1] bcast_S1x64_S50000x64_0_1 : (⟨S1x64, .f32⟩ : BufTy).Contents (Elt F) → (⟨S50000x64, .f32⟩ : BufTy).Contents (Elt F)),
    StableHlo.binary main_v82 main_v84 main_v85 (addf : (⟨S50000x64, .f32⟩ : BufTy).Contents (Elt F) → (⟨S50000x64, .f32⟩ : BufTy).Contents (Elt F) → (⟨S50000x64, .f32⟩ : BufTy).Contents (Elt F)),
    StableHlo.TRef.unary (.of main_v85 : StableHlo.TRef sig ⟨S50000x64, .f32⟩) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S50000x64 ![] bcast_S_S50000x64),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S50000x64 ![] bcast_S_S50000x64),
    StableHlo.TRef.binary main_call4.v4 main_call4.v3 main_call4.v5 Host.divf,
    StableHlo.TRef.binary (.of main_v85 : StableHlo.TRef sig ⟨S50000x64, .f32⟩) main_call4.v5 main_call4.v6 mulf,
    StableHlo.binary main_v86 main_arg22 main_v87 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg23 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S50000x64 ![0, 1] bcast_S1x64_S50000x64_0_1 : (⟨S1x64, .f32⟩ : BufTy).Contents (Elt F) → (⟨S50000x64, .f32⟩ : BufTy).Contents (Elt F)),
    StableHlo.binary main_v87 main_v89 main_v90 (addf : (⟨S50000x64, .f32⟩ : BufTy).Contents (Elt F) → (⟨S50000x64, .f32⟩ : BufTy).Contents (Elt F) → (⟨S50000x64, .f32⟩ : BufTy).Contents (Elt F)),
    StableHlo.unary main_v90 main_v91 (Host.negf : (⟨S50000x64, .f32⟩ : BufTy).Contents (Elt F) → (⟨S50000x64, .f32⟩ : BufTy).Contents (Elt F)),
    StableHlo.unary main_v91 main_v92 (Host.exp : (⟨S50000x64, .f32⟩ : BufTy).Contents (Elt F) → (⟨S50000x64, .f32⟩ : BufTy).Contents (Elt F)),
    StableHlo.nullary main_cst_9 (constant S_ .f32 0x3F800000#32),
    StableHlo.unary main_cst_9 main_v93 (broadcastInDim S50000x64 ![] bcast_S_S50000x64 : (⟨S_, .f32⟩ : BufTy).Contents (Elt F) → (⟨S50000x64, .f32⟩ : BufTy).Contents (Elt F)),
    StableHlo.binary main_v93 main_v92 main_v94 (addf : (⟨S50000x64, .f32⟩ : BufTy).Contents (Elt F) → (⟨S50000x64, .f32⟩ : BufTy).Contents (Elt F) → (⟨S50000x64, .f32⟩ : BufTy).Contents (Elt F)),
    StableHlo.nullary main_cst_10 (constant S_ .f32 0x3F800000#32),
    StableHlo.unary main_cst_10 main_v95 (broadcastInDim S50000x64 ![] bcast_S_S50000x64 : (⟨S_, .f32⟩ : BufTy).Contents (Elt F) → (⟨S50000x64, .f32⟩ : BufTy).Contents (Elt F)),
    StableHlo.binary main_v95 main_v94 main_v96 (Host.divf : (⟨S50000x64, .f32⟩ : BufTy).Contents (Elt F) → (⟨S50000x64, .f32⟩ : BufTy).Contents (Elt F) → (⟨S50000x64, .f32⟩ : BufTy).Contents (Elt F)) ]

/-- Operations 146 … 155 of the line. -/
abbrev w7 : List (HloOp τ sig (Elt F)) :=
  [ StableHlo.unary main_v96 main_v97 (broadcastInDim S50000x64x1 ![0, 1] bcast_S50000x64_S50000x64x1_0_1 : (⟨S50000x64, .f32⟩ : BufTy).Contents (Elt F) → (⟨S50000x64x1, .f32⟩ : BufTy).Contents (Elt F)),
    StableHlo.unary main_v97 main_v98 (broadcastInDim S50000x64x3 ![0, 1, 2] bcast_S50000x64x1_S50000x64x3_0_1_2 : (⟨S50000x64x1, .f32⟩ : BufTy).Contents (Elt F) → (⟨S50000x64x3, .f32⟩ : BufTy).Contents (Elt F)),
    StableHlo.binary main_v98 main_v69 main_v99 (mulf : (⟨S50000x64x3, .f32⟩ : BufTy).Contents (Elt F) → (⟨S50000x64x3, .f32⟩ : BufTy).Contents (Elt F) → (⟨S50000x64x3, .f32⟩ : BufTy).Contents (Elt F)),
    StableHlo.binary main_arg1 main_v99 main_v100 (addf : (⟨S50000x64x3, .f32⟩ : BufTy).Contents (Elt F) → (⟨S50000x64x3, .f32⟩ : BufTy).Contents (Elt F) → (⟨S50000x64x3, .f32⟩ : BufTy).Contents (Elt F)),
    StableHlo.nullary main_cst_11 (constant S_ .f32 0x00000000#32),
    StableHlo.binary main_v81 main_cst_11 main_v101 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    StableHlo.unary main_v101 main_v102 (broadcastInDim S50000x1 ![0] bcast_S50000_S50000x1_0 : (⟨S50000, .f32⟩ : BufTy).Contents (Elt F) → (⟨S50000x1, .f32⟩ : BufTy).Contents (Elt F)),
    StableHlo.nullary main_cst_12 (constant S_ .f32 0x42800000#32),
    StableHlo.unary main_cst_12 main_v103 (broadcastInDim S50000x1 ![] bcast_S_S50000x1 : (⟨S_, .f32⟩ : BufTy).Contents (Elt F) → (⟨S50000x1, .f32⟩ : BufTy).Contents (Elt F)),
    StableHlo.binary main_v102 main_v103 main_v104 (Host.divf : (⟨S50000x1, .f32⟩ : BufTy).Contents (Elt F) → (⟨S50000x1, .f32⟩ : BufTy).Contents (Elt F) → (⟨S50000x1, .f32⟩ : BufTy).Contents (Elt F)) ]

/-- Operations 156 … 179 of the line. -/
abbrev w8 : List (HloOp τ sig (Elt F)) :=
  [ StableHlo.nullary main_c_13 (constantI S_ 32 0#32),
    StableHlo.TRef.nullary main_call5.cst (constant S_ .f32 0x00000000#32),
    StableHlo.TRef.binary (.of main_v81 : StableHlo.TRef sig ⟨S50000x64, .f32⟩) main_call5.cst main_call5.v0 (fun x v => Host.reduceAdd x v reducesTo_S50000x64_S50000_d1 h_S_),
    StableHlo.TRef.unary main_call5.v0 main_call5.v1 (broadcastInDim S50000x1 ![0] bcast_S50000_S50000x1_0),
    StableHlo.TRef.nullary main_call5.cst_0 (constant S_ .f32 0x42800000#32),
    StableHlo.TRef.unary main_call5.cst_0 main_call5.v2 (broadcastInDim S50000x1 ![] bcast_S_S50000x1),
    StableHlo.TRef.binary main_call5.v1 main_call5.v2 main_call5.v3 Host.divf,
    StableHlo.TRef.unary main_call5.v3 main_call5.v4 (broadcastInDim S50000x64 ![0, 1] bcast_S50000x1_S50000x64_0_1),
    StableHlo.TRef.binary (.of main_v81 : StableHlo.TRef sig ⟨S50000x64, .f32⟩) main_call5.v4 main_call5.v5 subf,
    StableHlo.TRef.binary main_call5.v5 main_call5.v5 main_call5.v6 mulf,
    StableHlo.TRef.unary (.of main_c_13 : StableHlo.TRef sig ⟨S_, .i32⟩) main_call5.v7 (sitofp .f32),
    StableHlo.TRef.nullary main_call5.cst_1 (constant S_ .f32 0x42800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x64_S50000_d1 h_S_),
    StableHlo.TRef.unary main_call5.v9 main_call5.v10 (broadcastInDim S50000x1 ![0] bcast_S50000_S50000x1_0),
    StableHlo.TRef.unary main_call5.v8 main_call5.v11 (broadcastInDim S50000x1 ![] bcast_S_S50000x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S50000x1 ![] bcast_S_S50000x1),
    StableHlo.TRef.ternary main_call5.v13 main_call5.v12 main_call5.call0.v1 main_call5.call0.v2 (fun p a b => select (broadcastInDim S50000x1 ![] bcast_S_S50000x1 p) a b) ]

/-- Operations 180 … 202 of the line. -/
abbrev w9 : List (HloOp τ sig (Elt F)) :=
  [ StableHlo.unary main_v104 main_v106 (broadcastInDim S50000x64 ![0, 1] bcast_S50000x1_S50000x64_0_1 : (⟨S50000x1, .f32⟩ : BufTy).Contents (Elt F) → (⟨S50000x64, .f32⟩ : BufTy).Contents (Elt F)),
    StableHlo.binary main_v81 main_v106 main_v107 (subf : (⟨S50000x64, .f32⟩ : BufTy).Contents (Elt F) → (⟨S50000x64, .f32⟩ : BufTy).Contents (Elt F) → (⟨S50000x64, .f32⟩ : BufTy).Contents (Elt F)),
    StableHlo.nullary main_cst_14 (constant S_ .f32 0x3727C5AC#32),
    StableHlo.unary main_cst_14 main_v108 (broadcastInDim S50000x1 ![] bcast_S_S50000x1 : (⟨S_, .f32⟩ : BufTy).Contents (Elt F) → (⟨S50000x1, .f32⟩ : BufTy).Contents (Elt F)),
    StableHlo.binary main_v105 main_v108 main_v109 (addf : (⟨S50000x1, .f32⟩ : BufTy).Contents (Elt F) → (⟨S50000x1, .f32⟩ : BufTy).Contents (Elt F) → (⟨S50000x1, .f32⟩ : BufTy).Contents (Elt F)),
    StableHlo.unary main_v109 main_v110 (Host.sqrt : (⟨S50000x1, .f32⟩ : BufTy).Contents (Elt F) → (⟨S50000x1, .f32⟩ : BufTy).Contents (Elt F)),
    StableHlo.unary main_v110 main_v111 (broadcastInDim S50000x64 ![0, 1] bcast_S50000x1_S50000x64_0_1 : (⟨S50000x1, .f32⟩ : BufTy).Contents (Elt F) → (⟨S50000x64, .f32⟩ : BufTy).Contents (Elt F)),
    StableHlo.binary main_v107 main_v111 main_v112 (Host.divf : (⟨S50000x64, .f32⟩ : BufTy).Contents (Elt F) → (⟨S50000x64, .f32⟩ : BufTy).Contents (Elt F) → (⟨S50000x64, .f32⟩ : BufTy).Contents (Elt F)),
    StableHlo.unary main_arg24 main_v113 (broadcastInDim S1x64 ![1] bcast_S64_S1x64_1 : (⟨S64, .f32⟩ : BufTy).Contents (Elt F) → (⟨S1x64, .f32⟩ : BufTy).Contents (Elt F)),
    StableHlo.unary main_v113 main_v114 (broadcastInDim S50000x64 ![0, 1] bcast_S1x64_S50000x64_0_1 : (⟨S1x64, .f32⟩ : BufTy).Contents (Elt F) → (⟨S50000x64, .f32⟩ : BufTy).Contents (Elt F)),
    StableHlo.binary main_v112 main_v114 main_v115 (mulf : (⟨S50000x64, .f32⟩ : BufTy).Contents (Elt F) → (⟨S50000x64, .f32⟩ : BufTy).Contents (Elt F) → (⟨S50000x64, .f32⟩ : BufTy).Contents (Elt F)),
    StableHlo.unary main_arg25 main_v116 (broadcastInDim S1x64 ![1] bcast_S64_S1x64_1 : (⟨S64, .f32⟩ : BufTy).Contents (Elt F) → (⟨S1x64, .f32⟩ : BufTy).Contents (Elt F)),
    StableHlo.unary main_v116 main_v117 (broadcastInDim S50000x64 ![0, 1] bcast_S1x64_S50000x64_0_1 : (⟨S1x64, .f32⟩ : BufTy).Contents (Elt F) → (⟨S50000x64, .f32⟩ : BufTy).Contents (Elt F)),
    StableHlo.binary main_v115 main_v117 main_v118 (addf : (⟨S50000x64, .f32⟩ : BufTy).Contents (Elt F) → (⟨S50000x64, .f32⟩ : BufTy).Contents (Elt F) → (⟨S50000x64, .f32⟩ : BufTy).Contents (Elt F)),
    StableHlo.TRef.unary (.of main_v118 : StableHlo.TRef sig ⟨S50000x64, .f32⟩) main_call6.v0 Host.negf,
    StableHlo.TRef.unary main_call6.v0 main_call6.v1 Host.exp,
    StableHlo.TRef.nullary main_call6.cst (constant S_ .f32 0x3F800000#32),
    StableHlo.TRef.unary main_call6.cst main_call6.v2 (broadcastInDim S50000x64 ![] bcast_S_S50000x64),
    StableHlo.TRef.binary main_call6.v2 main_call6.v1 main_call6.v3 addf,
    StableHlo.TRef.nullary main_call6.cst_0 (constant S_ .f32 0x3F800000#32),
    StableHlo.TRef.unary main_call6.cst_0 main_call6.v4 (broadcastInDim S50000x64 ![] bcast_S_S50000x64),
    StableHlo.TRef.binary main_call6.v4 main_call6.v3 main_call6.v5 Host.divf,
    StableHlo.TRef.binary (.of main_v118 : StableHlo.TRef sig ⟨S50000x64, .f32⟩) main_call6.v5 main_call6.v6 mulf ]

/-- The line is the nine stretches in order. -/
theorem ops_stretches : (ops : List (HloOp τ sig (Elt F))) = w1 ++ (w2 ++ (w3 ++ (w4 ++ (w5 ++ (w6 ++ (w7 ++ (w8 ++ (w9)))))))) := rfl

/-- The buffers' contents after the first 1 stretch. -/
def val1 (V : Valuation τ sig (Elt F)) : Valuation τ sig (Elt F) := after w1 V
/-- The buffers' contents after the first 2 stretches. -/
def val2 (V : Valuation τ sig (Elt F)) : Valuation τ sig (Elt F) := after w2 (val1 V)
/-- The buffers' contents after the first 3 stretches. -/
def val3 (V : Valuation τ sig (Elt F)) : Valuation τ sig (Elt F) := after w3 (val2 V)
/-- The buffers' contents after the first 4 stretches. -/
def val4 (V : Valuation τ sig (Elt F)) : Valuation τ sig (Elt F) := after w4 (val3 V)
/-- The buffers' contents after the first 5 stretches. -/
def val5 (V : Valuation τ sig (Elt F)) : Valuation τ sig (Elt F) := after w5 (val4 V)
/-- The buffers' contents after the first 6 stretches. -/
def val6 (V : Valuation τ sig (Elt F)) : Valuation τ sig (Elt F) := after w6 (val5 V)
/-- The buffers' contents after the first 7 stretches. -/
def val7 (V : Valuation τ sig (Elt F)) : Valuation τ sig (Elt F) := after w7 (val6 V)
/-- The buffers' contents after the first 8 stretches. -/
def val8 (V : Valuation τ sig (Elt F)) : Valuation τ sig (Elt F) := after w8 (val7 V)
/-- The buffers' contents after the first 9 stretches. -/
def val9 (V : Valuation τ sig (Elt F)) : Valuation τ sig (Elt F) := after w9 (val8 V)

/-- The fold over the whole line is the fold over the nine stretches in turn. -/
theorem after_ops_vals (V : Valuation τ sig (Elt F)) : after (ops (F := F)) V = val9 V := by
  rw [ops_stretches]
  simp only [after_append]
  rfl

/-- An operation that writes one reference of a list writes inside the list's device buffers. -/
theorem writes_sub_of_mem {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The references stretch 1 writes, in order. -/
abbrev w1_W : List (Ref sig .tc) := [main_c, main_v0, main_v1, main_c_0, main_v2, main_v3, main_v4, main_v5, main_v6, main_c_1, main_v7, main_v8, main_c_2, main_v9, main_v10, main_v11, main_v12, main_v13]
theorem w1_writes : (w1 : List (HloOp τ sig (Elt F))).Forall fun op =>
    op.writes ⊆ (w1_W.map (Proc.devRef (τ := τ) .tc)).toFinset :=
  ⟨writes_sub_of_mem (y := main_c) rfl (by decide), writes_sub_of_mem (y := main_v0) rfl (by decide),
    writes_sub_of_mem (y := main_v1) rfl (by decide), writes_sub_of_mem (y := main_c_0) rfl (by decide),
    writes_sub_of_mem (y := main_v2) rfl (by decide), writes_sub_of_mem (y := main_v3) rfl (by decide),
    writes_sub_of_mem (y := main_v4) rfl (by decide), writes_sub_of_mem (y := main_v5) rfl (by decide),
    writes_sub_of_mem (y := main_v6) rfl (by decide), writes_sub_of_mem (y := main_c_1) rfl (by decide),
    writes_sub_of_mem (y := main_v7) rfl (by decide), writes_sub_of_mem (y := main_v8) rfl (by decide),
    writes_sub_of_mem (y := main_c_2) rfl (by decide), writes_sub_of_mem (y := main_v9) rfl (by decide),
    writes_sub_of_mem (y := main_v10) rfl (by decide), writes_sub_of_mem (y := main_v11) rfl (by decide),
    writes_sub_of_mem (y := main_v12) rfl (by decide), writes_sub_of_mem (y := main_v13) rfl (by decide)⟩
/-- A reference stretch 1 does not write keeps its contents through it. -/
theorem val1_keep (V : Valuation τ sig (Elt F)) (r : Ref sig .tc) (h : r ∉ w1_W) :
    val1 V (Proc.devRef .tc r) = V (Proc.devRef .tc r) :=
  after_of_writes_sub w1 _ w1_writes h

/-- The references stretch 2 writes, in order. -/
abbrev w2_W : List (Ref sig .tc) := [main_v14, main_v15, main_v16, main_v17, main_v18, main_call0_v0, main_call0_v1, main_call0_cst, main_call0_v2, main_call0_v3, main_call0_cst_0, main_call0_v4, main_call0_v5, main_v19, main_v20, main_v21, main_v22, main_v23]
theorem w2_writes : (w2 : List (HloOp τ sig (Elt F))).Forall fun op =>
    op.writes ⊆ (w2_W.map (Proc.devRef (τ := τ) .tc)).toFinset :=
  ⟨writes_sub_of_mem (y := main_v14) rfl (by decide), writes_sub_of_mem (y := main_v15) rfl (by decide),
    writes_sub_of_mem (y := main_v16) rfl (by decide), writes_sub_of_mem (y := main_v17) rfl (by decide),
    writes_sub_of_mem (y := main_v18) rfl (by decide), writes_sub_of_mem (y := main_call0_v0) rfl (by decide),
    writes_sub_of_mem (y := main_call0_v1) rfl (by decide), writes_sub_of_mem (y := main_call0_cst) rfl (by decide),
    writes_sub_of_mem (y := main_call0_v2) rfl (by decide), writes_sub_of_mem (y := main_call0_v3) rfl (by decide),
    writes_sub_of_mem (y := main_call0_cst_0) rfl (by decide), writes_sub_of_mem (y := main_call0_v4) rfl (by decide),
    writes_sub_of_mem (y := main_call0_v5) rfl (by decide), writes_sub_of_mem (y := main_v19) rfl (by decide),
    writes_sub_of_mem (y := main_v20) rfl (by decide), writes_sub_of_mem (y := main_v21) rfl (by decide),
    writes_sub_of_mem (y := main_v22) rfl (by decide), writes_sub_of_mem (y := main_v23) rfl (by decide)⟩
/-- A reference stretch 2 does not write keeps its contents through it. -/
theorem val2_keep (V : Valuation τ sig (Elt F)) (r : Ref sig .tc) (h : r ∉ w2_W) :
    val2 V (Proc.devRef .tc r) = val1 V (Proc.devRef .tc r) :=
  after_of_writes_sub w2 _ w2_writes h

/-- The references stretch 3 writes, in order. -/
abbrev w3_W : List (Ref sig .tc) := [main_cst, main_v24, main_v25, main_v26, main_v27, main_v28, main_v29, main_v30, main_c_3, main_v31, main_v32, main_c_4, main_v33, main_v34, main_v35, main_v36, main_v37, main_c_5, main_v38, main_v39, main_c_6, main_v40, main_v41, main_v42, main_v43, main_v44]
theorem w3_writes : (w3 : List (HloOp τ sig (Elt F))).Forall fun op =>
    op.writes ⊆ (w3_W.map (Proc.devRef (τ := τ) .tc)).toFinset :=
  ⟨writes_sub_of_mem (y := main_cst) rfl (by decide), writes_sub_of_mem (y := main_v24) rfl (by decide),
    writes_sub_of_mem (y := main_v25) rfl (by decide), writes_sub_of_mem (y := main_v26) rfl (by decide),
    writes_sub_of_mem (y := main_v27) rfl (by decide), writes_sub_of_mem (y := main_v28) rfl (by decide),
    writes_sub_of_mem (y := main_v29) rfl (by decide), writes_sub_of_mem (y := main_v30) rfl (by decide),
    writes_sub_of_mem (y := main_c_3) rfl (by decide), writes_sub_of_mem (y := main_v31) rfl (by decide),
    writes_sub_of_mem (y := main_v32) rfl (by decide), writes_sub_of_mem (y := main_c_4) rfl (by decide),
    writes_sub_of_mem (y := main_v33) rfl (by decide), writes_sub_of_mem (y := main_v34) rfl (by decide),
    writes_sub_of_mem (y := main_v35) rfl (by decide), writes_sub_of_mem (y := main_v36) rfl (by decide),
    writes_sub_of_mem (y := main_v37) rfl (by decide), writes_sub_of_mem (y := main_c_5) rfl (by decide),
    writes_sub_of_mem (y := main_v38) rfl (by decide), writes_sub_of_mem (y := main_v39) rfl (by decide),
    writes_sub_of_mem (y := main_c_6) rfl (by decide), writes_sub_of_mem (y := main_v40) rfl (by decide),
    writes_sub_of_mem (y := main_v41) rfl (by decide), writes_sub_of_mem (y := main_v42) rfl (by decide),
    writes_sub_of_mem (y := main_v43) rfl (by decide), writes_sub_of_mem (y := main_v44) rfl (by decide)⟩
/-- A reference stretch 3 does not write keeps its contents through it. -/
theorem val3_keep (V : Valuation τ sig (Elt F)) (r : Ref sig .tc) (h : r ∉ w3_W) :
    val3 V (Proc.devRef .tc r) = val2 V (Proc.devRef .tc r) :=
  after_of_writes_sub w3 _ w3_writes h

/-- The references stretch 4 writes, in order. -/
abbrev w4_W : List (Ref sig .tc) := [main_v45, main_v46, main_v47, main_v48, main_v49, main_call1_v0, main_call1_v1, main_call1_cst, main_call1_v2, main_call1_v3, main_call1_cst_0, main_call1_v4, main_call1_v5, main_v50, main_v51, main_v52, main_v53, main_v54]
theorem w4_writes : (w4 : List (HloOp τ sig (Elt F))).Forall fun op =>
    op.writes ⊆ (w4_W.map (Proc.devRef (τ := τ) .tc)).toFinset :=
  ⟨writes_sub_of_mem (y := main_v45) rfl (by decide), writes_sub_of_mem (y := main_v46) rfl (by decide),
    writes_sub_of_mem (y := main_v47) rfl (by decide), writes_sub_of_mem (y := main_v48) rfl (by decide),
    writes_sub_of_mem (y := main_v49) rfl (by decide), writes_sub_of_mem (y := main_call1_v0) rfl (by decide),
    writes_sub_of_mem (y := main_call1_v1) rfl (by decide), writes_sub_of_mem (y := main_call1_cst) rfl (by decide),
    writes_sub_of_mem (y := main_call1_v2) rfl (by decide), writes_sub_of_mem (y := main_call1_v3) rfl (by decide),
    writes_sub_of_mem (y := main_call1_cst_0) rfl (by decide), writes_sub_of_mem (y := main_call1_v4) rfl (by decide),
    writes_sub_of_mem (y := main_call1_v5) rfl (by decide), writes_sub_of_mem (y := main_v50) rfl (by decide),
    writes_sub_of_mem (y := main_v51) rfl (by decide), writes_sub_of_mem (y := main_v52) rfl (by decide),
    writes_sub_of_mem (y := main_v53) rfl (by decide), writes_sub_of_mem (y := main_v54) rfl (by decide)⟩
/-- A reference stretch 4 does not write keeps its contents through it. -/
theorem val4_keep (V : Valuation τ sig (Elt F)) (r : Ref sig .tc) (h : r ∉ w4_W) :
    val4 V (Proc.devRef .tc r) = val3 V (Proc.devRef .tc r) :=
  after_of_writes_sub w4 _ w4_writes h

/-- The references stretch 5 writes, in order. -/
abbrev w5_W : List (Ref sig .tc) := [main_v55, main_v56, main_cst_7, main_v57, main_v58, main_v59, main_v60, main_v61, main_v62, main_v63, main_v64, main_v65, main_cst_8, main_v66, main_v67, main_v68, main_v69, main_call2_v0, main_call2_cst, main_call2_v1, main_v70]
theorem w5_writes : (w5 : List (HloOp τ sig (Elt F))).Forall fun op =>
    op.writes ⊆ (w5_W.map (Proc.devRef (τ := τ) .tc)).toFinset :=
  ⟨writes_sub_of_mem (y := main_v55) rfl (by decide), writes_sub_of_mem (y := main_v56) rfl (by decide),
    writes_sub_of_mem (y := main_cst_7) rfl (by decide), writes_sub_of_mem (y := main_v57) rfl (by decide),
    writes_sub_of_mem (y := main_v58) rfl (by decide), writes_sub_of_mem (y := main_v59) rfl (by decide),
    writes_sub_of_mem (y := main_v60) rfl (by decide), writes_sub_of_mem (y := main_v61) rfl (by decide),
    writes_sub_of_mem (y := main_v62) rfl (by decide), writes_sub_of_mem (y := main_v63) rfl (by decide),
    writes_sub_of_mem (y := main_v64) rfl (by decide), writes_sub_of_mem (y := main_v65) rfl (by decide),
    writes_sub_of_mem (y := main_cst_8) rfl (by decide), writes_sub_of_mem (y := main_v66) rfl (by decide),
    writes_sub_of_mem (y := main_v67) rfl (by decide), writes_sub_of_mem (y := main_v68) rfl (by decide),
    writes_sub_of_mem (y := main_v69) rfl (by decide), writes_sub_of_mem (y := main_call2_v0) rfl (by decide),
    writes_sub_of_mem (y := main_call2_cst) rfl (by decide), writes_sub_of_mem (y := main_call2_v1) rfl (by decide),
    writes_sub_of_mem (y := main_v70) rfl (by decide)⟩
/-- A reference stretch 5 does not write keeps its contents through it. -/
theorem val5_keep (V : Valuation τ sig (Elt F)) (r : Ref sig .tc) (h : r ∉ w5_W) :
    val5 V (Proc.devRef .tc r) = val4 V (Proc.devRef .tc r) :=
  after_of_writes_sub w5 _ w5_writes h

/-- The references stretch 6 writes, in order. -/
abbrev w6_W : List (Ref sig .tc) := [main_v71, main_v72, main_v73, main_v74, main_v75, main_call3_v0, main_call3_v1, main_call3_cst, main_call3_v2, main_call3_v3, main_call3_cst_0, main_call3_v4, main_call3_v5, main_v76, main_v77, main_v78, main_v79, main_v80, main_v81, main_v82, main_v83, main_v84, main_v85, main_call4_v0, main_call4_v1, main_call4_cst, main_call4_v2, main_call4_v3, main_call4_cst_0, main_call4_v4, main_call4_v5, main_v86, main_v87, main_v88, main_v89, main_v90, main_v91, main_v92, main_cst_9, main_v93, main_v94, main_cst_10, main_v95, main_v96]
theorem w6_writes : (w6 : List (HloOp τ sig (Elt F))).Forall fun op =>
    op.writes ⊆ (w6_W.map (Proc.devRef (τ := τ) .tc)).toFinset :=
  ⟨writes_sub_of_mem (y := main_v71) rfl (by decide), writes_sub_of_mem (y := main_v72) rfl (by decide),
    writes_sub_of_mem (y := main_v73) rfl (by decide), writes_sub_of_mem (y := main_v74) rfl (by decide),
    writes_sub_of_mem (y := main_v75) rfl (by decide), writes_sub_of_mem (y := main_call3_v0) rfl (by decide),
    writes_sub_of_mem (y := main_call3_v1) rfl (by decide), writes_sub_of_mem (y := main_call3_cst) rfl (by decide),
    writes_sub_of_mem (y := main_call3_v2) rfl (by decide), writes_sub_of_mem (y := main_call3_v3) rfl (by decide),
    writes_sub_of_mem (y := main_call3_cst_0) rfl (by decide), writes_sub_of_mem (y := main_call3_v4) rfl (by decide),
    writes_sub_of_mem (y := main_call3_v5) rfl (by decide), writes_sub_of_mem (y := main_v76) rfl (by decide),
    writes_sub_of_mem (y := main_v77) rfl (by decide), writes_sub_of_mem (y := main_v78) rfl (by decide),
    writes_sub_of_mem (y := main_v79) rfl (by decide), writes_sub_of_mem (y := main_v80) rfl (by decide),
    writes_sub_of_mem (y := main_v81) rfl (by decide), writes_sub_of_mem (y := main_v82) rfl (by decide),
    writes_sub_of_mem (y := main_v83) rfl (by decide), writes_sub_of_mem (y := main_v84) rfl (by decide),
    writes_sub_of_mem (y := main_v85) rfl (by decide), writes_sub_of_mem (y := main_call4_v0) rfl (by decide),
    writes_sub_of_mem (y := main_call4_v1) rfl (by decide), writes_sub_of_mem (y := main_call4_cst) rfl (by decide),
    writes_sub_of_mem (y := main_call4_v2) rfl (by decide), writes_sub_of_mem (y := main_call4_v3) rfl (by decide),
    writes_sub_of_mem (y := main_call4_cst_0) rfl (by decide), writes_sub_of_mem (y := main_call4_v4) rfl (by decide),
    writes_sub_of_mem (y := main_call4_v5) rfl (by decide), writes_sub_of_mem (y := main_v86) rfl (by decide),
    writes_sub_of_mem (y := main_v87) rfl (by decide), writes_sub_of_mem (y := main_v88) rfl (by decide),
    writes_sub_of_mem (y := main_v89) rfl (by decide), writes_sub_of_mem (y := main_v90) rfl (by decide),
    writes_sub_of_mem (y := main_v91) rfl (by decide), writes_sub_of_mem (y := main_v92) rfl (by decide),
    writes_sub_of_mem (y := main_cst_9) rfl (by decide), writes_sub_of_mem (y := main_v93) rfl (by decide),
    writes_sub_of_mem (y := main_v94) rfl (by decide), writes_sub_of_mem (y := main_cst_10) rfl (by decide),
    writes_sub_of_mem (y := main_v95) rfl (by decide), writes_sub_of_mem (y := main_v96) rfl (by decide)⟩
/-- A reference stretch 6 does not write keeps its contents through it. -/
theorem val6_keep (V : Valuation τ sig (Elt F)) (r : Ref sig .tc) (h : r ∉ w6_W) :
    val6 V (Proc.devRef .tc r) = val5 V (Proc.devRef .tc r) :=
  after_of_writes_sub w6 _ w6_writes h

/-- The references stretch 7 writes, in order. -/
abbrev w7_W : List (Ref sig .tc) := [main_v97, main_v98, main_v99, main_v100, main_cst_11, main_v101, main_v102, main_cst_12, main_v103, main_v104]
theorem w7_writes : (w7 : List (HloOp τ sig (Elt F))).Forall fun op =>
    op.writes ⊆ (w7_W.map (Proc.devRef (τ := τ) .tc)).toFinset :=
  ⟨writes_sub_of_mem (y := main_v97) rfl (by decide), writes_sub_of_mem (y := main_v98) rfl (by decide),
    writes_sub_of_mem (y := main_v99) rfl (by decide), writes_sub_of_mem (y := main_v100) rfl (by decide),
    writes_sub_of_mem (y := main_cst_11) rfl (by decide), writes_sub_of_mem (y := main_v101) rfl (by decide),
    writes_sub_of_mem (y := main_v102) rfl (by decide), writes_sub_of_mem (y := main_cst_12) rfl (by decide),
    writes_sub_of_mem (y := main_v103) rfl (by decide), writes_sub_of_mem (y := main_v104) rfl (by decide)⟩
/-- A reference stretch 7 does not write keeps its contents through it. -/
theorem val7_keep (V : Valuation τ sig (Elt F)) (r : Ref sig .tc) (h : r ∉ w7_W) :
    val7 V (Proc.devRef .tc r) = val6 V (Proc.devRef .tc r) :=
  after_of_writes_sub w7 _ w7_writes h

/-- The references stretch 8 writes, in order. -/
abbrev w8_W : List (Ref sig .tc) := [main_c_13, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v105]
theorem w8_writes : (w8 : List (HloOp τ sig (Elt F))).Forall fun op =>
    op.writes ⊆ (w8_W.map (Proc.devRef (τ := τ) .tc)).toFinset :=
  ⟨writes_sub_of_mem (y := main_c_13) rfl (by decide), writes_sub_of_mem (y := main_call5_cst) rfl (by decide),
    writes_sub_of_mem (y := main_call5_v0) rfl (by decide), writes_sub_of_mem (y := main_call5_v1) rfl (by decide),
    writes_sub_of_mem (y := main_call5_cst_0) rfl (by decide), writes_sub_of_mem (y := main_call5_v2) rfl (by decide),
    writes_sub_of_mem (y := main_call5_v3) rfl (by decide), writes_sub_of_mem (y := main_call5_v4) rfl (by decide),
    writes_sub_of_mem (y := main_call5_v5) rfl (by decide), writes_sub_of_mem (y := main_call5_v6) rfl (by decide),
    writes_sub_of_mem (y := main_call5_v7) rfl (by decide), writes_sub_of_mem (y := main_call5_cst_1) rfl (by decide),
    writes_sub_of_mem (y := main_call5_v8) rfl (by decide), writes_sub_of_mem (y := main_call5_cst_2) rfl (by decide),
    writes_sub_of_mem (y := main_call5_v9) rfl (by decide), writes_sub_of_mem (y := main_call5_v10) rfl (by decide),
    writes_sub_of_mem (y := main_call5_v11) rfl (by decide), writes_sub_of_mem (y := main_call5_v12) rfl (by decide),
    writes_sub_of_mem (y := main_call5_cst_3) rfl (by decide), writes_sub_of_mem (y := main_call5_v13) rfl (by decide),
    writes_sub_of_mem (y := main_call5_cst_4) rfl (by decide), writes_sub_of_mem (y := main_call5_call0_v0) rfl (by decide),
    writes_sub_of_mem (y := main_call5_call0_v1) rfl (by decide), writes_sub_of_mem (y := main_v105) rfl (by decide)⟩
/-- A reference stretch 8 does not write keeps its contents through it. -/
theorem val8_keep (V : Valuation τ sig (Elt F)) (r : Ref sig .tc) (h : r ∉ w8_W) :
    val8 V (Proc.devRef .tc r) = val7 V (Proc.devRef .tc r) :=
  after_of_writes_sub w8 _ w8_writes h

/-- The references stretch 9 writes, in order. -/
abbrev w9_W : List (Ref sig .tc) := [main_v106, main_v107, main_cst_14, main_v108, main_v109, main_v110, main_v111, main_v112, main_v113, main_v114, main_v115, main_v116, main_v117, main_v118, main_call6_v0, main_call6_v1, main_call6_cst, main_call6_v2, main_call6_v3, main_call6_cst_0, main_call6_v4, main_call6_v5, main_v119]
theorem w9_writes : (w9 : List (HloOp τ sig (Elt F))).Forall fun op =>
    op.writes ⊆ (w9_W.map (Proc.devRef (τ := τ) .tc)).toFinset :=
  ⟨writes_sub_of_mem (y := main_v106) rfl (by decide), writes_sub_of_mem (y := main_v107) rfl (by decide),
    writes_sub_of_mem (y := main_cst_14) rfl (by decide), writes_sub_of_mem (y := main_v108) rfl (by decide),
    writes_sub_of_mem (y := main_v109) rfl (by decide), writes_sub_of_mem (y := main_v110) rfl (by decide),
    writes_sub_of_mem (y := main_v111) rfl (by decide), writes_sub_of_mem (y := main_v112) rfl (by decide),
    writes_sub_of_mem (y := main_v113) rfl (by decide), writes_sub_of_mem (y := main_v114) rfl (by decide),
    writes_sub_of_mem (y := main_v115) rfl (by decide), writes_sub_of_mem (y := main_v116) rfl (by decide),
    writes_sub_of_mem (y := main_v117) rfl (by decide), writes_sub_of_mem (y := main_v118) rfl (by decide),
    writes_sub_of_mem (y := main_call6_v0) rfl (by decide), writes_sub_of_mem (y := main_call6_v1) rfl (by decide),
    writes_sub_of_mem (y := main_call6_cst) rfl (by decide), writes_sub_of_mem (y := main_call6_v2) rfl (by decide),
    writes_sub_of_mem (y := main_call6_v3) rfl (by decide), writes_sub_of_mem (y := main_call6_cst_0) rfl (by decide),
    writes_sub_of_mem (y := main_call6_v4) rfl (by decide), writes_sub_of_mem (y := main_call6_v5) rfl (by decide),
    writes_sub_of_mem (y := main_v119) rfl (by decide)⟩
/-- A reference stretch 9 does not write keeps its contents through it. -/
theorem val9_keep (V : Valuation τ sig (Elt F)) (r : Ref sig .tc) (h : r ∉ w9_W) :
    val9 V (Proc.devRef .tc r) = val8 V (Proc.devRef .tc r) :=
  after_of_writes_sub w9 _ w9_writes h

/-! ## Each key buffer inside its stretch -/

theorem win_v6 (W : Valuation τ sig (Elt F)) :
    after w1 W (Proc.devRef .tc main_v6) = f_v6 (W (Proc.devRef .tc main_arg3)) (W (Proc.devRef .tc main_arg5)) := by
  simp only [w1]
  after_results_simp
  rfl

theorem win_v13 (W : Valuation τ sig (Elt F)) :
    after w1 W (Proc.devRef .tc main_v13) = f_v13 (W (Proc.devRef .tc main_arg3)) (W (Proc.devRef .tc main_arg6)) := by
  simp only [w1]
  after_results_simp
  rfl

theorem win_v23 (W : Valuation τ sig (Elt F)) :
    after w2 W (Proc.devRef .tc main_v23) = f_v23 (W (Proc.devRef .tc main_v6)) (W (Proc.devRef .tc main_v13)) (W (Proc.devRef .tc main_arg7)) (W (Proc.devRef .tc main_arg8)) (W (Proc.devRef .tc main_arg9)) (W (Proc.devRef .tc main_arg10)) (W (Proc.devRef .tc main_arg11)) := by
  simp only [w2]
  after_results_simp
  rfl

theorem win_v26 (W : Valuation τ sig (Elt F)) :
    after w3 W (Proc.devRef .tc main_v26) = f_v26 (W (Proc.devRef .tc main_arg6)) (W (Proc.devRef .tc main_v23)) := by
  simp only [w3]
  after_results_simp
  rfl

theorem win_v30 (W : Valuation τ sig (Elt F)) :
    after w3 W (Proc.devRef .tc main_v30) = f_v30 (W (Proc.devRef .tc main_arg2)) := by
  simp only [w3]
  after_results_simp
  rfl

theorem win_v37 (W : Valuation τ sig (Elt F)) :
    after w3 W (Proc.devRef .tc main_v37) = f_v37 (W (Proc.devRef .tc main_arg0)) (W (Proc.devRef .tc main_arg2)) := by
  simp only [w3]
  after_results_simp
  rfl

theorem win_v44 (W : Valuation τ sig (Elt F)) :
    after w3 W (Proc.devRef .tc main_v44) = f_v44 (W (Proc.devRef .tc main_arg0)) (W (Proc.devRef .tc main_arg2)) := by
  simp only [w3]
  after_results_simp
  rfl

theorem win_v54 (W : Valuation τ sig (Elt F)) :
    after w4 W (Proc.devRef .tc main_v54) = f_v54 (W (Proc.devRef .tc main_v37)) (W (Proc.devRef .tc main_v44)) (W (Proc.devRef .tc main_arg3)) (W (Proc.devRef .tc main_v26)) (W (Proc.devRef .tc main_arg12)) (W (Proc.devRef .tc main_arg13)) (W (Proc.devRef .tc main_arg14)) (W (Proc.devRef .tc main_arg15)) := by
  simp only [w4]
  after_results_simp
  rfl

theorem win_v59 (W : Valuation τ sig (Elt F)) :
    after w5 W (Proc.devRef .tc main_v59) = f_v59 (W (Proc.devRef .tc main_v30)) (W (Proc.devRef .tc main_v54)) := by
  simp only [w5]
  after_results_simp
  rfl

theorem win_v69 (W : Valuation τ sig (Elt F)) :
    after w5 W (Proc.devRef .tc main_v69) = f_v69 (W (Proc.devRef .tc main_v30)) (W (Proc.devRef .tc main_v54)) (W (Proc.devRef .tc main_arg4)) := by
  simp only [w5]
  after_results_simp
  rfl

theorem win_v70 (W : Valuation τ sig (Elt F)) :
    after w5 W (Proc.devRef .tc main_v70) = f_v70 (W (Proc.devRef .tc main_arg1)) := by
  simp only [w5]
  after_results_simp
  rfl

theorem win_v81 (W : Valuation τ sig (Elt F)) :
    after w6 W (Proc.devRef .tc main_v81) = f_v81 (W (Proc.devRef .tc main_arg0)) (W (Proc.devRef .tc main_v59)) (W (Proc.devRef .tc main_v70)) (W (Proc.devRef .tc main_arg16)) (W (Proc.devRef .tc main_arg17)) (W (Proc.devRef .tc main_arg18)) (W (Proc.devRef .tc main_arg19)) := by
  simp only [w6]
  after_results_simp
  rfl

theorem win_v96 (W : Valuation τ sig (Elt F)) :
    after w6 W (Proc.devRef .tc main_v96) = f_v96 (W (Proc.devRef .tc main_arg0)) (W (Proc.devRef .tc main_v59)) (W (Proc.devRef .tc main_v70)) (W (Proc.devRef .tc main_arg20)) (W (Proc.devRef .tc main_arg21)) (W (Proc.devRef .tc main_arg22)) (W (Proc.devRef .tc main_arg23)) := by
  simp only [w6]
  after_results_simp
  rfl

theorem win_v100 (W : Valuation τ sig (Elt F)) :
    after w7 W (Proc.devRef .tc main_v100) = f_v100 (W (Proc.devRef .tc main_arg1)) (W (Proc.devRef .tc main_v96)) (W (Proc.devRef .tc main_v69)) := by
  simp only [w7]
  after_results_simp
  rfl

theorem win_v104 (W : Valuation τ sig (Elt F)) :
    after w7 W (Proc.devRef .tc main_v104) = f_v104 (W (Proc.devRef .tc main_v81)) := by
  simp only [w7]
  after_results_simp
  rfl

theorem win_v105 (W : Valuation τ sig (Elt F)) :
    after w8 W (Proc.devRef .tc main_v105) = f_v105 (W (Proc.devRef .tc main_v81)) := by
  simp only [w8]
  after_results_simp
  rfl

theorem win_v119 (W : Valuation τ sig (Elt F)) :
    after w9 W (Proc.devRef .tc main_v119) = f_v119 (W (Proc.devRef .tc main_v81)) (W (Proc.devRef .tc main_v104)) (W (Proc.devRef .tc main_v105)) (W (Proc.devRef .tc main_arg24)) (W (Proc.devRef .tc main_arg25)) := by
  simp only [w9]
  after_results_simp
  rfl

/-! ## A buffer at the end of the line is the buffer when its stretch ended -/

theorem down_v6_1 (V : Valuation τ sig (Elt F)) : after ops V (Proc.devRef .tc main_v6) = val1 V (Proc.devRef .tc main_v6) :=
  (congrFun (after_ops_vals V) _).trans ((val9_keep V main_v6 (by decide)).trans ((val8_keep V main_v6 (by decide)).trans ((val7_keep V main_v6 (by decide)).trans ((val6_keep V main_v6 (by decide)).trans ((val5_keep V main_v6 (by decide)).trans ((val4_keep V main_v6 (by decide)).trans ((val3_keep V main_v6 (by decide)).trans (val2_keep V main_v6 (by decide)))))))))
theorem down_v13_1 (V : Valuation τ sig (Elt F)) : after ops V (Proc.devRef .tc main_v13) = val1 V (Proc.devRef .tc main_v13) :=
  (congrFun (after_ops_vals V) _).trans ((val9_keep V main_v13 (by decide)).trans ((val8_keep V main_v13 (by decide)).trans ((val7_keep V main_v13 (by decide)).trans ((val6_keep V main_v13 (by decide)).trans ((val5_keep V main_v13 (by decide)).trans ((val4_keep V main_v13 (by decide)).trans ((val3_keep V main_v13 (by decide)).trans (val2_keep V main_v13 (by decide)))))))))
theorem down_v23_2 (V : Valuation τ sig (Elt F)) : after ops V (Proc.devRef .tc main_v23) = val2 V (Proc.devRef .tc main_v23) :=
  (congrFun (after_ops_vals V) _).trans ((val9_keep V main_v23 (by decide)).trans ((val8_keep V main_v23 (by decide)).trans ((val7_keep V main_v23 (by decide)).trans ((val6_keep V main_v23 (by decide)).trans ((val5_keep V main_v23 (by decide)).trans ((val4_keep V main_v23 (by decide)).trans (val3_keep V main_v23 (by decide))))))))
theorem down_v26_3 (V : Valuation τ sig (Elt F)) : after ops V (Proc.devRef .tc main_v26) = val3 V (Proc.devRef .tc main_v26) :=
  (congrFun (after_ops_vals V) _).trans ((val9_keep V main_v26 (by decide)).trans ((val8_keep V main_v26 (by decide)).trans ((val7_keep V main_v26 (by decide)).trans ((val6_keep V main_v26 (by decide)).trans ((val5_keep V main_v26 (by decide)).trans (val4_keep V main_v26 (by decide)))))))
theorem down_v30_3 (V : Valuation τ sig (Elt F)) : after ops V (Proc.devRef .tc main_v30) = val3 V (Proc.devRef .tc main_v30) :=
  (congrFun (after_ops_vals V) _).trans ((val9_keep V main_v30 (by decide)).trans ((val8_keep V main_v30 (by decide)).trans ((val7_keep V main_v30 (by decide)).trans ((val6_keep V main_v30 (by decide)).trans ((val5_keep V main_v30 (by decide)).trans (val4_keep V main_v30 (by decide)))))))
theorem down_v37_3 (V : Valuation τ sig (Elt F)) : after ops V (Proc.devRef .tc main_v37) = val3 V (Proc.devRef .tc main_v37) :=
  (congrFun (after_ops_vals V) _).trans ((val9_keep V main_v37 (by decide)).trans ((val8_keep V main_v37 (by decide)).trans ((val7_keep V main_v37 (by decide)).trans ((val6_keep V main_v37 (by decide)).trans ((val5_keep V main_v37 (by decide)).trans (val4_keep V main_v37 (by decide)))))))
theorem down_v44_3 (V : Valuation τ sig (Elt F)) : after ops V (Proc.devRef .tc main_v44) = val3 V (Proc.devRef .tc main_v44) :=
  (congrFun (after_ops_vals V) _).trans ((val9_keep V main_v44 (by decide)).trans ((val8_keep V main_v44 (by decide)).trans ((val7_keep V main_v44 (by decide)).trans ((val6_keep V main_v44 (by decide)).trans ((val5_keep V main_v44 (by decide)).trans (val4_keep V main_v44 (by decide)))))))
theorem down_v54_4 (V : Valuation τ sig (Elt F)) : after ops V (Proc.devRef .tc main_v54) = val4 V (Proc.devRef .tc main_v54) :=
  (congrFun (after_ops_vals V) _).trans ((val9_keep V main_v54 (by decide)).trans ((val8_keep V main_v54 (by decide)).trans ((val7_keep V main_v54 (by decide)).trans ((val6_keep V main_v54 (by decide)).trans (val5_keep V main_v54 (by decide))))))
theorem down_v59_5 (V : Valuation τ sig (Elt F)) : after ops V (Proc.devRef .tc main_v59) = val5 V (Proc.devRef .tc main_v59) :=
  (congrFun (after_ops_vals V) _).trans ((val9_keep V main_v59 (by decide)).trans ((val8_keep V main_v59 (by decide)).trans ((val7_keep V main_v59 (by decide)).trans (val6_keep V main_v59 (by decide)))))
theorem down_v30_4 (V : Valuation τ sig (Elt F)) : after ops V (Proc.devRef .tc main_v30) = val4 V (Proc.devRef .tc main_v30) :=
  (congrFun (after_ops_vals V) _).trans ((val9_keep V main_v30 (by decide)).trans ((val8_keep V main_v30 (by decide)).trans ((val7_keep V main_v30 (by decide)).trans ((val6_keep V main_v30 (by decide)).trans (val5_keep V main_v30 (by decide))))))
theorem down_v69_5 (V : Valuation τ sig (Elt F)) : after ops V (Proc.devRef .tc main_v69) = val5 V (Proc.devRef .tc main_v69) :=
  (congrFun (after_ops_vals V) _).trans ((val9_keep V main_v69 (by decide)).trans ((val8_keep V main_v69 (by decide)).trans ((val7_keep V main_v69 (by decide)).trans (val6_keep V main_v69 (by decide)))))
theorem down_v70_5 (V : Valuation τ sig (Elt F)) : after ops V (Proc.devRef .tc main_v70) = val5 V (Proc.devRef .tc main_v70) :=
  (congrFun (after_ops_vals V) _).trans ((val9_keep V main_v70 (by decide)).trans ((val8_keep V main_v70 (by decide)).trans ((val7_keep V main_v70 (by decide)).trans (val6_keep V main_v70 (by decide)))))
theorem down_v81_6 (V : Valuation τ sig (Elt F)) : after ops V (Proc.devRef .tc main_v81) = val6 V (Proc.devRef .tc main_v81) :=
  (congrFun (after_ops_vals V) _).trans ((val9_keep V main_v81 (by decide)).trans ((val8_keep V main_v81 (by decide)).trans (val7_keep V main_v81 (by decide))))
theorem down_v96_6 (V : Valuation τ sig (Elt F)) : after ops V (Proc.devRef .tc main_v96) = val6 V (Proc.devRef .tc main_v96) :=
  (congrFun (after_ops_vals V) _).trans ((val9_keep V main_v96 (by decide)).trans ((val8_keep V main_v96 (by decide)).trans (val7_keep V main_v96 (by decide))))
theorem down_v100_7 (V : Valuation τ sig (Elt F)) : after ops V (Proc.devRef .tc main_v100) = val7 V (Proc.devRef .tc main_v100) :=
  (congrFun (after_ops_vals V) _).trans ((val9_keep V main_v100 (by decide)).trans (val8_keep V main_v100 (by decide)))
theorem down_v69_6 (V : Valuation τ sig (Elt F)) : after ops V (Proc.devRef .tc main_v69) = val6 V (Proc.devRef .tc main_v69) :=
  (congrFun (after_ops_vals V) _).trans ((val9_keep V main_v69 (by decide)).trans ((val8_keep V main_v69 (by decide)).trans (val7_keep V main_v69 (by decide))))
theorem down_v104_7 (V : Valuation τ sig (Elt F)) : after ops V (Proc.devRef .tc main_v104) = val7 V (Proc.devRef .tc main_v104) :=
  (congrFun (after_ops_vals V) _).trans ((val9_keep V main_v104 (by decide)).trans (val8_keep V main_v104 (by decide)))
theorem down_v105_8 (V : Valuation τ sig (Elt F)) : after ops V (Proc.devRef .tc main_v105) = val8 V (Proc.devRef .tc main_v105) :=
  (congrFun (after_ops_vals V) _).trans (val9_keep V main_v105 (by decide))
theorem down_v81_7 (V : Valuation τ sig (Elt F)) : after ops V (Proc.devRef .tc main_v81) = val7 V (Proc.devRef .tc main_v81) :=
  (congrFun (after_ops_vals V) _).trans ((val9_keep V main_v81 (by decide)).trans (val8_keep V main_v81 (by decide)))
theorem down_v119_9 (V : Valuation τ sig (Elt F)) : after ops V (Proc.devRef .tc main_v119) = val9 V (Proc.devRef .tc main_v119) :=
  congrFun (after_ops_vals V) _
theorem down_v81_8 (V : Valuation τ sig (Elt F)) : after ops V (Proc.devRef .tc main_v81) = val8 V (Proc.devRef .tc main_v81) :=
  (congrFun (after_ops_vals V) _).trans (val9_keep V main_v81 (by decide))
theorem down_v104_8 (V : Valuation τ sig (Elt F)) : after ops V (Proc.devRef .tc main_v104) = val8 V (Proc.devRef .tc main_v104) :=
  (congrFun (after_ops_vals V) _).trans (val9_keep V main_v104 (by decide))

theorem argval_a7_1 (V : Valuation τ sig (Elt F)) : val1 V (Proc.devRef .tc main_arg7) = V (Proc.devRef .tc main_arg7) :=
  (val1_keep V main_arg7 (by decide))
theorem argval_a8_1 (V : Valuation τ sig (Elt F)) : val1 V (Proc.devRef .tc main_arg8) = V (Proc.devRef .tc main_arg8) :=
  (val1_keep V main_arg8 (by decide))
theorem argval_a9_1 (V : Valuation τ sig (Elt F)) : val1 V (Proc.devRef .tc main_arg9) = V (Proc.devRef .tc main_arg9) :=
  (val1_keep V main_arg9 (by decide))
theorem argval_a10_1 (V : Valuation τ sig (Elt F)) : val1 V (Proc.devRef .tc main_arg10) = V (Proc.devRef .tc main_arg10) :=
  (val1_keep V main_arg10 (by decide))
theorem argval_a11_1 (V : Valuation τ sig (Elt F)) : val1 V (Proc.devRef .tc main_arg11) = V (Proc.devRef .tc main_arg11) :=
  (val1_keep V main_arg11 (by decide))
theorem argval_a6_2 (V : Valuation τ sig (Elt F)) : val2 V (Proc.devRef .tc main_arg6) = V (Proc.devRef .tc main_arg6) :=
  ((val2_keep V main_arg6 (by decide)).trans (val1_keep V main_arg6 (by decide)))
theorem argval_a2_2 (V : Valuation τ sig (Elt F)) : val2 V (Proc.devRef .tc main_arg2) = V (Proc.devRef .tc main_arg2) :=
  ((val2_keep V main_arg2 (by decide)).trans (val1_keep V main_arg2 (by decide)))
theorem argval_a0_2 (V : Valuation τ sig (Elt F)) : val2 V (Proc.devRef .tc main_arg0) = V (Proc.devRef .tc main_arg0) :=
  ((val2_keep V main_arg0 (by decide)).trans (val1_keep V main_arg0 (by decide)))
theorem argval_a3_3 (V : Valuation τ sig (Elt F)) : val3 V (Proc.devRef .tc main_arg3) = V (Proc.devRef .tc main_arg3) :=
  ((val3_keep V main_arg3 (by decide)).trans ((val2_keep V main_arg3 (by decide)).trans (val1_keep V main_arg3 (by decide))))
theorem argval_a12_3 (V : Valuation τ sig (Elt F)) : val3 V (Proc.devRef .tc main_arg12) = V (Proc.devRef .tc main_arg12) :=
  ((val3_keep V main_arg12 (by decide)).trans ((val2_keep V main_arg12 (by decide)).trans (val1_keep V main_arg12 (by decide))))
theorem argval_a13_3 (V : Valuation τ sig (Elt F)) : val3 V (Proc.devRef .tc main_arg13) = V (Proc.devRef .tc main_arg13) :=
  ((val3_keep V main_arg13 (by decide)).trans ((val2_keep V main_arg13 (by decide)).trans (val1_keep V main_arg13 (by decide))))
theorem argval_a14_3 (V : Valuation τ sig (Elt F)) : val3 V (Proc.devRef .tc main_arg14) = V (Proc.devRef .tc main_arg14) :=
  ((val3_keep V main_arg14 (by decide)).trans ((val2_keep V main_arg14 (by decide)).trans (val1_keep V main_arg14 (by decide))))
theorem argval_a15_3 (V : Valuation τ sig (Elt F)) : val3 V (Proc.devRef .tc main_arg15) = V (Proc.devRef .tc main_arg15) :=
  ((val3_keep V main_arg15 (by decide)).trans ((val2_keep V main_arg15 (by decide)).trans (val1_keep V main_arg15 (by decide))))
theorem argval_a4_4 (V : Valuation τ sig (Elt F)) : val4 V (Proc.devRef .tc main_arg4) = V (Proc.devRef .tc main_arg4) :=
  ((val4_keep V main_arg4 (by decide)).trans ((val3_keep V main_arg4 (by decide)).trans ((val2_keep V main_arg4 (by decide)).trans (val1_keep V main_arg4 (by decide)))))
theorem argval_a1_4 (V : Valuation τ sig (Elt F)) : val4 V (Proc.devRef .tc main_arg1) = V (Proc.devRef .tc main_arg1) :=
  ((val4_keep V main_arg1 (by decide)).trans ((val3_keep V main_arg1 (by decide)).trans ((val2_keep V main_arg1 (by decide)).trans (val1_keep V main_arg1 (by decide)))))
theorem argval_a0_5 (V : Valuation τ sig (Elt F)) : val5 V (Proc.devRef .tc main_arg0) = V (Proc.devRef .tc main_arg0) :=
  ((val5_keep V main_arg0 (by decide)).trans ((val4_keep V main_arg0 (by decide)).trans ((val3_keep V main_arg0 (by decide)).trans ((val2_keep V main_arg0 (by decide)).trans (val1_keep V main_arg0 (by decide))))))
theorem argval_a16_5 (V : Valuation τ sig (Elt F)) : val5 V (Proc.devRef .tc main_arg16) = V (Proc.devRef .tc main_arg16) :=
  ((val5_keep V main_arg16 (by decide)).trans ((val4_keep V main_arg16 (by decide)).trans ((val3_keep V main_arg16 (by decide)).trans ((val2_keep V main_arg16 (by decide)).trans (val1_keep V main_arg16 (by decide))))))
theorem argval_a17_5 (V : Valuation τ sig (Elt F)) : val5 V (Proc.devRef .tc main_arg17) = V (Proc.devRef .tc main_arg17) :=
  ((val5_keep V main_arg17 (by decide)).trans ((val4_keep V main_arg17 (by decide)).trans ((val3_keep V main_arg17 (by decide)).trans ((val2_keep V main_arg17 (by decide)).trans (val1_keep V main_arg17 (by decide))))))
theorem argval_a18_5 (V : Valuation τ sig (Elt F)) : val5 V (Proc.devRef .tc main_arg18) = V (Proc.devRef .tc main_arg18) :=
  ((val5_keep V main_arg18 (by decide)).trans ((val4_keep V main_arg18 (by decide)).trans ((val3_keep V main_arg18 (by decide)).trans ((val2_keep V main_arg18 (by decide)).trans (val1_keep V main_arg18 (by decide))))))
theorem argval_a19_5 (V : Valuation τ sig (Elt F)) : val5 V (Proc.devRef .tc main_arg19) = V (Proc.devRef .tc main_arg19) :=
  ((val5_keep V main_arg19 (by decide)).trans ((val4_keep V main_arg19 (by decide)).trans ((val3_keep V main_arg19 (by decide)).trans ((val2_keep V main_arg19 (by decide)).trans (val1_keep V main_arg19 (by decide))))))
theorem argval_a20_5 (V : Valuation τ sig (Elt F)) : val5 V (Proc.devRef .tc main_arg20) = V (Proc.devRef .tc main_arg20) :=
  ((val5_keep V main_arg20 (by decide)).trans ((val4_keep V main_arg20 (by decide)).trans ((val3_keep V main_arg20 (by decide)).trans ((val2_keep V main_arg20 (by decide)).trans (val1_keep V main_arg20 (by decide))))))
theorem argval_a21_5 (V : Valuation τ sig (Elt F)) : val5 V (Proc.devRef .tc main_arg21) = V (Proc.devRef .tc main_arg21) :=
  ((val5_keep V main_arg21 (by decide)).trans ((val4_keep V main_arg21 (by decide)).trans ((val3_keep V main_arg21 (by decide)).trans ((val2_keep V main_arg21 (by decide)).trans (val1_keep V main_arg21 (by decide))))))
theorem argval_a22_5 (V : Valuation τ sig (Elt F)) : val5 V (Proc.devRef .tc main_arg22) = V (Proc.devRef .tc main_arg22) :=
  ((val5_keep V main_arg22 (by decide)).trans ((val4_keep V main_arg22 (by decide)).trans ((val3_keep V main_arg22 (by decide)).trans ((val2_keep V main_arg22 (by decide)).trans (val1_keep V main_arg22 (by decide))))))
theorem argval_a23_5 (V : Valuation τ sig (Elt F)) : val5 V (Proc.devRef .tc main_arg23) = V (Proc.devRef .tc main_arg23) :=
  ((val5_keep V main_arg23 (by decide)).trans ((val4_keep V main_arg23 (by decide)).trans ((val3_keep V main_arg23 (by decide)).trans ((val2_keep V main_arg23 (by decide)).trans (val1_keep V main_arg23 (by decide))))))
theorem argval_a1_6 (V : Valuation τ sig (Elt F)) : val6 V (Proc.devRef .tc main_arg1) = V (Proc.devRef .tc main_arg1) :=
  ((val6_keep V main_arg1 (by decide)).trans ((val5_keep V main_arg1 (by decide)).trans ((val4_keep V main_arg1 (by decide)).trans ((val3_keep V main_arg1 (by decide)).trans ((val2_keep V main_arg1 (by decide)).trans (val1_keep V main_arg1 (by decide)))))))
theorem argval_a24_8 (V : Valuation τ sig (Elt F)) : val8 V (Proc.devRef .tc main_arg24) = V (Proc.devRef .tc main_arg24) :=
  ((val8_keep V main_arg24 (by decide)).trans ((val7_keep V main_arg24 (by decide)).trans ((val6_keep V main_arg24 (by decide)).trans ((val5_keep V main_arg24 (by decide)).trans ((val4_keep V main_arg24 (by decide)).trans ((val3_keep V main_arg24 (by decide)).trans ((val2_keep V main_arg24 (by decide)).trans (val1_keep V main_arg24 (by decide)))))))))
theorem argval_a25_8 (V : Valuation τ sig (Elt F)) : val8 V (Proc.devRef .tc main_arg25) = V (Proc.devRef .tc main_arg25) :=
  ((val8_keep V main_arg25 (by decide)).trans ((val7_keep V main_arg25 (by decide)).trans ((val6_keep V main_arg25 (by decide)).trans ((val5_keep V main_arg25 (by decide)).trans ((val4_keep V main_arg25 (by decide)).trans ((val3_keep V main_arg25 (by decide)).trans ((val2_keep V main_arg25 (by decide)).trans (val1_keep V main_arg25 (by decide)))))))))

/-! ## The stages -/

theorem stage_v6 (V : Valuation τ sig (Elt F)) :
    after ops V (Proc.devRef .tc main_v6) = f_v6 (V (Proc.devRef .tc main_arg3)) (V (Proc.devRef .tc main_arg5)) :=
  (down_v6_1 V).trans (win_v6 V)

theorem stage_v13 (V : Valuation τ sig (Elt F)) :
    after ops V (Proc.devRef .tc main_v13) = f_v13 (V (Proc.devRef .tc main_arg3)) (V (Proc.devRef .tc main_arg6)) :=
  (down_v13_1 V).trans (win_v13 V)

theorem stage_v23 (V : Valuation τ sig (Elt F)) :
    after ops V (Proc.devRef .tc main_v23) = f_v23 (after ops V (Proc.devRef .tc main_v6)) (after ops V (Proc.devRef .tc main_v13)) (V (Proc.devRef .tc main_arg7)) (V (Proc.devRef .tc main_arg8)) (V (Proc.devRef .tc main_arg9)) (V (Proc.devRef .tc main_arg10)) (V (Proc.devRef .tc main_arg11)) :=
  (down_v23_2 V).trans ((win_v23 (val1 V)).trans (by rw [← down_v6_1 V, ← down_v13_1 V, argval_a7_1 V, argval_a8_1 V, argval_a9_1 V, argval_a10_1 V, argval_a11_1 V]))

theorem stage_v26 (V : Valuation τ sig (Elt F)) :
    after ops V (Proc.devRef .tc main_v26) = f_v26 (V (Proc.devRef .tc main_arg6)) (after ops V (Proc.devRef .tc main_v23)) :=
  (down_v26_3 V).trans ((win_v26 (val2 V)).trans (by rw [argval_a6_2 V, ← down_v23_2 V]))

theorem stage_v30 (V : Valuation τ sig (Elt F)) :
    after ops V (Proc.devRef .tc main_v30) = f_v30 (V (Proc.devRef .tc main_arg2)) :=
  (down_v30_3 V).trans ((win_v30 (val2 V)).trans (by rw [argval_a2_2 V]))

theorem stage_v37 (V : Valuation τ sig (Elt F)) :
    after ops V (Proc.devRef .tc main_v37) = f_v37 (V (Proc.devRef .tc main_arg0)) (V (Proc.devRef .tc main_arg2)) :=
  (down_v37_3 V).trans ((win_v37 (val2 V)).trans (by rw [argval_a0_2 V, argval_a2_2 V]))

theorem stage_v44 (V : Valuation τ sig (Elt F)) :
    after ops V (Proc.devRef .tc main_v44) = f_v44 (V (Proc.devRef .tc main_arg0)) (V (Proc.devRef .tc main_arg2)) :=
  (down_v44_3 V).trans ((win_v44 (val2 V)).trans (by rw [argval_a0_2 V, argval_a2_2 V]))

theorem stage_v54 (V : Valuation τ sig (Elt F)) :
    after ops V (Proc.devRef .tc main_v54) = f_v54 (after ops V (Proc.devRef .tc main_v37)) (after ops V (Proc.devRef .tc main_v44)) (V (Proc.devRef .tc main_arg3)) (after ops V (Proc.devRef .tc main_v26)) (V (Proc.devRef .tc main_arg12)) (V (Proc.devRef .tc main_arg13)) (V (Proc.devRef .tc main_arg14)) (V (Proc.devRef .tc main_arg15)) :=
  (down_v54_4 V).trans ((win_v54 (val3 V)).trans (by rw [← down_v37_3 V, ← down_v44_3 V, argval_a3_3 V, ← down_v26_3 V, argval_a12_3 V, argval_a13_3 V, argval_a14_3 V, argval_a15_3 V]))

theorem stage_v59 (V : Valuation τ sig (Elt F)) :
    after ops V (Proc.devRef .tc main_v59) = f_v59 (after ops V (Proc.devRef .tc main_v30)) (after ops V (Proc.devRef .tc main_v54)) :=
  (down_v59_5 V).trans ((win_v59 (val4 V)).trans (by rw [← down_v30_4 V, ← down_v54_4 V]))

theorem stage_v69 (V : Valuation τ sig (Elt F)) :
    after ops V (Proc.devRef .tc main_v69) = f_v69 (after ops V (Proc.devRef .tc main_v30)) (after ops V (Proc.devRef .tc main_v54)) (V (Proc.devRef .tc main_arg4)) :=
  (down_v69_5 V).trans ((win_v69 (val4 V)).trans (by rw [← down_v30_4 V, ← down_v54_4 V, argval_a4_4 V]))

theorem stage_v70 (V : Valuation τ sig (Elt F)) :
    after ops V (Proc.devRef .tc main_v70) = f_v70 (V (Proc.devRef .tc main_arg1)) :=
  (down_v70_5 V).trans ((win_v70 (val4 V)).trans (by rw [argval_a1_4 V]))

theorem stage_v81 (V : Valuation τ sig (Elt F)) :
    after ops V (Proc.devRef .tc main_v81) = f_v81 (V (Proc.devRef .tc main_arg0)) (after ops V (Proc.devRef .tc main_v59)) (after ops V (Proc.devRef .tc main_v70)) (V (Proc.devRef .tc main_arg16)) (V (Proc.devRef .tc main_arg17)) (V (Proc.devRef .tc main_arg18)) (V (Proc.devRef .tc main_arg19)) :=
  (down_v81_6 V).trans ((win_v81 (val5 V)).trans (by rw [argval_a0_5 V, ← down_v59_5 V, ← down_v70_5 V, argval_a16_5 V, argval_a17_5 V, argval_a18_5 V, argval_a19_5 V]))

theorem stage_v96 (V : Valuation τ sig (Elt F)) :
    after ops V (Proc.devRef .tc main_v96) = f_v96 (V (Proc.devRef .tc main_arg0)) (after ops V (Proc.devRef .tc main_v59)) (after ops V (Proc.devRef .tc main_v70)) (V (Proc.devRef .tc main_arg20)) (V (Proc.devRef .tc main_arg21)) (V (Proc.devRef .tc main_arg22)) (V (Proc.devRef .tc main_arg23)) :=
  (down_v96_6 V).trans ((win_v96 (val5 V)).trans (by rw [argval_a0_5 V, ← down_v59_5 V, ← down_v70_5 V, argval_a20_5 V, argval_a21_5 V, argval_a22_5 V, argval_a23_5 V]))

theorem stage_v100 (V : Valuation τ sig (Elt F)) :
    after ops V (Proc.devRef .tc main_v100) = f_v100 (V (Proc.devRef .tc main_arg1)) (after ops V (Proc.devRef .tc main_v96)) (after ops V (Proc.devRef .tc main_v69)) :=
  (down_v100_7 V).trans ((win_v100 (val6 V)).trans (by rw [argval_a1_6 V, ← down_v96_6 V, ← down_v69_6 V]))

theorem stage_v104 (V : Valuation τ sig (Elt F)) :
    after ops V (Proc.devRef .tc main_v104) = f_v104 (after ops V (Proc.devRef .tc main_v81)) :=
  (down_v104_7 V).trans ((win_v104 (val6 V)).trans (by rw [← down_v81_6 V]))

theorem stage_v105 (V : Valuation τ sig (Elt F)) :
    after ops V (Proc.devRef .tc main_v105) = f_v105 (after ops V (Proc.devRef .tc main_v81)) :=
  (down_v105_8 V).trans ((win_v105 (val7 V)).trans (by rw [← down_v81_7 V]))

theorem stage_v119 (V : Valuation τ sig (Elt F)) :
    after ops V (Proc.devRef .tc main_v119) = f_v119 (after ops V (Proc.devRef .tc main_v81)) (after ops V (Proc.devRef .tc main_v104)) (after ops V (Proc.devRef .tc main_v105)) (V (Proc.devRef .tc main_arg24)) (V (Proc.devRef .tc main_arg25)) :=
  (down_v119_9 V).trans ((win_v119 (val8 V)).trans (by rw [← down_v81_8 V, ← down_v104_8 V, ← down_v105_8 V, argval_a24_8 V, argval_a25_8 V]))

end Cert.ReferenceIdeal.Stages

end
-- ==== Proof.LibSumSplit.lean ====
/-
  Regrouping a contraction over a concatenated feature axis.

  A row of a product `cat · W`, where `cat = [a | b | c]` is a concatenation along the feature axis, is
  `∑ k, cat(i,k) * W(k,j)`.  Splitting the index range at the piece boundaries gives the sum of the
  pieces' own products against the matching row blocks of `W`:
  `(∑ k, a(i,k) * W(k,j)) + (∑ k, b(i,k) * W(w₁+k,j)) + (∑ k, c(i,k) * W(w₁+w₂+k,j))`.
  Only associativity and commutativity of addition are used (the extended reals are a commutative
  additive monoid); no distributivity, no finiteness.
-/
import Idealize.ShloMosaic.Lib.Pipeline.Value
import Idealize.ShloMosaic.Lib.ValueIdx
import Idealize.ShloMosaic.PureOps.Ideal.Laws

noncomputable section

open scoped BigOperators

namespace Cert.Spec

open Idealize.ShloMosaic Idealize.ShloMosaic.ValueIdx

/-! ## Sums over `Fin` split at a boundary -/

/-- A sum over `N = m + n` indices is the sum over the first `m` plus the sum over the last `n`. -/
theorem sum_fin_split_at {M : Type*} [AddCommMonoid M] {N : Nat} (m n : Nat) (h : m + n = N) (f : Fin N → M) :
    ∑ k : Fin N, f k
      = (∑ k : Fin m, f ⟨k.val, by have := k.isLt; omega⟩) + ∑ k : Fin n, f ⟨m + k.val, by have := k.isLt; omega⟩ := by
  subst h
  rw [Fin.sum_univ_add]
  rfl

/-- `144 = 64 + 64 + 16`: a sum over 144 indices, grouped as the three consecutive blocks. -/
theorem sum_fin144_split {M : Type*} [AddCommMonoid M] (f : Fin 144 → M) :
    ∑ k : Fin 144, f k
      = ((∑ k : Fin 64, f ⟨k.val, by have := k.isLt; omega⟩)
          + ∑ k : Fin 64, f ⟨64 + k.val, by have := k.isLt; omega⟩)
        + ∑ k : Fin 16, f ⟨128 + k.val, by have := k.isLt; omega⟩ := by
  rw [sum_fin_split_at 128 16 rfl f,
    sum_fin_split_at 64 64 rfl (fun k : Fin 128 => f ⟨k.val, by have := k.isLt; omega⟩)]

/-- `192 = 64 + 64 + 64`. -/
theorem sum_fin192_split {M : Type*} [AddCommMonoid M] (f : Fin 192 → M) :
    ∑ k : Fin 192, f k
      = ((∑ k : Fin 64, f ⟨k.val, by have := k.isLt; omega⟩)
          + ∑ k : Fin 64, f ⟨64 + k.val, by have := k.isLt; omega⟩)
        + ∑ k : Fin 64, f ⟨128 + k.val, by have := k.isLt; omega⟩ := by
  rw [sum_fin_split_at 128 64 rfl f,
    sum_fin_split_at 64 64 rfl (fun k : Fin 128 => f ⟨k.val, by have := k.isLt; omega⟩)]

/-- `256 = 64 + 64 + 64 + 64`. -/
theorem sum_fin256_split {M : Type*} [AddCommMonoid M] (f : Fin 256 → M) :
    ∑ k : Fin 256, f k
      = (((∑ k : Fin 64, f ⟨k.val, by have := k.isLt; omega⟩)
          + ∑ k : Fin 64, f ⟨64 + k.val, by have := k.isLt; omega⟩)
          + ∑ k : Fin 64, f ⟨128 + k.val, by have := k.isLt; omega⟩)
        + ∑ k : Fin 64, f ⟨192 + k.val, by have := k.isLt; omega⟩ := by
  rw [sum_fin_split_at 192 64 rfl f,
    sum_fin_split_at 128 64 rfl (fun k : Fin 192 => f ⟨k.val, by have := k.isLt; omega⟩),
    sum_fin_split_at 64 64 rfl (fun k : Fin 128 => f ⟨k.val, by have := k.isLt; omega⟩)]

/-! ## A concatenation along the feature axis of a two-axis array, read at an index -/

section Concat
variable {α : Type}

/-- Piece `p` of a concatenation along axis 1 of `[R, K]`, of width `w` and starting at column `pre` (the widths of the
    pieces before it), read at row `i` and column `c = pre + k`: the piece itself at `(i, k)`. -/
theorem concatenate_cols_apply {R K w : Nat} (xs : List ((s : Shape) × (s.Idx → α)))
    (h : Shape.Concatenates (xs.map (·.1)) ⟨2, ![R, K]⟩ 1)
    (p : Nat) (hp : p < xs.length) (x : (⟨2, ![R, w]⟩ : Shape).Idx → α) (hx : xs[p] = ⟨⟨2, ![R, w]⟩, x⟩)
    (pre : Nat)
    (hpre : (((xs.take p).map (·.1)).map fun s : Shape =>
        if h : s.rank = (⟨2, ![R, K]⟩ : Shape).rank then s.size ((1 : Fin 2).cast h.symm) else 0).sum = pre)
    (i : Fin R) (k : Fin w) (c : Fin K) (hc : pre + k.val = c.val) :
    concatenate ⟨2, ![R, K]⟩ 1 xs h (ix2 i c) = x (ix2 i k) :=
  concatenate_apply_piece (1 : Fin 2) xs h (ix2 i c) p hp ⟨2, ![R, w]⟩ x hx rfl pre hpre (ix2 i k)
    (fun b hb => match b, hb with
      | ⟨0, _⟩, _ => rfl
      | ⟨1, _⟩, hb => absurd rfl hb)
    hc

end Concat

/-! ## A contraction over a concatenated feature axis is the sum of the pieces' contractions

`W` is the second factor as a function of the contraction index alone (a column of the weight matrix); a caller
instantiates it with `fun k => w (ix2 k j)`. The right-hand sides are associated as a left-to-right chain of additions. -/

section Contraction

/-- Pieces of widths 64, 64, 16 (`K = 144`):
    `∑ k<144, [a|b|c](i,k) * W k = ((∑ k<64, a(i,k) * W k) + (∑ k<64, b(i,k) * W (64+k))) + ∑ k<16, c(i,k) * W (128+k)`. -/
theorem sum_concat_64_64_16 {R : Nat}
    (a b : (⟨2, ![R, 64]⟩ : Shape).Idx → EReal) (c : (⟨2, ![R, 16]⟩ : Shape).Idx → EReal)
    (h : Shape.Concatenates [⟨2, ![R, 64]⟩, ⟨2, ![R, 64]⟩, ⟨2, ![R, 16]⟩] ⟨2, ![R, 144]⟩ 1)
    (W : Fin 144 → EReal) (i : Fin R) :
    ∑ k : Fin 144,
        concatenate ⟨2, ![R, 144]⟩ 1 [⟨⟨2, ![R, 64]⟩, a⟩, ⟨⟨2, ![R, 64]⟩, b⟩, ⟨⟨2, ![R, 16]⟩, c⟩] h (ix2 i k) * W k
      = ((∑ k : Fin 64, a (ix2 i k) * W ⟨k.val, by have := k.isLt; omega⟩)
          + ∑ k : Fin 64, b (ix2 i k) * W ⟨64 + k.val, by have := k.isLt; omega⟩)
        + ∑ k : Fin 16, c (ix2 i k) * W ⟨128 + k.val, by have := k.isLt; omega⟩ := by
  rw [sum_fin144_split]
  refine congrArg₂ (· + ·) (congrArg₂ (· + ·) ?_ ?_) ?_
  · refine Finset.sum_congr rfl fun k _ => ?_
    rw [concatenate_cols_apply [⟨⟨2, ![R, 64]⟩, a⟩, ⟨⟨2, ![R, 64]⟩, b⟩, ⟨⟨2, ![R, 16]⟩, c⟩] h 0 (by simp) a rfl 0 rfl i k _ (Nat.zero_add _)]
  · refine Finset.sum_congr rfl fun k _ => ?_
    rw [concatenate_cols_apply [⟨⟨2, ![R, 64]⟩, a⟩, ⟨⟨2, ![R, 64]⟩, b⟩, ⟨⟨2, ![R, 16]⟩, c⟩] h 1 (by simp) b rfl 64 rfl i k _ rfl]
  · refine Finset.sum_congr rfl fun k _ => ?_
    rw [concatenate_cols_apply [⟨⟨2, ![R, 64]⟩, a⟩, ⟨⟨2, ![R, 64]⟩, b⟩, ⟨⟨2, ![R, 16]⟩, c⟩] h 2 (by simp) c rfl 128 rfl i k _ rfl]

/-- Three pieces of width 64 (`K = 192`). -/
theorem sum_concat_64_64_64 {R : Nat}
    (a b c : (⟨2, ![R, 64]⟩ : Shape).Idx → EReal)
    (h : Shape.Concatenates [⟨2, ![R, 64]⟩, ⟨2, ![R, 64]⟩, ⟨2, ![R, 64]⟩] ⟨2, ![R, 192]⟩ 1)
    (W : Fin 192 → EReal) (i : Fin R) :
    ∑ k : Fin 192,
        concatenate ⟨2, ![R, 192]⟩ 1 [⟨⟨2, ![R, 64]⟩, a⟩, ⟨⟨2, ![R, 64]⟩, b⟩, ⟨⟨2, ![R, 64]⟩, c⟩] h (ix2 i k) * W k
      = ((∑ k : Fin 64, a (ix2 i k) * W ⟨k.val, by have := k.isLt; omega⟩)
          + ∑ k : Fin 64, b (ix2 i k) * W ⟨64 + k.val, by have := k.isLt; omega⟩)
        + ∑ k : Fin 64, c (ix2 i k) * W ⟨128 + k.val, by have := k.isLt; omega⟩ := by
  rw [sum_fin192_split]
  refine congrArg₂ (· + ·) (congrArg₂ (· + ·) ?_ ?_) ?_
  · refine Finset.sum_congr rfl fun k _ => ?_
    rw [concatenate_cols_apply [⟨⟨2, ![R, 64]⟩, a⟩, ⟨⟨2, ![R, 64]⟩, b⟩, ⟨⟨2, ![R, 64]⟩, c⟩] h 0 (by simp) a rfl 0 rfl i k _ (Nat.zero_add _)]
  · refine Finset.sum_congr rfl fun k _ => ?_
    rw [concatenate_cols_apply [⟨⟨2, ![R, 64]⟩, a⟩, ⟨⟨2, ![R, 64]⟩, b⟩, ⟨⟨2, ![R, 64]⟩, c⟩] h 1 (by simp) b rfl 64 rfl i k _ rfl]
  · refine Finset.sum_congr rfl fun k _ => ?_
    rw [concatenate_cols_apply [⟨⟨2, ![R, 64]⟩, a⟩, ⟨⟨2, ![R, 64]⟩, b⟩, ⟨⟨2, ![R, 64]⟩, c⟩] h 2 (by simp) c rfl 128 rfl i k _ rfl]

/-- Four pieces of width 64 (`K = 256`). -/
theorem sum_concat_64_64_64_64 {R : Nat}
    (a b c d : (⟨2, ![R, 64]⟩ : Shape).Idx → EReal)
    (h : Shape.Concatenates [⟨2, ![R, 64]⟩, ⟨2, ![R, 64]⟩, ⟨2, ![R, 64]⟩, ⟨2, ![R, 64]⟩] ⟨2, ![R, 256]⟩ 1)
    (W : Fin 256 → EReal) (i : Fin R) :
    ∑ k : Fin 256,
        concatenate ⟨2, ![R, 256]⟩ 1
          [⟨⟨2, ![R, 64]⟩, a⟩, ⟨⟨2, ![R, 64]⟩, b⟩, ⟨⟨2, ![R, 64]⟩, c⟩, ⟨⟨2, ![R, 64]⟩, d⟩] h (ix2 i k) * W k
      = (((∑ k : Fin 64, a (ix2 i k) * W ⟨k.val, by have := k.isLt; omega⟩)
          + ∑ k : Fin 64, b (ix2 i k) * W ⟨64 + k.val, by have := k.isLt; omega⟩)
          + ∑ k : Fin 64, c (ix2 i k) * W ⟨128 + k.val, by have := k.isLt; omega⟩)
        + ∑ k : Fin 64, d (ix2 i k) * W ⟨192 + k.val, by have := k.isLt; omega⟩ := by
  rw [sum_fin256_split]
  refine congrArg₂ (· + ·) (congrArg₂ (· + ·) (congrArg₂ (· + ·) ?_ ?_) ?_) ?_
  · refine Finset.sum_congr rfl fun k _ => ?_
    rw [concatenate_cols_apply [⟨⟨2, ![R, 64]⟩, a⟩, ⟨⟨2, ![R, 64]⟩, b⟩, ⟨⟨2, ![R, 64]⟩, c⟩, ⟨⟨2, ![R, 64]⟩, d⟩] h 0 (by simp) a rfl 0 rfl i k _ (Nat.zero_add _)]
  · refine Finset.sum_congr rfl fun k _ => ?_
    rw [concatenate_cols_apply [⟨⟨2, ![R, 64]⟩, a⟩, ⟨⟨2, ![R, 64]⟩, b⟩, ⟨⟨2, ![R, 64]⟩, c⟩, ⟨⟨2, ![R, 64]⟩, d⟩] h 1 (by simp) b rfl 64 rfl i k _ rfl]
  · refine Finset.sum_congr rfl fun k _ => ?_
    rw [concatenate_cols_apply [⟨⟨2, ![R, 64]⟩, a⟩, ⟨⟨2, ![R, 64]⟩, b⟩, ⟨⟨2, ![R, 64]⟩, c⟩, ⟨⟨2, ![R, 64]⟩, d⟩] h 2 (by simp) c rfl 128 rfl i k _ rfl]
  · refine Finset.sum_congr rfl fun k _ => ?_
    rw [concatenate_cols_apply [⟨⟨2, ![R, 64]⟩, a⟩, ⟨⟨2, ![R, 64]⟩, b⟩, ⟨⟨2, ![R, 64]⟩, c⟩, ⟨⟨2, ![R, 64]⟩, d⟩] h 3 (by simp) d rfl 192 rfl i k _ rfl]

end Contraction

end Cert.Spec

end
-- ==== Proof.RefTriplet.lean ====
import proofs.«166758_j50929722196748_2_alg».proof.ReferenceIdeal
import proofs.«166758_j50929722196748_2_alg».proof.Proof.RefStages
import proofs.«166758_j50929722196748_2_alg».proof.Proof.SpecArr
import proofs.«166758_j50929722196748_2_alg».proof.Proof.LibSumSplit
import proofs.«166758_j50929722196748_2_alg».proof.Proof.LibScatterRead
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-! # The reference's triplet stage, read at an index

The reference concatenates the two gathered feature arrays and the angle features along the feature axis
([800000, 64 + 64 + 16]), multiplies by the first weight matrix [144, 64], adds the first bias, applies
x ↦ x · 1/(1 + e^{-x}), multiplies by the second weight matrix and adds the second bias. At the ideal values a product
read at (r, j) is the sum over the contracted coordinate; the sum over the 144 concatenated columns is the three
pieces' sums against the three row blocks of the weight matrix; a bias broadcast down the rows reads its entry j; and
the program's spelling 1 / (1 + e^{-x}), with its ones broadcast from the f32 word of 1, is 1/(1 + e^{-x}). So the stage
at (r, j) is the triplet message `Cert.Spec.tMsg` of row r (`refTriplet_apply`).

Fed by the two row gathers of the feature array at nonnegative indices (each gather is the rows at the indices), it is
the array-level `Cert.Spec.tripletMsg` of the arguments; and the accumulating scatter of its rows onto zeros by an
index column is the segment sum, so the next stage is `Cert.Spec.angleAgg`. -/

noncomputable section

namespace Cert.ReferenceIdeal.Triplet

open Cert.ReferenceIdeal Cert.ReferenceIdeal.Gen Cert.ReferenceIdeal.Stages
open Idealize.ShloMosaic Idealize.ShloMosaic.TcCoe Idealize.ShloMosaic.ValueIdx
open scoped BigOperators

/-! ## The two products, the bias broadcast and x · 1/(1 + e^{-x}), each read at an index -/

/-- The host's product of a 800000×144 by a 144×64 matrix, read at (a, b): ∑_c A(a,c) · B(c,b). -/
theorem dg144_apply {φ₁ φ₂ : FTy} (A : FVec Ideal S800000x144 φ₁) (B : FVec Ideal S144x64 φ₂) (a : Fin 800000) (b : Fin 64) :
    Host.dotGeneral dot_S800000x144_S144x64_S800000x64_1_0_0_1_n_n none A B (ix2 a b) = ∑ c : Fin 144, A (ix2 a c) * B (ix2 c b) := by
  show FloatOps.dotGeneral _ none _ A B (ix2 a b) = _
  rw [Ideal.dotGeneral_apply, ← Equiv.sum_comp (contrEquiv1 dot_S800000x144_S144x64_S800000x64_1_0_0_1_n_n 144 rfl rfl).symm]
  refine Finset.sum_congr rfl fun c _ => ?_
  have c2 := contrEquiv1_symm_val dot_S800000x144_S144x64_S800000x64_1_0_0_1_n_n 144 rfl rfl c
  have l2 : dot_S800000x144_S144x64_S800000x64_1_0_0_1_n_n.lhsIdx (ix2 a b) ((contrEquiv1 _ 144 rfl rfl).symm c) = ix2 a c := by
    funext ax; apply Fin.ext
    match ax with
    | ⟨0, _⟩ => simp [DotDims.lhsIdx, dot_S800000x144_S144x64_S800000x64_1_0_0_1_n_n]; rfl
    | ⟨1, _⟩ => simp [DotDims.lhsIdx, dot_S800000x144_S144x64_S800000x64_1_0_0_1_n_n]; exact c2
  have r2 : dot_S800000x144_S144x64_S800000x64_1_0_0_1_n_n.rhsIdx (ix2 a b) ((contrEquiv1 _ 144 rfl rfl).symm c) = ix2 c b := by
    funext ax; apply Fin.ext
    match ax with
    | ⟨0, _⟩ => simp [DotDims.rhsIdx, dot_S800000x144_S144x64_S800000x64_1_0_0_1_n_n]; exact c2
    | ⟨1, _⟩ => simp [DotDims.rhsIdx, dot_S800000x144_S144x64_S800000x64_1_0_0_1_n_n]; rfl
  rw [l2, r2]

/-- The host's product of a 800000×64 by a 64×64 matrix, read at (a, b): ∑_c A(a,c) · B(c,b). -/
theorem dg64_apply {φ₁ φ₂ : FTy} (A : FVec Ideal S800000x64 φ₁) (B : FVec Ideal S64x64 φ₂) (a : Fin 800000) (b : Fin 64) :
    Host.dotGeneral dot_S800000x64_S64x64_S800000x64_1_0_0_1_n_n none A B (ix2 a b) = ∑ c : Fin 64, A (ix2 a c) * B (ix2 c b) := by
  show FloatOps.dotGeneral _ none _ A B (ix2 a b) = _
  rw [Ideal.dotGeneral_apply, ← Equiv.sum_comp (contrEquiv1 dot_S800000x64_S64x64_S800000x64_1_0_0_1_n_n 64 rfl rfl).symm]
  refine Finset.sum_congr rfl fun c _ => ?_
  have c2 := contrEquiv1_symm_val dot_S800000x64_S64x64_S800000x64_1_0_0_1_n_n 64 rfl rfl c
  have l2 : dot_S800000x64_S64x64_S800000x64_1_0_0_1_n_n.lhsIdx (ix2 a b) ((contrEquiv1 _ 64 rfl rfl).symm c) = ix2 a c := by
    funext ax; apply Fin.ext
    match ax with
    | ⟨0, _⟩ => simp [DotDims.lhsIdx, dot_S800000x64_S64x64_S800000x64_1_0_0_1_n_n]; rfl
    | ⟨1, _⟩ => simp [DotDims.lhsIdx, dot_S800000x64_S64x64_S800000x64_1_0_0_1_n_n]; exact c2
  have r2 : dot_S800000x64_S64x64_S800000x64_1_0_0_1_n_n.rhsIdx (ix2 a b) ((contrEquiv1 _ 64 rfl rfl).symm c) = ix2 c b := by
    funext ax; apply Fin.ext
    match ax with
    | ⟨0, _⟩ => simp [DotDims.rhsIdx, dot_S800000x64_S64x64_S800000x64_1_0_0_1_n_n]; exact c2
    | ⟨1, _⟩ => simp [DotDims.rhsIdx, dot_S800000x64_S64x64_S800000x64_1_0_0_1_n_n]; rfl
  rw [l2, r2]

/-- A vector of 64 laid as one row and that row repeated down 800000 rows reads, at (r, j), entry j of the vector. -/
theorem bias_apply (b : (⟨S64, .f32⟩ : BufTy).Contents (Elt Ideal)) (r : Fin 800000) (j : Fin 64) :
    broadcastInDim S800000x64 ![0, 1] bcast_S1x64_S800000x64_0_1 (broadcastInDim S1x64 ![1] bcast_S64_S1x64_1 b) (ix2 r j)
      = Cert.Spec.asRow b (ix2 0 j) := by
  rw [broadcastInDim_apply _ _ _ (ix2 r j) (ix2 (0 : Fin 1) j) (fun a => match a with | ⟨0, _⟩ => rfl | ⟨1, _⟩ => rfl),
    broadcastInDim_apply _ _ _ (ix2 (0 : Fin 1) j) (ix1 j) (fun a => match a with | ⟨0, _⟩ => rfl)]
  rfl

/-- The program's x · (1 / (1 + e^{-x})), with its two ones broadcast from the f32 word of 1, is x · 1/(1 + e^{-x}) at
    every element. -/
theorem siluE_apply (x : (⟨S800000x64, .f32⟩ : BufTy).Contents (Elt Ideal)) (i : S800000x64.Idx) :
    siluE (F := Ideal) x i = Cert.Spec.swish (x i) := by
  unfold siluE sigmE
  show x i * Ideal.div (broadcastInDim S800000x64 ![] bcast_S_S800000x64 (constant (F := Ideal) S_ .f32 0x3F800000#32) i)
      (broadcastInDim S800000x64 ![] bcast_S_S800000x64 (constant (F := Ideal) S_ .f32 0x3F800000#32) i + Ideal.exp (-(x i))) = _
  rw [broadcastInDim_scalar_apply, constant_apply, Ideal.ofBits_one_f32]
  rfl

/-! ## The triplet stage at an index -/

/-- THE REFERENCE'S TRIPLET STAGE AT (r, j): the triplet message of row r. The contraction over the 144 concatenated
    columns is the three pieces' sums against the three row blocks of the first weight matrix. -/
theorem refTriplet_apply (x6 x13 : (⟨S800000x64, .f32⟩ : BufTy).Contents (Elt Ideal)) (a7 : (⟨S800000x16, .f32⟩ : BufTy).Contents (Elt Ideal)) (a8 : (⟨S144x64, .f32⟩ : BufTy).Contents (Elt Ideal)) (a9 : (⟨S64, .f32⟩ : BufTy).Contents (Elt Ideal))
    (a10 : (⟨S64x64, .f32⟩ : BufTy).Contents (Elt Ideal)) (a11 : (⟨S64, .f32⟩ : BufTy).Contents (Elt Ideal)) (r : Fin 800000) (j : Fin 64) :
    f_v23 (F := Ideal) x6 x13 a7 a8 a9 a10 a11 (ix2 r j)
      = Cert.Spec.tMsg x6 x13 a7 (Cert.Spec.rowBlock a8 0 64 (by omega)) (Cert.Spec.rowBlock a8 64 64 (by omega)) (Cert.Spec.rowBlock a8 128 16 (by omega))
          (Cert.Spec.asRow a9) a10 (Cert.Spec.asRow a11) r j := by
  unfold f_v23
  rw [addf_apply, bias_apply, dg64_apply]
  unfold Cert.Spec.tMsg Cert.Spec.outLayer
  congr 1
  refine Finset.sum_congr rfl fun k _ => ?_
  rw [siluE_apply]
  congr 2
  rw [addf_apply, bias_apply, dg144_apply]
  unfold Cert.Spec.tHid Cert.Spec.rowDot
  congr 1
  refine (Cert.Spec.sum_concat_64_64_16 x6 x13 a7 _ (fun c => a8 (ix2 c k)) r).trans ?_
  unfold Cert.Spec.rowBlock
  simp only [Nat.zero_add]

/-! ## Fed by the gathers -/

/-- The first gather of the feature array, at nonnegative indices, is the rows at those indices. -/
theorem f_v6_eq (a3 : (⟨S800000x64, .f32⟩ : BufTy).Contents (Elt Ideal)) (a5 : (⟨S800000, .i32⟩ : BufTy).Contents (Elt Ideal)) (h5 : ∀ i, 0 ≤ (a5 i).toInt) :
    f_v6 (F := Ideal) a3 a5 = Cert.TakeRows.rows Cert.TakeRows.pos_800000 a3 a5 := by
  unfold f_v6 wrapE
  exact Cert.TakeRows.take_clip_800000 (F := Ideal) bcast_S_S800000 bcast_S800000_S800000x1_0 gather_S800000x64_S800000x1_S800000x64_1_0_n_n_0_1_164 ⟨rfl, rfl, rfl, rfl, rfl, rfl, rfl⟩ a3 a5 h5

/-- The second gather likewise. -/
theorem f_v13_eq (a3 : (⟨S800000x64, .f32⟩ : BufTy).Contents (Elt Ideal)) (a6 : (⟨S800000, .i32⟩ : BufTy).Contents (Elt Ideal)) (h6 : ∀ i, 0 ≤ (a6 i).toInt) :
    f_v13 (F := Ideal) a3 a6 = Cert.TakeRows.rows Cert.TakeRows.pos_800000 a3 a6 := by
  unfold f_v13 wrapE
  exact Cert.TakeRows.take_clip_800000 (F := Ideal) bcast_S_S800000 bcast_S800000_S800000x1_0 gather_S800000x64_S800000x1_S800000x64_1_0_n_n_0_1_164 ⟨rfl, rfl, rfl, rfl, rfl, rfl, rfl⟩ a3 a6 h6

/-- THE TRIPLET MESSAGES OF THE ARGUMENTS: the stage fed by the two gathers is the array of triplet messages. -/
theorem f_v23_gathers (a3 : (⟨S800000x64, .f32⟩ : BufTy).Contents (Elt Ideal)) (a5 a6 : (⟨S800000, .i32⟩ : BufTy).Contents (Elt Ideal)) (a7 : (⟨S800000x16, .f32⟩ : BufTy).Contents (Elt Ideal)) (a8 : (⟨S144x64, .f32⟩ : BufTy).Contents (Elt Ideal)) (a9 : (⟨S64, .f32⟩ : BufTy).Contents (Elt Ideal))
    (a10 : (⟨S64x64, .f32⟩ : BufTy).Contents (Elt Ideal)) (a11 : (⟨S64, .f32⟩ : BufTy).Contents (Elt Ideal)) (h5 : ∀ i, 0 ≤ (a5 i).toInt) (h6 : ∀ i, 0 ≤ (a6 i).toInt) :
    f_v23 (F := Ideal) (f_v6 a3 a5) (f_v13 a3 a6) a7 a8 a9 a10 a11 = Cert.Spec.tripletMsg a3 a5 a6 a7 a8 a9 a10 a11 := by
  rw [f_v6_eq a3 a5 h5, f_v13_eq a3 a6 h6]
  funext i
  obtain ⟨r, j, rfl⟩ : ∃ (r : Fin 800000) (j : Fin 64), i = ix2 r j := ⟨i 0, i 1, eq_ix2 i⟩
  rw [refTriplet_apply]
  rfl

/-! ## Summed into the edges -/

/-- The accumulating scatter of the rows of `u` onto zeros by the index column of `a6` is the segment sum of `u` by `a6`:
    row n of the result is the sum of the rows e of `u` with `a6 e = n`. -/
theorem f_v26_eq (a6 : (⟨S800000, .i32⟩ : BufTy).Contents (Elt Ideal)) (u : (⟨S800000x64, .f32⟩ : BufTy).Contents (Elt Ideal)) :
    f_v26 (F := Ideal) a6 u = Cert.Spec.segSum (N := 800000) a6 u := by
  funext i
  obtain ⟨n, c, rfl⟩ : ∃ (n : Fin 800000) (c : Fin 64), i = ix2 n c := ⟨i 0, i 1, eq_ix2 i⟩
  unfold f_v26
  show Host.scatterAdd (Cert.Spec.rowScatter 800000 800000 64 scatter_S800000x64_S800000x1_S800000x64_1_0_0_1_wf) _ _ _ (ix2 n c) = _
  rw [Cert.Spec.scatterAdd_rowScatter_apply, broadcastInDim_scalar_apply, constant_apply, Ideal.ofBits_zero_f32, zero_add]
  unfold Cert.Spec.segSum
  refine Finset.sum_congr (Finset.filter_congr fun e _ => ?_) (fun e _ => rfl)
  rw [Cert.TakeRows.col_apply]

/-- THE TRIPLET MESSAGES SUMMED INTO THE EDGES, of the arguments. -/
theorem f_v26_gathers (a3 : (⟨S800000x64, .f32⟩ : BufTy).Contents (Elt Ideal)) (a5 a6 : (⟨S800000, .i32⟩ : BufTy).Contents (Elt Ideal)) (a7 : (⟨S800000x16, .f32⟩ : BufTy).Contents (Elt Ideal)) (a8 : (⟨S144x64, .f32⟩ : BufTy).Contents (Elt Ideal)) (a9 : (⟨S64, .f32⟩ : BufTy).Contents (Elt Ideal))
    (a10 : (⟨S64x64, .f32⟩ : BufTy).Contents (Elt Ideal)) (a11 : (⟨S64, .f32⟩ : BufTy).Contents (Elt Ideal)) (h5 : ∀ i, 0 ≤ (a5 i).toInt) (h6 : ∀ i, 0 ≤ (a6 i).toInt) :
    f_v26 (F := Ideal) a6 (f_v23 (f_v6 a3 a5) (f_v13 a3 a6) a7 a8 a9 a10 a11) = Cert.Spec.angleAgg a3 a5 a6 a7 a8 a9 a10 a11 := by
  rw [f_v26_eq, f_v23_gathers a3 a5 a6 a7 a8 a9 a10 a11 h5 h6]
  rfl

end Cert.ReferenceIdeal.Triplet

end
-- ==== Proof.RefEdge.lean ====
/- The reference's edge stage read at an index, at the ideal values: the first dense layer over the four concatenated
   row pieces is the sum of the four pieces' products with the matching row blocks of the weight matrix, the bias
   broadcast from a vector, x ↦ x · 1/(1 + e^{-x}) spelt as a quotient, the second dense layer; then the two column
   halves of the message and the coefficient-times-direction product laid out as 192 columns, column 3h + c. -/
import proofs.«166758_j50929722196748_2_alg».proof.ReferenceIdeal
import proofs.«166758_j50929722196748_2_alg».proof.Proof.Gen.ReferenceIdeal
import proofs.«166758_j50929722196748_2_alg».proof.Proof.RefStages
import proofs.«166758_j50929722196748_2_alg».proof.Proof.SpecArr
import proofs.«166758_j50929722196748_2_alg».proof.Proof.LibSumSplit
import proofs.«166758_j50929722196748_2_alg».proof.Proof.LibScatterRead
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.ReferenceIdeal.Edge

open Cert.ReferenceIdeal Cert.ReferenceIdeal.Gen Idealize.ShloMosaic Idealize.ShloMosaic.ValueIdx Cert.Spec

section Terms
variable {F : FTy → Type} [FloatOps F]

/-- x ↦ x · 1/(1 + e^{-x}) on an edge-shaped array, as the program spells it: x times the broadcast one divided by the
    broadcast one plus the exponential of the negation. -/
def silu (x : (⟨S800000x64, .f32⟩ : BufTy).Contents (Elt F)) : (⟨S800000x64, .f32⟩ : BufTy).Contents (Elt F) :=
  (mulf x (Host.divf (broadcastInDim S800000x64 ![] bcast_S_S800000x64 (constant S_ .f32 0x3F800000#32 : (⟨S_, .f32⟩ : BufTy).Contents (Elt F))) (addf (broadcastInDim S800000x64 ![] bcast_S_S800000x64 (constant S_ .f32 0x3F800000#32 : (⟨S_, .f32⟩ : BufTy).Contents (Elt F))) (Host.exp (Host.negf x)))))

/-- The first dense layer before the nonlinearity: the four row pieces side by side times the [256,64] weights, plus the bias. -/
def refHid (v37 v44 a3 v26 : (⟨S800000x64, .f32⟩ : BufTy).Contents (Elt F)) (a12 : (⟨S256x64, .f32⟩ : BufTy).Contents (Elt F)) (a13 : (⟨S64, .f32⟩ : BufTy).Contents (Elt F)) : (⟨S800000x64, .f32⟩ : BufTy).Contents (Elt F) :=
  (addf (Host.dotGeneral dot_S800000x256_S256x64_S800000x64_1_0_0_1_n_n none (concatenate S800000x256 1 [⟨S800000x64, v37⟩, ⟨S800000x64, v44⟩, ⟨S800000x64, a3⟩, ⟨S800000x64, v26⟩] concatenates_S800000x64_S800000x64_S800000x64_S800000x64_S800000x256_d1) a12) (broadcastInDim S800000x64 ![0, 1] bcast_S1x64_S800000x64_0_1 (broadcastInDim S1x64 ![1] bcast_S64_S1x64_1 a13)))

/-- The edge messages, 128 columns per edge: the second dense layer on the activated hidden rows, plus its bias. -/
def refEdge (v37 v44 a3 v26 : (⟨S800000x64, .f32⟩ : BufTy).Contents (Elt F)) (a12 : (⟨S256x64, .f32⟩ : BufTy).Contents (Elt F)) (a13 : (⟨S64, .f32⟩ : BufTy).Contents (Elt F)) (a14 : (⟨S64x128, .f32⟩ : BufTy).Contents (Elt F)) (a15 : (⟨S128, .f32⟩ : BufTy).Contents (Elt F)) :
    (⟨S800000x128, .f32⟩ : BufTy).Contents (Elt F) :=
  (addf (Host.dotGeneral dot_S800000x64_S64x128_S800000x128_1_0_0_1_n_n none (silu (refHid v37 v44 a3 v26 a12 a13)) a14) (broadcastInDim S800000x128 ![0, 1] bcast_S1x128_S800000x128_0_1 (broadcastInDim S1x128 ![1] bcast_S128_S1x128_1 a15)))

/-- The coefficient-times-direction products as 192 columns per edge. -/
def refVec (v54 : (⟨S800000x128, .f32⟩ : BufTy).Contents (Elt F)) (a4 : (⟨S800000x3, .f32⟩ : BufTy).Contents (Elt F)) : (⟨S800000x192, .f32⟩ : BufTy).Contents (Elt F) :=
  (shapeCast S800000x192 (mulf (broadcastInDim S800000x64x3 ![0, 1, 2] bcast_S800000x64x1_S800000x64x3_0_1_2 (broadcastInDim S800000x64x1 ![0, 1] bcast_S800000x64_S800000x64x1_0_1 (extractStridedSlice S800000x64 ![0, 64] v54 slices_S800000x128_S800000x64_0_64))) (broadcastInDim S800000x64x3 ![0, 1, 2] bcast_S800000x1x3_S800000x64x3_0_1_2 (broadcastInDim S800000x1x3 ![0, 2] bcast_S800000x3_S800000x1x3_0_2 a4))) shapeCasts_S800000x64x3_S800000x192)

end Terms

/-- The f32 word of one denotes 1. -/
theorem one_f32 : Ideal.ofBits .f32 0x3F800000#32 = 1 := by
  simp [Ideal.ofBits, Ideal.ieee, -EReal.coe_mul]; norm_num

/-- The [800000,256] by [256,64] product at row e and column k: ∑_c A(e,c) · B(c,k). -/
theorem dg256_apply (A : FVec Ideal S800000x256 .f32) (B : FVec Ideal S256x64 .f32) (e : Fin 800000) (k : Fin 64) :
    Host.dotGeneral dot_S800000x256_S256x64_S800000x64_1_0_0_1_n_n none A B (ix2 e k) = ∑ c : Fin 256, A (ix2 e c) * B (ix2 c k) := by
  show FloatOps.dotGeneral _ none _ A B (ix2 e k) = _
  rw [Ideal.dotGeneral_apply, ← Equiv.sum_comp (contrEquiv1 dot_S800000x256_S256x64_S800000x64_1_0_0_1_n_n 256 rfl rfl).symm]
  refine Finset.sum_congr rfl fun c _ => ?_
  have c2 := contrEquiv1_symm_val dot_S800000x256_S256x64_S800000x64_1_0_0_1_n_n 256 rfl rfl c
  have l2 : dot_S800000x256_S256x64_S800000x64_1_0_0_1_n_n.lhsIdx (ix2 e k) ((contrEquiv1 _ 256 rfl rfl).symm c) = ix2 e c := by
    funext ax; apply Fin.ext
    match ax with
    | ⟨0, _⟩ => simp [DotDims.lhsIdx, dot_S800000x256_S256x64_S800000x64_1_0_0_1_n_n]; rfl
    | ⟨1, _⟩ => exact (DotDims.lhsIdx_val_of_single _ rfl _ _).trans c2
  have r2 : dot_S800000x256_S256x64_S800000x64_1_0_0_1_n_n.rhsIdx (ix2 e k) ((contrEquiv1 _ 256 rfl rfl).symm c) = ix2 c k := by
    funext ax; apply Fin.ext
    match ax with
    | ⟨0, _⟩ => exact (DotDims.rhsIdx_val_of_single _ rfl _ _).trans c2
    | ⟨1, _⟩ => simp [DotDims.rhsIdx, dot_S800000x256_S256x64_S800000x64_1_0_0_1_n_n]; rfl
  rw [l2, r2]

/-- The [800000,64] by [64,128] product at row e and column k: ∑_c A(e,c) · B(c,k). -/
theorem dg128_apply (A : FVec Ideal S800000x64 .f32) (B : FVec Ideal S64x128 .f32) (e : Fin 800000) (k : Fin 128) :
    Host.dotGeneral dot_S800000x64_S64x128_S800000x128_1_0_0_1_n_n none A B (ix2 e k) = ∑ c : Fin 64, A (ix2 e c) * B (ix2 c k) := by
  show FloatOps.dotGeneral _ none _ A B (ix2 e k) = _
  rw [Ideal.dotGeneral_apply, ← Equiv.sum_comp (contrEquiv1 dot_S800000x64_S64x128_S800000x128_1_0_0_1_n_n 64 rfl rfl).symm]
  refine Finset.sum_congr rfl fun c _ => ?_
  have c2 := contrEquiv1_symm_val dot_S800000x64_S64x128_S800000x128_1_0_0_1_n_n 64 rfl rfl c
  have l2 : dot_S800000x64_S64x128_S800000x128_1_0_0_1_n_n.lhsIdx (ix2 e k) ((contrEquiv1 _ 64 rfl rfl).symm c) = ix2 e c := by
    funext ax; apply Fin.ext
    match ax with
    | ⟨0, _⟩ => simp [DotDims.lhsIdx, dot_S800000x64_S64x128_S800000x128_1_0_0_1_n_n]; rfl
    | ⟨1, _⟩ => exact (DotDims.lhsIdx_val_of_single _ rfl _ _).trans c2
  have r2 : dot_S800000x64_S64x128_S800000x128_1_0_0_1_n_n.rhsIdx (ix2 e k) ((contrEquiv1 _ 64 rfl rfl).symm c) = ix2 c k := by
    funext ax; apply Fin.ext
    match ax with
    | ⟨0, _⟩ => exact (DotDims.rhsIdx_val_of_single _ rfl _ _).trans c2
    | ⟨1, _⟩ => simp [DotDims.rhsIdx, dot_S800000x64_S64x128_S800000x128_1_0_0_1_n_n]; rfl
  rw [l2, r2]

/-- A vector of 64 laid as one row and repeated down the 800000 rows reads, at (e, k), the vector at k. -/
theorem bias64_apply (b : (⟨S64, .f32⟩ : BufTy).Contents (Elt Ideal)) (e : Fin 800000) (k : Fin 64) :
    broadcastInDim S800000x64 ![0, 1] bcast_S1x64_S800000x64_0_1 (broadcastInDim S1x64 ![1] bcast_S64_S1x64_1 b) (ix2 e k) = b (ix1 k) := by
  refine (broadcastInDim_apply _ _ _ (ix2 e k) (ix2 (0 : Fin 1) k) fun a => ?_).trans
    (broadcastInDim_apply _ _ _ (ix2 (0 : Fin 1) k) (ix1 k) fun a => ?_)
  · match a with
    | ⟨0, _⟩ => rfl
    | ⟨1, _⟩ => rfl
  · match a with
    | ⟨0, _⟩ => rfl

/-- The same for a vector of 128. -/
theorem bias128_apply (b : (⟨S128, .f32⟩ : BufTy).Contents (Elt Ideal)) (e : Fin 800000) (n : Fin 128) :
    broadcastInDim S800000x128 ![0, 1] bcast_S1x128_S800000x128_0_1 (broadcastInDim S1x128 ![1] bcast_S128_S1x128_1 b) (ix2 e n) = b (ix1 n) := by
  refine (broadcastInDim_apply _ _ _ (ix2 e n) (ix2 (0 : Fin 1) n) fun a => ?_).trans
    (broadcastInDim_apply _ _ _ (ix2 (0 : Fin 1) n) (ix1 n) fun a => ?_)
  · match a with
    | ⟨0, _⟩ => rfl
    | ⟨1, _⟩ => rfl
  · match a with
    | ⟨0, _⟩ => rfl

/-- The program's spelling of x · 1/(1 + e^{-x}), at an index. -/
theorem silu_apply (x : (⟨S800000x64, .f32⟩ : BufTy).Contents (Elt Ideal)) (i : S800000x64.Idx) : silu (F := Ideal) x i = Cert.Spec.swish (x i) := by
  unfold silu Cert.Spec.swish Ideal.logistic
  show x i * Ideal.div (Ideal.ofBits .f32 0x3F800000#32) (Ideal.ofBits .f32 0x3F800000#32 + Ideal.exp (-(x i))) = _
  rw [one_f32]

/-- The first layer at row e and column k is the specification's hidden row: the sum over the 256 concatenated columns
    is the four pieces' sums against rows 0-63, 64-127, 128-191, 192-255 of the weights. -/
theorem refHid_apply (v37 v44 a3 v26 : (⟨S800000x64, .f32⟩ : BufTy).Contents (Elt Ideal)) (a12 : (⟨S256x64, .f32⟩ : BufTy).Contents (Elt Ideal)) (a13 : (⟨S64, .f32⟩ : BufTy).Contents (Elt Ideal)) (e : Fin 800000) (k : Fin 64) :
    refHid v37 v44 a3 v26 a12 a13 (ix2 e k)
      = Cert.Spec.eHid v37 v44 a3 v26 (Cert.Spec.rowBlock a12 0 64 (by omega)) (Cert.Spec.rowBlock a12 64 64 (by omega))
          (Cert.Spec.rowBlock a12 128 64 (by omega)) (Cert.Spec.rowBlock a12 192 64 (by omega)) (Cert.Spec.asRow a13) e k := by
  unfold refHid
  refine (congrArg₂ (· + ·) (dg256_apply _ a12 e k) (bias64_apply a13 e k)).trans ?_
  rw [Cert.Spec.sum_concat_64_64_64_64 v37 v44 a3 v26 _ (fun c => a12 (ix2 c k)) e]
  unfold Cert.Spec.eHid Cert.Spec.rowDot Cert.Spec.rowBlock Cert.Spec.asRow
  simp only [Nat.zero_add]

/-- THE EDGE MESSAGE of the reference at edge e and column n is the specification's. -/
theorem refEdge_apply (v37 v44 a3 v26 : (⟨S800000x64, .f32⟩ : BufTy).Contents (Elt Ideal)) (a12 : (⟨S256x64, .f32⟩ : BufTy).Contents (Elt Ideal)) (a13 : (⟨S64, .f32⟩ : BufTy).Contents (Elt Ideal))
    (a14 : (⟨S64x128, .f32⟩ : BufTy).Contents (Elt Ideal)) (a15 : (⟨S128, .f32⟩ : BufTy).Contents (Elt Ideal)) (e : Fin 800000) (n : Fin 128) :
    refEdge v37 v44 a3 v26 a12 a13 a14 a15 (ix2 e n)
      = Cert.Spec.eMsg v37 v44 a3 v26 (Cert.Spec.rowBlock a12 0 64 (by omega)) (Cert.Spec.rowBlock a12 64 64 (by omega))
          (Cert.Spec.rowBlock a12 128 64 (by omega)) (Cert.Spec.rowBlock a12 192 64 (by omega)) (Cert.Spec.asRow a13) a14 (Cert.Spec.asRow a15) e n := by
  unfold refEdge
  refine (congrArg₂ (· + ·) (dg128_apply _ a14 e n) (bias128_apply a15 e n)).trans ?_
  unfold Cert.Spec.eMsg Cert.Spec.outLayer
  simp only [silu_apply, refHid_apply]
  rfl

/-- The first 64 columns of the message array. -/
theorem sliceLo_apply (v54 : (⟨S800000x128, .f32⟩ : BufTy).Contents (Elt Ideal)) (e : Fin 800000) (h : Fin 64) :
    extractStridedSlice S800000x64 ![0, 0] v54 slices_S800000x128_S800000x64_0_0 (ix2 e h) = v54 (ix2 e (⟨h.val, by omega⟩ : Fin 128)) :=
  slice2_axis1_apply 0 v54 _ e h _ (by show h.val = 0 + h.val; omega)

/-- The last 64 columns of the message array. -/
theorem sliceHi_apply (v54 : (⟨S800000x128, .f32⟩ : BufTy).Contents (Elt Ideal)) (e : Fin 800000) (h : Fin 64) :
    extractStridedSlice S800000x64 ![0, 64] v54 slices_S800000x128_S800000x64_0_64 (ix2 e h) = v54 (ix2 e (⟨64 + h.val, by omega⟩ : Fin 128)) :=
  slice2_axis1_apply 64 v54 _ e h _ rfl

/-- The product array at edge e and column m = 3h + c: coefficient h (column 64 + h of the message) times component c of
    the direction. -/
theorem refVec_apply (v54 : (⟨S800000x128, .f32⟩ : BufTy).Contents (Elt Ideal)) (a4 : (⟨S800000x3, .f32⟩ : BufTy).Contents (Elt Ideal)) (e : Fin 800000) (h : Fin 64) (c : Fin 3)
    (m : Fin 192) (hm : m.val = 3 * h.val + c.val) :
    refVec v54 a4 (ix2 e m) = v54 (ix2 e (⟨64 + h.val, by omega⟩ : Fin 128)) * a4 (ix2 e c) := by
  unfold refVec
  rw [shapeCast_apply _ _ (ix2 e m) (ix3 e h c) (by
    rw [Shape.rowMajor_val_three, Shape.rowMajor_val_two]
    show (e.val * 64 + h.val) * 3 + c.val = e.val * 192 + m.val
    omega)]
  rw [mulf_apply]
  refine congrArg₂ (· * ·) ?_ ?_
  · refine (broadcastInDim_apply _ _ _ (ix3 e h c) (ix3 e h (0 : Fin 1)) fun a => ?_).trans
      ((broadcastInDim_apply _ _ _ (ix3 e h (0 : Fin 1)) (ix2 e h) fun a => ?_).trans (sliceHi_apply v54 e h))
    · match a with
      | ⟨0, _⟩ => rfl
      | ⟨1, _⟩ => rfl
      | ⟨2, _⟩ => rfl
    · match a with
      | ⟨0, _⟩ => rfl
      | ⟨1, _⟩ => rfl
  · refine (broadcastInDim_apply _ _ _ (ix3 e h c) (ix3 e (0 : Fin 1) c) fun a => ?_).trans
      (broadcastInDim_apply _ _ _ (ix3 e (0 : Fin 1) c) (ix2 e c) fun a => ?_)
    · match a with
      | ⟨0, _⟩ => rfl
      | ⟨1, _⟩ => rfl
      | ⟨2, _⟩ => rfl
    · match a with
      | ⟨0, _⟩ => rfl
      | ⟨1, _⟩ => rfl

/-! ## The stage functions of the reference's run, read at an index -/

open Cert.ReferenceIdeal.Stages in
/-- The stage function of the edge messages is `refEdge`: the same composed term. -/
theorem f_v54_eq {F : FTy → Type} [FloatOps F] (v37 v44 a3 v26 : (⟨S800000x64, .f32⟩ : BufTy).Contents (Elt F)) (a12 : (⟨S256x64, .f32⟩ : BufTy).Contents (Elt F)) (a13 : (⟨S64, .f32⟩ : BufTy).Contents (Elt F))
    (a14 : (⟨S64x128, .f32⟩ : BufTy).Contents (Elt F)) (a15 : (⟨S128, .f32⟩ : BufTy).Contents (Elt F)) :
    Cert.ReferenceIdeal.Stages.f_v54 v37 v44 a3 v26 a12 a13 a14 a15 = refEdge v37 v44 a3 v26 a12 a13 a14 a15 := rfl

/-- THE EDGE MESSAGE stage at edge e and column n is the specification's. -/
theorem f_v54_apply (v37 v44 a3 v26 : (⟨S800000x64, .f32⟩ : BufTy).Contents (Elt Ideal)) (a12 : (⟨S256x64, .f32⟩ : BufTy).Contents (Elt Ideal)) (a13 : (⟨S64, .f32⟩ : BufTy).Contents (Elt Ideal))
    (a14 : (⟨S64x128, .f32⟩ : BufTy).Contents (Elt Ideal)) (a15 : (⟨S128, .f32⟩ : BufTy).Contents (Elt Ideal)) (e : Fin 800000) (n : Fin 128) :
    Cert.ReferenceIdeal.Stages.f_v54 v37 v44 a3 v26 a12 a13 a14 a15 (ix2 e n)
      = Cert.Spec.eMsg v37 v44 a3 v26 (Cert.Spec.rowBlock a12 0 64 (by omega)) (Cert.Spec.rowBlock a12 64 64 (by omega))
          (Cert.Spec.rowBlock a12 128 64 (by omega)) (Cert.Spec.rowBlock a12 192 64 (by omega)) (Cert.Spec.asRow a13) a14 (Cert.Spec.asRow a15) e n := by
  rw [f_v54_eq]; exact refEdge_apply v37 v44 a3 v26 a12 a13 a14 a15 e n

/-- The index column of a scatter, a vector of 800000 indices laid as [800000,1], at row e. -/
theorem idxCol_apply (v30 : (⟨S800000, .i32⟩ : BufTy).Contents (Elt Ideal)) (e : Fin 800000) :
    broadcastInDim S800000x1 ![0] bcast_S800000_S800000x1_0 v30 (ix2 e (0 : Fin 1)) = v30 (ix1 e) :=
  broadcastInDim_apply _ _ _ (ix2 e (0 : Fin 1)) (ix1 e) fun a => by
    match a with
    | ⟨0, _⟩ => rfl

/-- THE SCALAR AGGREGATE stage at node n and column j: the sum, over the edges whose index is n, of the first half of
    the message. -/
theorem f_v59_apply (v30 : (⟨S800000, .i32⟩ : BufTy).Contents (Elt Ideal)) (v54 : (⟨S800000x128, .f32⟩ : BufTy).Contents (Elt Ideal)) (n : Fin 50000) (j : Fin 64) :
    Cert.ReferenceIdeal.Stages.f_v59 v30 v54 (ix2 n j)
      = ∑ e ∈ Finset.univ.filter (fun e : Fin 800000 => (v30 (ix1 e)).toInt = (n.val : Int)),
          v54 (ix2 e (⟨j.val, by omega⟩ : Fin 128)) := by
  unfold Cert.ReferenceIdeal.Stages.f_v59
  refine (Cert.Spec.scatterAdd_rowScatter_apply scatter_S50000x64_S800000x1_S800000x64_1_0_0_1_wf _ _ _ n j).trans ?_
  rw [show broadcastInDim S50000x64 ![] bcast_S_S50000x64 (constant (F := Ideal) S_ .f32 0x00000000#32) (ix2 n j) = 0 from
    Ideal.ofBits_zero_f32, zero_add]
  exact Finset.sum_congr
    (Finset.filter_congr fun e _ => Iff.of_eq (congrArg (fun b : BitVec 32 => b.toInt = (n.val : Int)) (idxCol_apply v30 e)))
    (fun e _ => sliceLo_apply v54 e j)

/-- The same as a segment sum. -/
theorem f_v59_eq_segSum (v30 : (⟨S800000, .i32⟩ : BufTy).Contents (Elt Ideal)) (v54 : (⟨S800000x128, .f32⟩ : BufTy).Contents (Elt Ideal)) :
    Cert.ReferenceIdeal.Stages.f_v59 v30 v54
      = Cert.Spec.segSum (N := 50000) (C := 64) v30
          (fun i => v54 (ix2 (⟨(i 0).val, idx2_lt0 i⟩ : Fin 800000) (⟨(i 1).val, by have := idx2_lt1 i; omega⟩ : Fin 128))) := by
  funext i
  obtain ⟨n, j, rfl⟩ : ∃ (n : Fin 50000) (j : Fin 64), i = ix2 n j := ⟨i 0, i 1, eq_ix2 i⟩
  rw [f_v59_apply]
  rfl

/-- The coefficient-times-direction product before it is flattened, at (e, h, c). -/
theorem vecProd_apply (v54 : (⟨S800000x128, .f32⟩ : BufTy).Contents (Elt Ideal)) (a4 : (⟨S800000x3, .f32⟩ : BufTy).Contents (Elt Ideal)) (e : Fin 800000) (h : Fin 64) (c : Fin 3) :
    mulf (F := Ideal) (φ := .f32) (broadcastInDim S800000x64x3 ![0, 1, 2] bcast_S800000x64x1_S800000x64x3_0_1_2 (broadcastInDim S800000x64x1 ![0, 1] bcast_S800000x64_S800000x64x1_0_1 (extractStridedSlice S800000x64 ![0, 64] v54 slices_S800000x128_S800000x64_0_64)))
        (broadcastInDim S800000x64x3 ![0, 1, 2] bcast_S800000x1x3_S800000x64x3_0_1_2 (broadcastInDim S800000x1x3 ![0, 2] bcast_S800000x3_S800000x1x3_0_2 a4)) (ix3 e h c)
      = extractStridedSlice S800000x64 ![0, 64] v54 slices_S800000x128_S800000x64_0_64 (ix2 e h) * a4 (ix2 e c) := by
  rw [mulf_apply]
  refine congrArg₂ (· * ·) ?_ ?_
  · refine (broadcastInDim_apply _ _ _ (ix3 e h c) (ix3 e h (0 : Fin 1)) fun a => ?_).trans
      (broadcastInDim_apply _ _ _ (ix3 e h (0 : Fin 1)) (ix2 e h) fun a => ?_)
    · match a with
      | ⟨0, _⟩ => rfl
      | ⟨1, _⟩ => rfl
      | ⟨2, _⟩ => rfl
    · match a with
      | ⟨0, _⟩ => rfl
      | ⟨1, _⟩ => rfl
  · refine (broadcastInDim_apply _ _ _ (ix3 e h c) (ix3 e (0 : Fin 1) c) fun a => ?_).trans
      (broadcastInDim_apply _ _ _ (ix3 e (0 : Fin 1) c) (ix2 e c) fun a => ?_)
    · match a with
      | ⟨0, _⟩ => rfl
      | ⟨1, _⟩ => rfl
      | ⟨2, _⟩ => rfl
    · match a with
      | ⟨0, _⟩ => rfl
      | ⟨1, _⟩ => rfl

/-- THE VECTOR AGGREGATE stage at node n, coefficient h and component c: the sum, over the edges whose index is n, of
    column 64 + h of the message times component c of the edge's direction. -/
theorem f_v69_apply (v30 : (⟨S800000, .i32⟩ : BufTy).Contents (Elt Ideal)) (v54 : (⟨S800000x128, .f32⟩ : BufTy).Contents (Elt Ideal)) (a4 : (⟨S800000x3, .f32⟩ : BufTy).Contents (Elt Ideal)) (n : Fin 50000) (h : Fin 64) (c : Fin 3) :
    Cert.ReferenceIdeal.Stages.f_v69 v30 v54 a4 (ix3 n h c)
      = ∑ e ∈ Finset.univ.filter (fun e : Fin 800000 => (v30 (ix1 e)).toInt = (n.val : Int)),
          v54 (ix2 e (⟨64 + h.val, by omega⟩ : Fin 128)) * a4 (ix2 e c) := by
  unfold Cert.ReferenceIdeal.Stages.f_v69
  refine (Cert.Spec.shapeCast_scatterAdd_shapeCast_mul_apply scatter_S50000x192_S800000x1_S800000x192_1_0_0_1_wf
    shapeCasts_S800000x64x3_S800000x192 shapeCasts_S50000x192_S50000x64x3 _ (fun i => Ideal.ofBits_zero_f32) _ _
    (extractStridedSlice S800000x64 ![0, 64] v54 slices_S800000x128_S800000x64_0_64) a4
    (fun e h c => vecProd_apply v54 a4 e h c) n h c).trans ?_
  exact Finset.sum_congr
    (Finset.filter_congr fun e _ => Iff.of_eq (congrArg (fun b : BitVec 32 => b.toInt = (n.val : Int)) (idxCol_apply v30 e)))
    (fun e _ => congrArg (· * a4 (ix2 e c)) (sliceHi_apply v54 e h))

/-! ## The two aggregates of the reference's run -/

/-- The vector aggregate stage as a segment sum, at node n, coefficient h and component c. -/
theorem f_v69_eq_segSum (v30 : (⟨S800000, .i32⟩ : BufTy).Contents (Elt Ideal)) (v54 : (⟨S800000x128, .f32⟩ : BufTy).Contents (Elt Ideal)) (a4 : (⟨S800000x3, .f32⟩ : BufTy).Contents (Elt Ideal)) (n : Fin 50000) (h : Fin 64) (c : Fin 3) :
    Cert.ReferenceIdeal.Stages.f_v69 v30 v54 a4 (ix3 n h c)
      = Cert.Spec.segSum (N := 50000) (C := 64) v30
          (fun i => v54 (ix2 (⟨(i 0).val, idx2_lt0 i⟩ : Fin 800000) (⟨64 + (i 1).val, by have := idx2_lt1 i; omega⟩ : Fin 128))
            * a4 (ix2 (⟨(i 0).val, idx2_lt0 i⟩ : Fin 800000) c)) (ix2 n h) :=
  (f_v69_apply v30 v54 a4 n h c).trans rfl

section Run
open Cert.ReferenceIdeal.RefRun Cert.ReferenceIdeal.Stages Idealize.ShloMosaic.TcCoe Idealize.SL.Sem Idealize.ShloMosaic.StableHlo

variable (V : Valuation τ sig (Elt Ideal))

/-- THE SCALAR AGGREGATE of the run: given that the run's index vector is the destinations' row of the edge-index
    array and its message array the specification's edge messages, it is the specification's scalar aggregate. -/
theorem ref_v59
    (hv30 : (after ops V (Proc.devRef .tc main_v30)) = Cert.Spec.edgeRow (V (Proc.devRef .tc main_arg2)) 1)
    (hv54 : ∀ (e : Fin 800000) (n : Fin 128), (after ops V (Proc.devRef .tc main_v54)) (ix2 e n) = Cert.Spec.edgeMsg (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) e n) :
    (after ops V (Proc.devRef .tc main_v59)) = Cert.Spec.aggS (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (stage_v59 V).trans ((f_v59_eq_segSum _ _).trans (by
    rw [hv30]
    exact congrArg (Cert.Spec.segSum _) (funext fun i => hv54 _ _)))

/-- THE VECTOR AGGREGATE of the run, at node n, coefficient h and component c: the specification's. -/
theorem ref_v69
    (hv30 : (after ops V (Proc.devRef .tc main_v30)) = Cert.Spec.edgeRow (V (Proc.devRef .tc main_arg2)) 1)
    (hv54 : ∀ (e : Fin 800000) (n : Fin 128), (after ops V (Proc.devRef .tc main_v54)) (ix2 e n) = Cert.Spec.edgeMsg (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) e n)
    (n : Fin 50000) (h : Fin 64) (c : Fin 3) :
    (after ops V (Proc.devRef .tc main_v69)) (ix3 n h c) = Cert.Spec.aggV (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) c (ix2 n h) := by
  rw [stage_v69 V, f_v69_eq_segSum, hv30]
  exact congrArg (fun u => Cert.Spec.segSum (N := 50000) (C := 64) _ u (ix2 n h)) (funext fun i => by rw [hv54])

end Run

end Cert.ReferenceIdeal.Edge

end
-- ==== Proof.RefSide1.lean ====
import proofs.«166758_j50929722196748_2_alg».proof.ReferenceIdeal
import proofs.«166758_j50929722196748_2_alg».proof.Proof.RefStages
import proofs.«166758_j50929722196748_2_alg».proof.Proof.RefTriplet
import proofs.«166758_j50929722196748_2_alg».proof.Proof.RefEdge
import proofs.«166758_j50929722196748_2_alg».proof.Proof.LibTakeRows
import proofs.«166758_j50929722196748_2_alg».proof.Proof.SpecArr
import Idealize.ShloMosaic.Lib.Pipeline.Value
import Idealize.ShloMosaic.Lib.ValueIdx
import Idealize.ShloMosaic.Lib.ValueLayout
import Idealize.ShloMosaic.PureOps.Ideal.Laws

/-! # The reference's run, first half: its buffers as functions of the arguments

Each key buffer of the reference holds, after the run, a stage function of earlier key buffers and of the arguments.
Here the stage functions are read against the specification, from the arguments up to the edge messages: the two
gathers of the edge features at the triplet indices are rows of the feature array; the triplet stage on them is the
array of triplet messages; its accumulating scatter is their segment sum into the edges; a row of the edge-index array
sliced out and reshaped is that row; the two gathers of the node features at the sources and the destinations are rows
of the node features; and the edge stage on all of these is the edge message, entry by entry. The index arrays enter
only through the lower bound 0 ≤ index (a gather clamps from above by itself; the rows function carries the clamp). -/

noncomputable section

namespace Cert.ReferenceIdeal.Side

open Cert.ReferenceIdeal Cert.ReferenceIdeal.Gen Cert.ReferenceIdeal.RefRun Cert.ReferenceIdeal.Stages
open Idealize.ShloMosaic Idealize.ShloMosaic.TcCoe Idealize.ShloMosaic.ValueIdx Idealize.SL.Sem Idealize.ShloMosaic.StableHlo
open scoped BigOperators

/-! ## A row of the edge-index array, sliced out and reshaped -/

/-- Row 0 of the [2, 800000] index array, sliced out and reshaped to a vector, is that row. -/
theorem sliceRow0 (a2 : (⟨S2x800000, .i32⟩ : BufTy).Contents (Elt Ideal)) :
    shapeCast S800000 (extractStridedSlice S1x800000 ![0, 0] a2 slices_S2x800000_S1x800000_0_0) shapeCasts_S1x800000_S800000
      = Cert.Spec.edgeRow a2 0 := by
  funext i
  obtain ⟨e, rfl⟩ : ∃ e : Fin 800000, i = ix1 e := ⟨i 0, eq_ix1 i⟩
  rw [shapeCast_apply _ _ (ix1 e) (ix2 (0 : Fin 1) e) (by
    rw [Shape.rowMajor_val_two, Shape.rowMajor_val_one]; show 0 * 800000 + e.val = e.val; omega)]
  rw [extractStridedSlice_apply _ _ _ (ix2 (0 : Fin 1) e) (ix2 (0 : Fin 2) e) (fun a => match a with
    | ⟨0, _⟩ => rfl
    | ⟨1, _⟩ => by show e.val = 0 + e.val; omega)]
  rfl

/-- Row 1 likewise. -/
theorem sliceRow1 (a2 : (⟨S2x800000, .i32⟩ : BufTy).Contents (Elt Ideal)) :
    shapeCast S800000 (extractStridedSlice S1x800000 ![1, 0] a2 slices_S2x800000_S1x800000_1_0) shapeCasts_S1x800000_S800000
      = Cert.Spec.edgeRow a2 1 := by
  funext i
  obtain ⟨e, rfl⟩ : ∃ e : Fin 800000, i = ix1 e := ⟨i 0, eq_ix1 i⟩
  rw [shapeCast_apply _ _ (ix1 e) (ix2 (0 : Fin 1) e) (by
    rw [Shape.rowMajor_val_two, Shape.rowMajor_val_one]; show 0 * 800000 + e.val = e.val; omega)]
  rw [extractStridedSlice_apply _ _ _ (ix2 (0 : Fin 1) e) (ix2 (1 : Fin 2) e) (fun a => match a with
    | ⟨0, _⟩ => rfl
    | ⟨1, _⟩ => by show e.val = 0 + e.val; omega)]
  rfl

/-- The destinations as a vector. -/
theorem f_v30_eq (a2 : (⟨S2x800000, .i32⟩ : BufTy).Contents (Elt Ideal)) : f_v30 (F := Ideal) a2 = Cert.Spec.edgeRow a2 1 := by
  unfold f_v30
  exact sliceRow1 a2

/-- The node features gathered at the sources: the rows at row 0 of the index array, for nonnegative indices. -/
theorem f_v37_eq (a0 : (⟨S50000x64, .f32⟩ : BufTy).Contents (Elt Ideal)) (a2 : (⟨S2x800000, .i32⟩ : BufTy).Contents (Elt Ideal)) (h2 : ∀ i, 0 ≤ (a2 i).toInt) :
    f_v37 (F := Ideal) a0 a2 = Cert.TakeRows.rows Cert.TakeRows.pos_50000 a0 (Cert.Spec.edgeRow a2 0) := by
  unfold f_v37 wrapN
  rw [sliceRow0]
  exact Cert.TakeRows.take_clip_50000 (F := Ideal) bcast_S_S800000 bcast_S800000_S800000x1_0 gather_S50000x64_S800000x1_S800000x64_1_0_n_n_0_1_164 ⟨rfl, rfl, rfl, rfl, rfl, rfl, rfl⟩ a0 (Cert.Spec.edgeRow a2 0) (fun i => h2 _)

/-- The node features gathered at the destinations. -/
theorem f_v44_eq (a0 : (⟨S50000x64, .f32⟩ : BufTy).Contents (Elt Ideal)) (a2 : (⟨S2x800000, .i32⟩ : BufTy).Contents (Elt Ideal)) (h2 : ∀ i, 0 ≤ (a2 i).toInt) :
    f_v44 (F := Ideal) a0 a2 = Cert.TakeRows.rows Cert.TakeRows.pos_50000 a0 (Cert.Spec.edgeRow a2 1) := by
  unfold f_v44 wrapN
  rw [sliceRow1]
  exact Cert.TakeRows.take_clip_50000 (F := Ideal) bcast_S_S800000 bcast_S800000_S800000x1_0 gather_S50000x64_S800000x1_S800000x64_1_0_n_n_0_1_164 ⟨rfl, rfl, rfl, rfl, rfl, rfl, rfl⟩ a0 (Cert.Spec.edgeRow a2 1) (fun i => h2 _)

/-! ## The reference's buffers after its run, as functions of the arguments -/

section Chain
variable (V : Valuation τ sig (Elt Ideal))

/-- The triplet messages. -/
theorem ref_v23 (h5 : ∀ i, 0 ≤ ((V (Proc.devRef .tc main_arg5) : (⟨S800000, .i32⟩ : BufTy).Contents (Elt Ideal)) i).toInt) (h6 : ∀ i, 0 ≤ ((V (Proc.devRef .tc main_arg6) : (⟨S800000, .i32⟩ : BufTy).Contents (Elt Ideal)) i).toInt) :
    after ops V (Proc.devRef .tc main_v23) = Cert.Spec.tripletMsg (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [stage_v23, stage_v6, stage_v13]
  exact Cert.ReferenceIdeal.Triplet.f_v23_gathers _ _ _ _ _ _ _ _ h5 h6

/-- The triplet messages summed into the edges. -/
theorem ref_v26 (h5 : ∀ i, 0 ≤ ((V (Proc.devRef .tc main_arg5) : (⟨S800000, .i32⟩ : BufTy).Contents (Elt Ideal)) i).toInt) (h6 : ∀ i, 0 ≤ ((V (Proc.devRef .tc main_arg6) : (⟨S800000, .i32⟩ : BufTy).Contents (Elt Ideal)) i).toInt) :
    after ops V (Proc.devRef .tc main_v26) = Cert.Spec.angleAgg (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [stage_v26, ref_v23 V h5 h6, Cert.ReferenceIdeal.Triplet.f_v26_eq]
  rfl

/-- The destinations. -/
theorem ref_v30 : after ops V (Proc.devRef .tc main_v30) = Cert.Spec.edgeRow (V (Proc.devRef .tc main_arg2)) 1 := by
  rw [stage_v30]
  exact f_v30_eq _

/-- The node features at the sources. -/
theorem ref_v37 (h2 : ∀ i, 0 ≤ ((V (Proc.devRef .tc main_arg2) : (⟨S2x800000, .i32⟩ : BufTy).Contents (Elt Ideal)) i).toInt) :
    after ops V (Proc.devRef .tc main_v37) = Cert.TakeRows.rows Cert.TakeRows.pos_50000 (V (Proc.devRef .tc main_arg0)) (Cert.Spec.edgeRow (V (Proc.devRef .tc main_arg2)) 0) := by
  rw [stage_v37]
  exact f_v37_eq _ _ h2

/-- The node features at the destinations. -/
theorem ref_v44 (h2 : ∀ i, 0 ≤ ((V (Proc.devRef .tc main_arg2) : (⟨S2x800000, .i32⟩ : BufTy).Contents (Elt Ideal)) i).toInt) :
    after ops V (Proc.devRef .tc main_v44) = Cert.TakeRows.rows Cert.TakeRows.pos_50000 (V (Proc.devRef .tc main_arg0)) (Cert.Spec.edgeRow (V (Proc.devRef .tc main_arg2)) 1) := by
  rw [stage_v44]
  exact f_v44_eq _ _ h2

/-- The edge messages, entry by entry. -/
theorem ref_v54 (h5 : ∀ i, 0 ≤ ((V (Proc.devRef .tc main_arg5) : (⟨S800000, .i32⟩ : BufTy).Contents (Elt Ideal)) i).toInt) (h6 : ∀ i, 0 ≤ ((V (Proc.devRef .tc main_arg6) : (⟨S800000, .i32⟩ : BufTy).Contents (Elt Ideal)) i).toInt) (h2 : ∀ i, 0 ≤ ((V (Proc.devRef .tc main_arg2) : (⟨S2x800000, .i32⟩ : BufTy).Contents (Elt Ideal)) i).toInt) (e : Fin 800000) (n : Fin 128) :
    (after ops V (Proc.devRef .tc main_v54) : (⟨S800000x128, .f32⟩ : BufTy).Contents (Elt Ideal)) (ix2 e n) = Cert.Spec.edgeMsg (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) e n := by
  rw [stage_v54, ref_v37 V h2, ref_v44 V h2, ref_v26 V h5 h6, Cert.ReferenceIdeal.Edge.f_v54_apply]
  rfl

end Chain

end Cert.ReferenceIdeal.Side

end
-- ==== Proof.LibNormLaw.lean ====
/-
  Laws of the extended reals that a layer normalisation needs when one program multiplies by a reciprocal
  square root and the other divides by a square root.

  * `mul_rsqrt_eq_div_sqrt`: for `0 < y` — `y = ⊤` included — `x * rsqrt y = x / sqrt y` on the extended reals.
    At a finite `y = r > 0` both sides are `x · (√r)⁻¹` (the quotient by the nonzero real `√r` is the product with its
    inverse); at `y = ⊤` the left side is `x · 0` and the right side `x · ⊤⁻¹ = x · 0`.
    `mulf_rsqrt_eq_hostDivf_sqrt` is the same law spelled with the operations of the float interface, and
    `mulf_rsqrt_eq_divf_sqrt` with the kernel's quotient and square root.
  * Positivity with no finiteness hypothesis: a square `z * z` of an extended real is nonnegative (`⊥ · ⊥ = ⊤`), so a
    sum of squares is, so is its quotient by a positive real, and adding a positive real gives a positive extended real:
    `variance_add_pos`. The words `0x42800000` and `0x3727C5AC` denote `64` and `10995116 / 2^40` (`ofBits_64`, `ofBits_eps`).
-/
import Idealize.ShloMosaic.PureOps.Ideal
import Idealize.ShloMosaic.PureOps.Ideal.Laws

noncomputable section

namespace Cert.NormLaw

open Idealize.ShloMosaic
open scoped BigOperators

/-! ## The product with a reciprocal square root is the quotient by the square root -/

/-- For `0 < y`, the infinity included, `x * rsqrt y = x / sqrt y` at every extended real `x`. -/
theorem mul_rsqrt_eq_div_sqrt (x : EReal) {y : EReal} (hy : 0 < y) :
    x * Ideal.rsqrt y = Ideal.div x (Ideal.sqrt y) := by
  induction y using EReal.rec with
  | bot => exact absurd hy (not_lt.mpr bot_le)
  | top => rw [Ideal.rsqrt_top, Ideal.sqrt_top, Ideal.div, if_neg EReal.top_ne_zero, EReal.inv_top]
  | coe r =>
    have hr : 0 < r := EReal.coe_pos.mp hy
    have hs : ((Real.sqrt r : ℝ) : EReal) ≠ 0 := by
      rw [Ne, EReal.coe_eq_zero]; exact (Real.sqrt_pos.mpr hr).ne'
    simp only [Ideal.rsqrt_coe, Ideal.sqrt_coe, if_neg (not_lt.mpr hr.le), if_neg hr.ne']
    rw [Ideal.div, if_neg hs, EReal.coe_inv]

/-- The same law in the operations of the float interface: a kernel's `mulf x (rsqrt y)` is the host's
    `hostDivf x (hostUnary .sqrt y)`. -/
theorem mulf_rsqrt_eq_hostDivf_sqrt {φ : FTy} (x y : Ideal φ) (hy : (0 : EReal) < y) :
    FloatOps.mulf x (FloatOps.rsqrt y) = FloatOps.hostDivf x (FloatOps.hostUnary .sqrt y) := by
  rw [Ideal.mulf_def, Ideal.rsqrt_def, Ideal.hostDivf_def, Ideal.hostUnary_sqrt_def]
  exact mul_rsqrt_eq_div_sqrt x hy

/-- … and against a kernel's own quotient and square root. -/
theorem mulf_rsqrt_eq_divf_sqrt {φ : FTy} (x y : Ideal φ) (hy : (0 : EReal) < y) :
    FloatOps.mulf x (FloatOps.rsqrt y) = FloatOps.divf x (FloatOps.sqrt y) := by
  rw [Ideal.mulf_def, Ideal.rsqrt_def, Ideal.divf_def, Ideal.sqrt_def]
  exact mul_rsqrt_eq_div_sqrt x hy

/-! ## Positivity of a variance plus a positive constant -/

/-- A square of an extended real is nonnegative: both factors lie on one side of zero. -/
theorem mul_self_nonneg (z : EReal) : 0 ≤ z * z := by
  rcases le_total 0 z with h | h
  · exact EReal.mul_nonneg h h
  · exact EReal.mul_nonneg_iff.mpr (Or.inr ⟨h, h⟩)

/-- A finite sum of squares of extended reals is nonnegative. -/
theorem sum_mul_self_nonneg {ι : Type*} (s : Finset ι) (z : ι → EReal) : 0 ≤ ∑ k ∈ s, z k * z k :=
  Finset.sum_nonneg fun k _ => mul_self_nonneg (z k)

/-- The quotient of a nonnegative extended real by a positive real is nonnegative. -/
theorem div_coe_nonneg {x : EReal} (hx : 0 ≤ x) {d : ℝ} (hd : 0 < d) : 0 ≤ Ideal.div x (d : EReal) := by
  rw [Ideal.div_coe hd.ne']
  exact EReal.mul_nonneg hx (EReal.coe_nonneg.mpr (one_div_pos.mpr hd).le)

/-- A nonnegative extended real plus a positive real is positive. -/
theorem add_coe_pos {x : EReal} (hx : 0 ≤ x) {ε : ℝ} (hε : 0 < ε) : 0 < x + (ε : EReal) :=
  lt_of_lt_of_le (EReal.coe_pos.mpr hε) (le_add_of_nonneg_left hx)

/-- The variance term of a normalisation is positive whatever its inputs are: `(c + ∑ k, z k * z k) / d + ε` with a
    nonnegative start `c`, a positive real divisor `d` and a positive real `ε`. -/
theorem variance_add_pos {ι : Type*} (s : Finset ι) (z : ι → EReal) {c : EReal} (hc : 0 ≤ c) {d ε : ℝ} (hd : 0 < d) (hε : 0 < ε) :
    0 < Ideal.div (c + ∑ k ∈ s, z k * z k) (d : EReal) + (ε : EReal) :=
  add_coe_pos (div_coe_nonneg (add_nonneg hc (sum_mul_self_nonneg s z)) hd) hε

/-- The same with the start `0` and the sum over a whole finite type, as a reduction over one axis reads. -/
theorem variance_add_pos' {ι : Type*} [Fintype ι] (z : ι → EReal) {d ε : ℝ} (hd : 0 < d) (hε : 0 < ε) :
    0 < Ideal.div (0 + ∑ k, z k * z k) (d : EReal) + (ε : EReal) :=
  variance_add_pos Finset.univ z le_rfl hd hε

/-- … and with no start at all (a lane sum). -/
theorem variance_add_pos'' {ι : Type*} [Fintype ι] (z : ι → EReal) {d ε : ℝ} (hd : 0 < d) (hε : 0 < ε) :
    0 < Ideal.div (∑ k, z k * z k) (d : EReal) + (ε : EReal) :=
  add_coe_pos (div_coe_nonneg (sum_mul_self_nonneg Finset.univ z) hd) hε

/-! ## The two constants -/

/-- The word `0x42800000` (`64.0`) denotes the real `64`. -/
theorem ofBits_64 : Ideal.ofBits .f32 0x42800000#32 = ((64 : ℝ) : EReal) := by
  simp [Ideal.ofBits, Ideal.ieee, -EReal.coe_mul]; norm_num

/-- The word `0x3727C5AC` (the single-precision `1e-5`) denotes the positive real `10995116 / 2^40`. -/
theorem ofBits_eps : Ideal.ofBits .f32 0x3727C5AC#32 = ((10995116 / 2 ^ 40 : ℝ) : EReal) := by
  simp [Ideal.ofBits, Ideal.ieee, -EReal.coe_mul]; norm_num

theorem eps_pos : (0 : ℝ) < 10995116 / 2 ^ 40 := by norm_num

end Cert.NormLaw

end
-- ==== Proof.RefNode.lean ====
import proofs.«166758_j50929722196748_2_alg».proof.Proof.RefStages
import proofs.«166758_j50929722196748_2_alg».proof.Proof.SpecArr
import proofs.«166758_j50929722196748_2_alg».proof.Proof.LibNormLaw
import proofs.«166758_j50929722196748_2_alg».proof.Proof.LibSumSplit
import Idealize.ShloMosaic.Lib.IdealHost
import Idealize.ShloMosaic.Lib.KernelVsHost
import Idealize.ShloMosaic.Lib.Pipeline.Value

noncomputable section

open scoped BigOperators

/-! The reference's node stage read at an element, over the extended reals: the stages' vector terms of the
    reference's line, each at an index, as the row functions of the specification. -/

namespace Cert.ReferenceIdeal.Node

open Cert.ReferenceIdeal Cert.ReferenceIdeal.Gen Cert.ReferenceIdeal.Stages Idealize.ShloMosaic Idealize.ShloMosaic.ValueIdx

/-! ## Broadcasts read at an index -/

section Bcast
variable {α : Type}

/-- A column broadcast along 64 columns reads the column's entry of the row. -/
theorem bcast_col_apply (h : S50000x1.BroadcastsInDim S50000x64 ![0, 1]) (c : S50000x1.Idx → α) (n : Fin 50000) (j : Fin 64) :
    broadcastInDim S50000x64 ![0, 1] h c (ix2 n j) = c (ix2 n 0) := by
  refine broadcastInDim_apply ![0, 1] h c (ix2 n j) (ix2 n 0) ?_
  intro a
  fin_cases a
  · show n.val = if (50000 : ℕ) = 1 then 0 else n.val
    simp
  · show (0 : ℕ) = if (1 : ℕ) = 1 then 0 else _
    simp

/-- A vector laid as a column reads the vector's entry of the row. -/
theorem bcast_vec_col_apply (h : S50000.BroadcastsInDim S50000x1 ![0]) (v : S50000.Idx → α) (n : Fin 50000) (c : Fin 1) :
    broadcastInDim S50000x1 ![0] h v (ix2 n c) = v (ix1 n) := by
  refine broadcastInDim_apply ![0] h v (ix2 n c) (ix1 n) ?_
  intro a
  fin_cases a
  show n.val = if (50000 : ℕ) = 1 then 0 else n.val
  simp

/-- A vector of 64 laid as one row reads the vector's entry of the column. -/
theorem bcast_vec_row_apply (h : S64.BroadcastsInDim S1x64 ![1]) (v : S64.Idx → α) (r : Fin 1) (t : Fin 64) :
    broadcastInDim S1x64 ![1] h v (ix2 r t) = v (ix1 t) := by
  refine broadcastInDim_apply ![1] h v (ix2 r t) (ix1 t) ?_
  intro a
  fin_cases a
  show t.val = if (64 : ℕ) = 1 then 0 else t.val
  simp

/-- A vector of 64 broadcast to every row reads the vector's entry of the column. -/
theorem bcast_rowvec_apply (h1 : S64.BroadcastsInDim S1x64 ![1]) (h2 : S1x64.BroadcastsInDim S50000x64 ![0, 1]) (v : S64.Idx → α)
    (n : Fin 50000) (j : Fin 64) :
    broadcastInDim S50000x64 ![0, 1] h2 (broadcastInDim S1x64 ![1] h1 v) (ix2 n j) = v (ix1 j) := by
  rw [broadcastInDim_oneRow_apply h2, bcast_vec_row_apply]

end Bcast

/-! ## The logistic pieces at an element -/

theorem sigmN_apply (x : FVec Ideal S50000x64 .f32) (i : S50000x64.Idx) : sigmN (F := Ideal) x i = Ideal.logistic (x i) := by
  have h1 : (broadcastInDim S50000x64 ![] bcast_S_S50000x64 (constant (F := Ideal) S_ .f32 0x3F800000#32)) i = (1 : EReal) := by
    rw [broadcastInDim_scalar_apply, constant_apply, Ideal.ofBits_one_f32]
  unfold sigmN
  rw [hostDivf_apply, addf_apply, h1]
  rfl

theorem siluN_apply (x : FVec Ideal S50000x64 .f32) (i : S50000x64.Idx) : siluN (F := Ideal) x i = Cert.Spec.swish (x i) := by
  unfold siluN
  rw [mulf_apply, sigmN_apply]
  rfl

/-! ## The row sum, mean and variance -/

/-- The sum of a row of 64 from the zero word: the 64 entries' sum. -/
theorem rowSum_apply (y : FVec Ideal S50000x64 .f32) (n : Fin 50000) :
    Host.reduceAdd y (constant (F := Ideal) S_ .f32 0x00000000#32) reducesTo_S50000x64_S50000_d1 h_S_ (ix1 n)
      = ∑ k : Fin 64, y (ix2 n k) := by
  rw [hostReduceAdd_apply, Ideal.hostReduceAdd_single reducesTo_S50000x64_S50000_d1 (by decide : S50000x64.Reduces [1] S50000),
    constant_apply, Ideal.ofBits_zero_f32, zero_add]
  refine Finset.sum_congr rfl fun k _ => congrArg y ?_
  funext a
  fin_cases a <;> rfl

theorem var64_eq (X : Fin 64 → EReal) :
    Cert.Spec.var64 X = Ideal.div (∑ j : Fin 64, (X j - Cert.Spec.mean64 X) * (X j - Cert.Spec.mean64 X)) (Ideal.ofBits .f32 0x42800000#32) := rfl

theorem rowMean_apply (x : FVec Ideal S50000x64 .f32) (n : Fin 50000) (c : Fin 1) :
    rowMean (F := Ideal) x (ix2 n c) = Cert.Spec.mean64 (fun q => x (ix2 n q)) := by
  unfold rowMean Cert.Spec.mean64
  rw [hostDivf_apply, bcast_vec_col_apply, broadcastInDim_scalar_apply, constant_apply, rowSum_apply]

theorem centered_apply (x : FVec Ideal S50000x64 .f32) (n : Fin 50000) (k : Fin 64) :
    centered (F := Ideal) x (ix2 n k) = x (ix2 n k) - Cert.Spec.mean64 (fun q => x (ix2 n q)) := by
  unfold centered
  rw [subf_apply, bcast_col_apply, rowMean_apply]

/-- The divisor the variance is stated with, 64 minus the integer zero as a float, is 64. -/
theorem sixtyfour_sub_zero :
    (subf (constant (F := Ideal) S_ .f32 0x42800000#32) (sitofp .f32 (constantI S_ 32 0#32))) ix0 = Ideal.ofBits .f32 0x42800000#32 := by
  rw [subf_apply, constant_apply, sitofp_apply]
  show Ideal.ofBits .f32 0x42800000#32 - (((0#32 : BitVec 32).toInt : ℝ) : EReal) = _
  simp

/-- … and it is above zero, so the select between the quotient and the not-a-number takes the quotient. -/
theorem divisor_pos_flag :
    (cmpf .ogt (subf (constant (F := Ideal) S_ .f32 0x42800000#32) (sitofp .f32 (constantI S_ 32 0#32)))
      (constant (F := Ideal) S_ .f32 0x00000000#32)) ix0 = 1#1 := by
  rw [cmpf_apply, sixtyfour_sub_zero, constant_apply, Ideal.ofBits_zero_f32, Cert.NormLaw.ofBits_64]
  show BitVec.ofBool (decide ((0 : EReal) < ((64 : ℝ) : EReal))) = 1#1
  rw [decide_eq_true (EReal.coe_pos.mpr (by norm_num))]
  rfl

theorem f_v105_apply (x : FVec Ideal S50000x64 .f32) (n : Fin 50000) (c : Fin 1) :
    f_v105 (F := Ideal) x (ix2 n c) = Cert.Spec.var64 (fun q => x (ix2 n q)) := by
  unfold f_v105
  rw [select_apply, broadcastInDim_scalar_apply, divisor_pos_flag, select_one, hostDivf_apply, bcast_vec_col_apply,
    broadcastInDim_scalar_apply, sixtyfour_sub_zero, rowSum_apply, var64_eq]
  refine congrArg (fun s => Ideal.div s _) (Finset.sum_congr rfl fun k _ => ?_)
  rw [mulf_apply, centered_apply]

theorem hostSqrt_apply {s : Shape} {φ : FTy} (y : FVec Ideal s φ) (i : s.Idx) : Host.sqrt y i = Ideal.sqrt (y i) := rfl

theorem asRow_apply (b : Cert.Spec.Vec1 64) (j : Fin 64) : Cert.Spec.asRow b (ix2 0 j) = b (ix1 j) := rfl

theorem var_add_eps_pos (X : Fin 64 → EReal) : (0 : EReal) < Cert.Spec.var64 X + Ideal.ofBits .f32 0x3727C5AC#32 := by
  rw [var64_eq, Cert.NormLaw.ofBits_64, Cert.NormLaw.ofBits_eps]
  exact Cert.NormLaw.variance_add_pos'' (fun j => X j - Cert.Spec.mean64 X) (by norm_num) Cert.NormLaw.eps_pos

/-! ## (e) The normalised output at an element -/

/-- The last stage at an element: the row's normalisation, gain, offset and x ↦ x · 1/(1 + e^{-x}). The reference divides
    by the square root of the variance plus ε; that is the product with the reciprocal square root because the variance
    plus ε is positive whatever the row holds. -/
theorem normOut_read (x81 : FVec Ideal S50000x64 .f32) (a24 a25 : FVec Ideal S64 .f32) (n : Fin 50000) (j : Fin 64) :
    f_v119 (F := Ideal) x81 (f_v104 x81) (f_v105 x81) a24 a25 (ix2 n j)
      = Cert.Spec.normOut (fun q => x81 (ix2 n q)) (Cert.Spec.asRow a24) (Cert.Spec.asRow a25) j := by
  unfold f_v119 f_v104
  rw [siluN_apply]
  unfold Cert.Spec.normOut
  refine congrArg Cert.Spec.swish ?_
  rw [addf_apply, mulf_apply, hostDivf_apply, subf_apply]
  rw [bcast_col_apply, bcast_col_apply, rowMean_apply]
  rw [bcast_rowvec_apply, bcast_rowvec_apply]
  rw [hostSqrt_apply, addf_apply, f_v105_apply, broadcastInDim_scalar_apply, constant_apply]
  rw [← Cert.NormLaw.mul_rsqrt_eq_div_sqrt _ (var_add_eps_pos _), asRow_apply, asRow_apply]

/-! ## (d) The second result at an element -/

theorem bcast_gate_apply (h1 : S50000x64.BroadcastsInDim S50000x64x1 ![0, 1]) (h2 : S50000x64x1.BroadcastsInDim S50000x64x3 ![0, 1, 2])
    (g : FVec Ideal S50000x64 .f32) (n : Fin 50000) (h : Fin 64) (c : Fin 3) :
    broadcastInDim S50000x64x3 ![0, 1, 2] h2 (broadcastInDim S50000x64x1 ![0, 1] h1 g) (ix3 n h c) = g (ix2 n h) := by
  rw [broadcastInDim_apply ![0, 1, 2] h2 _ (ix3 n h c) (ix3 n h 0) (by
        intro a
        fin_cases a
        · show n.val = if (50000 : ℕ) = 1 then 0 else n.val
          simp
        · show h.val = if (64 : ℕ) = 1 then 0 else h.val
          simp
        · show (0 : ℕ) = if (1 : ℕ) = 1 then 0 else _
          simp),
    broadcastInDim_apply ![0, 1] h1 g (ix3 n h 0) (ix2 n h) (by
        intro a
        fin_cases a
        · show n.val = if (50000 : ℕ) = 1 then 0 else n.val
          simp
        · show h.val = if (64 : ℕ) = 1 then 0 else h.val
          simp)]

/-- The new vector features at an element: the old one plus the gate times the summed vector message. -/
theorem vNew_read (a1 x69 : FVec Ideal S50000x64x3 .f32) (x96 : FVec Ideal S50000x64 .f32) (n : Fin 50000) (h : Fin 64) (c : Fin 3) :
    f_v100 (F := Ideal) a1 x96 x69 (ix3 n h c) = a1 (ix3 n h c) + x96 (ix2 n h) * x69 (ix3 n h c) := by
  unfold f_v100
  rw [addf_apply, mulf_apply, bcast_gate_apply]

/-! ## (a) The vector features' lengths at an element -/

/-- The sum over the three components from the zero word. -/
theorem compSum_apply (y : FVec Ideal S50000x64x3 .f32) (n : Fin 50000) (j : Fin 64) :
    Host.reduceAdd y (constant (F := Ideal) S_ .f32 0x00000000#32) reducesTo_S50000x64x3_S50000x64_d2 h_S_ (ix2 n j)
      = ∑ k : Fin 3, y (ix3 n j k) := by
  rw [hostReduceAdd_apply, Ideal.hostReduceAdd_single reducesTo_S50000x64x3_S50000x64_d2 (by decide : S50000x64x3.Reduces [2] S50000x64),
    constant_apply, Ideal.ofBits_zero_f32, zero_add]
  refine Finset.sum_congr rfl fun k _ => congrArg y ?_
  funext a
  fin_cases a <;> rfl

theorem vNorm_read (a1 : FVec Ideal S50000x64x3 .f32) (n : Fin 50000) (j : Fin 64) :
    f_v70 (F := Ideal) a1 (ix2 n j) = Cert.Spec.vNorm (Cert.Spec.vComp a1 0) (Cert.Spec.vComp a1 1) (Cert.Spec.vComp a1 2) n j := by
  unfold f_v70
  rw [hostSqrt_apply, compSum_apply, Fin.sum_univ_three, mulf_apply, mulf_apply, mulf_apply]
  rfl

/-! ## A product with a weight matrix at an element -/

theorem dot192_read (l : FVec Ideal S50000x192 .f32) (r : FVec Ideal S192x64 .f32) (n : Fin 50000) (k : Fin 64) :
    Host.dotGeneral dot_S50000x192_S192x64_S50000x64_1_0_0_1_n_n none l r (ix2 n k) = ∑ q : Fin 192, l (ix2 n q) * r (ix2 q k) := by
  refine (Ideal.dotGeneral_apply dot_S50000x192_S192x64_S50000x64_1_0_0_1_n_n none _ l r (ix2 n k)).trans ?_
  rw [← Equiv.sum_comp (contrEquiv1 dot_S50000x192_S192x64_S50000x64_1_0_0_1_n_n 192 rfl rfl).symm]
  refine Finset.sum_congr rfl fun q _ => ?_
  refine congrArg₂ (· * ·) (congrArg l ?_) (congrArg r ?_)
  · funext a
    apply Fin.ext
    fin_cases a <;> rfl
  · funext a
    apply Fin.ext
    fin_cases a <;> rfl

theorem dot64_read (l : FVec Ideal S50000x64 .f32) (r : FVec Ideal S64x64 .f32) (n : Fin 50000) (k : Fin 64) :
    Host.dotGeneral dot_S50000x64_S64x64_S50000x64_1_0_0_1_n_n none l r (ix2 n k) = ∑ q : Fin 64, l (ix2 n q) * r (ix2 q k) := by
  refine (Ideal.dotGeneral_apply dot_S50000x64_S64x64_S50000x64_1_0_0_1_n_n none _ l r (ix2 n k)).trans ?_
  rw [← Equiv.sum_comp (contrEquiv1 dot_S50000x64_S64x64_S50000x64_1_0_0_1_n_n 64 rfl rfl).symm]
  refine Finset.sum_congr rfl fun q _ => ?_
  refine congrArg₂ (· * ·) (congrArg l ?_) (congrArg r ?_)
  · funext a
    apply Fin.ext
    fin_cases a <;> rfl
  · funext a
    apply Fin.ext
    fin_cases a <;> rfl

theorem rowBlock_apply {K H m : Nat} (w : Cert.Spec.Mat K H) (o : Nat) (h : o + m ≤ K) (q : Fin m) (k : Fin H) :
    Cert.Spec.rowBlock w o m h (ix2 q k) = w (ix2 ⟨o + q.val, by have := q.isLt; omega⟩ k) := rfl

theorem rowBlock_zero_apply {K H m : Nat} (w : Cert.Spec.Mat K H) (h : 0 + m ≤ K) (q : Fin m) (k : Fin H) :
    Cert.Spec.rowBlock w 0 m h (ix2 q k) = w (ix2 ⟨q.val, by have := q.isLt; omega⟩ k) := by
  rw [rowBlock_apply]
  refine congrArg w ?_
  funext a
  apply Fin.ext
  fin_cases a
  · exact Nat.zero_add _
  · rfl

/-- The first layer of a node perceptron at an element: the product of the three concatenated pieces with the
    weight matrix is the sum of the pieces' products with its three row blocks; then the bias. -/
theorem nHid_read (a0 x59 x70 : FVec Ideal S50000x64 .f32) (w : FVec Ideal S192x64 .f32) (b : FVec Ideal S64 .f32)
    (n : Fin 50000) (k : Fin 64) :
    (addf (Host.dotGeneral dot_S50000x192_S192x64_S50000x64_1_0_0_1_n_n none
          (concatenate S50000x192 1 [⟨S50000x64, a0⟩, ⟨S50000x64, x59⟩, ⟨S50000x64, x70⟩] concatenates_S50000x64_S50000x64_S50000x64_S50000x192_d1) w)
        (broadcastInDim S50000x64 ![0, 1] bcast_S1x64_S50000x64_0_1 (broadcastInDim S1x64 ![1] bcast_S64_S1x64_1 b))) (ix2 n k)
      = Cert.Spec.nHid a0 x59 (fun r q => x70 (ix2 r q)) (Cert.Spec.rowBlock w 0 64 (by omega)) (Cert.Spec.rowBlock w 64 64 (by omega))
          (Cert.Spec.rowBlock w 128 64 (by omega)) (Cert.Spec.asRow b) n k := by
  rw [addf_apply, dot192_read, bcast_rowvec_apply,
    Cert.Spec.sum_concat_64_64_64 a0 x59 x70 concatenates_S50000x64_S50000x64_S50000x64_S50000x192_d1 (fun q => w (ix2 q k)) n]
  unfold Cert.Spec.nHid Cert.Spec.rowDot
  rw [asRow_apply]
  refine congrArg (· + b (ix1 k)) (congrArg₂ (· + ·) (congrArg₂ (· + ·) ?_ ?_) ?_)
  · exact Finset.sum_congr rfl fun q _ => by rw [rowBlock_zero_apply]
  · exact Finset.sum_congr rfl fun q _ => by rw [rowBlock_apply]
  · exact Finset.sum_congr rfl fun q _ => by rw [rowBlock_apply]

/-- (b) The updated scalar features at an element. -/
theorem sNew_read (a0 x59 x70 : FVec Ideal S50000x64 .f32) (a16 : FVec Ideal S192x64 .f32) (a17 : FVec Ideal S64 .f32)
    (a18 : FVec Ideal S64x64 .f32) (a19 : FVec Ideal S64 .f32) (n : Fin 50000) (j : Fin 64) :
    f_v81 (F := Ideal) a0 x59 x70 a16 a17 a18 a19 (ix2 n j)
      = Cert.Spec.sNew a0 x59 (fun r q => x70 (ix2 r q)) (Cert.Spec.rowBlock a16 0 64 (by omega)) (Cert.Spec.rowBlock a16 64 64 (by omega))
          (Cert.Spec.rowBlock a16 128 64 (by omega)) (Cert.Spec.asRow a17) a18 (Cert.Spec.asRow a19) n j := by
  unfold f_v81 Cert.Spec.sNew Cert.Spec.outLayer
  rw [addf_apply, addf_apply, dot64_read, bcast_rowvec_apply, asRow_apply]
  refine congrArg (a0 (ix2 n j) + ·) (congrArg (· + a19 (ix1 j)) (Finset.sum_congr rfl fun k _ => ?_))
  rw [siluN_apply, nHid_read]

/-- (c) The gate at an element. -/
theorem gate_read (a0 x59 x70 : FVec Ideal S50000x64 .f32) (a20 : FVec Ideal S192x64 .f32) (a21 : FVec Ideal S64 .f32)
    (a22 : FVec Ideal S64x64 .f32) (a23 : FVec Ideal S64 .f32) (n : Fin 50000) (j : Fin 64) :
    f_v96 (F := Ideal) a0 x59 x70 a20 a21 a22 a23 (ix2 n j)
      = Cert.Spec.gate a0 x59 (fun r q => x70 (ix2 r q)) (Cert.Spec.rowBlock a20 0 64 (by omega)) (Cert.Spec.rowBlock a20 64 64 (by omega))
          (Cert.Spec.rowBlock a20 128 64 (by omega)) (Cert.Spec.asRow a21) a22 (Cert.Spec.asRow a23) n j := by
  unfold f_v96 Cert.Spec.gate Cert.Spec.outLayer
  rw [sigmN_apply, addf_apply, dot64_read, bcast_rowvec_apply, asRow_apply]
  refine congrArg Ideal.logistic (congrArg (· + a23 (ix1 j)) (Finset.sum_congr rfl fun k _ => ?_))
  rw [siluN_apply, nHid_read]

end Cert.ReferenceIdeal.Node

end
-- ==== Proof.RefSide3.lean ====
import proofs.«166758_j50929722196748_2_alg».proof.Proof.RefNode

noncomputable section

open scoped BigOperators

/-! The reference's two results as the specification's arrays, given what its two scatters hold: the summed scalar
    messages and the summed vector messages. The node stage's buffers are read at an element through the stages of
    the line — the lengths of the vector features, the two perceptrons over the three context pieces, the gate,
    the normalisation — and the two results are those readings at every element. -/

namespace Cert.ReferenceIdeal.Side

open Cert.ReferenceIdeal Cert.ReferenceIdeal.Gen Cert.ReferenceIdeal.RefRun Cert.ReferenceIdeal.Stages Cert.ReferenceIdeal.Node
  Idealize.ShloMosaic Idealize.ShloMosaic.ValueIdx Idealize.ShloMosaic.StableHlo

variable (V : Valuation τ sig (Elt Ideal))

/-- The lengths of the vector features, as the function of a row and a column the specification takes. -/
theorem v70_rows :
    (fun (r : Fin 50000) (q : Fin 64) => (after (ops (F := Ideal)) V (Proc.devRef .tc main_v70)) (ix2 r q))
      = Cert.Spec.vNorm (Cert.Spec.vComp (V (Proc.devRef .tc main_arg1)) 0) (Cert.Spec.vComp (V (Proc.devRef .tc main_arg1)) 1) (Cert.Spec.vComp (V (Proc.devRef .tc main_arg1)) 2) := by
  funext r q
  rw [stage_v70 V]
  exact vNorm_read (V (Proc.devRef .tc main_arg1)) r q

/-- The updated scalar features at an element. -/
theorem v81_at (hv59 : (after (ops (F := Ideal)) V (Proc.devRef .tc main_v59)) = Cert.Spec.aggS (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))) (n : Fin 50000) (q : Fin 64) :
    (after (ops (F := Ideal)) V (Proc.devRef .tc main_v81)) (ix2 n q) = Cert.Spec.sUpd (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) n q := by
  rw [stage_v81 V]
  refine (sNew_read (V (Proc.devRef .tc main_arg0)) (after (ops (F := Ideal)) V (Proc.devRef .tc main_v59)) (after (ops (F := Ideal)) V (Proc.devRef .tc main_v70)) (V (Proc.devRef .tc main_arg16)) (V (Proc.devRef .tc main_arg17)) (V (Proc.devRef .tc main_arg18)) (V (Proc.devRef .tc main_arg19)) n q).trans ?_
  rw [v70_rows V, hv59]
  rfl

/-- The gate at an element. -/
theorem v96_at (hv59 : (after (ops (F := Ideal)) V (Proc.devRef .tc main_v59)) = Cert.Spec.aggS (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))) (n : Fin 50000) (h : Fin 64) :
    (after (ops (F := Ideal)) V (Proc.devRef .tc main_v96)) (ix2 n h) = Cert.Spec.gateAt (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg20)) (V (Proc.devRef .tc main_arg21)) (V (Proc.devRef .tc main_arg22)) (V (Proc.devRef .tc main_arg23)) n h := by
  rw [stage_v96 V]
  refine (gate_read (V (Proc.devRef .tc main_arg0)) (after (ops (F := Ideal)) V (Proc.devRef .tc main_v59)) (after (ops (F := Ideal)) V (Proc.devRef .tc main_v70)) (V (Proc.devRef .tc main_arg20)) (V (Proc.devRef .tc main_arg21)) (V (Proc.devRef .tc main_arg22)) (V (Proc.devRef .tc main_arg23)) n h).trans ?_
  rw [v70_rows V, hv59]
  rfl

/-- The first result at an element. -/
theorem outS_at (hv59 : (after (ops (F := Ideal)) V (Proc.devRef .tc main_v59)) = Cert.Spec.aggS (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))) (n : Fin 50000) (j : Fin 64) :
    (after (ops (F := Ideal)) V (Proc.devRef .tc main_v119)) (ix2 n j) = Cert.Spec.outS (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) (ix2 n j) := by
  rw [stage_v119 V, stage_v104 V, stage_v105 V]
  refine (normOut_read (after (ops (F := Ideal)) V (Proc.devRef .tc main_v81)) (V (Proc.devRef .tc main_arg24)) (V (Proc.devRef .tc main_arg25)) n j).trans ?_
  rw [show (fun q : Fin 64 => (after (ops (F := Ideal)) V (Proc.devRef .tc main_v81)) (ix2 n q)) = fun q => Cert.Spec.sUpd (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) n q from
    funext fun q => v81_at V hv59 n q]
  rfl

/-- The second result at an element. -/
theorem outV_at (hv59 : (after (ops (F := Ideal)) V (Proc.devRef .tc main_v59)) = Cert.Spec.aggS (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)))
    (hv69 : ∀ (n : Fin 50000) (h : Fin 64) (c : Fin 3), (after (ops (F := Ideal)) V (Proc.devRef .tc main_v69)) (ix3 n h c) = Cert.Spec.aggV (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) c (ix2 n h)) (n : Fin 50000) (h : Fin 64) (c : Fin 3) :
    (after (ops (F := Ideal)) V (Proc.devRef .tc main_v100)) (ix3 n h c) = Cert.Spec.outV (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg20)) (V (Proc.devRef .tc main_arg21)) (V (Proc.devRef .tc main_arg22)) (V (Proc.devRef .tc main_arg23)) (ix3 n h c) := by
  rw [stage_v100 V]
  refine (vNew_read (V (Proc.devRef .tc main_arg1)) (after (ops (F := Ideal)) V (Proc.devRef .tc main_v69)) (after (ops (F := Ideal)) V (Proc.devRef .tc main_v96)) n h c).trans ?_
  rw [hv69 n h c, v96_at V hv59 n h]
  rfl

/-- FIRST RESULT: the reference's normalised scalar features are the specification's, given the summed scalar messages. -/
theorem ref_outS_of (hv59 : (after (ops (F := Ideal)) V (Proc.devRef .tc main_v59)) = Cert.Spec.aggS (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))) :
    (after (ops (F := Ideal)) V (Proc.devRef .tc main_v119)) = Cert.Spec.outS (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) := by
  funext i
  obtain ⟨n, j, rfl⟩ : ∃ (n : Fin 50000) (j : Fin 64), i = ix2 n j := ⟨i 0, i 1, eq_ix2 i⟩
  exact outS_at V hv59 n j

/-- SECOND RESULT: the reference's new vector features are the specification's, given the two summed messages. -/
theorem ref_outV_of (hv59 : (after (ops (F := Ideal)) V (Proc.devRef .tc main_v59)) = Cert.Spec.aggS (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)))
    (hv69 : ∀ (n : Fin 50000) (h : Fin 64) (c : Fin 3), (after (ops (F := Ideal)) V (Proc.devRef .tc main_v69)) (ix3 n h c) = Cert.Spec.aggV (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) c (ix2 n h)) :
    (after (ops (F := Ideal)) V (Proc.devRef .tc main_v100)) = Cert.Spec.outV (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg20)) (V (Proc.devRef .tc main_arg21)) (V (Proc.devRef .tc main_arg22)) (V (Proc.devRef .tc main_arg23)) := by
  funext i
  obtain ⟨n, h, c, rfl⟩ : ∃ (n : Fin 50000) (h : Fin 64) (c : Fin 3), i = ix3 n h c := ⟨i 0, i 1, i 2, eq_ix3 i⟩
  exact outV_at V hv59 hv69 n h c

end Cert.ReferenceIdeal.Side

end
-- ==== Proof.RefSide.lean ====
/-
  The reference program's two results, as the layer's functions of its argument arrays.

  Under the index ranges the precondition states, the run's edge messages are the layer's (every gathered row is in
  range), hence its two segment sums over the edges are the layer's scalar and vector aggregates, and the node stage
  and the normalisation computed from them are the layer's two results.
-/
import proofs.«166758_j50929722196748_2_alg».proof.Proof.RefSide1
import proofs.«166758_j50929722196748_2_alg».proof.Proof.RefEdge
import proofs.«166758_j50929722196748_2_alg».proof.Proof.RefSide3
import proofs.«166758_j50929722196748_2_alg».proof.Proof.PreIdx

noncomputable section

open scoped BigOperators

namespace Cert.ReferenceIdeal.Side

open Cert.ReferenceIdeal Cert.ReferenceIdeal.Gen Cert.ReferenceIdeal.RefRun Cert.ReferenceIdeal.Stages
open Idealize.ShloMosaic Idealize.ShloMosaic.TcCoe Idealize.ShloMosaic.ValueIdx Idealize.SL.Sem Idealize.ShloMosaic.StableHlo

section Close
variable (V : Valuation τ sig (Elt Ideal))

/-- The run's edge messages are the layer's, for indices in range. -/
theorem ref_v54_of_ranges (hr : Cert.PreIdx.Ranges (V (Proc.devRef .tc main_arg2)) (V (Proc.devRef .tc main_arg5)) (V (Proc.devRef .tc main_arg6))) (e : Fin 800000) (n : Fin 128) :
    (after ops V (Proc.devRef .tc main_v54) : (⟨S800000x128, .f32⟩ : BufTy).Contents (Elt Ideal)) (ix2 e n)
      = Cert.Spec.edgeMsg (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) e n :=
  ref_v54 V hr.a5_ge hr.a6_ge hr.a2_ge e n

/-- The run's scalar aggregate is the layer's. -/
theorem ref_v59_of_ranges (hr : Cert.PreIdx.Ranges (V (Proc.devRef .tc main_arg2)) (V (Proc.devRef .tc main_arg5)) (V (Proc.devRef .tc main_arg6))) :
    after ops V (Proc.devRef .tc main_v59) = Cert.Spec.aggS (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  Cert.ReferenceIdeal.Edge.ref_v59 V (ref_v30 V) (ref_v54 V hr.a5_ge hr.a6_ge hr.a2_ge)

/-- The run's vector aggregate is the layer's. -/
theorem ref_v69_of_ranges (hr : Cert.PreIdx.Ranges (V (Proc.devRef .tc main_arg2)) (V (Proc.devRef .tc main_arg5)) (V (Proc.devRef .tc main_arg6))) (n : Fin 50000) (h : Fin 64) (c : Fin 3) :
    (after ops V (Proc.devRef .tc main_v69)) (ix3 n h c) = Cert.Spec.aggV (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) c (ix2 n h) :=
  Cert.ReferenceIdeal.Edge.ref_v69 V (ref_v30 V) (ref_v54 V hr.a5_ge hr.a6_ge hr.a2_ge) n h c

/-- FIRST RESULT of the reference: the layer's normalised new scalar features. -/
theorem ref_outS (hr : Cert.PreIdx.Ranges (V (Proc.devRef .tc main_arg2)) (V (Proc.devRef .tc main_arg5)) (V (Proc.devRef .tc main_arg6))) :
    after ops V (Proc.devRef .tc main_v119) = Cert.Spec.outS (V (Proc.devRef .tc main_arg0)) (V (Proc.devRef .tc main_arg1)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg24)) (V (Proc.devRef .tc main_arg25)) :=
  ref_outS_of V (ref_v59_of_ranges V hr)

/-- SECOND RESULT of the reference: the layer's new vector features. -/
theorem ref_outV (hr : Cert.PreIdx.Ranges (V (Proc.devRef .tc main_arg2)) (V (Proc.devRef .tc main_arg5)) (V (Proc.devRef .tc main_arg6))) :
    after ops V (Proc.devRef .tc main_v100) = Cert.Spec.outV (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg20)) (V (Proc.devRef .tc main_arg21)) (V (Proc.devRef .tc main_arg22)) (V (Proc.devRef .tc main_arg23)) :=
  ref_outV_of V (ref_v59_of_ranges V hr) (ref_v69_of_ranges V hr)

end Close

end Cert.ReferenceIdeal.Side

end
-- ==== Proof.Bridge.lean ====
import proofs.«166758_j50929722196748_2_alg».proof.Defs
import proofs.«166758_j50929722196748_2_alg».proof.Proof.Gen.Pre_finite_inputs
import proofs.«166758_j50929722196748_2_alg».proof.Proof.KIRun
import proofs.«166758_j50929722196748_2_alg».proof.Proof.RefRun
import proofs.«166758_j50929722196748_2_alg».proof.Proof.PreIdx
import proofs.«166758_j50929722196748_2_alg».proof.Proof.SpecArr
import proofs.«166758_j50929722196748_2_alg».proof.Proof.KISide
import proofs.«166758_j50929722196748_2_alg».proof.Proof.RefSide

/-! # The two programs compute one layer

At the ideal values both programs, run from memories that agree on the 26 arguments, end with the same two results: the
normalised new scalar features and the new vector features of the layer, as functions of the argument arrays
(`Cert.Spec.outS`, `Cert.Spec.outV`). The kernel program's run leaves every unscoped buffer at the last contents of its
chain of segments, its two result buffers among them; the reference program's run leaves its two result buffers at the fold of
its operations over the launch contents. Under the precondition the three index arrays are in range, which is what each side's
reading of its result as the layer's function needs; the arguments agree, so the two functions are applied to equal arrays. -/

noncomputable section

namespace Cert.Bridge

open Idealize.ShloMosaic Idealize.ShloMosaic.TcCoe Idealize.SL.Sem

/-- Core `c`'s launch contents of a buffer of the kernel program at the ideal values. -/
abbrev kArg (m : (ℓ : Loc Cert.KernelIdeal.nD Cert.KernelIdeal.τ Cert.KernelIdeal.sig) → Buf (Elt Ideal) ℓ) (c : Dev Cert.KernelIdeal.nD) (r : Ref Cert.KernelIdeal.sig .tc) :
    Buf (Elt Ideal) ((c.tc : Thread Cert.KernelIdeal.nD Cert.KernelIdeal.τ).loc r) :=
  m ((c.tc : Thread Cert.KernelIdeal.nD Cert.KernelIdeal.τ).loc r)

set_option maxHeartbeats 4000000 in
/-- THE CLAIM from the four end statements: the kernel side's two results as the layer's functions of the launch
    arguments (`ker_outS`, `ker_outV`), and the reference side's (`ref_outS`, `ref_outV`), each under the index ranges. -/
theorem algebraic_of
    (ker_outS : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD)
      (hr : Cert.PreIdx.Ranges (kArg m c Cert.KernelIdeal.main_arg2) (kArg m c Cert.KernelIdeal.main_arg5) (kArg m c Cert.KernelIdeal.main_arg6)),
      Cert.KernelIdeal.Hand.W12 (F := Ideal) m ρ c (Proc.devRef .tc Cert.KernelIdeal.main_v50) = Cert.Spec.outS (kArg m c Cert.KernelIdeal.main_arg0) (kArg m c Cert.KernelIdeal.main_arg1) (kArg m c Cert.KernelIdeal.main_arg2) (kArg m c Cert.KernelIdeal.main_arg3) (kArg m c Cert.KernelIdeal.main_arg5) (kArg m c Cert.KernelIdeal.main_arg6) (kArg m c Cert.KernelIdeal.main_arg7) (kArg m c Cert.KernelIdeal.main_arg8) (kArg m c Cert.KernelIdeal.main_arg9) (kArg m c Cert.KernelIdeal.main_arg10) (kArg m c Cert.KernelIdeal.main_arg11) (kArg m c Cert.KernelIdeal.main_arg12) (kArg m c Cert.KernelIdeal.main_arg13) (kArg m c Cert.KernelIdeal.main_arg14) (kArg m c Cert.KernelIdeal.main_arg15) (kArg m c Cert.KernelIdeal.main_arg16) (kArg m c Cert.KernelIdeal.main_arg17) (kArg m c Cert.KernelIdeal.main_arg18) (kArg m c Cert.KernelIdeal.main_arg19) (kArg m c Cert.KernelIdeal.main_arg24) (kArg m c Cert.KernelIdeal.main_arg25))
    (ker_outV : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD)
      (hr : Cert.PreIdx.Ranges (kArg m c Cert.KernelIdeal.main_arg2) (kArg m c Cert.KernelIdeal.main_arg5) (kArg m c Cert.KernelIdeal.main_arg6)),
      Cert.KernelIdeal.Hand.W12 (F := Ideal) m ρ c (Proc.devRef .tc Cert.KernelIdeal.main_v57) = Cert.Spec.outV (kArg m c Cert.KernelIdeal.main_arg0) (kArg m c Cert.KernelIdeal.main_arg1) (kArg m c Cert.KernelIdeal.main_arg2) (kArg m c Cert.KernelIdeal.main_arg3) (kArg m c Cert.KernelIdeal.main_arg4) (kArg m c Cert.KernelIdeal.main_arg5) (kArg m c Cert.KernelIdeal.main_arg6) (kArg m c Cert.KernelIdeal.main_arg7) (kArg m c Cert.KernelIdeal.main_arg8) (kArg m c Cert.KernelIdeal.main_arg9) (kArg m c Cert.KernelIdeal.main_arg10) (kArg m c Cert.KernelIdeal.main_arg11) (kArg m c Cert.KernelIdeal.main_arg12) (kArg m c Cert.KernelIdeal.main_arg13) (kArg m c Cert.KernelIdeal.main_arg14) (kArg m c Cert.KernelIdeal.main_arg15) (kArg m c Cert.KernelIdeal.main_arg20) (kArg m c Cert.KernelIdeal.main_arg21) (kArg m c Cert.KernelIdeal.main_arg22) (kArg m c Cert.KernelIdeal.main_arg23))
    (ref_outS : ∀ (V : Valuation Cert.ReferenceIdeal.τ Cert.ReferenceIdeal.sig (Elt Ideal))
      (hr : Cert.PreIdx.Ranges (V (Proc.devRef .tc Cert.ReferenceIdeal.main_arg2)) (V (Proc.devRef .tc Cert.ReferenceIdeal.main_arg5)) (V (Proc.devRef .tc Cert.ReferenceIdeal.main_arg6))),
      StableHlo.after (Cert.ReferenceIdeal.RefRun.ops (F := Ideal)) V (Proc.devRef .tc Cert.ReferenceIdeal.main_v119) = Cert.Spec.outS (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9)) (V (Proc.devRef .tc Cert.ReferenceIdeal.main_arg10)) (V (Proc.devRef .tc Cert.ReferenceIdeal.main_arg11)) (V (Proc.devRef .tc Cert.ReferenceIdeal.main_arg12)) (V (Proc.devRef .tc Cert.ReferenceIdeal.main_arg13)) (V (Proc.devRef .tc Cert.ReferenceIdeal.main_arg14)) (V (Proc.devRef .tc Cert.ReferenceIdeal.main_arg15)) (V (Proc.devRef .tc Cert.ReferenceIdeal.main_arg16)) (V (Proc.devRef .tc Cert.ReferenceIdeal.main_arg17)) (V (Proc.devRef .tc Cert.ReferenceIdeal.main_arg18)) (V (Proc.devRef .tc Cert.ReferenceIdeal.main_arg19)) (V (Proc.devRef .tc Cert.ReferenceIdeal.main_arg24)) (V (Proc.devRef .tc Cert.ReferenceIdeal.main_arg25)))
    (ref_outV : ∀ (V : Valuation Cert.ReferenceIdeal.τ Cert.ReferenceIdeal.sig (Elt Ideal))
      (hr : Cert.PreIdx.Ranges (V (Proc.devRef .tc Cert.ReferenceIdeal.main_arg2)) (V (Proc.devRef .tc Cert.ReferenceIdeal.main_arg5)) (V (Proc.devRef .tc Cert.ReferenceIdeal.main_arg6))),
      StableHlo.after (Cert.ReferenceIdeal.RefRun.ops (F := Ideal)) V (Proc.devRef .tc Cert.ReferenceIdeal.main_v100) = Cert.Spec.outV (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9)) (V (Proc.devRef .tc Cert.ReferenceIdeal.main_arg10)) (V (Proc.devRef .tc Cert.ReferenceIdeal.main_arg11)) (V (Proc.devRef .tc Cert.ReferenceIdeal.main_arg12)) (V (Proc.devRef .tc Cert.ReferenceIdeal.main_arg13)) (V (Proc.devRef .tc Cert.ReferenceIdeal.main_arg14)) (V (Proc.devRef .tc Cert.ReferenceIdeal.main_arg15)) (V (Proc.devRef .tc Cert.ReferenceIdeal.main_arg20)) (V (Proc.devRef .tc Cert.ReferenceIdeal.main_arg21)) (V (Proc.devRef .tc Cert.ReferenceIdeal.main_arg22)) (V (Proc.devRef .tc Cert.ReferenceIdeal.main_arg23))) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m g m' g' hpre hagree
  refine ⟨fun c => Cert.KernelIdeal.Hand.W12 (F := Ideal) m g c (Proc.devRef .tc Cert.KernelIdeal.main_v50),
    fun c => Cert.KernelIdeal.Hand.W12 (F := Ideal) m g c (Proc.devRef .tc Cert.KernelIdeal.main_v57), ?_, ?_⟩
  · exact (θ_run (Cert.KernelIdeal.defs (F := Ideal)) _ _).mono (fun r h c =>
      ⟨h c _ (Cert.KernelIdeal.Hand.mem_ucH Cert.KernelIdeal.main_v50 (by decide)), h c _ (Cert.KernelIdeal.Hand.mem_ucH Cert.KernelIdeal.main_v57 (by decide)),
        (h c _ (Cert.KernelIdeal.Hand.mem_ucH Cert.KernelIdeal.main_arg0 (by decide))).trans (Cert.KernelIdeal.Hand.W12_main_arg0 m g c),
        (h c _ (Cert.KernelIdeal.Hand.mem_ucH Cert.KernelIdeal.main_arg1 (by decide))).trans (Cert.KernelIdeal.Hand.W12_main_arg1 m g c),
        (h c _ (Cert.KernelIdeal.Hand.mem_ucH Cert.KernelIdeal.main_arg2 (by decide))).trans (Cert.KernelIdeal.Hand.W12_main_arg2 m g c),
        (h c _ (Cert.KernelIdeal.Hand.mem_ucH Cert.KernelIdeal.main_arg3 (by decide))).trans (Cert.KernelIdeal.Hand.W12_main_arg3 m g c),
        (h c _ (Cert.KernelIdeal.Hand.mem_ucH Cert.KernelIdeal.main_arg4 (by decide))).trans (Cert.KernelIdeal.Hand.W12_main_arg4 m g c),
        (h c _ (Cert.KernelIdeal.Hand.mem_ucH Cert.KernelIdeal.main_arg5 (by decide))).trans (Cert.KernelIdeal.Hand.W12_main_arg5 m g c),
        (h c _ (Cert.KernelIdeal.Hand.mem_ucH Cert.KernelIdeal.main_arg6 (by decide))).trans (Cert.KernelIdeal.Hand.W12_main_arg6 m g c),
        (h c _ (Cert.KernelIdeal.Hand.mem_ucH Cert.KernelIdeal.main_arg7 (by decide))).trans (Cert.KernelIdeal.Hand.W12_main_arg7 m g c),
        (h c _ (Cert.KernelIdeal.Hand.mem_ucH Cert.KernelIdeal.main_arg8 (by decide))).trans (Cert.KernelIdeal.Hand.W12_main_arg8 m g c),
        (h c _ (Cert.KernelIdeal.Hand.mem_ucH Cert.KernelIdeal.main_arg9 (by decide))).trans (Cert.KernelIdeal.Hand.W12_main_arg9 m g c),
        (h c _ (Cert.KernelIdeal.Hand.mem_ucH Cert.KernelIdeal.main_arg10 (by decide))).trans (Cert.KernelIdeal.Hand.W12_main_arg10 m g c),
        (h c _ (Cert.KernelIdeal.Hand.mem_ucH Cert.KernelIdeal.main_arg11 (by decide))).trans (Cert.KernelIdeal.Hand.W12_main_arg11 m g c),
        (h c _ (Cert.KernelIdeal.Hand.mem_ucH Cert.KernelIdeal.main_arg12 (by decide))).trans (Cert.KernelIdeal.Hand.W12_main_arg12 m g c),
        (h c _ (Cert.KernelIdeal.Hand.mem_ucH Cert.KernelIdeal.main_arg13 (by decide))).trans (Cert.KernelIdeal.Hand.W12_main_arg13 m g c),
        (h c _ (Cert.KernelIdeal.Hand.mem_ucH Cert.KernelIdeal.main_arg14 (by decide))).trans (Cert.KernelIdeal.Hand.W12_main_arg14 m g c),
        (h c _ (Cert.KernelIdeal.Hand.mem_ucH Cert.KernelIdeal.main_arg15 (by decide))).trans (Cert.KernelIdeal.Hand.W12_main_arg15 m g c),
        (h c _ (Cert.KernelIdeal.Hand.mem_ucH Cert.KernelIdeal.main_arg16 (by decide))).trans (Cert.KernelIdeal.Hand.W12_main_arg16 m g c),
        (h c _ (Cert.KernelIdeal.Hand.mem_ucH Cert.KernelIdeal.main_arg17 (by decide))).trans (Cert.KernelIdeal.Hand.W12_main_arg17 m g c),
        (h c _ (Cert.KernelIdeal.Hand.mem_ucH Cert.KernelIdeal.main_arg18 (by decide))).trans (Cert.KernelIdeal.Hand.W12_main_arg18 m g c),
        (h c _ (Cert.KernelIdeal.Hand.mem_ucH Cert.KernelIdeal.main_arg19 (by decide))).trans (Cert.KernelIdeal.Hand.W12_main_arg19 m g c),
        (h c _ (Cert.KernelIdeal.Hand.mem_ucH Cert.KernelIdeal.main_arg20 (by decide))).trans (Cert.KernelIdeal.Hand.W12_main_arg20 m g c),
        (h c _ (Cert.KernelIdeal.Hand.mem_ucH Cert.KernelIdeal.main_arg21 (by decide))).trans (Cert.KernelIdeal.Hand.W12_main_arg21 m g c),
        (h c _ (Cert.KernelIdeal.Hand.mem_ucH Cert.KernelIdeal.main_arg22 (by decide))).trans (Cert.KernelIdeal.Hand.W12_main_arg22 m g c),
        (h c _ (Cert.KernelIdeal.Hand.mem_ucH Cert.KernelIdeal.main_arg23 (by decide))).trans (Cert.KernelIdeal.Hand.W12_main_arg23 m g c),
        (h c _ (Cert.KernelIdeal.Hand.mem_ucH Cert.KernelIdeal.main_arg24 (by decide))).trans (Cert.KernelIdeal.Hand.W12_main_arg24 m g c),
        (h c _ (Cert.KernelIdeal.Hand.mem_ucH Cert.KernelIdeal.main_arg25 (by decide))).trans (Cert.KernelIdeal.Hand.W12_main_arg25 m g c)⟩)
      (Cert.KernelIdeal.Hand.run_all (F := Ideal) m g)
  · refine (θ_run (Cert.ReferenceIdeal.defs (F := Ideal)) _ _).mono (fun r h c => ⟨(h c).1.1.trans ?_, (h c).1.2.trans ?_, (h c).2⟩)
      (Cert.ReferenceIdeal.RefRun.run (F := Ideal) m' g')
    all_goals
      have hr : Cert.PreIdx.Ranges (kArg m c Cert.KernelIdeal.main_arg2) (kArg m c Cert.KernelIdeal.main_arg5) (kArg m c Cert.KernelIdeal.main_arg6) :=
        Cert.PreIdx.ranges_of_fn _ _ _ _ _ _ _ _ _ _ _ _ _ _ _ _ _ _ _ _ _ _ _ _ _ _ (hpre c)
      obtain ⟨e0, e1, e2, e3, e4, e5, e6, e7, e8, e9, e10, e11, e12, e13, e14, e15, e16, e17, e18, e19, e20, e21, e22, e23, e24, e25⟩ := hagree c
      have hr' : Cert.PreIdx.Ranges (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) := by
        rw [e2, e5, e6]; exact hr
    · show StableHlo.after (Cert.ReferenceIdeal.RefRun.ops (F := Ideal)) (fun b => m' (c, b)) (Proc.devRef .tc Cert.ReferenceIdeal.main_v119)
        = Cert.KernelIdeal.Hand.W12 (F := Ideal) m g c (Proc.devRef .tc Cert.KernelIdeal.main_v50)
      rw [ker_outS m g c hr, ref_outS (fun b => m' (c, b)) hr']
      show Cert.Spec.outS (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) = _
      rw [e0, e1, e2, e3, e5, e6, e7, e8, e9, e10, e11, e12, e13, e14, e15, e16, e17, e18, e19, e24, e25]
    · show StableHlo.after (Cert.ReferenceIdeal.RefRun.ops (F := Ideal)) (fun b => m' (c, b)) (Proc.devRef .tc Cert.ReferenceIdeal.main_v100)
        = Cert.KernelIdeal.Hand.W12 (F := Ideal) m g c (Proc.devRef .tc Cert.KernelIdeal.main_v57)
      rw [ker_outV m g c hr, ref_outV (fun b => m' (c, b)) hr']
      show Cert.Spec.outV (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) = _
      rw [e0, e1, e2, e3, e4, e5, e6, e7, e8, e9, e10, e11, e12, e13, e14, e15, e20, e21, e22, e23]

/-- THE CLAIM: the four end statements supplied, the kernel side's from the chain of segments and the three regions'
    closed forms, the reference side's from the fold of its operations. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  algebraic_of Cert.KernelIdeal.Hand.ker_outS Cert.KernelIdeal.Hand.ker_outV Cert.ReferenceIdeal.Side.ref_outS Cert.ReferenceIdeal.Side.ref_outV

end Cert.Bridge

end
-- ==== Proof.lean ====
/-
  The claim's five conjuncts for one message-passing layer (triplet perceptron, edge perceptron with direction gating,
  node update with layer normalisation), stated under the precondition that every float input is finite and every index
  array indexes inside the array it is used on.

  * The two kernel programs (at words and at extended reals) run to the end with their arguments unchanged: @main is a chain
    of nine host stretches and three kernel regions; each region's grid points each load their blocks, compute, and store one
    output block, so every region leaves all buffers but its output array as it found them (Proof/KRun.lean, Proof/KIRun.lean
    over Proof/KRegion*.lean, Proof/KIRegion*.lean).
  * The reference program is a straight line of host operations (Proof/RefRun.lean).
  * The idealisation rewrote nothing, so there is nothing to preserve.
  * At extended reals the two programs' results agree index by index (Proof/Bridge.lean): both are the same row functions
    (Proof/Spec.lean) of the same gathered rows; the kernel adds its first-layer products piece by piece where the reference
    multiplies one concatenated row, sums one packed array where the reference sums two, and multiplies by (var + ε)^{-1/2}
    where the reference divides by its square root, and var + ε is positive for every extended real because a square is never
    negative.
-/
import proofs.«166758_j50929722196748_2_alg».proof.Defs
import proofs.«166758_j50929722196748_2_alg».proof.Proof.Gen.Kernel
import proofs.«166758_j50929722196748_2_alg».proof.Proof.Gen.KernelIdeal
import proofs.«166758_j50929722196748_2_alg».proof.Proof.Gen.ReferenceIdeal
import proofs.«166758_j50929722196748_2_alg».proof.Proof.Gen.Pre_finite_inputs
import proofs.«166758_j50929722196748_2_alg».proof.Proof.KRun
import proofs.«166758_j50929722196748_2_alg».proof.Proof.KIRun
import proofs.«166758_j50929722196748_2_alg».proof.Proof.RefRun
import proofs.«166758_j50929722196748_2_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.frame_ri (hPre := Cert.Pre_finite_inputs.Gen.facts),
  trivial,
  Cert.Bridge.algebraic⟩

end Cert.Proof

end
